-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x601 : Shape := ⟨3, ![32, 2048, 601]⟩
abbrev S601x601 : Shape := ⟨2, ![601, 601]⟩
abbrev S1 : Shape := ⟨1, ![1]⟩
abbrev S_ : Shape := ⟨0, ![]⟩

class Facts : Prop where
  bcast_S_S32x2048x601 : S_.BroadcastsInDim S32x2048x601 (![] : Fin 0 → Fin S32x2048x601.rank)
  reducesTo_S32x2048x601_S_d0_1_2 : S32x2048x601.ReducesTo [0, 1, 2] S_
  h_S_ : 0 < S_.numel
  bcast_S_S601x601 : S_.BroadcastsInDim S601x601 (![] : Fin 0 → Fin S601x601.rank)
  reducesTo_S601x601_S_d0_1 : S601x601.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S32x2048x601 .f32) (main_arg1 : FVec F S601x601 .f32) (main_arg2 : FVec F S1 .f32) : IVec S_ 1 :=
  let main_v0 : FVec F S32x2048x601 .f32 := Host.absf main_arg0
  let main_cst : FVec F S_ .f32 := constant S_ .f32 0x7F800000#32
  let main_v1 : FVec F S32x2048x601 .f32 := broadcastInDim S32x2048x601 ![] bcast_S_S32x2048x601 main_cst
  let main_v2 : IVec S32x2048x601 1 := cmpf .olt main_v0 main_v1
  let main_c : IVec S_ 1 := constantI S_ 1 1#1
  let main_v3 : IVec S_ 1 := (fun x v => Host.reduce IntOp.andi x v reducesTo_S32x2048x601_S_d0_1_2 h_S_) main_v2 main_c
  let main_v4 : FVec F S601x601 .f32 := Host.absf main_arg1
  let main_cst_0 : FVec F S_ .f32 := constant S_ .f32 0x7F800000#32
  let main_v5 : FVec F S601x601 .f32 := broadcastInDim S601x601 ![] bcast_S_S601x601 main_cst_0
  let main_v6 : IVec S601x601 1 := cmpf .olt main_v4 main_v5
  let main_c_1 : IVec S_ 1 := constantI S_ 1 1#1
  let main_v7 : IVec S_ 1 := (fun x v => Host.reduce IntOp.andi x v reducesTo_S601x601_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S32x2048x601 : Shape := ⟨3, ![32, 2048, 601]⟩
abbrev S601x601 : Shape := ⟨2, ![601, 601]⟩
abbrev S1 : Shape := ⟨1, ![1]⟩
abbrev S_ : Shape := ⟨0, ![]⟩
abbrev S32x601 : Shape := ⟨2, ![32, 601]⟩
abbrev S8x256x601 : Shape := ⟨3, ![8, 256, 601]⟩
abbrev S8x601 : Shape := ⟨2, ![8, 601]⟩
abbrev S8x256 : Shape := ⟨2, ![8, 256]⟩
abbrev S8x256x1 : Shape := ⟨3, ![8, 256, 1]⟩
abbrev S8x1x601 : Shape := ⟨3, ![8, 1, 601]⟩

abbrev nBuf : Space → Nat
  | .hbm => 44
  | .vmem => 120
  | .smem => 0
  | _ => 0

abbrev bufTy : (tb : Table) → Fin (tcTables nBuf tb) → BufTy
  | .hbm, ⟨0, _⟩ => ⟨S32x2048x601, .f32⟩
  | .hbm, ⟨1, _⟩ => ⟨S601x601, .f32⟩
  | .hbm, ⟨2, _⟩ => ⟨S1, .f32⟩
  | .hbm, ⟨3, _⟩ => ⟨S_, .f32⟩
  | .hbm, ⟨4, _⟩ => ⟨S32x601, .f32⟩
  | .hbm, ⟨5, _⟩ => ⟨S32x601, .f32⟩
  | .hbm, ⟨6, _⟩ => ⟨S32x601, .f32⟩
  | .hbm, ⟨7, _⟩ => ⟨S32x2048x601, .f32⟩
  | .hbm, ⟨8, _⟩ => ⟨S32x601, .f32⟩
  | .hbm, ⟨9, _⟩ => ⟨S32x601, .f32⟩
  | .hbm, ⟨10, _⟩ => ⟨S32x601, .f32⟩
  | .hbm, ⟨11, _⟩ => ⟨S32x2048x601, .f32⟩
  | .hbm, ⟨12, _⟩ => ⟨S32x601, .f32⟩
  | .hbm, ⟨13, _⟩ => ⟨S32x601, .f32⟩
  | .hbm, ⟨14, _⟩ => ⟨S32x601, .f32⟩
  | .hbm, ⟨15, _⟩ => ⟨S32x2048x601, .f32⟩
  | .hbm, ⟨16, _⟩ => ⟨S32x601, .f32⟩
  | .hbm, ⟨17, _⟩ => ⟨S32x601, .f32⟩
  | .hbm, ⟨18, _⟩ => ⟨S32x601, .f32⟩
  | .hbm, ⟨19, _⟩ => ⟨S32x2048x601, .f32⟩
  | .hbm, ⟨20, _⟩ => ⟨S32x601, .f32⟩
  | .hbm, ⟨21, _⟩ => ⟨S32x601, .f32⟩
  | .hbm, ⟨22, _⟩ => ⟨S32x601, .f32⟩
  | .hbm, ⟨23, _⟩ => ⟨S32x2048x601, .f32⟩
  | .hbm, ⟨24, _⟩ => ⟨S32x601, .f32⟩
  | .hbm, ⟨25, _⟩ => ⟨S32x601, .f32⟩
  | .hbm, ⟨26, _⟩ => ⟨S32x601, .f32⟩
  | .hbm, ⟨27, _⟩ => ⟨S32x2048x601, .f32⟩
  | .hbm, ⟨28, _⟩ => ⟨S32x601, .f32⟩
  | .hbm, ⟨29, _⟩ => ⟨S32x601, .f32⟩
  | .hbm, ⟨30, _⟩ => ⟨S32x601, .f32⟩
  | .hbm, ⟨31, _⟩ => ⟨S32x2048x601, .f32⟩
  | .hbm, ⟨32, _⟩ => ⟨S32x601, .f32⟩
  | .hbm, ⟨33, _⟩ => ⟨S32x601, .f32⟩
  | .hbm, ⟨34, _⟩ => ⟨S32x601, .f32⟩
  | .hbm, ⟨35, _⟩ => ⟨S32x2048x601, .f32⟩
  | .hbm, ⟨36, _⟩ => ⟨S32x601, .f32⟩
  | .hbm, ⟨37, _⟩ => ⟨S32x601, .f32⟩
  | .hbm, ⟨38, _⟩ => ⟨S32x601, .f32⟩
  | .hbm, ⟨39, _⟩ => ⟨S32x2048x601, .f32⟩
  | .hbm, ⟨40, _⟩ => ⟨S32x601, .f32⟩
  | .hbm, ⟨41, _⟩ => ⟨S32x601, .f32⟩
  | .hbm, ⟨42, _⟩ => ⟨S32x601, .f32⟩
  | .hbm, ⟨43, _⟩ => ⟨S32x2048x601, .f32⟩
  | .local _ .vmem, ⟨0, _⟩ => ⟨S8x256x601, .f32⟩
  | .local _ .vmem, ⟨1, _⟩ => ⟨S8x256x601, .f32⟩
  | .local _ .vmem, ⟨2, _⟩ => ⟨S601x601, .f32⟩
  | .local _ .vmem, ⟨3, _⟩ => ⟨S8x601, .f32⟩
  | .local _ .vmem, ⟨4, _⟩ => ⟨S8x601, .f32⟩
  | .local _ .vmem, ⟨5, _⟩ => ⟨S8x601, .f32⟩
  | .local _ .vmem, ⟨6, _⟩ => ⟨S8x256x601, .f32⟩
  | .local _ .vmem, ⟨7, _⟩ => ⟨S8x256x601, .f32⟩
  | .local _ .vmem, ⟨8, _⟩ => ⟨S8x601, .f32⟩
  | .local _ .vmem, ⟨9, _⟩ => ⟨S8x601, .f32⟩
  | .local _ .vmem, ⟨10, _⟩ => ⟨S8x256x601, .f32⟩
  | .local _ .vmem, ⟨11, _⟩ => ⟨S8x256x601, .f32⟩
  | .local _ .vmem, ⟨12, _⟩ => ⟨S8x256x601, .f32⟩
  | .local _ .vmem, ⟨13, _⟩ => ⟨S8x256x601, .f32⟩
  | .local _ .vmem, ⟨14, _⟩ => ⟨S601x601, .f32⟩
  | .local _ .vmem, ⟨15, _⟩ => ⟨S8x601, .f32⟩
  | .local _ .vmem, ⟨16, _⟩ => ⟨S8x601, .f32⟩
  | .local _ .vmem, ⟨17, _⟩ => ⟨S8x601, .f32⟩
  | .local _ .vmem, ⟨18, _⟩ => ⟨S8x256x601, .f32⟩
  | .local _ .vmem, ⟨19, _⟩ => ⟨S8x256x601, .f32⟩
  | .local _ .vmem, ⟨20, _⟩ => ⟨S8x601, .f32⟩
  | .local _ .vmem, ⟨21, _⟩ => ⟨S8x601, .f32⟩
  | .local _ .vmem, ⟨22, _⟩ => ⟨S8x256x601, .f32⟩
  | .local _ .vmem, ⟨23, _⟩ => ⟨S8x256x601, .f32⟩
  | .local _ .vmem, ⟨24, _⟩ => ⟨S8x256x601, .f32⟩
  | .local _ .vmem, ⟨25, _⟩ => ⟨S8x256x601, .f32⟩
  | .local _ .vmem, ⟨26, _⟩ => ⟨S601x601, .f32⟩
  | .local _ .vmem, ⟨27, _⟩ => ⟨S8x601, .f32⟩
  | .local _ .vmem, ⟨28, _⟩ => ⟨S8x601, .f32⟩
  | .local _ .vmem, ⟨29, _⟩ => ⟨S8x601, .f32⟩
  | .local _ .vmem, ⟨30, _⟩ => ⟨S8x256x601, .f32⟩
  | .local _ .vmem, ⟨31, _⟩ => ⟨S8x256x601, .f32⟩
  | .local _ .vmem, ⟨32, _⟩ => ⟨S8x601, .f32⟩
  | .local _ .vmem, ⟨33, _⟩ => ⟨S8x601, .f32⟩
  | .local _ .vmem, ⟨34, _⟩ => ⟨S8x256x601, .f32⟩
  | .local _ .vmem, ⟨35, _⟩ => ⟨S8x256x601, .f32⟩
  | .local _ .vmem, ⟨36, _⟩ => ⟨S8x256x601, .f32⟩
  | .local _ .vmem, ⟨37, _⟩ => ⟨S8x256x601, .f32⟩
  | .local _ .vmem, ⟨38, _⟩ => ⟨S601x601, .f32⟩
  | .local _ .vmem, ⟨39, _⟩ => ⟨S8x601, .f32⟩
  | .local _ .vmem, ⟨40, _⟩ => ⟨S8x601, .f32⟩
  | .local _ .vmem, ⟨41, _⟩ => ⟨S8x601, .f32⟩
  | .local _ .vmem, ⟨42, _⟩ => ⟨S8x256x601, .f32⟩
  | .local _ .vmem, ⟨43, _⟩ => ⟨S8x256x601, .f32⟩
  | .local _ .vmem, ⟨44, _⟩ => ⟨S8x601, .f32⟩
  | .local _ .vmem, ⟨45, _⟩ => ⟨S8x601, .f32⟩
  | .local _ .vmem, ⟨46, _⟩ => ⟨S8x256x601, .f32⟩
  | .local _ .vmem, ⟨47, _⟩ => ⟨S8x256x601, .f32⟩
  | .local _ .vmem, ⟨48, _⟩ => ⟨S8x256x601, .f32⟩
  | .local _ .vmem, ⟨49, _⟩ => ⟨S8x256x601, .f32⟩
  | .local _ .vmem, ⟨50, _⟩ => ⟨S601x601, .f32⟩
  | .local _ .vmem, ⟨51, _⟩ => ⟨S8x601, .f32⟩
  | .local _ .vmem, ⟨52, _⟩ => ⟨S8x601, .f32⟩
  | .local _ .vmem, ⟨53, _⟩ => ⟨S8x601, .f32⟩
  | .local _ .vmem, ⟨54, _⟩ => ⟨S8x256x601, .f32⟩
  | .local _ .vmem, ⟨55, _⟩ => ⟨S8x256x601, .f32⟩
  | .local _ .vmem, ⟨56, _⟩ => ⟨S8x601, .f32⟩
  | .local _ .vmem, ⟨57, _⟩ => ⟨S8x601, .f32⟩
  | .local _ .vmem, ⟨58, _⟩ => ⟨S8x256x601, .f32⟩
  | .local _ .vmem, ⟨59, _⟩ => ⟨S8x256x601, .f32⟩
  | .local _ .vmem, ⟨60, _⟩ => ⟨S8x256x601, .f32⟩
  | .local _ .vmem, ⟨61, _⟩ => ⟨S8x256x601, .f32⟩
  | .local _ .vmem, ⟨62, _⟩ => ⟨S601x601, .f32⟩
  | .local _ .vmem, ⟨63, _⟩ => ⟨S8x601, .f32⟩
  | .local _ .vmem, ⟨64, _⟩ => ⟨S8x601, .f32⟩
  | .local _ .vmem, ⟨65, _⟩ => ⟨S8x601, .f32⟩
  | .local _ .vmem, ⟨66, _⟩ => ⟨S8x256x601, .f32⟩
  | .local _ .vmem, ⟨67, _⟩ => ⟨S8x256x601, .f32⟩
  | .local _ .vmem, ⟨68, _⟩ => ⟨S8x601, .f32⟩
  | .local _ .vmem, ⟨69, _⟩ => ⟨S8x601, .f32⟩
  | .local _ .vmem, ⟨70, _⟩ => ⟨S8x256x601, .f32⟩
  | .local _ .vmem, ⟨71, _⟩ => ⟨S8x256x601, .f32⟩
  | .local _ .vmem, ⟨72, _⟩ => ⟨S8x256x601, .f32⟩
  | .local _ .vmem, ⟨73, _⟩ => ⟨S8x256x601, .f32⟩
  | .local _ .vmem, ⟨74, _⟩ => ⟨S601x601, .f32⟩
  | .local _ .vmem, ⟨75, _⟩ => ⟨S8x601, .f32⟩
  | .local _ .vmem, ⟨76, _⟩ => ⟨S8x601, .f32⟩
  | .local _ .vmem, ⟨77, _⟩ => ⟨S8x601, .f32⟩
  | .local _ .vmem, ⟨78, _⟩ => ⟨S8x256x601, .f32⟩
  | .local _ .vmem, ⟨79, _⟩ => ⟨S8x256x601, .f32⟩
  | .local _ .vmem, ⟨80, _⟩ => ⟨S8x601, .f32⟩
  | .local _ .vmem, ⟨81, _⟩ => ⟨S8x601, .f32⟩
  | .local _ .vmem, ⟨82, _⟩ => ⟨S8x256x601, .f32⟩
  | .local _ .vmem, ⟨83, _⟩ => ⟨S8x256x601, .f32⟩
  | .local _ .vmem, ⟨84, _⟩ => ⟨S8x256x601, .f32⟩
  | .local _ .vmem, ⟨85, _⟩ => ⟨S8x256x601, .f32⟩
  | .local _ .vmem, ⟨86, _⟩ => ⟨S601x601, .f32⟩
  | .local _ .vmem, ⟨87, _⟩ => ⟨S8x601, .f32⟩
  | .local _ .vmem, ⟨88, _⟩ => ⟨S8x601, .f32⟩
  | .local _ .vmem, ⟨89, _⟩ => ⟨S8x601, .f32⟩
  | .local _ .vmem, ⟨90, _⟩ => ⟨S8x256x601, .f32⟩
  | .local _ .vmem, ⟨91, _⟩ => ⟨S8x256x601, .f32⟩
  | .local _ .vmem, ⟨92, _⟩ => ⟨S8x601, .f32⟩
  | .local _ .vmem, ⟨93, _⟩ => ⟨S8x601, .f32⟩
  | .local _ .vmem, ⟨94, _⟩ => ⟨S8x256x601, .f32⟩
  | .local _ .vmem, ⟨95, _⟩ => ⟨S8x256x601, .f32⟩
  | .local _ .vmem, ⟨96, _⟩ => ⟨S8x256x601, .f32⟩
  | .local _ .vmem, ⟨97, _⟩ => ⟨S8x256x601, .f32⟩
  | .local _ .vmem, ⟨98, _⟩ => ⟨S601x601, .f32⟩
  | .local _ .vmem, ⟨99, _⟩ => ⟨S8x601, .f32⟩
  | .local _ .vmem, ⟨100, _⟩ => ⟨S8x601, .f32⟩
  | .local _ .vmem, ⟨101, _⟩ => ⟨S8x601, .f32⟩
  | .local _ .vmem, ⟨102, _⟩ => ⟨S8x256x601, .f32⟩
  | .local _ .vmem, ⟨103, _⟩ => ⟨S8x256x601, .f32⟩
  | .local _ .vmem, ⟨104, _⟩ => ⟨S8x601, .f32⟩
  | .local _ .vmem, ⟨105, _⟩ => ⟨S8x601, .f32⟩
  | .local _ .vmem, ⟨106, _⟩ => ⟨S8x256x601, .f32⟩
  | .local _ .vmem, ⟨107, _⟩ => ⟨S8x256x601, .f32⟩
  | .local _ .vmem, ⟨108, _⟩ => ⟨S8x256x601, .f32⟩
  | .local _ .vmem, ⟨109, _⟩ => ⟨S8x256x601, .f32⟩
  | .local _ .vmem, ⟨110, _⟩ => ⟨S601x601, .f32⟩
  | .local _ .vmem, ⟨111, _⟩ => ⟨S8x601, .f32⟩
  | .local _ .vmem, ⟨112, _⟩ => ⟨S8x601, .f32⟩
  | .local _ .vmem, ⟨113, _⟩ => ⟨S8x601, .f32⟩
  | .local _ .vmem, ⟨114, _⟩ => ⟨S8x256x601, .f32⟩
  | .local _ .vmem, ⟨115, _⟩ => ⟨S8x256x601, .f32⟩
  | .local _ .vmem, ⟨116, _⟩ => ⟨S8x601, .f32⟩
  | .local _ .vmem, ⟨117, _⟩ => ⟨S8x601, .f32⟩
  | .local _ .vmem, ⟨118, _⟩ => ⟨S8x256x601, .f32⟩
  | .local _ .vmem, ⟨119, _⟩ => ⟨S8x256x601, .f32⟩
  | _, _ => ⟨S32x2048x601, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 110 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | _ => false

abbrev sig : RefSig :=
  ofTc nBuf bufTy 0 110 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc4_scratch0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc6_scratch0 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc8_scratch0 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg2_1 : Ref sig .tc := ⟨.vmem, 64, rfl⟩
abbrev cc10_scratch0 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg1_1 : Ref sig .tc := ⟨.vmem, 69, rfl⟩
abbrev cc11_stg2_0 : Ref sig .tc := ⟨.vmem, 70, rfl⟩
abbrev cc11_stg2_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg2_0 : Ref sig .tc := ⟨.vmem, 75, rfl⟩
abbrev cc12_stg2_1 : Ref sig .tc := ⟨.vmem, 76, rfl⟩
abbrev cc12_scratch0 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg1_1 : Ref sig .tc := ⟨.vmem, 81, rfl⟩
abbrev cc13_stg2_0 : Ref sig .tc := ⟨.vmem, 82, rfl⟩
abbrev cc13_stg2_1 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg2_0 : Ref sig .tc := ⟨.vmem, 87, rfl⟩
abbrev cc14_stg2_1 : Ref sig .tc := ⟨.vmem, 88, rfl⟩
abbrev cc14_scratch0 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg1_1 : Ref sig .tc := ⟨.vmem, 93, rfl⟩
abbrev cc15_stg2_0 : Ref sig .tc := ⟨.vmem, 94, rfl⟩
abbrev cc15_stg2_1 : Ref sig .tc := ⟨.vmem, 95, rfl⟩
abbrev cc16_stg0_0 : Ref sig .tc := ⟨.vmem, 96, rfl⟩
abbrev cc16_stg0_1 : Ref sig .tc := ⟨.vmem, 97, rfl⟩
abbrev cc16_stg1_0 : Ref sig .tc := ⟨.vmem, 98, rfl⟩
abbrev cc16_stg2_0 : Ref sig .tc := ⟨.vmem, 99, rfl⟩
abbrev cc16_stg2_1 : Ref sig .tc := ⟨.vmem, 100, rfl⟩
abbrev cc16_scratch0 : Ref sig .tc := ⟨.vmem, 101, rfl⟩
abbrev cc17_stg0_0 : Ref sig .tc := ⟨.vmem, 102, rfl⟩
abbrev cc17_stg0_1 : Ref sig .tc := ⟨.vmem, 103, rfl⟩
abbrev cc17_stg1_0 : Ref sig .tc := ⟨.vmem, 104, rfl⟩
abbrev cc17_stg1_1 : Ref sig .tc := ⟨.vmem, 105, rfl⟩
abbrev cc17_stg2_0 : Ref sig .tc := ⟨.vmem, 106, rfl⟩
abbrev cc17_stg2_1 : Ref sig .tc := ⟨.vmem, 107, rfl⟩
abbrev cc18_stg0_0 : Ref sig .tc := ⟨.vmem, 108, rfl⟩
abbrev cc18_stg0_1 : Ref sig .tc := ⟨.vmem, 109, rfl⟩
abbrev cc18_stg1_0 : Ref sig .tc := ⟨.vmem, 110, rfl⟩
abbrev cc18_stg2_0 : Ref sig .tc := ⟨.vmem, 111, rfl⟩
abbrev cc18_stg2_1 : Ref sig .tc := ⟨.vmem, 112, rfl⟩
abbrev cc18_scratch0 : Ref sig .tc := ⟨.vmem, 113, rfl⟩
abbrev cc19_stg0_0 : Ref sig .tc := ⟨.vmem, 114, rfl⟩
abbrev cc19_stg0_1 : Ref sig .tc := ⟨.vmem, 115, rfl⟩
abbrev cc19_stg1_0 : Ref sig .tc := ⟨.vmem, 116, rfl⟩
abbrev cc19_stg1_1 : Ref sig .tc := ⟨.vmem, 117, rfl⟩
abbrev cc19_stg2_0 : Ref sig .tc := ⟨.vmem, 118, rfl⟩
abbrev cc19_stg2_1 : Ref sig .tc := ⟨.vmem, 119, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem1_1 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem1_1 : DmaSem sig := 52
abbrev cc9_sem2_0 : DmaSem sig := 53
abbrev cc9_sem2_1 : DmaSem sig := 54
abbrev cc10_sem0_0 : DmaSem sig := 55
abbrev cc10_sem0_1 : DmaSem sig := 56
abbrev cc10_sem1_0 : DmaSem sig := 57
abbrev cc10_sem2_0 : DmaSem sig := 58
abbrev cc10_sem2_1 : DmaSem sig := 59
abbrev cc11_sem0_0 : DmaSem sig := 60
abbrev cc11_sem0_1 : DmaSem sig := 61
abbrev cc11_sem1_0 : DmaSem sig := 62
abbrev cc11_sem1_1 : DmaSem sig := 63
abbrev cc11_sem2_0 : DmaSem sig := 64
abbrev cc11_sem2_1 : DmaSem sig := 65
abbrev cc12_sem0_0 : DmaSem sig := 66
abbrev cc12_sem0_1 : DmaSem sig := 67
abbrev cc12_sem1_0 : DmaSem sig := 68
abbrev cc12_sem2_0 : DmaSem sig := 69
abbrev cc12_sem2_1 : DmaSem sig := 70
abbrev cc13_sem0_0 : DmaSem sig := 71
abbrev cc13_sem0_1 : DmaSem sig := 72
abbrev cc13_sem1_0 : DmaSem sig := 73
abbrev cc13_sem1_1 : DmaSem sig := 74
abbrev cc13_sem2_0 : DmaSem sig := 75
abbrev cc13_sem2_1 : DmaSem sig := 76
abbrev cc14_sem0_0 : DmaSem sig := 77
abbrev cc14_sem0_1 : DmaSem sig := 78
abbrev cc14_sem1_0 : DmaSem sig := 79
abbrev cc14_sem2_0 : DmaSem sig := 80
abbrev cc14_sem2_1 : DmaSem sig := 81
abbrev cc15_sem0_0 : DmaSem sig := 82
abbrev cc15_sem0_1 : DmaSem sig := 83
abbrev cc15_sem1_0 : DmaSem sig := 84
abbrev cc15_sem1_1 : DmaSem sig := 85
abbrev cc15_sem2_0 : DmaSem sig := 86
abbrev cc15_sem2_1 : DmaSem sig := 87
abbrev cc16_sem0_0 : DmaSem sig := 88
abbrev cc16_sem0_1 : DmaSem sig := 89
abbrev cc16_sem1_0 : DmaSem sig := 90
abbrev cc16_sem2_0 : DmaSem sig := 91
abbrev cc16_sem2_1 : DmaSem sig := 92
abbrev cc17_sem0_0 : DmaSem sig := 93
abbrev cc17_sem0_1 : DmaSem sig := 94
abbrev cc17_sem1_0 : DmaSem sig := 95
abbrev cc17_sem1_1 : DmaSem sig := 96
abbrev cc17_sem2_0 : DmaSem sig := 97
abbrev cc17_sem2_1 : DmaSem sig := 98
abbrev cc18_sem0_0 : DmaSem sig := 99
abbrev cc18_sem0_1 : DmaSem sig := 100
abbrev cc18_sem1_0 : DmaSem sig := 101
abbrev cc18_sem2_0 : DmaSem sig := 102
abbrev cc18_sem2_1 : DmaSem sig := 103
abbrev cc19_sem0_0 : DmaSem sig := 104
abbrev cc19_sem0_1 : DmaSem sig := 105
abbrev cc19_sem1_0 : DmaSem sig := 106
abbrev cc19_sem1_1 : DmaSem sig := 107
abbrev cc19_sem2_0 : DmaSem sig := 108
abbrev cc19_sem2_1 : DmaSem sig := 109

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_10 : BitVec 32 := 0#32
  let v23 : BitVec 1 := Scalar.cmpi .ne v22 c0_i32_10
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x601 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S601x601 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x601 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x256x601 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x601 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x256x601 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_10 : BitVec 32 := 0#32
  let v24 : BitVec 1 := Scalar.cmpi .ne v23 c0_i32_10
  v24

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8x256x601 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S601x601 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S8x601 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S8x256x601 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S8x601 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S8x256x601 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 8], ![false, false]⟩

def k4_cond2 (i : grid4.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_10 : BitVec 32 := 0#32
  let v24 : BitVec 1 := Scalar.cmpi .ne v23 c0_i32_10
  v24

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S8x256x601 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S601x601 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S8x601 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![4, 8], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S8x256x601 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S8x601 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S8x256x601 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![4, 8], ![false, false]⟩

def k6_cond2 (i : grid6.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_10 : BitVec 32 := 0#32
  let v24 : BitVec 1 := Scalar.cmpi .ne v23 c0_i32_10
  v24

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S8x256x601 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S601x601 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 2 → Memref sig .tc .vmem S8x601 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![4, 8], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage7_0 : Fin 2 → Memref sig .tc .vmem S8x256x601 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S8x601 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S8x256x601 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![4, 8], ![false, false]⟩

def k8_cond2 (i : grid8.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_10 : BitVec 32 := 0#32
  let v24 : BitVec 1 := Scalar.cmpi .ne v23 c0_i32_10
  v24

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S8x256x601 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S601x601 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 2 → Memref sig .tc .vmem S8x601 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨2, ![4, 8], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_2 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage9_0 : Fin 2 → Memref sig .tc .vmem S8x256x601 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S8x601 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S8x256x601 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![4, 8], ![false, false]⟩

def k10_cond2 (i : grid10.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_10 : BitVec 32 := 0#32
  let v24 : BitVec 1 := Scalar.cmpi .ne v23 c0_i32_10
  v24

def cc10_transform_0 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S8x256x601 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 1 → Memref sig .tc .vmem S601x601 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, false]

abbrev stage10_2 : Fin 2 → Memref sig .tc .vmem S8x601 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev grid11 : Pipeline.Grid := ⟨2, ![4, 8], ![false, false]⟩

def cc11_transform_0 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_2 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage11_0 : Fin 2 → Memref sig .tc .vmem S8x256x601 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S8x601 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev stage11_2 : Fin 2 → Memref sig .tc .vmem S8x256x601 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨2, ![4, 8], ![false, false]⟩

def k12_cond2 (i : grid12.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_10 : BitVec 32 := 0#32
  let v24 : BitVec 1 := Scalar.cmpi .ne v23 c0_i32_10
  v24

def cc12_transform_0 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 2 → Memref sig .tc .vmem S8x256x601 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 1 → Memref sig .tc .vmem S601x601 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, false]

abbrev stage12_2 : Fin 2 → Memref sig .tc .vmem S8x601 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false]

abbrev grid13 : Pipeline.Grid := ⟨2, ![4, 8], ![false, false]⟩

def cc13_transform_0 (i : grid13.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_2 (i : grid13.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage13_0 : Fin 2 → Memref sig .tc .vmem S8x256x601 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 2 → Memref sig .tc .vmem S8x601 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true, false]

abbrev stage13_2 : Fin 2 → Memref sig .tc .vmem S8x256x601 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true]

abbrev grid14 : Pipeline.Grid := ⟨2, ![4, 8], ![false, false]⟩

def k14_cond2 (i : grid14.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_10 : BitVec 32 := 0#32
  let v24 : BitVec 1 := Scalar.cmpi .ne v23 c0_i32_10
  v24

def cc14_transform_0 (i : grid14.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage14_0 : Fin 2 → Memref sig .tc .vmem S8x256x601 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, true]

abbrev stage14_1 : Fin 1 → Memref sig .tc .vmem S601x601 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false, false]

abbrev stage14_2 : Fin 2 → Memref sig .tc .vmem S8x601 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, false]

abbrev grid15 : Pipeline.Grid := ⟨2, ![4, 8], ![false, false]⟩

def cc15_transform_0 (i : grid15.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc15_transform_2 (i : grid15.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage15_0 : Fin 2 → Memref sig .tc .vmem S8x256x601 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, true]

abbrev stage15_1 : Fin 2 → Memref sig .tc .vmem S8x601 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true, false]

abbrev stage15_2 : Fin 2 → Memref sig .tc .vmem S8x256x601 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, true]

abbrev grid16 : Pipeline.Grid := ⟨2, ![4, 8], ![false, false]⟩

def k16_cond2 (i : grid16.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_10 : BitVec 32 := 0#32
  let v24 : BitVec 1 := Scalar.cmpi .ne v23 c0_i32_10
  v24

def cc16_transform_0 (i : grid16.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage16_0 : Fin 2 → Memref sig .tc .vmem S8x256x601 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, true]

abbrev stage16_1 : Fin 1 → Memref sig .tc .vmem S601x601 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false, false]

abbrev stage16_2 : Fin 2 → Memref sig .tc .vmem S8x601 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true, false]

abbrev grid17 : Pipeline.Grid := ⟨2, ![4, 8], ![false, false]⟩

def cc17_transform_0 (i : grid17.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc17_transform_1 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc17_transform_2 (i : grid17.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage17_0 : Fin 2 → Memref sig .tc .vmem S8x256x601 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, true]

abbrev stage17_1 : Fin 2 → Memref sig .tc .vmem S8x601 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true, false]

abbrev stage17_2 : Fin 2 → Memref sig .tc .vmem S8x256x601 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true, true]

abbrev grid18 : Pipeline.Grid := ⟨2, ![4, 8], ![false, false]⟩

def k18_cond2 (i : grid18.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_10 : BitVec 32 := 0#32
  let v24 : BitVec 1 := Scalar.cmpi .ne v23 c0_i32_10
  v24

def cc18_transform_0 (i : grid18.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc18_transform_1 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage18_0 : Fin 2 → Memref sig .tc .vmem S8x256x601 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, true]

abbrev stage18_1 : Fin 1 → Memref sig .tc .vmem S601x601 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false, false]

abbrev stage18_2 : Fin 2 → Memref sig .tc .vmem S8x601 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true, false]

abbrev grid19 : Pipeline.Grid := ⟨2, ![4, 8], ![false, false]⟩

def cc19_transform_0 (i : grid19.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc19_transform_1 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc19_transform_2 (i : grid19.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage19_0 : Fin 2 → Memref sig .tc .vmem S8x256x601 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true, true]

abbrev stage19_1 : Fin 2 → Memref sig .tc .vmem S8x601 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true, false]

abbrev stage19_2 : Fin 2 → Memref sig .tc .vmem S8x256x601 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true, true]

class Facts₀ : Prop where
  shapeCasts_S1_S_ : S1.ShapeCasts S_
  inb_S8x601_S8x601_0_0 : ∀ a, (![0, 0] : Fin 2 → Nat) a + S8x601.size a ≤ S8x601.size a
  h_S8x601 : 0 < S8x601.numel
  shapeCasts_S8x601_S8x601 : S8x601.ShapeCasts S8x601
  inb_S8x256x601_S8x256x601_0_0_0 : ∀ a, (![0, 0, 0] : Fin 3 → Nat) a + S8x256x601.size a ≤ S8x256x601.size a
  h_S8x256x601 : 0 < S8x256x601.numel
  reduces_S8x256x601_S8x256 : S8x256x601.Reduces [2] S8x256
  shapeCasts_S8x256_S8x256x1 : S8x256.ShapeCasts S8x256x1
  broadcasts_S8x256x1_S8x256x601 : S8x256x1.Broadcasts S8x256x601
  reduces_S8x256x601_S8x601 : S8x256x601.Reduces [1] S8x601
  inb_S601x601_S601x601_0_0 : ∀ a, (![0, 0] : Fin 2 → Nat) a + S601x601.size a ≤ S601x601.size a
  h_S601x601 : 0 < S601x601.numel
  bcast_S_S32x601 : S_.BroadcastsInDim S32x601 (![] : Fin 0 → Fin S32x601.rank)
  shapeCasts_S8x601_S8x1x601 : S8x601.ShapeCasts S8x1x601
  broadcasts_S8x1x601_S8x256x601 : S8x1x601.Broadcasts S8x256x601
  shapeCasts_S8x256x601_S8x256x601 : S8x256x601.ShapeCasts S8x256x601
  dot_S8x601_S601x601_S8x601_1_0_0_1_n_n_wf : DotDims.WF S8x601 S601x601 S8x601 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x601.size a ≤ S32x2048x601.size a
  hwx0_0 : ∀ i : grid0.Coords, EltTy.bits .f32 = 32 ∨ (Rect.block (s := S32x2048x601) S8x256x601.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S601x601.size a ≤ S601x601.size a
  hwx0_1 : ∀ i : grid0.Coords, EltTy.bits .f32 = 32 ∨ (Rect.block (s := S601x601) S601x601.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x601.size a ≤ S32x601.size a
  hwx0_2 : ∀ i : grid0.Coords, EltTy.bits .f32 = 32 ∨ (Rect.block (s := S32x601) S8x601.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x601.size a ≤ S32x2048x601.size a
  hwx1_0 : ∀ i : grid1.Coords, EltTy.bits .f32 = 32 ∨ (Rect.block (s := S32x2048x601) S8x256x601.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x601.size a ≤ S32x601.size a
  hwx1_1 : ∀ i : grid1.Coords, EltTy.bits .f32 = 32 ∨ (Rect.block (s := S32x601) S8x601.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x601.size a ≤ S32x2048x601.size a
  hwx1_2 : ∀ i : grid1.Coords, EltTy.bits .f32 = 32 ∨ (Rect.block (s := S32x2048x601) S8x256x601.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x256x601.size a ≤ S32x2048x601.size a
  hwx2_0 : ∀ i : grid2.Coords, EltTy.bits .f32 = 32 ∨ (Rect.block (s := S32x2048x601) S8x256x601.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S601x601.size a ≤ S601x601.size a
  hwx2_1 : ∀ i : grid2.Coords, EltTy.bits .f32 = 32 ∨ (Rect.block (s := S601x601) S601x601.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x601.size a ≤ S32x601.size a
  hwx2_2 : ∀ i : grid2.Coords, EltTy.bits .f32 = 32 ∨ (Rect.block (s := S32x601) S8x601.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x256x601.size a ≤ S32x2048x601.size a
  hwx3_0 : ∀ i : grid3.Coords, EltTy.bits .f32 = 32 ∨ (Rect.block (s := S32x2048x601) S8x256x601.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x601.size a ≤ S32x601.size a
  hwx3_1 : ∀ i : grid3.Coords, EltTy.bits .f32 = 32 ∨ (Rect.block (s := S32x601) S8x601.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x256x601.size a ≤ S32x2048x601.size a
  hwx3_2 : ∀ i : grid3.Coords, EltTy.bits .f32 = 32 ∨ (Rect.block (s := S32x2048x601) S8x256x601.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x256x601.size a ≤ S32x2048x601.size a
  hwx4_0 : ∀ i : grid4.Coords, EltTy.bits .f32 = 32 ∨ (Rect.block (s := S32x2048x601) S8x256x601.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S601x601.size a ≤ S601x601.size a
  hwx4_1 : ∀ i : grid4.Coords, EltTy.bits .f32 = 32 ∨ (Rect.block (s := S601x601) S601x601.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8x601.size a ≤ S32x601.size a
  hwx4_2 : ∀ i : grid4.Coords, EltTy.bits .f32 = 32 ∨ (Rect.block (s := S32x601) S8x601.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8x256x601.size a ≤ S32x2048x601.size a
  hwx5_0 : ∀ i : grid5.Coords, EltTy.bits .f32 = 32 ∨ (Rect.block (s := S32x2048x601) S8x256x601.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8x601.size a ≤ S32x601.size a
  hwx5_1 : ∀ i : grid5.Coords, EltTy.bits .f32 = 32 ∨ (Rect.block (s := S32x601) S8x601.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8x256x601.size a ≤ S32x2048x601.size a
  hwx5_2 : ∀ i : grid5.Coords, EltTy.bits .f32 = 32 ∨ (Rect.block (s := S32x2048x601) S8x256x601.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8x256x601.size a ≤ S32x2048x601.size a
  hwx6_0 : ∀ i : grid6.Coords, EltTy.bits .f32 = 32 ∨ (Rect.block (s := S32x2048x601) S8x256x601.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S601x601.size a ≤ S601x601.size a
  hwx6_1 : ∀ i : grid6.Coords, EltTy.bits .f32 = 32 ∨ (Rect.block (s := S601x601) S601x601.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8x601.size a ≤ S32x601.size a
  hwx6_2 : ∀ i : grid6.Coords, EltTy.bits .f32 = 32 ∨ (Rect.block (s := S32x601) S8x601.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8x256x601.size a ≤ S32x2048x601.size a
  hwx7_0 : ∀ i : grid7.Coords, EltTy.bits .f32 = 32 ∨ (Rect.block (s := S32x2048x601) S8x256x601.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8x601.size a ≤ S32x601.size a
  hwx7_1 : ∀ i : grid7.Coords, EltTy.bits .f32 = 32 ∨ (Rect.block (s := S32x601) S8x601.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8x256x601.size a ≤ S32x2048x601.size a
  hwx7_2 : ∀ i : grid7.Coords, EltTy.bits .f32 = 32 ∨ (Rect.block (s := S32x2048x601) S8x256x601.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8x256x601.size a ≤ S32x2048x601.size a
  hwx8_0 : ∀ i : grid8.Coords, EltTy.bits .f32 = 32 ∨ (Rect.block (s := S32x2048x601) S8x256x601.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S601x601.size a ≤ S601x601.size a
  hwx8_1 : ∀ i : grid8.Coords, EltTy.bits .f32 = 32 ∨ (Rect.block (s := S601x601) S601x601.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8x601.size a ≤ S32x601.size a
  hwx8_2 : ∀ i : grid8.Coords, EltTy.bits .f32 = 32 ∨ (Rect.block (s := S32x601) S8x601.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8x256x601.size a ≤ S32x2048x601.size a
  hwx9_0 : ∀ i : grid9.Coords, EltTy.bits .f32 = 32 ∨ (Rect.block (s := S32x2048x601) S8x256x601.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8x601.size a ≤ S32x601.size a
  hwx9_1 : ∀ i : grid9.Coords, EltTy.bits .f32 = 32 ∨ (Rect.block (s := S32x601) S8x601.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8x256x601.size a ≤ S32x2048x601.size a
  hwx9_2 : ∀ i : grid9.Coords, EltTy.bits .f32 = 32 ∨ (Rect.block (s := S32x2048x601) S8x256x601.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8x256x601.size a ≤ S32x2048x601.size a
  hwx10_0 : ∀ i : grid10.Coords, EltTy.bits .f32 = 32 ∨ (Rect.block (s := S32x2048x601) S8x256x601.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S601x601.size a ≤ S601x601.size a
  hwx10_1 : ∀ i : grid10.Coords, EltTy.bits .f32 = 32 ∨ (Rect.block (s := S601x601) S601x601.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8x601.size a ≤ S32x601.size a
  hwx10_2 : ∀ i : grid10.Coords, EltTy.bits .f32 = 32 ∨ (Rect.block (s := S32x601) S8x601.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8x256x601.size a ≤ S32x2048x601.size a
  hwx11_0 : ∀ i : grid11.Coords, EltTy.bits .f32 = 32 ∨ (Rect.block (s := S32x2048x601) S8x256x601.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S8x601.size a ≤ S32x601.size a
  hwx11_1 : ∀ i : grid11.Coords, EltTy.bits .f32 = 32 ∨ (Rect.block (s := S32x601) S8x601.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S8x256x601.size a ≤ S32x2048x601.size a
  hwx11_2 : ∀ i : grid11.Coords, EltTy.bits .f32 = 32 ∨ (Rect.block (s := S32x2048x601) S8x256x601.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8x256x601.size a ≤ S32x2048x601.size a
  hwx12_0 : ∀ i : grid12.Coords, EltTy.bits .f32 = 32 ∨ (Rect.block (s := S32x2048x601) S8x256x601.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S601x601.size a ≤ S601x601.size a
  hwx12_1 : ∀ i : grid12.Coords, EltTy.bits .f32 = 32 ∨ (Rect.block (s := S601x601) S601x601.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S8x601.size a ≤ S32x601.size a
  hwx12_2 : ∀ i : grid12.Coords, EltTy.bits .f32 = 32 ∨ (Rect.block (s := S32x601) S8x601.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8x256x601.size a ≤ S32x2048x601.size a
  hwx13_0 : ∀ i : grid13.Coords, EltTy.bits .f32 = 32 ∨ (Rect.block (s := S32x2048x601) S8x256x601.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S8x601.size a ≤ S32x601.size a
  hwx13_1 : ∀ i : grid13.Coords, EltTy.bits .f32 = 32 ∨ (Rect.block (s := S32x601) S8x601.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S8x256x601.size a ≤ S32x2048x601.size a
  hwx13_2 : ∀ i : grid13.Coords, EltTy.bits .f32 = 32 ∨ (Rect.block (s := S32x2048x601) S8x256x601.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S8x256x601.size a ≤ S32x2048x601.size a
  hwx14_0 : ∀ i : grid14.Coords, EltTy.bits .f32 = 32 ∨ (Rect.block (s := S32x2048x601) S8x256x601.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S601x601.size a ≤ S601x601.size a
  hwx14_1 : ∀ i : grid14.Coords, EltTy.bits .f32 = 32 ∨ (Rect.block (s := S601x601) S601x601.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S8x601.size a ≤ S32x601.size a
  hwx14_2 : ∀ i : grid14.Coords, EltTy.bits .f32 = 32 ∨ (Rect.block (s := S32x601) S8x601.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S8x256x601.size a ≤ S32x2048x601.size a
  hwx15_0 : ∀ i : grid15.Coords, EltTy.bits .f32 = 32 ∨ (Rect.block (s := S32x2048x601) S8x256x601.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S8x601.size a ≤ S32x601.size a
  hwx15_1 : ∀ i : grid15.Coords, EltTy.bits .f32 = 32 ∨ (Rect.block (s := S32x601) S8x601.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S8x256x601.size a ≤ S32x2048x601.size a
  hwx15_2 : ∀ i : grid15.Coords, EltTy.bits .f32 = 32 ∨ (Rect.block (s := S32x2048x601) S8x256x601.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S8x256x601.size a ≤ S32x2048x601.size a
  hwx16_0 : ∀ i : grid16.Coords, EltTy.bits .f32 = 32 ∨ (Rect.block (s := S32x2048x601) S8x256x601.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S601x601.size a ≤ S601x601.size a
  hwx16_1 : ∀ i : grid16.Coords, EltTy.bits .f32 = 32 ∨ (Rect.block (s := S601x601) S601x601.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S8x601.size a ≤ S32x601.size a
  hwx16_2 : ∀ i : grid16.Coords, EltTy.bits .f32 = 32 ∨ (Rect.block (s := S32x601) S8x601.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S8x256x601.size a ≤ S32x2048x601.size a
  hwx17_0 : ∀ i : grid17.Coords, EltTy.bits .f32 = 32 ∨ (Rect.block (s := S32x2048x601) S8x256x601.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S8x601.size a ≤ S32x601.size a
  hwx17_1 : ∀ i : grid17.Coords, EltTy.bits .f32 = 32 ∨ (Rect.block (s := S32x601) S8x601.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S8x256x601.size a ≤ S32x2048x601.size a
  hwx17_2 : ∀ i : grid17.Coords, EltTy.bits .f32 = 32 ∨ (Rect.block (s := S32x2048x601) S8x256x601.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S8x256x601.size a ≤ S32x2048x601.size a
  hwx18_0 : ∀ i : grid18.Coords, EltTy.bits .f32 = 32 ∨ (Rect.block (s := S32x2048x601) S8x256x601.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S601x601.size a ≤ S601x601.size a
  hwx18_1 : ∀ i : grid18.Coords, EltTy.bits .f32 = 32 ∨ (Rect.block (s := S601x601) S601x601.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S8x601.size a ≤ S32x601.size a
  hwx18_2 : ∀ i : grid18.Coords, EltTy.bits .f32 = 32 ∨ (Rect.block (s := S32x601) S8x601.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S8x256x601.size a ≤ S32x2048x601.size a
  hwx19_0 : ∀ i : grid19.Coords, EltTy.bits .f32 = 32 ∨ (Rect.block (s := S32x2048x601) S8x256x601.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S8x601.size a ≤ S32x601.size a
  hwx19_1 : ∀ i : grid19.Coords, EltTy.bits .f32 = 32 ∨ (Rect.block (s := S32x601) S8x601.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S8x256x601.size a ≤ S32x2048x601.size a
  hwx19_2 : ∀ i : grid19.Coords, EltTy.bits .f32 = 32 ∨ (Rect.block (s := S32x2048x601) S8x256x601.size (cc19_transform_2 i) (hinb19_2 i)).WholeWords (EltTy.packing .f32)

variable [Facts₀]

def dot_S8x601_S601x601_S8x601_1_0_0_1_n_n : DotDims S8x601 S601x601 S8x601 where
  lhsContracting := [1]
  rhsContracting := [0]
  lhsNonContracting := [0]
  rhsNonContracting := [1]
  lhsBatch := []
  rhsBatch := []
  wf := dot_S8x601_S601x601_S8x601_1_0_0_1_n_n_wf

abbrev win0_0 : Pipeline.Window sig grid0 :=
  Pipeline.Window.ofSpec (Memref.whole main_arg0) S8x256x601.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S601x601.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x601.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S8x256x601.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8x601.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S8x256x601.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S8x256x601.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S601x601.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S8x601.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg0) S8x256x601.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S8x601.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S8x256x601.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v8) S8x256x601.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S601x601.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v9) S8x601.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_arg0) S8x256x601.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v11) S8x601.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S8x256x601.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v12) S8x256x601.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S601x601.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v13) S8x601.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_arg0) S8x256x601.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v15) S8x601.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v16) S8x256x601.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v16) S8x256x601.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg1) S601x601.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v17) S8x601.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_arg0) S8x256x601.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v19) S8x601.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v20) S8x256x601.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v20) S8x256x601.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg1) S601x601.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v21) S8x601.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_arg0) S8x256x601.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v23) S8x601.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v24) S8x256x601.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v24) S8x256x601.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg1) S601x601.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v25) S8x601.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev win13_0 : Pipeline.Window sig grid13 :=
  Pipeline.Window.ofSpec (Memref.whole main_arg0) S8x256x601.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v27) S8x601.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v28) S8x256x601.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v28) S8x256x601.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg1) S601x601.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v29) S8x601.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev idle14 : Fin 3 → grid14.Coords → Bool := fun | 0 => fun _ => false | 1 => fun _ => false | 2 => fun i => !(k14_cond2 i == 1#1) | ⟨_ + 3, h⟩ => absurd h (Nat.not_lt.2 (Nat.le_add_left _ _))

abbrev win15_0 : Pipeline.Window sig grid15 :=
  Pipeline.Window.ofSpec (Memref.whole main_arg0) S8x256x601.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v31) S8x601.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v32) S8x256x601.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v32) S8x256x601.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg1) S601x601.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v33) S8x601.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev idle16 : Fin 3 → grid16.Coords → Bool := fun | 0 => fun _ => false | 1 => fun _ => false | 2 => fun i => !(k16_cond2 i == 1#1) | ⟨_ + 3, h⟩ => absurd h (Nat.not_lt.2 (Nat.le_add_left _ _))

abbrev win17_0 : Pipeline.Window sig grid17 :=
  Pipeline.Window.ofSpec (Memref.whole main_arg0) S8x256x601.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v35) S8x601.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v36) S8x256x601.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v36) S8x256x601.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_arg1) S601x601.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v37) S8x601.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev idle18 : Fin 3 → grid18.Coords → Bool := fun | 0 => fun _ => false | 1 => fun _ => false | 2 => fun i => !(k18_cond2 i == 1#1) | ⟨_ + 3, h⟩ => absurd h (Nat.not_lt.2 (Nat.le_add_left _ _))

abbrev win19_0 : Pipeline.Window sig grid19 :=
  Pipeline.Window.ofSpec (Memref.whole main_arg0) S8x256x601.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v39) S8x601.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v40) S8x256x601.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

class Facts : Prop extends Facts₀ where

variable [Facts]
-- ==== ReferenceIdeal.lean ====
abbrev S32x2048x601 : Shape := ⟨3, ![32, 2048, 601]⟩
abbrev S601x601 : Shape := ⟨2, ![601, 601]⟩
abbrev S1 : Shape := ⟨1, ![1]⟩
abbrev S_ : Shape := ⟨0, ![]⟩
abbrev S32x2048 : Shape := ⟨2, ![32, 2048]⟩
abbrev S32x2048x1 : Shape := ⟨3, ![32, 2048, 1]⟩
abbrev S32x601 : Shape := ⟨2, ![32, 601]⟩
abbrev S32x1x601 : Shape := ⟨3, ![32, 1, 601]⟩

abbrev nBuf : Space → Nat
  | .hbm => 224
  | .vmem => 0
  | .smem => 0
  | _ => 0

abbrev hbmTy0_0 (i : Nat) : BufTy := match i % 128 with
  | 0 => ⟨S32x2048x601, .f32⟩
  | 1 => ⟨S601x601, .f32⟩
  | 2 => ⟨S1, .f32⟩
  | 3 => ⟨S_, .f32⟩
  | 4 => ⟨S_, .f32⟩
  | 5 => ⟨S32x2048, .f32⟩
  | 6 => ⟨S_, .f32⟩
  | 7 => ⟨S32x2048, .f32⟩
  | 8 => ⟨S32x2048, .f32⟩
  | 9 => ⟨S32x2048x1, .f32⟩
  | 10 => ⟨S32x2048x601, .f32⟩
  | 11 => ⟨S32x2048x601, .f32⟩
  | 12 => ⟨S32x2048x601, .f32⟩
  | 13 => ⟨S_, .f32⟩
  | 14 => ⟨S32x2048, .f32⟩
  | 15 => ⟨S32x2048x1, .f32⟩
  | 16 => ⟨S32x2048x601, .f32⟩
  | 17 => ⟨S32x2048x601, .f32⟩
  | 18 => ⟨S_, .f32⟩
  | 19 => ⟨S32x601, .f32⟩
  | 20 => ⟨S32x601, .f32⟩
  | 21 => ⟨S32x601, .f32⟩
  | 22 => ⟨S32x601, .f32⟩
  | 23 => ⟨S32x1x601, .f32⟩
  | 24 => ⟨S32x2048x601, .f32⟩
  | 25 => ⟨S32x2048x601, .f32⟩
  | 26 => ⟨S_, .f32⟩
  | 27 => ⟨S32x2048, .f32⟩
  | 28 => ⟨S_, .f32⟩
  | 29 => ⟨S32x2048, .f32⟩
  | 30 => ⟨S32x2048, .f32⟩
  | 31 => ⟨S32x2048x1, .f32⟩
  | 32 => ⟨S32x2048x601, .f32⟩
  | 33 => ⟨S32x2048x601, .f32⟩
  | 34 => ⟨S32x2048x601, .f32⟩
  | 35 => ⟨S_, .f32⟩
  | 36 => ⟨S32x2048, .f32⟩
  | 37 => ⟨S32x2048x1, .f32⟩
  | 38 => ⟨S32x2048x601, .f32⟩
  | 39 => ⟨S32x2048x601, .f32⟩
  | 40 => ⟨S_, .f32⟩
  | 41 => ⟨S32x601, .f32⟩
  | 42 => ⟨S32x601, .f32⟩
  | 43 => ⟨S32x601, .f32⟩
  | 44 => ⟨S32x601, .f32⟩
  | 45 => ⟨S32x1x601, .f32⟩
  | 46 => ⟨S32x2048x601, .f32⟩
  | 47 => ⟨S32x2048x601, .f32⟩
  | 48 => ⟨S_, .f32⟩
  | 49 => ⟨S32x2048, .f32⟩
  | 50 => ⟨S_, .f32⟩
  | 51 => ⟨S32x2048, .f32⟩
  | 52 => ⟨S32x2048, .f32⟩
  | 53 => ⟨S32x2048x1, .f32⟩
  | 54 => ⟨S32x2048x601, .f32⟩
  | 55 => ⟨S32x2048x601, .f32⟩
  | 56 => ⟨S32x2048x601, .f32⟩
  | 57 => ⟨S_, .f32⟩
  | 58 => ⟨S32x2048, .f32⟩
  | 59 => ⟨S32x2048x1, .f32⟩
  | 60 => ⟨S32x2048x601, .f32⟩
  | 61 => ⟨S32x2048x601, .f32⟩
  | 62 => ⟨S_, .f32⟩
  | 63 => ⟨S32x601, .f32⟩
  | 64 => ⟨S32x601, .f32⟩
  | 65 => ⟨S32x601, .f32⟩
  | 66 => ⟨S32x601, .f32⟩
  | 67 => ⟨S32x1x601, .f32⟩
  | 68 => ⟨S32x2048x601, .f32⟩
  | 69 => ⟨S32x2048x601, .f32⟩
  | 70 => ⟨S_, .f32⟩
  | 71 => ⟨S32x2048, .f32⟩
  | 72 => ⟨S_, .f32⟩
  | 73 => ⟨S32x2048, .f32⟩
  | 74 => ⟨S32x2048, .f32⟩
  | 75 => ⟨S32x2048x1, .f32⟩
  | 76 => ⟨S32x2048x601, .f32⟩
  | 77 => ⟨S32x2048x601, .f32⟩
  | 78 => ⟨S32x2048x601, .f32⟩
  | 79 => ⟨S_, .f32⟩
  | 80 => ⟨S32x2048, .f32⟩
  | 81 => ⟨S32x2048x1, .f32⟩
  | 82 => ⟨S32x2048x601, .f32⟩
  | 83 => ⟨S32x2048x601, .f32⟩
  | 84 => ⟨S_, .f32⟩
  | 85 => ⟨S32x601, .f32⟩
  | 86 => ⟨S32x601, .f32⟩
  | 87 => ⟨S32x601, .f32⟩
  | 88 => ⟨S32x601, .f32⟩
  | 89 => ⟨S32x1x601, .f32⟩
  | 90 => ⟨S32x2048x601, .f32⟩
  | 91 => ⟨S32x2048x601, .f32⟩
  | 92 => ⟨S_, .f32⟩
  | 93 => ⟨S32x2048, .f32⟩
  | 94 => ⟨S_, .f32⟩
  | 95 => ⟨S32x2048, .f32⟩
  | 96 => ⟨S32x2048, .f32⟩
  | 97 => ⟨S32x2048x1, .f32⟩
  | 98 => ⟨S32x2048x601, .f32⟩
  | 99 => ⟨S32x2048x601, .f32⟩
  | 100 => ⟨S32x2048x601, .f32⟩
  | 101 => ⟨S_, .f32⟩
  | 102 => ⟨S32x2048, .f32⟩
  | 103 => ⟨S32x2048x1, .f32⟩
  | 104 => ⟨S32x2048x601, .f32⟩
  | 105 => ⟨S32x2048x601, .f32⟩
  | 106 => ⟨S_, .f32⟩
  | 107 => ⟨S32x601, .f32⟩
  | 108 => ⟨S32x601, .f32⟩
  | 109 => ⟨S32x601, .f32⟩
  | 110 => ⟨S32x601, .f32⟩
  | 111 => ⟨S32x1x601, .f32⟩
  | 112 => ⟨S32x2048x601, .f32⟩
  | 113 => ⟨S32x2048x601, .f32⟩
  | 114 => ⟨S_, .f32⟩
  | 115 => ⟨S32x2048, .f32⟩
  | 116 => ⟨S_, .f32⟩
  | 117 => ⟨S32x2048, .f32⟩
  | 118 => ⟨S32x2048, .f32⟩
  | 119 => ⟨S32x2048x1, .f32⟩
  | 120 => ⟨S32x2048x601, .f32⟩
  | 121 => ⟨S32x2048x601, .f32⟩
  | 122 => ⟨S32x2048x601, .f32⟩
  | 123 => ⟨S_, .f32⟩
  | 124 => ⟨S32x2048, .f32⟩
  | 125 => ⟨S32x2048x1, .f32⟩
  | 126 => ⟨S32x2048x601, .f32⟩
  | 127 => ⟨S32x2048x601, .f32⟩
  | _ => ⟨S32x2048x601, .f32⟩

abbrev hbmTy0_1 (i : Nat) : BufTy := match i % 128 with
  | 0 => ⟨S_, .f32⟩
  | 1 => ⟨S32x601, .f32⟩
  | 2 => ⟨S32x601, .f32⟩
  | 3 => ⟨S32x601, .f32⟩
  | 4 => ⟨S32x601, .f32⟩
  | 5 => ⟨S32x1x601, .f32⟩
  | 6 => ⟨S32x2048x601, .f32⟩
  | 7 => ⟨S32x2048x601, .f32⟩
  | 8 => ⟨S_, .f32⟩
  | 9 => ⟨S32x2048, .f32⟩
  | 10 => ⟨S_, .f32⟩
  | 11 => ⟨S32x2048, .f32⟩
  | 12 => ⟨S32x2048, .f32⟩
  | 13 => ⟨S32x2048x1, .f32⟩
  | 14 => ⟨S32x2048x601, .f32⟩
  | 15 => ⟨S32x2048x601, .f32⟩
  | 16 => ⟨S32x2048x601, .f32⟩
  | 17 => ⟨S_, .f32⟩
  | 18 => ⟨S32x2048, .f32⟩
  | 19 => ⟨S32x2048x1, .f32⟩
  | 20 => ⟨S32x2048x601, .f32⟩
  | 21 => ⟨S32x2048x601, .f32⟩
  | 22 => ⟨S_, .f32⟩
  | 23 => ⟨S32x601, .f32⟩
  | 24 => ⟨S32x601, .f32⟩
  | 25 => ⟨S32x601, .f32⟩
  | 26 => ⟨S32x601, .f32⟩
  | 27 => ⟨S32x1x601, .f32⟩
  | 28 => ⟨S32x2048x601, .f32⟩
  | 29 => ⟨S32x2048x601, .f32⟩
  | 30 => ⟨S_, .f32⟩
  | 31 => ⟨S32x2048, .f32⟩
  | 32 => ⟨S_, .f32⟩
  | 33 => ⟨S32x2048, .f32⟩
  | 34 => ⟨S32x2048, .f32⟩
  | 35 => ⟨S32x2048x1, .f32⟩
  | 36 => ⟨S32x2048x601, .f32⟩
  | 37 => ⟨S32x2048x601, .f32⟩
  | 38 => ⟨S32x2048x601, .f32⟩
  | 39 => ⟨S_, .f32⟩
  | 40 => ⟨S32x2048, .f32⟩
  | 41 => ⟨S32x2048x1, .f32⟩
  | 42 => ⟨S32x2048x601, .f32⟩
  | 43 => ⟨S32x2048x601, .f32⟩
  | 44 => ⟨S_, .f32⟩
  | 45 => ⟨S32x601, .f32⟩
  | 46 => ⟨S32x601, .f32⟩
  | 47 => ⟨S32x601, .f32⟩
  | 48 => ⟨S32x601, .f32⟩
  | 49 => ⟨S32x1x601, .f32⟩
  | 50 => ⟨S32x2048x601, .f32⟩
  | 51 => ⟨S32x2048x601, .f32⟩
  | 52 => ⟨S_, .f32⟩
  | 53 => ⟨S32x2048, .f32⟩
  | 54 => ⟨S_, .f32⟩
  | 55 => ⟨S32x2048, .f32⟩
  | 56 => ⟨S32x2048, .f32⟩
  | 57 => ⟨S32x2048x1, .f32⟩
  | 58 => ⟨S32x2048x601, .f32⟩
  | 59 => ⟨S32x2048x601, .f32⟩
  | 60 => ⟨S32x2048x601, .f32⟩
  | 61 => ⟨S_, .f32⟩
  | 62 => ⟨S32x2048, .f32⟩
  | 63 => ⟨S32x2048x1, .f32⟩
  | 64 => ⟨S32x2048x601, .f32⟩
  | 65 => ⟨S32x2048x601, .f32⟩
  | 66 => ⟨S_, .f32⟩
  | 67 => ⟨S32x601, .f32⟩
  | 68 => ⟨S32x601, .f32⟩
  | 69 => ⟨S32x601, .f32⟩
  | 70 => ⟨S32x601, .f32⟩
  | 71 => ⟨S32x1x601, .f32⟩
  | 72 => ⟨S32x2048x601, .f32⟩
  | 73 => ⟨S32x2048x601, .f32⟩
  | 74 => ⟨S_, .f32⟩
  | 75 => ⟨S32x2048, .f32⟩
  | 76 => ⟨S_, .f32⟩
  | 77 => ⟨S32x2048, .f32⟩
  | 78 => ⟨S32x2048, .f32⟩
  | 79 => ⟨S32x2048x1, .f32⟩
  | 80 => ⟨S32x2048x601, .f32⟩
  | 81 => ⟨S32x2048x601, .f32⟩
  | 82 => ⟨S32x2048x601, .f32⟩
  | 83 => ⟨S_, .f32⟩
  | 84 => ⟨S32x2048, .f32⟩
  | 85 => ⟨S32x2048x1, .f32⟩
  | 86 => ⟨S32x2048x601, .f32⟩
  | 87 => ⟨S32x2048x601, .f32⟩
  | 88 => ⟨S_, .f32⟩
  | 89 => ⟨S32x601, .f32⟩
  | 90 => ⟨S32x601, .f32⟩
  | 91 => ⟨S32x601, .f32⟩
  | 92 => ⟨S32x601, .f32⟩
  | 93 => ⟨S32x1x601, .f32⟩
  | 94 => ⟨S32x2048x601, .f32⟩
  | 95 => ⟨S32x2048x601, .f32⟩
  | _ => ⟨S32x2048x601, .f32⟩

abbrev hbmTy (i : Nat) : BufTy := match i / 128 with
  | 0 => hbmTy0_0 i
  | 1 => hbmTy0_1 i
  | _ => ⟨S32x2048x601, .f32⟩

abbrev bufTy : (tb : Table) → Fin (tcTables nBuf tb) → BufTy
  | .hbm, ⟨i, _⟩ => hbmTy i
  | _, _ => ⟨S32x2048x601, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_15 : Ref sig .tc := ⟨.hbm, 92, rfl⟩
abbrev main_v73 : Ref sig .tc := ⟨.hbm, 93, rfl⟩
abbrev main_cst_16 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_17 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_18 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_19 : Ref sig .tc := ⟨.hbm, 114, rfl⟩
abbrev main_v91 : Ref sig .tc := ⟨.hbm, 115, rfl⟩
abbrev main_cst_20 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_21 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_22 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_23 : Ref sig .tc := ⟨.hbm, 136, rfl⟩
abbrev main_v109 : Ref sig .tc := ⟨.hbm, 137, rfl⟩
abbrev main_cst_24 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_25 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_26 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_27 : Ref sig .tc := ⟨.hbm, 158, rfl⟩
abbrev main_v127 : Ref sig .tc := ⟨.hbm, 159, rfl⟩
abbrev main_cst_28 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_29 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_30 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_cst_31 : Ref sig .tc := ⟨.hbm, 180, rfl⟩
abbrev main_v145 : Ref sig .tc := ⟨.hbm, 181, rfl⟩
abbrev main_cst_32 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_33 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_cst_34 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_cst_35 : Ref sig .tc := ⟨.hbm, 202, rfl⟩
abbrev main_v163 : Ref sig .tc := ⟨.hbm, 203, rfl⟩
abbrev main_cst_36 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_37 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_cst_38 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩

abbrev nD : Nat := 1
abbrev τ : Topo := Topo.v7x

variable {F : FTy → Type} [FloatOps F]

class Facts₀ : Prop where
  shapeCasts_S1_S_ : S1.ShapeCasts S_
  reducesTo_S32x2048x601_S32x2048_d2 : S32x2048x601.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x601_0_1_2 : S32x2048x1.BroadcastsInDim S32x2048x601 (![0, 1, 2] : Fin 3 → Fin S32x2048x601.rank)
  reducesTo_S32x2048x601_S32x601_d1 : S32x2048x601.ReducesTo [1] S32x601
  bcast_S_S32x601 : S_.BroadcastsInDim S32x601 (![] : Fin 0 → Fin S32x601.rank)
  bcast_S32x601_S32x1x601_0_2 : S32x601.BroadcastsInDim S32x1x601 (![0, 2] : Fin 2 → Fin S32x1x601.rank)
  bcast_S32x1x601_S32x2048x601_0_1_2 : S32x1x601.BroadcastsInDim S32x2048x601 (![0, 1, 2] : Fin 3 → Fin S32x2048x601.rank)
  dot_S32x601_S601x601_S32x601_1_0_0_1_n_n_wf : DotDims.WF S32x601 S601x601 S32x601 [1] [0] [0] [1] [] []

variable [Facts₀]

def dot_S32x601_S601x601_S32x601_1_0_0_1_n_n : DotDims S32x601 S601x601 S32x601 where
  lhsContracting := [1]
  rhsContracting := [0]
  lhsNonContracting := [0]
  rhsNonContracting := [1]
  lhsBatch := []
  rhsBatch := []
  wf := dot_S32x601_S601x601_S32x601_1_0_0_1_n_n_wf

class Facts : Prop extends Facts₀ where

variable [Facts]
-- ==== Proof.KI.Red0Runs.lean ====
/-
  The reduce call (custom_call 0): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "this is the last proposal tile": the condition of the product's branch. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last proposal tile the body stores nothing into the output block, -/
theorem idleAt0_2 : ∀ t : Fin cfg0.N, ¬cond0_1 (grid0.coords t) → cfg0.idle 2 (grid0.coords t) = true := by decide +kernel
/-- and the block is not written back there. -/
theorem noFlush0_2 : ∀ t : Fin cfg0.N, ¬cond0_1 (grid0.coords t) → (cfg0.win 2).flush t = false := by decide +kernel
/-- At the last proposal tile it is stored. -/
theorem liveAt0_2 : ∀ t : Fin cfg0.N, cond0_1 (grid0.coords t) → cfg0.idle 2 (grid0.coords t) = false := by decide +kernel

/-! ## The memrefs the body is called with -/

abbrev VO0_2 : View sig .tc .vmem S8x601 .f32 := (Memref.whole cc0_stg2_0 : Memref sig .tc .vmem S8x601 .f32).view
abbrev ms0_0 (t : Fin cfg0.N) : Memref sig .tc .vmem S8x256x601 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S601x601 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x601 .f32 := win0_2.stage (cfg0.slots t 2)
abbrev hs0_2 (t : Fin cfg0.N) : (ms0_2 t).IsWhole := hstage0_2 ((cfg0.slots t 2).cast nbuf0_2)
/-- The carried maximum's buffer: a whole scoped buffer of the call's own. -/
abbrev scM0_0 : Memref sig .tc .vmem S8x601 .f32 := Memref.whole cc0_scratch0
abbrev VS0_0 : View sig .tc .vmem S8x601 .f32 := scM0_0.view

/-- The class invariant with the carried maximum's buffer taken out of the scoped rest: that buffer at some
    contents, every other scoped buffer unopened, the generator register at some state. -/
theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The input windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scores' staging buffer holds the point's block whenever the body runs, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- and so does the matrix's, fetched once: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Frame

end
-- ==== Proof.KI.Red0Run.lean ====
/-
  The reduce call's body (custom_call 0) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.KI.Red0Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun0_A (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond0_0 i) (hc1 : ¬cond0_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc0__reduce_kernel i arg2 harg2 arg3 harg3 arg4 harg4 arg5 harg5) K } := by
  refine ⟨?_, fun E K => ?run⟩
  case run =>
    simp only [cc0__reduce_kernel_eq_skeleton]; unfold cc0__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun0_B (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : ¬cond0_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc0__reduce_kernel i arg2 harg2 arg3 harg3 arg4 harg4 arg5 harg5) K } := by
  refine ⟨?_, fun E K => ?run⟩
  case run =>
    simp only [cc0__reduce_kernel_eq_skeleton]; unfold cc0__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun0_C (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__reduce_kernel i arg2 harg2 arg3 harg3 arg4 harg4 arg5 harg5) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Red0.lean ====
/-
  The reduce call (custom_call 0) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.KI.Red0Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover0_A_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond0_0 i) (hc1 : ¬cond0_1 i) (x0 : Vec F S8x256x601 .f32) (y : S8x601.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S8x601.size (by sl_kernel_rfl) y
/-- The carried buffer after a first proposal tile: its pieces read back. -/
def sout0_A_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond0_0 i) (hc1 : ¬cond0_1 i) (x0 : Vec F S8x256x601 .f32) : Vec F S8x601 .f32 :=
  VS0_0.read (Elt F) (VS0_0.writes (Elt F) VS0_0.junk (kernelRun0_A c i arg2 harg2 arg3 harg3 arg4 harg4 arg5 harg5 hc0 hc1 x0).1)

theorem scover0_B_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : ¬cond0_1 i) (x0 : Vec F S8x256x601 .f32) (xs0 : Vec F S8x601 .f32) (y : S8x601.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S8x601.size (by sl_kernel_rfl) y
/-- The carried buffer after an inner proposal tile. -/
def sout0_B_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : ¬cond0_1 i) (x0 : Vec F S8x256x601 .f32) (xs0 : Vec F S8x601 .f32) : Vec F S8x601 .f32 :=
  VS0_0.read (Elt F) (VS0_0.writes (Elt F) VS0_0.junk (kernelRun0_B c i arg2 harg2 arg3 harg3 arg4 harg4 arg5 harg5 hc0 hc1 x0 xs0).1)

theorem cover0_C_2 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i) (x0 : Vec F S8x256x601 .f32) (x1 : Vec F S601x601 .f32) (xs0 : Vec F S8x601 .f32) (y : S8x601.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S8x601.size (by sl_kernel_rfl) y
/-- The output block after a last proposal tile. -/
def out0_C_2 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i) (x0 : Vec F S8x256x601 .f32) (x1 : Vec F S601x601 .f32) (xs0 : Vec F S8x601 .f32) : Vec F S8x601 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i) (x0 : Vec F S8x256x601 .f32) (x1 : Vec F S601x601 .f32) (xs0 : Vec F S8x601 .f32) (y : S8x601.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S8x601.size (by sl_kernel_rfl) y
/-- The carried buffer after a last proposal tile. -/
def sout0_C_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i) (x0 : Vec F S8x256x601 .f32) (x1 : Vec F S601x601 .f32) (xs0 : Vec F S8x601 .f32) : Vec F S8x601 .f32 :=
  VS0_0.read (Elt F) (VS0_0.writes (Elt F) VS0_0.junk (kernelRun0_C c i arg2 harg2 arg3 harg3 arg4 harg4 arg5 harg5 hc0 hc1 x0 x1 xs0).2.1)

/-- What stands for the output block where the body does not store it (nothing consults it there). -/
def idleOut0 : Vec F S8x601 .f32 := VO0_2.read (Elt F) VO0_2.junk

/-! ## The accumulation over the grid points -/

/-- After the body at position `n`: (the output block, the carried buffer). -/
def outsAt0 (c : Dev nD) : (n : ℕ) → n < cfg0.N → Vec F S8x601 .f32 × Vec F S8x601 .f32
  | 0, hn => (idleOut0, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (idleOut0, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleOut0, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleOut0, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    have hc1 : ¬cond0_1 (grid0.coords t) := fun h => h1 ((hcond0_1 t).mp h)
    rw [Dat.leavesExact_idle (dat0 V c) 2 t (idleAt0_2 t hc1) (noFlush0_2 t hc1)]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) hc1 (iblk0 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) hc1 (iblk0 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun e => h0 (by rw [e])
    by_cases h1 : t.val % 8 = 7
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t h0 h1]
      unfold out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ hc0 hc1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hc1 : ¬cond0_1 (grid0.coords t) := fun h => h1 ((hcond0_1 t).mp h)
      rw [Dat.leavesExact_idle (dat0 V c) 2 t (idleAt0_2 t hc1) (noFlush0_2 t hc1)]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ hc0 hc1 (iblk0 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: what the carried buffer holds is forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 32 := N_0; omega)

end Cert.KernelIdeal.Frame

end
-- ==== Proof.KI.Upd1.lean ====
/-
  The update step of the mean-field refinement (custom_call 1) as one region of the kernel program: what each
  window's staging buffer holds before and after the body at every grid point, the body's triple, and the body
  obligation the launch theorems ask for — at any float instance.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 1), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The unary scores' staging buffer holds their block at every point (it is fetched at every point), for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The pairwise term's staging buffer holds its block at every point, fetched there or not: its block index is the
    image tile alone, so while the proposal tile runs the index does not move and the buffer, which the body leaves
    as it found it, still holds the block fetched when the image tile began. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: whole buffers, through the rectangle at offset zero -/

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k1_pay1 x1 x0`. Each load is of a whole buffer, so it reads the contents;
    the one store is of the whole buffer, so whatever was there before, the buffer reads as the stored value. -/
theorem sound_kernel1 (c : Dev nD) (E : Set ℕ) (i : grid1.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 x1 x0)) -∗ K ⟨⟩))
      ⊢ wp frame (wpE (defs₀ (F := F)) Variants.none c none) E (cc1__update_kernel i arg2 harg2 arg3 harg3 arg4 harg4) K := by
  simp only [cc1__update_kernel_eq_skeleton]; unfold cc1__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros3 inb_S8x256x601_S8x256x601_0_0_0 y⟩),
    View.canon_unit_zero (S := S8x256x601) zeros3]
  simp only [View.readAt_eq_ld, View.ld_unit_zero (S := S8x601) zeros2, View.ld_unit_zero (S := S8x256x601) zeros3]

/-! ## The region's proof data -/

/-- The proof data on core `c`: the arrays as the region finds them; after the body at point `t` each input's buffer
    at its block and the output's at the scores' block minus the pairwise block; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 1 t) (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (iblk1 V c 1 t) (iblk1 V c 0 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The region's invariant is the class invariant itself, at the first point and after the last. -/
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

end Cert.KernelIdeal.Frame
-- ==== Proof.KI.Red2Runs.lean ====
/-
  The reduce call (custom_call 2): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "this is the last proposal tile": the condition of the product's branch. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last proposal tile the body stores nothing into the output block, -/
theorem idleAt2_2 : ∀ t : Fin cfg2.N, ¬cond2_1 (grid2.coords t) → cfg2.idle 2 (grid2.coords t) = true := by decide +kernel
/-- and the block is not written back there. -/
theorem noFlush2_2 : ∀ t : Fin cfg2.N, ¬cond2_1 (grid2.coords t) → (cfg2.win 2).flush t = false := by decide +kernel
/-- At the last proposal tile it is stored. -/
theorem liveAt2_2 : ∀ t : Fin cfg2.N, cond2_1 (grid2.coords t) → cfg2.idle 2 (grid2.coords t) = false := by decide +kernel

/-! ## The memrefs the body is called with -/

abbrev VO2_2 : View sig .tc .vmem S8x601 .f32 := (Memref.whole cc2_stg2_0 : Memref sig .tc .vmem S8x601 .f32).view
abbrev ms2_0 (t : Fin cfg2.N) : Memref sig .tc .vmem S8x256x601 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S601x601 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x601 .f32 := win2_2.stage (cfg2.slots t 2)
abbrev hs2_2 (t : Fin cfg2.N) : (ms2_2 t).IsWhole := hstage2_2 ((cfg2.slots t 2).cast nbuf2_2)
/-- The carried maximum's buffer: a whole scoped buffer of the call's own. -/
abbrev scM2_0 : Memref sig .tc .vmem S8x601 .f32 := Memref.whole cc2_scratch0
abbrev VS2_0 : View sig .tc .vmem S8x601 .f32 := scM2_0.view

/-- The class invariant with the carried maximum's buffer taken out of the scoped rest: that buffer at some
    contents, every other scoped buffer unopened, the generator register at some state. -/
theorem PhiA2_eq (c : Dev nD) :
    (Pipeline.ΦA spec2 c : sProp 𝕄)
      = iprop(iprop(iprop((∃ d, owns (c : Thread nD τ) scM2_0 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The input windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scores' staging buffer holds the point's block whenever the body runs, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- and so does the matrix's, fetched once: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Cert.KernelIdeal.Frame

end
-- ==== Proof.KI.Red2Run.lean ====
/-
  The reduce call's body (custom_call 2) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.KI.Red2Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun2_A (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond2_0 i) (hc1 : ¬cond2_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc2__reduce_kernel i arg2 harg2 arg3 harg3 arg4 harg4 arg5 harg5) K } := by
  refine ⟨?_, fun E K => ?run⟩
  case run =>
    simp only [cc2__reduce_kernel_eq_skeleton]; unfold cc2__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun2_B (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : ¬cond2_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc2__reduce_kernel i arg2 harg2 arg3 harg3 arg4 harg4 arg5 harg5) K } := by
  refine ⟨?_, fun E K => ?run⟩
  case run =>
    simp only [cc2__reduce_kernel_eq_skeleton]; unfold cc2__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun2_C (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__reduce_kernel i arg2 harg2 arg3 harg3 arg4 harg4 arg5 harg5) K } := by
  refine ⟨?_, ?_, fun E K => ?run⟩
  case run =>
    simp only [cc2__reduce_kernel_eq_skeleton]; unfold cc2__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Red2.lean ====
/-
  The reduce call (custom_call 2) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.KI.Red2Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover2_A_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond2_0 i) (hc1 : ¬cond2_1 i) (x0 : Vec F S8x256x601 .f32) (y : S8x601.Idx) :
    ∃ pc ∈ (kernelRun2_A c i arg2 harg2 arg3 harg3 arg4 harg4 arg5 harg5 hc0 hc1 x0).1, y ∈ pc.1.set :=
  View.cover_of_tiledL (kernelRun2_A c i arg2 harg2 arg3 harg3 arg4 harg4 arg5 harg5 hc0 hc1 x0).1 S8x601.size (by sl_kernel_rfl) y
/-- The carried buffer after a first proposal tile: its pieces read back. -/
def sout2_A_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond2_0 i) (hc1 : ¬cond2_1 i) (x0 : Vec F S8x256x601 .f32) : Vec F S8x601 .f32 :=
  VS2_0.read (Elt F) (VS2_0.writes (Elt F) VS2_0.junk (kernelRun2_A c i arg2 harg2 arg3 harg3 arg4 harg4 arg5 harg5 hc0 hc1 x0).1)

theorem scover2_B_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : ¬cond2_1 i) (x0 : Vec F S8x256x601 .f32) (xs0 : Vec F S8x601 .f32) (y : S8x601.Idx) :
    ∃ pc ∈ (kernelRun2_B c i arg2 harg2 arg3 harg3 arg4 harg4 arg5 harg5 hc0 hc1 x0 xs0).1, y ∈ pc.1.set :=
  View.cover_of_tiledL (kernelRun2_B c i arg2 harg2 arg3 harg3 arg4 harg4 arg5 harg5 hc0 hc1 x0 xs0).1 S8x601.size (by sl_kernel_rfl) y
/-- The carried buffer after an inner proposal tile. -/
def sout2_B_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : ¬cond2_1 i) (x0 : Vec F S8x256x601 .f32) (xs0 : Vec F S8x601 .f32) : Vec F S8x601 .f32 :=
  VS2_0.read (Elt F) (VS2_0.writes (Elt F) VS2_0.junk (kernelRun2_B c i arg2 harg2 arg3 harg3 arg4 harg4 arg5 harg5 hc0 hc1 x0 xs0).1)

theorem cover2_C_2 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i) (x0 : Vec F S8x256x601 .f32) (x1 : Vec F S601x601 .f32) (xs0 : Vec F S8x601 .f32) (y : S8x601.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S8x601.size (by sl_kernel_rfl) y
/-- The output block after a last proposal tile. -/
def out2_C_2 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i) (x0 : Vec F S8x256x601 .f32) (x1 : Vec F S601x601 .f32) (xs0 : Vec F S8x601 .f32) : Vec F S8x601 .f32 :=
  VO2_2.read (Elt F) (VO2_2.writes (Elt F) VO2_2.junk (kernelRun2_C c i arg2 harg2 arg3 harg3 arg4 harg4 arg5 harg5 hc0 hc1 x0 x1 xs0).1)
theorem scover2_C_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i) (x0 : Vec F S8x256x601 .f32) (x1 : Vec F S601x601 .f32) (xs0 : Vec F S8x601 .f32) (y : S8x601.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S8x601.size (by sl_kernel_rfl) y
/-- The carried buffer after a last proposal tile. -/
def sout2_C_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i) (x0 : Vec F S8x256x601 .f32) (x1 : Vec F S601x601 .f32) (xs0 : Vec F S8x601 .f32) : Vec F S8x601 .f32 :=
  VS2_0.read (Elt F) (VS2_0.writes (Elt F) VS2_0.junk (kernelRun2_C c i arg2 harg2 arg3 harg3 arg4 harg4 arg5 harg5 hc0 hc1 x0 x1 xs0).2.1)

/-- What stands for the output block where the body does not store it (nothing consults it there). -/
def idleOut2 : Vec F S8x601 .f32 := VO2_2.read (Elt F) VO2_2.junk

/-! ## The accumulation over the grid points -/

/-- After the body at position `n`: (the output block, the carried buffer). -/
def outsAt2 (c : Dev nD) : (n : ℕ) → n < cfg2.N → Vec F S8x601 .f32 × Vec F S8x601 .f32
  | 0, hn => (idleOut2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩))
  | n + 1, hn =>
    if h0 : (n + 1) % 8 = 0 then
      if h1 : (n + 1) % 8 = 7 then
        False.elim (by omega)
      else
        (idleOut2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idleOut2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (idleOut2, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (idleOut2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 8 = 0
  · have h1 : ¬t.val % 8 = 7 := by omega
    have hc1 : ¬cond2_1 (grid2.coords t) := fun h => h1 ((hcond2_1 t).mp h)
    rw [Dat.leavesExact_idle (dat2 V c) 2 t (idleAt2_2 t hc1) (noFlush2_2 t hc1)]
    rw [outsAt2_A V c t h0 h1]
    unfold sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) hc1 (iblk2 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) hc1 (iblk2 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      iexists _; iexact H2
  · have hc0 : ¬cond2_0 (grid2.coords t) := fun h => h0 ((hcond2_0 t).mp h)
    have hz : t.val ≠ 0 := fun e => h0 (by rw [e])
    by_cases h1 : t.val % 8 = 7
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [outsAt2_C V c t h0 h1]
      unfold out2_C_2 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ hc0 hc1 (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · have hc1 : ¬cond2_1 (grid2.coords t) := fun h => h1 ((hcond2_1 t).mp h)
      rw [Dat.leavesExact_idle (dat2 V c) 2 t (idleAt2_2 t hc1) (noFlush2_2 t hc1)]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ hc0 hc1 (iblk2 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _)
          iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: what the carried buffer holds is forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ (Pipeline.ΦA spec2 c : sProp 𝕄) :=
  Phi_out2 V c _ (by rw [Fin.val_last]; have : cfg2.N = 32 := N_2; omega)

end Cert.KernelIdeal.Frame

end
-- ==== Proof.KI.Upd3.lean ====
/-
  The update step of the mean-field refinement (custom_call 3) as one region of the kernel program: what each
  window's staging buffer holds before and after the body at every grid point, the body's triple, and the body
  obligation the launch theorems ask for — at any float instance.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 3), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The unary scores' staging buffer holds their block at every point (it is fetched at every point), for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The pairwise term's staging buffer holds its block at every point, fetched there or not: its block index is the
    image tile alone, so while the proposal tile runs the index does not move and the buffer, which the body leaves
    as it found it, still holds the block fetched when the image tile began. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: whole buffers, through the rectangle at offset zero -/

theorem zeros3_2 : (![0, 0] : Fin 2 → Nat) = fun _ => 0 := funext fun a => by fin_cases a <;> rfl
theorem zeros3_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k3_pay1 x1 x0`. Each load is of a whole buffer, so it reads the contents;
    the one store is of the whole buffer, so whatever was there before, the buffer reads as the stored value. -/
theorem sound_kernel3 (c : Dev nD) (E : Set ℕ) (i : grid3.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k3_pay1 x1 x0)) -∗ K ⟨⟩))
      ⊢ wp frame (wpE (defs₀ (F := F)) Variants.none c none) E (cc3__update_kernel i arg2 harg2 arg3 harg3 arg4 harg4) K := by
  simp only [cc3__update_kernel_eq_skeleton]; unfold cc3__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros3_3 inb_S8x256x601_S8x256x601_0_0_0 y⟩),
    View.canon_unit_zero (S := S8x256x601) zeros3_3]
  simp only [View.readAt_eq_ld, View.ld_unit_zero (S := S8x601) zeros3_2, View.ld_unit_zero (S := S8x256x601) zeros3_3]

/-! ## The region's proof data -/

/-- The proof data on core `c`: the arrays as the region finds them; after the body at point `t` each input's buffer
    at its block and the output's at the scores' block minus the pairwise block; the invariant is the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 1 t) (iblk3 V c 0 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = k3_pay1 (iblk3 V c 1 t) (iblk3 V c 0 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The region's invariant is the class invariant itself, at the first point and after the last. -/
theorem hin3 (c : Dev nD) : (Pipeline.ΦA spec3 c : sProp 𝕄) ⊢ (dat3 V c).Φ 0 := .rfl
theorem hout3 (c : Dev nD) : (dat3 V c).Φ (Fin.last cfg3.N) ⊢ (Pipeline.ΦA spec3 c : sProp 𝕄) := .rfl

end Cert.KernelIdeal.Frame
-- ==== Proof.KI.Red4Runs.lean ====
/-
  The reduce call (custom_call 4): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)

/-- "this is the last proposal tile": the condition of the product's branch. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Away from the last proposal tile the body stores nothing into the output block, -/
theorem idleAt4_2 : ∀ t : Fin cfg4.N, ¬cond4_1 (grid4.coords t) → cfg4.idle 2 (grid4.coords t) = true := by decide +kernel
/-- and the block is not written back there. -/
theorem noFlush4_2 : ∀ t : Fin cfg4.N, ¬cond4_1 (grid4.coords t) → (cfg4.win 2).flush t = false := by decide +kernel
/-- At the last proposal tile it is stored. -/
theorem liveAt4_2 : ∀ t : Fin cfg4.N, cond4_1 (grid4.coords t) → cfg4.idle 2 (grid4.coords t) = false := by decide +kernel

/-! ## The memrefs the body is called with -/

abbrev VO4_2 : View sig .tc .vmem S8x601 .f32 := (Memref.whole cc4_stg2_0 : Memref sig .tc .vmem S8x601 .f32).view
abbrev ms4_0 (t : Fin cfg4.N) : Memref sig .tc .vmem S8x256x601 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S601x601 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S8x601 .f32 := win4_2.stage (cfg4.slots t 2)
abbrev hs4_2 (t : Fin cfg4.N) : (ms4_2 t).IsWhole := hstage4_2 ((cfg4.slots t 2).cast nbuf4_2)
/-- The carried maximum's buffer: a whole scoped buffer of the call's own. -/
abbrev scM4_0 : Memref sig .tc .vmem S8x601 .f32 := Memref.whole cc4_scratch0
abbrev VS4_0 : View sig .tc .vmem S8x601 .f32 := scM4_0.view

/-- The class invariant with the carried maximum's buffer taken out of the scoped rest: that buffer at some
    contents, every other scoped buffer unopened, the generator register at some state. -/
theorem PhiA4_eq (c : Dev nD) :
    (Pipeline.ΦA spec4 c : sProp 𝕄)
      = iprop(iprop(iprop((∃ d, owns (c : Thread nD τ) scM4_0 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The input windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scores' staging buffer holds the point's block whenever the body runs, -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- and so does the matrix's, fetched once: its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end Cert.KernelIdeal.Frame

end
-- ==== Proof.KI.Red4Run.lean ====
/-
  The reduce call's body (custom_call 4) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.KI.Red4Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun4_A (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond4_0 i) (hc1 : ¬cond4_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc4__reduce_kernel i arg2 harg2 arg3 harg3 arg4 harg4 arg5 harg5) K } := by
  refine ⟨?_, fun E K => ?run⟩
  case run =>
    simp only [cc4__reduce_kernel_eq_skeleton]; unfold cc4__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun4_B (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : ¬cond4_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc4__reduce_kernel i arg2 harg2 arg3 harg3 arg4 harg4 arg5 harg5) K } := by
  refine ⟨?_, fun E K => ?run⟩
  case run =>
    simp only [cc4__reduce_kernel_eq_skeleton]; unfold cc4__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun4_C (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__reduce_kernel i arg2 harg2 arg3 harg3 arg4 harg4 arg5 harg5) K } := by
  refine ⟨?_, ?_, fun E K => ?run⟩
  case run =>
    simp only [cc4__reduce_kernel_eq_skeleton]; unfold cc4__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Red4.lean ====
/-
  The reduce call (custom_call 4) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.KI.Red4Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover4_A_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond4_0 i) (hc1 : ¬cond4_1 i) (x0 : Vec F S8x256x601 .f32) (y : S8x601.Idx) :
    ∃ pc ∈ (kernelRun4_A c i arg2 harg2 arg3 harg3 arg4 harg4 arg5 harg5 hc0 hc1 x0).1, y ∈ pc.1.set :=
  View.cover_of_tiledL (kernelRun4_A c i arg2 harg2 arg3 harg3 arg4 harg4 arg5 harg5 hc0 hc1 x0).1 S8x601.size (by sl_kernel_rfl) y
/-- The carried buffer after a first proposal tile: its pieces read back. -/
def sout4_A_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond4_0 i) (hc1 : ¬cond4_1 i) (x0 : Vec F S8x256x601 .f32) : Vec F S8x601 .f32 :=
  VS4_0.read (Elt F) (VS4_0.writes (Elt F) VS4_0.junk (kernelRun4_A c i arg2 harg2 arg3 harg3 arg4 harg4 arg5 harg5 hc0 hc1 x0).1)

theorem scover4_B_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : ¬cond4_1 i) (x0 : Vec F S8x256x601 .f32) (xs0 : Vec F S8x601 .f32) (y : S8x601.Idx) :
    ∃ pc ∈ (kernelRun4_B c i arg2 harg2 arg3 harg3 arg4 harg4 arg5 harg5 hc0 hc1 x0 xs0).1, y ∈ pc.1.set :=
  View.cover_of_tiledL (kernelRun4_B c i arg2 harg2 arg3 harg3 arg4 harg4 arg5 harg5 hc0 hc1 x0 xs0).1 S8x601.size (by sl_kernel_rfl) y
/-- The carried buffer after an inner proposal tile. -/
def sout4_B_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : ¬cond4_1 i) (x0 : Vec F S8x256x601 .f32) (xs0 : Vec F S8x601 .f32) : Vec F S8x601 .f32 :=
  VS4_0.read (Elt F) (VS4_0.writes (Elt F) VS4_0.junk (kernelRun4_B c i arg2 harg2 arg3 harg3 arg4 harg4 arg5 harg5 hc0 hc1 x0 xs0).1)

theorem cover4_C_2 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i) (x0 : Vec F S8x256x601 .f32) (x1 : Vec F S601x601 .f32) (xs0 : Vec F S8x601 .f32) (y : S8x601.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S8x601.size (by sl_kernel_rfl) y
/-- The output block after a last proposal tile. -/
def out4_C_2 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i) (x0 : Vec F S8x256x601 .f32) (x1 : Vec F S601x601 .f32) (xs0 : Vec F S8x601 .f32) : Vec F S8x601 .f32 :=
  VO4_2.read (Elt F) (VO4_2.writes (Elt F) VO4_2.junk (kernelRun4_C c i arg2 harg2 arg3 harg3 arg4 harg4 arg5 harg5 hc0 hc1 x0 x1 xs0).1)
theorem scover4_C_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i) (x0 : Vec F S8x256x601 .f32) (x1 : Vec F S601x601 .f32) (xs0 : Vec F S8x601 .f32) (y : S8x601.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S8x601.size (by sl_kernel_rfl) y
/-- The carried buffer after a last proposal tile. -/
def sout4_C_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i) (x0 : Vec F S8x256x601 .f32) (x1 : Vec F S601x601 .f32) (xs0 : Vec F S8x601 .f32) : Vec F S8x601 .f32 :=
  VS4_0.read (Elt F) (VS4_0.writes (Elt F) VS4_0.junk (kernelRun4_C c i arg2 harg2 arg3 harg3 arg4 harg4 arg5 harg5 hc0 hc1 x0 x1 xs0).2.1)

/-- What stands for the output block where the body does not store it (nothing consults it there). -/
def idleOut4 : Vec F S8x601 .f32 := VO4_2.read (Elt F) VO4_2.junk

/-! ## The accumulation over the grid points -/

/-- After the body at position `n`: (the output block, the carried buffer). -/
def outsAt4 (c : Dev nD) : (n : ℕ) → n < cfg4.N → Vec F S8x601 .f32 × Vec F S8x601 .f32
  | 0, hn => (idleOut4, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩))
  | n + 1, hn =>
    if h0 : (n + 1) % 8 = 0 then
      if h1 : (n + 1) % 8 = 7 then
        False.elim (by omega)
      else
        (idleOut4, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩))
    else
      if h1 : (n + 1) % 8 = 7 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2,
         sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (idleOut4, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (outsAt4 c n (Nat.lt_of_succ_lt hn)).2)

theorem outsAt4_A (c : Dev nD) (t : Fin cfg4.N) (h0 : t.val % 8 = 0) (h1 : ¬t.val % 8 = 7) :
    outsAt4 V c t.val t.isLt = (idleOut4, sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t)) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = (idleOut4, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 8 = 0
  · have h1 : ¬t.val % 8 = 7 := by omega
    have hc1 : ¬cond4_1 (grid4.coords t) := fun h => h1 ((hcond4_1 t).mp h)
    rw [Dat.leavesExact_idle (dat4 V c) 2 t (idleAt4_2 t hc1) (noFlush4_2 t hc1)]
    rw [outsAt4_A V c t h0 h1]
    unfold sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) hc1 (iblk4 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _)
          iexact HR
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) hc1 (iblk4 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _)
          iexact HR
        iexact Hg
      isplitl [Ho]; · iexact Ho
      isplitl [H0]; · iexact H0
      isplitl [H1]; · iexact H1
      iexists _; iexact H2
  · have hc0 : ¬cond4_0 (grid4.coords t) := fun h => h0 ((hcond4_0 t).mp h)
    have hz : t.val ≠ 0 := fun e => h0 (by rw [e])
    by_cases h1 : t.val % 8 = 7
    · have hc1 : cond4_1 (grid4.coords t) := (hcond4_1 t).mpr h1
      rw [show (dat4 V c).leavesExact 2 t = owns (c : Thread nD τ) (ms4_2 t) fullShare ((dat4 V c).after 2 t) from by
        unfold Dat.leavesExact; rw [liveAt4_2 t hc1], after4_2]
      rw [outsAt4_C V c t h0 h1]
      unfold out4_C_2 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_C c (grid4.coords t) _ _ _ _ _ _ _ _ hc0 hc1 (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · have hc1 : ¬cond4_1 (grid4.coords t) := fun h => h1 ((hcond4_1 t).mp h)
      rw [Dat.leavesExact_idle (dat4 V c) 2 t (idleAt4_2 t hc1) (noFlush4_2 t hc1)]
      rw [outsAt4_B V c t h0 h1]
      unfold sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_B c (grid4.coords t) _ _ _ _ _ _ _ _ hc0 hc1 (iblk4 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _)
          iexact HR
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: what the carried buffer holds is forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

theorem hout4 (c : Dev nD) : (dat4 V c).Φ (Fin.last cfg4.N) ⊢ (Pipeline.ΦA spec4 c : sProp 𝕄) :=
  Phi_out4 V c _ (by rw [Fin.val_last]; have : cfg4.N = 32 := N_4; omega)

end Cert.KernelIdeal.Frame

end
-- ==== Proof.KI.Upd5.lean ====
/-
  The update step of the mean-field refinement (custom_call 5) as one region of the kernel program: what each
  window's staging buffer holds before and after the body at every grid point, the body's triple, and the body
  obligation the launch theorems ask for — at any float instance.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 5), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The unary scores' staging buffer holds their block at every point (it is fetched at every point), for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The pairwise term's staging buffer holds its block at every point, fetched there or not: its block index is the
    image tile alone, so while the proposal tile runs the index does not move and the buffer, which the body leaves
    as it found it, still holds the block fetched when the image tile began. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: whole buffers, through the rectangle at offset zero -/

theorem zeros5_2 : (![0, 0] : Fin 2 → Nat) = fun _ => 0 := funext fun a => by fin_cases a <;> rfl
theorem zeros5_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k5_pay1 x1 x0`. Each load is of a whole buffer, so it reads the contents;
    the one store is of the whole buffer, so whatever was there before, the buffer reads as the stored value. -/
theorem sound_kernel5 (c : Dev nD) (E : Set ℕ) (i : grid5.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k5_pay1 x1 x0)) -∗ K ⟨⟩))
      ⊢ wp frame (wpE (defs₀ (F := F)) Variants.none c none) E (cc5__update_kernel i arg2 harg2 arg3 harg3 arg4 harg4) K := by
  simp only [cc5__update_kernel_eq_skeleton]; unfold cc5__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros5_3 inb_S8x256x601_S8x256x601_0_0_0 y⟩),
    View.canon_unit_zero (S := S8x256x601) zeros5_3]
  simp only [View.readAt_eq_ld, View.ld_unit_zero (S := S8x601) zeros5_2, View.ld_unit_zero (S := S8x256x601) zeros5_3]

/-! ## The region's proof data -/

/-- The proof data on core `c`: the arrays as the region finds them; after the body at point `t` each input's buffer
    at its block and the output's at the scores' block minus the pairwise block; the invariant is the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay1 (iblk5 V c 1 t) (iblk5 V c 0 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = k5_pay1 (iblk5 V c 1 t) (iblk5 V c 0 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- The region's invariant is the class invariant itself, at the first point and after the last. -/
theorem hin5 (c : Dev nD) : (Pipeline.ΦA spec5 c : sProp 𝕄) ⊢ (dat5 V c).Φ 0 := .rfl
theorem hout5 (c : Dev nD) : (dat5 V c).Φ (Fin.last cfg5.N) ⊢ (Pipeline.ΦA spec5 c : sProp 𝕄) := .rfl

end Cert.KernelIdeal.Frame
-- ==== Proof.KI.Red6Runs.lean ====
/-
  The reduce call (custom_call 6): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 8 = 0 :=
  (by decide +kernel : ∀ t : Fin grid6.N, cond6_0 (grid6.coords t) ↔ t.val % 8 = 0)

/-- "this is the last proposal tile": the condition of the product's branch. -/
abbrev cond6_1 (i : grid6.Coords) : Prop := k6_cond2 i = 1#1
theorem hcond6_1 : ∀ t : Fin cfg6.N, cond6_1 (grid6.coords t) ↔ t.val % 8 = 7 :=
  (by decide +kernel : ∀ t : Fin grid6.N, cond6_1 (grid6.coords t) ↔ t.val % 8 = 7)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
/-- Away from the last proposal tile the body stores nothing into the output block, -/
theorem idleAt6_2 : ∀ t : Fin cfg6.N, ¬cond6_1 (grid6.coords t) → cfg6.idle 2 (grid6.coords t) = true := by decide +kernel
/-- and the block is not written back there. -/
theorem noFlush6_2 : ∀ t : Fin cfg6.N, ¬cond6_1 (grid6.coords t) → (cfg6.win 2).flush t = false := by decide +kernel
/-- At the last proposal tile it is stored. -/
theorem liveAt6_2 : ∀ t : Fin cfg6.N, cond6_1 (grid6.coords t) → cfg6.idle 2 (grid6.coords t) = false := by decide +kernel

/-! ## The memrefs the body is called with -/

abbrev VO6_2 : View sig .tc .vmem S8x601 .f32 := (Memref.whole cc6_stg2_0 : Memref sig .tc .vmem S8x601 .f32).view
abbrev ms6_0 (t : Fin cfg6.N) : Memref sig .tc .vmem S8x256x601 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S601x601 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S8x601 .f32 := win6_2.stage (cfg6.slots t 2)
abbrev hs6_2 (t : Fin cfg6.N) : (ms6_2 t).IsWhole := hstage6_2 ((cfg6.slots t 2).cast nbuf6_2)
/-- The carried maximum's buffer: a whole scoped buffer of the call's own. -/
abbrev scM6_0 : Memref sig .tc .vmem S8x601 .f32 := Memref.whole cc6_scratch0
abbrev VS6_0 : View sig .tc .vmem S8x601 .f32 := scM6_0.view

/-- The class invariant with the carried maximum's buffer taken out of the scoped rest: that buffer at some
    contents, every other scoped buffer unopened, the generator register at some state. -/
theorem PhiA6_eq (c : Dev nD) :
    (Pipeline.ΦA spec6 c : sProp 𝕄)
      = iprop(iprop(iprop((∃ d, owns (c : Thread nD τ) scM6_0 fullShare d)) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

/-! ## The input windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The scores' staging buffer holds the point's block whenever the body runs, -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- and so does the matrix's, fetched once: its block index never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

end Cert.KernelIdeal.Frame

end
-- ==== Proof.KI.Red6Run.lean ====
/-
  The reduce call's body (custom_call 6) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.KI.Red6Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun6_A (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond6_0 i) (hc1 : ¬cond6_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc6__reduce_kernel i arg2 harg2 arg3 harg3 arg4 harg4 arg5 harg5) K } := by
  refine ⟨?_, fun E K => ?run⟩
  case run =>
    simp only [cc6__reduce_kernel_eq_skeleton]; unfold cc6__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun6_B (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : ¬cond6_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc6__reduce_kernel i arg2 harg2 arg3 harg3 arg4 harg4 arg5 harg5) K } := by
  refine ⟨?_, fun E K => ?run⟩
  case run =>
    simp only [cc6__reduce_kernel_eq_skeleton]; unfold cc6__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun6_C (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc6__reduce_kernel i arg2 harg2 arg3 harg3 arg4 harg4 arg5 harg5) K } := by
  refine ⟨?_, ?_, fun E K => ?run⟩
  case run =>
    simp only [cc6__reduce_kernel_eq_skeleton]; unfold cc6__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Red6.lean ====
/-
  The reduce call (custom_call 6) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.KI.Red6Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover6_A_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond6_0 i) (hc1 : ¬cond6_1 i) (x0 : Vec F S8x256x601 .f32) (y : S8x601.Idx) :
    ∃ pc ∈ (kernelRun6_A c i arg2 harg2 arg3 harg3 arg4 harg4 arg5 harg5 hc0 hc1 x0).1, y ∈ pc.1.set :=
  View.cover_of_tiledL (kernelRun6_A c i arg2 harg2 arg3 harg3 arg4 harg4 arg5 harg5 hc0 hc1 x0).1 S8x601.size (by sl_kernel_rfl) y
/-- The carried buffer after a first proposal tile: its pieces read back. -/
def sout6_A_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond6_0 i) (hc1 : ¬cond6_1 i) (x0 : Vec F S8x256x601 .f32) : Vec F S8x601 .f32 :=
  VS6_0.read (Elt F) (VS6_0.writes (Elt F) VS6_0.junk (kernelRun6_A c i arg2 harg2 arg3 harg3 arg4 harg4 arg5 harg5 hc0 hc1 x0).1)

theorem scover6_B_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : ¬cond6_1 i) (x0 : Vec F S8x256x601 .f32) (xs0 : Vec F S8x601 .f32) (y : S8x601.Idx) :
    ∃ pc ∈ (kernelRun6_B c i arg2 harg2 arg3 harg3 arg4 harg4 arg5 harg5 hc0 hc1 x0 xs0).1, y ∈ pc.1.set :=
  View.cover_of_tiledL (kernelRun6_B c i arg2 harg2 arg3 harg3 arg4 harg4 arg5 harg5 hc0 hc1 x0 xs0).1 S8x601.size (by sl_kernel_rfl) y
/-- The carried buffer after an inner proposal tile. -/
def sout6_B_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : ¬cond6_1 i) (x0 : Vec F S8x256x601 .f32) (xs0 : Vec F S8x601 .f32) : Vec F S8x601 .f32 :=
  VS6_0.read (Elt F) (VS6_0.writes (Elt F) VS6_0.junk (kernelRun6_B c i arg2 harg2 arg3 harg3 arg4 harg4 arg5 harg5 hc0 hc1 x0 xs0).1)

theorem cover6_C_2 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i) (x0 : Vec F S8x256x601 .f32) (x1 : Vec F S601x601 .f32) (xs0 : Vec F S8x601 .f32) (y : S8x601.Idx) :
    ∃ pc ∈ (kernelRun6_C c i arg2 harg2 arg3 harg3 arg4 harg4 arg5 harg5 hc0 hc1 x0 x1 xs0).1, y ∈ pc.1.set :=
  View.cover_of_tiledL (kernelRun6_C c i arg2 harg2 arg3 harg3 arg4 harg4 arg5 harg5 hc0 hc1 x0 x1 xs0).1 S8x601.size (by sl_kernel_rfl) y
/-- The output block after a last proposal tile. -/
def out6_C_2 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i) (x0 : Vec F S8x256x601 .f32) (x1 : Vec F S601x601 .f32) (xs0 : Vec F S8x601 .f32) : Vec F S8x601 .f32 :=
  VO6_2.read (Elt F) (VO6_2.writes (Elt F) VO6_2.junk (kernelRun6_C c i arg2 harg2 arg3 harg3 arg4 harg4 arg5 harg5 hc0 hc1 x0 x1 xs0).1)
theorem scover6_C_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i) (x0 : Vec F S8x256x601 .f32) (x1 : Vec F S601x601 .f32) (xs0 : Vec F S8x601 .f32) (y : S8x601.Idx) :
    ∃ pc ∈ (kernelRun6_C c i arg2 harg2 arg3 harg3 arg4 harg4 arg5 harg5 hc0 hc1 x0 x1 xs0).2.1, y ∈ pc.1.set :=
  View.cover_of_tiledL (kernelRun6_C c i arg2 harg2 arg3 harg3 arg4 harg4 arg5 harg5 hc0 hc1 x0 x1 xs0).2.1 S8x601.size (by sl_kernel_rfl) y
/-- The carried buffer after a last proposal tile. -/
def sout6_C_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i) (x0 : Vec F S8x256x601 .f32) (x1 : Vec F S601x601 .f32) (xs0 : Vec F S8x601 .f32) : Vec F S8x601 .f32 :=
  VS6_0.read (Elt F) (VS6_0.writes (Elt F) VS6_0.junk (kernelRun6_C c i arg2 harg2 arg3 harg3 arg4 harg4 arg5 harg5 hc0 hc1 x0 x1 xs0).2.1)

/-- What stands for the output block where the body does not store it (nothing consults it there). -/
def idleOut6 : Vec F S8x601 .f32 := VO6_2.read (Elt F) VO6_2.junk

/-! ## The accumulation over the grid points -/

/-- After the body at position `n`: (the output block, the carried buffer). -/
def outsAt6 (c : Dev nD) : (n : ℕ) → n < cfg6.N → Vec F S8x601 .f32 × Vec F S8x601 .f32
  | 0, hn => (idleOut6, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩))
  | n + 1, hn =>
    if h0 : (n + 1) % 8 = 0 then
      if h1 : (n + 1) % 8 = 7 then
        False.elim (by omega)
      else
        (idleOut6, sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩))
    else
      if h1 : (n + 1) % 8 = 7 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2,
         sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2)
      else
        (idleOut6, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (outsAt6 c n (Nat.lt_of_succ_lt hn)).2)

theorem outsAt6_A (c : Dev nD) (t : Fin cfg6.N) (h0 : t.val % 8 = 0) (h1 : ¬t.val % 8 = 7) :
    outsAt6 V c t.val t.isLt = (idleOut6, sout6_A_0 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t)) := by
  obtain ⟨n, hn⟩ := t
  cases n with
  | zero => exact rfl
  | succ n => exact (dif_pos h0).trans ((dif_neg h1).trans rfl)

theorem outsAt6_B (c : Dev nD) (t : Fin cfg6.N) (h0 : ¬t.val % 8 = 0) (h1 : ¬t.val % 8 = 7) :
    outsAt6 V c t.val t.isLt = (idleOut6, sout6_B_0 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 8 = 0) (h1 : t.val % 8 = 7) :
    outsAt6 V c t.val t.isLt = (out6_C_2 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2,
      sout6_C_0 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(owns (c : Thread nD τ) scM6_0 fullShare ((outsAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 32 := lt_of_lt_of_eq t.isLt (show cfg6.N = 32 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  by_cases h0 : t.val % 8 = 0
  · have h1 : ¬t.val % 8 = 7 := by omega
    have hc1 : ¬cond6_1 (grid6.coords t) := fun h => h1 ((hcond6_1 t).mp h)
    rw [Dat.leavesExact_idle (dat6 V c) 2 t (idleAt6_2 t hc1) (noFlush6_2 t hc1)]
    rw [outsAt6_A V c t h0 h1]
    unfold sout6_A_0; (try dsimp only)
    by_cases hz : t.val = 0
    · rw [PhiS6_castSucc V c t, PhiS6_zero V c _ _ hz, PhiA6_eq]
      iintro ⟨⟨⟨HS0, HR⟩, Hg⟩, Ho, ⟨%d0, H0⟩, ⟨%d1, H1⟩, ⟨%d2, H2⟩⟩
      iapply ((kernelRun6_A c (grid6.coords t) _ _ _ _ _ _ _ _ ((hcond6_0 t).mpr h0) hc1 (iblk6 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _)
          iexact HR
        iexact Hg
      isplitl [Ho]; · iexact Ho
      isplitl [H0]; · iexact H0
      isplitl [H1]; · iexact H1
      iexists _; iexact H2
    · rw [PhiS6_castSucc V c t, PhiS6_pos V c _ _ hz]
      iintro ⟨⟨⟨HS0, HR⟩, Hg⟩, Ho, ⟨%d0, H0⟩, ⟨%d1, H1⟩, ⟨%d2, H2⟩⟩
      iapply ((kernelRun6_A c (grid6.coords t) _ _ _ _ _ _ _ _ ((hcond6_0 t).mpr h0) hc1 (iblk6 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _)
          iexact HR
        iexact Hg
      isplitl [Ho]; · iexact Ho
      isplitl [H0]; · iexact H0
      isplitl [H1]; · iexact H1
      iexists _; iexact H2
  · have hc0 : ¬cond6_0 (grid6.coords t) := fun h => h0 ((hcond6_0 t).mp h)
    have hz : t.val ≠ 0 := fun e => h0 (by rw [e])
    by_cases h1 : t.val % 8 = 7
    · have hc1 : cond6_1 (grid6.coords t) := (hcond6_1 t).mpr h1
      rw [show (dat6 V c).leavesExact 2 t = owns (c : Thread nD τ) (ms6_2 t) fullShare ((dat6 V c).after 2 t) from by
        unfold Dat.leavesExact; rw [liveAt6_2 t hc1], after6_2]
      rw [outsAt6_C V c t h0 h1]
      unfold out6_C_2 sout6_C_0; (try dsimp only)
      rw [PhiS6_castSucc V c t, PhiS6_pos V c _ _ hz]
      iintro ⟨⟨⟨HS0, HR⟩, Hg⟩, Ho, ⟨%d0, H0⟩, ⟨%d1, H1⟩, ⟨%d2, H2⟩⟩
      iapply ((kernelRun6_C c (grid6.coords t) _ _ _ _ _ _ _ _ hc0 hc1 (iblk6 V c 0 t) (iblk6 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover6_C_2 c _ _ _ _ _ _ _ _ _ _ _ _ _ _)
    · have hc1 : ¬cond6_1 (grid6.coords t) := fun h => h1 ((hcond6_1 t).mp h)
      rw [Dat.leavesExact_idle (dat6 V c) 2 t (idleAt6_2 t hc1) (noFlush6_2 t hc1)]
      rw [outsAt6_B V c t h0 h1]
      unfold sout6_B_0; (try dsimp only)
      rw [PhiS6_castSucc V c t, PhiS6_pos V c _ _ hz]
      iintro ⟨⟨⟨HS0, HR⟩, Hg⟩, Ho, ⟨%d0, H0⟩, ⟨%d1, H1⟩, ⟨%d2, H2⟩⟩
      iapply ((kernelRun6_B c (grid6.coords t) _ _ _ _ _ _ _ _ hc0 hc1 (iblk6 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_B_0 c _ _ _ _ _ _ _ _ _ _ _ _ _)
          iexact HR
        iexact Hg
      isplitl [Ho]; · iexact Ho
      isplitl [H0]; · iexact H0
      isplitl [H1]; · iexact H1
      iexists _; iexact H2

theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: what the carried buffer holds is forgotten. -/
theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

theorem hout6 (c : Dev nD) : (dat6 V c).Φ (Fin.last cfg6.N) ⊢ (Pipeline.ΦA spec6 c : sProp 𝕄) :=
  Phi_out6 V c _ (by rw [Fin.val_last]; have : cfg6.N = 32 := N_6; omega)

end Cert.KernelIdeal.Frame

end
-- ==== Proof.KI.Upd7.lean ====
/-
  The update step of the mean-field refinement (custom_call 7) as one region of the kernel program: what each
  window's staging buffer holds before and after the body at every grid point, the body's triple, and the body
  obligation the launch theorems ask for — at any float instance.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 7), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The unary scores' staging buffer holds their block at every point (it is fetched at every point), for any proof
    data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The pairwise term's staging buffer holds its block at every point, fetched there or not: its block index is the
    image tile alone, so while the proposal tile runs the index does not move and the buffer, which the body leaves
    as it found it, still holds the block fetched when the image tile began. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: whole buffers, through the rectangle at offset zero -/

theorem zeros7_2 : (![0, 0] : Fin 2 → Nat) = fun _ => 0 := funext fun a => by fin_cases a <;> rfl
theorem zeros7_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k7_pay1 x1 x0`. Each load is of a whole buffer, so it reads the contents;
    the one store is of the whole buffer, so whatever was there before, the buffer reads as the stored value. -/
theorem sound_kernel7 (c : Dev nD) (E : Set ℕ) (i : grid7.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k7_pay1 x1 x0)) -∗ K ⟨⟩))
      ⊢ wp frame (wpE (defs₀ (F := F)) Variants.none c none) E (cc7__update_kernel i arg2 harg2 arg3 harg3 arg4 harg4) K := by
  simp only [cc7__update_kernel_eq_skeleton]; unfold cc7__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros7_3 inb_S8x256x601_S8x256x601_0_0_0 y⟩),
    View.canon_unit_zero (S := S8x256x601) zeros7_3]
  simp only [View.readAt_eq_ld, View.ld_unit_zero (S := S8x601) zeros7_2, View.ld_unit_zero (S := S8x256x601) zeros7_3]

/-! ## The region's proof data -/

/-- The proof data on core `c`: the arrays as the region finds them; after the body at point `t` each input's buffer
    at its block and the output's at the scores' block minus the pairwise block; the invariant is the scoped rest and
    the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay1 (iblk7 V c 1 t) (iblk7 V c 0 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = k7_pay1 (iblk7 V c 1 t) (iblk7 V c 0 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so the body's triple applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- The region's invariant is the class invariant itself, at the first point and after the last. -/
theorem hin7 (c : Dev nD) : (Pipeline.ΦA spec7 c : sProp 𝕄) ⊢ (dat7 V c).Φ 0 := .rfl
theorem hout7 (c : Dev nD) : (dat7 V c).Φ (Fin.last cfg7.N) ⊢ (Pipeline.ΦA spec7 c : sProp 𝕄) := .rfl

end Cert.KernelIdeal.Frame
-- ==== Proof.KI.Red8Runs.lean ====
/-
  The reduce call (custom_call 8): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond8_0 (i : grid8.Coords) : Prop := (Scalar.cmpi .ne (Scalar.extui (Scalar.cmpi .eq (BitVec.ofNat 32 (i 1).val) 0#32)) 0#32) = 1#1
theorem hcond8_0 : ∀ t : Fin cfg8.N, cond8_0 (grid8.coords t) ↔ t.val % 8 = 0 :=
  (by decide +kernel : ∀ t : Fin grid8.N, cond8_0 (grid8.coords t) ↔ t.val % 8 = 0)

/-- "this is the last proposal tile": the condition of the product's branch. -/
abbrev cond8_1 (i : grid8.Coords) : Prop := k8_cond2 i = 1#1
theorem hcond8_1 : ∀ t : Fin cfg8.N, cond8_1 (grid8.coords t) ↔ t.val % 8 = 7 :=
  (by decide +kernel : ∀ t : Fin grid8.N, cond8_1 (grid8.coords t) ↔ t.val % 8 = 7)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
/-- Away from the last proposal tile the body stores nothing into the output block, -/
theorem idleAt8_2 : ∀ t : Fin cfg8.N, ¬cond8_1 (grid8.coords t) → cfg8.idle 2 (grid8.coords t) = true := by decide +kernel
/-- and the block is not written back there. -/
theorem noFlush8_2 : ∀ t : Fin cfg8.N, ¬cond8_1 (grid8.coords t) → (cfg8.win 2).flush t = false := by decide +kernel
/-- At the last proposal tile it is stored. -/
theorem liveAt8_2 : ∀ t : Fin cfg8.N, cond8_1 (grid8.coords t) → cfg8.idle 2 (grid8.coords t) = false := by decide +kernel

/-! ## The memrefs the body is called with -/

abbrev VO8_2 : View sig .tc .vmem S8x601 .f32 := (Memref.whole cc8_stg2_0 : Memref sig .tc .vmem S8x601 .f32).view
abbrev ms8_0 (t : Fin cfg8.N) : Memref sig .tc .vmem S8x256x601 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S601x601 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S8x601 .f32 := win8_2.stage (cfg8.slots t 2)
abbrev hs8_2 (t : Fin cfg8.N) : (ms8_2 t).IsWhole := hstage8_2 ((cfg8.slots t 2).cast nbuf8_2)
/-- The carried maximum's buffer: a whole scoped buffer of the call's own. -/
abbrev scM8_0 : Memref sig .tc .vmem S8x601 .f32 := Memref.whole cc8_scratch0
abbrev VS8_0 : View sig .tc .vmem S8x601 .f32 := scM8_0.view

/-- The class invariant with the carried maximum's buffer taken out of the scoped rest: that buffer at some
    contents, every other scoped buffer unopened, the generator register at some state. -/
theorem PhiA8_eq (c : Dev nD) :
    (Pipeline.ΦA spec8 c : sProp 𝕄)
      = iprop(iprop(iprop((∃ d, owns (c : Thread nD τ) scM8_0 fullShare d)) ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

/-! ## The input windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The scores' staging buffer holds the point's block whenever the body runs, -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- and so does the matrix's, fetched once: its block index never moves. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

end Cert.KernelIdeal.Frame

end
-- ==== Proof.KI.Red8Run.lean ====
/-
  The reduce call's body (custom_call 8) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.KI.Red8Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun8_A (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond8_0 i) (hc1 : ¬cond8_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc8__reduce_kernel i arg2 harg2 arg3 harg3 arg4 harg4 arg5 harg5) K } := by
  refine ⟨?_, fun E K => ?run⟩
  case run =>
    simp only [cc8__reduce_kernel_eq_skeleton]; unfold cc8__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun8_B (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : ¬cond8_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc8__reduce_kernel i arg2 harg2 arg3 harg3 arg4 harg4 arg5 harg5) K } := by
  refine ⟨?_, fun E K => ?run⟩
  case run =>
    simp only [cc8__reduce_kernel_eq_skeleton]; unfold cc8__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun8_C (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc8__reduce_kernel i arg2 harg2 arg3 harg3 arg4 harg4 arg5 harg5) K } := by
  refine ⟨?_, ?_, fun E K => ?run⟩
  case run =>
    simp only [cc8__reduce_kernel_eq_skeleton]; unfold cc8__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Red8.lean ====
/-
  The reduce call (custom_call 8) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.KI.Red8Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover8_A_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond8_0 i) (hc1 : ¬cond8_1 i) (x0 : Vec F S8x256x601 .f32) (y : S8x601.Idx) :
    ∃ pc ∈ (kernelRun8_A c i arg2 harg2 arg3 harg3 arg4 harg4 arg5 harg5 hc0 hc1 x0).1, y ∈ pc.1.set :=
  View.cover_of_tiledL (kernelRun8_A c i arg2 harg2 arg3 harg3 arg4 harg4 arg5 harg5 hc0 hc1 x0).1 S8x601.size (by sl_kernel_rfl) y
/-- The carried buffer after a first proposal tile: its pieces read back. -/
def sout8_A_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond8_0 i) (hc1 : ¬cond8_1 i) (x0 : Vec F S8x256x601 .f32) : Vec F S8x601 .f32 :=
  VS8_0.read (Elt F) (VS8_0.writes (Elt F) VS8_0.junk (kernelRun8_A c i arg2 harg2 arg3 harg3 arg4 harg4 arg5 harg5 hc0 hc1 x0).1)

theorem scover8_B_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : ¬cond8_1 i) (x0 : Vec F S8x256x601 .f32) (xs0 : Vec F S8x601 .f32) (y : S8x601.Idx) :
    ∃ pc ∈ (kernelRun8_B c i arg2 harg2 arg3 harg3 arg4 harg4 arg5 harg5 hc0 hc1 x0 xs0).1, y ∈ pc.1.set :=
  View.cover_of_tiledL (kernelRun8_B c i arg2 harg2 arg3 harg3 arg4 harg4 arg5 harg5 hc0 hc1 x0 xs0).1 S8x601.size (by sl_kernel_rfl) y
/-- The carried buffer after an inner proposal tile. -/
def sout8_B_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : ¬cond8_1 i) (x0 : Vec F S8x256x601 .f32) (xs0 : Vec F S8x601 .f32) : Vec F S8x601 .f32 :=
  VS8_0.read (Elt F) (VS8_0.writes (Elt F) VS8_0.junk (kernelRun8_B c i arg2 harg2 arg3 harg3 arg4 harg4 arg5 harg5 hc0 hc1 x0 xs0).1)

theorem cover8_C_2 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i) (x0 : Vec F S8x256x601 .f32) (x1 : Vec F S601x601 .f32) (xs0 : Vec F S8x601 .f32) (y : S8x601.Idx) :
    ∃ pc ∈ (kernelRun8_C c i arg2 harg2 arg3 harg3 arg4 harg4 arg5 harg5 hc0 hc1 x0 x1 xs0).1, y ∈ pc.1.set :=
  View.cover_of_tiledL (kernelRun8_C c i arg2 harg2 arg3 harg3 arg4 harg4 arg5 harg5 hc0 hc1 x0 x1 xs0).1 S8x601.size (by sl_kernel_rfl) y
/-- The output block after a last proposal tile. -/
def out8_C_2 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i) (x0 : Vec F S8x256x601 .f32) (x1 : Vec F S601x601 .f32) (xs0 : Vec F S8x601 .f32) : Vec F S8x601 .f32 :=
  VO8_2.read (Elt F) (VO8_2.writes (Elt F) VO8_2.junk (kernelRun8_C c i arg2 harg2 arg3 harg3 arg4 harg4 arg5 harg5 hc0 hc1 x0 x1 xs0).1)
theorem scover8_C_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i) (x0 : Vec F S8x256x601 .f32) (x1 : Vec F S601x601 .f32) (xs0 : Vec F S8x601 .f32) (y : S8x601.Idx) :
    ∃ pc ∈ (kernelRun8_C c i arg2 harg2 arg3 harg3 arg4 harg4 arg5 harg5 hc0 hc1 x0 x1 xs0).2.1, y ∈ pc.1.set :=
  View.cover_of_tiledL (kernelRun8_C c i arg2 harg2 arg3 harg3 arg4 harg4 arg5 harg5 hc0 hc1 x0 x1 xs0).2.1 S8x601.size (by sl_kernel_rfl) y
/-- The carried buffer after a last proposal tile. -/
def sout8_C_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i) (x0 : Vec F S8x256x601 .f32) (x1 : Vec F S601x601 .f32) (xs0 : Vec F S8x601 .f32) : Vec F S8x601 .f32 :=
  VS8_0.read (Elt F) (VS8_0.writes (Elt F) VS8_0.junk (kernelRun8_C c i arg2 harg2 arg3 harg3 arg4 harg4 arg5 harg5 hc0 hc1 x0 x1 xs0).2.1)

/-- What stands for the output block where the body does not store it (nothing consults it there). -/
def idleOut8 : Vec F S8x601 .f32 := VO8_2.read (Elt F) VO8_2.junk

/-! ## The accumulation over the grid points -/

/-- After the body at position `n`: (the output block, the carried buffer). -/
def outsAt8 (c : Dev nD) : (n : ℕ) → n < cfg8.N → Vec F S8x601 .f32 × Vec F S8x601 .f32
  | 0, hn => (idleOut8, sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩))
  | n + 1, hn =>
    if h0 : (n + 1) % 8 = 0 then
      if h1 : (n + 1) % 8 = 7 then
        False.elim (by omega)
      else
        (idleOut8, sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩))
    else
      if h1 : (n + 1) % 8 = 7 then
        (out8_C_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2,
         sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2)
      else
        (idleOut8, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (outsAt8 c n (Nat.lt_of_succ_lt hn)).2)

theorem outsAt8_A (c : Dev nD) (t : Fin cfg8.N) (h0 : t.val % 8 = 0) (h1 : ¬t.val % 8 = 7) :
    outsAt8 V c t.val t.isLt = (idleOut8, sout8_A_0 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t)) := by
  obtain ⟨n, hn⟩ := t
  cases n with
  | zero => exact rfl
  | succ n => exact (dif_pos h0).trans ((dif_neg h1).trans rfl)

theorem outsAt8_B (c : Dev nD) (t : Fin cfg8.N) (h0 : ¬t.val % 8 = 0) (h1 : ¬t.val % 8 = 7) :
    outsAt8 V c t.val t.isLt = (idleOut8, sout8_B_0 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt8_C (c : Dev nD) (t : Fin cfg8.N) (h0 : ¬t.val % 8 = 0) (h1 : t.val % 8 = 7) :
    outsAt8 V c t.val t.isLt = (out8_C_2 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2,
      sout8_C_0 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r)) := rfl
theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation -/

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 32 := lt_of_lt_of_eq t.isLt (show cfg8.N = 32 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  by_cases h0 : t.val % 8 = 0
  · have h1 : ¬t.val % 8 = 7 := by omega
    have hc1 : ¬cond8_1 (grid8.coords t) := fun h => h1 ((hcond8_1 t).mp h)
    rw [Dat.leavesExact_idle (dat8 V c) 2 t (idleAt8_2 t hc1) (noFlush8_2 t hc1)]
    rw [outsAt8_A V c t h0 h1]
    unfold sout8_A_0; (try dsimp only)
    by_cases hz : t.val = 0
    · rw [PhiS8_castSucc V c t, PhiS8_zero V c _ _ hz, PhiA8_eq]
      iintro ⟨⟨⟨HS0, HR⟩, Hg⟩, Ho, ⟨%d0, H0⟩, ⟨%d1, H1⟩, ⟨%d2, H2⟩⟩
      iapply ((kernelRun8_A c (grid8.coords t) _ _ _ _ _ _ _ _ ((hcond8_0 t).mpr h0) hc1 (iblk8 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _)
          iexact HR
        iexact Hg
      isplitl [Ho]; · iexact Ho
      isplitl [H0]; · iexact H0
      isplitl [H1]; · iexact H1
      iexists _; iexact H2
    · rw [PhiS8_castSucc V c t, PhiS8_pos V c _ _ hz]
      iintro ⟨⟨⟨HS0, HR⟩, Hg⟩, Ho, ⟨%d0, H0⟩, ⟨%d1, H1⟩, ⟨%d2, H2⟩⟩
      iapply ((kernelRun8_A c (grid8.coords t) _ _ _ _ _ _ _ _ ((hcond8_0 t).mpr h0) hc1 (iblk8 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _)
          iexact HR
        iexact Hg
      isplitl [Ho]; · iexact Ho
      isplitl [H0]; · iexact H0
      isplitl [H1]; · iexact H1
      iexists _; iexact H2
  · have hc0 : ¬cond8_0 (grid8.coords t) := fun h => h0 ((hcond8_0 t).mp h)
    have hz : t.val ≠ 0 := fun e => h0 (by rw [e])
    by_cases h1 : t.val % 8 = 7
    · have hc1 : cond8_1 (grid8.coords t) := (hcond8_1 t).mpr h1
      rw [show (dat8 V c).leavesExact 2 t = owns (c : Thread nD τ) (ms8_2 t) fullShare ((dat8 V c).after 2 t) from by
        unfold Dat.leavesExact; rw [liveAt8_2 t hc1], after8_2]
      rw [outsAt8_C V c t h0 h1]
      unfold out8_C_2 sout8_C_0; (try dsimp only)
      rw [PhiS8_castSucc V c t, PhiS8_pos V c _ _ hz]
      iintro ⟨⟨⟨HS0, HR⟩, Hg⟩, Ho, ⟨%d0, H0⟩, ⟨%d1, H1⟩, ⟨%d2, H2⟩⟩
      iapply ((kernelRun8_C c (grid8.coords t) _ _ _ _ _ _ _ _ hc0 hc1 (iblk8 V c 0 t) (iblk8 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover8_C_2 c _ _ _ _ _ _ _ _ _ _ _ _ _ _)
    · have hc1 : ¬cond8_1 (grid8.coords t) := fun h => h1 ((hcond8_1 t).mp h)
      rw [Dat.leavesExact_idle (dat8 V c) 2 t (idleAt8_2 t hc1) (noFlush8_2 t hc1)]
      rw [outsAt8_B V c t h0 h1]
      unfold sout8_B_0; (try dsimp only)
      rw [PhiS8_castSucc V c t, PhiS8_pos V c _ _ hz]
      iintro ⟨⟨⟨HS0, HR⟩, Hg⟩, Ho, ⟨%d0, H0⟩, ⟨%d1, H1⟩, ⟨%d2, H2⟩⟩
      iapply ((kernelRun8_B c (grid8.coords t) _ _ _ _ _ _ _ _ hc0 hc1 (iblk8 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_B_0 c _ _ _ _ _ _ _ _ _ _ _ _ _)
          iexact HR
        iexact Hg
      isplitl [Ho]; · iexact Ho
      isplitl [H0]; · iexact H0
      isplitl [H1]; · iexact H1
      iexists _; iexact H2

theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : (Pipeline.ΦA spec8 c : sProp 𝕄) ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: what the carried buffer holds is forgotten. -/
theorem Phi_out8 (c : Dev nD) (t : Fin (cfg8.N + 1)) (ht : t.val ≠ 0) : (dat8 V c).Φ t ⊢ (Pipeline.ΦA spec8 c : sProp 𝕄) := by
  rw [show (dat8 V c).Φ t = PhiS8 V c t.val (Nat.le_of_lt_succ t.isLt) from rfl, PhiS8_pos V c _ _ ht, PhiA8_eq]
  iintro ⟨⟨HS0, HR⟩, Hg⟩
  isplitl [HS0 HR]
  · isplitl [HS0]
    · iexists _; iexact HS0
    iexact HR
  iexact Hg

theorem hout8 (c : Dev nD) : (dat8 V c).Φ (Fin.last cfg8.N) ⊢ (Pipeline.ΦA spec8 c : sProp 𝕄) :=
  Phi_out8 V c _ (by rw [Fin.val_last]; have : cfg8.N = 32 := N_8; omega)

end Cert.KernelIdeal.Frame

end
-- ==== Proof.KI.Upd9.lean ====
/-
  The update step of the mean-field refinement (custom_call 9) as one region of the kernel program: what each
  window's staging buffer holds before and after the body at every grid point, the body's triple, and the body
  obligation the launch theorems ask for — at any float instance.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 9), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The unary scores' staging buffer holds their block at every point (it is fetched at every point), for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The pairwise term's staging buffer holds its block at every point, fetched there or not: its block index is the
    image tile alone, so while the proposal tile runs the index does not move and the buffer, which the body leaves
    as it found it, still holds the block fetched when the image tile began. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: whole buffers, through the rectangle at offset zero -/

theorem zeros9_2 : (![0, 0] : Fin 2 → Nat) = fun _ => 0 := funext fun a => by fin_cases a <;> rfl
theorem zeros9_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k9_pay1 x1 x0`. Each load is of a whole buffer, so it reads the contents;
    the one store is of the whole buffer, so whatever was there before, the buffer reads as the stored value. -/
theorem sound_kernel9 (c : Dev nD) (E : Set ℕ) (i : grid9.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k9_pay1 x1 x0)) -∗ K ⟨⟩))
      ⊢ wp frame (wpE (defs₀ (F := F)) Variants.none c none) E (cc9__update_kernel i arg2 harg2 arg3 harg3 arg4 harg4) K := by
  simp only [cc9__update_kernel_eq_skeleton]; unfold cc9__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros9_3 inb_S8x256x601_S8x256x601_0_0_0 y⟩),
    View.canon_unit_zero (S := S8x256x601) zeros9_3]
  simp only [View.readAt_eq_ld, View.ld_unit_zero (S := S8x601) zeros9_2, View.ld_unit_zero (S := S8x256x601) zeros9_3]

/-! ## The region's proof data -/

/-- The proof data on core `c`: the arrays as the region finds them; after the body at point `t` each input's buffer
    at its block and the output's at the scores' block minus the pairwise block; the invariant is the scoped rest and
    the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => k9_pay1 (iblk9 V c 1 t) (iblk9 V c 0 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) :
    (dat9 V c).after 2 t = k9_pay1 (iblk9 V c 1 t) (iblk9 V c 0 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so the body's triple applies; the invariant and the
    core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- The region's invariant is the class invariant itself, at the first point and after the last. -/
theorem hin9 (c : Dev nD) : (Pipeline.ΦA spec9 c : sProp 𝕄) ⊢ (dat9 V c).Φ 0 := .rfl
theorem hout9 (c : Dev nD) : (dat9 V c).Φ (Fin.last cfg9.N) ⊢ (Pipeline.ΦA spec9 c : sProp 𝕄) := .rfl

end Cert.KernelIdeal.Frame
-- ==== Proof.KI.Red10Runs.lean ====
/-
  The reduce call (custom_call 10): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond10_0 (i : grid10.Coords) : Prop := (Scalar.cmpi .ne (Scalar.extui (Scalar.cmpi .eq (BitVec.ofNat 32 (i 1).val) 0#32)) 0#32) = 1#1
theorem hcond10_0 : ∀ t : Fin cfg10.N, cond10_0 (grid10.coords t) ↔ t.val % 8 = 0 :=
  (by decide +kernel : ∀ t : Fin grid10.N, cond10_0 (grid10.coords t) ↔ t.val % 8 = 0)

/-- "this is the last proposal tile": the condition of the product's branch. -/
abbrev cond10_1 (i : grid10.Coords) : Prop := k10_cond2 i = 1#1
theorem hcond10_1 : ∀ t : Fin cfg10.N, cond10_1 (grid10.coords t) ↔ t.val % 8 = 7 :=
  (by decide +kernel : ∀ t : Fin grid10.N, cond10_1 (grid10.coords t) ↔ t.val % 8 = 7)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
/-- Away from the last proposal tile the body stores nothing into the output block, -/
theorem idleAt10_2 : ∀ t : Fin cfg10.N, ¬cond10_1 (grid10.coords t) → cfg10.idle 2 (grid10.coords t) = true := by decide +kernel
/-- and the block is not written back there. -/
theorem noFlush10_2 : ∀ t : Fin cfg10.N, ¬cond10_1 (grid10.coords t) → (cfg10.win 2).flush t = false := by decide +kernel
/-- At the last proposal tile it is stored. -/
theorem liveAt10_2 : ∀ t : Fin cfg10.N, cond10_1 (grid10.coords t) → cfg10.idle 2 (grid10.coords t) = false := by decide +kernel

/-! ## The memrefs the body is called with -/

abbrev VO10_2 : View sig .tc .vmem S8x601 .f32 := (Memref.whole cc10_stg2_0 : Memref sig .tc .vmem S8x601 .f32).view
abbrev ms10_0 (t : Fin cfg10.N) : Memref sig .tc .vmem S8x256x601 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S601x601 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S8x601 .f32 := win10_2.stage (cfg10.slots t 2)
abbrev hs10_2 (t : Fin cfg10.N) : (ms10_2 t).IsWhole := hstage10_2 ((cfg10.slots t 2).cast nbuf10_2)
/-- The carried maximum's buffer: a whole scoped buffer of the call's own. -/
abbrev scM10_0 : Memref sig .tc .vmem S8x601 .f32 := Memref.whole cc10_scratch0
abbrev VS10_0 : View sig .tc .vmem S8x601 .f32 := scM10_0.view

/-- The class invariant with the carried maximum's buffer taken out of the scoped rest: that buffer at some
    contents, every other scoped buffer unopened, the generator register at some state. -/
theorem PhiA10_eq (c : Dev nD) :
    (Pipeline.ΦA spec10 c : sProp 𝕄)
      = iprop(iprop(iprop((∃ d, owns (c : Thread nD τ) scM10_0 fullShare d)) ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

/-! ## The input windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The scores' staging buffer holds the point's block whenever the body runs, -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- and so does the matrix's, fetched once: its block index never moves. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

end Cert.KernelIdeal.Frame

end
-- ==== Proof.KI.Red10Run.lean ====
/-
  The reduce call's body (custom_call 10) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.KI.Red10Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun10_A (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond10_0 i) (hc1 : ¬cond10_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc10__reduce_kernel i arg2 harg2 arg3 harg3 arg4 harg4 arg5 harg5) K } := by
  refine ⟨?_, fun E K => ?run⟩
  case run =>
    simp only [cc10__reduce_kernel_eq_skeleton]; unfold cc10__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun10_B (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : ¬cond10_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc10__reduce_kernel i arg2 harg2 arg3 harg3 arg4 harg4 arg5 harg5) K } := by
  refine ⟨?_, fun E K => ?run⟩
  case run =>
    simp only [cc10__reduce_kernel_eq_skeleton]; unfold cc10__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun10_C (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc10__reduce_kernel i arg2 harg2 arg3 harg3 arg4 harg4 arg5 harg5) K } := by
  refine ⟨?_, ?_, fun E K => ?run⟩
  case run =>
    simp only [cc10__reduce_kernel_eq_skeleton]; unfold cc10__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Red10.lean ====
/-
  The reduce call (custom_call 10) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.KI.Red10Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover10_A_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond10_0 i) (hc1 : ¬cond10_1 i) (x0 : Vec F S8x256x601 .f32) (y : S8x601.Idx) :
    ∃ pc ∈ (kernelRun10_A c i arg2 harg2 arg3 harg3 arg4 harg4 arg5 harg5 hc0 hc1 x0).1, y ∈ pc.1.set :=
  View.cover_of_tiledL (kernelRun10_A c i arg2 harg2 arg3 harg3 arg4 harg4 arg5 harg5 hc0 hc1 x0).1 S8x601.size (by sl_kernel_rfl) y
/-- The carried buffer after a first proposal tile: its pieces read back. -/
def sout10_A_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond10_0 i) (hc1 : ¬cond10_1 i) (x0 : Vec F S8x256x601 .f32) : Vec F S8x601 .f32 :=
  VS10_0.read (Elt F) (VS10_0.writes (Elt F) VS10_0.junk (kernelRun10_A c i arg2 harg2 arg3 harg3 arg4 harg4 arg5 harg5 hc0 hc1 x0).1)

theorem scover10_B_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : ¬cond10_1 i) (x0 : Vec F S8x256x601 .f32) (xs0 : Vec F S8x601 .f32) (y : S8x601.Idx) :
    ∃ pc ∈ (kernelRun10_B c i arg2 harg2 arg3 harg3 arg4 harg4 arg5 harg5 hc0 hc1 x0 xs0).1, y ∈ pc.1.set :=
  View.cover_of_tiledL (kernelRun10_B c i arg2 harg2 arg3 harg3 arg4 harg4 arg5 harg5 hc0 hc1 x0 xs0).1 S8x601.size (by sl_kernel_rfl) y
/-- The carried buffer after an inner proposal tile. -/
def sout10_B_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : ¬cond10_1 i) (x0 : Vec F S8x256x601 .f32) (xs0 : Vec F S8x601 .f32) : Vec F S8x601 .f32 :=
  VS10_0.read (Elt F) (VS10_0.writes (Elt F) VS10_0.junk (kernelRun10_B c i arg2 harg2 arg3 harg3 arg4 harg4 arg5 harg5 hc0 hc1 x0 xs0).1)

theorem cover10_C_2 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i) (x0 : Vec F S8x256x601 .f32) (x1 : Vec F S601x601 .f32) (xs0 : Vec F S8x601 .f32) (y : S8x601.Idx) :
    ∃ pc ∈ (kernelRun10_C c i arg2 harg2 arg3 harg3 arg4 harg4 arg5 harg5 hc0 hc1 x0 x1 xs0).1, y ∈ pc.1.set :=
  View.cover_of_tiledL (kernelRun10_C c i arg2 harg2 arg3 harg3 arg4 harg4 arg5 harg5 hc0 hc1 x0 x1 xs0).1 S8x601.size (by sl_kernel_rfl) y
/-- The output block after a last proposal tile. -/
def out10_C_2 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i) (x0 : Vec F S8x256x601 .f32) (x1 : Vec F S601x601 .f32) (xs0 : Vec F S8x601 .f32) : Vec F S8x601 .f32 :=
  VO10_2.read (Elt F) (VO10_2.writes (Elt F) VO10_2.junk (kernelRun10_C c i arg2 harg2 arg3 harg3 arg4 harg4 arg5 harg5 hc0 hc1 x0 x1 xs0).1)
theorem scover10_C_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i) (x0 : Vec F S8x256x601 .f32) (x1 : Vec F S601x601 .f32) (xs0 : Vec F S8x601 .f32) (y : S8x601.Idx) :
    ∃ pc ∈ (kernelRun10_C c i arg2 harg2 arg3 harg3 arg4 harg4 arg5 harg5 hc0 hc1 x0 x1 xs0).2.1, y ∈ pc.1.set :=
  View.cover_of_tiledL (kernelRun10_C c i arg2 harg2 arg3 harg3 arg4 harg4 arg5 harg5 hc0 hc1 x0 x1 xs0).2.1 S8x601.size (by sl_kernel_rfl) y
/-- The carried buffer after a last proposal tile. -/
def sout10_C_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i) (x0 : Vec F S8x256x601 .f32) (x1 : Vec F S601x601 .f32) (xs0 : Vec F S8x601 .f32) : Vec F S8x601 .f32 :=
  VS10_0.read (Elt F) (VS10_0.writes (Elt F) VS10_0.junk (kernelRun10_C c i arg2 harg2 arg3 harg3 arg4 harg4 arg5 harg5 hc0 hc1 x0 x1 xs0).2.1)

/-- What stands for the output block where the body does not store it (nothing consults it there). -/
def idleOut10 : Vec F S8x601 .f32 := VO10_2.read (Elt F) VO10_2.junk

/-! ## The accumulation over the grid points -/

/-- After the body at position `n`: (the output block, the carried buffer). -/
def outsAt10 (c : Dev nD) : (n : ℕ) → n < cfg10.N → Vec F S8x601 .f32 × Vec F S8x601 .f32
  | 0, hn => (idleOut10, sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩))
  | n + 1, hn =>
    if h0 : (n + 1) % 8 = 0 then
      if h1 : (n + 1) % 8 = 7 then
        False.elim (by omega)
      else
        (idleOut10, sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩))
    else
      if h1 : (n + 1) % 8 = 7 then
        (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2,
         sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2)
      else
        (idleOut10, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (outsAt10 c n (Nat.lt_of_succ_lt hn)).2)

theorem outsAt10_A (c : Dev nD) (t : Fin cfg10.N) (h0 : t.val % 8 = 0) (h1 : ¬t.val % 8 = 7) :
    outsAt10 V c t.val t.isLt = (idleOut10, sout10_A_0 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t)) := by
  obtain ⟨n, hn⟩ := t
  cases n with
  | zero => exact rfl
  | succ n => exact (dif_pos h0).trans ((dif_neg h1).trans rfl)

theorem outsAt10_B (c : Dev nD) (t : Fin cfg10.N) (h0 : ¬t.val % 8 = 0) (h1 : ¬t.val % 8 = 7) :
    outsAt10 V c t.val t.isLt = (idleOut10, sout10_B_0 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt10_C (c : Dev nD) (t : Fin cfg10.N) (h0 : ¬t.val % 8 = 0) (h1 : t.val % 8 = 7) :
    outsAt10 V c t.val t.isLt = (out10_C_2 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2,
      sout10_C_0 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r)) := rfl
theorem PhiS10_pos (c : Dev nD) (n : ℕ) (h : n ≤ cfg10.N) (hz : n ≠ 0) :
    PhiS10 V c n h = iprop(iprop(owns (c : Thread nD τ) scM10_0 fullShare ((outsAt10 V c (n - 1) (by omega)).2) ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The proof data -/

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation -/

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 32 := lt_of_lt_of_eq t.isLt (show cfg10.N = 32 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  by_cases h0 : t.val % 8 = 0
  · have h1 : ¬t.val % 8 = 7 := by omega
    have hc1 : ¬cond10_1 (grid10.coords t) := fun h => h1 ((hcond10_1 t).mp h)
    rw [Dat.leavesExact_idle (dat10 V c) 2 t (idleAt10_2 t hc1) (noFlush10_2 t hc1)]
    rw [outsAt10_A V c t h0 h1]
    unfold sout10_A_0; (try dsimp only)
    by_cases hz : t.val = 0
    · rw [PhiS10_castSucc V c t, PhiS10_zero V c _ _ hz, PhiA10_eq]
      iintro ⟨⟨⟨HS0, HR⟩, Hg⟩, Ho, ⟨%d0, H0⟩, ⟨%d1, H1⟩, ⟨%d2, H2⟩⟩
      iapply ((kernelRun10_A c (grid10.coords t) _ _ _ _ _ _ _ _ ((hcond10_0 t).mpr h0) hc1 (iblk10 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _)
          iexact HR
        iexact Hg
      isplitl [Ho]; · iexact Ho
      isplitl [H0]; · iexact H0
      isplitl [H1]; · iexact H1
      iexists _; iexact H2
    · rw [PhiS10_castSucc V c t, PhiS10_pos V c _ _ hz]
      iintro ⟨⟨⟨HS0, HR⟩, Hg⟩, Ho, ⟨%d0, H0⟩, ⟨%d1, H1⟩, ⟨%d2, H2⟩⟩
      iapply ((kernelRun10_A c (grid10.coords t) _ _ _ _ _ _ _ _ ((hcond10_0 t).mpr h0) hc1 (iblk10 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _)
          iexact HR
        iexact Hg
      isplitl [Ho]; · iexact Ho
      isplitl [H0]; · iexact H0
      isplitl [H1]; · iexact H1
      iexists _; iexact H2
  · have hc0 : ¬cond10_0 (grid10.coords t) := fun h => h0 ((hcond10_0 t).mp h)
    have hz : t.val ≠ 0 := fun e => h0 (by rw [e])
    by_cases h1 : t.val % 8 = 7
    · have hc1 : cond10_1 (grid10.coords t) := (hcond10_1 t).mpr h1
      rw [show (dat10 V c).leavesExact 2 t = owns (c : Thread nD τ) (ms10_2 t) fullShare ((dat10 V c).after 2 t) from by
        unfold Dat.leavesExact; rw [liveAt10_2 t hc1], after10_2]
      rw [outsAt10_C V c t h0 h1]
      unfold out10_C_2 sout10_C_0; (try dsimp only)
      rw [PhiS10_castSucc V c t, PhiS10_pos V c _ _ hz]
      iintro ⟨⟨⟨HS0, HR⟩, Hg⟩, Ho, ⟨%d0, H0⟩, ⟨%d1, H1⟩, ⟨%d2, H2⟩⟩
      iapply ((kernelRun10_C c (grid10.coords t) _ _ _ _ _ _ _ _ hc0 hc1 (iblk10 V c 0 t) (iblk10 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_C_2 c _ _ _ _ _ _ _ _ _ _ _ _ _ _)
    · have hc1 : ¬cond10_1 (grid10.coords t) := fun h => h1 ((hcond10_1 t).mp h)
      rw [Dat.leavesExact_idle (dat10 V c) 2 t (idleAt10_2 t hc1) (noFlush10_2 t hc1)]
      rw [outsAt10_B V c t h0 h1]
      unfold sout10_B_0; (try dsimp only)
      rw [PhiS10_castSucc V c t, PhiS10_pos V c _ _ hz]
      iintro ⟨⟨⟨HS0, HR⟩, Hg⟩, Ho, ⟨%d0, H0⟩, ⟨%d1, H1⟩, ⟨%d2, H2⟩⟩
      iapply ((kernelRun10_B c (grid10.coords t) _ _ _ _ _ _ _ _ hc0 hc1 (iblk10 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_B_0 c _ _ _ _ _ _ _ _ _ _ _ _ _)
          iexact HR
        iexact Hg
      isplitl [Ho]; · iexact Ho
      isplitl [H0]; · iexact H0
      isplitl [H1]; · iexact H1
      iexists _; iexact H2

theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : (Pipeline.ΦA spec10 c : sProp 𝕄) ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives the class's back: what the carried buffer holds is forgotten. -/
theorem Phi_out10 (c : Dev nD) (t : Fin (cfg10.N + 1)) (ht : t.val ≠ 0) : (dat10 V c).Φ t ⊢ (Pipeline.ΦA spec10 c : sProp 𝕄) := by
  rw [show (dat10 V c).Φ t = PhiS10 V c t.val (Nat.le_of_lt_succ t.isLt) from rfl, PhiS10_pos V c _ _ ht, PhiA10_eq]
  iintro ⟨⟨HS0, HR⟩, Hg⟩
  isplitl [HS0 HR]
  · isplitl [HS0]
    · iexists _; iexact HS0
    iexact HR
  iexact Hg

theorem hout10 (c : Dev nD) : (dat10 V c).Φ (Fin.last cfg10.N) ⊢ (Pipeline.ΦA spec10 c : sProp 𝕄) :=
  Phi_out10 V c _ (by rw [Fin.val_last]; have : cfg10.N = 32 := N_10; omega)

end Cert.KernelIdeal.Frame

end
-- ==== Proof.KI.Upd11.lean ====
/-
  The update step of the mean-field refinement (custom_call 11) as one region of the kernel program: what each
  window's staging buffer holds before and after the body at every grid point, the body's triple, and the body
  obligation the launch theorems ask for — at any float instance.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 11), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The unary scores' staging buffer holds their block at every point (it is fetched at every point), for any proof
    data whose array is `V`'s and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The pairwise term's staging buffer holds its block at every point, fetched there or not: its block index is the
    image tile alone, so while the proposal tile runs the index does not move and the buffer, which the body leaves
    as it found it, still holds the block fetched when the image tile began. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: whole buffers, through the rectangle at offset zero -/

theorem zeros11_2 : (![0, 0] : Fin 2 → Nat) = fun _ => 0 := funext fun a => by fin_cases a <;> rfl
theorem zeros11_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k11_pay1 x1 x0`. Each load is of a whole buffer, so it reads the contents;
    the one store is of the whole buffer, so whatever was there before, the buffer reads as the stored value. -/
theorem sound_kernel11 (c : Dev nD) (E : Set ℕ) (i : grid11.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k11_pay1 x1 x0)) -∗ K ⟨⟩))
      ⊢ wp frame (wpE (defs₀ (F := F)) Variants.none c none) E (cc11__update_kernel i arg2 harg2 arg3 harg3 arg4 harg4) K := by
  simp only [cc11__update_kernel_eq_skeleton]; unfold cc11__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros11_3 inb_S8x256x601_S8x256x601_0_0_0 y⟩),
    View.canon_unit_zero (S := S8x256x601) zeros11_3]
  simp only [View.readAt_eq_ld, View.ld_unit_zero (S := S8x601) zeros11_2, View.ld_unit_zero (S := S8x256x601) zeros11_3]

/-! ## The region's proof data -/

/-- The proof data on core `c`: the arrays as the region finds them; after the body at point `t` each input's buffer
    at its block and the output's at the scores' block minus the pairwise block; the invariant is the scoped rest and
    the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => k11_pay1 (iblk11 V c 1 t) (iblk11 V c 0 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) :
    (dat11 V c).after 2 t = k11_pay1 (iblk11 V c 1 t) (iblk11 V c 0 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks, so the body's triple applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- The region's invariant is the class invariant itself, at the first point and after the last. -/
theorem hin11 (c : Dev nD) : (Pipeline.ΦA spec11 c : sProp 𝕄) ⊢ (dat11 V c).Φ 0 := .rfl
theorem hout11 (c : Dev nD) : (dat11 V c).Φ (Fin.last cfg11.N) ⊢ (Pipeline.ΦA spec11 c : sProp 𝕄) := .rfl

end Cert.KernelIdeal.Frame
-- ==== Proof.KI.Red12Runs.lean ====
/-
  The reduce call (custom_call 12): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond12_0 (i : grid12.Coords) : Prop := (Scalar.cmpi .ne (Scalar.extui (Scalar.cmpi .eq (BitVec.ofNat 32 (i 1).val) 0#32)) 0#32) = 1#1
theorem hcond12_0 : ∀ t : Fin cfg12.N, cond12_0 (grid12.coords t) ↔ t.val % 8 = 0 :=
  (by decide +kernel : ∀ t : Fin grid12.N, cond12_0 (grid12.coords t) ↔ t.val % 8 = 0)

/-- "this is the last proposal tile": the condition of the product's branch. -/
abbrev cond12_1 (i : grid12.Coords) : Prop := k12_cond2 i = 1#1
theorem hcond12_1 : ∀ t : Fin cfg12.N, cond12_1 (grid12.coords t) ↔ t.val % 8 = 7 :=
  (by decide +kernel : ∀ t : Fin grid12.N, cond12_1 (grid12.coords t) ↔ t.val % 8 = 7)

/-! ## Where the windows are idle -/

theorem liveAt12_0 : ∀ t : Fin cfg12.N, cfg12.idle 0 (grid12.coords t) = false := by decide +kernel
theorem liveAt12_1 : ∀ t : Fin cfg12.N, cfg12.idle 1 (grid12.coords t) = false := by decide +kernel
/-- Away from the last proposal tile the body stores nothing into the output block, -/
theorem idleAt12_2 : ∀ t : Fin cfg12.N, ¬cond12_1 (grid12.coords t) → cfg12.idle 2 (grid12.coords t) = true := by decide +kernel
/-- and the block is not written back there. -/
theorem noFlush12_2 : ∀ t : Fin cfg12.N, ¬cond12_1 (grid12.coords t) → (cfg12.win 2).flush t = false := by decide +kernel
/-- At the last proposal tile it is stored. -/
theorem liveAt12_2 : ∀ t : Fin cfg12.N, cond12_1 (grid12.coords t) → cfg12.idle 2 (grid12.coords t) = false := by decide +kernel

/-! ## The memrefs the body is called with -/

abbrev VO12_2 : View sig .tc .vmem S8x601 .f32 := (Memref.whole cc12_stg2_0 : Memref sig .tc .vmem S8x601 .f32).view
abbrev ms12_0 (t : Fin cfg12.N) : Memref sig .tc .vmem S8x256x601 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S601x601 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S8x601 .f32 := win12_2.stage (cfg12.slots t 2)
abbrev hs12_2 (t : Fin cfg12.N) : (ms12_2 t).IsWhole := hstage12_2 ((cfg12.slots t 2).cast nbuf12_2)
/-- The carried maximum's buffer: a whole scoped buffer of the call's own. -/
abbrev scM12_0 : Memref sig .tc .vmem S8x601 .f32 := Memref.whole cc12_scratch0
abbrev VS12_0 : View sig .tc .vmem S8x601 .f32 := scM12_0.view

/-- The class invariant with the carried maximum's buffer taken out of the scoped rest: that buffer at some
    contents, every other scoped buffer unopened, the generator register at some state. -/
theorem PhiA12_eq (c : Dev nD) :
    (Pipeline.ΦA spec12 c : sProp 𝕄)
      = iprop(iprop(iprop((∃ d, owns (c : Thread nD τ) scM12_0 fullShare d)) ∗ Pipeline.scopedRestBut (Ix := Unit) (Name := ℕ) (U := UR sig nD τ) (Lvl := ℕ) (Val := Elt F) spec12 c [cc12_scratch0]) ∗ (∃ r, prngReg c r)) := by
  unfold Pipeline.ΦA; rw [scopedRest12_split]; simp only [scM12_0, owns_whole]; try rfl

/-! ## The input windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The scores' staging buffer holds the point's block whenever the body runs, -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- and so does the matrix's, fetched once: its block index never moves. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

end Cert.KernelIdeal.Frame

end
-- ==== Proof.KI.Red12Run.lean ====
/-
  The reduce call's body (custom_call 12) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.KI.Red12Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun12_A (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond12_0 i) (hc1 : ¬cond12_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc12__reduce_kernel i arg2 harg2 arg3 harg3 arg4 harg4 arg5 harg5) K } := by
  refine ⟨?_, fun E K => ?run⟩
  case run =>
    simp only [cc12__reduce_kernel_eq_skeleton]; unfold cc12__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun12_B (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : ¬cond12_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc12__reduce_kernel i arg2 harg2 arg3 harg3 arg4 harg4 arg5 harg5) K } := by
  refine ⟨?_, fun E K => ?run⟩
  case run =>
    simp only [cc12__reduce_kernel_eq_skeleton]; unfold cc12__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun12_C (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc12__reduce_kernel i arg2 harg2 arg3 harg3 arg4 harg4 arg5 harg5) K } := by
  refine ⟨?_, ?_, fun E K => ?run⟩
  case run =>
    simp only [cc12__reduce_kernel_eq_skeleton]; unfold cc12__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Red12.lean ====
/-
  The reduce call (custom_call 12) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.KI.Red12Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover12_A_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond12_0 i) (hc1 : ¬cond12_1 i) (x0 : Vec F S8x256x601 .f32) (y : S8x601.Idx) :
    ∃ pc ∈ (kernelRun12_A c i arg2 harg2 arg3 harg3 arg4 harg4 arg5 harg5 hc0 hc1 x0).1, y ∈ pc.1.set :=
  View.cover_of_tiledL (kernelRun12_A c i arg2 harg2 arg3 harg3 arg4 harg4 arg5 harg5 hc0 hc1 x0).1 S8x601.size (by sl_kernel_rfl) y
/-- The carried buffer after a first proposal tile: its pieces read back. -/
def sout12_A_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond12_0 i) (hc1 : ¬cond12_1 i) (x0 : Vec F S8x256x601 .f32) : Vec F S8x601 .f32 :=
  VS12_0.read (Elt F) (VS12_0.writes (Elt F) VS12_0.junk (kernelRun12_A c i arg2 harg2 arg3 harg3 arg4 harg4 arg5 harg5 hc0 hc1 x0).1)

theorem scover12_B_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : ¬cond12_1 i) (x0 : Vec F S8x256x601 .f32) (xs0 : Vec F S8x601 .f32) (y : S8x601.Idx) :
    ∃ pc ∈ (kernelRun12_B c i arg2 harg2 arg3 harg3 arg4 harg4 arg5 harg5 hc0 hc1 x0 xs0).1, y ∈ pc.1.set :=
  View.cover_of_tiledL (kernelRun12_B c i arg2 harg2 arg3 harg3 arg4 harg4 arg5 harg5 hc0 hc1 x0 xs0).1 S8x601.size (by sl_kernel_rfl) y
/-- The carried buffer after an inner proposal tile. -/
def sout12_B_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : ¬cond12_1 i) (x0 : Vec F S8x256x601 .f32) (xs0 : Vec F S8x601 .f32) : Vec F S8x601 .f32 :=
  VS12_0.read (Elt F) (VS12_0.writes (Elt F) VS12_0.junk (kernelRun12_B c i arg2 harg2 arg3 harg3 arg4 harg4 arg5 harg5 hc0 hc1 x0 xs0).1)

theorem cover12_C_2 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i) (x0 : Vec F S8x256x601 .f32) (x1 : Vec F S601x601 .f32) (xs0 : Vec F S8x601 .f32) (y : S8x601.Idx) :
    ∃ pc ∈ (kernelRun12_C c i arg2 harg2 arg3 harg3 arg4 harg4 arg5 harg5 hc0 hc1 x0 x1 xs0).1, y ∈ pc.1.set :=
  View.cover_of_tiledL (kernelRun12_C c i arg2 harg2 arg3 harg3 arg4 harg4 arg5 harg5 hc0 hc1 x0 x1 xs0).1 S8x601.size (by sl_kernel_rfl) y
/-- The output block after a last proposal tile. -/
def out12_C_2 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i) (x0 : Vec F S8x256x601 .f32) (x1 : Vec F S601x601 .f32) (xs0 : Vec F S8x601 .f32) : Vec F S8x601 .f32 :=
  VO12_2.read (Elt F) (VO12_2.writes (Elt F) VO12_2.junk (kernelRun12_C c i arg2 harg2 arg3 harg3 arg4 harg4 arg5 harg5 hc0 hc1 x0 x1 xs0).1)
theorem scover12_C_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i) (x0 : Vec F S8x256x601 .f32) (x1 : Vec F S601x601 .f32) (xs0 : Vec F S8x601 .f32) (y : S8x601.Idx) :
    ∃ pc ∈ (kernelRun12_C c i arg2 harg2 arg3 harg3 arg4 harg4 arg5 harg5 hc0 hc1 x0 x1 xs0).2.1, y ∈ pc.1.set :=
  View.cover_of_tiledL (kernelRun12_C c i arg2 harg2 arg3 harg3 arg4 harg4 arg5 harg5 hc0 hc1 x0 x1 xs0).2.1 S8x601.size (by sl_kernel_rfl) y
/-- The carried buffer after a last proposal tile. -/
def sout12_C_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i) (x0 : Vec F S8x256x601 .f32) (x1 : Vec F S601x601 .f32) (xs0 : Vec F S8x601 .f32) : Vec F S8x601 .f32 :=
  VS12_0.read (Elt F) (VS12_0.writes (Elt F) VS12_0.junk (kernelRun12_C c i arg2 harg2 arg3 harg3 arg4 harg4 arg5 harg5 hc0 hc1 x0 x1 xs0).2.1)

/-- What stands for the output block where the body does not store it (nothing consults it there). -/
def idleOut12 : Vec F S8x601 .f32 := VO12_2.read (Elt F) VO12_2.junk

/-! ## The accumulation over the grid points -/

/-- After the body at position `n`: (the output block, the carried buffer). -/
def outsAt12 (c : Dev nD) : (n : ℕ) → n < cfg12.N → Vec F S8x601 .f32 × Vec F S8x601 .f32
  | 0, hn => (idleOut12, sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) scM12_0 (Memref.isWhole_whole _) ((hcond12_0 ⟨0, hn⟩).mpr (Nat.zero_mod _)) (fun h => (fun h => by (try dsimp only at h); omega) ((hcond12_1 ⟨0, hn⟩).mp h)) (iblk12 V c 0 ⟨0, hn⟩))
  | n + 1, hn =>
    if h0 : (n + 1) % 8 = 0 then
      if h1 : (n + 1) % 8 = 7 then
        False.elim (by omega)
      else
        (idleOut12, sout12_A_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) ((hcond12_0 ⟨n + 1, hn⟩).mpr h0) (fun h => h1 ((hcond12_1 ⟨n + 1, hn⟩).mp h)) (iblk12 V c 0 ⟨n + 1, hn⟩))
    else
      if h1 : (n + 1) % 8 = 7 then
        (out12_C_2 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2,
         sout12_C_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2)
      else
        (idleOut12, sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) (fun h => h1 ((hcond12_1 ⟨n + 1, hn⟩).mp h)) (iblk12 V c 0 ⟨n + 1, hn⟩) (outsAt12 c n (Nat.lt_of_succ_lt hn)).2)

theorem outsAt12_A (c : Dev nD) (t : Fin cfg12.N) (h0 : t.val % 8 = 0) (h1 : ¬t.val % 8 = 7) :
    outsAt12 V c t.val t.isLt = (idleOut12, sout12_A_0 c (grid12.coords t) (ms12_0 t) (hs12_0 t) (ms12_1 t) (hs12_1 t) (ms12_2 t) (hs12_2 t) scM12_0 (Memref.isWhole_whole _) ((hcond12_0 t).mpr h0) (fun h => h1 ((hcond12_1 t).mp h)) (iblk12 V c 0 t)) := by
  obtain ⟨n, hn⟩ := t
  cases n with
  | zero => exact rfl
  | succ n => exact (dif_pos h0).trans ((dif_neg h1).trans rfl)

theorem outsAt12_B (c : Dev nD) (t : Fin cfg12.N) (h0 : ¬t.val % 8 = 0) (h1 : ¬t.val % 8 = 7) :
    outsAt12 V c t.val t.isLt = (idleOut12, sout12_B_0 c (grid12.coords t) (ms12_0 t) (hs12_0 t) (ms12_1 t) (hs12_1 t) (ms12_2 t) (hs12_2 t) scM12_0 (Memref.isWhole_whole _) (fun h => h0 ((hcond12_0 t).mp h)) (fun h => h1 ((hcond12_1 t).mp h)) (iblk12 V c 0 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt12_C (c : Dev nD) (t : Fin cfg12.N) (h0 : ¬t.val % 8 = 0) (h1 : t.val % 8 = 7) :
    outsAt12 V c t.val t.isLt = (out12_C_2 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2,
      sout12_C_0 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS12 (c : Dev nD) : (n : ℕ) → n ≤ cfg12.N → sProp 𝕄
  | 0, _ => Pipeline.ΦA spec12 c
  | n + 1, hn => iprop(iprop(owns (c : Thread nD τ) scM12_0 fullShare ((outsAt12 V c n hn).2) ∗ Pipeline.scopedRestBut (Ix := Unit) (Name := ℕ) (U := UR sig nD τ) (Lvl := ℕ) (Val := Elt F) spec12 c [cc12_scratch0]) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop(iprop(owns (c : Thread nD τ) scM12_0 fullShare ((outsAt12 V c n hn).2) ∗ Pipeline.scopedRestBut (Ix := Unit) (Name := ℕ) (U := UR sig nD τ) (Lvl := ℕ) (Val := Elt F) spec12 c [cc12_scratch0]) ∗ (∃ r, prngReg c r)) := rfl
theorem PhiS12_pos (c : Dev nD) (n : ℕ) (h : n ≤ cfg12.N) (hz : n ≠ 0) :
    PhiS12 V c n h = iprop(iprop(owns (c : Thread nD τ) scM12_0 fullShare ((outsAt12 V c (n - 1) (by omega)).2) ∗ Pipeline.scopedRestBut (Ix := Unit) (Name := ℕ) (U := UR sig nD τ) (Lvl := ℕ) (Val := Elt F) spec12 c [cc12_scratch0]) ∗ (∃ r, prngReg c r)) := by
  cases n with
  | zero => exact absurd rfl hz
  | succ n => rfl

/-! ## The proof data -/

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => (outsAt12 V c t.val t.isLt).1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = (outsAt12 V c t.val t.isLt).1 := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation -/

def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = PhiS12 V c (t.val + 1) t.isLt from rfl, PhiS12_succ]
  have hN : t.val < 32 := lt_of_lt_of_eq t.isLt (show cfg12.N = 32 from N_12)
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  by_cases h0 : t.val % 8 = 0
  · have h1 : ¬t.val % 8 = 7 := by omega
    have hc1 : ¬cond12_1 (grid12.coords t) := fun h => h1 ((hcond12_1 t).mp h)
    rw [Dat.leavesExact_idle (dat12 V c) 2 t (idleAt12_2 t hc1) (noFlush12_2 t hc1)]
    rw [outsAt12_A V c t h0 h1]
    unfold sout12_A_0; (try dsimp only)
    by_cases hz : t.val = 0
    · rw [PhiS12_castSucc V c t, PhiS12_zero V c _ _ hz, PhiA12_eq]
      iintro ⟨⟨⟨HS0, HR⟩, Hg⟩, Ho, ⟨%d0, H0⟩, ⟨%d1, H1⟩, ⟨%d2, H2⟩⟩
      iapply ((kernelRun12_A c (grid12.coords t) _ _ _ _ _ _ _ _ ((hcond12_0 t).mpr h0) hc1 (iblk12 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_A_0 c _ _ _ _ _ _ _ _ _ _ _ _)
          iexact HR
        iexact Hg
      isplitl [Ho]; · iexact Ho
      isplitl [H0]; · iexact H0
      isplitl [H1]; · iexact H1
      iexists _; iexact H2
    · rw [PhiS12_castSucc V c t, PhiS12_pos V c _ _ hz]
      iintro ⟨⟨⟨HS0, HR⟩, Hg⟩, Ho, ⟨%d0, H0⟩, ⟨%d1, H1⟩, ⟨%d2, H2⟩⟩
      iapply ((kernelRun12_A c (grid12.coords t) _ _ _ _ _ _ _ _ ((hcond12_0 t).mpr h0) hc1 (iblk12 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_A_0 c _ _ _ _ _ _ _ _ _ _ _ _)
          iexact HR
        iexact Hg
      isplitl [Ho]; · iexact Ho
      isplitl [H0]; · iexact H0
      isplitl [H1]; · iexact H1
      iexists _; iexact H2
  · have hc0 : ¬cond12_0 (grid12.coords t) := fun h => h0 ((hcond12_0 t).mp h)
    have hz : t.val ≠ 0 := fun e => h0 (by rw [e])
    by_cases h1 : t.val % 8 = 7
    · have hc1 : cond12_1 (grid12.coords t) := (hcond12_1 t).mpr h1
      rw [show (dat12 V c).leavesExact 2 t = owns (c : Thread nD τ) (ms12_2 t) fullShare ((dat12 V c).after 2 t) from by
        unfold Dat.leavesExact; rw [liveAt12_2 t hc1], after12_2]
      rw [outsAt12_C V c t h0 h1]
      unfold out12_C_2 sout12_C_0; (try dsimp only)
      rw [PhiS12_castSucc V c t, PhiS12_pos V c _ _ hz]
      iintro ⟨⟨⟨HS0, HR⟩, Hg⟩, Ho, ⟨%d0, H0⟩, ⟨%d1, H1⟩, ⟨%d2, H2⟩⟩
      iapply ((kernelRun12_C c (grid12.coords t) _ _ _ _ _ _ _ _ hc0 hc1 (iblk12 V c 0 t) (iblk12 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover12_C_2 c _ _ _ _ _ _ _ _ _ _ _ _ _ _)
    · have hc1 : ¬cond12_1 (grid12.coords t) := fun h => h1 ((hcond12_1 t).mp h)
      rw [Dat.leavesExact_idle (dat12 V c) 2 t (idleAt12_2 t hc1) (noFlush12_2 t hc1)]
      rw [outsAt12_B V c t h0 h1]
      unfold sout12_B_0; (try dsimp only)
      rw [PhiS12_castSucc V c t, PhiS12_pos V c _ _ hz]
      iintro ⟨⟨⟨HS0, HR⟩, Hg⟩, Ho, ⟨%d0, H0⟩, ⟨%d1, H1⟩, ⟨%d2, H2⟩⟩
      iapply ((kernelRun12_B c (grid12.coords t) _ _ _ _ _ _ _ _ hc0 hc1 (iblk12 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_B_0 c _ _ _ _ _ _ _ _ _ _ _ _ _)
          iexact HR
        iexact Hg
      isplitl [Ho]; · iexact Ho
      isplitl [H0]; · iexact H0
      isplitl [H1]; · iexact H1
      iexists _; iexact H2

theorem body_obligation12 (c : Dev nD) : BodyObligation (dat12 (F := F) V c) (defs₀ (F := F)) Variants.none () Set.univ := fun t => by
  rw [bigSep_W12, bigSep_W12]
  exact sound_body12 V c t

/-- What the launch hands the region is the invariant before the first point. -/
theorem hin12 (c : Dev nD) : (Pipeline.ΦA spec12 c : sProp 𝕄) ⊢ (dat12 V c).Φ 0 := by
  rw [show (dat12 V c).Φ 0 = PhiS12 V c 0 (Nat.zero_le _) from rfl, PhiS12_zero V c 0 _ rfl]
  try exact Idealize.SL.BI.Entails.refl _

/-- After any point but the first the invariant gives the class's back: what the carried buffer holds is forgotten. -/
theorem Phi_out12 (c : Dev nD) (t : Fin (cfg12.N + 1)) (ht : t.val ≠ 0) : (dat12 V c).Φ t ⊢ (Pipeline.ΦA spec12 c : sProp 𝕄) := by
  rw [show (dat12 V c).Φ t = PhiS12 V c t.val (Nat.le_of_lt_succ t.isLt) from rfl, PhiS12_pos V c _ _ ht, PhiA12_eq]
  iintro ⟨⟨HS0, HR⟩, Hg⟩
  isplitl [HS0 HR]
  · isplitl [HS0]
    · iexists _; iexact HS0
    iexact HR
  iexact Hg

theorem hout12 (c : Dev nD) : (dat12 V c).Φ (Fin.last cfg12.N) ⊢ (Pipeline.ΦA spec12 c : sProp 𝕄) :=
  Phi_out12 V c _ (by rw [Fin.val_last]; have : cfg12.N = 32 := N_12; omega)

end Cert.KernelIdeal.Frame

end
-- ==== Proof.KI.Upd13.lean ====
/-
  The update step of the mean-field refinement (custom_call 13) as one region of the kernel program: what each
  window's staging buffer holds before and after the body at every grid point, the body's triple, and the body
  obligation the launch theorems ask for — at any float instance.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 13), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The unary scores' staging buffer holds their block at every point (it is fetched at every point), for any proof
    data whose array is `V`'s and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The pairwise term's staging buffer holds its block at every point, fetched there or not: its block index is the
    image tile alone, so while the proposal tile runs the index does not move and the buffer, which the body leaves
    as it found it, still holds the block fetched when the image tile began. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: whole buffers, through the rectangle at offset zero -/

theorem zeros13_2 : (![0, 0] : Fin 2 → Nat) = fun _ => 0 := funext fun a => by fin_cases a <;> rfl
theorem zeros13_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k13_pay1 x1 x0`. Each load is of a whole buffer, so it reads the contents;
    the one store is of the whole buffer, so whatever was there before, the buffer reads as the stored value. -/
theorem sound_kernel13 (c : Dev nD) (E : Set ℕ) (i : grid13.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k13_pay1 x1 x0)) -∗ K ⟨⟩))
      ⊢ wp frame (wpE (defs₀ (F := F)) Variants.none c none) E (cc13__update_kernel i arg2 harg2 arg3 harg3 arg4 harg4) K := by
  simp only [cc13__update_kernel_eq_skeleton]; unfold cc13__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros13_3 inb_S8x256x601_S8x256x601_0_0_0 y⟩),
    View.canon_unit_zero (S := S8x256x601) zeros13_3]
  simp only [View.readAt_eq_ld, View.ld_unit_zero (S := S8x601) zeros13_2, View.ld_unit_zero (S := S8x256x601) zeros13_3]

/-! ## The region's proof data -/

/-- The proof data on core `c`: the arrays as the region finds them; after the body at point `t` each input's buffer
    at its block and the output's at the scores' block minus the pairwise block; the invariant is the scoped rest and
    the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => k13_pay1 (iblk13 V c 1 t) (iblk13 V c 0 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) :
    (dat13 V c).after 2 t = k13_pay1 (iblk13 V c 1 t) (iblk13 V c 0 t) := by dsimp only [dat13]

/-- Each input's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' memrefs hold their blocks, so the body's triple applies; the invariant and the
    core's debts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- The region's invariant is the class invariant itself, at the first point and after the last. -/
theorem hin13 (c : Dev nD) : (Pipeline.ΦA spec13 c : sProp 𝕄) ⊢ (dat13 V c).Φ 0 := .rfl
theorem hout13 (c : Dev nD) : (dat13 V c).Φ (Fin.last cfg13.N) ⊢ (Pipeline.ΦA spec13 c : sProp 𝕄) := .rfl

end Cert.KernelIdeal.Frame
-- ==== Proof.KI.Red14Runs.lean ====
/-
  The reduce call (custom_call 14): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond14_0 (i : grid14.Coords) : Prop := (Scalar.cmpi .ne (Scalar.extui (Scalar.cmpi .eq (BitVec.ofNat 32 (i 1).val) 0#32)) 0#32) = 1#1
theorem hcond14_0 : ∀ t : Fin cfg14.N, cond14_0 (grid14.coords t) ↔ t.val % 8 = 0 :=
  (by decide +kernel : ∀ t : Fin grid14.N, cond14_0 (grid14.coords t) ↔ t.val % 8 = 0)

/-- "this is the last proposal tile": the condition of the product's branch. -/
abbrev cond14_1 (i : grid14.Coords) : Prop := k14_cond2 i = 1#1
theorem hcond14_1 : ∀ t : Fin cfg14.N, cond14_1 (grid14.coords t) ↔ t.val % 8 = 7 :=
  (by decide +kernel : ∀ t : Fin grid14.N, cond14_1 (grid14.coords t) ↔ t.val % 8 = 7)

/-! ## Where the windows are idle -/

theorem liveAt14_0 : ∀ t : Fin cfg14.N, cfg14.idle 0 (grid14.coords t) = false := by decide +kernel
theorem liveAt14_1 : ∀ t : Fin cfg14.N, cfg14.idle 1 (grid14.coords t) = false := by decide +kernel
/-- Away from the last proposal tile the body stores nothing into the output block, -/
theorem idleAt14_2 : ∀ t : Fin cfg14.N, ¬cond14_1 (grid14.coords t) → cfg14.idle 2 (grid14.coords t) = true := by decide +kernel
/-- and the block is not written back there. -/
theorem noFlush14_2 : ∀ t : Fin cfg14.N, ¬cond14_1 (grid14.coords t) → (cfg14.win 2).flush t = false := by decide +kernel
/-- At the last proposal tile it is stored. -/
theorem liveAt14_2 : ∀ t : Fin cfg14.N, cond14_1 (grid14.coords t) → cfg14.idle 2 (grid14.coords t) = false := by decide +kernel

/-! ## The memrefs the body is called with -/

abbrev VO14_2 : View sig .tc .vmem S8x601 .f32 := (Memref.whole cc14_stg2_0 : Memref sig .tc .vmem S8x601 .f32).view
abbrev ms14_0 (t : Fin cfg14.N) : Memref sig .tc .vmem S8x256x601 .f32 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S601x601 .f32 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S8x601 .f32 := win14_2.stage (cfg14.slots t 2)
abbrev hs14_2 (t : Fin cfg14.N) : (ms14_2 t).IsWhole := hstage14_2 ((cfg14.slots t 2).cast nbuf14_2)
/-- The carried maximum's buffer: a whole scoped buffer of the call's own. -/
abbrev scM14_0 : Memref sig .tc .vmem S8x601 .f32 := Memref.whole cc14_scratch0
abbrev VS14_0 : View sig .tc .vmem S8x601 .f32 := scM14_0.view

/-- The class invariant with the carried maximum's buffer taken out of the scoped rest: that buffer at some
    contents, every other scoped buffer unopened, the generator register at some state. -/
theorem PhiA14_eq (c : Dev nD) :
    (Pipeline.ΦA spec14 c : sProp 𝕄)
      = iprop(iprop(iprop((∃ d, owns (c : Thread nD τ) scM14_0 fullShare d)) ∗ Pipeline.scopedRestBut (Ix := Unit) (Name := ℕ) (U := UR sig nD τ) (Lvl := ℕ) (Val := Elt F) spec14 c [cc14_scratch0]) ∗ (∃ r, prngReg c r)) := by
  unfold Pipeline.ΦA; rw [scopedRest14_split]; simp only [scM14_0, owns_whole]; try rfl

/-! ## The input windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The scores' staging buffer holds the point's block whenever the body runs, -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- and so does the matrix's, fetched once: its block index never moves. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

end Cert.KernelIdeal.Frame

end
-- ==== Proof.KI.Red14Run.lean ====
/-
  The reduce call's body (custom_call 14) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.KI.Red14Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun14_A (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond14_0 i) (hc1 : ¬cond14_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc14__reduce_kernel i arg2 harg2 arg3 harg3 arg4 harg4 arg5 harg5) K } := by
  refine ⟨?_, fun E K => ?run⟩
  case run =>
    simp only [cc14__reduce_kernel_eq_skeleton]; unfold cc14__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun14_B (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : ¬cond14_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc14__reduce_kernel i arg2 harg2 arg3 harg3 arg4 harg4 arg5 harg5) K } := by
  refine ⟨?_, fun E K => ?run⟩
  case run =>
    simp only [cc14__reduce_kernel_eq_skeleton]; unfold cc14__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun14_C (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc14__reduce_kernel i arg2 harg2 arg3 harg3 arg4 harg4 arg5 harg5) K } := by
  refine ⟨?_, ?_, fun E K => ?run⟩
  case run =>
    simp only [cc14__reduce_kernel_eq_skeleton]; unfold cc14__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Red14.lean ====
/-
  The reduce call (custom_call 14) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.KI.Red14Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover14_A_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond14_0 i) (hc1 : ¬cond14_1 i) (x0 : Vec F S8x256x601 .f32) (y : S8x601.Idx) :
    ∃ pc ∈ (kernelRun14_A c i arg2 harg2 arg3 harg3 arg4 harg4 arg5 harg5 hc0 hc1 x0).1, y ∈ pc.1.set :=
  View.cover_of_tiledL (kernelRun14_A c i arg2 harg2 arg3 harg3 arg4 harg4 arg5 harg5 hc0 hc1 x0).1 S8x601.size (by sl_kernel_rfl) y
/-- The carried buffer after a first proposal tile: its pieces read back. -/
def sout14_A_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond14_0 i) (hc1 : ¬cond14_1 i) (x0 : Vec F S8x256x601 .f32) : Vec F S8x601 .f32 :=
  VS14_0.read (Elt F) (VS14_0.writes (Elt F) VS14_0.junk (kernelRun14_A c i arg2 harg2 arg3 harg3 arg4 harg4 arg5 harg5 hc0 hc1 x0).1)

theorem scover14_B_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : ¬cond14_1 i) (x0 : Vec F S8x256x601 .f32) (xs0 : Vec F S8x601 .f32) (y : S8x601.Idx) :
    ∃ pc ∈ (kernelRun14_B c i arg2 harg2 arg3 harg3 arg4 harg4 arg5 harg5 hc0 hc1 x0 xs0).1, y ∈ pc.1.set :=
  View.cover_of_tiledL (kernelRun14_B c i arg2 harg2 arg3 harg3 arg4 harg4 arg5 harg5 hc0 hc1 x0 xs0).1 S8x601.size (by sl_kernel_rfl) y
/-- The carried buffer after an inner proposal tile. -/
def sout14_B_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : ¬cond14_1 i) (x0 : Vec F S8x256x601 .f32) (xs0 : Vec F S8x601 .f32) : Vec F S8x601 .f32 :=
  VS14_0.read (Elt F) (VS14_0.writes (Elt F) VS14_0.junk (kernelRun14_B c i arg2 harg2 arg3 harg3 arg4 harg4 arg5 harg5 hc0 hc1 x0 xs0).1)

theorem cover14_C_2 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i) (x0 : Vec F S8x256x601 .f32) (x1 : Vec F S601x601 .f32) (xs0 : Vec F S8x601 .f32) (y : S8x601.Idx) :
    ∃ pc ∈ (kernelRun14_C c i arg2 harg2 arg3 harg3 arg4 harg4 arg5 harg5 hc0 hc1 x0 x1 xs0).1, y ∈ pc.1.set :=
  View.cover_of_tiledL (kernelRun14_C c i arg2 harg2 arg3 harg3 arg4 harg4 arg5 harg5 hc0 hc1 x0 x1 xs0).1 S8x601.size (by sl_kernel_rfl) y
/-- The output block after a last proposal tile. -/
def out14_C_2 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i) (x0 : Vec F S8x256x601 .f32) (x1 : Vec F S601x601 .f32) (xs0 : Vec F S8x601 .f32) : Vec F S8x601 .f32 :=
  VO14_2.read (Elt F) (VO14_2.writes (Elt F) VO14_2.junk (kernelRun14_C c i arg2 harg2 arg3 harg3 arg4 harg4 arg5 harg5 hc0 hc1 x0 x1 xs0).1)
theorem scover14_C_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i) (x0 : Vec F S8x256x601 .f32) (x1 : Vec F S601x601 .f32) (xs0 : Vec F S8x601 .f32) (y : S8x601.Idx) :
    ∃ pc ∈ (kernelRun14_C c i arg2 harg2 arg3 harg3 arg4 harg4 arg5 harg5 hc0 hc1 x0 x1 xs0).2.1, y ∈ pc.1.set :=
  View.cover_of_tiledL (kernelRun14_C c i arg2 harg2 arg3 harg3 arg4 harg4 arg5 harg5 hc0 hc1 x0 x1 xs0).2.1 S8x601.size (by sl_kernel_rfl) y
/-- The carried buffer after a last proposal tile. -/
def sout14_C_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i) (x0 : Vec F S8x256x601 .f32) (x1 : Vec F S601x601 .f32) (xs0 : Vec F S8x601 .f32) : Vec F S8x601 .f32 :=
  VS14_0.read (Elt F) (VS14_0.writes (Elt F) VS14_0.junk (kernelRun14_C c i arg2 harg2 arg3 harg3 arg4 harg4 arg5 harg5 hc0 hc1 x0 x1 xs0).2.1)

/-- What stands for the output block where the body does not store it (nothing consults it there). -/
def idleOut14 : Vec F S8x601 .f32 := VO14_2.read (Elt F) VO14_2.junk

/-! ## The accumulation over the grid points -/

/-- After the body at position `n`: (the output block, the carried buffer). -/
def outsAt14 (c : Dev nD) : (n : ℕ) → n < cfg14.N → Vec F S8x601 .f32 × Vec F S8x601 .f32
  | 0, hn => (idleOut14, sout14_A_0 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩))
  | n + 1, hn =>
    if h0 : (n + 1) % 8 = 0 then
      if h1 : (n + 1) % 8 = 7 then
        False.elim (by omega)
      else
        (idleOut14, sout14_A_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩))
    else
      if h1 : (n + 1) % 8 = 7 then
        (out14_C_2 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (outsAt14 c n (Nat.lt_of_succ_lt hn)).2,
         sout14_C_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (outsAt14 c n (Nat.lt_of_succ_lt hn)).2)
      else
        (idleOut14, sout14_B_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (outsAt14 c n (Nat.lt_of_succ_lt hn)).2)

theorem outsAt14_A (c : Dev nD) (t : Fin cfg14.N) (h0 : t.val % 8 = 0) (h1 : ¬t.val % 8 = 7) :
    outsAt14 V c t.val t.isLt = (idleOut14, sout14_A_0 c (grid14.coords t) (ms14_0 t) (hs14_0 t) (ms14_1 t) (hs14_1 t) (ms14_2 t) (hs14_2 t) scM14_0 (Memref.isWhole_whole _) ((hcond14_0 t).mpr h0) (fun h => h1 ((hcond14_1 t).mp h)) (iblk14 V c 0 t)) := by
  obtain ⟨n, hn⟩ := t
  cases n with
  | zero => exact rfl
  | succ n => exact (dif_pos h0).trans ((dif_neg h1).trans rfl)

theorem outsAt14_B (c : Dev nD) (t : Fin cfg14.N) (h0 : ¬t.val % 8 = 0) (h1 : ¬t.val % 8 = 7) :
    outsAt14 V c t.val t.isLt = (idleOut14, sout14_B_0 c (grid14.coords t) (ms14_0 t) (hs14_0 t) (ms14_1 t) (hs14_1 t) (ms14_2 t) (hs14_2 t) scM14_0 (Memref.isWhole_whole _) (fun h => h0 ((hcond14_0 t).mp h)) (fun h => h1 ((hcond14_1 t).mp h)) (iblk14 V c 0 t) (outsAt14 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt14_C (c : Dev nD) (t : Fin cfg14.N) (h0 : ¬t.val % 8 = 0) (h1 : t.val % 8 = 7) :
    outsAt14 V c t.val t.isLt = (out14_C_2 c (grid14.coords t) (ms14_0 t) (hs14_0 t) (ms14_1 t) (hs14_1 t) (ms14_2 t) (hs14_2 t) scM14_0 (Memref.isWhole_whole _) (fun h => h0 ((hcond14_0 t).mp h)) ((hcond14_1 t).mpr h1) (iblk14 V c 0 t) (iblk14 V c 1 t) (outsAt14 V c (t.val - 1) (Nat.lt_of_le_of_lt (Nat.sub_le _ _) t.isLt)).2,
      sout14_C_0 c (grid14.coords t) (ms14_0 t) (hs14_0 t) (ms14_1 t) (hs14_1 t) (ms14_2 t) (hs14_2 t) scM14_0 (Memref.isWhole_whole _) (fun h => h0 ((hcond14_0 t).mp h)) ((hcond14_1 t).mpr h1) (iblk14 V c 0 t) (iblk14 V c 1 t) (outsAt14 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS14 (c : Dev nD) : (n : ℕ) → n ≤ cfg14.N → sProp 𝕄
  | 0, _ => Pipeline.ΦA spec14 c
  | n + 1, hn => iprop(iprop(owns (c : Thread nD τ) scM14_0 fullShare ((outsAt14 V c n hn).2) ∗ Pipeline.scopedRestBut (Ix := Unit) (Name := ℕ) (U := UR sig nD τ) (Lvl := ℕ) (Val := Elt F) spec14 c [cc14_scratch0]) ∗ (∃ r, prngReg c r))

theorem PhiS14_zero (c : Dev nD) (n : ℕ) (h : n ≤ cfg14.N) (hz : n = 0) : PhiS14 V c n h = Pipeline.ΦA spec14 c := by
  subst hz; rfl
theorem PhiS14_succ (c : Dev nD) (n : ℕ) (hn : n < cfg14.N) :
    PhiS14 V c (n + 1) hn = iprop(iprop(owns (c : Thread nD τ) scM14_0 fullShare ((outsAt14 V c n hn).2) ∗ Pipeline.scopedRestBut (Ix := Unit) (Name := ℕ) (U := UR sig nD τ) (Lvl := ℕ) (Val := Elt F) spec14 c [cc14_scratch0]) ∗ (∃ r, prngReg c r)) := rfl
theorem PhiS14_pos (c : Dev nD) (n : ℕ) (h : n ≤ cfg14.N) (hz : n ≠ 0) :
    PhiS14 V c n h = iprop(iprop(owns (c : Thread nD τ) scM14_0 fullShare ((outsAt14 V c (n - 1) (by omega)).2) ∗ Pipeline.scopedRestBut (Ix := Unit) (Name := ℕ) (U := UR sig nD τ) (Lvl := ℕ) (Val := Elt F) spec14 c [cc14_scratch0]) ∗ (∃ r, prngReg c r)) := by
  cases n with
  | zero => exact absurd rfl hz
  | succ n => rfl

/-! ## The proof data -/

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => (outsAt14 V c t.val t.isLt).1
  Φ t := PhiS14 V c t.val (Nat.le_of_lt_succ t.isLt)
  q _ := fullShare
  owed _ := 0

theorem A_eq14 (c : Dev nD) (w : Fin cfg14.W) : (dat14 V c).A w = V c (Pipeline.arrRef spec14 w) := by
  dsimp only [dat14]
theorem PhiS14_castSucc (c : Dev nD) (t : Fin cfg14.N) :
    (dat14 V c).Φ t.castSucc = PhiS14 V c t.val (Nat.le_of_lt t.isLt) := by
  dsimp only [dat14]; simp only [Fin.coe_castSucc]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = (outsAt14 V c t.val t.isLt).1 := by dsimp only [dat14]
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-! ## The body obligation -/

def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d)))

def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4800000 in
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = PhiS14 V c (t.val + 1) t.isLt from rfl, PhiS14_succ]
  have hN : t.val < 32 := lt_of_lt_of_eq t.isLt (show cfg14.N = 32 from N_14)
  rw [show (dat14 V c).leavesExact 0 t = owns (c : Thread nD τ) (ms14_0 t) fullShare ((dat14 V c).after 0 t) from by
    unfold Dat.leavesExact; rw [liveAt14_0 t], after14_0]
  rw [show (dat14 V c).leavesExact 1 t = owns (c : Thread nD τ) (ms14_1 t) fullShare ((dat14 V c).after 1 t) from by
    unfold Dat.leavesExact; rw [liveAt14_1 t], after14_1]
  by_cases h0 : t.val % 8 = 0
  · have h1 : ¬t.val % 8 = 7 := by omega
    have hc1 : ¬cond14_1 (grid14.coords t) := fun h => h1 ((hcond14_1 t).mp h)
    rw [Dat.leavesExact_idle (dat14 V c) 2 t (idleAt14_2 t hc1) (noFlush14_2 t hc1)]
    rw [outsAt14_A V c t h0 h1]
    unfold sout14_A_0; (try dsimp only)
    by_cases hz : t.val = 0
    · rw [PhiS14_castSucc V c t, PhiS14_zero V c _ _ hz, PhiA14_eq]
      iintro ⟨⟨⟨HS0, HR⟩, Hg⟩, Ho, ⟨%d0, H0⟩, ⟨%d1, H1⟩, ⟨%d2, H2⟩⟩
      iapply ((kernelRun14_A c (grid14.coords t) _ _ _ _ _ _ _ _ ((hcond14_0 t).mpr h0) hc1 (iblk14 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover14_A_0 c _ _ _ _ _ _ _ _ _ _ _ _)
          iexact HR
        iexact Hg
      isplitl [Ho]; · iexact Ho
      isplitl [H0]; · iexact H0
      isplitl [H1]; · iexact H1
      iexists _; iexact H2
    · rw [PhiS14_castSucc V c t, PhiS14_pos V c _ _ hz]
      iintro ⟨⟨⟨HS0, HR⟩, Hg⟩, Ho, ⟨%d0, H0⟩, ⟨%d1, H1⟩, ⟨%d2, H2⟩⟩
      iapply ((kernelRun14_A c (grid14.coords t) _ _ _ _ _ _ _ _ ((hcond14_0 t).mpr h0) hc1 (iblk14 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover14_A_0 c _ _ _ _ _ _ _ _ _ _ _ _)
          iexact HR
        iexact Hg
      isplitl [Ho]; · iexact Ho
      isplitl [H0]; · iexact H0
      isplitl [H1]; · iexact H1
      iexists _; iexact H2
  · have hc0 : ¬cond14_0 (grid14.coords t) := fun h => h0 ((hcond14_0 t).mp h)
    have hz : t.val ≠ 0 := fun e => h0 (by rw [e])
    by_cases h1 : t.val % 8 = 7
    · have hc1 : cond14_1 (grid14.coords t) := (hcond14_1 t).mpr h1
      rw [show (dat14 V c).leavesExact 2 t = owns (c : Thread nD τ) (ms14_2 t) fullShare ((dat14 V c).after 2 t) from by
        unfold Dat.leavesExact; rw [liveAt14_2 t hc1], after14_2]
      rw [outsAt14_C V c t h0 h1]
      unfold out14_C_2 sout14_C_0; (try dsimp only)
      rw [PhiS14_castSucc V c t, PhiS14_pos V c _ _ hz]
      iintro ⟨⟨⟨HS0, HR⟩, Hg⟩, Ho, ⟨%d0, H0⟩, ⟨%d1, H1⟩, ⟨%d2, H2⟩⟩
      iapply ((kernelRun14_C c (grid14.coords t) _ _ _ _ _ _ _ _ hc0 hc1 (iblk14 V c 0 t) (iblk14 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover14_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover14_C_2 c _ _ _ _ _ _ _ _ _ _ _ _ _ _)
    · have hc1 : ¬cond14_1 (grid14.coords t) := fun h => h1 ((hcond14_1 t).mp h)
      rw [Dat.leavesExact_idle (dat14 V c) 2 t (idleAt14_2 t hc1) (noFlush14_2 t hc1)]
      rw [outsAt14_B V c t h0 h1]
      unfold sout14_B_0; (try dsimp only)
      rw [PhiS14_castSucc V c t, PhiS14_pos V c _ _ hz]
      iintro ⟨⟨⟨HS0, HR⟩, Hg⟩, Ho, ⟨%d0, H0⟩, ⟨%d1, H1⟩, ⟨%d2, H2⟩⟩
      iapply ((kernelRun14_B c (grid14.coords t) _ _ _ _ _ _ _ _ hc0 hc1 (iblk14 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover14_B_0 c _ _ _ _ _ _ _ _ _ _ _ _ _)
          iexact HR
        iexact Hg
      isplitl [Ho]; · iexact Ho
      isplitl [H0]; · iexact H0
      isplitl [H1]; · iexact H1
      iexists _; iexact H2

theorem body_obligation14 (c : Dev nD) : BodyObligation (dat14 (F := F) V c) (defs₀ (F := F)) Variants.none () Set.univ := fun t => by
  rw [bigSep_W14, bigSep_W14]
  exact sound_body14 V c t

/-- What the launch hands the region is the invariant before the first point. -/
theorem hin14 (c : Dev nD) : (Pipeline.ΦA spec14 c : sProp 𝕄) ⊢ (dat14 V c).Φ 0 := by
  rw [show (dat14 V c).Φ 0 = PhiS14 V c 0 (Nat.zero_le _) from rfl, PhiS14_zero V c 0 _ rfl]
  try exact Idealize.SL.BI.Entails.refl _

/-- After any point but the first the invariant gives the class's back: what the carried buffer holds is forgotten. -/
theorem Phi_out14 (c : Dev nD) (t : Fin (cfg14.N + 1)) (ht : t.val ≠ 0) : (dat14 V c).Φ t ⊢ (Pipeline.ΦA spec14 c : sProp 𝕄) := by
  rw [show (dat14 V c).Φ t = PhiS14 V c t.val (Nat.le_of_lt_succ t.isLt) from rfl, PhiS14_pos V c _ _ ht, PhiA14_eq]
  iintro ⟨⟨HS0, HR⟩, Hg⟩
  isplitl [HS0 HR]
  · isplitl [HS0]
    · iexists _; iexact HS0
    iexact HR
  iexact Hg

theorem hout14 (c : Dev nD) : (dat14 V c).Φ (Fin.last cfg14.N) ⊢ (Pipeline.ΦA spec14 c : sProp 𝕄) :=
  Phi_out14 V c _ (by rw [Fin.val_last]; have : cfg14.N = 32 := N_14; omega)

end Cert.KernelIdeal.Frame

end
-- ==== Proof.KI.Upd15.lean ====
/-
  The update step of the mean-field refinement (custom_call 15) as one region of the kernel program: what each
  window's staging buffer holds before and after the body at every grid point, the body's triple, and the body
  obligation the launch theorems ask for — at any float instance.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 15), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The unary scores' staging buffer holds their block at every point (it is fetched at every point), for any proof
    data whose array is `V`'s and whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- The pairwise term's staging buffer holds its block at every point, fetched there or not: its block index is the
    image tile alone, so while the proposal tile runs the index does not move and the buffer, which the body leaves
    as it found it, still holds the block fetched when the image tile began. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses: whole buffers, through the rectangle at offset zero -/

theorem zeros15_2 : (![0, 0] : Fin 2 → Nat) = fun _ => 0 := funext fun a => by fin_cases a <;> rfl
theorem zeros15_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k15_pay1 x1 x0`. Each load is of a whole buffer, so it reads the contents;
    the one store is of the whole buffer, so whatever was there before, the buffer reads as the stored value. -/
theorem sound_kernel15 (c : Dev nD) (E : Set ℕ) (i : grid15.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k15_pay1 x1 x0)) -∗ K ⟨⟩))
      ⊢ wp frame (wpE (defs₀ (F := F)) Variants.none c none) E (cc15__update_kernel i arg2 harg2 arg3 harg3 arg4 harg4) K := by
  simp only [cc15__update_kernel_eq_skeleton]; unfold cc15__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros15_3 inb_S8x256x601_S8x256x601_0_0_0 y⟩),
    View.canon_unit_zero (S := S8x256x601) zeros15_3]
  simp only [View.readAt_eq_ld, View.ld_unit_zero (S := S8x601) zeros15_2, View.ld_unit_zero (S := S8x256x601) zeros15_3]

/-! ## The region's proof data -/

/-- The proof data on core `c`: the arrays as the region finds them; after the body at point `t` each input's buffer
    at its block and the output's at the scores' block minus the pairwise block; the invariant is the scoped rest and
    the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => k15_pay1 (iblk15 V c 1 t) (iblk15 V c 0 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) :
    (dat15 V c).after 2 t = k15_pay1 (iblk15 V c 1 t) (iblk15 V c 0 t) := by dsimp only [dat15]

/-- Each input's current staging buffer holds its block at every point. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

/-- The body at any point: the inputs' memrefs hold their blocks, so the body's triple applies; the invariant and the
    core's debts pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation15 (c : Dev nD) : BodyObligation (dat15 (F := F) V c) (defs₀ (F := F)) Variants.none () Set.univ := fun t => by
  rw [bigSep_W15, bigSep_W15]
  exact sound_body15 V c t

/-- The region's invariant is the class invariant itself, at the first point and after the last. -/
theorem hin15 (c : Dev nD) : (Pipeline.ΦA spec15 c : sProp 𝕄) ⊢ (dat15 V c).Φ 0 := .rfl
theorem hout15 (c : Dev nD) : (dat15 V c).Φ (Fin.last cfg15.N) ⊢ (Pipeline.ΦA spec15 c : sProp 𝕄) := .rfl

end Cert.KernelIdeal.Frame
-- ==== Proof.KI.Red16Runs.lean ====
/-
  The reduce call (custom_call 16): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond16_0 (i : grid16.Coords) : Prop := (Scalar.cmpi .ne (Scalar.extui (Scalar.cmpi .eq (BitVec.ofNat 32 (i 1).val) 0#32)) 0#32) = 1#1
theorem hcond16_0 : ∀ t : Fin cfg16.N, cond16_0 (grid16.coords t) ↔ t.val % 8 = 0 :=
  (by decide +kernel : ∀ t : Fin grid16.N, cond16_0 (grid16.coords t) ↔ t.val % 8 = 0)

/-- "this is the last proposal tile": the condition of the product's branch. -/
abbrev cond16_1 (i : grid16.Coords) : Prop := k16_cond2 i = 1#1
theorem hcond16_1 : ∀ t : Fin cfg16.N, cond16_1 (grid16.coords t) ↔ t.val % 8 = 7 :=
  (by decide +kernel : ∀ t : Fin grid16.N, cond16_1 (grid16.coords t) ↔ t.val % 8 = 7)

/-! ## Where the windows are idle -/

theorem liveAt16_0 : ∀ t : Fin cfg16.N, cfg16.idle 0 (grid16.coords t) = false := by decide +kernel
theorem liveAt16_1 : ∀ t : Fin cfg16.N, cfg16.idle 1 (grid16.coords t) = false := by decide +kernel
/-- Away from the last proposal tile the body stores nothing into the output block, -/
theorem idleAt16_2 : ∀ t : Fin cfg16.N, ¬cond16_1 (grid16.coords t) → cfg16.idle 2 (grid16.coords t) = true := by decide +kernel
/-- and the block is not written back there. -/
theorem noFlush16_2 : ∀ t : Fin cfg16.N, ¬cond16_1 (grid16.coords t) → (cfg16.win 2).flush t = false := by decide +kernel
/-- At the last proposal tile it is stored. -/
theorem liveAt16_2 : ∀ t : Fin cfg16.N, cond16_1 (grid16.coords t) → cfg16.idle 2 (grid16.coords t) = false := by decide +kernel

/-! ## The memrefs the body is called with -/

abbrev VO16_2 : View sig .tc .vmem S8x601 .f32 := (Memref.whole cc16_stg2_0 : Memref sig .tc .vmem S8x601 .f32).view
abbrev ms16_0 (t : Fin cfg16.N) : Memref sig .tc .vmem S8x256x601 .f32 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S601x601 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S8x601 .f32 := win16_2.stage (cfg16.slots t 2)
abbrev hs16_2 (t : Fin cfg16.N) : (ms16_2 t).IsWhole := hstage16_2 ((cfg16.slots t 2).cast nbuf16_2)
/-- The carried maximum's buffer: a whole scoped buffer of the call's own. -/
abbrev scM16_0 : Memref sig .tc .vmem S8x601 .f32 := Memref.whole cc16_scratch0
abbrev VS16_0 : View sig .tc .vmem S8x601 .f32 := scM16_0.view

/-- The class invariant with the carried maximum's buffer taken out of the scoped rest: that buffer at some
    contents, every other scoped buffer unopened, the generator register at some state. -/
theorem PhiA16_eq (c : Dev nD) :
    (Pipeline.ΦA spec16 c : sProp 𝕄)
      = iprop(iprop(iprop((∃ d, owns (c : Thread nD τ) scM16_0 fullShare d)) ∗ Pipeline.scopedRestBut (Ix := Unit) (Name := ℕ) (U := UR sig nD τ) (Lvl := ℕ) (Val := Elt F) spec16 c [cc16_scratch0]) ∗ (∃ r, prngReg c r)) := by
  unfold Pipeline.ΦA; rw [scopedRest16_split]; simp only [scM16_0, owns_whole]; try rfl

/-! ## The input windows' blocks -/

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- The scores' staging buffer holds the point's block whenever the body runs, -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- and so does the matrix's, fetched once: its block index never moves. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

end Cert.KernelIdeal.Frame

end
-- ==== Proof.KI.Red16Run.lean ====
/-
  The reduce call's body (custom_call 16) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.KI.Red16Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun16_A (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond16_0 i) (hc1 : ¬cond16_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc16__reduce_kernel i arg2 harg2 arg3 harg3 arg4 harg4 arg5 harg5) K } := by
  refine ⟨?_, fun E K => ?run⟩
  case run =>
    simp only [cc16__reduce_kernel_eq_skeleton]; unfold cc16__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun16_B (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : ¬cond16_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc16__reduce_kernel i arg2 harg2 arg3 harg3 arg4 harg4 arg5 harg5) K } := by
  refine ⟨?_, fun E K => ?run⟩
  case run =>
    simp only [cc16__reduce_kernel_eq_skeleton]; unfold cc16__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun16_C (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc16__reduce_kernel i arg2 harg2 arg3 harg3 arg4 harg4 arg5 harg5) K } := by
  refine ⟨?_, ?_, fun E K => ?run⟩
  case run =>
    simp only [cc16__reduce_kernel_eq_skeleton]; unfold cc16__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Red16.lean ====
/-
  The reduce call (custom_call 16) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.KI.Red16Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover16_A_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond16_0 i) (hc1 : ¬cond16_1 i) (x0 : Vec F S8x256x601 .f32) (y : S8x601.Idx) :
    ∃ pc ∈ (kernelRun16_A c i arg2 harg2 arg3 harg3 arg4 harg4 arg5 harg5 hc0 hc1 x0).1, y ∈ pc.1.set :=
  View.cover_of_tiledL (kernelRun16_A c i arg2 harg2 arg3 harg3 arg4 harg4 arg5 harg5 hc0 hc1 x0).1 S8x601.size (by sl_kernel_rfl) y
/-- The carried buffer after a first proposal tile: its pieces read back. -/
def sout16_A_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond16_0 i) (hc1 : ¬cond16_1 i) (x0 : Vec F S8x256x601 .f32) : Vec F S8x601 .f32 :=
  VS16_0.read (Elt F) (VS16_0.writes (Elt F) VS16_0.junk (kernelRun16_A c i arg2 harg2 arg3 harg3 arg4 harg4 arg5 harg5 hc0 hc1 x0).1)

theorem scover16_B_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : ¬cond16_1 i) (x0 : Vec F S8x256x601 .f32) (xs0 : Vec F S8x601 .f32) (y : S8x601.Idx) :
    ∃ pc ∈ (kernelRun16_B c i arg2 harg2 arg3 harg3 arg4 harg4 arg5 harg5 hc0 hc1 x0 xs0).1, y ∈ pc.1.set :=
  View.cover_of_tiledL (kernelRun16_B c i arg2 harg2 arg3 harg3 arg4 harg4 arg5 harg5 hc0 hc1 x0 xs0).1 S8x601.size (by sl_kernel_rfl) y
/-- The carried buffer after an inner proposal tile. -/
def sout16_B_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : ¬cond16_1 i) (x0 : Vec F S8x256x601 .f32) (xs0 : Vec F S8x601 .f32) : Vec F S8x601 .f32 :=
  VS16_0.read (Elt F) (VS16_0.writes (Elt F) VS16_0.junk (kernelRun16_B c i arg2 harg2 arg3 harg3 arg4 harg4 arg5 harg5 hc0 hc1 x0 xs0).1)

theorem cover16_C_2 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i) (x0 : Vec F S8x256x601 .f32) (x1 : Vec F S601x601 .f32) (xs0 : Vec F S8x601 .f32) (y : S8x601.Idx) :
    ∃ pc ∈ (kernelRun16_C c i arg2 harg2 arg3 harg3 arg4 harg4 arg5 harg5 hc0 hc1 x0 x1 xs0).1, y ∈ pc.1.set :=
  View.cover_of_tiledL (kernelRun16_C c i arg2 harg2 arg3 harg3 arg4 harg4 arg5 harg5 hc0 hc1 x0 x1 xs0).1 S8x601.size (by sl_kernel_rfl) y
/-- The output block after a last proposal tile. -/
def out16_C_2 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i) (x0 : Vec F S8x256x601 .f32) (x1 : Vec F S601x601 .f32) (xs0 : Vec F S8x601 .f32) : Vec F S8x601 .f32 :=
  VO16_2.read (Elt F) (VO16_2.writes (Elt F) VO16_2.junk (kernelRun16_C c i arg2 harg2 arg3 harg3 arg4 harg4 arg5 harg5 hc0 hc1 x0 x1 xs0).1)
theorem scover16_C_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i) (x0 : Vec F S8x256x601 .f32) (x1 : Vec F S601x601 .f32) (xs0 : Vec F S8x601 .f32) (y : S8x601.Idx) :
    ∃ pc ∈ (kernelRun16_C c i arg2 harg2 arg3 harg3 arg4 harg4 arg5 harg5 hc0 hc1 x0 x1 xs0).2.1, y ∈ pc.1.set :=
  View.cover_of_tiledL (kernelRun16_C c i arg2 harg2 arg3 harg3 arg4 harg4 arg5 harg5 hc0 hc1 x0 x1 xs0).2.1 S8x601.size (by sl_kernel_rfl) y
/-- The carried buffer after a last proposal tile. -/
def sout16_C_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i) (x0 : Vec F S8x256x601 .f32) (x1 : Vec F S601x601 .f32) (xs0 : Vec F S8x601 .f32) : Vec F S8x601 .f32 :=
  VS16_0.read (Elt F) (VS16_0.writes (Elt F) VS16_0.junk (kernelRun16_C c i arg2 harg2 arg3 harg3 arg4 harg4 arg5 harg5 hc0 hc1 x0 x1 xs0).2.1)

/-- What stands for the output block where the body does not store it (nothing consults it there). -/
def idleOut16 : Vec F S8x601 .f32 := VO16_2.read (Elt F) VO16_2.junk

/-! ## The accumulation over the grid points -/

/-- After the body at position `n`: (the output block, the carried buffer). -/
def outsAt16 (c : Dev nD) : (n : ℕ) → n < cfg16.N → Vec F S8x601 .f32 × Vec F S8x601 .f32
  | 0, hn => (idleOut16, sout16_A_0 c (grid16.coords ⟨0, hn⟩) (ms16_0 ⟨0, hn⟩) (hs16_0 ⟨0, hn⟩) (ms16_1 ⟨0, hn⟩) (hs16_1 ⟨0, hn⟩) (ms16_2 ⟨0, hn⟩) (hs16_2 ⟨0, hn⟩) scM16_0 (Memref.isWhole_whole _) ((hcond16_0 ⟨0, hn⟩).mpr (Nat.zero_mod _)) (fun h => (fun h => by (try dsimp only at h); omega) ((hcond16_1 ⟨0, hn⟩).mp h)) (iblk16 V c 0 ⟨0, hn⟩))
  | n + 1, hn =>
    if h0 : (n + 1) % 8 = 0 then
      if h1 : (n + 1) % 8 = 7 then
        False.elim (by omega)
      else
        (idleOut16, sout16_A_0 c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16_0 (Memref.isWhole_whole _) ((hcond16_0 ⟨n + 1, hn⟩).mpr h0) (fun h => h1 ((hcond16_1 ⟨n + 1, hn⟩).mp h)) (iblk16 V c 0 ⟨n + 1, hn⟩))
    else
      if h1 : (n + 1) % 8 = 7 then
        (out16_C_2 c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16_0 (Memref.isWhole_whole _) (fun h => h0 ((hcond16_0 ⟨n + 1, hn⟩).mp h)) ((hcond16_1 ⟨n + 1, hn⟩).mpr h1) (iblk16 V c 0 ⟨n + 1, hn⟩) (iblk16 V c 1 ⟨n + 1, hn⟩) (outsAt16 c n (Nat.lt_of_succ_lt hn)).2,
         sout16_C_0 c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16_0 (Memref.isWhole_whole _) (fun h => h0 ((hcond16_0 ⟨n + 1, hn⟩).mp h)) ((hcond16_1 ⟨n + 1, hn⟩).mpr h1) (iblk16 V c 0 ⟨n + 1, hn⟩) (iblk16 V c 1 ⟨n + 1, hn⟩) (outsAt16 c n (Nat.lt_of_succ_lt hn)).2)
      else
        (idleOut16, sout16_B_0 c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16_0 (Memref.isWhole_whole _) (fun h => h0 ((hcond16_0 ⟨n + 1, hn⟩).mp h)) (fun h => h1 ((hcond16_1 ⟨n + 1, hn⟩).mp h)) (iblk16 V c 0 ⟨n + 1, hn⟩) (outsAt16 c n (Nat.lt_of_succ_lt hn)).2)

theorem outsAt16_A (c : Dev nD) (t : Fin cfg16.N) (h0 : t.val % 8 = 0) (h1 : ¬t.val % 8 = 7) :
    outsAt16 V c t.val t.isLt = (idleOut16, sout16_A_0 c (grid16.coords t) (ms16_0 t) (hs16_0 t) (ms16_1 t) (hs16_1 t) (ms16_2 t) (hs16_2 t) scM16_0 (Memref.isWhole_whole _) ((hcond16_0 t).mpr h0) (fun h => h1 ((hcond16_1 t).mp h)) (iblk16 V c 0 t)) := by
  obtain ⟨n, hn⟩ := t
  cases n with
  | zero => exact rfl
  | succ n => exact (dif_pos h0).trans ((dif_neg h1).trans rfl)

theorem outsAt16_B (c : Dev nD) (t : Fin cfg16.N) (h0 : ¬t.val % 8 = 0) (h1 : ¬t.val % 8 = 7) :
    outsAt16 V c t.val t.isLt = (idleOut16, sout16_B_0 c (grid16.coords t) (ms16_0 t) (hs16_0 t) (ms16_1 t) (hs16_1 t) (ms16_2 t) (hs16_2 t) scM16_0 (Memref.isWhole_whole _) (fun h => h0 ((hcond16_0 t).mp h)) (fun h => h1 ((hcond16_1 t).mp h)) (iblk16 V c 0 t) (outsAt16 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt16_C (c : Dev nD) (t : Fin cfg16.N) (h0 : ¬t.val % 8 = 0) (h1 : t.val % 8 = 7) :
    outsAt16 V c t.val t.isLt = (out16_C_2 c (grid16.coords t) (ms16_0 t) (hs16_0 t) (ms16_1 t) (hs16_1 t) (ms16_2 t) (hs16_2 t) scM16_0 (Memref.isWhole_whole _) (fun h => h0 ((hcond16_0 t).mp h)) ((hcond16_1 t).mpr h1) (iblk16 V c 0 t) (iblk16 V c 1 t) (outsAt16 V c (t.val - 1) (Nat.lt_of_le_of_lt (Nat.sub_le _ _) t.isLt)).2,
      sout16_C_0 c (grid16.coords t) (ms16_0 t) (hs16_0 t) (ms16_1 t) (hs16_1 t) (ms16_2 t) (hs16_2 t) scM16_0 (Memref.isWhole_whole _) (fun h => h0 ((hcond16_0 t).mp h)) ((hcond16_1 t).mpr h1) (iblk16 V c 0 t) (iblk16 V c 1 t) (outsAt16 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS16 (c : Dev nD) : (n : ℕ) → n ≤ cfg16.N → sProp 𝕄
  | 0, _ => Pipeline.ΦA spec16 c
  | n + 1, hn => iprop(iprop(owns (c : Thread nD τ) scM16_0 fullShare ((outsAt16 V c n hn).2) ∗ Pipeline.scopedRestBut (Ix := Unit) (Name := ℕ) (U := UR sig nD τ) (Lvl := ℕ) (Val := Elt F) spec16 c [cc16_scratch0]) ∗ (∃ r, prngReg c r))

theorem PhiS16_zero (c : Dev nD) (n : ℕ) (h : n ≤ cfg16.N) (hz : n = 0) : PhiS16 V c n h = Pipeline.ΦA spec16 c := by
  subst hz; rfl
theorem PhiS16_succ (c : Dev nD) (n : ℕ) (hn : n < cfg16.N) :
    PhiS16 V c (n + 1) hn = iprop(iprop(owns (c : Thread nD τ) scM16_0 fullShare ((outsAt16 V c n hn).2) ∗ Pipeline.scopedRestBut (Ix := Unit) (Name := ℕ) (U := UR sig nD τ) (Lvl := ℕ) (Val := Elt F) spec16 c [cc16_scratch0]) ∗ (∃ r, prngReg c r)) := rfl
theorem PhiS16_pos (c : Dev nD) (n : ℕ) (h : n ≤ cfg16.N) (hz : n ≠ 0) :
    PhiS16 V c n h = iprop(iprop(owns (c : Thread nD τ) scM16_0 fullShare ((outsAt16 V c (n - 1) (by omega)).2) ∗ Pipeline.scopedRestBut (Ix := Unit) (Name := ℕ) (U := UR sig nD τ) (Lvl := ℕ) (Val := Elt F) spec16 c [cc16_scratch0]) ∗ (∃ r, prngReg c r)) := by
  cases n with
  | zero => exact absurd rfl hz
  | succ n => rfl

/-! ## The proof data -/

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => (outsAt16 V c t.val t.isLt).1
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]
theorem PhiS16_castSucc (c : Dev nD) (t : Fin cfg16.N) :
    (dat16 V c).Φ t.castSucc = PhiS16 V c t.val (Nat.le_of_lt t.isLt) := by
  dsimp only [dat16]; simp only [Fin.coe_castSucc]
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = (outsAt16 V c t.val t.isLt).1 := by dsimp only [dat16]
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-! ## The body obligation -/

def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d)))

def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t)

set_option maxHeartbeats 4800000 in
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).owesAt () t.succ = (dat16 V c).owesAt () t.castSucc from rfl]
  rw [show (dat16 V c).Φ t.succ = PhiS16 V c (t.val + 1) t.isLt from rfl, PhiS16_succ]
  have hN : t.val < 32 := lt_of_lt_of_eq t.isLt (show cfg16.N = 32 from N_16)
  rw [show (dat16 V c).leavesExact 0 t = owns (c : Thread nD τ) (ms16_0 t) fullShare ((dat16 V c).after 0 t) from by
    unfold Dat.leavesExact; rw [liveAt16_0 t], after16_0]
  rw [show (dat16 V c).leavesExact 1 t = owns (c : Thread nD τ) (ms16_1 t) fullShare ((dat16 V c).after 1 t) from by
    unfold Dat.leavesExact; rw [liveAt16_1 t], after16_1]
  by_cases h0 : t.val % 8 = 0
  · have h1 : ¬t.val % 8 = 7 := by omega
    have hc1 : ¬cond16_1 (grid16.coords t) := fun h => h1 ((hcond16_1 t).mp h)
    rw [Dat.leavesExact_idle (dat16 V c) 2 t (idleAt16_2 t hc1) (noFlush16_2 t hc1)]
    rw [outsAt16_A V c t h0 h1]
    unfold sout16_A_0; (try dsimp only)
    by_cases hz : t.val = 0
    · rw [PhiS16_castSucc V c t, PhiS16_zero V c _ _ hz, PhiA16_eq]
      iintro ⟨⟨⟨HS0, HR⟩, Hg⟩, Ho, ⟨%d0, H0⟩, ⟨%d1, H1⟩, ⟨%d2, H2⟩⟩
      iapply ((kernelRun16_A c (grid16.coords t) _ _ _ _ _ _ _ _ ((hcond16_0 t).mpr h0) hc1 (iblk16 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_A_0 c _ _ _ _ _ _ _ _ _ _ _ _)
          iexact HR
        iexact Hg
      isplitl [Ho]; · iexact Ho
      isplitl [H0]; · iexact H0
      isplitl [H1]; · iexact H1
      iexists _; iexact H2
    · rw [PhiS16_castSucc V c t, PhiS16_pos V c _ _ hz]
      iintro ⟨⟨⟨HS0, HR⟩, Hg⟩, Ho, ⟨%d0, H0⟩, ⟨%d1, H1⟩, ⟨%d2, H2⟩⟩
      iapply ((kernelRun16_A c (grid16.coords t) _ _ _ _ _ _ _ _ ((hcond16_0 t).mpr h0) hc1 (iblk16 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_A_0 c _ _ _ _ _ _ _ _ _ _ _ _)
          iexact HR
        iexact Hg
      isplitl [Ho]; · iexact Ho
      isplitl [H0]; · iexact H0
      isplitl [H1]; · iexact H1
      iexists _; iexact H2
  · have hc0 : ¬cond16_0 (grid16.coords t) := fun h => h0 ((hcond16_0 t).mp h)
    have hz : t.val ≠ 0 := fun e => h0 (by rw [e])
    by_cases h1 : t.val % 8 = 7
    · have hc1 : cond16_1 (grid16.coords t) := (hcond16_1 t).mpr h1
      rw [show (dat16 V c).leavesExact 2 t = owns (c : Thread nD τ) (ms16_2 t) fullShare ((dat16 V c).after 2 t) from by
        unfold Dat.leavesExact; rw [liveAt16_2 t hc1], after16_2]
      rw [outsAt16_C V c t h0 h1]
      unfold out16_C_2 sout16_C_0; (try dsimp only)
      rw [PhiS16_castSucc V c t, PhiS16_pos V c _ _ hz]
      iintro ⟨⟨⟨HS0, HR⟩, Hg⟩, Ho, ⟨%d0, H0⟩, ⟨%d1, H1⟩, ⟨%d2, H2⟩⟩
      iapply ((kernelRun16_C c (grid16.coords t) _ _ _ _ _ _ _ _ hc0 hc1 (iblk16 V c 0 t) (iblk16 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover16_C_2 c _ _ _ _ _ _ _ _ _ _ _ _ _ _)
    · have hc1 : ¬cond16_1 (grid16.coords t) := fun h => h1 ((hcond16_1 t).mp h)
      rw [Dat.leavesExact_idle (dat16 V c) 2 t (idleAt16_2 t hc1) (noFlush16_2 t hc1)]
      rw [outsAt16_B V c t h0 h1]
      unfold sout16_B_0; (try dsimp only)
      rw [PhiS16_castSucc V c t, PhiS16_pos V c _ _ hz]
      iintro ⟨⟨⟨HS0, HR⟩, Hg⟩, Ho, ⟨%d0, H0⟩, ⟨%d1, H1⟩, ⟨%d2, H2⟩⟩
      iapply ((kernelRun16_B c (grid16.coords t) _ _ _ _ _ _ _ _ hc0 hc1 (iblk16 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_B_0 c _ _ _ _ _ _ _ _ _ _ _ _ _)
          iexact HR
        iexact Hg
      isplitl [Ho]; · iexact Ho
      isplitl [H0]; · iexact H0
      isplitl [H1]; · iexact H1
      iexists _; iexact H2

theorem body_obligation16 (c : Dev nD) : BodyObligation (dat16 (F := F) V c) (defs₀ (F := F)) Variants.none () Set.univ := fun t => by
  rw [bigSep_W16, bigSep_W16]
  exact sound_body16 V c t

/-- What the launch hands the region is the invariant before the first point. -/
theorem hin16 (c : Dev nD) : (Pipeline.ΦA spec16 c : sProp 𝕄) ⊢ (dat16 V c).Φ 0 := by
  rw [show (dat16 V c).Φ 0 = PhiS16 V c 0 (Nat.zero_le _) from rfl, PhiS16_zero V c 0 _ rfl]
  try exact Idealize.SL.BI.Entails.refl _

/-- After any point but the first the invariant gives the class's back: what the carried buffer holds is forgotten. -/
theorem Phi_out16 (c : Dev nD) (t : Fin (cfg16.N + 1)) (ht : t.val ≠ 0) : (dat16 V c).Φ t ⊢ (Pipeline.ΦA spec16 c : sProp 𝕄) := by
  rw [show (dat16 V c).Φ t = PhiS16 V c t.val (Nat.le_of_lt_succ t.isLt) from rfl, PhiS16_pos V c _ _ ht, PhiA16_eq]
  iintro ⟨⟨HS0, HR⟩, Hg⟩
  isplitl [HS0 HR]
  · isplitl [HS0]
    · iexists _; iexact HS0
    iexact HR
  iexact Hg

theorem hout16 (c : Dev nD) : (dat16 V c).Φ (Fin.last cfg16.N) ⊢ (Pipeline.ΦA spec16 c : sProp 𝕄) :=
  Phi_out16 V c _ (by rw [Fin.val_last]; have : cfg16.N = 32 := N_16; omega)

end Cert.KernelIdeal.Frame

end
-- ==== Proof.KI.Upd17.lean ====
/-
  The update step of the mean-field refinement (custom_call 17) as one region of the kernel program: what each
  window's staging buffer holds before and after the body at every grid point, the body's triple, and the body
  obligation the launch theorems ask for — at any float instance.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 17), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The unary scores' staging buffer holds their block at every point (it is fetched at every point), for any proof
    data whose array is `V`'s and whose body leaves the block in place. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The pairwise term's staging buffer holds its block at every point, fetched there or not: its block index is the
    image tile alone, so while the proposal tile runs the index does not move and the buffer, which the body leaves
    as it found it, still holds the block fetched when the image tile began. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses: whole buffers, through the rectangle at offset zero -/

theorem zeros17_2 : (![0, 0] : Fin 2 → Nat) = fun _ => 0 := funext fun a => by fin_cases a <;> rfl
theorem zeros17_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k17_pay1 x1 x0`. Each load is of a whole buffer, so it reads the contents;
    the one store is of the whole buffer, so whatever was there before, the buffer reads as the stored value. -/
theorem sound_kernel17 (c : Dev nD) (E : Set ℕ) (i : grid17.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k17_pay1 x1 x0)) -∗ K ⟨⟩))
      ⊢ wp frame (wpE (defs₀ (F := F)) Variants.none c none) E (cc17__update_kernel i arg2 harg2 arg3 harg3 arg4 harg4) K := by
  simp only [cc17__update_kernel_eq_skeleton]; unfold cc17__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros17_3 inb_S8x256x601_S8x256x601_0_0_0 y⟩),
    View.canon_unit_zero (S := S8x256x601) zeros17_3]
  simp only [View.readAt_eq_ld, View.ld_unit_zero (S := S8x601) zeros17_2, View.ld_unit_zero (S := S8x256x601) zeros17_3]

/-! ## The region's proof data -/

/-- The proof data on core `c`: the arrays as the region finds them; after the body at point `t` each input's buffer
    at its block and the output's at the scores' block minus the pairwise block; the invariant is the scoped rest and
    the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => k17_pay1 (iblk17 V c 1 t) (iblk17 V c 0 t)
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) :
    (dat17 V c).after 2 t = k17_pay1 (iblk17 V c 1 t) (iblk17 V c 0 t) := by dsimp only [dat17]

/-- Each input's current staging buffer holds its block at every point. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

/-! ## The body obligation, at a generic point -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t))

/-- The body at any point: the inputs' memrefs hold their blocks, so the body's triple applies; the invariant and the
    core's debts pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).Φ t.succ = (dat17 V c).Φ t.castSucc from rfl,
    show (dat17 V c).owesAt () t.succ = (dat17 V c).owesAt () t.castSucc from rfl,
    after17_0, after17_1, after17_2]
  iintro ⟨HΦ, Ho, ⟨%d0, H0⟩, ⟨%d1, H1⟩, ⟨%d2, H2⟩⟩
  iapply (sound_kernel17 c Set.univ _ _ _ _ _ _ _ (iblk17 V c 0 t) (iblk17 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation17 (c : Dev nD) : BodyObligation (dat17 (F := F) V c) (defs₀ (F := F)) Variants.none () Set.univ := fun t => by
  rw [bigSep_W17, bigSep_W17]
  exact sound_body17 V c t

/-- The region's invariant is the class invariant itself, at the first point and after the last. -/
theorem hin17 (c : Dev nD) : (Pipeline.ΦA spec17 c : sProp 𝕄) ⊢ (dat17 V c).Φ 0 := .rfl
theorem hout17 (c : Dev nD) : (dat17 V c).Φ (Fin.last cfg17.N) ⊢ (Pipeline.ΦA spec17 c : sProp 𝕄) := .rfl

end Cert.KernelIdeal.Frame
-- ==== Proof.KI.Red18Runs.lean ====
/-
  The reduce call (custom_call 18): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond18_0 (i : grid18.Coords) : Prop := (Scalar.cmpi .ne (Scalar.extui (Scalar.cmpi .eq (BitVec.ofNat 32 (i 1).val) 0#32)) 0#32) = 1#1
theorem hcond18_0 : ∀ t : Fin cfg18.N, cond18_0 (grid18.coords t) ↔ t.val % 8 = 0 :=
  (by decide +kernel : ∀ t : Fin grid18.N, cond18_0 (grid18.coords t) ↔ t.val % 8 = 0)

/-- "this is the last proposal tile": the condition of the product's branch. -/
abbrev cond18_1 (i : grid18.Coords) : Prop := k18_cond2 i = 1#1
theorem hcond18_1 : ∀ t : Fin cfg18.N, cond18_1 (grid18.coords t) ↔ t.val % 8 = 7 :=
  (by decide +kernel : ∀ t : Fin grid18.N, cond18_1 (grid18.coords t) ↔ t.val % 8 = 7)

/-! ## Where the windows are idle -/

theorem liveAt18_0 : ∀ t : Fin cfg18.N, cfg18.idle 0 (grid18.coords t) = false := by decide +kernel
theorem liveAt18_1 : ∀ t : Fin cfg18.N, cfg18.idle 1 (grid18.coords t) = false := by decide +kernel
/-- Away from the last proposal tile the body stores nothing into the output block, -/
theorem idleAt18_2 : ∀ t : Fin cfg18.N, ¬cond18_1 (grid18.coords t) → cfg18.idle 2 (grid18.coords t) = true := by decide +kernel
/-- and the block is not written back there. -/
theorem noFlush18_2 : ∀ t : Fin cfg18.N, ¬cond18_1 (grid18.coords t) → (cfg18.win 2).flush t = false := by decide +kernel
/-- At the last proposal tile it is stored. -/
theorem liveAt18_2 : ∀ t : Fin cfg18.N, cond18_1 (grid18.coords t) → cfg18.idle 2 (grid18.coords t) = false := by decide +kernel

/-! ## The memrefs the body is called with -/

abbrev VO18_2 : View sig .tc .vmem S8x601 .f32 := (Memref.whole cc18_stg2_0 : Memref sig .tc .vmem S8x601 .f32).view
abbrev ms18_0 (t : Fin cfg18.N) : Memref sig .tc .vmem S8x256x601 .f32 := win18_0.stage (cfg18.slots t 0)
abbrev hs18_0 (t : Fin cfg18.N) : (ms18_0 t).IsWhole := hstage18_0 ((cfg18.slots t 0).cast nbuf18_0)
abbrev ms18_1 (t : Fin cfg18.N) : Memref sig .tc .vmem S601x601 .f32 := win18_1.stage (cfg18.slots t 1)
abbrev hs18_1 (t : Fin cfg18.N) : (ms18_1 t).IsWhole := hstage18_1 ((cfg18.slots t 1).cast nbuf18_1)
abbrev ms18_2 (t : Fin cfg18.N) : Memref sig .tc .vmem S8x601 .f32 := win18_2.stage (cfg18.slots t 2)
abbrev hs18_2 (t : Fin cfg18.N) : (ms18_2 t).IsWhole := hstage18_2 ((cfg18.slots t 2).cast nbuf18_2)
/-- The carried maximum's buffer: a whole scoped buffer of the call's own. -/
abbrev scM18_0 : Memref sig .tc .vmem S8x601 .f32 := Memref.whole cc18_scratch0
abbrev VS18_0 : View sig .tc .vmem S8x601 .f32 := scM18_0.view

/-- The class invariant with the carried maximum's buffer taken out of the scoped rest: that buffer at some
    contents, every other scoped buffer unopened, the generator register at some state. -/
theorem PhiA18_eq (c : Dev nD) :
    (Pipeline.ΦA spec18 c : sProp 𝕄)
      = iprop(iprop(iprop((∃ d, owns (c : Thread nD τ) scM18_0 fullShare d)) ∗ Pipeline.scopedRestBut (Ix := Unit) (Name := ℕ) (U := UR sig nD τ) (Lvl := ℕ) (Val := Elt F) spec18 c [cc18_scratch0]) ∗ (∃ r, prngReg c r)) := by
  unfold Pipeline.ΦA; rw [scopedRest18_split]; simp only [scM18_0, owns_whole]; try rfl

/-! ## The input windows' blocks -/

/-- Window `w`'s block at point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- The scores' staging buffer holds the point's block whenever the body runs, -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- and so does the matrix's, fetched once: its block index never moves. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

end Cert.KernelIdeal.Frame

end
-- ==== Proof.KI.Red18Run.lean ====
/-
  The reduce call's body (custom_call 18) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.KI.Red18Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun18_A (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond18_0 i) (hc1 : ¬cond18_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc18__reduce_kernel i arg2 harg2 arg3 harg3 arg4 harg4 arg5 harg5) K } := by
  refine ⟨?_, fun E K => ?run⟩
  case run =>
    simp only [cc18__reduce_kernel_eq_skeleton]; unfold cc18__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun18_B (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : ¬cond18_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc18__reduce_kernel i arg2 harg2 arg3 harg3 arg4 harg4 arg5 harg5) K } := by
  refine ⟨?_, fun E K => ?run⟩
  case run =>
    simp only [cc18__reduce_kernel_eq_skeleton]; unfold cc18__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun18_C (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc18__reduce_kernel i arg2 harg2 arg3 harg3 arg4 harg4 arg5 harg5) K } := by
  refine ⟨?_, ?_, fun E K => ?run⟩
  case run =>
    simp only [cc18__reduce_kernel_eq_skeleton]; unfold cc18__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KI.Red18.lean ====
/-
  The reduce call (custom_call 18) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.KI.Red18Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover18_A_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond18_0 i) (hc1 : ¬cond18_1 i) (x0 : Vec F S8x256x601 .f32) (y : S8x601.Idx) :
    ∃ pc ∈ (kernelRun18_A c i arg2 harg2 arg3 harg3 arg4 harg4 arg5 harg5 hc0 hc1 x0).1, y ∈ pc.1.set :=
  View.cover_of_tiledL (kernelRun18_A c i arg2 harg2 arg3 harg3 arg4 harg4 arg5 harg5 hc0 hc1 x0).1 S8x601.size (by sl_kernel_rfl) y
/-- The carried buffer after a first proposal tile: its pieces read back. -/
def sout18_A_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond18_0 i) (hc1 : ¬cond18_1 i) (x0 : Vec F S8x256x601 .f32) : Vec F S8x601 .f32 :=
  VS18_0.read (Elt F) (VS18_0.writes (Elt F) VS18_0.junk (kernelRun18_A c i arg2 harg2 arg3 harg3 arg4 harg4 arg5 harg5 hc0 hc1 x0).1)

theorem scover18_B_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : ¬cond18_1 i) (x0 : Vec F S8x256x601 .f32) (xs0 : Vec F S8x601 .f32) (y : S8x601.Idx) :
    ∃ pc ∈ (kernelRun18_B c i arg2 harg2 arg3 harg3 arg4 harg4 arg5 harg5 hc0 hc1 x0 xs0).1, y ∈ pc.1.set :=
  View.cover_of_tiledL (kernelRun18_B c i arg2 harg2 arg3 harg3 arg4 harg4 arg5 harg5 hc0 hc1 x0 xs0).1 S8x601.size (by sl_kernel_rfl) y
/-- The carried buffer after an inner proposal tile. -/
def sout18_B_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : ¬cond18_1 i) (x0 : Vec F S8x256x601 .f32) (xs0 : Vec F S8x601 .f32) : Vec F S8x601 .f32 :=
  VS18_0.read (Elt F) (VS18_0.writes (Elt F) VS18_0.junk (kernelRun18_B c i arg2 harg2 arg3 harg3 arg4 harg4 arg5 harg5 hc0 hc1 x0 xs0).1)

theorem cover18_C_2 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i) (x0 : Vec F S8x256x601 .f32) (x1 : Vec F S601x601 .f32) (xs0 : Vec F S8x601 .f32) (y : S8x601.Idx) :
    ∃ pc ∈ (kernelRun18_C c i arg2 harg2 arg3 harg3 arg4 harg4 arg5 harg5 hc0 hc1 x0 x1 xs0).1, y ∈ pc.1.set :=
  View.cover_of_tiledL (kernelRun18_C c i arg2 harg2 arg3 harg3 arg4 harg4 arg5 harg5 hc0 hc1 x0 x1 xs0).1 S8x601.size (by sl_kernel_rfl) y
/-- The output block after a last proposal tile. -/
def out18_C_2 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i) (x0 : Vec F S8x256x601 .f32) (x1 : Vec F S601x601 .f32) (xs0 : Vec F S8x601 .f32) : Vec F S8x601 .f32 :=
  VO18_2.read (Elt F) (VO18_2.writes (Elt F) VO18_2.junk (kernelRun18_C c i arg2 harg2 arg3 harg3 arg4 harg4 arg5 harg5 hc0 hc1 x0 x1 xs0).1)
theorem scover18_C_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i) (x0 : Vec F S8x256x601 .f32) (x1 : Vec F S601x601 .f32) (xs0 : Vec F S8x601 .f32) (y : S8x601.Idx) :
    ∃ pc ∈ (kernelRun18_C c i arg2 harg2 arg3 harg3 arg4 harg4 arg5 harg5 hc0 hc1 x0 x1 xs0).2.1, y ∈ pc.1.set :=
  View.cover_of_tiledL (kernelRun18_C c i arg2 harg2 arg3 harg3 arg4 harg4 arg5 harg5 hc0 hc1 x0 x1 xs0).2.1 S8x601.size (by sl_kernel_rfl) y
/-- The carried buffer after a last proposal tile. -/
def sout18_C_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i) (x0 : Vec F S8x256x601 .f32) (x1 : Vec F S601x601 .f32) (xs0 : Vec F S8x601 .f32) : Vec F S8x601 .f32 :=
  VS18_0.read (Elt F) (VS18_0.writes (Elt F) VS18_0.junk (kernelRun18_C c i arg2 harg2 arg3 harg3 arg4 harg4 arg5 harg5 hc0 hc1 x0 x1 xs0).2.1)

/-- What stands for the output block where the body does not store it (nothing consults it there). -/
def idleOut18 : Vec F S8x601 .f32 := VO18_2.read (Elt F) VO18_2.junk

/-! ## The accumulation over the grid points -/

/-- After the body at position `n`: (the output block, the carried buffer). -/
def outsAt18 (c : Dev nD) : (n : ℕ) → n < cfg18.N → Vec F S8x601 .f32 × Vec F S8x601 .f32
  | 0, hn => (idleOut18, sout18_A_0 c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) scM18_0 (Memref.isWhole_whole _) ((hcond18_0 ⟨0, hn⟩).mpr (Nat.zero_mod _)) (fun h => (fun h => by (try dsimp only at h); omega) ((hcond18_1 ⟨0, hn⟩).mp h)) (iblk18 V c 0 ⟨0, hn⟩))
  | n + 1, hn =>
    if h0 : (n + 1) % 8 = 0 then
      if h1 : (n + 1) % 8 = 7 then
        False.elim (by omega)
      else
        (idleOut18, sout18_A_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18_0 (Memref.isWhole_whole _) ((hcond18_0 ⟨n + 1, hn⟩).mpr h0) (fun h => h1 ((hcond18_1 ⟨n + 1, hn⟩).mp h)) (iblk18 V c 0 ⟨n + 1, hn⟩))
    else
      if h1 : (n + 1) % 8 = 7 then
        (out18_C_2 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (outsAt18 c n (Nat.lt_of_succ_lt hn)).2,
         sout18_C_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (outsAt18 c n (Nat.lt_of_succ_lt hn)).2)
      else
        (idleOut18, sout18_B_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18_0 (Memref.isWhole_whole _) (fun h => h0 ((hcond18_0 ⟨n + 1, hn⟩).mp h)) (fun h => h1 ((hcond18_1 ⟨n + 1, hn⟩).mp h)) (iblk18 V c 0 ⟨n + 1, hn⟩) (outsAt18 c n (Nat.lt_of_succ_lt hn)).2)

theorem outsAt18_A (c : Dev nD) (t : Fin cfg18.N) (h0 : t.val % 8 = 0) (h1 : ¬t.val % 8 = 7) :
    outsAt18 V c t.val t.isLt = (idleOut18, sout18_A_0 c (grid18.coords t) (ms18_0 t) (hs18_0 t) (ms18_1 t) (hs18_1 t) (ms18_2 t) (hs18_2 t) scM18_0 (Memref.isWhole_whole _) ((hcond18_0 t).mpr h0) (fun h => h1 ((hcond18_1 t).mp h)) (iblk18 V c 0 t)) := by
  obtain ⟨n, hn⟩ := t
  cases n with
  | zero => exact rfl
  | succ n => exact (dif_pos h0).trans ((dif_neg h1).trans rfl)

theorem outsAt18_B (c : Dev nD) (t : Fin cfg18.N) (h0 : ¬t.val % 8 = 0) (h1 : ¬t.val % 8 = 7) :
    outsAt18 V c t.val t.isLt = (idleOut18, sout18_B_0 c (grid18.coords t) (ms18_0 t) (hs18_0 t) (ms18_1 t) (hs18_1 t) (ms18_2 t) (hs18_2 t) scM18_0 (Memref.isWhole_whole _) (fun h => h0 ((hcond18_0 t).mp h)) (fun h => h1 ((hcond18_1 t).mp h)) (iblk18 V c 0 t) (outsAt18 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt18_C (c : Dev nD) (t : Fin cfg18.N) (h0 : ¬t.val % 8 = 0) (h1 : t.val % 8 = 7) :
    outsAt18 V c t.val t.isLt = (out18_C_2 c (grid18.coords t) (ms18_0 t) (hs18_0 t) (ms18_1 t) (hs18_1 t) (ms18_2 t) (hs18_2 t) scM18_0 (Memref.isWhole_whole _) (fun h => h0 ((hcond18_0 t).mp h)) ((hcond18_1 t).mpr h1) (iblk18 V c 0 t) (iblk18 V c 1 t) (outsAt18 V c (t.val - 1) (Nat.lt_of_le_of_lt (Nat.sub_le _ _) t.isLt)).2,
      sout18_C_0 c (grid18.coords t) (ms18_0 t) (hs18_0 t) (ms18_1 t) (hs18_1 t) (ms18_2 t) (hs18_2 t) scM18_0 (Memref.isWhole_whole _) (fun h => h0 ((hcond18_0 t).mp h)) ((hcond18_1 t).mpr h1) (iblk18 V c 0 t) (iblk18 V c 1 t) (outsAt18 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS18 (c : Dev nD) : (n : ℕ) → n ≤ cfg18.N → sProp 𝕄
  | 0, _ => Pipeline.ΦA spec18 c
  | n + 1, hn => iprop(iprop(owns (c : Thread nD τ) scM18_0 fullShare ((outsAt18 V c n hn).2) ∗ Pipeline.scopedRestBut (Ix := Unit) (Name := ℕ) (U := UR sig nD τ) (Lvl := ℕ) (Val := Elt F) spec18 c [cc18_scratch0]) ∗ (∃ r, prngReg c r))

theorem PhiS18_zero (c : Dev nD) (n : ℕ) (h : n ≤ cfg18.N) (hz : n = 0) : PhiS18 V c n h = Pipeline.ΦA spec18 c := by
  subst hz; rfl
theorem PhiS18_succ (c : Dev nD) (n : ℕ) (hn : n < cfg18.N) :
    PhiS18 V c (n + 1) hn = iprop(iprop(owns (c : Thread nD τ) scM18_0 fullShare ((outsAt18 V c n hn).2) ∗ Pipeline.scopedRestBut (Ix := Unit) (Name := ℕ) (U := UR sig nD τ) (Lvl := ℕ) (Val := Elt F) spec18 c [cc18_scratch0]) ∗ (∃ r, prngReg c r)) := rfl
theorem PhiS18_pos (c : Dev nD) (n : ℕ) (h : n ≤ cfg18.N) (hz : n ≠ 0) :
    PhiS18 V c n h = iprop(iprop(owns (c : Thread nD τ) scM18_0 fullShare ((outsAt18 V c (n - 1) (by omega)).2) ∗ Pipeline.scopedRestBut (Ix := Unit) (Name := ℕ) (U := UR sig nD τ) (Lvl := ℕ) (Val := Elt F) spec18 c [cc18_scratch0]) ∗ (∃ r, prngReg c r)) := by
  cases n with
  | zero => exact absurd rfl hz
  | succ n => rfl

/-! ## The proof data -/

def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => (outsAt18 V c t.val t.isLt).1
  Φ t := PhiS18 V c t.val (Nat.le_of_lt_succ t.isLt)
  q _ := fullShare
  owed _ := 0

theorem A_eq18 (c : Dev nD) (w : Fin cfg18.W) : (dat18 V c).A w = V c (Pipeline.arrRef spec18 w) := by
  dsimp only [dat18]
theorem PhiS18_castSucc (c : Dev nD) (t : Fin cfg18.N) :
    (dat18 V c).Φ t.castSucc = PhiS18 V c t.val (Nat.le_of_lt t.isLt) := by
  dsimp only [dat18]; simp only [Fin.coe_castSucc]
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = (outsAt18 V c t.val t.isLt).1 := by dsimp only [dat18]
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

/-! ## The body obligation -/

def bodyPre18 (c : Dev nD) (t : Fin cfg18.N) : sProp 𝕄 :=
  iprop((dat18 V c).Φ t.castSucc ∗ (dat18 V c).owesAt () t.castSucc
    ∗ (∃ d, owns (c : Thread nD τ) (ms18_0 t) fullShare ((dat18 V c).before 0 t d))
    ∗ (∃ d, owns (c : Thread nD τ) (ms18_1 t) fullShare ((dat18 V c).before 1 t d))
    ∗ (∃ d, owns (c : Thread nD τ) (ms18_2 t) fullShare ((dat18 V c).before 2 t d)))

def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t)

set_option maxHeartbeats 4800000 in
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).owesAt () t.succ = (dat18 V c).owesAt () t.castSucc from rfl]
  rw [show (dat18 V c).Φ t.succ = PhiS18 V c (t.val + 1) t.isLt from rfl, PhiS18_succ]
  have hN : t.val < 32 := lt_of_lt_of_eq t.isLt (show cfg18.N = 32 from N_18)
  rw [show (dat18 V c).leavesExact 0 t = owns (c : Thread nD τ) (ms18_0 t) fullShare ((dat18 V c).after 0 t) from by
    unfold Dat.leavesExact; rw [liveAt18_0 t], after18_0]
  rw [show (dat18 V c).leavesExact 1 t = owns (c : Thread nD τ) (ms18_1 t) fullShare ((dat18 V c).after 1 t) from by
    unfold Dat.leavesExact; rw [liveAt18_1 t], after18_1]
  by_cases h0 : t.val % 8 = 0
  · have h1 : ¬t.val % 8 = 7 := by omega
    have hc1 : ¬cond18_1 (grid18.coords t) := fun h => h1 ((hcond18_1 t).mp h)
    rw [Dat.leavesExact_idle (dat18 V c) 2 t (idleAt18_2 t hc1) (noFlush18_2 t hc1)]
    rw [outsAt18_A V c t h0 h1]
    unfold sout18_A_0; (try dsimp only)
    by_cases hz : t.val = 0
    · rw [PhiS18_castSucc V c t, PhiS18_zero V c _ _ hz, PhiA18_eq]
      iintro ⟨⟨⟨HS0, HR⟩, Hg⟩, Ho, ⟨%d0, H0⟩, ⟨%d1, H1⟩, ⟨%d2, H2⟩⟩
      iapply ((kernelRun18_A c (grid18.coords t) _ _ _ _ _ _ _ _ ((hcond18_0 t).mpr h0) hc1 (iblk18 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover18_A_0 c _ _ _ _ _ _ _ _ _ _ _ _)
          iexact HR
        iexact Hg
      isplitl [Ho]; · iexact Ho
      isplitl [H0]; · iexact H0
      isplitl [H1]; · iexact H1
      iexists _; iexact H2
    · rw [PhiS18_castSucc V c t, PhiS18_pos V c _ _ hz]
      iintro ⟨⟨⟨HS0, HR⟩, Hg⟩, Ho, ⟨%d0, H0⟩, ⟨%d1, H1⟩, ⟨%d2, H2⟩⟩
      iapply ((kernelRun18_A c (grid18.coords t) _ _ _ _ _ _ _ _ ((hcond18_0 t).mpr h0) hc1 (iblk18 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover18_A_0 c _ _ _ _ _ _ _ _ _ _ _ _)
          iexact HR
        iexact Hg
      isplitl [Ho]; · iexact Ho
      isplitl [H0]; · iexact H0
      isplitl [H1]; · iexact H1
      iexists _; iexact H2
  · have hc0 : ¬cond18_0 (grid18.coords t) := fun h => h0 ((hcond18_0 t).mp h)
    have hz : t.val ≠ 0 := fun e => h0 (by rw [e])
    by_cases h1 : t.val % 8 = 7
    · have hc1 : cond18_1 (grid18.coords t) := (hcond18_1 t).mpr h1
      rw [show (dat18 V c).leavesExact 2 t = owns (c : Thread nD τ) (ms18_2 t) fullShare ((dat18 V c).after 2 t) from by
        unfold Dat.leavesExact; rw [liveAt18_2 t hc1], after18_2]
      rw [outsAt18_C V c t h0 h1]
      unfold out18_C_2 sout18_C_0; (try dsimp only)
      rw [PhiS18_castSucc V c t, PhiS18_pos V c _ _ hz]
      iintro ⟨⟨⟨HS0, HR⟩, Hg⟩, Ho, ⟨%d0, H0⟩, ⟨%d1, H1⟩, ⟨%d2, H2⟩⟩
      iapply ((kernelRun18_C c (grid18.coords t) _ _ _ _ _ _ _ _ hc0 hc1 (iblk18 V c 0 t) (iblk18 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover18_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover18_C_2 c _ _ _ _ _ _ _ _ _ _ _ _ _ _)
    · have hc1 : ¬cond18_1 (grid18.coords t) := fun h => h1 ((hcond18_1 t).mp h)
      rw [Dat.leavesExact_idle (dat18 V c) 2 t (idleAt18_2 t hc1) (noFlush18_2 t hc1)]
      rw [outsAt18_B V c t h0 h1]
      unfold sout18_B_0; (try dsimp only)
      rw [PhiS18_castSucc V c t, PhiS18_pos V c _ _ hz]
      iintro ⟨⟨⟨HS0, HR⟩, Hg⟩, Ho, ⟨%d0, H0⟩, ⟨%d1, H1⟩, ⟨%d2, H2⟩⟩
      iapply ((kernelRun18_B c (grid18.coords t) _ _ _ _ _ _ _ _ hc0 hc1 (iblk18 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover18_B_0 c _ _ _ _ _ _ _ _ _ _ _ _ _)
          iexact HR
        iexact Hg
      isplitl [Ho]; · iexact Ho
      isplitl [H0]; · iexact H0
      isplitl [H1]; · iexact H1
      iexists _; iexact H2

theorem body_obligation18 (c : Dev nD) : BodyObligation (dat18 (F := F) V c) (defs₀ (F := F)) Variants.none () Set.univ := fun t => by
  rw [bigSep_W18, bigSep_W18]
  exact sound_body18 V c t

/-- What the launch hands the region is the invariant before the first point. -/
theorem hin18 (c : Dev nD) : (Pipeline.ΦA spec18 c : sProp 𝕄) ⊢ (dat18 V c).Φ 0 := by
  rw [show (dat18 V c).Φ 0 = PhiS18 V c 0 (Nat.zero_le _) from rfl, PhiS18_zero V c 0 _ rfl]
  try exact Idealize.SL.BI.Entails.refl _

/-- After any point but the first the invariant gives the class's back: what the carried buffer holds is forgotten. -/
theorem Phi_out18 (c : Dev nD) (t : Fin (cfg18.N + 1)) (ht : t.val ≠ 0) : (dat18 V c).Φ t ⊢ (Pipeline.ΦA spec18 c : sProp 𝕄) := by
  rw [show (dat18 V c).Φ t = PhiS18 V c t.val (Nat.le_of_lt_succ t.isLt) from rfl, PhiS18_pos V c _ _ ht, PhiA18_eq]
  iintro ⟨⟨HS0, HR⟩, Hg⟩
  isplitl [HS0 HR]
  · isplitl [HS0]
    · iexists _; iexact HS0
    iexact HR
  iexact Hg

theorem hout18 (c : Dev nD) : (dat18 V c).Φ (Fin.last cfg18.N) ⊢ (Pipeline.ΦA spec18 c : sProp 𝕄) :=
  Phi_out18 V c _ (by rw [Fin.val_last]; have : cfg18.N = 32 := N_18; omega)

end Cert.KernelIdeal.Frame

end
-- ==== Proof.KI.Upd19.lean ====
/-
  The update step of the mean-field refinement (custom_call 19) as one region of the kernel program: what each
  window's staging buffer holds before and after the body at every grid point, the body's triple, and the body
  obligation the launch theorems ask for — at any float instance.
-/
import proofs.«121405_j17162689315290_1_alg».proof.Proof.Gen.KernelIdeal.Launch
import proofs.«121405_j17162689315290_1_alg».proof.Proof.Gen.KernelIdeal.Skeleton
import proofs.«121405_j17162689315290_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 19), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The unary scores' staging buffer holds their block at every point (it is fetched at every point), for any proof
    data whose array is `V`'s and whose body leaves the block in place. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- The pairwise term's staging buffer holds its block at every point, fetched there or not: its block index is the
    image tile alone, so while the proposal tile runs the index does not move and the buffer, which the body leaves
    as it found it, still holds the block fetched when the image tile began. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## The body's accesses: whole buffers, through the rectangle at offset zero -/

theorem zeros19_2 : (![0, 0] : Fin 2 → Nat) = fun _ => 0 := funext fun a => by fin_cases a <;> rfl
theorem zeros19_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k19_pay1 x1 x0`. Each load is of a whole buffer, so it reads the contents;
    the one store is of the whole buffer, so whatever was there before, the buffer reads as the stored value. -/
theorem sound_kernel19 (c : Dev nD) (E : Set ℕ) (i : grid19.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k19_pay1 x1 x0)) -∗ K ⟨⟩))
      ⊢ wp frame (wpE (defs₀ (F := F)) Variants.none c none) E (cc19__update_kernel i arg2 harg2 arg3 harg3 arg4 harg4) K := by
  simp only [cc19__update_kernel_eq_skeleton]; unfold cc19__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros19_3 inb_S8x256x601_S8x256x601_0_0_0 y⟩),
    View.canon_unit_zero (S := S8x256x601) zeros19_3]
  simp only [View.readAt_eq_ld, View.ld_unit_zero (S := S8x601) zeros19_2, View.ld_unit_zero (S := S8x256x601) zeros19_3]

/-! ## The region's proof data -/

/-- The proof data on core `c`: the arrays as the region finds them; after the body at point `t` each input's buffer
    at its block and the output's at the scores' block minus the pairwise block; the invariant is the scoped rest and
    the generator register, untouched; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => k19_pay1 (iblk19 V c 1 t) (iblk19 V c 0 t)
  Φ _ := Pipeline.ΦA spec19 c
  q _ := fullShare
  owed _ := 0

/-- The proof data's arrays are the region-entry contents. -/
theorem A_eq19 (c : Dev nD) (w : Fin cfg19.W) : (dat19 V c).A w = V c (Pipeline.arrRef spec19 w) := by
  dsimp only [dat19]

/-- What the body leaves, window by window. -/
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) :
    (dat19 V c).after 2 t = k19_pay1 (iblk19 V c 1 t) (iblk19 V c 0 t) := by dsimp only [dat19]

/-- Each input's current staging buffer holds its block at every point. -/
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-! ## The body obligation, at a generic point -/

/-- What the body is called with at point `t`, the windows one by one, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t))

/-- The body at any point: the inputs' memrefs hold their blocks, so the body's triple applies; the invariant and the
    core's debts pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).Φ t.succ = (dat19 V c).Φ t.castSucc from rfl,
    show (dat19 V c).owesAt () t.succ = (dat19 V c).owesAt () t.castSucc from rfl,
    after19_0, after19_1, after19_2]
  iintro ⟨HΦ, Ho, ⟨%d0, H0⟩, ⟨%d1, H1⟩, ⟨%d2, H2⟩⟩
  iapply (sound_kernel19 c Set.univ _ _ _ _ _ _ _ (iblk19 V c 0 t) (iblk19 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation19 (c : Dev nD) : BodyObligation (dat19 (F := F) V c) (defs₀ (F := F)) Variants.none () Set.univ := fun t => by
  rw [bigSep_W19, bigSep_W19]
  exact sound_body19 V c t

/-- The region's invariant is the class invariant itself, at the first point and after the last. -/
theorem hin19 (c : Dev nD) : (Pipeline.ΦA spec19 c : sProp 𝕄) ⊢ (dat19 V c).Φ 0 := .rfl
theorem hout19 (c : Dev nD) : (dat19 V c).Φ (Fin.last cfg19.N) ⊢ (Pipeline.ΦA spec19 c : sProp 𝕄) := .rfl

end Cert.KernelIdeal.Frame
-- ==== Proof.KI.Fold.lean ====
/-
  The contents of every TensorCore buffer at each of the 32 boundaries between the 31 items of the entry
  function (11 stretches of host operations, 20 kernel launches), written as a fold from the launch memory:
  a stretch of host operations maps the contents through the operations' pure semantics; a kernel launch
  replaces the contents of the arrays its three windows address by what the write-backs of all its grid
  points leave there, and keeps every other buffer. The three argument arrays are written by no host
  operation and are addressed by input windows only, so reading the fold at an argument walks back to
  the launch memory.
-/
import proofs.«121405_j17162689315290_1_alg».proof.Proof.KI.Red0
import proofs.«121405_j17162689315290_1_alg».proof.Proof.KI.Upd1
import proofs.«121405_j17162689315290_1_alg».proof.Proof.KI.Red2
import proofs.«121405_j17162689315290_1_alg».proof.Proof.KI.Upd3
import proofs.«121405_j17162689315290_1_alg».proof.Proof.KI.Red4
import proofs.«121405_j17162689315290_1_alg».proof.Proof.KI.Upd5
import proofs.«121405_j17162689315290_1_alg».proof.Proof.KI.Red6
import proofs.«121405_j17162689315290_1_alg».proof.Proof.KI.Upd7
import proofs.«121405_j17162689315290_1_alg».proof.Proof.KI.Red8
import proofs.«121405_j17162689315290_1_alg».proof.Proof.KI.Upd9
import proofs.«121405_j17162689315290_1_alg».proof.Proof.KI.Red10
import proofs.«121405_j17162689315290_1_alg».proof.Proof.KI.Upd11
import proofs.«121405_j17162689315290_1_alg».proof.Proof.KI.Red12
import proofs.«121405_j17162689315290_1_alg».proof.Proof.KI.Upd13
import proofs.«121405_j17162689315290_1_alg».proof.Proof.KI.Red14
import proofs.«121405_j17162689315290_1_alg».proof.Proof.KI.Upd15
import proofs.«121405_j17162689315290_1_alg».proof.Proof.KI.Red16
import proofs.«121405_j17162689315290_1_alg».proof.Proof.KI.Upd17
import proofs.«121405_j17162689315290_1_alg».proof.Proof.KI.Red18
import proofs.«121405_j17162689315290_1_alg».proof.Proof.KI.Upd19
import proofs.«121405_j17162689315290_1_alg».proof.Proof.Gen.KernelIdeal.Regions

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After the host operations `hostOps0`: their pure semantics applied to the contents before them. -/
abbrev W1 : Dev nD → Valuation τ sig (Elt F) := fun c => StableHlo.after hostOps0 (W0 m ρ c)
/-- The same contents read at the TensorCore's own references. -/
abbrev V1 : (c : Dev nD) → (b : Ref sig .tc) → Buf (Elt F) ((c : Thread nD τ).loc b) := fun c b => W1 m ρ c b

/-- After kernel launch 0: each array one of its windows addresses holds what the write-backs of all grid points
    leave there (an input array is never written back, so it holds what it held); every other buffer is untouched. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's own references. -/
abbrev V2 : (c : Dev nD) → (b : Ref sig .tc) → Buf (Elt F) ((c : Thread nD τ).loc b) := fun c b => W2 m ρ c b
/-- When launch 0 returns, each of its arrays holds the folded write-backs (`hF0`) and every other buffer
    what it held when the launch began (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations `hostOps1`: their pure semantics applied to the contents before them. -/
abbrev W3 : Dev nD → Valuation τ sig (Elt F) := fun c => StableHlo.after hostOps1 (W2 m ρ c)
/-- The same contents read at the TensorCore's own references. -/
abbrev V3 : (c : Dev nD) → (b : Ref sig .tc) → Buf (Elt F) ((c : Thread nD τ).loc b) := fun c b => W3 m ρ c b

/-- After kernel launch 1: each array one of its windows addresses holds what the write-backs of all grid points
    leave there (an input array is never written back, so it holds what it held); every other buffer is untouched. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the TensorCore's own references. -/
abbrev V4 : (c : Dev nD) → (b : Ref sig .tc) → Buf (Elt F) ((c : Thread nD τ).loc b) := fun c b => W4 m ρ c b
/-- When launch 1 returns, each of its arrays holds the folded write-backs (`hF1`) and every other buffer
    what it held when the launch began (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After kernel launch 2: each array one of its windows addresses holds what the write-backs of all grid points
    leave there (an input array is never written back, so it holds what it held); every other buffer is untouched. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same contents read at the TensorCore's own references. -/
abbrev V5 : (c : Dev nD) → (b : Ref sig .tc) → Buf (Elt F) ((c : Thread nD τ).loc b) := fun c b => W5 m ρ c b
/-- When launch 2 returns, each of its arrays holds the folded write-backs (`hF2`) and every other buffer
    what it held when the launch began (`hrest2`). -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the host operations `hostOps3`: their pure semantics applied to the contents before them. -/
abbrev W6 : Dev nD → Valuation τ sig (Elt F) := fun c => StableHlo.after hostOps3 (W5 m ρ c)
/-- The same contents read at the TensorCore's own references. -/
abbrev V6 : (c : Dev nD) → (b : Ref sig .tc) → Buf (Elt F) ((c : Thread nD τ).loc b) := fun c b => W6 m ρ c b

/-- After kernel launch 3: each array one of its windows addresses holds what the write-backs of all grid points
    leave there (an input array is never written back, so it holds what it held); every other buffer is untouched. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same contents read at the TensorCore's own references. -/
abbrev V7 : (c : Dev nD) → (b : Ref sig .tc) → Buf (Elt F) ((c : Thread nD τ).loc b) := fun c b => W7 m ρ c b
/-- When launch 3 returns, each of its arrays holds the folded write-backs (`hF3`) and every other buffer
    what it held when the launch began (`hrest3`). -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After kernel launch 4: each array one of its windows addresses holds what the write-backs of all grid points
    leave there (an input array is never written back, so it holds what it held); every other buffer is untouched. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same contents read at the TensorCore's own references. -/
abbrev V8 : (c : Dev nD) → (b : Ref sig .tc) → Buf (Elt F) ((c : Thread nD τ).loc b) := fun c b => W8 m ρ c b
/-- When launch 4 returns, each of its arrays holds the folded write-backs (`hF4`) and every other buffer
    what it held when the launch began (`hrest4`). -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After the host operations `hostOps5`: their pure semantics applied to the contents before them. -/
abbrev W9 : Dev nD → Valuation τ sig (Elt F) := fun c => StableHlo.after hostOps5 (W8 m ρ c)
/-- The same contents read at the TensorCore's own references. -/
abbrev V9 : (c : Dev nD) → (b : Ref sig .tc) → Buf (Elt F) ((c : Thread nD τ).loc b) := fun c b => W9 m ρ c b

/-- After kernel launch 5: each array one of its windows addresses holds what the write-backs of all grid points
    leave there (an input array is never written back, so it holds what it held); every other buffer is untouched. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
/-- The same contents read at the TensorCore's own references. -/
abbrev V10 : (c : Dev nD) → (b : Ref sig .tc) → Buf (Elt F) ((c : Thread nD τ).loc b) := fun c b => W10 m ρ c b
/-- When launch 5 returns, each of its arrays holds the folded write-backs (`hF5`) and every other buffer
    what it held when the launch began (`hrest5`). -/
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

/-- After kernel launch 6: each array one of its windows addresses holds what the write-backs of all grid points
    leave there (an input array is never written back, so it holds what it held); every other buffer is untouched. -/
def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
/-- The same contents read at the TensorCore's own references. -/
abbrev V11 : (c : Dev nD) → (b : Ref sig .tc) → Buf (Elt F) ((c : Thread nD τ).loc b) := fun c b => W11 m ρ c b
/-- When launch 6 returns, each of its arrays holds the folded write-backs (`hF6`) and every other buffer
    what it held when the launch began (`hrest6`). -/
theorem hF6 (c : Dev nD) (w : Fin cfg6.W) : (dat6 (V10 m ρ) c).arrAt w cfg6.N = V11 m ρ c (Pipeline.arrRef spec6 w) :=
  (W11_arr m ρ c w).symm
theorem hrest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)

/-- After the host operations `hostOps7`: their pure semantics applied to the contents before them. -/
abbrev W12 : Dev nD → Valuation τ sig (Elt F) := fun c => StableHlo.after hostOps7 (W11 m ρ c)
/-- The same contents read at the TensorCore's own references. -/
abbrev V12 : (c : Dev nD) → (b : Ref sig .tc) → Buf (Elt F) ((c : Thread nD τ).loc b) := fun c b => W12 m ρ c b

/-- After kernel launch 7: each array one of its windows addresses holds what the write-backs of all grid points
    leave there (an input array is never written back, so it holds what it held); every other buffer is untouched. -/
def W13 (c : Dev nD) : Valuation τ sig (Elt F) :=
  Pipeline.withArrays spec7 c (W12 m ρ c) fun w => (dat7 (V12 m ρ) c).arrAt w cfg7.N
theorem W13_arr (c : Dev nD) (w : Fin cfg7.W) :
    W13 m ρ c (Proc.devRef .tc (Pipeline.arrRef spec7 w)) = (dat7 (V12 m ρ) c).arrAt w cfg7.N := by
  unfold W13; exact Pipeline.withArrays_arr spec7 launch7.win.arr_inj c _ _ w
theorem W13_of_ne (c : Dev nD) (b : Ref sig .tc) (hb : ∀ w, Pipeline.arrRef spec7 w ≠ b) :
    W13 m ρ c (Proc.devRef .tc b) = W12 m ρ c (Proc.devRef .tc b) := by
  unfold W13; exact Pipeline.withArrays_of_ne spec7 c _ _ b hb
/-- The same contents read at the TensorCore's own references. -/
abbrev V13 : (c : Dev nD) → (b : Ref sig .tc) → Buf (Elt F) ((c : Thread nD τ).loc b) := fun c b => W13 m ρ c b
/-- When launch 7 returns, each of its arrays holds the folded write-backs (`hF7`) and every other buffer
    what it held when the launch began (`hrest7`). -/
theorem hF7 (c : Dev nD) (w : Fin cfg7.W) : (dat7 (V12 m ρ) c).arrAt w cfg7.N = V13 m ρ c (Pipeline.arrRef spec7 w) :=
  (W13_arr m ρ c w).symm
theorem hrest7 (c : Dev nD) : ∀ b, b ∉ Finset.univ.image (Pipeline.arrRef spec7) → V13 m ρ c b = V12 m ρ c b :=
  fun b hb => W13_of_ne m ρ c b fun w e => hb (Finset.mem_image.mpr ⟨w, Finset.mem_univ _, e⟩)

/-- After kernel launch 8: each array one of its windows addresses holds what the write-backs of all grid points
    leave there (an input array is never written back, so it holds what it held); every other buffer is untouched. -/
def W14 (c : Dev nD) : Valuation τ sig (Elt F) :=
  Pipeline.withArrays spec8 c (W13 m ρ c) fun w => (dat8 (V13 m ρ) c).arrAt w cfg8.N
theorem W14_arr (c : Dev nD) (w : Fin cfg8.W) :
    W14 m ρ c (Proc.devRef .tc (Pipeline.arrRef spec8 w)) = (dat8 (V13 m ρ) c).arrAt w cfg8.N := by
  unfold W14; exact Pipeline.withArrays_arr spec8 launch8.win.arr_inj c _ _ w
theorem W14_of_ne (c : Dev nD) (b : Ref sig .tc) (hb : ∀ w, Pipeline.arrRef spec8 w ≠ b) :
    W14 m ρ c (Proc.devRef .tc b) = W13 m ρ c (Proc.devRef .tc b) := by
  unfold W14; exact Pipeline.withArrays_of_ne spec8 c _ _ b hb
/-- The same contents read at the TensorCore's own references. -/
abbrev V14 : (c : Dev nD) → (b : Ref sig .tc) → Buf (Elt F) ((c : Thread nD τ).loc b) := fun c b => W14 m ρ c b
/-- When launch 8 returns, each of its arrays holds the folded write-backs (`hF8`) and every other buffer
    what it held when the launch began (`hrest8`). -/
theorem hF8 (c : Dev nD) (w : Fin cfg8.W) : (dat8 (V13 m ρ) c).arrAt w cfg8.N = V14 m ρ c (Pipeline.arrRef spec8 w) :=
  (W14_arr m ρ c w).symm
theorem hrest8 (c : Dev nD) : ∀ b, b ∉ Finset.univ.image (Pipeline.arrRef spec8) → V14 m ρ c b = V13 m ρ c b :=
  fun b hb => W14_of_ne m ρ c b fun w e => hb (Finset.mem_image.mpr ⟨w, Finset.mem_univ _, e⟩)

/-- After the host operations `hostOps9`: their pure semantics applied to the contents before them. -/
abbrev W15 : Dev nD → Valuation τ sig (Elt F) := fun c => StableHlo.after hostOps9 (W14 m ρ c)
/-- The same contents read at the TensorCore's own references. -/
abbrev V15 : (c : Dev nD) → (b : Ref sig .tc) → Buf (Elt F) ((c : Thread nD τ).loc b) := fun c b => W15 m ρ c b

/-- After kernel launch 9: each array one of its windows addresses holds what the write-backs of all grid points
    leave there (an input array is never written back, so it holds what it held); every other buffer is untouched. -/
def W16 (c : Dev nD) : Valuation τ sig (Elt F) :=
  Pipeline.withArrays spec9 c (W15 m ρ c) fun w => (dat9 (V15 m ρ) c).arrAt w cfg9.N
theorem W16_arr (c : Dev nD) (w : Fin cfg9.W) :
    W16 m ρ c (Proc.devRef .tc (Pipeline.arrRef spec9 w)) = (dat9 (V15 m ρ) c).arrAt w cfg9.N := by
  unfold W16; exact Pipeline.withArrays_arr spec9 launch9.win.arr_inj c _ _ w
theorem W16_of_ne (c : Dev nD) (b : Ref sig .tc) (hb : ∀ w, Pipeline.arrRef spec9 w ≠ b) :
    W16 m ρ c (Proc.devRef .tc b) = W15 m ρ c (Proc.devRef .tc b) := by
  unfold W16; exact Pipeline.withArrays_of_ne spec9 c _ _ b hb
/-- The same contents read at the TensorCore's own references. -/
abbrev V16 : (c : Dev nD) → (b : Ref sig .tc) → Buf (Elt F) ((c : Thread nD τ).loc b) := fun c b => W16 m ρ c b
/-- When launch 9 returns, each of its arrays holds the folded write-backs (`hF9`) and every other buffer
    what it held when the launch began (`hrest9`). -/
theorem hF9 (c : Dev nD) (w : Fin cfg9.W) : (dat9 (V15 m ρ) c).arrAt w cfg9.N = V16 m ρ c (Pipeline.arrRef spec9 w) :=
  (W16_arr m ρ c w).symm
theorem hrest9 (c : Dev nD) : ∀ b, b ∉ Finset.univ.image (Pipeline.arrRef spec9) → V16 m ρ c b = V15 m ρ c b :=
  fun b hb => W16_of_ne m ρ c b fun w e => hb (Finset.mem_image.mpr ⟨w, Finset.mem_univ _, e⟩)

/-- After kernel launch 10: each array one of its windows addresses holds what the write-backs of all grid points
    leave there (an input array is never written back, so it holds what it held); every other buffer is untouched. -/
def W17 (c : Dev nD) : Valuation τ sig (Elt F) :=
  Pipeline.withArrays spec10 c (W16 m ρ c) fun w => (dat10 (V16 m ρ) c).arrAt w cfg10.N
theorem W17_arr (c : Dev nD) (w : Fin cfg10.W) :
    W17 m ρ c (Proc.devRef .tc (Pipeline.arrRef spec10 w)) = (dat10 (V16 m ρ) c).arrAt w cfg10.N := by
  unfold W17; exact Pipeline.withArrays_arr spec10 launch10.win.arr_inj c _ _ w
theorem W17_of_ne (c : Dev nD) (b : Ref sig .tc) (hb : ∀ w, Pipeline.arrRef spec10 w ≠ b) :
    W17 m ρ c (Proc.devRef .tc b) = W16 m ρ c (Proc.devRef .tc b) := by
  unfold W17; exact Pipeline.withArrays_of_ne spec10 c _ _ b hb
/-- The same contents read at the TensorCore's own references. -/
abbrev V17 : (c : Dev nD) → (b : Ref sig .tc) → Buf (Elt F) ((c : Thread nD τ).loc b) := fun c b => W17 m ρ c b
/-- When launch 10 returns, each of its arrays holds the folded write-backs (`hF10`) and every other buffer
    what it held when the launch began (`hrest10`). -/
theorem hF10 (c : Dev nD) (w : Fin cfg10.W) : (dat10 (V16 m ρ) c).arrAt w cfg10.N = V17 m ρ c (Pipeline.arrRef spec10 w) :=
  (W17_arr m ρ c w).symm
theorem hrest10 (c : Dev nD) : ∀ b, b ∉ Finset.univ.image (Pipeline.arrRef spec10) → V17 m ρ c b = V16 m ρ c b :=
  fun b hb => W17_of_ne m ρ c b fun w e => hb (Finset.mem_image.mpr ⟨w, Finset.mem_univ _, e⟩)

/-- After the host operations `hostOps11`: their pure semantics applied to the contents before them. -/
abbrev W18 : Dev nD → Valuation τ sig (Elt F) := fun c => StableHlo.after hostOps11 (W17 m ρ c)
/-- The same contents read at the TensorCore's own references. -/
abbrev V18 : (c : Dev nD) → (b : Ref sig .tc) → Buf (Elt F) ((c : Thread nD τ).loc b) := fun c b => W18 m ρ c b

/-- After kernel launch 11: each array one of its windows addresses holds what the write-backs of all grid points
    leave there (an input array is never written back, so it holds what it held); every other buffer is untouched. -/
def W19 (c : Dev nD) : Valuation τ sig (Elt F) :=
  Pipeline.withArrays spec11 c (W18 m ρ c) fun w => (dat11 (V18 m ρ) c).arrAt w cfg11.N
theorem W19_arr (c : Dev nD) (w : Fin cfg11.W) :
    W19 m ρ c (Proc.devRef .tc (Pipeline.arrRef spec11 w)) = (dat11 (V18 m ρ) c).arrAt w cfg11.N := by
  unfold W19; exact Pipeline.withArrays_arr spec11 launch11.win.arr_inj c _ _ w
theorem W19_of_ne (c : Dev nD) (b : Ref sig .tc) (hb : ∀ w, Pipeline.arrRef spec11 w ≠ b) :
    W19 m ρ c (Proc.devRef .tc b) = W18 m ρ c (Proc.devRef .tc b) := by
  unfold W19; exact Pipeline.withArrays_of_ne spec11 c _ _ b hb
/-- The same contents read at the TensorCore's own references. -/
abbrev V19 : (c : Dev nD) → (b : Ref sig .tc) → Buf (Elt F) ((c : Thread nD τ).loc b) := fun c b => W19 m ρ c b
/-- When launch 11 returns, each of its arrays holds the folded write-backs (`hF11`) and every other buffer
    what it held when the launch began (`hrest11`). -/
theorem hF11 (c : Dev nD) (w : Fin cfg11.W) : (dat11 (V18 m ρ) c).arrAt w cfg11.N = V19 m ρ c (Pipeline.arrRef spec11 w) :=
  (W19_arr m ρ c w).symm
theorem hrest11 (c : Dev nD) : ∀ b, b ∉ Finset.univ.image (Pipeline.arrRef spec11) → V19 m ρ c b = V18 m ρ c b :=
  fun b hb => W19_of_ne m ρ c b fun w e => hb (Finset.mem_image.mpr ⟨w, Finset.mem_univ _, e⟩)

/-- After kernel launch 12: each array one of its windows addresses holds what the write-backs of all grid points
    leave there (an input array is never written back, so it holds what it held); every other buffer is untouched. -/
def W20 (c : Dev nD) : Valuation τ sig (Elt F) :=
  Pipeline.withArrays spec12 c (W19 m ρ c) fun w => (dat12 (V19 m ρ) c).arrAt w cfg12.N
theorem W20_arr (c : Dev nD) (w : Fin cfg12.W) :
    W20 m ρ c (Proc.devRef .tc (Pipeline.arrRef spec12 w)) = (dat12 (V19 m ρ) c).arrAt w cfg12.N := by
  unfold W20; exact Pipeline.withArrays_arr spec12 launch12.win.arr_inj c _ _ w
theorem W20_of_ne (c : Dev nD) (b : Ref sig .tc) (hb : ∀ w, Pipeline.arrRef spec12 w ≠ b) :
    W20 m ρ c (Proc.devRef .tc b) = W19 m ρ c (Proc.devRef .tc b) := by
  unfold W20; exact Pipeline.withArrays_of_ne spec12 c _ _ b hb
/-- The same contents read at the TensorCore's own references. -/
abbrev V20 : (c : Dev nD) → (b : Ref sig .tc) → Buf (Elt F) ((c : Thread nD τ).loc b) := fun c b => W20 m ρ c b
/-- When launch 12 returns, each of its arrays holds the folded write-backs (`hF12`) and every other buffer
    what it held when the launch began (`hrest12`). -/
theorem hF12 (c : Dev nD) (w : Fin cfg12.W) : (dat12 (V19 m ρ) c).arrAt w cfg12.N = V20 m ρ c (Pipeline.arrRef spec12 w) :=
  (W20_arr m ρ c w).symm
theorem hrest12 (c : Dev nD) : ∀ b, b ∉ Finset.univ.image (Pipeline.arrRef spec12) → V20 m ρ c b = V19 m ρ c b :=
  fun b hb => W20_of_ne m ρ c b fun w e => hb (Finset.mem_image.mpr ⟨w, Finset.mem_univ _, e⟩)

/-- After the host operations `hostOps13`: their pure semantics applied to the contents before them. -/
abbrev W21 : Dev nD → Valuation τ sig (Elt F) := fun c => StableHlo.after hostOps13 (W20 m ρ c)
/-- The same contents read at the TensorCore's own references. -/
abbrev V21 : (c : Dev nD) → (b : Ref sig .tc) → Buf (Elt F) ((c : Thread nD τ).loc b) := fun c b => W21 m ρ c b

/-- After kernel launch 13: each array one of its windows addresses holds what the write-backs of all grid points
    leave there (an input array is never written back, so it holds what it held); every other buffer is untouched. -/
def W22 (c : Dev nD) : Valuation τ sig (Elt F) :=
  Pipeline.withArrays spec13 c (W21 m ρ c) fun w => (dat13 (V21 m ρ) c).arrAt w cfg13.N
theorem W22_arr (c : Dev nD) (w : Fin cfg13.W) :
    W22 m ρ c (Proc.devRef .tc (Pipeline.arrRef spec13 w)) = (dat13 (V21 m ρ) c).arrAt w cfg13.N := by
  unfold W22; exact Pipeline.withArrays_arr spec13 launch13.win.arr_inj c _ _ w
theorem W22_of_ne (c : Dev nD) (b : Ref sig .tc) (hb : ∀ w, Pipeline.arrRef spec13 w ≠ b) :
    W22 m ρ c (Proc.devRef .tc b) = W21 m ρ c (Proc.devRef .tc b) := by
  unfold W22; exact Pipeline.withArrays_of_ne spec13 c _ _ b hb
/-- The same contents read at the TensorCore's own references. -/
abbrev V22 : (c : Dev nD) → (b : Ref sig .tc) → Buf (Elt F) ((c : Thread nD τ).loc b) := fun c b => W22 m ρ c b
/-- When launch 13 returns, each of its arrays holds the folded write-backs (`hF13`) and every other buffer
    what it held when the launch began (`hrest13`). -/
theorem hF13 (c : Dev nD) (w : Fin cfg13.W) : (dat13 (V21 m ρ) c).arrAt w cfg13.N = V22 m ρ c (Pipeline.arrRef spec13 w) :=
  (W22_arr m ρ c w).symm
theorem hrest13 (c : Dev nD) : ∀ b, b ∉ Finset.univ.image (Pipeline.arrRef spec13) → V22 m ρ c b = V21 m ρ c b :=
  fun b hb => W22_of_ne m ρ c b fun w e => hb (Finset.mem_image.mpr ⟨w, Finset.mem_univ _, e⟩)

/-- After kernel launch 14: each array one of its windows addresses holds what the write-backs of all grid points
    leave there (an input array is never written back, so it holds what it held); every other buffer is untouched. -/
def W23 (c : Dev nD) : Valuation τ sig (Elt F) :=
  Pipeline.withArrays spec14 c (W22 m ρ c) fun w => (dat14 (V22 m ρ) c).arrAt w cfg14.N
theorem W23_arr (c : Dev nD) (w : Fin cfg14.W) :
    W23 m ρ c (Proc.devRef .tc (Pipeline.arrRef spec14 w)) = (dat14 (V22 m ρ) c).arrAt w cfg14.N := by
  unfold W23; exact Pipeline.withArrays_arr spec14 launch14.win.arr_inj c _ _ w
theorem W23_of_ne (c : Dev nD) (b : Ref sig .tc) (hb : ∀ w, Pipeline.arrRef spec14 w ≠ b) :
    W23 m ρ c (Proc.devRef .tc b) = W22 m ρ c (Proc.devRef .tc b) := by
  unfold W23; exact Pipeline.withArrays_of_ne spec14 c _ _ b hb
/-- The same contents read at the TensorCore's own references. -/
abbrev V23 : (c : Dev nD) → (b : Ref sig .tc) → Buf (Elt F) ((c : Thread nD τ).loc b) := fun c b => W23 m ρ c b
/-- When launch 14 returns, each of its arrays holds the folded write-backs (`hF14`) and every other buffer
    what it held when the launch began (`hrest14`). -/
theorem hF14 (c : Dev nD) (w : Fin cfg14.W) : (dat14 (V22 m ρ) c).arrAt w cfg14.N = V23 m ρ c (Pipeline.arrRef spec14 w) :=
  (W23_arr m ρ c w).symm
theorem hrest14 (c : Dev nD) : ∀ b, b ∉ Finset.univ.image (Pipeline.arrRef spec14) → V23 m ρ c b = V22 m ρ c b :=
  fun b hb => W23_of_ne m ρ c b fun w e => hb (Finset.mem_image.mpr ⟨w, Finset.mem_univ _, e⟩)

/-- After the host operations `hostOps15`: their pure semantics applied to the contents before them. -/
abbrev W24 : Dev nD → Valuation τ sig (Elt F) := fun c => StableHlo.after hostOps15 (W23 m ρ c)
/-- The same contents read at the TensorCore's own references. -/
abbrev V24 : (c : Dev nD) → (b : Ref sig .tc) → Buf (Elt F) ((c : Thread nD τ).loc b) := fun c b => W24 m ρ c b

/-- After kernel launch 15: each array one of its windows addresses holds what the write-backs of all grid points
    leave there (an input array is never written back, so it holds what it held); every other buffer is untouched. -/
def W25 (c : Dev nD) : Valuation τ sig (Elt F) :=
  Pipeline.withArrays spec15 c (W24 m ρ c) fun w => (dat15 (V24 m ρ) c).arrAt w cfg15.N
theorem W25_arr (c : Dev nD) (w : Fin cfg15.W) :
    W25 m ρ c (Proc.devRef .tc (Pipeline.arrRef spec15 w)) = (dat15 (V24 m ρ) c).arrAt w cfg15.N := by
  unfold W25; exact Pipeline.withArrays_arr spec15 launch15.win.arr_inj c _ _ w
theorem W25_of_ne (c : Dev nD) (b : Ref sig .tc) (hb : ∀ w, Pipeline.arrRef spec15 w ≠ b) :
    W25 m ρ c (Proc.devRef .tc b) = W24 m ρ c (Proc.devRef .tc b) := by
  unfold W25; exact Pipeline.withArrays_of_ne spec15 c _ _ b hb
/-- The same contents read at the TensorCore's own references. -/
abbrev V25 : (c : Dev nD) → (b : Ref sig .tc) → Buf (Elt F) ((c : Thread nD τ).loc b) := fun c b => W25 m ρ c b
/-- When launch 15 returns, each of its arrays holds the folded write-backs (`hF15`) and every other buffer
    what it held when the launch began (`hrest15`). -/
theorem hF15 (c : Dev nD) (w : Fin cfg15.W) : (dat15 (V24 m ρ) c).arrAt w cfg15.N = V25 m ρ c (Pipeline.arrRef spec15 w) :=
  (W25_arr m ρ c w).symm
theorem hrest15 (c : Dev nD) : ∀ b, b ∉ Finset.univ.image (Pipeline.arrRef spec15) → V25 m ρ c b = V24 m ρ c b :=
  fun b hb => W25_of_ne m ρ c b fun w e => hb (Finset.mem_image.mpr ⟨w, Finset.mem_univ _, e⟩)

/-- After kernel launch 16: each array one of its windows addresses holds what the write-backs of all grid points
    leave there (an input array is never written back, so it holds what it held); every other buffer is untouched. -/
def W26 (c : Dev nD) : Valuation τ sig (Elt F) :=
  Pipeline.withArrays spec16 c (W25 m ρ c) fun w => (dat16 (V25 m ρ) c).arrAt w cfg16.N
theorem W26_arr (c : Dev nD) (w : Fin cfg16.W) :
    W26 m ρ c (Proc.devRef .tc (Pipeline.arrRef spec16 w)) = (dat16 (V25 m ρ) c).arrAt w cfg16.N := by
  unfold W26; exact Pipeline.withArrays_arr spec16 launch16.win.arr_inj c _ _ w
theorem W26_of_ne (c : Dev nD) (b : Ref sig .tc) (hb : ∀ w, Pipeline.arrRef spec16 w ≠ b) :
    W26 m ρ c (Proc.devRef .tc b) = W25 m ρ c (Proc.devRef .tc b) := by
  unfold W26; exact Pipeline.withArrays_of_ne spec16 c _ _ b hb
/-- The same contents read at the TensorCore's own references. -/
abbrev V26 : (c : Dev nD) → (b : Ref sig .tc) → Buf (Elt F) ((c : Thread nD τ).loc b) := fun c b => W26 m ρ c b
/-- When launch 16 returns, each of its arrays holds the folded write-backs (`hF16`) and every other buffer
    what it held when the launch began (`hrest16`). -/
theorem hF16 (c : Dev nD) (w : Fin cfg16.W) : (dat16 (V25 m ρ) c).arrAt w cfg16.N = V26 m ρ c (Pipeline.arrRef spec16 w) :=
  (W26_arr m ρ c w).symm
theorem hrest16 (c : Dev nD) : ∀ b, b ∉ Finset.univ.image (Pipeline.arrRef spec16) → V26 m ρ c b = V25 m ρ c b :=
  fun b hb => W26_of_ne m ρ c b fun w e => hb (Finset.mem_image.mpr ⟨w, Finset.mem_univ _, e⟩)

/-- After the host operations `hostOps17`: their pure semantics applied to the contents before them. -/
abbrev W27 : Dev nD → Valuation τ sig (Elt F) := fun c => StableHlo.after hostOps17 (W26 m ρ c)
/-- The same contents read at the TensorCore's own references. -/
abbrev V27 : (c : Dev nD) → (b : Ref sig .tc) → Buf (Elt F) ((c : Thread nD τ).loc b) := fun c b => W27 m ρ c b

/-- After kernel launch 17: each array one of its windows addresses holds what the write-backs of all grid points
    leave there (an input array is never written back, so it holds what it held); every other buffer is untouched. -/
def W28 (c : Dev nD) : Valuation τ sig (Elt F) :=
  Pipeline.withArrays spec17 c (W27 m ρ c) fun w => (dat17 (V27 m ρ) c).arrAt w cfg17.N
theorem W28_arr (c : Dev nD) (w : Fin cfg17.W) :
    W28 m ρ c (Proc.devRef .tc (Pipeline.arrRef spec17 w)) = (dat17 (V27 m ρ) c).arrAt w cfg17.N := by
  unfold W28; exact Pipeline.withArrays_arr spec17 launch17.win.arr_inj c _ _ w
theorem W28_of_ne (c : Dev nD) (b : Ref sig .tc) (hb : ∀ w, Pipeline.arrRef spec17 w ≠ b) :
    W28 m ρ c (Proc.devRef .tc b) = W27 m ρ c (Proc.devRef .tc b) := by
  unfold W28; exact Pipeline.withArrays_of_ne spec17 c _ _ b hb
/-- The same contents read at the TensorCore's own references. -/
abbrev V28 : (c : Dev nD) → (b : Ref sig .tc) → Buf (Elt F) ((c : Thread nD τ).loc b) := fun c b => W28 m ρ c b
/-- When launch 17 returns, each of its arrays holds the folded write-backs (`hF17`) and every other buffer
    what it held when the launch began (`hrest17`). -/
theorem hF17 (c : Dev nD) (w : Fin cfg17.W) : (dat17 (V27 m ρ) c).arrAt w cfg17.N = V28 m ρ c (Pipeline.arrRef spec17 w) :=
  (W28_arr m ρ c w).symm
theorem hrest17 (c : Dev nD) : ∀ b, b ∉ Finset.univ.image (Pipeline.arrRef spec17) → V28 m ρ c b = V27 m ρ c b :=
  fun b hb => W28_of_ne m ρ c b fun w e => hb (Finset.mem_image.mpr ⟨w, Finset.mem_univ _, e⟩)

/-- After kernel launch 18: each array one of its windows addresses holds what the write-backs of all grid points
    leave there (an input array is never written back, so it holds what it held); every other buffer is untouched. -/
def W29 (c : Dev nD) : Valuation τ sig (Elt F) :=
  Pipeline.withArrays spec18 c (W28 m ρ c) fun w => (dat18 (V28 m ρ) c).arrAt w cfg18.N
theorem W29_arr (c : Dev nD) (w : Fin cfg18.W) :
    W29 m ρ c (Proc.devRef .tc (Pipeline.arrRef spec18 w)) = (dat18 (V28 m ρ) c).arrAt w cfg18.N := by
  unfold W29; exact Pipeline.withArrays_arr spec18 launch18.win.arr_inj c _ _ w
theorem W29_of_ne (c : Dev nD) (b : Ref sig .tc) (hb : ∀ w, Pipeline.arrRef spec18 w ≠ b) :
    W29 m ρ c (Proc.devRef .tc b) = W28 m ρ c (Proc.devRef .tc b) := by
  unfold W29; exact Pipeline.withArrays_of_ne spec18 c _ _ b hb
/-- The same contents read at the TensorCore's own references. -/
abbrev V29 : (c : Dev nD) → (b : Ref sig .tc) → Buf (Elt F) ((c : Thread nD τ).loc b) := fun c b => W29 m ρ c b
/-- When launch 18 returns, each of its arrays holds the folded write-backs (`hF18`) and every other buffer
    what it held when the launch began (`hrest18`). -/
theorem hF18 (c : Dev nD) (w : Fin cfg18.W) : (dat18 (V28 m ρ) c).arrAt w cfg18.N = V29 m ρ c (Pipeline.arrRef spec18 w) :=
  (W29_arr m ρ c w).symm
theorem hrest18 (c : Dev nD) : ∀ b, b ∉ Finset.univ.image (Pipeline.arrRef spec18) → V29 m ρ c b = V28 m ρ c b :=
  fun b hb => W29_of_ne m ρ c b fun w e => hb (Finset.mem_image.mpr ⟨w, Finset.mem_univ _, e⟩)

/-- After the host operations `hostOps19`: their pure semantics applied to the contents before them. -/
abbrev W30 : Dev nD → Valuation τ sig (Elt F) := fun c => StableHlo.after hostOps19 (W29 m ρ c)
/-- The same contents read at the TensorCore's own references. -/
abbrev V30 : (c : Dev nD) → (b : Ref sig .tc) → Buf (Elt F) ((c : Thread nD τ).loc b) := fun c b => W30 m ρ c b

/-- After kernel launch 19: each array one of its windows addresses holds what the write-backs of all grid points
    leave there (an input array is never written back, so it holds what it held); every other buffer is untouched. -/
def W31 (c : Dev nD) : Valuation τ sig (Elt F) :=
  Pipeline.withArrays spec19 c (W30 m ρ c) fun w => (dat19 (V30 m ρ) c).arrAt w cfg19.N
theorem W31_arr (c : Dev nD) (w : Fin cfg19.W) :
    W31 m ρ c (Proc.devRef .tc (Pipeline.arrRef spec19 w)) = (dat19 (V30 m ρ) c).arrAt w cfg19.N := by
  unfold W31; exact Pipeline.withArrays_arr spec19 launch19.win.arr_inj c _ _ w
theorem W31_of_ne (c : Dev nD) (b : Ref sig .tc) (hb : ∀ w, Pipeline.arrRef spec19 w ≠ b) :
    W31 m ρ c (Proc.devRef .tc b) = W30 m ρ c (Proc.devRef .tc b) := by
  unfold W31; exact Pipeline.withArrays_of_ne spec19 c _ _ b hb
/-- The same contents read at the TensorCore's own references. -/
abbrev V31 : (c : Dev nD) → (b : Ref sig .tc) → Buf (Elt F) ((c : Thread nD τ).loc b) := fun c b => W31 m ρ c b
/-- When launch 19 returns, each of its arrays holds the folded write-backs (`hF19`) and every other buffer
    what it held when the launch began (`hrest19`). -/
theorem hF19 (c : Dev nD) (w : Fin cfg19.W) : (dat19 (V30 m ρ) c).arrAt w cfg19.N = V31 m ρ c (Pipeline.arrRef spec19 w) :=
  (W31_arr m ρ c w).symm
theorem hrest19 (c : Dev nD) : ∀ b, b ∉ Finset.univ.image (Pipeline.arrRef spec19) → V31 m ρ c b = V30 m ρ c b :=
  fun b hb => W31_of_ne m ρ c b fun w e => hb (Finset.mem_image.mpr ⟨w, Finset.mem_univ _, e⟩)

/-! ## The arguments end as launched

No host operation writes an argument array, and a kernel launch addresses an argument through an input window
(whose array the launch leaves as it found it) or not at all. -/

theorem W31_main_arg0 (c : Dev nD) : W31 m ρ c (Proc.devRef .tc main_arg0) = m ((c : Thread nD τ).loc main_arg0) :=
  calc W31 m ρ c (Proc.devRef .tc main_arg0)
    _ = W30 m ρ c (Proc.devRef .tc main_arg0) := (W31_arr m ρ c 0).trans (((dat19 (V30 m ρ) c).arrAt_in 0 rfl _).trans (A_eq19 (V30 m ρ) c 0))
    _ = W29 m ρ c (Proc.devRef .tc main_arg0) := StableHlo.after_of_writes_sub hostOps19 _ hostOps19_writes (by decide)
    _ = W28 m ρ c (Proc.devRef .tc main_arg0) := W29_of_ne m ρ c main_arg0 (by decide)
    _ = W27 m ρ c (Proc.devRef .tc main_arg0) := (W28_arr m ρ c 0).trans (((dat17 (V27 m ρ) c).arrAt_in 0 rfl _).trans (A_eq17 (V27 m ρ) c 0))
    _ = W26 m ρ c (Proc.devRef .tc main_arg0) := StableHlo.after_of_writes_sub hostOps17 _ hostOps17_writes (by decide)
    _ = W25 m ρ c (Proc.devRef .tc main_arg0) := W26_of_ne m ρ c main_arg0 (by decide)
    _ = W24 m ρ c (Proc.devRef .tc main_arg0) := (W25_arr m ρ c 0).trans (((dat15 (V24 m ρ) c).arrAt_in 0 rfl _).trans (A_eq15 (V24 m ρ) c 0))
    _ = W23 m ρ c (Proc.devRef .tc main_arg0) := StableHlo.after_of_writes_sub hostOps15 _ hostOps15_writes (by decide)
    _ = W22 m ρ c (Proc.devRef .tc main_arg0) := W23_of_ne m ρ c main_arg0 (by decide)
    _ = W21 m ρ c (Proc.devRef .tc main_arg0) := (W22_arr m ρ c 0).trans (((dat13 (V21 m ρ) c).arrAt_in 0 rfl _).trans (A_eq13 (V21 m ρ) c 0))
    _ = W20 m ρ c (Proc.devRef .tc main_arg0) := StableHlo.after_of_writes_sub hostOps13 _ hostOps13_writes (by decide)
    _ = W19 m ρ c (Proc.devRef .tc main_arg0) := W20_of_ne m ρ c main_arg0 (by decide)
    _ = W18 m ρ c (Proc.devRef .tc main_arg0) := (W19_arr m ρ c 0).trans (((dat11 (V18 m ρ) c).arrAt_in 0 rfl _).trans (A_eq11 (V18 m ρ) c 0))
    _ = W17 m ρ c (Proc.devRef .tc main_arg0) := StableHlo.after_of_writes_sub hostOps11 _ hostOps11_writes (by decide)
    _ = W16 m ρ c (Proc.devRef .tc main_arg0) := W17_of_ne m ρ c main_arg0 (by decide)
    _ = W15 m ρ c (Proc.devRef .tc main_arg0) := (W16_arr m ρ c 0).trans (((dat9 (V15 m ρ) c).arrAt_in 0 rfl _).trans (A_eq9 (V15 m ρ) c 0))
    _ = W14 m ρ c (Proc.devRef .tc main_arg0) := StableHlo.after_of_writes_sub hostOps9 _ hostOps9_writes (by decide)
    _ = W13 m ρ c (Proc.devRef .tc main_arg0) := W14_of_ne m ρ c main_arg0 (by decide)
    _ = W12 m ρ c (Proc.devRef .tc main_arg0) := (W13_arr m ρ c 0).trans (((dat7 (V12 m ρ) c).arrAt_in 0 rfl _).trans (A_eq7 (V12 m ρ) c 0))
    _ = W11 m ρ c (Proc.devRef .tc main_arg0) := StableHlo.after_of_writes_sub hostOps7 _ hostOps7_writes (by decide)
    _ = W10 m ρ c (Proc.devRef .tc main_arg0) := W11_of_ne m ρ c main_arg0 (by decide)
    _ = W9 m ρ c (Proc.devRef .tc main_arg0) := (W10_arr m ρ c 0).trans (((dat5 (V9 m ρ) c).arrAt_in 0 rfl _).trans (A_eq5 (V9 m ρ) c 0))
    _ = W8 m ρ c (Proc.devRef .tc main_arg0) := StableHlo.after_of_writes_sub hostOps5 _ hostOps5_writes (by decide)
    _ = W7 m ρ c (Proc.devRef .tc main_arg0) := W8_of_ne m ρ c main_arg0 (by decide)
    _ = W6 m ρ c (Proc.devRef .tc main_arg0) := (W7_arr m ρ c 0).trans (((dat3 (V6 m ρ) c).arrAt_in 0 rfl _).trans (A_eq3 (V6 m ρ) c 0))
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W31_main_arg1 (c : Dev nD) : W31 m ρ c (Proc.devRef .tc main_arg1) = m ((c : Thread nD τ).loc main_arg1) :=
  calc W31 m ρ c (Proc.devRef .tc main_arg1)
    _ = W30 m ρ c (Proc.devRef .tc main_arg1) := W31_of_ne m ρ c main_arg1 (by decide)
    _ = W29 m ρ c (Proc.devRef .tc main_arg1) := StableHlo.after_of_writes_sub hostOps19 _ hostOps19_writes (by decide)
    _ = W28 m ρ c (Proc.devRef .tc main_arg1) := (W29_arr m ρ c 1).trans (((dat18 (V28 m ρ) c).arrAt_in 1 rfl _).trans (A_eq18 (V28 m ρ) c 1))
    _ = W27 m ρ c (Proc.devRef .tc main_arg1) := W28_of_ne m ρ c main_arg1 (by decide)
    _ = W26 m ρ c (Proc.devRef .tc main_arg1) := StableHlo.after_of_writes_sub hostOps17 _ hostOps17_writes (by decide)
    _ = W25 m ρ c (Proc.devRef .tc main_arg1) := (W26_arr m ρ c 1).trans (((dat16 (V25 m ρ) c).arrAt_in 1 rfl _).trans (A_eq16 (V25 m ρ) c 1))
    _ = W24 m ρ c (Proc.devRef .tc main_arg1) := W25_of_ne m ρ c main_arg1 (by decide)
    _ = W23 m ρ c (Proc.devRef .tc main_arg1) := StableHlo.after_of_writes_sub hostOps15 _ hostOps15_writes (by decide)
    _ = W22 m ρ c (Proc.devRef .tc main_arg1) := (W23_arr m ρ c 1).trans (((dat14 (V22 m ρ) c).arrAt_in 1 rfl _).trans (A_eq14 (V22 m ρ) c 1))
    _ = W21 m ρ c (Proc.devRef .tc main_arg1) := W22_of_ne m ρ c main_arg1 (by decide)
    _ = W20 m ρ c (Proc.devRef .tc main_arg1) := StableHlo.after_of_writes_sub hostOps13 _ hostOps13_writes (by decide)
    _ = W19 m ρ c (Proc.devRef .tc main_arg1) := (W20_arr m ρ c 1).trans (((dat12 (V19 m ρ) c).arrAt_in 1 rfl _).trans (A_eq12 (V19 m ρ) c 1))
    _ = W18 m ρ c (Proc.devRef .tc main_arg1) := W19_of_ne m ρ c main_arg1 (by decide)
    _ = W17 m ρ c (Proc.devRef .tc main_arg1) := StableHlo.after_of_writes_sub hostOps11 _ hostOps11_writes (by decide)
    _ = W16 m ρ c (Proc.devRef .tc main_arg1) := (W17_arr m ρ c 1).trans (((dat10 (V16 m ρ) c).arrAt_in 1 rfl _).trans (A_eq10 (V16 m ρ) c 1))
    _ = W15 m ρ c (Proc.devRef .tc main_arg1) := W16_of_ne m ρ c main_arg1 (by decide)
    _ = W14 m ρ c (Proc.devRef .tc main_arg1) := StableHlo.after_of_writes_sub hostOps9 _ hostOps9_writes (by decide)
    _ = W13 m ρ c (Proc.devRef .tc main_arg1) := (W14_arr m ρ c 1).trans (((dat8 (V13 m ρ) c).arrAt_in 1 rfl _).trans (A_eq8 (V13 m ρ) c 1))
    _ = W12 m ρ c (Proc.devRef .tc main_arg1) := W13_of_ne m ρ c main_arg1 (by decide)
    _ = W11 m ρ c (Proc.devRef .tc main_arg1) := StableHlo.after_of_writes_sub hostOps7 _ hostOps7_writes (by decide)
    _ = W10 m ρ c (Proc.devRef .tc main_arg1) := (W11_arr m ρ c 1).trans (((dat6 (V10 m ρ) c).arrAt_in 1 rfl _).trans (A_eq6 (V10 m ρ) c 1))
    _ = W9 m ρ c (Proc.devRef .tc main_arg1) := W10_of_ne m ρ c main_arg1 (by decide)
    _ = W8 m ρ c (Proc.devRef .tc main_arg1) := StableHlo.after_of_writes_sub hostOps5 _ hostOps5_writes (by decide)
    _ = W7 m ρ c (Proc.devRef .tc main_arg1) := (W8_arr m ρ c 1).trans (((dat4 (V7 m ρ) c).arrAt_in 1 rfl _).trans (A_eq4 (V7 m ρ) c 1))
    _ = W6 m ρ c (Proc.devRef .tc main_arg1) := W7_of_ne m ρ c main_arg1 (by decide)
    _ = W5 m ρ c (Proc.devRef .tc main_arg1) := StableHlo.after_of_writes_sub hostOps3 _ hostOps3_writes (by decide)
    _ = W4 m ρ c (Proc.devRef .tc main_arg1) := (W5_arr m ρ c 1).trans (((dat2 (V4 m ρ) c).arrAt_in 1 rfl _).trans (A_eq2 (V4 m ρ) c 1))
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W31_main_arg2 (c : Dev nD) : W31 m ρ c (Proc.devRef .tc main_arg2) = m ((c : Thread nD τ).loc main_arg2) :=
  calc W31 m ρ c (Proc.devRef .tc main_arg2)
    _ = W30 m ρ c (Proc.devRef .tc main_arg2) := W31_of_ne m ρ c main_arg2 (by decide)
    _ = W29 m ρ c (Proc.devRef .tc main_arg2) := StableHlo.after_of_writes_sub hostOps19 _ hostOps19_writes (by decide)
    _ = W28 m ρ c (Proc.devRef .tc main_arg2) := W29_of_ne m ρ c main_arg2 (by decide)
    _ = W27 m ρ c (Proc.devRef .tc main_arg2) := W28_of_ne m ρ c main_arg2 (by decide)
    _ = W26 m ρ c (Proc.devRef .tc main_arg2) := StableHlo.after_of_writes_sub hostOps17 _ hostOps17_writes (by decide)
    _ = W25 m ρ c (Proc.devRef .tc main_arg2) := W26_of_ne m ρ c main_arg2 (by decide)
    _ = W24 m ρ c (Proc.devRef .tc main_arg2) := W25_of_ne m ρ c main_arg2 (by decide)
    _ = W23 m ρ c (Proc.devRef .tc main_arg2) := StableHlo.after_of_writes_sub hostOps15 _ hostOps15_writes (by decide)
    _ = W22 m ρ c (Proc.devRef .tc main_arg2) := W23_of_ne m ρ c main_arg2 (by decide)
    _ = W21 m ρ c (Proc.devRef .tc main_arg2) := W22_of_ne m ρ c main_arg2 (by decide)
    _ = W20 m ρ c (Proc.devRef .tc main_arg2) := StableHlo.after_of_writes_sub hostOps13 _ hostOps13_writes (by decide)
    _ = W19 m ρ c (Proc.devRef .tc main_arg2) := W20_of_ne m ρ c main_arg2 (by decide)
    _ = W18 m ρ c (Proc.devRef .tc main_arg2) := W19_of_ne m ρ c main_arg2 (by decide)
    _ = W17 m ρ c (Proc.devRef .tc main_arg2) := StableHlo.after_of_writes_sub hostOps11 _ hostOps11_writes (by decide)
    _ = W16 m ρ c (Proc.devRef .tc main_arg2) := W17_of_ne m ρ c main_arg2 (by decide)
    _ = W15 m ρ c (Proc.devRef .tc main_arg2) := W16_of_ne m ρ c main_arg2 (by decide)
    _ = W14 m ρ c (Proc.devRef .tc main_arg2) := StableHlo.after_of_writes_sub hostOps9 _ hostOps9_writes (by decide)
    _ = W13 m ρ c (Proc.devRef .tc main_arg2) := W14_of_ne m ρ c main_arg2 (by decide)
    _ = W12 m ρ c (Proc.devRef .tc main_arg2) := W13_of_ne m ρ c main_arg2 (by decide)
    _ = W11 m ρ c (Proc.devRef .tc main_arg2) := StableHlo.after_of_writes_sub hostOps7 _ hostOps7_writes (by decide)
    _ = W10 m ρ c (Proc.devRef .tc main_arg2) := W11_of_ne m ρ c main_arg2 (by decide)
    _ = W9 m ρ c (Proc.devRef .tc main_arg2) := W10_of_ne m ρ c main_arg2 (by decide)
    _ = W8 m ρ c (Proc.devRef .tc main_arg2) := StableHlo.after_of_writes_sub hostOps5 _ hostOps5_writes (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_writes_sub hostOps3 _ hostOps3_writes (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

end Cert.KernelIdeal.Frame

end
-- ==== Proof.KI.Run.lean ====
/-
  The entry function as 31 segments (11 stretches of host operations, 20 kernel launches), and its run: from any
  launch memory every weakly fair execution terminates without a fault, with every unscoped buffer at the last
  contents of the fold through the segments; in particular the three argument arrays end as launched.
-/
import proofs.«121405_j17162689315290_1_alg».proof.Proof.KI.Fold

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of every launch, and what rides beside the buffers -/

/-- The admissible contents of prefetched tables: no launch has a table. -/
abbrev adm : (p : Fin 20) → (pcfgs (F := F) p).Adm := fun p => (cfgs p).toPCfg_adm
/-- Every launch's proof data, each at the contents its launch is entered with. Written as a literal case
    distinction on the launch's number so that the configuration at a numeral reduces to the printed one. -/
def pdats : (p : Fin 20) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V10 m ρ) c
  | ⟨7, _⟩ => fun c => dat7 (V12 m ρ) c
  | ⟨8, _⟩ => fun c => dat8 (V13 m ρ) c
  | ⟨9, _⟩ => fun c => dat9 (V15 m ρ) c
  | ⟨10, _⟩ => fun c => dat10 (V16 m ρ) c
  | ⟨11, _⟩ => fun c => dat11 (V18 m ρ) c
  | ⟨12, _⟩ => fun c => dat12 (V19 m ρ) c
  | ⟨13, _⟩ => fun c => dat13 (V21 m ρ) c
  | ⟨14, _⟩ => fun c => dat14 (V22 m ρ) c
  | ⟨15, _⟩ => fun c => dat15 (V24 m ρ) c
  | ⟨16, _⟩ => fun c => dat16 (V25 m ρ) c
  | ⟨17, _⟩ => fun c => dat17 (V27 m ρ) c
  | ⟨18, _⟩ => fun c => dat18 (V28 m ρ) c
  | ⟨19, _⟩ => fun c => dat19 (V30 m ρ) c
  | ⟨_ + 20, h⟩ => absurd h (Nat.not_lt.2 (Nat.le_add_left _ _))
abbrev 𝒱₀ : Variants := Variants.none
/-- No core owes another anything, so no level is assigned. -/
abbrev L : GSem nD τ sig → Finset Unit := fun _ => ∅
abbrev lv : GSem nD τ sig → Unit → ℕ := fun _ _ => 0
/-- What accompanies the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment: from the unscoped buffers at the contents `W` to the same buffers
    at the operations' pure semantics applied to `W`, with `R` carried along unchanged. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of the references the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the core owing nothing: every unscoped buffer at the last contents `W31`, the
    generator register at some state. -/
abbrev Tₙ (c : Dev nD) : sProp 𝕄 := iprop(StableHlo.held (c : Thread nD τ) (Pipeline.ucRefs τ sig) (W31 m ρ c) ∗ ∃ r, prngReg c r)

/-! ## The launches as segments -/

-- unifying a library lemma stated over the pinned configuration with the printed one takes unfolding plain
-- definitions inside a metavariable's type
set_option backward.isDefEq.respectTransparency.types false in
/-- Kernel launch 0 as a segment: entered with every unscoped buffer at the contents `W1`, left with them at
    `W2`. On entry the launch's arrays are split out of the unscoped buffers and the generator register goes
    into the launch's invariant; on exit the arrays are put back at their final contents and the register is
    returned. The body owes nothing and has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    have hk := hout0 (V1 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 1 as a segment: entered with every unscoped buffer at the contents `W3`, left with them at
    `W4`. On entry the launch's arrays are split out of the unscoped buffers and the generator register goes
    into the launch's invariant; on exit the arrays are put back at their final contents and the register is
    returned. The body owes nothing and has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    have hk := hout1 (V3 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 2 as a segment: entered with every unscoped buffer at the contents `W4`, left with them at
    `W5`. On entry the launch's arrays are split out of the unscoped buffers and the generator register goes
    into the launch's invariant; on exit the arrays are put back at their final contents and the register is
    returned. The body owes nothing and has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V4 m ρ) c).Φ 0 from rfl]
    iintro ⟨Hp, -, Hr⟩
    iapply (hin2 (V4 m ρ) c)
    unfold Pipeline.ΦA
    isplitl [Hr]; · iexact Hr
    iexact Hp
  hout c := by
    rw [Pipeline.ownSems0_none, show (pdats m ρ 2 c).Φ (Fin.last _) = (dat2 (V4 m ρ) c).Φ (Fin.last cfg2.N) from rfl]
    have hk := hout2 (V4 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 3 as a segment: entered with every unscoped buffer at the contents `W6`, left with them at
    `W7`. On entry the launch's arrays are split out of the unscoped buffers and the generator register goes
    into the launch's invariant; on exit the arrays are put back at their final contents and the register is
    returned. The body owes nothing and has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V6 m ρ) c).Φ 0 from rfl]
    iintro ⟨Hp, -, Hr⟩
    iapply (hin3 (V6 m ρ) c)
    unfold Pipeline.ΦA
    isplitl [Hr]; · iexact Hr
    iexact Hp
  hout c := by
    rw [Pipeline.ownSems0_none, show (pdats m ρ 3 c).Φ (Fin.last _) = (dat3 (V6 m ρ) c).Φ (Fin.last cfg3.N) from rfl]
    have hk := hout3 (V6 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 4 as a segment: entered with every unscoped buffer at the contents `W7`, left with them at
    `W8`. On entry the launch's arrays are split out of the unscoped buffers and the generator register goes
    into the launch's invariant; on exit the arrays are put back at their final contents and the register is
    returned. The body owes nothing and has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V7 m ρ) c).Φ 0 from rfl]
    iintro ⟨Hp, -, Hr⟩
    iapply (hin4 (V7 m ρ) c)
    unfold Pipeline.ΦA
    isplitl [Hr]; · iexact Hr
    iexact Hp
  hout c := by
    rw [Pipeline.ownSems0_none, show (pdats m ρ 4 c).Φ (Fin.last _) = (dat4 (V7 m ρ) c).Φ (Fin.last cfg4.N) from rfl]
    have hk := hout4 (V7 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 5 as a segment: entered with every unscoped buffer at the contents `W9`, left with them at
    `W10`. On entry the launch's arrays are split out of the unscoped buffers and the generator register goes
    into the launch's invariant; on exit the arrays are put back at their final contents and the register is
    returned. The body owes nothing and has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V9 m ρ) c).Φ 0 from rfl]
    iintro ⟨Hp, -, Hr⟩
    iapply (hin5 (V9 m ρ) c)
    unfold Pipeline.ΦA
    isplitl [Hr]; · iexact Hr
    iexact Hp
  hout c := by
    rw [Pipeline.ownSems0_none, show (pdats m ρ 5 c).Φ (Fin.last _) = (dat5 (V9 m ρ) c).Φ (Fin.last cfg5.N) from rfl]
    have hk := hout5 (V9 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 6 as a segment: entered with every unscoped buffer at the contents `W10`, left with them at
    `W11`. On entry the launch's arrays are split out of the unscoped buffers and the generator register goes
    into the launch's invariant; on exit the arrays are put back at their final contents and the register is
    returned. The body owes nothing and has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V10 m ρ) c).loose
  hwaits := Pipeline.hwaits_of_owed_zero _ _ _ _ L lv 6 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec6 c (V10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V10 m ρ) c).Φ 0 from rfl]
    iintro ⟨Hp, -, Hr⟩
    iapply (hin6 (V10 m ρ) c)
    unfold Pipeline.ΦA
    isplitl [Hr]; · iexact Hr
    iexact Hp
  hout c := by
    rw [Pipeline.ownSems0_none, show (pdats m ρ 6 c).Φ (Fin.last _) = (dat6 (V10 m ρ) c).Φ (Fin.last cfg6.N) from rfl]
    have hk := hout6 (V10 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V10 m ρ c) (V11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 7 as a segment: entered with every unscoped buffer at the contents `W12`, left with them at
    `W13`. On entry the launch's arrays are split out of the unscoped buffers and the generator register goes
    into the launch's invariant; on exit the arrays are put back at their final contents and the register is
    returned. The body owes nothing and has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V12 m ρ) c).loose
  hwaits := Pipeline.hwaits_of_owed_zero _ _ _ _ L lv 7 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec7 c (V12 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V12 m ρ) c).Φ 0 from rfl]
    iintro ⟨Hp, -, Hr⟩
    iapply (hin7 (V12 m ρ) c)
    unfold Pipeline.ΦA
    isplitl [Hr]; · iexact Hr
    iexact Hp
  hout c := by
    rw [Pipeline.ownSems0_none, show (pdats m ρ 7 c).Φ (Fin.last _) = (dat7 (V12 m ρ) c).Φ (Fin.last cfg7.N) from rfl]
    have hk := hout7 (V12 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V12 m ρ c) (V13 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 8 as a segment: entered with every unscoped buffer at the contents `W13`, left with them at
    `W14`. On entry the launch's arrays are split out of the unscoped buffers and the generator register goes
    into the launch's invariant; on exit the arrays are put back at their final contents and the register is
    returned. The body owes nothing and has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V13 m ρ) c).loose
  hwaits := Pipeline.hwaits_of_owed_zero _ _ _ _ L lv 8 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec8 c (V13 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V13 m ρ) c).Φ 0 from rfl]
    iintro ⟨Hp, -, Hr⟩
    iapply (hin8 (V13 m ρ) c)
    unfold Pipeline.ΦA
    isplitl [Hr]; · iexact Hr
    iexact Hp
  hout c := by
    rw [Pipeline.ownSems0_none, show (pdats m ρ 8 c).Φ (Fin.last _) = (dat8 (V13 m ρ) c).Φ (Fin.last cfg8.N) from rfl]
    have hk := hout8 (V13 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V13 m ρ c) (V14 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 9 as a segment: entered with every unscoped buffer at the contents `W15`, left with them at
    `W16`. On entry the launch's arrays are split out of the unscoped buffers and the generator register goes
    into the launch's invariant; on exit the arrays are put back at their final contents and the register is
    returned. The body owes nothing and has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V15 m ρ) c).loose
  hwaits := Pipeline.hwaits_of_owed_zero _ _ _ _ L lv 9 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec9 c (V15 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V15 m ρ) c).Φ 0 from rfl]
    iintro ⟨Hp, -, Hr⟩
    iapply (hin9 (V15 m ρ) c)
    unfold Pipeline.ΦA
    isplitl [Hr]; · iexact Hr
    iexact Hp
  hout c := by
    rw [Pipeline.ownSems0_none, show (pdats m ρ 9 c).Φ (Fin.last _) = (dat9 (V15 m ρ) c).Φ (Fin.last cfg9.N) from rfl]
    have hk := hout9 (V15 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V15 m ρ c) (V16 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 10 as a segment: entered with every unscoped buffer at the contents `W16`, left with them at
    `W17`. On entry the launch's arrays are split out of the unscoped buffers and the generator register goes
    into the launch's invariant; on exit the arrays are put back at their final contents and the register is
    returned. The body owes nothing and has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V16 m ρ) c).loose
  hwaits := Pipeline.hwaits_of_owed_zero _ _ _ _ L lv 10 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec10 c (V16 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V16 m ρ) c).Φ 0 from rfl]
    iintro ⟨Hp, -, Hr⟩
    iapply (hin10 (V16 m ρ) c)
    unfold Pipeline.ΦA
    isplitl [Hr]; · iexact Hr
    iexact Hp
  hout c := by
    rw [Pipeline.ownSems0_none, show (pdats m ρ 10 c).Φ (Fin.last _) = (dat10 (V16 m ρ) c).Φ (Fin.last cfg10.N) from rfl]
    have hk := hout10 (V16 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V16 m ρ c) (V17 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 11 as a segment: entered with every unscoped buffer at the contents `W18`, left with them at
    `W19`. On entry the launch's arrays are split out of the unscoped buffers and the generator register goes
    into the launch's invariant; on exit the arrays are put back at their final contents and the register is
    returned. The body owes nothing and has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V18 m ρ) c).loose
  hwaits := Pipeline.hwaits_of_owed_zero _ _ _ _ L lv 11 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec11 c (V18 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = (dat11 (V18 m ρ) c).Φ 0 from rfl]
    iintro ⟨Hp, -, Hr⟩
    iapply (hin11 (V18 m ρ) c)
    unfold Pipeline.ΦA
    isplitl [Hr]; · iexact Hr
    iexact Hp
  hout c := by
    rw [Pipeline.ownSems0_none, show (pdats m ρ 11 c).Φ (Fin.last _) = (dat11 (V18 m ρ) c).Φ (Fin.last cfg11.N) from rfl]
    have hk := hout11 (V18 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V18 m ρ c) (V19 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 12 as a segment: entered with every unscoped buffer at the contents `W19`, left with them at
    `W20`. On entry the launch's arrays are split out of the unscoped buffers and the generator register goes
    into the launch's invariant; on exit the arrays are put back at their final contents and the register is
    returned. The body owes nothing and has no semaphore of its own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V19 m ρ) c).loose
  hwaits := Pipeline.hwaits_of_owed_zero _ _ _ _ L lv 12 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec12 c (V19 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = (dat12 (V19 m ρ) c).Φ 0 from rfl]
    iintro ⟨Hp, -, Hr⟩
    iapply (hin12 (V19 m ρ) c)
    unfold Pipeline.ΦA
    isplitl [Hr]; · iexact Hr
    iexact Hp
  hout c := by
    rw [Pipeline.ownSems0_none, show (pdats m ρ 12 c).Φ (Fin.last _) = (dat12 (V19 m ρ) c).Φ (Fin.last cfg12.N) from rfl]
    have hk := hout12 (V19 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V19 m ρ c) (V20 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 13 as a segment: entered with every unscoped buffer at the contents `W21`, left with them at
    `W22`. On entry the launch's arrays are split out of the unscoped buffers and the generator register goes
    into the launch's invariant; on exit the arrays are put back at their final contents and the register is
    returned. The body owes nothing and has no semaphore of its own. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V21 m ρ) c).loose
  hwaits := Pipeline.hwaits_of_owed_zero _ _ _ _ L lv 13 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec13 c (V21 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = (dat13 (V21 m ρ) c).Φ 0 from rfl]
    iintro ⟨Hp, -, Hr⟩
    iapply (hin13 (V21 m ρ) c)
    unfold Pipeline.ΦA
    isplitl [Hr]; · iexact Hr
    iexact Hp
  hout c := by
    rw [Pipeline.ownSems0_none, show (pdats m ρ 13 c).Φ (Fin.last _) = (dat13 (V21 m ρ) c).Φ (Fin.last cfg13.N) from rfl]
    have hk := hout13 (V21 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V21 m ρ c) (V22 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 14 as a segment: entered with every unscoped buffer at the contents `W22`, left with them at
    `W23`. On entry the launch's arrays are split out of the unscoped buffers and the generator register goes
    into the launch's invariant; on exit the arrays are put back at their final contents and the register is
    returned. The body owes nothing and has no semaphore of its own. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V22 m ρ) c).loose
  hwaits := Pipeline.hwaits_of_owed_zero _ _ _ _ L lv 14 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec14 c (V22 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = (dat14 (V22 m ρ) c).Φ 0 from rfl]
    iintro ⟨Hp, -, Hr⟩
    iapply (hin14 (V22 m ρ) c)
    unfold Pipeline.ΦA
    isplitl [Hr]; · iexact Hr
    iexact Hp
  hout c := by
    rw [Pipeline.ownSems0_none, show (pdats m ρ 14 c).Φ (Fin.last _) = (dat14 (V22 m ρ) c).Φ (Fin.last cfg14.N) from rfl]
    have hk := hout14 (V22 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V22 m ρ c) (V23 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 15 as a segment: entered with every unscoped buffer at the contents `W24`, left with them at
    `W25`. On entry the launch's arrays are split out of the unscoped buffers and the generator register goes
    into the launch's invariant; on exit the arrays are put back at their final contents and the register is
    returned. The body owes nothing and has no semaphore of its own. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V24 m ρ) c).loose
  hwaits := Pipeline.hwaits_of_owed_zero _ _ _ _ L lv 15 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec15 c (V24 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = (dat15 (V24 m ρ) c).Φ 0 from rfl]
    iintro ⟨Hp, -, Hr⟩
    iapply (hin15 (V24 m ρ) c)
    unfold Pipeline.ΦA
    isplitl [Hr]; · iexact Hr
    iexact Hp
  hout c := by
    rw [Pipeline.ownSems0_none, show (pdats m ρ 15 c).Φ (Fin.last _) = (dat15 (V24 m ρ) c).Φ (Fin.last cfg15.N) from rfl]
    have hk := hout15 (V24 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V24 m ρ c) (V25 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 16 as a segment: entered with every unscoped buffer at the contents `W25`, left with them at
    `W26`. On entry the launch's arrays are split out of the unscoped buffers and the generator register goes
    into the launch's invariant; on exit the arrays are put back at their final contents and the register is
    returned. The body owes nothing and has no semaphore of its own. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V25 m ρ) c).loose
  hwaits := Pipeline.hwaits_of_owed_zero _ _ _ _ L lv 16 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec16 c (V25 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = (dat16 (V25 m ρ) c).Φ 0 from rfl]
    iintro ⟨Hp, -, Hr⟩
    iapply (hin16 (V25 m ρ) c)
    unfold Pipeline.ΦA
    isplitl [Hr]; · iexact Hr
    iexact Hp
  hout c := by
    rw [Pipeline.ownSems0_none, show (pdats m ρ 16 c).Φ (Fin.last _) = (dat16 (V25 m ρ) c).Φ (Fin.last cfg16.N) from rfl]
    have hk := hout16 (V25 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V25 m ρ c) (V26 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 17 as a segment: entered with every unscoped buffer at the contents `W27`, left with them at
    `W28`. On entry the launch's arrays are split out of the unscoped buffers and the generator register goes
    into the launch's invariant; on exit the arrays are put back at their final contents and the register is
    returned. The body owes nothing and has no semaphore of its own. -/
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V27 m ρ) c).loose
  hwaits := Pipeline.hwaits_of_owed_zero _ _ _ _ L lv 17 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec17 c (V27 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = (dat17 (V27 m ρ) c).Φ 0 from rfl]
    iintro ⟨Hp, -, Hr⟩
    iapply (hin17 (V27 m ρ) c)
    unfold Pipeline.ΦA
    isplitl [Hr]; · iexact Hr
    iexact Hp
  hout c := by
    rw [Pipeline.ownSems0_none, show (pdats m ρ 17 c).Φ (Fin.last _) = (dat17 (V27 m ρ) c).Φ (Fin.last cfg17.N) from rfl]
    have hk := hout17 (V27 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V27 m ρ c) (V28 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 18 as a segment: entered with every unscoped buffer at the contents `W28`, left with them at
    `W29`. On entry the launch's arrays are split out of the unscoped buffers and the generator register goes
    into the launch's invariant; on exit the arrays are put back at their final contents and the register is
    returned. The body owes nothing and has no semaphore of its own. -/
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V28 m ρ) c).loose
  hwaits := Pipeline.hwaits_of_owed_zero _ _ _ _ L lv 18 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec18 c (V28 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = (dat18 (V28 m ρ) c).Φ 0 from rfl]
    iintro ⟨Hp, -, Hr⟩
    iapply (hin18 (V28 m ρ) c)
    unfold Pipeline.ΦA
    isplitl [Hr]; · iexact Hr
    iexact Hp
  hout c := by
    rw [Pipeline.ownSems0_none, show (pdats m ρ 18 c).Φ (Fin.last _) = (dat18 (V28 m ρ) c).Φ (Fin.last cfg18.N) from rfl]
    have hk := hout18 (V28 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (V28 m ρ c) (V29 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 19 as a segment: entered with every unscoped buffer at the contents `W30`, left with them at
    `W31`. On entry the launch's arrays are split out of the unscoped buffers and the generator register goes
    into the launch's invariant; on exit the arrays are put back at their final contents and the register is
    returned. The body owes nothing and has no semaphore of its own. -/
def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (V30 m ρ) c).loose
  hwaits := Pipeline.hwaits_of_owed_zero _ _ _ _ L lv 19 fun _ _ => rfl
  pre c := iprop(StableHlo.held (c : Thread nD τ) (Pipeline.ucRefs τ sig) (W30 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec19 c (V30 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 19 c).Φ 0 = (dat19 (V30 m ρ) c).Φ 0 from rfl]
    iintro ⟨Hp, -, Hr⟩
    iapply (hin19 (V30 m ρ) c)
    unfold Pipeline.ΦA
    isplitl [Hr]; · iexact Hr
    iexact Hp
  hout c := by
    rw [Pipeline.ownSems0_none, show (pdats m ρ 19 c).Φ (Fin.last _) = (dat19 (V30 m ρ) c).Φ (Fin.last cfg19.N) from rfl]
    have hk := hout19 (V30 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (V30 m ρ c) (V31 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and its run -/

/-- The 31 segments in order: a host segment per stretch of host operations, entered at that boundary's contents,
    and a region per kernel launch. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .region (reg6 m ρ),
    .host (hseg hostOps7 hostOps7_sub hostOps7_fresh (W11 m ρ)),
    .region (reg7 m ρ),
    .region (reg8 m ρ),
    .host (hseg hostOps9 hostOps9_sub hostOps9_fresh (W14 m ρ)),
    .region (reg9 m ρ),
    .region (reg10 m ρ),
    .host (hseg hostOps11 hostOps11_sub hostOps11_fresh (W17 m ρ)),
    .region (reg11 m ρ),
    .region (reg12 m ρ),
    .host (hseg hostOps13 hostOps13_sub hostOps13_fresh (W20 m ρ)),
    .region (reg13 m ρ),
    .region (reg14 m ρ),
    .host (hseg hostOps15 hostOps15_sub hostOps15_fresh (W23 m ρ)),
    .region (reg15 m ρ),
    .region (reg16 m ρ),
    .host (hseg hostOps17 hostOps17_sub hostOps17_fresh (W26 m ρ)),
    .region (reg17 m ρ),
    .region (reg18 m ρ),
    .host (hseg hostOps19 hostOps19_sub hostOps19_fresh (W29 m ρ)),
    .region (reg19 m ρ) ]

/-- The entry function is the run of these segments, one after the other. -/
theorem main_run (c : Dev nD) : main (F := F) c = Pipeline.Seg.run (segs m ρ) :=
  main_segs adm (pdats m ρ) () 𝒱₀ L lv (hseg hostOps0 hostOps0_sub hostOps0_fresh (W0 m ρ)) (hseg hostOps1 hostOps1_sub hostOps1_fresh (W2 m ρ)) (hseg hostOps3 hostOps3_sub hostOps3_fresh (W5 m ρ)) (hseg hostOps5 hostOps5_sub hostOps5_fresh (W8 m ρ)) (hseg hostOps7 hostOps7_sub hostOps7_fresh (W11 m ρ)) (hseg hostOps9 hostOps9_sub hostOps9_fresh (W14 m ρ)) (hseg hostOps11 hostOps11_sub hostOps11_fresh (W17 m ρ)) (hseg hostOps13 hostOps13_sub hostOps13_fresh (W20 m ρ)) (hseg hostOps15 hostOps15_sub hostOps15_fresh (W23 m ρ)) (hseg hostOps17 hostOps17_sub hostOps17_fresh (W26 m ρ)) (hseg hostOps19 hostOps19_sub hostOps19_fresh (W29 m ρ))
    (reg0 m ρ) (reg1 m ρ) (reg2 m ρ) (reg3 m ρ) (reg4 m ρ) (reg5 m ρ) (reg6 m ρ) (reg7 m ρ) (reg8 m ρ) (reg9 m ρ) (reg10 m ρ) (reg11 m ρ) (reg12 m ρ) (reg13 m ρ) (reg14 m ρ) (reg15 m ρ) (reg16 m ρ) (reg17 m ρ) (reg18 m ρ) (reg19 m ρ)
    rfl rfl rfl rfl rfl rfl rfl rfl rfl rfl rfl c

-- the launch theorem's implicit arguments are found by unifying its conclusion with the statement, which takes
-- unfolding plain definitions inside a metavariable's type
set_option backward.isDefEq.respectTransparency.types false in
/-- THE RUN. On the compiled mesh, from any memory `m` with zero counters and any generator state, every weakly
    fair execution of the entry function terminates without a fault, and in every final state each unscoped
    TensorCore buffer of every core holds the last contents of the fold, `W31`. The segments chain because each
    is entered at exactly the contents the one before it left; the first thread state is made from what the
    launch deals out; the last is read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W31 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h => h)

/-- THE FRAME. Every weakly fair execution of the entry function terminates without a fault and leaves each of the
    three argument arrays holding what it held at launch: the final contents are the fold's last, and the fold read
    at an argument is the launch memory. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W31_main_arg0 m ρ c),
     (h c _ (mem_uc main_arg1 (by decide))).trans (W31_main_arg1 m ρ c),
     (h c _ (mem_uc main_arg2 (by decide))).trans (W31_main_arg2 m ρ c)⟩) (run_all m ρ)

end Cert.KernelIdeal.Frame

end
-- ==== Proof.KI.Red0Pieces.lean ====
/-
  The reduce call (custom_call 0): the contents each kind of grid point leaves, as the body's arithmetic.
  The stores are of whole buffers, so what is read back after them is the last store's payload; a load
  that follows a store of the same buffer reads that store's payload.
-/
import proofs.«121405_j17162689315290_1_alg».proof.Proof.KI.Red0
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces are: the payloads -/

theorem hz0_2 : (![0, 0] : Fin 2 → Nat) = fun _ => 0 := by funext a; fin_cases a <;> rfl
theorem hz0_3 : (![0, 0, 0] : Fin 3 → Nat) = fun _ => 0 := by funext a; fin_cases a <;> rfl

/-- After a first proposal tile the carried buffer holds the tile's maximum folded into the reset value. -/
theorem sout0_A_0_eq (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond0_0 i) (hc1 : ¬cond0_1 i) (x0 : Vec F S8x256x601 .f32) :
    sout0_A_0 c i arg2 harg2 arg3 harg3 arg4 harg4 arg5 harg5 hc0 hc1 x0 = k0_pay2 x0 (k0_pay1 (F := F)) := by
  unfold sout0_A_0
  rw [View.read_writes_eq_canon _ _ _ (scover0_A_0 c i arg2 harg2 arg3 harg3 arg4 harg4 arg5 harg5 hc0 hc1 x0)]
  unfold kernelRun0_A
  dsimp only
  sl_unfold_words
  rw [View.canon_cons_unit_zero hz0_2]
  simp only [View.readAt_eq_ld, harg2.read_unread, View.ld_unit_zero (S := S8x256x601) hz0_3]
  exact congrArg (k0_pay2 x0) (View.readCov_unit_zero (S := S8x601) arg5.view hz0_2 _ _)

/-- After an inner tile: the tile's maximum folded into what the point before left. -/
theorem sout0_B_0_eq (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : ¬cond0_1 i) (x0 : Vec F S8x256x601 .f32) (xs0 : Vec F S8x601 .f32) :
    sout0_B_0 c i arg2 harg2 arg3 harg3 arg4 harg4 arg5 harg5 hc0 hc1 x0 xs0 = k0_pay2 x0 xs0 := by
  unfold sout0_B_0
  rw [View.read_writes_eq_canon _ _ _ (scover0_B_0 c i arg2 harg2 arg3 harg3 arg4 harg4 arg5 harg5 hc0 hc1 x0 xs0)]
  unfold kernelRun0_B
  dsimp only
  sl_unfold_words
  rw [View.canon_unit_zero hz0_2]
  simp only [View.readAt_eq_ld, harg2.read_unread, harg5.read_unread, View.ld_unit_zero (S := S8x256x601) hz0_3, View.ld_unit_zero (S := S8x601) hz0_2]
  try rfl

/-- After a last tile the carried buffer likewise, -/
theorem sout0_C_0_eq (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i) (x0 : Vec F S8x256x601 .f32) (x1 : Vec F S601x601 .f32) (xs0 : Vec F S8x601 .f32) :
    sout0_C_0 c i arg2 harg2 arg3 harg3 arg4 harg4 arg5 harg5 hc0 hc1 x0 x1 xs0 = k0_pay2 x0 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz0_2]
  simp only [View.readAt_eq_ld, harg2.read_unread, harg5.read_unread, View.ld_unit_zero (S := S8x256x601) hz0_3, View.ld_unit_zero (S := S8x601) hz0_2]
  try rfl

/-- and the output block holds that maximum times the matrix's block. -/
theorem out0_C_2_eq (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i) (x0 : Vec F S8x256x601 .f32) (x1 : Vec F S601x601 .f32) (xs0 : Vec F S8x601 .f32) :
    out0_C_2 c i arg2 harg2 arg3 harg3 arg4 harg4 arg5 harg5 hc0 hc1 x0 x1 xs0 = k0_pay3 (k0_pay2 x0 xs0) x1 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz0_2]
  simp only [View.readAt_eq_ld, harg2.read_unread, harg3.read_unread, harg5.read_unread, View.ld_unit_zero (S := S8x256x601) hz0_3, View.ld_unit_zero (S := S601x601) hz0_2, View.ld_unit_zero (S := S8x601) hz0_2]
  exact congrArg (fun z => k0_pay3 z x1) (View.readCov_unit_zero (S := S8x601) arg5.view hz0_2 _ _)

end Cert.KernelIdeal.Frame

end
-- ==== Proof.Spec.lean ====
/-
  The specification: mean-field refinement of class scores, ten steps.

  One step takes the current scores `q` (images × proposals × classes), turns each proposal's row into
  probabilities (the exponentials of the scores less the row's greatest, over their sum), takes for every
  image and class the greatest probability over the proposals (the message), multiplies the message by the
  class-compatibility matrix, scales the product by the influence weight, and subtracts the result — one
  row per image, repeated over the proposals — from the unary scores `u`. The result of the whole
  computation is the tenth iterate starting from `q = u`.

  Each function below is written with the host operations of the reference program, so that the
  reference's own result is this term by unfolding.
-/
import proofs.«121405_j17162689315290_1_alg».proof.ReferenceIdeal
import proofs.«121405_j17162689315290_1_alg».proof.Proof.Gen.ReferenceIdeal
import Idealize.ShloMosaic.PureOps.Ideal

noncomputable section

namespace Cert.ReferenceIdeal.Crf

open Cert.ReferenceIdeal Cert.ReferenceIdeal.Gen Idealize.ShloMosaic

variable {F : FTy → Type} [FloatOps F]

/-- The exponentials of the scores less each row's greatest score. -/
def expShift (q : FVec F S32x2048x601 .f32) : FVec F S32x2048x601 .f32 :=
  Host.exp (subf q (broadcastInDim S32x2048x601 ![0, 1, 2] bcast_S32x2048x1_S32x2048x601_0_1_2 (broadcastInDim S32x2048x1 ![0, 1] bcast_S32x2048_S32x2048x1_0_1 (maximumf (broadcastInDim S32x2048 ![] bcast_S_S32x2048 (constant S_ .f32 0xFF800000#32)) (Host.reduce FloatOps.maximumf q (constant S_ .f32 0xFF800000#32) reducesTo_S32x2048x601_S32x2048_d2 h_S_)))))

/-- The rows as probabilities: each exponential over its row's sum. -/
def probs (q : FVec F S32x2048x601 .f32) : FVec F S32x2048x601 .f32 :=
  Host.divf (expShift q) (broadcastInDim S32x2048x601 ![0, 1, 2] bcast_S32x2048x1_S32x2048x601_0_1_2 (broadcastInDim S32x2048x1 ![0, 1] bcast_S32x2048_S32x2048x1_0_1 (Host.reduceAdd (expShift q) (constant S_ .f32 0x00000000#32) reducesTo_S32x2048x601_S32x2048_d2 h_S_)))

/-- The message: for every image and class the greatest probability over the proposals. -/
def msg (q : FVec F S32x2048x601 .f32) : FVec F S32x601 .f32 :=
  Host.reduce FloatOps.maximumf (probs q) (constant S_ .f32 0xFF800000#32) reducesTo_S32x2048x601_S32x601_d1 h_S_

/-- The message times the compatibility matrix (not yet scaled). -/
def pairwise (q : FVec F S32x2048x601 .f32) (cm : FVec F S601x601 .f32) : FVec F S32x601 .f32 :=
  Host.dotGeneral dot_S32x601_S601x601_S32x601_1_0_0_1_n_n none (msg q) cm

/-- A per-image row scaled by the influence weight. -/
def scaled (w0 : FVec F S_ .f32) (pw : FVec F S32x601 .f32) : FVec F S32x601 .f32 :=
  mulf (broadcastInDim S32x601 ![] bcast_S_S32x601 w0) pw

/-- The unary scores less a per-image row repeated over the proposals. -/
def update (u : FVec F S32x2048x601 .f32) (pw : FVec F S32x601 .f32) : FVec F S32x2048x601 .f32 :=
  subf u (broadcastInDim S32x2048x601 ![0, 1, 2] bcast_S32x1x601_S32x2048x601_0_1_2 (broadcastInDim S32x1x601 ![0, 2] bcast_S32x601_S32x1x601_0_2 pw))

/-- One refinement step. -/
def step (u : FVec F S32x2048x601 .f32) (cm : FVec F S601x601 .f32) (w0 : FVec F S_ .f32) (q : FVec F S32x2048x601 .f32) :
    FVec F S32x2048x601 .f32 :=
  update u (scaled w0 (pairwise q cm))

/-- The influence weight as a scalar. -/
def weight (w1 : FVec F S1 .f32) : FVec F S_ .f32 := shapeCast _ w1 shapeCasts_S1_S_

/-- Ten steps from the unary scores. -/
def crf10 (u : FVec F S32x2048x601 .f32) (cm : FVec F S601x601 .f32) (w1 : FVec F S1 .f32) : FVec F S32x2048x601 .f32 :=
  (step u cm (weight w1))^[10] u

end Cert.ReferenceIdeal.Crf

end
-- ==== Proof.RedDefs.lean ====
/-
  The reduce call's arithmetic, definitions.

  The scores `q` have shape images × proposals × classes = 32 × 2048 × 601. The reduce call visits them in
  blocks of 8 images × 256 proposals (all 601 classes): image tile `b` (of 4) and proposal tile `n` (of 8).
  For one image tile it keeps a running 8 × 601 array of maxima that starts at -∞ and, tile after tile,
  takes in the greatest probability over the tile's 256 proposals. This file names

  * `tile q b n`   — the block of `q` that the point `(b, n)` reads,
  * `rows x b`     — rows `8·b … 8·b+7` of a 32 × 601 array,
  * `runMax q b n` — the running maximum after the proposal tiles `0 … n` of image tile `b`,

  all at the exact instance (extended reals).
-/
import proofs.«121405_j17162689315290_1_alg».proof.Proof.Gen.KernelIdeal.Skeleton
import proofs.«121405_j17162689315290_1_alg».proof.Proof.Spec
import Idealize.ShloMosaic.Lib.ValueIdx

noncomputable section

namespace Cert.KernelIdeal.RedMath

open Cert.KernelIdeal Cert.KernelIdeal.Gen Idealize.ShloMosaic Idealize.ShloMosaic.ValueIdx

/-- Image `r` of image tile `b`, as an image of the whole array: `8·b + r`. -/
def rowIx (b : Fin 4) (r : Fin 8) : Fin 32 := ⟨8 * b.val + r.val, by omega⟩

/-- Proposal `p` of proposal tile `n`, as a proposal of the whole array: `256·n + p`. -/
def propIx (n : Fin 8) (p : Fin 256) : Fin 2048 := ⟨256 * n.val + p.val, by omega⟩

@[simp] theorem rowIx_val (b : Fin 4) (r : Fin 8) : (rowIx b r).val = 8 * b.val + r.val := rfl

@[simp] theorem propIx_val (n : Fin 8) (p : Fin 256) : (propIx n p).val = 256 * n.val + p.val := rfl

/-- The block of the scores that the grid point (image tile `b`, proposal tile `n`) reads. -/
def tile (q : FVec Ideal S32x2048x601 .f32) (b : Fin 4) (n : Fin 8) : Vec Ideal S8x256x601 .f32 :=
  fun y => q (ix3 (rowIx b (y 0)) (propIx n (y 1)) (y 2))

theorem tile_apply (q : FVec Ideal S32x2048x601 .f32) (b : Fin 4) (n : Fin 8)
    (r : Fin 8) (p : Fin 256) (k : Fin 601) :
    tile q b n (ix3 r p k) = q (ix3 (rowIx b r) (propIx n p) k) := rfl

/-- Rows `8·b … 8·b+7` of a per-image array. -/
def rows (x : FVec Ideal S32x601 .f32) (b : Fin 4) : Vec Ideal S8x601 .f32 :=
  fun y => x (ix2 (rowIx b (y 0)) (y 1))

theorem rows_apply (x : FVec Ideal S32x601 .f32) (b : Fin 4) (r : Fin 8) (k : Fin 601) :
    rows x b (ix2 r k) = x (ix2 (rowIx b r) k) := rfl

/-- The running maximum of image tile `b` after its proposal tiles `0 … n`: it starts from the array of
    -∞ and each tile folds in the greatest probability over its 256 proposals. -/
def runMax (q : FVec Ideal S32x2048x601 .f32) (b : Fin 4) : ℕ → Vec Ideal S8x601 .f32
  | 0 => k0_pay2 (tile q b 0) (k0_pay1 (F := Ideal))
  | n + 1 => k0_pay2 (tile q b ⟨(n + 1) % 8, by omega⟩) (runMax q b n)

theorem runMax_zero (q : FVec Ideal S32x2048x601 .f32) (b : Fin 4) :
    runMax q b 0 = k0_pay2 (tile q b 0) (k0_pay1 (F := Ideal)) := rfl

theorem runMax_succ (q : FVec Ideal S32x2048x601 .f32) (b : Fin 4) (n : ℕ) :
    runMax q b (n + 1) = k0_pay2 (tile q b ⟨(n + 1) % 8, by omega⟩) (runMax q b n) := rfl

end Cert.KernelIdeal.RedMath

end
-- ==== Proof.KI.Blocks.lean ====
/-
  The windows' blocks are tiles of the whole arrays.

  Both calls of a refinement step run on a grid of 4 image tiles by 8 proposal tiles; the grid's points are
  numbered `t = 8·b + n` (image tile `b`, proposal tile `n`). A window's block at a point starts, on each
  axis, at the block index times the block's size. Here each window's block, read off its whole array, is
  written with whole-array indices: a block of scores is the 8 × 256 × 601 tile at images `8·b …`,
  proposals `256·n …`; a block of a per-image array is its rows `8·b … 8·b+7`; the compatibility matrix's one
  block is the matrix.
-/
import proofs.«121405_j17162689315290_1_alg».proof.Proof.Gen.KernelIdeal.Launch
import proofs.«121405_j17162689315290_1_alg».proof.Proof.Gen.KernelIdeal.Points
import proofs.«121405_j17162689315290_1_alg».proof.Proof.RedDefs
import Idealize.ShloMosaic.Lib.ValueIdx
import Idealize.ShloMosaic.Lib.Pipeline.Value

noncomputable section

namespace Cert.KernelIdeal.Frame

open Cert.KernelIdeal Cert.KernelIdeal.Gen Idealize.ShloMosaic Idealize.ShloMosaic.ValueIdx

variable {F : FTy → Type} [FloatOps F]

/-- The tile of a scores-shaped array at image tile `b`, proposal tile `n`. -/
def tileOf (A : FVec F S32x2048x601 .f32) (b : Fin 4) (n : Fin 8) : Vec F S8x256x601 .f32 :=
  fun y => A (ix3 (RedMath.rowIx b (y 0)) (RedMath.propIx n (y 1)) (y 2))

/-- Rows `8·b … 8·b+7` of a per-image array. -/
def rowsOf (X : FVec F S32x601 .f32) (b : Fin 4) : Vec F S8x601 .f32 :=
  fun y => X (ix2 (RedMath.rowIx b (y 0)) (y 1))

theorem tileOf_apply (A : FVec F S32x2048x601 .f32) (b : Fin 4) (n : Fin 8) (r : Fin 8) (p : Fin 256) (k : Fin 601) :
    tileOf A b n (ix3 r p k) = A (ix3 (RedMath.rowIx b r) (RedMath.propIx n p) k) := rfl

theorem rowsOf_apply (X : FVec F S32x601 .f32) (b : Fin 4) (r : Fin 8) (k : Fin 601) :
    rowsOf X b (ix2 r k) = X (ix2 (RedMath.rowIx b r) k) := rfl

/-- At the exact instance these are the tile and the rows of the reduce call's arithmetic. -/
theorem tileOf_ideal : tileOf (F := Ideal) = RedMath.tile := rfl
theorem rowsOf_ideal : rowsOf (F := Ideal) = RedMath.rows := rfl

/-- The image tile of grid point `t`: `t / 8`. -/
def bOf (t : Fin 32) : Fin 4 := ⟨t.val / 8, by omega⟩
/-- The proposal tile of grid point `t`: `t % 8`. -/
def nOf (t : Fin 32) : Fin 8 := ⟨t.val % 8, Nat.mod_lt _ (by decide)⟩

@[simp] theorem bOf_val (t : Fin 32) : (bOf t).val = t.val / 8 := rfl
@[simp] theorem nOf_val (t : Fin 32) : (nOf t).val = t.val % 8 := rfl

/-- A point of the reduce call's grid as a number below 32, and likewise for the update call. -/
abbrev pt0 (t : Fin cfg0.N) : Fin 32 := t.cast N_0
abbrev pt1 (t : Fin cfg1.N) : Fin 32 := t.cast N_1

@[simp] theorem pt0_val (t : Fin cfg0.N) : (pt0 t).val = t.val := rfl
@[simp] theorem pt1_val (t : Fin cfg1.N) : (pt1 t).val = t.val := rfl

/-! ## The printed index maps, decided once over the grid -/

/-- The reduce call: scores at block (t / 8, t % 8, 0), the matrix at block (0, 0), the result at block (t / 8, 0). -/
theorem idx0 : ∀ t : Fin cfg0.N,
    (win0_0.index t (0 : Fin 3) = t.val / 8 ∧ win0_0.index t (1 : Fin 3) = t.val % 8 ∧ win0_0.index t (2 : Fin 3) = 0)
    ∧ (win0_1.index t (0 : Fin 2) = 0 ∧ win0_1.index t (1 : Fin 2) = 0)
    ∧ (win0_2.index t (0 : Fin 2) = t.val / 8 ∧ win0_2.index t (1 : Fin 2) = 0) :=
  (by decide +kernel : ∀ t : Fin grid0.N, _)

/-- The update call: unaries and result at block (t / 8, t % 8, 0), the per-image rows at block (t / 8, 0). -/
theorem idx1 : ∀ t : Fin cfg1.N,
    (win1_0.index t (0 : Fin 3) = t.val / 8 ∧ win1_0.index t (1 : Fin 3) = t.val % 8 ∧ win1_0.index t (2 : Fin 3) = 0)
    ∧ (win1_1.index t (0 : Fin 2) = t.val / 8 ∧ win1_1.index t (1 : Fin 2) = 0)
    ∧ (win1_2.index t (0 : Fin 3) = t.val / 8 ∧ win1_2.index t (1 : Fin 3) = t.val % 8 ∧ win1_2.index t (2 : Fin 3) = 0) :=
  (by decide +kernel : ∀ t : Fin grid1.N, _)

/-! ## Each block, read off its whole array -/

/-- The reduce call's block of scores at point `t` is the tile at image tile `t / 8`, proposal tile `t % 8`. -/
theorem blk0_0_read (A : FVec F S32x2048x601 .f32) (t : Fin cfg0.N) :
    (((cfg0.win 0).blk t).view.read (Elt F) A : Vec F S8x256x601 .f32) = tileOf A (bOf (pt0 t)) (nOf (pt0 t)) := by
  obtain ⟨⟨e0, e1, e2⟩, -, -⟩ := idx0 t
  funext y
  rw [View.read_apply]
  show A (((cfg0.win 0).blk t).view.emb y) = A _
  congr 1
  funext a
  apply Fin.ext
  match a with
  | ⟨0, _⟩ => show win0_0.index t (0 : Fin 3) * 8 + 1 * (y 0).val = 8 * (t.val / 8) + (y 0).val; omega
  | ⟨1, _⟩ => show win0_0.index t (1 : Fin 3) * 256 + 1 * (y 1).val = 256 * (t.val % 8) + (y 1).val; omega
  | ⟨2, _⟩ => show win0_0.index t (2 : Fin 3) * 601 + 1 * (y 2).val = (y 2).val; omega

/-- The reduce call's one block of the compatibility matrix is the matrix. -/
theorem blk0_1_read (A : FVec F S601x601 .f32) (t : Fin cfg0.N) :
    (((cfg0.win 1).blk t).view.read (Elt F) A : Vec F S601x601 .f32) = A := by
  obtain ⟨-, ⟨e0, e1⟩, -⟩ := idx0 t
  funext y
  rw [View.read_apply]
  show A (((cfg0.win 1).blk t).view.emb y) = A y
  congr 1
  funext a
  apply Fin.ext
  match a with
  | ⟨0, _⟩ => show win0_1.index t (0 : Fin 2) * 601 + 1 * (y 0).val = (y 0).val; omega
  | ⟨1, _⟩ => show win0_1.index t (1 : Fin 2) * 601 + 1 * (y 1).val = (y 1).val; omega

/-- The reduce call's result block at point `t` is rows `8·(t / 8) …` of the per-image array. -/
theorem blk0_2_read (X : FVec F S32x601 .f32) (t : Fin cfg0.N) :
    (((cfg0.win 2).blk t).view.read (Elt F) X : Vec F S8x601 .f32) = rowsOf X (bOf (pt0 t)) := by
  obtain ⟨-, -, ⟨e0, e1⟩⟩ := idx0 t
  funext y
  rw [View.read_apply]
  show X (((cfg0.win 2).blk t).view.emb y) = X _
  congr 1
  funext a
  apply Fin.ext
  match a with
  | ⟨0, _⟩ => show win0_2.index t (0 : Fin 2) * 8 + 1 * (y 0).val = 8 * (t.val / 8) + (y 0).val; omega
  | ⟨1, _⟩ => show win0_2.index t (1 : Fin 2) * 601 + 1 * (y 1).val = (y 1).val; omega

/-- The update call's block of unaries at point `t` is the tile at image tile `t / 8`, proposal tile `t % 8`. -/
theorem blk1_0_read (A : FVec F S32x2048x601 .f32) (t : Fin cfg1.N) :
    (((cfg1.win 0).blk t).view.read (Elt F) A : Vec F S8x256x601 .f32) = tileOf A (bOf (pt1 t)) (nOf (pt1 t)) := by
  obtain ⟨⟨e0, e1, e2⟩, -, -⟩ := idx1 t
  funext y
  rw [View.read_apply]
  show A (((cfg1.win 0).blk t).view.emb y) = A _
  congr 1
  funext a
  apply Fin.ext
  match a with
  | ⟨0, _⟩ => show win1_0.index t (0 : Fin 3) * 8 + 1 * (y 0).val = 8 * (t.val / 8) + (y 0).val; omega
  | ⟨1, _⟩ => show win1_0.index t (1 : Fin 3) * 256 + 1 * (y 1).val = 256 * (t.val % 8) + (y 1).val; omega
  | ⟨2, _⟩ => show win1_0.index t (2 : Fin 3) * 601 + 1 * (y 2).val = (y 2).val; omega

/-- The update call's block of the per-image array at point `t` is its rows `8·(t / 8) …`. -/
theorem blk1_1_read (X : FVec F S32x601 .f32) (t : Fin cfg1.N) :
    (((cfg1.win 1).blk t).view.read (Elt F) X : Vec F S8x601 .f32) = rowsOf X (bOf (pt1 t)) := by
  obtain ⟨-, ⟨e0, e1⟩, -⟩ := idx1 t
  funext y
  rw [View.read_apply]
  show X (((cfg1.win 1).blk t).view.emb y) = X _
  congr 1
  funext a
  apply Fin.ext
  match a with
  | ⟨0, _⟩ => show win1_1.index t (0 : Fin 2) * 8 + 1 * (y 0).val = 8 * (t.val / 8) + (y 0).val; omega
  | ⟨1, _⟩ => show win1_1.index t (1 : Fin 2) * 601 + 1 * (y 1).val = (y 1).val; omega

/-- The update call's result block at point `t` is the tile at image tile `t / 8`, proposal tile `t % 8`. -/
theorem blk1_2_read (A : FVec F S32x2048x601 .f32) (t : Fin cfg1.N) :
    (((cfg1.win 2).blk t).view.read (Elt F) A : Vec F S8x256x601 .f32) = tileOf A (bOf (pt1 t)) (nOf (pt1 t)) := by
  obtain ⟨-, -, ⟨e0, e1, e2⟩⟩ := idx1 t
  funext y
  rw [View.read_apply]
  show A (((cfg1.win 2).blk t).view.emb y) = A _
  congr 1
  funext a
  apply Fin.ext
  match a with
  | ⟨0, _⟩ => show win1_2.index t (0 : Fin 3) * 8 + 1 * (y 0).val = 8 * (t.val / 8) + (y 0).val; omega
  | ⟨1, _⟩ => show win1_2.index t (1 : Fin 3) * 256 + 1 * (y 1).val = 256 * (t.val % 8) + (y 1).val; omega
  | ⟨2, _⟩ => show win1_2.index t (2 : Fin 3) * 601 + 1 * (y 2).val = (y 2).val; omega

/-! ## Which points' result blocks hold a given index -/

/-- An index of the per-image array is in the reduce call's result block at point `t` iff, on each axis, it is
    in the block's range. -/
theorem mem_blk0_2 (t : Fin cfg0.N) (i : S32x601.Idx) :
    i ∈ ((cfg0.win 2).blk t).view.set ↔ ∀ a : Fin 2, win0_2.index t a * S8x601.size a ≤ (i a).val ∧ (i a).val < win0_2.index t a * S8x601.size a + S8x601.size a := by
  show i ∈ ((View.whole main_v1).slice (win0_2.rect t)).set ↔ _
  rw [View.set_slice_whole, Rect.mem_set_unit]
  exact Iff.rfl

/-- … that is, iff its image lies in the point's image tile. -/
theorem mem_blk0_2_iff (t : Fin cfg0.N) (i : S32x601.Idx) :
    i ∈ ((cfg0.win 2).blk t).view.set ↔ (i 0).val / 8 = t.val / 8 := by
  rw [mem_blk0_2]
  obtain ⟨-, -, ⟨e0, e1⟩⟩ := idx0 t
  have h1 : (i 1).val < 601 := (i 1).isLt
  constructor
  · intro h
    have b0 : win0_2.index t (0 : Fin 2) * 8 ≤ (i 0).val ∧ (i 0).val < win0_2.index t (0 : Fin 2) * 8 + 8 := h 0
    omega
  · intro h a
    match a with
    | ⟨0, _⟩ => show win0_2.index t (0 : Fin 2) * 8 ≤ (i 0).val ∧ (i 0).val < win0_2.index t (0 : Fin 2) * 8 + 8; omega
    | ⟨1, _⟩ => show win0_2.index t (1 : Fin 2) * 601 ≤ (i 1).val ∧ (i 1).val < win0_2.index t (1 : Fin 2) * 601 + 601; omega

/-- The point that writes back the rows of image `r`: the last proposal tile of image tile `r / 8`. -/
def lastPt0 (r : Fin 32) : Fin cfg0.N := ⟨8 * (r.val / 8) + 7, by rw [show cfg0.N = 32 from N_0]; omega⟩

@[simp] theorem lastPt0_val (r : Fin 32) : (lastPt0 r).val = 8 * (r.val / 8) + 7 := rfl

/-- Every index of the per-image array is in the result block of a point that writes it back: the last
    proposal tile of its image's tile. -/
theorem cover0_2 (i : S32x601.Idx) :
    ∃ t : Fin cfg0.N, (cfg0.win 2).flush t = true ∧ i ∈ ((cfg0.win 2).blk t).view.set := by
  have h0 : (i 0).val < 32 := (i 0).isLt
  refine ⟨lastPt0 ⟨(i 0).val, h0⟩, (flush0_2 _).mpr ?_, (mem_blk0_2_iff _ i).mpr ?_⟩
  · show (8 * ((i 0).val / 8) + 7) % 8 = 7; omega
  · show (i 0).val / 8 = (8 * ((i 0).val / 8) + 7) / 8; omega

/-- The points that write the reduce call's result back and hold a given index are exactly the last proposal
    tile of its image's tile. -/
theorem flush_mem0_2_iff (t : Fin cfg0.N) (i : S32x601.Idx) :
    ((cfg0.win 2).flush t = true ∧ i ∈ ((cfg0.win 2).blk t).view.set) ↔ t.val = 8 * ((i 0).val / 8) + 7 := by
  rw [flush0_2, mem_blk0_2_iff]
  have ht : t.val < 32 := (pt0 t).isLt
  omega

/-- An index of the scores-shaped result is in the update call's result block at point `t` iff, on each axis, it
    is in the block's range. -/
theorem mem_blk1_2 (t : Fin cfg1.N) (i : S32x2048x601.Idx) :
    i ∈ ((cfg1.win 2).blk t).view.set ↔ ∀ a : Fin 3, win1_2.index t a * S8x256x601.size a ≤ (i a).val ∧ (i a).val < win1_2.index t a * S8x256x601.size a + S8x256x601.size a := by
  show i ∈ ((View.whole main_v4).slice (win1_2.rect t)).set ↔ _
  rw [View.set_slice_whole, Rect.mem_set_unit]
  exact Iff.rfl

/-- … that is, iff its image and its proposal lie in the point's tiles. -/
theorem mem_blk1_2_iff (t : Fin cfg1.N) (i : S32x2048x601.Idx) :
    i ∈ ((cfg1.win 2).blk t).view.set ↔ (i 0).val / 8 = t.val / 8 ∧ (i 1).val / 256 = t.val % 8 := by
  rw [mem_blk1_2]
  obtain ⟨-, -, ⟨e0, e1, e2⟩⟩ := idx1 t
  have h2 : (i 2).val < 601 := (i 2).isLt
  constructor
  · intro h
    have b0 : win1_2.index t (0 : Fin 3) * 8 ≤ (i 0).val ∧ (i 0).val < win1_2.index t (0 : Fin 3) * 8 + 8 := h 0
    have b1 : win1_2.index t (1 : Fin 3) * 256 ≤ (i 1).val ∧ (i 1).val < win1_2.index t (1 : Fin 3) * 256 + 256 := h 1
    omega
  · intro h a
    match a with
    | ⟨0, _⟩ => show win1_2.index t (0 : Fin 3) * 8 ≤ (i 0).val ∧ (i 0).val < win1_2.index t (0 : Fin 3) * 8 + 8; omega
    | ⟨1, _⟩ => show win1_2.index t (1 : Fin 3) * 256 ≤ (i 1).val ∧ (i 1).val < win1_2.index t (1 : Fin 3) * 256 + 256; omega
    | ⟨2, _⟩ => show win1_2.index t (2 : Fin 3) * 601 ≤ (i 2).val ∧ (i 2).val < win1_2.index t (2 : Fin 3) * 601 + 601; omega

/-- The point whose tiles hold image `r` and proposal `p`. -/
def ptOf1 (r : Fin 32) (p : Fin 2048) : Fin cfg1.N := ⟨8 * (r.val / 8) + p.val / 256, by rw [show cfg1.N = 32 from N_1]; omega⟩

@[simp] theorem ptOf1_val (r : Fin 32) (p : Fin 2048) : (ptOf1 r p).val = 8 * (r.val / 8) + p.val / 256 := rfl

/-- Every index of the update call's result is in the result block of a point (every point writes back): the
    point of its image's and its proposal's tiles. -/
theorem cover1_2 (i : S32x2048x601.Idx) :
    ∃ t : Fin cfg1.N, (cfg1.win 2).flush t = true ∧ i ∈ ((cfg1.win 2).blk t).view.set := by
  have h0 : (i 0).val < 32 := (i 0).isLt
  have h1 : (i 1).val < 2048 := (i 1).isLt
  refine ⟨ptOf1 ⟨(i 0).val, h0⟩ ⟨(i 1).val, h1⟩, flush1_2 _, (mem_blk1_2_iff _ i).mpr ⟨?_, ?_⟩⟩
  · show (i 0).val / 8 = (8 * ((i 0).val / 8) + (i 1).val / 256) / 8; omega
  · show (i 1).val / 256 = (8 * ((i 0).val / 8) + (i 1).val / 256) % 8; omega

/-- The one point whose result block holds a given index of the update call's result. -/
theorem mem_blk1_2_iff_pt (t : Fin cfg1.N) (i : S32x2048x601.Idx) :
    i ∈ ((cfg1.win 2).blk t).view.set ↔ t.val = 8 * ((i 0).val / 8) + (i 1).val / 256 := by
  rw [mem_blk1_2_iff]
  have ht : t.val < 32 := (pt1 t).isLt
  have h1 : (i 1).val < 2048 := (i 1).isLt
  omega

end Cert.KernelIdeal.Frame

end
-- ==== Proof.RedMathA.lean ====
/-
  Maxima on the extended reals, as needed for the reduce call.

  The extended reals are a complete linear order with least element -∞, so "the greatest of finitely many
  values, starting from -∞" is a finite supremum, and suprema are determined by their upper bounds. Two facts:

  * accumulating `max` tile after tile, from `max -∞ (M 0)`, gives the supremum of `M 0 … M n`;
  * the supremum over 2048 proposals is the supremum over the 8 tiles of the suprema over each tile's 256.
-/
import proofs.«121405_j17162689315290_1_alg».proof.Proof.RedDefs
import Idealize.ShloMosaic.PureOps.Ideal.Laws

noncomputable section

namespace Cert.KernelIdeal.RedMath

open Cert.KernelIdeal Cert.KernelIdeal.Gen Idealize.ShloMosaic Idealize.ShloMosaic.ValueIdx

/-- The word `0xFF800000` read as a float is -∞, the least extended real. -/
theorem negInf_eq_bot : Ideal.ofBits .f32 0xFF800000#32 = (⊥ : EReal) := by
  simp [Ideal.ofBits, Ideal.ieee]

/-- The zero word read as a float is `0`. -/
theorem zeroWord_eq_zero : Ideal.ofBits .f32 0x00000000#32 = (0 : EReal) := Ideal.ofBits_zero_f32

/-- Folding `max` from -∞ over a finite set is the supremum over it. -/
theorem fold_max_bot {ι : Type} (s : Finset ι) (f : ι → EReal) : s.fold max ⊥ f = s.sup f := rfl

/-- `max` with -∞ on the left does nothing. -/
theorem max_bot_left (x : EReal) : max (⊥ : EReal) x = x := bot_sup_eq x

/-- The running maximum: start from `max -∞ (M 0)` and take in `M 1, M 2, …` one at a time. -/
def accMax (M : ℕ → EReal) : ℕ → EReal
  | 0 => max ⊥ (M 0)
  | n + 1 => max (accMax M n) (M (n + 1))

/-- The running maximum after `n` further values is the supremum of `M 0 … M n`. -/
theorem accMax_eq_sup (M : ℕ → EReal) (n : ℕ) : accMax M n = (Finset.range (n + 1)).sup M := by
  induction n with
  | zero => simp [accMax]
  | succ n ih =>
    rw [accMax, ih, Finset.range_add_one (n := n + 1), Finset.sup_insert]
    exact max_comm _ _

/-- The supremum over all 2048 proposals is the supremum, over the 8 tiles, of each tile's supremum over
    its 256 proposals: every proposal `P` is proposal `P % 256` of tile `P / 256`, so the two families have the
    same upper bounds. -/
theorem sup_tiles (g : Fin 2048 → EReal) :
    (Finset.range 8).sup (fun m : ℕ => (Finset.univ : Finset (Fin 256)).sup
        fun p => g (propIx ⟨m % 8, Nat.mod_lt _ (by norm_num)⟩ p))
      = (Finset.univ : Finset (Fin 2048)).sup g := by
  apply le_antisymm
  · exact Finset.sup_le fun m _ => Finset.sup_le fun p _ => Finset.le_sup (Finset.mem_univ _)
  · refine Finset.sup_le fun P _ => ?_
    have hP := P.isLt
    have hm : P.val / 256 < 8 := by omega
    have e : P = propIx ⟨(P.val / 256) % 8, Nat.mod_lt _ (by norm_num)⟩ ⟨P.val % 256, Nat.mod_lt _ (by norm_num)⟩ := by
      apply Fin.ext
      show P.val = 256 * ((P.val / 256) % 8) + P.val % 256
      omega
    refine le_trans ?_ (Finset.le_sup (f := fun m : ℕ => (Finset.univ : Finset (Fin 256)).sup
        fun p => g (propIx ⟨m % 8, Nat.mod_lt _ (by norm_num)⟩ p)) (Finset.mem_range.2 hm))
    refine le_trans (le_of_eq (congrArg g e)) ?_
    exact Finset.le_sup (f := fun p : Fin 256 => g (propIx ⟨(P.val / 256) % 8, Nat.mod_lt _ (by norm_num)⟩ p))
      (Finset.mem_univ _)

end Cert.KernelIdeal.RedMath

end
-- ==== Proof.RedMathB.lean ====
/-
  The reduce call's payload read at an index.

  For one block `v` (8 images × 256 proposals × 601 classes) the body computes, row by row, the
  probabilities `exp (v − m) / Σ exp (v − m)` with `m` the row's greatest score, then for every image and
  class the greatest probability over the block's 256 proposals, and folds that into the running maximum.
  Every step reads only the row it is in, so at an index the result is a formula in that row alone:
  `sm f k` below, with `f` the row.
-/
import proofs.«121405_j17162689315290_1_alg».proof.Proof.RedMathA
import Idealize.ShloMosaic.Lib.Pipeline.Value
import Idealize.ShloMosaic.Lib.ValueLayout

noncomputable section

namespace Cert.KernelIdeal.RedMath

open Cert.KernelIdeal Cert.KernelIdeal.Gen Idealize.ShloMosaic Idealize.ShloMosaic.ValueIdx

/-- One row's exponentials: each score less the row's greatest, exponentiated. -/
def rowShift (f : Fin 601 → EReal) (k : Fin 601) : EReal :=
  Ideal.exp (f k - (Finset.univ : Finset (Fin 601)).sup f)

/-- One row as probabilities: each exponential over the row's sum of exponentials. -/
def sm (f : Fin 601 → EReal) (k : Fin 601) : EReal :=
  Ideal.div (rowShift f k) (∑ k' : Fin 601, rowShift f k')

/-! ## The reductions of a block at an index -/

/-- The reduced index `(r, p)` with class `k` put back on the last axis is `(r, p, k)`. -/
theorem lift_d2 (h : S8x256x601.Reduces [2] S8x256) (r : Fin 8) (p : Fin 256) (k : Fin 601) :
    h.lift (ix2 r p) k = ix3 r p k := by
  funext c; apply Fin.ext; fin_cases c <;> rfl

/-- The reduced index `(r, k)` with proposal `p` put back on the middle axis is `(r, p, k)`. -/
theorem lift_d1 (h : S8x256x601.Reduces [1] S8x601) (r : Fin 8) (k : Fin 601) (p : Fin 256) :
    h.lift (ix2 r k) p = ix3 r p k := by
  funext c; apply Fin.ext; fin_cases c <;> rfl

/-- The maximum over the classes, from -∞, at `(r, p)`: the supremum of row `(r, p)`. -/
theorem rowMax_apply (x : FVec Ideal S8x256x601 .f32) (h : S8x256x601.Reduces [2] S8x256) (hφ : FKind.Formats .f32)
    (hacc : (0xFF800000#32 : BitVec 32) = FKind.maximumf.neutral .f32 hφ) (r : Fin 8) (p : Fin 256) :
    multiReduction .maximumf [2] S8x256 x 0xFF800000#32 h hφ hacc (ix2 r p)
      = (Finset.univ : Finset (Fin 601)).sup fun k => x (ix3 r p k) := by
  refine (Ideal.multiReduction_maximumf_single x _ h hφ hacc (ix2 r p)).trans ?_
  have hf : (x ∘ h.lift (ix2 r p)) = fun k : Fin 601 => x (ix3 r p k) :=
    funext fun k => congrArg x (lift_d2 h r p k)
  refine (congrArg (fun f => Finset.fold max (FloatOps.ofBits (F := Ideal) .f32 0xFF800000#32) f
    (Finset.univ : Finset (Fin 601))) hf).trans ?_
  rw [Ideal.ofBits_def, negInf_eq_bot]
  rfl

/-- The maximum over the proposals, from -∞, at `(r, k)`: the supremum of column `(r, ·, k)`. -/
theorem colMax_apply (x : FVec Ideal S8x256x601 .f32) (h : S8x256x601.Reduces [1] S8x601) (hφ : FKind.Formats .f32)
    (hacc : (0xFF800000#32 : BitVec 32) = FKind.maximumf.neutral .f32 hφ) (r : Fin 8) (k : Fin 601) :
    multiReduction .maximumf [1] S8x601 x 0xFF800000#32 h hφ hacc (ix2 r k)
      = (Finset.univ : Finset (Fin 256)).sup fun p => x (ix3 r p k) := by
  refine (Ideal.multiReduction_maximumf_single x _ h hφ hacc (ix2 r k)).trans ?_
  have hf : (x ∘ h.lift (ix2 r k)) = fun p : Fin 256 => x (ix3 r p k) :=
    funext fun p => congrArg x (lift_d1 h r k p)
  refine (congrArg (fun f => Finset.fold max (FloatOps.ofBits (F := Ideal) .f32 0xFF800000#32) f
    (Finset.univ : Finset (Fin 256))) hf).trans ?_
  rw [Ideal.ofBits_def, negInf_eq_bot]
  rfl

/-- The sum over the classes at `(r, p)`: the sum of row `(r, p)`. -/
theorem rowSum_apply (x : FVec Ideal S8x256x601 .f32) (h : S8x256x601.Reduces [2] S8x256) (hφ : FKind.Formats .f32)
    (hacc : (0x00000000#32 : BitVec 32) = FKind.add.neutral .f32 hφ) (r : Fin 8) (p : Fin 256) :
    multiReduction .add [2] S8x256 x 0x00000000#32 h hφ hacc (ix2 r p) = ∑ k : Fin 601, x (ix3 r p k) := by
  refine (Ideal.multiReduction_add_single x _ h hφ hacc (ix2 r p)).trans ?_
  exact Finset.sum_congr rfl fun k _ => congrArg x (lift_d2 h r p k)

/-- A per-row value given a trailing unit axis and repeated over the 601 classes reads, at `(r, p, k)`,
    the value of row `(r, p)`. -/
theorem keepdims_apply {α : Type} (w : S8x256.Idx → α) (h1 : S8x256.ShapeCasts S8x256x1)
    (h2 : S8x256x1.Broadcasts S8x256x601) (r : Fin 8) (p : Fin 256) (k : Fin 601) :
    broadcastTo S8x256x601 (shapeCast S8x256x1 w h1) h2 (ix3 r p k) = w (ix2 r p) := by
  refine (broadcastTo_apply _ h2 (ix3 r p k) (ix3 r p (0 : Fin 1)) fun a => ?_).trans ?_
  · match a with
    | ⟨0, _⟩ => rfl
    | ⟨1, _⟩ => rfl
    | ⟨2, _⟩ => rfl
  · refine shapeCast_apply w h1 (ix3 r p (0 : Fin 1)) (ix2 r p) ?_
    rw [Shape.rowMajor_val_two, Shape.rowMajor_val_three]
    show r.val * 256 + p.val = (r.val * 256 + p.val) * 1 + 0
    omega

end Cert.KernelIdeal.RedMath

end
-- ==== Proof.RedMathC.lean ====
/-
  The reduce call's second payload — the running maximum after one more block — read at an index.

  The body's value is split into named stages (the row maxima, the exponentials, the probabilities), each read
  at an index by the block lemmas; the payload at `(r, k)` is then the old running maximum there, joined with
  the greatest, over the block's 256 proposals `p`, of the probability of class `k` in row `(r, p)`.
-/
import proofs.«121405_j17162689315290_1_alg».proof.Proof.RedMathB

noncomputable section

namespace Cert.KernelIdeal.RedMath

open Cert.KernelIdeal Cert.KernelIdeal.Gen Idealize.ShloMosaic Idealize.ShloMosaic.ValueIdx

variable (v : Vec Ideal S8x256x601 .f32)

/-- Each row's greatest score (joined with -∞, as the body writes it). -/
def kMax : FVec Ideal S8x256 .f32 :=
  maximumf (broadcast S8x256 (Scalar.ofBits .f32 0xFF800000#32))
    (multiReduction .maximumf [2] S8x256 v 0xFF800000#32 reduces_S8x256x601_S8x256 (.inl rfl) rfl)

/-- The exponentials of the scores less their row's greatest. -/
def kExp : FVec Ideal S8x256x601 .f32 :=
  exp (subf v (broadcastTo S8x256x601 (shapeCast S8x256x1 (kMax v) shapeCasts_S8x256_S8x256x1)
    broadcasts_S8x256x1_S8x256x601))

/-- Each row's sum of exponentials. -/
def kSum : FVec Ideal S8x256 .f32 :=
  multiReduction .add [2] S8x256 (kExp v) 0x00000000#32 reduces_S8x256x601_S8x256 (.inl rfl) rfl

/-- The probabilities. -/
def kProbs : FVec Ideal S8x256x601 .f32 :=
  divf (kExp v) (broadcastTo S8x256x601 (shapeCast S8x256x1 (kSum v) shapeCasts_S8x256_S8x256x1)
    broadcasts_S8x256x1_S8x256x601)

/-- The payload is the old running maximum joined with the block's column maxima of the probabilities. -/
theorem pay2_eq (w : Vec Ideal S8x601 .f32) :
    k0_pay2 v w = maximumf w (multiReduction .maximumf [1] S8x601 (kProbs v) 0xFF800000#32
      reduces_S8x256x601_S8x601 (.inl rfl) rfl) :=
  shapeCast_self _ _

theorem kMax_apply (r : Fin 8) (p : Fin 256) :
    kMax v (ix2 r p) = (Finset.univ : Finset (Fin 601)).sup fun k => v (ix3 r p k) := by
  unfold kMax
  refine (maximumf_apply _ _ _).trans ?_
  refine (congrArg (max _) (rowMax_apply v _ _ _ r p)).trans ?_
  refine (congrArg (fun z : EReal => max z _) negInf_eq_bot).trans ?_
  exact max_bot_left _

theorem kExp_apply (r : Fin 8) (p : Fin 256) (k : Fin 601) :
    kExp v (ix3 r p k) = rowShift (fun k' => v (ix3 r p k')) k := by
  unfold kExp rowShift
  show Ideal.exp (v (ix3 r p k) - _) = _
  refine congrArg (fun z : EReal => Ideal.exp (v (ix3 r p k) - z)) ?_
  exact (keepdims_apply _ _ _ r p k).trans (kMax_apply v r p)

theorem kSum_apply (r : Fin 8) (p : Fin 256) :
    kSum v (ix2 r p) = ∑ k : Fin 601, rowShift (fun k' => v (ix3 r p k')) k := by
  unfold kSum
  refine (rowSum_apply _ _ _ _ r p).trans ?_
  exact Finset.sum_congr rfl fun k _ => kExp_apply v r p k

theorem kProbs_apply (r : Fin 8) (p : Fin 256) (k : Fin 601) :
    kProbs v (ix3 r p k) = sm (fun k' => v (ix3 r p k')) k := by
  unfold kProbs sm
  refine (divf_apply _ _ _).trans ?_
  refine congr (congrArg Ideal.div (kExp_apply v r p k)) ?_
  exact (keepdims_apply _ _ _ r p k).trans (kSum_apply v r p)

/-- The second payload at `(r, k)`. -/
theorem pay2_apply (w : Vec Ideal S8x601 .f32) (r : Fin 8) (k : Fin 601) :
    k0_pay2 v w (ix2 r k)
      = max (w (ix2 r k)) ((Finset.univ : Finset (Fin 256)).sup fun p => sm (fun k' => v (ix3 r p k')) k) := by
  rw [pay2_eq]
  refine (maximumf_apply _ _ _).trans ?_
  refine congrArg (max (w (ix2 r k))) ?_
  refine (colMax_apply _ _ _ _ r k).trans ?_
  exact congrArg (fun f => (Finset.univ : Finset (Fin 256)).sup f) (funext fun p => kProbs_apply v r p k)

/-- The first payload (the reset value) is -∞ everywhere. -/
theorem pay1_apply (r : Fin 8) (k : Fin 601) : k0_pay1 (F := Ideal) (ix2 r k) = (⊥ : EReal) := by
  have e : k0_pay1 (F := Ideal) = broadcast S8x601 (Scalar.ofBits .f32 0xFF800000#32) := shapeCast_self _ _
  rw [e]
  exact negInf_eq_bot

end Cert.KernelIdeal.RedMath

end
-- ==== Proof.RedMathD.lean ====
/-
  The specification's probabilities and message read at an index.

  `probs q` at `(R, P, k)` is the same row formula `sm` of row `(R, P)` of the whole array as the reduce
  call's body computes of a row of its block, and `msg q` at `(R, k)` is the supremum over all 2048
  proposals. (The host's sum starts from the constant `0` and its maxima from the constant -∞; both
  constants drop out on the extended reals.)
-/
import proofs.«121405_j17162689315290_1_alg».proof.Proof.RedMathB
import Idealize.ShloMosaic.Lib.IdealHost

noncomputable section

namespace Cert.KernelIdeal.RedMath

open Cert.KernelIdeal Cert.KernelIdeal.Gen Idealize.ShloMosaic Idealize.ShloMosaic.ValueIdx

open Cert.ReferenceIdeal.Crf

/-! ## The whole array's reductions at an index -/

theorem liftR_d2 (h : S32x2048x601.Reduces [2] Cert.ReferenceIdeal.S32x2048) (R : Fin 32) (P : Fin 2048) (k : Fin 601) :
    h.lift (ix2 R P) k = ix3 R P k := by
  funext c; apply Fin.ext; fin_cases c <;> rfl

theorem liftR_d1 (h : S32x2048x601.Reduces [1] S32x601) (R : Fin 32) (k : Fin 601) (P : Fin 2048) :
    h.lift (ix2 R k) P = ix3 R P k := by
  funext c; apply Fin.ext; fin_cases c <;> rfl

/-- The host's maximum over the classes, from -∞, at `(R, P)`: the supremum of row `(R, P)`. -/
theorem hostRowMax_apply (x : FVec Ideal S32x2048x601 .f32) (h' : S32x2048x601.ReducesTo [2] Cert.ReferenceIdeal.S32x2048)
    (hu : 0 < (⟨0, ![]⟩ : Shape).numel) (R : Fin 32) (P : Fin 2048) :
    Host.reduce FloatOps.maximumf x (constant (F := Ideal) (⟨0, ![]⟩ : Shape) .f32 0xFF800000#32) h' hu (ix2 R P)
      = (Finset.univ : Finset (Fin 601)).sup fun k => x (ix3 R P k) := by
  have h : S32x2048x601.Reduces [2] Cert.ReferenceIdeal.S32x2048 := by decide
  refine (Host.reduce_eq_fold_single FloatOps.maximumf x _ h' h hu (ix2 R P)).trans ?_
  have hf : (x ∘ h.lift (ix2 R P)) = fun k : Fin 601 => x (ix3 R P k) :=
    funext fun k => congrArg x (liftR_d2 h R P k)
  refine (congrArg (fun f => Finset.fold (FloatOps.maximumf (F := Ideal) (φ := .f32))
    (Ideal.ofBits .f32 0xFF800000#32) f (Finset.univ : Finset (Fin 601))) hf).trans ?_
  rw [negInf_eq_bot]
  rfl

/-- The host's maximum over the proposals, from -∞, at `(R, k)`: the supremum of column `(R, ·, k)`. -/
theorem hostColMax_apply (x : FVec Ideal S32x2048x601 .f32) (h' : S32x2048x601.ReducesTo [1] S32x601)
    (hu : 0 < (⟨0, ![]⟩ : Shape).numel) (R : Fin 32) (k : Fin 601) :
    Host.reduce FloatOps.maximumf x (constant (F := Ideal) (⟨0, ![]⟩ : Shape) .f32 0xFF800000#32) h' hu (ix2 R k)
      = (Finset.univ : Finset (Fin 2048)).sup fun P => x (ix3 R P k) := by
  have h : S32x2048x601.Reduces [1] S32x601 := by decide
  refine (Host.reduce_eq_fold_single FloatOps.maximumf x _ h' h hu (ix2 R k)).trans ?_
  have hf : (x ∘ h.lift (ix2 R k)) = fun P : Fin 2048 => x (ix3 R P k) :=
    funext fun P => congrArg x (liftR_d1 h R k P)
  refine (congrArg (fun f => Finset.fold (FloatOps.maximumf (F := Ideal) (φ := .f32))
    (Ideal.ofBits .f32 0xFF800000#32) f (Finset.univ : Finset (Fin 2048))) hf).trans ?_
  rw [negInf_eq_bot]
  rfl

/-- The host's sum over the classes, from `0`, at `(R, P)`: the sum of row `(R, P)`. -/
theorem hostRowSum_apply (x : FVec Ideal S32x2048x601 .f32) (h' : S32x2048x601.ReducesTo [2] Cert.ReferenceIdeal.S32x2048)
    (hu : 0 < (⟨0, ![]⟩ : Shape).numel) (R : Fin 32) (P : Fin 2048) :
    Host.reduceAdd x (constant (F := Ideal) (⟨0, ![]⟩ : Shape) .f32 0x00000000#32) h' hu (ix2 R P)
      = ∑ k : Fin 601, x (ix3 R P k) := by
  have h : S32x2048x601.Reduces [2] Cert.ReferenceIdeal.S32x2048 := by decide
  refine (hostReduceAdd_apply x _ h' hu (ix2 R P)).trans ?_
  refine (Ideal.hostReduceAdd_single h' h x _ (ix2 R P)).trans ?_
  refine (congrArg (fun z : EReal => z + _) zeroWord_eq_zero).trans ?_
  rw [zero_add]
  exact Finset.sum_congr rfl fun k _ => congrArg x (liftR_d2 h R P k)

/-- A per-row value given a trailing unit axis and repeated over the 601 classes reads, at `(R, P, k)`,
    the value of row `(R, P)`. -/
theorem hostKeepdims_apply {α : Type} (w : Cert.ReferenceIdeal.S32x2048.Idx → α)
    (h2 : Cert.ReferenceIdeal.S32x2048.BroadcastsInDim Cert.ReferenceIdeal.S32x2048x1 ![0, 1])
    (h3 : Cert.ReferenceIdeal.S32x2048x1.BroadcastsInDim S32x2048x601 ![0, 1, 2])
    (R : Fin 32) (P : Fin 2048) (k : Fin 601) :
    broadcastInDim S32x2048x601 ![0, 1, 2] h3 (broadcastInDim Cert.ReferenceIdeal.S32x2048x1 ![0, 1] h2 w) (ix3 R P k)
      = w (ix2 R P) := by
  refine (broadcastInDim_apply _ h3 _ (ix3 R P k) (ix3 R P (0 : Fin 1)) fun a => ?_).trans ?_
  · match a with
    | ⟨0, _⟩ => rfl
    | ⟨1, _⟩ => rfl
    | ⟨2, _⟩ => rfl
  · refine broadcastInDim_apply _ h2 w (ix3 R P (0 : Fin 1)) (ix2 R P) fun a => ?_
    match a with
    | ⟨0, _⟩ => rfl
    | ⟨1, _⟩ => rfl

/-! ## The specification at an index -/

variable (q : FVec Ideal S32x2048x601 .f32)

theorem expShift_apply (R : Fin 32) (P : Fin 2048) (k : Fin 601) :
    expShift q (ix3 R P k) = rowShift (fun k' => q (ix3 R P k')) k := by
  unfold expShift rowShift
  show Ideal.exp (q (ix3 R P k) - _) = _
  refine congrArg (fun z : EReal => Ideal.exp (q (ix3 R P k) - z)) ?_
  refine (hostKeepdims_apply _ _ _ R P k).trans ?_
  refine (maximumf_apply _ _ _).trans ?_
  refine (congrArg (max _) (hostRowMax_apply q _ _ R P)).trans ?_
  refine (congrArg (fun z : EReal => max z _) ?_).trans (max_bot_left _)
  exact (broadcastInDim_scalar_apply _ _ _).trans negInf_eq_bot

theorem probs_apply (R : Fin 32) (P : Fin 2048) (k : Fin 601) :
    probs q (ix3 R P k) = sm (fun k' => q (ix3 R P k')) k := by
  unfold probs sm
  refine (hostDivf_apply _ _ _).trans ?_
  refine congr (congrArg Ideal.div (expShift_apply q R P k)) ?_
  refine (hostKeepdims_apply _ _ _ R P k).trans ?_
  refine (hostRowSum_apply _ _ _ R P).trans ?_
  exact Finset.sum_congr rfl fun k' _ => expShift_apply q R P k'

theorem msg_apply (R : Fin 32) (k : Fin 601) :
    msg q (ix2 R k) = (Finset.univ : Finset (Fin 2048)).sup fun P => sm (fun k' => q (ix3 R P k')) k := by
  unfold msg
  refine (hostColMax_apply _ _ _ R k).trans ?_
  exact congrArg (fun f => (Finset.univ : Finset (Fin 2048)).sup f) (funext fun P => probs_apply q R P k)

end Cert.KernelIdeal.RedMath

end
-- ==== Proof.RedMathE.lean ====
/-
  The reduce call's third payload — the running maximum times the compatibility matrix — against the
  specification's matrix product, rows `8·b … 8·b+7`.

  Both products contract one axis: at `(r, k)` each is `Σ_j a(r, j) · c(j, k)` over the 601 classes `j`, the
  body's onto a zero accumulator (which adds nothing) and the host's with none. Reading the body's product
  of rows `8·b+r` of `x` and the host's product at row `8·b+r` gives the same sum.
-/
import proofs.«121405_j17162689315290_1_alg».proof.Proof.RedDefs
import Idealize.ShloMosaic.PureOps.Ideal.Laws

noncomputable section

namespace Cert.KernelIdeal.RedMath

open Cert.KernelIdeal Cert.KernelIdeal.Gen Idealize.ShloMosaic Idealize.ShloMosaic.ValueIdx

/-! ## The operand indices of the two products, axis by axis -/

theorem kl0 (i : S8x601.Idx) (q : dot_S8x601_S601x601_S8x601_1_0_0_1_n_n.contr.Idx) : (dot_S8x601_S601x601_S8x601_1_0_0_1_n_n.lhsIdx i q 0).val = (i 0).val := by
  unfold DotDims.lhsIdx
  rw [dif_neg (show ¬(0 : Fin S8x601.rank) ∈ dot_S8x601_S601x601_S8x601_1_0_0_1_n_n.lhsBatch by decide),
    dif_pos (show (0 : Fin S8x601.rank) ∈ dot_S8x601_S601x601_S8x601_1_0_0_1_n_n.lhsNonContracting by decide)]
  rfl

theorem kl1 (i : S8x601.Idx) (q : dot_S8x601_S601x601_S8x601_1_0_0_1_n_n.contr.Idx) : (dot_S8x601_S601x601_S8x601_1_0_0_1_n_n.lhsIdx i q 1).val = (q ⟨0, by decide⟩).val :=
  dot_S8x601_S601x601_S8x601_1_0_0_1_n_n.lhsIdx_val_of_single rfl i q

theorem kr0 (i : S8x601.Idx) (q : dot_S8x601_S601x601_S8x601_1_0_0_1_n_n.contr.Idx) : (dot_S8x601_S601x601_S8x601_1_0_0_1_n_n.rhsIdx i q 0).val = (q ⟨0, by decide⟩).val :=
  dot_S8x601_S601x601_S8x601_1_0_0_1_n_n.rhsIdx_val_of_single rfl i q

theorem kr1 (i : S8x601.Idx) (q : dot_S8x601_S601x601_S8x601_1_0_0_1_n_n.contr.Idx) : (dot_S8x601_S601x601_S8x601_1_0_0_1_n_n.rhsIdx i q 1).val = (i 1).val := by
  unfold DotDims.rhsIdx
  rw [dif_neg (show ¬(1 : Fin S601x601.rank) ∈ dot_S8x601_S601x601_S8x601_1_0_0_1_n_n.rhsBatch by decide),
    dif_pos (show (1 : Fin S601x601.rank) ∈ dot_S8x601_S601x601_S8x601_1_0_0_1_n_n.rhsNonContracting by decide)]
  rfl

theorem hl0 (i : S32x601.Idx) (q : Cert.ReferenceIdeal.dot_S32x601_S601x601_S32x601_1_0_0_1_n_n.contr.Idx) : (Cert.ReferenceIdeal.dot_S32x601_S601x601_S32x601_1_0_0_1_n_n.lhsIdx i q 0).val = (i 0).val := by
  unfold DotDims.lhsIdx
  rw [dif_neg (show ¬(0 : Fin S32x601.rank) ∈ Cert.ReferenceIdeal.dot_S32x601_S601x601_S32x601_1_0_0_1_n_n.lhsBatch by decide),
    dif_pos (show (0 : Fin S32x601.rank) ∈ Cert.ReferenceIdeal.dot_S32x601_S601x601_S32x601_1_0_0_1_n_n.lhsNonContracting by decide)]
  rfl

theorem hl1 (i : S32x601.Idx) (q : Cert.ReferenceIdeal.dot_S32x601_S601x601_S32x601_1_0_0_1_n_n.contr.Idx) : (Cert.ReferenceIdeal.dot_S32x601_S601x601_S32x601_1_0_0_1_n_n.lhsIdx i q 1).val = (q ⟨0, by decide⟩).val :=
  Cert.ReferenceIdeal.dot_S32x601_S601x601_S32x601_1_0_0_1_n_n.lhsIdx_val_of_single rfl i q

theorem hr0 (i : S32x601.Idx) (q : Cert.ReferenceIdeal.dot_S32x601_S601x601_S32x601_1_0_0_1_n_n.contr.Idx) : (Cert.ReferenceIdeal.dot_S32x601_S601x601_S32x601_1_0_0_1_n_n.rhsIdx i q 0).val = (q ⟨0, by decide⟩).val :=
  Cert.ReferenceIdeal.dot_S32x601_S601x601_S32x601_1_0_0_1_n_n.rhsIdx_val_of_single rfl i q

theorem hr1 (i : S32x601.Idx) (q : Cert.ReferenceIdeal.dot_S32x601_S601x601_S32x601_1_0_0_1_n_n.contr.Idx) : (Cert.ReferenceIdeal.dot_S32x601_S601x601_S32x601_1_0_0_1_n_n.rhsIdx i q 1).val = (i 1).val := by
  unfold DotDims.rhsIdx
  rw [dif_neg (show ¬(1 : Fin S601x601.rank) ∈ Cert.ReferenceIdeal.dot_S32x601_S601x601_S32x601_1_0_0_1_n_n.rhsBatch by decide),
    dif_pos (show (1 : Fin S601x601.rank) ∈ Cert.ReferenceIdeal.dot_S32x601_S601x601_S32x601_1_0_0_1_n_n.rhsNonContracting by decide)]
  rfl

/-! ## The two products at an index -/

/-- The body's product at `(r, k)`. -/
theorem kDot_apply (a : Vec Ideal S8x601 .f32) (cm : Vec Ideal S601x601 .f32) (r : Fin 8) (k : Fin 601) :
    k0_pay3 a cm (ix2 r k) = ∑ j : Fin 601, a (ix2 r j) * cm (ix2 j k) := by
  unfold k0_pay3
  refine (Ideal.matmul_constant_zero_apply dot_S8x601_S601x601_S8x601_1_0_0_1_n_n _ a cm (ix2 r k)).trans ?_
  rw [← Equiv.sum_comp (contrEquiv1 dot_S8x601_S601x601_S8x601_1_0_0_1_n_n 601 rfl rfl).symm]
  refine Finset.sum_congr rfl fun j _ => ?_
  have hj := contrEquiv1_symm_val dot_S8x601_S601x601_S8x601_1_0_0_1_n_n 601 rfl rfl j
  have el : dot_S8x601_S601x601_S8x601_1_0_0_1_n_n.lhsIdx (ix2 r k) ((contrEquiv1 dot_S8x601_S601x601_S8x601_1_0_0_1_n_n 601 rfl rfl).symm j) = ix2 r j :=
    funext fun a => Fin.ext (by
      match a with
      | ⟨0, _⟩ => exact kl0 _ _
      | ⟨1, _⟩ => exact (kl1 _ _).trans hj)
  have er : dot_S8x601_S601x601_S8x601_1_0_0_1_n_n.rhsIdx (ix2 r k) ((contrEquiv1 dot_S8x601_S601x601_S8x601_1_0_0_1_n_n 601 rfl rfl).symm j) = ix2 j k :=
    funext fun a => Fin.ext (by
      match a with
      | ⟨0, _⟩ => exact (kr0 _ _).trans hj
      | ⟨1, _⟩ => exact kr1 _ _)
  rw [el, er]

/-- The host's product at `(R, k)`. -/
theorem hDot_apply (x : FVec Ideal S32x601 .f32) (cm : FVec Ideal S601x601 .f32) (R : Fin 32) (k : Fin 601) :
    Host.dotGeneral Cert.ReferenceIdeal.dot_S32x601_S601x601_S32x601_1_0_0_1_n_n none x cm (ix2 R k) = ∑ j : Fin 601, x (ix2 R j) * cm (ix2 j k) := by
  refine (Ideal.dotGeneral_apply Cert.ReferenceIdeal.dot_S32x601_S601x601_S32x601_1_0_0_1_n_n _ _ x cm (ix2 R k)).trans ?_
  rw [← Equiv.sum_comp (contrEquiv1 Cert.ReferenceIdeal.dot_S32x601_S601x601_S32x601_1_0_0_1_n_n 601 rfl rfl).symm]
  refine Finset.sum_congr rfl fun j _ => ?_
  have hj := contrEquiv1_symm_val Cert.ReferenceIdeal.dot_S32x601_S601x601_S32x601_1_0_0_1_n_n 601 rfl rfl j
  have el : Cert.ReferenceIdeal.dot_S32x601_S601x601_S32x601_1_0_0_1_n_n.lhsIdx (ix2 R k) ((contrEquiv1 Cert.ReferenceIdeal.dot_S32x601_S601x601_S32x601_1_0_0_1_n_n 601 rfl rfl).symm j) = ix2 R j :=
    funext fun a => Fin.ext (by
      match a with
      | ⟨0, _⟩ => exact hl0 _ _
      | ⟨1, _⟩ => exact (hl1 _ _).trans hj)
  have er : Cert.ReferenceIdeal.dot_S32x601_S601x601_S32x601_1_0_0_1_n_n.rhsIdx (ix2 R k) ((contrEquiv1 Cert.ReferenceIdeal.dot_S32x601_S601x601_S32x601_1_0_0_1_n_n 601 rfl rfl).symm j) = ix2 j k :=
    funext fun a => Fin.ext (by
      match a with
      | ⟨0, _⟩ => exact (hr0 _ _).trans hj
      | ⟨1, _⟩ => exact hr1 _ _)
  rw [el, er]

/-- The body's product of rows `8·b … 8·b+7` of `x` is rows `8·b … 8·b+7` of the host's product of `x`. -/
theorem matmul_rows (x : FVec Ideal S32x601 .f32) (cm : FVec Ideal S601x601 .f32) (b : Fin 4) :
    k0_pay3 (rows x b) cm
      = rows (Host.dotGeneral Cert.ReferenceIdeal.dot_S32x601_S601x601_S32x601_1_0_0_1_n_n none x cm) b := by
  funext y
  obtain ⟨r, k, rfl⟩ : ∃ (r : Fin 8) (k : Fin 601), y = ix2 r k := ⟨y 0, y 1, eq_ix2 y⟩
  refine (kDot_apply (rows x b) cm r k).trans ?_
  refine Eq.trans ?_ ((rows_apply (Host.dotGeneral Cert.ReferenceIdeal.dot_S32x601_S601x601_S32x601_1_0_0_1_n_n none x cm) b r k).trans
    (hDot_apply x cm (rowIx b r) k)).symm
  exact Finset.sum_congr rfl fun j _ => congrArg (· * cm (ix2 j k)) (rows_apply x b r j)

end Cert.KernelIdeal.RedMath

end
-- ==== Proof.RedMath.lean ====
/-
  The reduce call's arithmetic: the running maximum carried across the eight proposal tiles of an image
  tile, times the compatibility matrix, is rows `8·b … 8·b+7` of the specification's `pairwise`.

  At `(r, k)` the running maximum after tile `n` is `max`-accumulated from -∞ over the tiles' column maxima
  of the probabilities; each probability is the row formula `sm` of a row of the whole array (a block's row
  IS a row of the array), so after the eighth tile the running maximum is the supremum over all 2048
  proposals — the specification's message at row `8·b + r`. The matrix products then agree row by row.
-/
import proofs.«121405_j17162689315290_1_alg».proof.Proof.RedMathC
import proofs.«121405_j17162689315290_1_alg».proof.Proof.RedMathD
import proofs.«121405_j17162689315290_1_alg».proof.Proof.RedMathE

noncomputable section

namespace Cert.KernelIdeal.RedMath

open Cert.KernelIdeal Cert.KernelIdeal.Gen Idealize.ShloMosaic Idealize.ShloMosaic.ValueIdx

open Cert.ReferenceIdeal.Crf

section

variable (q : FVec Ideal S32x2048x601 .f32) (b : Fin 4)

/-- Proposal tile `m` (read modulo 8, as the running maximum's recursion does). -/
def tileIx (m : ℕ) : Fin 8 := ⟨m % 8, Nat.mod_lt _ (by norm_num)⟩

/-- The greatest probability of class `k` over the 256 proposals of tile `m`, in image `8·b + r`. -/
def tileMax (r : Fin 8) (k : Fin 601) (m : ℕ) : EReal :=
  (Finset.univ : Finset (Fin 256)).sup fun p => sm (fun k' => q (ix3 (rowIx b r) (propIx (tileIx m) p) k')) k

/-- The running maximum after the tiles `0 … n`, at `(r, k)`, accumulates the tiles' maxima from -∞. -/
theorem runMax_apply (n : ℕ) (r : Fin 8) (k : Fin 601) :
    runMax q b n (ix2 r k) = accMax (tileMax q b r k) n := by
  induction n with
  | zero =>
    rw [runMax_zero]
    refine (pay2_apply _ _ r k).trans ?_
    rw [pay1_apply]
    rfl
  | succ n ih =>
    rw [runMax_succ]
    refine (pay2_apply _ _ r k).trans ?_
    rw [ih]
    rfl

/-- After the eighth tile the running maximum is the specification's message, rows `8·b … 8·b+7`. -/
theorem runMax_last : runMax q b 7 = rows (msg q) b := by
  funext y
  obtain ⟨r, k, rfl⟩ : ∃ (r : Fin 8) (k : Fin 601), y = ix2 r k := ⟨y 0, y 1, eq_ix2 y⟩
  refine (runMax_apply q b 7 r k).trans ?_
  refine (accMax_eq_sup _ 7).trans ?_
  refine Eq.trans ?_ ((rows_apply (msg q) b r k).trans (msg_apply q (rowIx b r) k)).symm
  exact sup_tiles fun P => sm (fun k' => q (ix3 (rowIx b r) P k')) k

end

/-- The reduce call's result for image tile `b`: rows `8·b … 8·b+7` of `pairwise`. -/
theorem reduce_rows (q : FVec Ideal S32x2048x601 .f32) (cm : FVec Ideal S601x601 .f32) (b : Fin 4) :
    k0_pay3 (runMax q b 7) cm = rows (pairwise q cm) b := by
  rw [runMax_last]
  exact matmul_rows (msg q) cm b

end Cert.KernelIdeal.RedMath

end
-- ==== Proof.KI.Red0Value.lean ====
/-
  The reduce call (custom_call 0) at the exact instance: what it leaves in its result array.

  With q the scores and M the compatibility matrix as the region finds them: after the point of image tile b
  and proposal tile k the carried buffer holds the running maximum of the tiles' softmax maxima over proposal
  tiles 0 … k of image tile b; at k = 7 the output block is that maximum times M, which is rows 8b … 8b+7 of
  the specification's pairwise term; the eight-point runs' blocks tile the result, so the result array ends
  at the pairwise term of q and M.
-/
import proofs.«121405_j17162689315290_1_alg».proof.Proof.KI.Red0Pieces
import proofs.«121405_j17162689315290_1_alg».proof.Proof.KI.Blocks
import proofs.«121405_j17162689315290_1_alg».proof.Proof.RedMath
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

/-- The scores' block at the point 8·b + k is tile (b, k) of the scores. -/
theorem iblk0_0_tile (c : Dev nD) (n : ℕ) (hn : n < cfg0.N) (b : Fin 4) (k : Fin 8) (h : n = 8 * b.val + k.val) :
    (iblk0 V c 0 ⟨n, hn⟩ : Vec Ideal S8x256x601 .f32) = RedMath.tile (V c (Pipeline.arrRef spec0 0)) b k := by
  unfold iblk0
  rw [blk0_0_read, tileOf_ideal]
  have hb : bOf (pt0 ⟨n, hn⟩) = b := Fin.ext (by simp only [bOf_val, pt0_val]; omega)
  have hk : nOf (pt0 ⟨n, hn⟩) = k := Fin.ext (by simp only [nOf_val, pt0_val]; omega)
  rw [hb, hk]

/-- The matrix's block is the matrix. -/
theorem iblk0_1_whole (c : Dev nD) (t : Fin cfg0.N) :
    (iblk0 V c 1 t : Vec Ideal S601x601 .f32) = V c (Pipeline.arrRef spec0 1) := by
  unfold iblk0; exact blk0_1_read _ t

/-- The accumulation in closed form: after point 8·b + k the carried buffer holds the running maximum over proposal tiles 0 … k. -/
theorem carried0_eq (c : Dev nD) (b : Fin 4) : ∀ (k : ℕ) (hk : k < 8) (n : ℕ) (hn : n < cfg0.N), n = 8 * b.val + k →
    (outsAt0 V c n hn).2 = RedMath.runMax (V c (Pipeline.arrRef spec0 0)) b k := by
  intro k
  induction k with
  | zero =>
    intro hk n hn h
    have h0 : (⟨n, hn⟩ : Fin cfg0.N).val % 8 = 0 := by simp only; omega
    have h1 : ¬(⟨n, hn⟩ : Fin cfg0.N).val % 8 = 7 := by simp only; omega
    have e := outsAt0_A V c ⟨n, hn⟩ h0 h1
    simp only at e
    rw [e]
    simp only [sout0_A_0_eq]
    rw [iblk0_0_tile V c n hn b ⟨0, by omega⟩ (by simpa using h), RedMath.runMax_zero]
    rfl
  | succ k ih =>
    intro hk n hn h
    have hprev := ih (by omega) (n - 1) (by omega) (by omega)
    have h0 : ¬(⟨n, hn⟩ : Fin cfg0.N).val % 8 = 0 := by simp only; omega
    have hsucc : RedMath.runMax (V c (Pipeline.arrRef spec0 0)) b (k + 1)
        = k0_pay2 (RedMath.tile (V c (Pipeline.arrRef spec0 0)) b ⟨k + 1, hk⟩) (RedMath.runMax (V c (Pipeline.arrRef spec0 0)) b k) := by
      rw [RedMath.runMax_succ]
      congr 2
      exact Fin.ext (Nat.mod_eq_of_lt hk)
    by_cases h1 : (⟨n, hn⟩ : Fin cfg0.N).val % 8 = 7
    · have e := outsAt0_C V c ⟨n, hn⟩ h0 h1
      simp only at e
      rw [e]
      simp only [sout0_C_0_eq]
      rw [iblk0_0_tile V c n hn b ⟨k + 1, hk⟩ (by simpa using h), hprev, hsucc]
    · have e := outsAt0_B V c ⟨n, hn⟩ h0 h1
      simp only at e
      rw [e]
      simp only [sout0_B_0_eq]
      rw [iblk0_0_tile V c n hn b ⟨k + 1, hk⟩ (by simpa using h), hprev, hsucc]

/-- At the last proposal tile of image tile b the output block holds rows 8b … 8b+7 of the pairwise term. -/
theorem outBlock0_eq (c : Dev nD) (b : Fin 4) (n : ℕ) (hn : n < cfg0.N) (h : n = 8 * b.val + 7) :
    (outsAt0 V c n hn).1 = RedMath.rows (Cert.ReferenceIdeal.Crf.pairwise (V c (Pipeline.arrRef spec0 0)) (V c (Pipeline.arrRef spec0 1))) b := by
  have h0 : ¬(⟨n, hn⟩ : Fin cfg0.N).val % 8 = 0 := by simp only; omega
  have h1 : (⟨n, hn⟩ : Fin cfg0.N).val % 8 = 7 := by simp only; omega
  have hprev := carried0_eq V c b 6 (by omega) (n - 1) (by omega) (by omega)
  have e := outsAt0_C V c ⟨n, hn⟩ h0 h1
  simp only at e
  rw [e]
  simp only [out0_C_2_eq]
  rw [iblk0_0_tile V c n hn b ⟨7, by omega⟩ (by simpa using h), iblk0_1_whole, hprev]
  have hsucc : k0_pay2 (RedMath.tile (V c (Pipeline.arrRef spec0 0)) b ⟨7, by omega⟩) (RedMath.runMax (V c (Pipeline.arrRef spec0 0)) b 6)
      = RedMath.runMax (V c (Pipeline.arrRef spec0 0)) b 7 := rfl
  rw [hsucc]
  exact RedMath.reduce_rows (V c (Pipeline.arrRef spec0 0)) (V c (Pipeline.arrRef spec0 1)) b

/-- The result array after the region: the pairwise term of the scores and the matrix as the region finds them. -/
theorem final0 (c : Dev nD) :
    ((dat0 V c).arrAt 2 cfg0.N : S32x601.Idx → Elt Ideal .f32) = Cert.ReferenceIdeal.Crf.pairwise (F := Ideal) (V c (Pipeline.arrRef spec0 0)) (V c (Pipeline.arrRef spec0 1)) := by
  refine (dat0 V c).arrAt_eq_of_cover 2 (Cert.ReferenceIdeal.Crf.pairwise (F := Ideal) (V c (Pipeline.arrRef spec0 0)) (V c (Pipeline.arrRef spec0 1))) (fun t hf => ?_) cover0_2
  have h7 : t.val % 8 = 7 := (flush0_2 t).mp hf
  have hN : t.val < 32 := lt_of_lt_of_eq t.isLt (show cfg0.N = 32 from N_0)
  rw [blk0_2_read, rowsOf_ideal]
  show (dat0 V c).after 2 t = _
  rw [after0_2]
  have hb : bOf (pt0 t) = ⟨t.val / 8, by omega⟩ := Fin.ext (by simp only [bOf_val, pt0_val])
  rw [hb]
  exact outBlock0_eq V c ⟨t.val / 8, by omega⟩ t.val t.isLt (by simp only; omega)

end Cert.KernelIdeal.Frame

end
-- ==== Proof.KI.Upd1Value.lean ====
/-
  The value of the update step's region (custom_call 1): after its 32 grid points the output array holds, at
  every index (image, proposal, class), the unary score there minus the scaled pairwise term of that image and
  class — one whole-array function of the two input arrays as the region finds them, at any float instance.
-/
import proofs.«121405_j17162689315290_1_alg».proof.Proof.KI.Upd1
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The whole-array function -/

/-- The unary scores `u` less the per-image row `p` repeated over the proposals: at (image, proposal, class) the score
    there minus `p` at (image, class). -/
abbrev G1 (u : S32x2048x601.Idx → Elt F .f32) (p : S32x601.Idx → Elt F .f32) : S32x2048x601.Idx → Elt F .f32 :=
  fun i => FloatOps.subf (u i) (p (ix2 (i 0) (i 2)))

/-! ## The body's stored value at an index -/

/-- The stored block at (image, proposal, class) is the scores' block there minus the pairwise block at (image, class):
    the cast to the same shape is the identity, the cast that inserts a unit axis keeps the row-major position
    (image · 601 + class on both sides), and the broadcast along the unit axis reads coordinate 0 there. -/
theorem pay1_apply (x1 : Vec F S8x601 .f32) (x0 : Vec F S8x256x601 .f32) (j : S8x256x601.Idx) :
    k1_pay1 x1 x0 j = FloatOps.subf (x0 j) (x1 (ix2 (j 0) (j 2))) := by
  unfold k1_pay1
  show FloatOps.subf (x0 j) (broadcastTo S8x256x601 (shapeCast S8x1x601 (shapeCast S8x601 x1 shapeCasts_S8x601_S8x601) shapeCasts_S8x601_S8x1x601) broadcasts_S8x1x601_S8x256x601 j) = _
  congr 1
  rw [shapeCast_self]
  refine (broadcastTo_apply (s := S8x1x601) (t := S8x256x601) _ broadcasts_S8x1x601_S8x256x601 j (ix3 (j 0) (0 : Fin 1) (j 2)) (fun a => by
    match a with
    | ⟨0, _⟩ => rfl
    | ⟨1, _⟩ => rfl
    | ⟨2, _⟩ => rfl)).trans ?_
  refine shapeCast_apply (s := S8x601) (t := S8x1x601) x1 shapeCasts_S8x601_S8x1x601 (ix3 (j 0) (0 : Fin 1) (j 2)) (ix2 (j 0) (j 2)) ?_
  rw [Shape.rowMajor_val_two, Shape.rowMajor_val_three]
  show (j 0).val * 601 + (j 2).val = ((j 0).val * 1 + 0) * 601 + (j 2).val
  omega

/-! ## The windows' block indices over the grid -/

/-- Decided over the 32 points: the scores' window moves with the output's on every axis; the pairwise window follows
    the output's image tile and stays at class block 0; the output's block index is (image tile ≤ 3, proposal tile
    ≤ 7, 0). -/
theorem idx_facts1 : ∀ t : Fin cfg1.N,
    win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 2) = win1_2.index t (0 : Fin 3)
    ∧ win1_1.index t (1 : Fin 2) = 0
    ∧ win1_2.index t (0 : Fin 3) ≤ 3
    ∧ win1_2.index t (1 : Fin 3) ≤ 7
    ∧ win1_2.index t (2 : Fin 3) = 0 :=
  (by decide +kernel : ∀ t : Fin grid1.N, _)

/-- Every (image tile, proposal tile) is some point's output block. -/
theorem idx_onto1 : ∀ (q0 : Fin 4) (q1 : Fin 8), ∃ t : Fin cfg1.N, win1_2.index t = ![q0.val, q1.val, 0] :=
  (by decide +kernel : ∀ (q0 : Fin 4) (q1 : Fin 8), ∃ t : Fin grid1.N, win1_2.index t = ![q0.val, q1.val, 0])

/-! ## What a point writes back -/

/-- Point `t` writes back block `t` of `G1` of the two input arrays: a block's coordinate on an axis is its block
    index times the block's extent plus the coordinate inside the block, so by the decided relations the scores' block
    is read where the output's block lies, and the pairwise block at that image and class. -/
theorem flushed1_eq (c : Dev nD) (t : Fin cfg1.N) :
    (dat1 V c).flushed 2 t = ((cfg1.win 2).blk t).view.read (Elt F) (G1 (V c main_arg0) (V c main_v3)) := by
  show (cfg1.win 2).cut (grid1.coords t) ((dat1 V c).after 2 t) = _
  rw [after1_2]
  obtain ⟨e0, e1, e2, e3, e4, e5, e6, e7⟩ := idx_facts1 t
  funext j
  refine (pay1_apply (iblk1 V c 1 t) (iblk1 V c 0 t) j).trans ?_
  show FloatOps.subf (V c main_arg0 (((cfg1.win 0).blk t).view.emb j)) (V c main_v3 (((cfg1.win 1).blk t).view.emb (ix2 (j 0) (j 2))))
    = FloatOps.subf (V c main_arg0 (((cfg1.win 2).blk t).view.emb j))
        (V c main_v3 (ix2 ((((cfg1.win 2).blk t).view.emb j) 0) ((((cfg1.win 2).blk t).view.emb j) 2)))
  have h0 : ((cfg1.win 0).blk t).view.emb j = ((cfg1.win 2).blk t).view.emb j := by
    funext a; apply Fin.ext
    match a with
    | ⟨0, _⟩ => show win1_0.index t (0 : Fin 3) * 8 + 1 * (j 0).val = win1_2.index t (0 : Fin 3) * 8 + 1 * (j 0).val; omega
    | ⟨1, _⟩ => show win1_0.index t (1 : Fin 3) * 256 + 1 * (j 1).val = win1_2.index t (1 : Fin 3) * 256 + 1 * (j 1).val; omega
    | ⟨2, _⟩ => show win1_0.index t (2 : Fin 3) * 601 + 1 * (j 2).val = win1_2.index t (2 : Fin 3) * 601 + 1 * (j 2).val; omega
  have h1 : ((cfg1.win 1).blk t).view.emb (ix2 (j 0) (j 2))
      = ix2 ((((cfg1.win 2).blk t).view.emb j) 0) ((((cfg1.win 2).blk t).view.emb j) 2) := by
    funext a; apply Fin.ext
    match a with
    | ⟨0, _⟩ => show win1_1.index t (0 : Fin 2) * 8 + 1 * (j 0).val = win1_2.index t (0 : Fin 3) * 8 + 1 * (j 0).val; omega
    | ⟨1, _⟩ => show win1_1.index t (1 : Fin 2) * 601 + 1 * (j 2).val = win1_2.index t (2 : Fin 3) * 601 + 1 * (j 2).val; omega
  rw [h0, h1]
  rfl

/-! ## The output's blocks tile its array -/

/-- An index of the output array is in point `t`'s block iff each coordinate is in the block's range on its axis. -/
theorem mem_blk1 (t : Fin cfg1.N) (i : S32x2048x601.Idx) :
    i ∈ ((cfg1.win 2).blk t).view.set ↔ ∀ a : Fin 3, win1_2.index t a * S8x256x601.size a ≤ (i a).val ∧ (i a).val < win1_2.index t a * S8x256x601.size a + S8x256x601.size a := by
  show i ∈ ((View.whole main_v4).slice (win1_2.rect t)).set ↔ _
  rw [View.set_slice_whole, Rect.mem_set_unit]
  exact Iff.rfl

/-- Every index is in the block of the point whose output block is (image / 8, proposal / 256, 0), and every point
    writes its block back. -/
theorem covered1 (i : S32x2048x601.Idx) :
    ∃ t : Fin cfg1.N, (cfg1.win 2).flush t = true ∧ i ∈ ((cfg1.win 2).blk t).view.set := by
  have hi0 : (i 0).val < 32 := (i 0).isLt
  have hi1 : (i 1).val < 2048 := (i 1).isLt
  have hi2 : (i 2).val < 601 := (i 2).isLt
  obtain ⟨t, ht⟩ := idx_onto1 ⟨(i 0).val / 8, by omega⟩ ⟨(i 1).val / 256, by omega⟩
  have q0 : win1_2.index t (0 : Fin 3) = (i 0).val / 8 := congrFun ht 0
  have q1 : win1_2.index t (1 : Fin 3) = (i 1).val / 256 := congrFun ht 1
  have q2 : win1_2.index t (2 : Fin 3) = 0 := congrFun ht 2
  refine ⟨t, flush1_2 t, ?_⟩
  rw [mem_blk1]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 256 ≤ (i 1).val ∧ (i 1).val < win1_2.index t (1 : Fin 3) * 256 + 256; omega
  | ⟨2, _⟩ => show win1_2.index t (2 : Fin 3) * 601 ≤ (i 2).val ∧ (i 2).val < win1_2.index t (2 : Fin 3) * 601 + 601; omega

/-! ## The array after the region -/

/-- After the last point the output array is `G1` of the unary scores and the scaled pairwise array as the region
    found them. -/
theorem final1 (c : Dev nD) : (dat1 V c).arrAt 2 cfg1.N = G1 (V c main_arg0) (V c main_v3) :=
  (dat1 V c).arrAt_eq_of_cover 2 (G1 (V c main_arg0) (V c main_v3)) (fun t _ => flushed1_eq V c t) covered1

/-! ## The same function in the host's vocabulary -/

/-- `G1 u p` is `u` minus `p` broadcast first to a unit proposal axis and then along it — whatever witnesses the two
    broadcasts are stated with: the outer broadcast reads coordinate 0 on the unit axis, the inner one reads `p` at
    the image and class. -/
theorem G1_eq_subf_broadcast
    (h1 : (⟨2, ![32, 601]⟩ : Shape).BroadcastsInDim (⟨3, ![32, 1, 601]⟩ : Shape) ![0, 2])
    (h2 : (⟨3, ![32, 1, 601]⟩ : Shape).BroadcastsInDim (⟨3, ![32, 2048, 601]⟩ : Shape) ![0, 1, 2])
    (u : FVec F ⟨3, ![32, 2048, 601]⟩ .f32) (p : FVec F ⟨2, ![32, 601]⟩ .f32) :
    subf u (broadcastInDim ⟨3, ![32, 2048, 601]⟩ ![0, 1, 2] h2 (broadcastInDim ⟨3, ![32, 1, 601]⟩ ![0, 2] h1 p)) = G1 u p := by
  funext i
  show FloatOps.subf (u i) (broadcastInDim ⟨3, ![32, 2048, 601]⟩ ![0, 1, 2] h2 (broadcastInDim ⟨3, ![32, 1, 601]⟩ ![0, 2] h1 p) i)
    = FloatOps.subf (u i) (p (ix2 (i 0) (i 2)))
  congr 1
  refine (broadcastInDim_apply (s := ⟨3, ![32, 1, 601]⟩) (t := ⟨3, ![32, 2048, 601]⟩) ![0, 1, 2] h2 _ i (ix3 (i 0) (0 : Fin 1) (i 2)) (fun a => by
    match a with
    | ⟨0, _⟩ => rfl
    | ⟨1, _⟩ => rfl
    | ⟨2, _⟩ => rfl)).trans ?_
  refine broadcastInDim_apply (s := ⟨2, ![32, 601]⟩) (t := ⟨3, ![32, 1, 601]⟩) ![0, 2] h1 p (ix3 (i 0) (0 : Fin 1) (i 2)) (ix2 (i 0) (i 2)) (fun a => by
    match a with
    | ⟨0, _⟩ => rfl
    | ⟨1, _⟩ => rfl)

end Cert.KernelIdeal.Frame
-- ==== Proof.KI.Red2Pieces.lean ====
/-
  The reduce call (custom_call 2): the contents each kind of grid point leaves, as the body's arithmetic.
  The stores are of whole buffers, so what is read back after them is the last store's payload; a load
  that follows a store of the same buffer reads that store's payload.
-/
import proofs.«121405_j17162689315290_1_alg».proof.Proof.KI.Red2
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces are: the payloads -/

theorem hz2_2 : (![0, 0] : Fin 2 → Nat) = fun _ => 0 := by funext a; fin_cases a <;> rfl
theorem hz2_3 : (![0, 0, 0] : Fin 3 → Nat) = fun _ => 0 := by funext a; fin_cases a <;> rfl

/-- After a first proposal tile the carried buffer holds the tile's maximum folded into the reset value. -/
theorem sout2_A_0_eq (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond2_0 i) (hc1 : ¬cond2_1 i) (x0 : Vec F S8x256x601 .f32) :
    sout2_A_0 c i arg2 harg2 arg3 harg3 arg4 harg4 arg5 harg5 hc0 hc1 x0 = k2_pay2 x0 (k2_pay1 (F := F)) := by
  unfold sout2_A_0
  rw [View.read_writes_eq_canon _ _ _ (scover2_A_0 c i arg2 harg2 arg3 harg3 arg4 harg4 arg5 harg5 hc0 hc1 x0)]
  unfold kernelRun2_A
  dsimp only
  sl_unfold_words
  rw [View.canon_cons_unit_zero hz2_2]
  simp only [View.readAt_eq_ld, harg2.read_unread, View.ld_unit_zero (S := S8x256x601) hz2_3]
  exact congrArg (k2_pay2 x0) (View.readCov_unit_zero (S := S8x601) arg5.view hz2_2 _ _)

/-- After an inner tile: the tile's maximum folded into what the point before left. -/
theorem sout2_B_0_eq (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : ¬cond2_1 i) (x0 : Vec F S8x256x601 .f32) (xs0 : Vec F S8x601 .f32) :
    sout2_B_0 c i arg2 harg2 arg3 harg3 arg4 harg4 arg5 harg5 hc0 hc1 x0 xs0 = k2_pay2 x0 xs0 := by
  unfold sout2_B_0
  rw [View.read_writes_eq_canon _ _ _ (scover2_B_0 c i arg2 harg2 arg3 harg3 arg4 harg4 arg5 harg5 hc0 hc1 x0 xs0)]
  unfold kernelRun2_B
  dsimp only
  sl_unfold_words
  rw [View.canon_unit_zero hz2_2]
  simp only [View.readAt_eq_ld, harg2.read_unread, harg5.read_unread, View.ld_unit_zero (S := S8x256x601) hz2_3, View.ld_unit_zero (S := S8x601) hz2_2]
  try rfl

/-- After a last tile the carried buffer likewise, -/
theorem sout2_C_0_eq (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i) (x0 : Vec F S8x256x601 .f32) (x1 : Vec F S601x601 .f32) (xs0 : Vec F S8x601 .f32) :
    sout2_C_0 c i arg2 harg2 arg3 harg3 arg4 harg4 arg5 harg5 hc0 hc1 x0 x1 xs0 = k2_pay2 x0 xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  sl_unfold_words
  rw [View.canon_unit_zero hz2_2]
  simp only [View.readAt_eq_ld, harg2.read_unread, harg5.read_unread, View.ld_unit_zero (S := S8x256x601) hz2_3, View.ld_unit_zero (S := S8x601) hz2_2]
  try rfl

/-- and the output block holds that maximum times the matrix's block. -/
theorem out2_C_2_eq (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i) (x0 : Vec F S8x256x601 .f32) (x1 : Vec F S601x601 .f32) (xs0 : Vec F S8x601 .f32) :
    out2_C_2 c i arg2 harg2 arg3 harg3 arg4 harg4 arg5 harg5 hc0 hc1 x0 x1 xs0 = k2_pay3 (k2_pay2 x0 xs0) x1 := by
  unfold out2_C_2
  rw [View.read_writes_eq_canon _ _ _ (cover2_C_2 c i arg2 harg2 arg3 harg3 arg4 harg4 arg5 harg5 hc0 hc1 x0 x1 xs0)]
  unfold kernelRun2_C
  dsimp only
  sl_unfold_words
  rw [View.canon_unit_zero hz2_2]
  simp only [View.readAt_eq_ld, harg2.read_unread, harg3.read_unread, harg5.read_unread, View.ld_unit_zero (S := S8x256x601) hz2_3, View.ld_unit_zero (S := S601x601) hz2_2, View.ld_unit_zero (S := S8x601) hz2_2]
  exact congrArg (fun z => k2_pay3 z x1) (View.readCov_unit_zero (S := S8x601) arg5.view hz2_2 _ _)

end Cert.KernelIdeal.Frame

end
-- ==== Proof.KI.Blocks2.lean ====
/-
  The blocks of the reduce call 2 and the update call 3 as tiles of their whole arrays, and which grid points'
  result blocks hold a given index: the same facts as for calls 0 and 1, for this pair's windows.
-/
import proofs.«121405_j17162689315290_1_alg».proof.Proof.KI.Blocks

noncomputable section

namespace Cert.KernelIdeal.Frame

open Cert.KernelIdeal Cert.KernelIdeal.Gen Idealize.ShloMosaic Idealize.ShloMosaic.ValueIdx

variable {F : FTy → Type} [FloatOps F]

/-- A point of the reduce call's grid as a number below 32, and likewise for the update call. -/
abbrev pt2 (t : Fin cfg2.N) : Fin 32 := t.cast N_2
abbrev pt3 (t : Fin cfg3.N) : Fin 32 := t.cast N_3

@[simp] theorem pt2_val (t : Fin cfg2.N) : (pt2 t).val = t.val := rfl
@[simp] theorem pt3_val (t : Fin cfg3.N) : (pt3 t).val = t.val := rfl

/-! ## The printed index maps, decided once over the grid -/

/-- The reduce call: scores at block (t / 8, t % 8, 0), the matrix at block (0, 0), the result at block (t / 8, 0). -/
theorem idx2 : ∀ t : Fin cfg2.N,
    (win2_0.index t (0 : Fin 3) = t.val / 8 ∧ win2_0.index t (1 : Fin 3) = t.val % 8 ∧ win2_0.index t (2 : Fin 3) = 0)
    ∧ (win2_1.index t (0 : Fin 2) = 0 ∧ win2_1.index t (1 : Fin 2) = 0)
    ∧ (win2_2.index t (0 : Fin 2) = t.val / 8 ∧ win2_2.index t (1 : Fin 2) = 0) :=
  (by decide +kernel : ∀ t : Fin grid2.N, _)

/-- The update call: unaries and result at block (t / 8, t % 8, 0), the per-image rows at block (t / 8, 0). -/
theorem idx3 : ∀ t : Fin cfg3.N,
    (win3_0.index t (0 : Fin 3) = t.val / 8 ∧ win3_0.index t (1 : Fin 3) = t.val % 8 ∧ win3_0.index t (2 : Fin 3) = 0)
    ∧ (win3_1.index t (0 : Fin 2) = t.val / 8 ∧ win3_1.index t (1 : Fin 2) = 0)
    ∧ (win3_2.index t (0 : Fin 3) = t.val / 8 ∧ win3_2.index t (1 : Fin 3) = t.val % 8 ∧ win3_2.index t (2 : Fin 3) = 0) :=
  (by decide +kernel : ∀ t : Fin grid3.N, _)

/-! ## Each block, read off its whole array -/

/-- The reduce call's block of scores at point `t` is the tile at image tile `t / 8`, proposal tile `t % 8`. -/
theorem blk2_0_read (A : FVec F S32x2048x601 .f32) (t : Fin cfg2.N) :
    (((cfg2.win 0).blk t).view.read (Elt F) A : Vec F S8x256x601 .f32) = tileOf A (bOf (pt2 t)) (nOf (pt2 t)) := by
  obtain ⟨⟨e0, e1, e2⟩, -, -⟩ := idx2 t
  funext y
  rw [View.read_apply]
  show A (((cfg2.win 0).blk t).view.emb y) = A _
  congr 1
  funext a
  apply Fin.ext
  match a with
  | ⟨0, _⟩ => show win2_0.index t (0 : Fin 3) * 8 + 1 * (y 0).val = 8 * (t.val / 8) + (y 0).val; omega
  | ⟨1, _⟩ => show win2_0.index t (1 : Fin 3) * 256 + 1 * (y 1).val = 256 * (t.val % 8) + (y 1).val; omega
  | ⟨2, _⟩ => show win2_0.index t (2 : Fin 3) * 601 + 1 * (y 2).val = (y 2).val; omega

/-- The reduce call's one block of the compatibility matrix is the matrix. -/
theorem blk2_1_read (A : FVec F S601x601 .f32) (t : Fin cfg2.N) :
    (((cfg2.win 1).blk t).view.read (Elt F) A : Vec F S601x601 .f32) = A := by
  obtain ⟨-, ⟨e0, e1⟩, -⟩ := idx2 t
  funext y
  rw [View.read_apply]
  show A (((cfg2.win 1).blk t).view.emb y) = A y
  congr 1
  funext a
  apply Fin.ext
  match a with
  | ⟨0, _⟩ => show win2_1.index t (0 : Fin 2) * 601 + 1 * (y 0).val = (y 0).val; omega
  | ⟨1, _⟩ => show win2_1.index t (1 : Fin 2) * 601 + 1 * (y 1).val = (y 1).val; omega

/-- The reduce call's result block at point `t` is rows `8·(t / 8) …` of the per-image array. -/
theorem blk2_2_read (X : FVec F S32x601 .f32) (t : Fin cfg2.N) :
    (((cfg2.win 2).blk t).view.read (Elt F) X : Vec F S8x601 .f32) = rowsOf X (bOf (pt2 t)) := by
  obtain ⟨-, -, ⟨e0, e1⟩⟩ := idx2 t
  funext y
  rw [View.read_apply]
  show X (((cfg2.win 2).blk t).view.emb y) = X _
  congr 1
  funext a
  apply Fin.ext
  match a with
  | ⟨0, _⟩ => show win2_2.index t (0 : Fin 2) * 8 + 1 * (y 0).val = 8 * (t.val / 8) + (y 0).val; omega
  | ⟨1, _⟩ => show win2_2.index t (1 : Fin 2) * 601 + 1 * (y 1).val = (y 1).val; omega

/-- The update call's block of unaries at point `t` is the tile at image tile `t / 8`, proposal tile `t % 8`. -/
theorem blk3_0_read (A : FVec F S32x2048x601 .f32) (t : Fin cfg3.N) :
    (((cfg3.win 0).blk t).view.read (Elt F) A : Vec F S8x256x601 .f32) = tileOf A (bOf (pt3 t)) (nOf (pt3 t)) := by
  obtain ⟨⟨e0, e1, e2⟩, -, -⟩ := idx3 t
  funext y
  rw [View.read_apply]
  show A (((cfg3.win 0).blk t).view.emb y) = A _
  congr 1
  funext a
  apply Fin.ext
  match a with
  | ⟨0, _⟩ => show win3_0.index t (0 : Fin 3) * 8 + 1 * (y 0).val = 8 * (t.val / 8) + (y 0).val; omega
  | ⟨1, _⟩ => show win3_0.index t (1 : Fin 3) * 256 + 1 * (y 1).val = 256 * (t.val % 8) + (y 1).val; omega
  | ⟨2, _⟩ => show win3_0.index t (2 : Fin 3) * 601 + 1 * (y 2).val = (y 2).val; omega

/-- The update call's block of the per-image array at point `t` is its rows `8·(t / 8) …`. -/
theorem blk3_1_read (X : FVec F S32x601 .f32) (t : Fin cfg3.N) :
    (((cfg3.win 1).blk t).view.read (Elt F) X : Vec F S8x601 .f32) = rowsOf X (bOf (pt3 t)) := by
  obtain ⟨-, ⟨e0, e1⟩, -⟩ := idx3 t
  funext y
  rw [View.read_apply]
  show X (((cfg3.win 1).blk t).view.emb y) = X _
  congr 1
  funext a
  apply Fin.ext
  match a with
  | ⟨0, _⟩ => show win3_1.index t (0 : Fin 2) * 8 + 1 * (y 0).val = 8 * (t.val / 8) + (y 0).val; omega
  | ⟨1, _⟩ => show win3_1.index t (1 : Fin 2) * 601 + 1 * (y 1).val = (y 1).val; omega

/-- The update call's result block at point `t` is the tile at image tile `t / 8`, proposal tile `t % 8`. -/
theorem blk3_2_read (A : FVec F S32x2048x601 .f32) (t : Fin cfg3.N) :
    (((cfg3.win 2).blk t).view.read (Elt F) A : Vec F S8x256x601 .f32) = tileOf A (bOf (pt3 t)) (nOf (pt3 t)) := by
  obtain ⟨-, -, ⟨e0, e1, e2⟩⟩ := idx3 t
  funext y
  rw [View.read_apply]
  show A (((cfg3.win 2).blk t).view.emb y) = A _
  congr 1
  funext a
  apply Fin.ext
  match a with
  | ⟨0, _⟩ => show win3_2.index t (0 : Fin 3) * 8 + 1 * (y 0).val = 8 * (t.val / 8) + (y 0).val; omega
  | ⟨1, _⟩ => show win3_2.index t (1 : Fin 3) * 256 + 1 * (y 1).val = 256 * (t.val % 8) + (y 1).val; omega
  | ⟨2, _⟩ => show win3_2.index t (2 : Fin 3) * 601 + 1 * (y 2).val = (y 2).val; omega

/-! ## Which points' result blocks hold a given index -/

/-- An index of the per-image array is in the reduce call's result block at point `t` iff, on each axis, it is
    in the block's range. -/
theorem mem_blk2_2 (t : Fin cfg2.N) (i : S32x601.Idx) :
    i ∈ ((cfg2.win 2).blk t).view.set ↔ ∀ a : Fin 2, win2_2.index t a * S8x601.size a ≤ (i a).val ∧ (i a).val < win2_2.index t a * S8x601.size a + S8x601.size a := by
  show i ∈ ((View.whole main_v5).slice (win2_2.rect t)).set ↔ _
  rw [View.set_slice_whole, Rect.mem_set_unit]
  exact Iff.rfl

/-- … that is, iff its image lies in the point's image tile. -/
theorem mem_blk2_2_iff (t : Fin cfg2.N) (i : S32x601.Idx) :
    i ∈ ((cfg2.win 2).blk t).view.set ↔ (i 0).val / 8 = t.val / 8 := by
  rw [mem_blk2_2]
  obtain ⟨-, -, ⟨e0, e1⟩⟩ := idx2 t
  have h1 : (i 1).val < 601 := (i 1).isLt
  constructor
  · intro h
    have b0 : win2_2.index t (0 : Fin 2) * 8 ≤ (i 0).val ∧ (i 0).val < win2_2.index t (0 : Fin 2) * 8 + 8 := h 0
    omega
  · intro h a
    match a with
    | ⟨0, _⟩ => show win2_2.index t (0 : Fin 2) * 8 ≤ (i 0).val ∧ (i 0).val < win2_2.index t (0 : Fin 2) * 8 + 8; omega
    | ⟨1, _⟩ => show win2_2.index t (1 : Fin 2) * 601 ≤ (i 1).val ∧ (i 1).val < win2_2.index t (1 : Fin 2) * 601 + 601; omega

/-- The point that writes back the rows of image `r`: the last proposal tile of image tile `r / 8`. -/
def lastPt2 (r : Fin 32) : Fin cfg2.N := ⟨8 * (r.val / 8) + 7, by rw [show cfg2.N = 32 from N_2]; omega⟩

@[simp] theorem lastPt2_val (r : Fin 32) : (lastPt2 r).val = 8 * (r.val / 8) + 7 := rfl

/-- Every index of the per-image array is in the result block of a point that writes it back: the last
    proposal tile of its image's tile. -/
theorem cover2_2 (i : S32x601.Idx) :
    ∃ t : Fin cfg2.N, (cfg2.win 2).flush t = true ∧ i ∈ ((cfg2.win 2).blk t).view.set := by
  have h0 : (i 0).val < 32 := (i 0).isLt
  refine ⟨lastPt2 ⟨(i 0).val, h0⟩, (flush2_2 _).mpr ?_, (mem_blk2_2_iff _ i).mpr ?_⟩
  · show (8 * ((i 0).val / 8) + 7) % 8 = 7; omega
  · show (i 0).val / 8 = (8 * ((i 0).val / 8) + 7) / 8; omega

/-- The points that write the reduce call's result back and hold a given index are exactly the last proposal
    tile of its image's tile. -/
theorem flush_mem2_2_iff (t : Fin cfg2.N) (i : S32x601.Idx) :
    ((cfg2.win 2).flush t = true ∧ i ∈ ((cfg2.win 2).blk t).view.set) ↔ t.val = 8 * ((i 0).val / 8) + 7 := by
  rw [flush2_2, mem_blk2_2_iff]
  have ht : t.val < 32 := (pt2 t).isLt
  omega

/-- An index of the scores-shaped result is in the update call's result block at point `t` iff, on each axis, it
    is in the block's range. -/
theorem mem_blk3_2 (t : Fin cfg3.N) (i : S32x2048x601.Idx) :
    i ∈ ((cfg3.win 2).blk t).view.set ↔ ∀ a : Fin 3, win3_2.index t a * S8x256x601.size a ≤ (i a).val ∧ (i a).val < win3_2.index t a * S8x256x601.size a + S8x256x601.size a := by
  show i ∈ ((View.whole main_v8).slice (win3_2.rect t)).set ↔ _
  rw [View.set_slice_whole, Rect.mem_set_unit]
  exact Iff.rfl

/-- … that is, iff its image and its proposal lie in the point's tiles. -/
theorem mem_blk3_2_iff (t : Fin cfg3.N) (i : S32x2048x601.Idx) :
    i ∈ ((cfg3.win 2).blk t).view.set ↔ (i 0).val / 8 = t.val / 8 ∧ (i 1).val / 256 = t.val % 8 := by
  rw [mem_blk3_2]
  obtain ⟨-, -, ⟨e0, e1, e2⟩⟩ := idx3 t
  have h2 : (i 2).val < 601 := (i 2).isLt
  constructor
  · intro h
    have b0 : win3_2.index t (0 : Fin 3) * 8 ≤ (i 0).val ∧ (i 0).val < win3_2.index t (0 : Fin 3) * 8 + 8 := h 0
    have b1 : win3_2.index t (1 : Fin 3) * 256 ≤ (i 1).val ∧ (i 1).val < win3_2.index t (1 : Fin 3) * 256 + 256 := h 1
    omega
  · intro h a
    match a with
    | ⟨0, _⟩ => show win3_2.index t (0 : Fin 3) * 8 ≤ (i 0).val ∧ (i 0).val < win3_2.index t (0 : Fin 3) * 8 + 8; omega
    | ⟨1, _⟩ => show win3_2.index t (1 : Fin 3) * 256 ≤ (i 1).val ∧ (i 1).val < win3_2.index t (1 : Fin 3) * 256 + 256; omega
    | ⟨2, _⟩ => show win3_2.index t (2 : Fin 3) * 601 ≤ (i 2).val ∧ (i 2).val < win3_2.index t (2 : Fin 3) * 601 + 601; omega

/-- The point whose tiles hold image `r` and proposal `p`. -/
def ptOf3 (r : Fin 32) (p : Fin 2048) : Fin cfg3.N := ⟨8 * (r.val / 8) + p.val / 256, by rw [show cfg3.N = 32 from N_3]; omega⟩

@[simp] theorem ptOf3_val (r : Fin 32) (p : Fin 2048) : (ptOf3 r p).val = 8 * (r.val / 8) + p.val / 256 := rfl

/-- Every index of the update call's result is in the result block of a point (every point writes back): the
    point of its image's and its proposal's tiles. -/
theorem cover3_2 (i : S32x2048x601.Idx) :
    ∃ t : Fin cfg3.N, (cfg3.win 2).flush t = true ∧ i ∈ ((cfg3.win 2).blk t).view.set := by
  have h0 : (i 0).val < 32 := (i 0).isLt
  have h1 : (i 1).val < 2048 := (i 1).isLt
  refine ⟨ptOf3 ⟨(i 0).val, h0⟩ ⟨(i 1).val, h1⟩, flush3_2 _, (mem_blk3_2_iff _ i).mpr ⟨?_, ?_⟩⟩
  · show (i 0).val / 8 = (8 * ((i 0).val / 8) + (i 1).val / 256) / 8; omega
  · show (i 1).val / 256 = (8 * ((i 0).val / 8) + (i 1).val / 256) % 8; omega

/-- The one point whose result block holds a given index of the update call's result. -/
theorem mem_blk3_2_iff_pt (t : Fin cfg3.N) (i : S32x2048x601.Idx) :
    i ∈ ((cfg3.win 2).blk t).view.set ↔ t.val = 8 * ((i 0).val / 8) + (i 1).val / 256 := by
  rw [mem_blk3_2_iff]
  have ht : t.val < 32 := (pt3 t).isLt
  have h1 : (i 1).val < 2048 := (i 1).isLt
  omega

end Cert.KernelIdeal.Frame

end
-- ==== Proof.KI.Red2Value.lean ====
/-
  The reduce call (custom_call 2) at the exact instance: what it leaves in its result array.

  With q the scores and M the compatibility matrix as the region finds them: after the point of image tile b
  and proposal tile k the carried buffer holds the running maximum of the tiles' softmax maxima over proposal
  tiles 0 … k of image tile b; at k = 7 the output block is that maximum times M, which is rows 8b … 8b+7 of
  the specification's pairwise term; the eight-point runs' blocks tile the result, so the result array ends
  at the pairwise term of q and M.
-/
import proofs.«121405_j17162689315290_1_alg».proof.Proof.KI.Red2Pieces
import proofs.«121405_j17162689315290_1_alg».proof.Proof.KI.Blocks2
import proofs.«121405_j17162689315290_1_alg».proof.Proof.RedMath
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

/-- This call's arithmetic is the first reduce call's: its loaded block of scores only passes through an identity
    cast first. -/
theorem pay2_2 (v : Vec Ideal S8x256x601 .f32) (w : Vec Ideal S8x601 .f32) : k2_pay2 v w = k0_pay2 v w := by
  unfold k2_pay2 k0_pay2; simp only [shapeCast_self]
theorem pay2_3 (v : Vec Ideal S8x601 .f32) (w : Vec Ideal S601x601 .f32) : k2_pay3 v w = k0_pay3 v w := by
  unfold k2_pay3 k0_pay3; rfl
theorem pay2_1 : k2_pay1 (F := Ideal) = k0_pay1 := by unfold k2_pay1 k0_pay1; rfl

/-- The scores' block at the point 8·b + k is tile (b, k) of the scores. -/
theorem iblk2_0_tile (c : Dev nD) (n : ℕ) (hn : n < cfg2.N) (b : Fin 4) (k : Fin 8) (h : n = 8 * b.val + k.val) :
    (iblk2 V c 0 ⟨n, hn⟩ : Vec Ideal S8x256x601 .f32) = RedMath.tile (V c (Pipeline.arrRef spec2 0)) b k := by
  unfold iblk2
  rw [blk2_0_read, tileOf_ideal]
  have hb : bOf (pt2 ⟨n, hn⟩) = b := Fin.ext (by simp only [bOf_val, pt2_val]; omega)
  have hk : nOf (pt2 ⟨n, hn⟩) = k := Fin.ext (by simp only [nOf_val, pt2_val]; omega)
  rw [hb, hk]

/-- The matrix's block is the matrix. -/
theorem iblk2_1_whole (c : Dev nD) (t : Fin cfg2.N) :
    (iblk2 V c 1 t : Vec Ideal S601x601 .f32) = V c (Pipeline.arrRef spec2 1) := by
  unfold iblk2; exact blk2_1_read _ t

/-- The accumulation in closed form: after point 8·b + k the carried buffer holds the running maximum over proposal tiles 0 … k. -/
theorem carried2_eq (c : Dev nD) (b : Fin 4) : ∀ (k : ℕ) (hk : k < 8) (n : ℕ) (hn : n < cfg2.N), n = 8 * b.val + k →
    (outsAt2 V c n hn).2 = RedMath.runMax (V c (Pipeline.arrRef spec2 0)) b k := by
  intro k
  induction k with
  | zero =>
    intro hk n hn h
    have h0 : (⟨n, hn⟩ : Fin cfg2.N).val % 8 = 0 := by simp only; omega
    have h1 : ¬(⟨n, hn⟩ : Fin cfg2.N).val % 8 = 7 := by simp only; omega
    have e := outsAt2_A V c ⟨n, hn⟩ h0 h1
    simp only at e
    rw [e]
    simp only [sout2_A_0_eq, pay2_2, pay2_1]
    rw [iblk2_0_tile V c n hn b ⟨0, by omega⟩ (by simpa using h), RedMath.runMax_zero]
    rfl
  | succ k ih =>
    intro hk n hn h
    have hprev := ih (by omega) (n - 1) (by omega) (by omega)
    have h0 : ¬(⟨n, hn⟩ : Fin cfg2.N).val % 8 = 0 := by simp only; omega
    have hsucc : RedMath.runMax (V c (Pipeline.arrRef spec2 0)) b (k + 1)
        = k0_pay2 (RedMath.tile (V c (Pipeline.arrRef spec2 0)) b ⟨k + 1, hk⟩) (RedMath.runMax (V c (Pipeline.arrRef spec2 0)) b k) := by
      rw [RedMath.runMax_succ]
      congr 2
      exact Fin.ext (Nat.mod_eq_of_lt hk)
    by_cases h1 : (⟨n, hn⟩ : Fin cfg2.N).val % 8 = 7
    · have e := outsAt2_C V c ⟨n, hn⟩ h0 h1
      simp only at e
      rw [e]
      simp only [sout2_C_0_eq, pay2_2]
      rw [iblk2_0_tile V c n hn b ⟨k + 1, hk⟩ (by simpa using h), hprev, hsucc]
    · have e := outsAt2_B V c ⟨n, hn⟩ h0 h1
      simp only at e
      rw [e]
      simp only [sout2_B_0_eq, pay2_2]
      rw [iblk2_0_tile V c n hn b ⟨k + 1, hk⟩ (by simpa using h), hprev, hsucc]

/-- At the last proposal tile of image tile b the output block holds rows 8b … 8b+7 of the pairwise term. -/
theorem outBlock2_eq (c : Dev nD) (b : Fin 4) (n : ℕ) (hn : n < cfg2.N) (h : n = 8 * b.val + 7) :
    (outsAt2 V c n hn).1 = RedMath.rows (Cert.ReferenceIdeal.Crf.pairwise (V c (Pipeline.arrRef spec2 0)) (V c (Pipeline.arrRef spec2 1))) b := by
  have h0 : ¬(⟨n, hn⟩ : Fin cfg2.N).val % 8 = 0 := by simp only; omega
  have h1 : (⟨n, hn⟩ : Fin cfg2.N).val % 8 = 7 := by simp only; omega
  have hprev := carried2_eq V c b 6 (by omega) (n - 1) (by omega) (by omega)
  have e := outsAt2_C V c ⟨n, hn⟩ h0 h1
  simp only at e
  rw [e]
  simp only [out2_C_2_eq, pay2_2, pay2_3]
  rw [iblk2_0_tile V c n hn b ⟨7, by omega⟩ (by simpa using h), iblk2_1_whole, hprev]
  have hsucc : k0_pay2 (RedMath.tile (V c (Pipeline.arrRef spec2 0)) b ⟨7, by omega⟩) (RedMath.runMax (V c (Pipeline.arrRef spec2 0)) b 6)
      = RedMath.runMax (V c (Pipeline.arrRef spec2 0)) b 7 := rfl
  rw [hsucc]
  exact RedMath.reduce_rows (V c (Pipeline.arrRef spec2 0)) (V c (Pipeline.arrRef spec2 1)) b

/-- The result array after the region: the pairwise term of the scores and the matrix as the region finds them. -/
theorem final2 (c : Dev nD) :
    ((dat2 V c).arrAt 2 cfg2.N : S32x601.Idx → Elt Ideal .f32) = Cert.ReferenceIdeal.Crf.pairwise (F := Ideal) (V c (Pipeline.arrRef spec2 0)) (V c (Pipeline.arrRef spec2 1)) := by
  refine (dat2 V c).arrAt_eq_of_cover 2 (Cert.ReferenceIdeal.Crf.pairwise (F := Ideal) (V c (Pipeline.arrRef spec2 0)) (V c (Pipeline.arrRef spec2 1))) (fun t hf => ?_) cover2_2
  have h7 : t.val % 8 = 7 := (flush2_2 t).mp hf
  have hN : t.val < 32 := lt_of_lt_of_eq t.isLt (show cfg2.N = 32 from N_2)
  rw [blk2_2_read, rowsOf_ideal]
  show (dat2 V c).after 2 t = _
  rw [after2_2]
  have hb : bOf (pt2 t) = ⟨t.val / 8, by omega⟩ := Fin.ext (by simp only [bOf_val, pt2_val])
  rw [hb]
  exact outBlock2_eq V c ⟨t.val / 8, by omega⟩ t.val t.isLt (by simp only; omega)

end Cert.KernelIdeal.Frame

end
-- ==== Proof.KI.Upd3Value.lean ====
/-
  The value of the update step's region (custom_call 3): after its 32 grid points the output array holds, at
  every index (image, proposal, class), the unary score there minus the scaled pairwise term of that image and
  class — one whole-array function of the two input arrays as the region finds them, at any float instance.
-/
import proofs.«121405_j17162689315290_1_alg».proof.Proof.KI.Upd3
import proofs.«121405_j17162689315290_1_alg».proof.Proof.KI.Upd1Value
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The body's stored value at an index -/

/-- The stored block at (image, proposal, class) is the scores' block there minus the pairwise block at (image, class):
    the cast to the same shape is the identity, the cast that inserts a unit axis keeps the row-major position
    (image · 601 + class on both sides), and the broadcast along the unit axis reads coordinate 0 there. -/
theorem pay3_apply (x1 : Vec F S8x601 .f32) (x0 : Vec F S8x256x601 .f32) (j : S8x256x601.Idx) :
    k3_pay1 x1 x0 j = FloatOps.subf (x0 j) (x1 (ix2 (j 0) (j 2))) := by
  unfold k3_pay1
  show FloatOps.subf (x0 j) (broadcastTo S8x256x601 (shapeCast S8x1x601 (shapeCast S8x601 x1 shapeCasts_S8x601_S8x601) shapeCasts_S8x601_S8x1x601) broadcasts_S8x1x601_S8x256x601 j) = _
  congr 1
  rw [shapeCast_self]
  refine (broadcastTo_apply (s := S8x1x601) (t := S8x256x601) _ broadcasts_S8x1x601_S8x256x601 j (ix3 (j 0) (0 : Fin 1) (j 2)) (fun a => by
    match a with
    | ⟨0, _⟩ => rfl
    | ⟨1, _⟩ => rfl
    | ⟨2, _⟩ => rfl)).trans ?_
  refine shapeCast_apply (s := S8x601) (t := S8x1x601) x1 shapeCasts_S8x601_S8x1x601 (ix3 (j 0) (0 : Fin 1) (j 2)) (ix2 (j 0) (j 2)) ?_
  rw [Shape.rowMajor_val_two, Shape.rowMajor_val_three]
  show (j 0).val * 601 + (j 2).val = ((j 0).val * 1 + 0) * 601 + (j 2).val
  omega

/-! ## The windows' block indices over the grid -/

/-- Decided over the 32 points: the scores' window moves with the output's on every axis; the pairwise window follows
    the output's image tile and stays at class block 0; the output's block index is (image tile ≤ 3, proposal tile
    ≤ 7, 0). -/
theorem idx_facts3 : ∀ t : Fin cfg3.N,
    win3_0.index t (0 : Fin 3) = win3_2.index t (0 : Fin 3)
    ∧ win3_0.index t (1 : Fin 3) = win3_2.index t (1 : Fin 3)
    ∧ win3_0.index t (2 : Fin 3) = win3_2.index t (2 : Fin 3)
    ∧ win3_1.index t (0 : Fin 2) = win3_2.index t (0 : Fin 3)
    ∧ win3_1.index t (1 : Fin 2) = 0
    ∧ win3_2.index t (0 : Fin 3) ≤ 3
    ∧ win3_2.index t (1 : Fin 3) ≤ 7
    ∧ win3_2.index t (2 : Fin 3) = 0 :=
  (by decide +kernel : ∀ t : Fin grid3.N, _)

/-- Every (image tile, proposal tile) is some point's output block. -/
theorem idx_onto3 : ∀ (q0 : Fin 4) (q1 : Fin 8), ∃ t : Fin cfg3.N, win3_2.index t = ![q0.val, q1.val, 0] :=
  (by decide +kernel : ∀ (q0 : Fin 4) (q1 : Fin 8), ∃ t : Fin grid3.N, win3_2.index t = ![q0.val, q1.val, 0])

/-! ## What a point writes back -/

/-- Point `t` writes back block `t` of `G1` of the two input arrays: a block's coordinate on an axis is its block
    index times the block's extent plus the coordinate inside the block, so by the decided relations the scores' block
    is read where the output's block lies, and the pairwise block at that image and class. -/
theorem flushed3_eq (c : Dev nD) (t : Fin cfg3.N) :
    (dat3 V c).flushed 2 t = ((cfg3.win 2).blk t).view.read (Elt F) (G1 (V c main_arg0) (V c main_v7)) := by
  show (cfg3.win 2).cut (grid3.coords t) ((dat3 V c).after 2 t) = _
  rw [after3_2]
  obtain ⟨e0, e1, e2, e3, e4, e5, e6, e7⟩ := idx_facts3 t
  funext j
  refine (pay3_apply (iblk3 V c 1 t) (iblk3 V c 0 t) j).trans ?_
  show FloatOps.subf (V c main_arg0 (((cfg3.win 0).blk t).view.emb j)) (V c main_v7 (((cfg3.win 1).blk t).view.emb (ix2 (j 0) (j 2))))
    = FloatOps.subf (V c main_arg0 (((cfg3.win 2).blk t).view.emb j))
        (V c main_v7 (ix2 ((((cfg3.win 2).blk t).view.emb j) 0) ((((cfg3.win 2).blk t).view.emb j) 2)))
  have h0 : ((cfg3.win 0).blk t).view.emb j = ((cfg3.win 2).blk t).view.emb j := by
    funext a; apply Fin.ext
    match a with
    | ⟨0, _⟩ => show win3_0.index t (0 : Fin 3) * 8 + 1 * (j 0).val = win3_2.index t (0 : Fin 3) * 8 + 1 * (j 0).val; omega
    | ⟨1, _⟩ => show win3_0.index t (1 : Fin 3) * 256 + 1 * (j 1).val = win3_2.index t (1 : Fin 3) * 256 + 1 * (j 1).val; omega
    | ⟨2, _⟩ => show win3_0.index t (2 : Fin 3) * 601 + 1 * (j 2).val = win3_2.index t (2 : Fin 3) * 601 + 1 * (j 2).val; omega
  have h1 : ((cfg3.win 1).blk t).view.emb (ix2 (j 0) (j 2))
      = ix2 ((((cfg3.win 2).blk t).view.emb j) 0) ((((cfg3.win 2).blk t).view.emb j) 2) := by
    funext a; apply Fin.ext
    match a with
    | ⟨0, _⟩ => show win3_1.index t (0 : Fin 2) * 8 + 1 * (j 0).val = win3_2.index t (0 : Fin 3) * 8 + 1 * (j 0).val; omega
    | ⟨1, _⟩ => show win3_1.index t (1 : Fin 2) * 601 + 1 * (j 2).val = win3_2.index t (2 : Fin 3) * 601 + 1 * (j 2).val; omega
  rw [h0, h1]
  rfl

/-! ## The output's blocks tile its array -/

/-- An index of the output array is in point `t`'s block iff each coordinate is in the block's range on its axis. -/
theorem mem_blk3 (t : Fin cfg3.N) (i : S32x2048x601.Idx) :
    i ∈ ((cfg3.win 2).blk t).view.set ↔ ∀ a : Fin 3, win3_2.index t a * S8x256x601.size a ≤ (i a).val ∧ (i a).val < win3_2.index t a * S8x256x601.size a + S8x256x601.size a := by
  show i ∈ ((View.whole main_v8).slice (win3_2.rect t)).set ↔ _
  rw [View.set_slice_whole, Rect.mem_set_unit]
  exact Iff.rfl

/-- Every index is in the block of the point whose output block is (image / 8, proposal / 256, 0), and every point
    writes its block back. -/
theorem covered3 (i : S32x2048x601.Idx) :
    ∃ t : Fin cfg3.N, (cfg3.win 2).flush t = true ∧ i ∈ ((cfg3.win 2).blk t).view.set := by
  have hi0 : (i 0).val < 32 := (i 0).isLt
  have hi1 : (i 1).val < 2048 := (i 1).isLt
  have hi2 : (i 2).val < 601 := (i 2).isLt
  obtain ⟨t, ht⟩ := idx_onto3 ⟨(i 0).val / 8, by omega⟩ ⟨(i 1).val / 256, by omega⟩
  have q0 : win3_2.index t (0 : Fin 3) = (i 0).val / 8 := congrFun ht 0
  have q1 : win3_2.index t (1 : Fin 3) = (i 1).val / 256 := congrFun ht 1
  have q2 : win3_2.index t (2 : Fin 3) = 0 := congrFun ht 2
  refine ⟨t, flush3_2 t, ?_⟩
  rw [mem_blk3]
  intro a
  match a with
  | ⟨0, _⟩ => show win3_2.index t (0 : Fin 3) * 8 ≤ (i 0).val ∧ (i 0).val < win3_2.index t (0 : Fin 3) * 8 + 8; omega
  | ⟨1, _⟩ => show win3_2.index t (1 : Fin 3) * 256 ≤ (i 1).val ∧ (i 1).val < win3_2.index t (1 : Fin 3) * 256 + 256; omega
  | ⟨2, _⟩ => show win3_2.index t (2 : Fin 3) * 601 ≤ (i 2).val ∧ (i 2).val < win3_2.index t (2 : Fin 3) * 601 + 601; omega

/-! ## The array after the region -/

/-- After the last point the output array is `G1` of the unary scores and the scaled pairwise array as the region
    found them. -/
theorem final3 (c : Dev nD) : (dat3 V c).arrAt 2 cfg3.N = G1 (V c main_arg0) (V c main_v7) :=
  (dat3 V c).arrAt_eq_of_cover 2 (G1 (V c main_arg0) (V c main_v7)) (fun t _ => flushed3_eq V c t) covered3

end Cert.KernelIdeal.Frame
-- ==== Proof.KI.Red4Pieces.lean ====
/-
  The reduce call (custom_call 4): the contents each kind of grid point leaves, as the body's arithmetic.
  The stores are of whole buffers, so what is read back after them is the last store's payload; a load
  that follows a store of the same buffer reads that store's payload.
-/
import proofs.«121405_j17162689315290_1_alg».proof.Proof.KI.Red4
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces are: the payloads -/

theorem hz4_2 : (![0, 0] : Fin 2 → Nat) = fun _ => 0 := by funext a; fin_cases a <;> rfl
theorem hz4_3 : (![0, 0, 0] : Fin 3 → Nat) = fun _ => 0 := by funext a; fin_cases a <;> rfl

/-- After a first proposal tile the carried buffer holds the tile's maximum folded into the reset value. -/
theorem sout4_A_0_eq (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond4_0 i) (hc1 : ¬cond4_1 i) (x0 : Vec F S8x256x601 .f32) :
    sout4_A_0 c i arg2 harg2 arg3 harg3 arg4 harg4 arg5 harg5 hc0 hc1 x0 = k4_pay2 x0 (k4_pay1 (F := F)) := by
  unfold sout4_A_0
  rw [View.read_writes_eq_canon _ _ _ (scover4_A_0 c i arg2 harg2 arg3 harg3 arg4 harg4 arg5 harg5 hc0 hc1 x0)]
  unfold kernelRun4_A
  dsimp only
  sl_unfold_words
  rw [View.canon_cons_unit_zero hz4_2]
  simp only [View.readAt_eq_ld, harg2.read_unread, View.ld_unit_zero (S := S8x256x601) hz4_3]
  exact congrArg (k4_pay2 x0) (View.readCov_unit_zero (S := S8x601) arg5.view hz4_2 _ _)

/-- After an inner tile: the tile's maximum folded into what the point before left. -/
theorem sout4_B_0_eq (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : ¬cond4_1 i) (x0 : Vec F S8x256x601 .f32) (xs0 : Vec F S8x601 .f32) :
    sout4_B_0 c i arg2 harg2 arg3 harg3 arg4 harg4 arg5 harg5 hc0 hc1 x0 xs0 = k4_pay2 x0 xs0 := by
  unfold sout4_B_0
  rw [View.read_writes_eq_canon _ _ _ (scover4_B_0 c i arg2 harg2 arg3 harg3 arg4 harg4 arg5 harg5 hc0 hc1 x0 xs0)]
  unfold kernelRun4_B
  dsimp only
  sl_unfold_words
  rw [View.canon_unit_zero hz4_2]
  simp only [View.readAt_eq_ld, harg2.read_unread, harg5.read_unread, View.ld_unit_zero (S := S8x256x601) hz4_3, View.ld_unit_zero (S := S8x601) hz4_2]
  try rfl

/-- After a last tile the carried buffer likewise, -/
theorem sout4_C_0_eq (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i) (x0 : Vec F S8x256x601 .f32) (x1 : Vec F S601x601 .f32) (xs0 : Vec F S8x601 .f32) :
    sout4_C_0 c i arg2 harg2 arg3 harg3 arg4 harg4 arg5 harg5 hc0 hc1 x0 x1 xs0 = k4_pay2 x0 xs0 := by
  unfold sout4_C_0
  rw [View.read_writes_eq_canon _ _ _ (scover4_C_0 c i arg2 harg2 arg3 harg3 arg4 harg4 arg5 harg5 hc0 hc1 x0 x1 xs0)]
  unfold kernelRun4_C
  dsimp only
  sl_unfold_words
  rw [View.canon_unit_zero hz4_2]
  simp only [View.readAt_eq_ld, harg2.read_unread, harg5.read_unread, View.ld_unit_zero (S := S8x256x601) hz4_3, View.ld_unit_zero (S := S8x601) hz4_2]
  try rfl

/-- and the output block holds that maximum times the matrix's block. -/
theorem out4_C_2_eq (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i) (x0 : Vec F S8x256x601 .f32) (x1 : Vec F S601x601 .f32) (xs0 : Vec F S8x601 .f32) :
    out4_C_2 c i arg2 harg2 arg3 harg3 arg4 harg4 arg5 harg5 hc0 hc1 x0 x1 xs0 = k4_pay3 (k4_pay2 x0 xs0) x1 := by
  unfold out4_C_2
  rw [View.read_writes_eq_canon _ _ _ (cover4_C_2 c i arg2 harg2 arg3 harg3 arg4 harg4 arg5 harg5 hc0 hc1 x0 x1 xs0)]
  unfold kernelRun4_C
  dsimp only
  sl_unfold_words
  rw [View.canon_unit_zero hz4_2]
  simp only [View.readAt_eq_ld, harg2.read_unread, harg3.read_unread, harg5.read_unread, View.ld_unit_zero (S := S8x256x601) hz4_3, View.ld_unit_zero (S := S601x601) hz4_2, View.ld_unit_zero (S := S8x601) hz4_2]
  exact congrArg (fun z => k4_pay3 z x1) (View.readCov_unit_zero (S := S8x601) arg5.view hz4_2 _ _)

end Cert.KernelIdeal.Frame

end
-- ==== Proof.KI.Blocks4.lean ====
/-
  The blocks of the reduce call 4 and the update call 5 as tiles of their whole arrays, and which grid points'
  result blocks hold a given index: the same facts as for calls 0 and 1, for this pair's windows.
-/
import proofs.«121405_j17162689315290_1_alg».proof.Proof.KI.Blocks

noncomputable section

namespace Cert.KernelIdeal.Frame

open Cert.KernelIdeal Cert.KernelIdeal.Gen Idealize.ShloMosaic Idealize.ShloMosaic.ValueIdx

variable {F : FTy → Type} [FloatOps F]

/-- A point of the reduce call's grid as a number below 32, and likewise for the update call. -/
abbrev pt4 (t : Fin cfg4.N) : Fin 32 := t.cast N_4
abbrev pt5 (t : Fin cfg5.N) : Fin 32 := t.cast N_5

@[simp] theorem pt4_val (t : Fin cfg4.N) : (pt4 t).val = t.val := rfl
@[simp] theorem pt5_val (t : Fin cfg5.N) : (pt5 t).val = t.val := rfl

/-! ## The printed index maps, decided once over the grid -/

/-- The reduce call: scores at block (t / 8, t % 8, 0), the matrix at block (0, 0), the result at block (t / 8, 0). -/
theorem idx4 : ∀ t : Fin cfg4.N,
    (win4_0.index t (0 : Fin 3) = t.val / 8 ∧ win4_0.index t (1 : Fin 3) = t.val % 8 ∧ win4_0.index t (2 : Fin 3) = 0)
    ∧ (win4_1.index t (0 : Fin 2) = 0 ∧ win4_1.index t (1 : Fin 2) = 0)
    ∧ (win4_2.index t (0 : Fin 2) = t.val / 8 ∧ win4_2.index t (1 : Fin 2) = 0) :=
  (by decide +kernel : ∀ t : Fin grid4.N, _)

/-- The update call: unaries and result at block (t / 8, t % 8, 0), the per-image rows at block (t / 8, 0). -/
theorem idx5 : ∀ t : Fin cfg5.N,
    (win5_0.index t (0 : Fin 3) = t.val / 8 ∧ win5_0.index t (1 : Fin 3) = t.val % 8 ∧ win5_0.index t (2 : Fin 3) = 0)
    ∧ (win5_1.index t (0 : Fin 2) = t.val / 8 ∧ win5_1.index t (1 : Fin 2) = 0)
    ∧ (win5_2.index t (0 : Fin 3) = t.val / 8 ∧ win5_2.index t (1 : Fin 3) = t.val % 8 ∧ win5_2.index t (2 : Fin 3) = 0) :=
  (by decide +kernel : ∀ t : Fin grid5.N, _)

/-! ## Each block, read off its whole array -/

/-- The reduce call's block of scores at point `t` is the tile at image tile `t / 8`, proposal tile `t % 8`. -/
theorem blk4_0_read (A : FVec F S32x2048x601 .f32) (t : Fin cfg4.N) :
    (((cfg4.win 0).blk t).view.read (Elt F) A : Vec F S8x256x601 .f32) = tileOf A (bOf (pt4 t)) (nOf (pt4 t)) := by
  obtain ⟨⟨e0, e1, e2⟩, -, -⟩ := idx4 t
  funext y
  rw [View.read_apply]
  show A (((cfg4.win 0).blk t).view.emb y) = A _
  congr 1
  funext a
  apply Fin.ext
  match a with
  | ⟨0, _⟩ => show win4_0.index t (0 : Fin 3) * 8 + 1 * (y 0).val = 8 * (t.val / 8) + (y 0).val; omega
  | ⟨1, _⟩ => show win4_0.index t (1 : Fin 3) * 256 + 1 * (y 1).val = 256 * (t.val % 8) + (y 1).val; omega
  | ⟨2, _⟩ => show win4_0.index t (2 : Fin 3) * 601 + 1 * (y 2).val = (y 2).val; omega

/-- The reduce call's one block of the compatibility matrix is the matrix. -/
theorem blk4_1_read (A : FVec F S601x601 .f32) (t : Fin cfg4.N) :
    (((cfg4.win 1).blk t).view.read (Elt F) A : Vec F S601x601 .f32) = A := by
  obtain ⟨-, ⟨e0, e1⟩, -⟩ := idx4 t
  funext y
  rw [View.read_apply]
  show A (((cfg4.win 1).blk t).view.emb y) = A y
  congr 1
  funext a
  apply Fin.ext
  match a with
  | ⟨0, _⟩ => show win4_1.index t (0 : Fin 2) * 601 + 1 * (y 0).val = (y 0).val; omega
  | ⟨1, _⟩ => show win4_1.index t (1 : Fin 2) * 601 + 1 * (y 1).val = (y 1).val; omega

/-- The reduce call's result block at point `t` is rows `8·(t / 8) …` of the per-image array. -/
theorem blk4_2_read (X : FVec F S32x601 .f32) (t : Fin cfg4.N) :
    (((cfg4.win 2).blk t).view.read (Elt F) X : Vec F S8x601 .f32) = rowsOf X (bOf (pt4 t)) := by
  obtain ⟨-, -, ⟨e0, e1⟩⟩ := idx4 t
  funext y
  rw [View.read_apply]
  show X (((cfg4.win 2).blk t).view.emb y) = X _
  congr 1
  funext a
  apply Fin.ext
  match a with
  | ⟨0, _⟩ => show win4_2.index t (0 : Fin 2) * 8 + 1 * (y 0).val = 8 * (t.val / 8) + (y 0).val; omega
  | ⟨1, _⟩ => show win4_2.index t (1 : Fin 2) * 601 + 1 * (y 1).val = (y 1).val; omega

/-- The update call's block of unaries at point `t` is the tile at image tile `t / 8`, proposal tile `t % 8`. -/
theorem blk5_0_read (A : FVec F S32x2048x601 .f32) (t : Fin cfg5.N) :
    (((cfg5.win 0).blk t).view.read (Elt F) A : Vec F S8x256x601 .f32) = tileOf A (bOf (pt5 t)) (nOf (pt5 t)) := by
  obtain ⟨⟨e0, e1, e2⟩, -, -⟩ := idx5 t
  funext y
  rw [View.read_apply]
  show A (((cfg5.win 0).blk t).view.emb y) = A _
  congr 1
  funext a
  apply Fin.ext
  match a with
  | ⟨0, _⟩ => show win5_0.index t (0 : Fin 3) * 8 + 1 * (y 0).val = 8 * (t.val / 8) + (y 0).val; omega
  | ⟨1, _⟩ => show win5_0.index t (1 : Fin 3) * 256 + 1 * (y 1).val = 256 * (t.val % 8) + (y 1).val; omega
  | ⟨2, _⟩ => show win5_0.index t (2 : Fin 3) * 601 + 1 * (y 2).val = (y 2).val; omega

/-- The update call's block of the per-image array at point `t` is its rows `8·(t / 8) …`. -/
theorem blk5_1_read (X : FVec F S32x601 .f32) (t : Fin cfg5.N) :
    (((cfg5.win 1).blk t).view.read (Elt F) X : Vec F S8x601 .f32) = rowsOf X (bOf (pt5 t)) := by
  obtain ⟨-, ⟨e0, e1⟩, -⟩ := idx5 t
  funext y
  rw [View.read_apply]
  show X (((cfg5.win 1).blk t).view.emb y) = X _
  congr 1
  funext a
  apply Fin.ext
  match a with
  | ⟨0, _⟩ => show win5_1.index t (0 : Fin 2) * 8 + 1 * (y 0).val = 8 * (t.val / 8) + (y 0).val; omega
  | ⟨1, _⟩ => show win5_1.index t (1 : Fin 2) * 601 + 1 * (y 1).val = (y 1).val; omega

/-- The update call's result block at point `t` is the tile at image tile `t / 8`, proposal tile `t % 8`. -/
theorem blk5_2_read (A : FVec F S32x2048x601 .f32) (t : Fin cfg5.N) :
    (((cfg5.win 2).blk t).view.read (Elt F) A : Vec F S8x256x601 .f32) = tileOf A (bOf (pt5 t)) (nOf (pt5 t)) := by
  obtain ⟨-, -, ⟨e0, e1, e2⟩⟩ := idx5 t
  funext y
  rw [View.read_apply]
  show A (((cfg5.win 2).blk t).view.emb y) = A _
  congr 1
  funext a
  apply Fin.ext
  match a with
  | ⟨0, _⟩ => show win5_2.index t (0 : Fin 3) * 8 + 1 * (y 0).val = 8 * (t.val / 8) + (y 0).val; omega
  | ⟨1, _⟩ => show win5_2.index t (1 : Fin 3) * 256 + 1 * (y 1).val = 256 * (t.val % 8) + (y 1).val; omega
  | ⟨2, _⟩ => show win5_2.index t (2 : Fin 3) * 601 + 1 * (y 2).val = (y 2).val; omega

/-! ## Which points' result blocks hold a given index -/

/-- An index of the per-image array is in the reduce call's result block at point `t` iff, on each axis, it is
    in the block's range. -/
theorem mem_blk4_2 (t : Fin cfg4.N) (i : S32x601.Idx) :
    i ∈ ((cfg4.win 2).blk t).view.set ↔ ∀ a : Fin 2, win4_2.index t a * S8x601.size a ≤ (i a).val ∧ (i a).val < win4_2.index t a * S8x601.size a + S8x601.size a := by
  show i ∈ ((View.whole main_v9).slice (win4_2.rect t)).set ↔ _
  rw [View.set_slice_whole, Rect.mem_set_unit]
  exact Iff.rfl

/-- … that is, iff its image lies in the point's image tile. -/
theorem mem_blk4_2_iff (t : Fin cfg4.N) (i : S32x601.Idx) :
    i ∈ ((cfg4.win 2).blk t).view.set ↔ (i 0).val / 8 = t.val / 8 := by
  rw [mem_blk4_2]
  obtain ⟨-, -, ⟨e0, e1⟩⟩ := idx4 t
  have h1 : (i 1).val < 601 := (i 1).isLt
  constructor
  · intro h
    have b0 : win4_2.index t (0 : Fin 2) * 8 ≤ (i 0).val ∧ (i 0).val < win4_2.index t (0 : Fin 2) * 8 + 8 := h 0
    omega
  · intro h a
    match a with
    | ⟨0, _⟩ => show win4_2.index t (0 : Fin 2) * 8 ≤ (i 0).val ∧ (i 0).val < win4_2.index t (0 : Fin 2) * 8 + 8; omega
    | ⟨1, _⟩ => show win4_2.index t (1 : Fin 2) * 601 ≤ (i 1).val ∧ (i 1).val < win4_2.index t (1 : Fin 2) * 601 + 601; omega

/-- The point that writes back the rows of image `r`: the last proposal tile of image tile `r / 8`. -/
def lastPt4 (r : Fin 32) : Fin cfg4.N := ⟨8 * (r.val / 8) + 7, by rw [show cfg4.N = 32 from N_4]; omega⟩

@[simp] theorem lastPt4_val (r : Fin 32) : (lastPt4 r).val = 8 * (r.val / 8) + 7 := rfl

/-- Every index of the per-image array is in the result block of a point that writes it back: the last
    proposal tile of its image's tile. -/
theorem cover4_2 (i : S32x601.Idx) :
    ∃ t : Fin cfg4.N, (cfg4.win 2).flush t = true ∧ i ∈ ((cfg4.win 2).blk t).view.set := by
  have h0 : (i 0).val < 32 := (i 0).isLt
  refine ⟨lastPt4 ⟨(i 0).val, h0⟩, (flush4_2 _).mpr ?_, (mem_blk4_2_iff _ i).mpr ?_⟩
  · show (8 * ((i 0).val / 8) + 7) % 8 = 7; omega
  · show (i 0).val / 8 = (8 * ((i 0).val / 8) + 7) / 8; omega

/-- The points that write the reduce call's result back and hold a given index are exactly the last proposal
    tile of its image's tile. -/
theorem flush_mem4_2_iff (t : Fin cfg4.N) (i : S32x601.Idx) :
    ((cfg4.win 2).flush t = true ∧ i ∈ ((cfg4.win 2).blk t).view.set) ↔ t.val = 8 * ((i 0).val / 8) + 7 := by
  rw [flush4_2, mem_blk4_2_iff]
  have ht : t.val < 32 := (pt4 t).isLt
  omega

/-- An index of the scores-shaped result is in the update call's result block at point `t` iff, on each axis, it
    is in the block's range. -/
theorem mem_blk5_2 (t : Fin cfg5.N) (i : S32x2048x601.Idx) :
    i ∈ ((cfg5.win 2).blk t).view.set ↔ ∀ a : Fin 3, win5_2.index t a * S8x256x601.size a ≤ (i a).val ∧ (i a).val < win5_2.index t a * S8x256x601.size a + S8x256x601.size a := by
  show i ∈ ((View.whole main_v12).slice (win5_2.rect t)).set ↔ _
  rw [View.set_slice_whole, Rect.mem_set_unit]
  exact Iff.rfl

/-- … that is, iff its image and its proposal lie in the point's tiles. -/
theorem mem_blk5_2_iff (t : Fin cfg5.N) (i : S32x2048x601.Idx) :
    i ∈ ((cfg5.win 2).blk t).view.set ↔ (i 0).val / 8 = t.val / 8 ∧ (i 1).val / 256 = t.val % 8 := by
  rw [mem_blk5_2]
  obtain ⟨-, -, ⟨e0, e1, e2⟩⟩ := idx5 t
  have h2 : (i 2).val < 601 := (i 2).isLt
  constructor
  · intro h
    have b0 : win5_2.index t (0 : Fin 3) * 8 ≤ (i 0).val ∧ (i 0).val < win5_2.index t (0 : Fin 3) * 8 + 8 := h 0
    have b1 : win5_2.index t (1 : Fin 3) * 256 ≤ (i 1).val ∧ (i 1).val < win5_2.index t (1 : Fin 3) * 256 + 256 := h 1
    omega
  · intro h a
    match a with
    | ⟨0, _⟩ => show win5_2.index t (0 : Fin 3) * 8 ≤ (i 0).val ∧ (i 0).val < win5_2.index t (0 : Fin 3) * 8 + 8; omega
    | ⟨1, _⟩ => show win5_2.index t (1 : Fin 3) * 256 ≤ (i 1).val ∧ (i 1).val < win5_2.index t (1 : Fin 3) * 256 + 256; omega
    | ⟨2, _⟩ => show win5_2.index t (2 : Fin 3) * 601 ≤ (i 2).val ∧ (i 2).val < win5_2.index t (2 : Fin 3) * 601 + 601; omega

/-- The point whose tiles hold image `r` and proposal `p`. -/
def ptOf5 (r : Fin 32) (p : Fin 2048) : Fin cfg5.N := ⟨8 * (r.val / 8) + p.val / 256, by rw [show cfg5.N = 32 from N_5]; omega⟩

@[simp] theorem ptOf5_val (r : Fin 32) (p : Fin 2048) : (ptOf5 r p).val = 8 * (r.val / 8) + p.val / 256 := rfl

/-- Every index of the update call's result is in the result block of a point (every point writes back): the
    point of its image's and its proposal's tiles. -/
theorem cover5_2 (i : S32x2048x601.Idx) :
    ∃ t : Fin cfg5.N, (cfg5.win 2).flush t = true ∧ i ∈ ((cfg5.win 2).blk t).view.set := by
  have h0 : (i 0).val < 32 := (i 0).isLt
  have h1 : (i 1).val < 2048 := (i 1).isLt
  refine ⟨ptOf5 ⟨(i 0).val, h0⟩ ⟨(i 1).val, h1⟩, flush5_2 _, (mem_blk5_2_iff _ i).mpr ⟨?_, ?_⟩⟩
  · show (i 0).val / 8 = (8 * ((i 0).val / 8) + (i 1).val / 256) / 8; omega
  · show (i 1).val / 256 = (8 * ((i 0).val / 8) + (i 1).val / 256) % 8; omega

/-- The one point whose result block holds a given index of the update call's result. -/
theorem mem_blk5_2_iff_pt (t : Fin cfg5.N) (i : S32x2048x601.Idx) :
    i ∈ ((cfg5.win 2).blk t).view.set ↔ t.val = 8 * ((i 0).val / 8) + (i 1).val / 256 := by
  rw [mem_blk5_2_iff]
  have ht : t.val < 32 := (pt5 t).isLt
  have h1 : (i 1).val < 2048 := (i 1).isLt
  omega

end Cert.KernelIdeal.Frame

end
-- ==== Proof.KI.Red4Value.lean ====
/-
  The reduce call (custom_call 4) at the exact instance: what it leaves in its result array.

  With q the scores and M the compatibility matrix as the region finds them: after the point of image tile b
  and proposal tile k the carried buffer holds the running maximum of the tiles' softmax maxima over proposal
  tiles 0 … k of image tile b; at k = 7 the output block is that maximum times M, which is rows 8b … 8b+7 of
  the specification's pairwise term; the eight-point runs' blocks tile the result, so the result array ends
  at the pairwise term of q and M.
-/
import proofs.«121405_j17162689315290_1_alg».proof.Proof.KI.Red4Pieces
import proofs.«121405_j17162689315290_1_alg».proof.Proof.KI.Blocks4
import proofs.«121405_j17162689315290_1_alg».proof.Proof.RedMath
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

/-- This call's arithmetic is the first reduce call's: its loaded block of scores only passes through an identity
    cast first. -/
theorem pay4_2 (v : Vec Ideal S8x256x601 .f32) (w : Vec Ideal S8x601 .f32) : k4_pay2 v w = k0_pay2 v w := by
  unfold k4_pay2 k0_pay2; simp only [shapeCast_self]
theorem pay4_3 (v : Vec Ideal S8x601 .f32) (w : Vec Ideal S601x601 .f32) : k4_pay3 v w = k0_pay3 v w := by
  unfold k4_pay3 k0_pay3; rfl
theorem pay4_1 : k4_pay1 (F := Ideal) = k0_pay1 := by unfold k4_pay1 k0_pay1; rfl

/-- The scores' block at the point 8·b + k is tile (b, k) of the scores. -/
theorem iblk4_0_tile (c : Dev nD) (n : ℕ) (hn : n < cfg4.N) (b : Fin 4) (k : Fin 8) (h : n = 8 * b.val + k.val) :
    (iblk4 V c 0 ⟨n, hn⟩ : Vec Ideal S8x256x601 .f32) = RedMath.tile (V c (Pipeline.arrRef spec4 0)) b k := by
  unfold iblk4
  rw [blk4_0_read, tileOf_ideal]
  have hb : bOf (pt4 ⟨n, hn⟩) = b := Fin.ext (by simp only [bOf_val, pt4_val]; omega)
  have hk : nOf (pt4 ⟨n, hn⟩) = k := Fin.ext (by simp only [nOf_val, pt4_val]; omega)
  rw [hb, hk]

/-- The matrix's block is the matrix. -/
theorem iblk4_1_whole (c : Dev nD) (t : Fin cfg4.N) :
    (iblk4 V c 1 t : Vec Ideal S601x601 .f32) = V c (Pipeline.arrRef spec4 1) := by
  unfold iblk4; exact blk4_1_read _ t

/-- The accumulation in closed form: after point 8·b + k the carried buffer holds the running maximum over proposal tiles 0 … k. -/
theorem carried4_eq (c : Dev nD) (b : Fin 4) : ∀ (k : ℕ) (hk : k < 8) (n : ℕ) (hn : n < cfg4.N), n = 8 * b.val + k →
    (outsAt4 V c n hn).2 = RedMath.runMax (V c (Pipeline.arrRef spec4 0)) b k := by
  intro k
  induction k with
  | zero =>
    intro hk n hn h
    have h0 : (⟨n, hn⟩ : Fin cfg4.N).val % 8 = 0 := by simp only; omega
    have h1 : ¬(⟨n, hn⟩ : Fin cfg4.N).val % 8 = 7 := by simp only; omega
    have e := outsAt4_A V c ⟨n, hn⟩ h0 h1
    simp only at e
    rw [e]
    simp only [sout4_A_0_eq, pay4_2, pay4_1]
    rw [iblk4_0_tile V c n hn b ⟨0, by omega⟩ (by simpa using h), RedMath.runMax_zero]
    rfl
  | succ k ih =>
    intro hk n hn h
    have hprev := ih (by omega) (n - 1) (by omega) (by omega)
    have h0 : ¬(⟨n, hn⟩ : Fin cfg4.N).val % 8 = 0 := by simp only; omega
    have hsucc : RedMath.runMax (V c (Pipeline.arrRef spec4 0)) b (k + 1)
        = k0_pay2 (RedMath.tile (V c (Pipeline.arrRef spec4 0)) b ⟨k + 1, hk⟩) (RedMath.runMax (V c (Pipeline.arrRef spec4 0)) b k) := by
      rw [RedMath.runMax_succ]
      congr 2
      exact Fin.ext (Nat.mod_eq_of_lt hk)
    by_cases h1 : (⟨n, hn⟩ : Fin cfg4.N).val % 8 = 7
    · have e := outsAt4_C V c ⟨n, hn⟩ h0 h1
      simp only at e
      rw [e]
      simp only [sout4_C_0_eq, pay4_2]
      rw [iblk4_0_tile V c n hn b ⟨k + 1, hk⟩ (by simpa using h), hprev, hsucc]
    · have e := outsAt4_B V c ⟨n, hn⟩ h0 h1
      simp only at e
      rw [e]
      simp only [sout4_B_0_eq, pay4_2]
      rw [iblk4_0_tile V c n hn b ⟨k + 1, hk⟩ (by simpa using h), hprev, hsucc]

/-- At the last proposal tile of image tile b the output block holds rows 8b … 8b+7 of the pairwise term. -/
theorem outBlock4_eq (c : Dev nD) (b : Fin 4) (n : ℕ) (hn : n < cfg4.N) (h : n = 8 * b.val + 7) :
    (outsAt4 V c n hn).1 = RedMath.rows (Cert.ReferenceIdeal.Crf.pairwise (V c (Pipeline.arrRef spec4 0)) (V c (Pipeline.arrRef spec4 1))) b := by
  have h0 : ¬(⟨n, hn⟩ : Fin cfg4.N).val % 8 = 0 := by simp only; omega
  have h1 : (⟨n, hn⟩ : Fin cfg4.N).val % 8 = 7 := by simp only; omega
  have hprev := carried4_eq V c b 6 (by omega) (n - 1) (by omega) (by omega)
  have e := outsAt4_C V c ⟨n, hn⟩ h0 h1
  simp only at e
  rw [e]
  simp only [out4_C_2_eq, pay4_2, pay4_3]
  rw [iblk4_0_tile V c n hn b ⟨7, by omega⟩ (by simpa using h), iblk4_1_whole, hprev]
  have hsucc : k0_pay2 (RedMath.tile (V c (Pipeline.arrRef spec4 0)) b ⟨7, by omega⟩) (RedMath.runMax (V c (Pipeline.arrRef spec4 0)) b 6)
      = RedMath.runMax (V c (Pipeline.arrRef spec4 0)) b 7 := rfl
  rw [hsucc]
  exact RedMath.reduce_rows (V c (Pipeline.arrRef spec4 0)) (V c (Pipeline.arrRef spec4 1)) b

/-- The result array after the region: the pairwise term of the scores and the matrix as the region finds them. -/
theorem final4 (c : Dev nD) :
    ((dat4 V c).arrAt 2 cfg4.N : S32x601.Idx → Elt Ideal .f32) = Cert.ReferenceIdeal.Crf.pairwise (F := Ideal) (V c (Pipeline.arrRef spec4 0)) (V c (Pipeline.arrRef spec4 1)) := by
  refine (dat4 V c).arrAt_eq_of_cover 2 (Cert.ReferenceIdeal.Crf.pairwise (F := Ideal) (V c (Pipeline.arrRef spec4 0)) (V c (Pipeline.arrRef spec4 1))) (fun t hf => ?_) cover4_2
  have h7 : t.val % 8 = 7 := (flush4_2 t).mp hf
  have hN : t.val < 32 := lt_of_lt_of_eq t.isLt (show cfg4.N = 32 from N_4)
  rw [blk4_2_read, rowsOf_ideal]
  show (dat4 V c).after 2 t = _
  rw [after4_2]
  have hb : bOf (pt4 t) = ⟨t.val / 8, by omega⟩ := Fin.ext (by simp only [bOf_val, pt4_val])
  rw [hb]
  exact outBlock4_eq V c ⟨t.val / 8, by omega⟩ t.val t.isLt (by simp only; omega)

end Cert.KernelIdeal.Frame

end
-- ==== Proof.KI.Upd5Value.lean ====
/-
  The value of the update step's region (custom_call 5): after its 32 grid points the output array holds, at
  every index (image, proposal, class), the unary score there minus the scaled pairwise term of that image and
  class — one whole-array function of the two input arrays as the region finds them, at any float instance.
-/
import proofs.«121405_j17162689315290_1_alg».proof.Proof.KI.Upd5
import proofs.«121405_j17162689315290_1_alg».proof.Proof.KI.Upd1Value
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The body's stored value at an index -/

/-- The stored block at (image, proposal, class) is the scores' block there minus the pairwise block at (image, class):
    the cast to the same shape is the identity, the cast that inserts a unit axis keeps the row-major position
    (image · 601 + class on both sides), and the broadcast along the unit axis reads coordinate 0 there. -/
theorem pay5_apply (x1 : Vec F S8x601 .f32) (x0 : Vec F S8x256x601 .f32) (j : S8x256x601.Idx) :
    k5_pay1 x1 x0 j = FloatOps.subf (x0 j) (x1 (ix2 (j 0) (j 2))) := by
  unfold k5_pay1
  show FloatOps.subf (x0 j) (broadcastTo S8x256x601 (shapeCast S8x1x601 (shapeCast S8x601 x1 shapeCasts_S8x601_S8x601) shapeCasts_S8x601_S8x1x601) broadcasts_S8x1x601_S8x256x601 j) = _
  congr 1
  rw [shapeCast_self]
  refine (broadcastTo_apply (s := S8x1x601) (t := S8x256x601) _ broadcasts_S8x1x601_S8x256x601 j (ix3 (j 0) (0 : Fin 1) (j 2)) (fun a => by
    match a with
    | ⟨0, _⟩ => rfl
    | ⟨1, _⟩ => rfl
    | ⟨2, _⟩ => rfl)).trans ?_
  refine shapeCast_apply (s := S8x601) (t := S8x1x601) x1 shapeCasts_S8x601_S8x1x601 (ix3 (j 0) (0 : Fin 1) (j 2)) (ix2 (j 0) (j 2)) ?_
  rw [Shape.rowMajor_val_two, Shape.rowMajor_val_three]
  show (j 0).val * 601 + (j 2).val = ((j 0).val * 1 + 0) * 601 + (j 2).val
  omega

/-! ## The windows' block indices over the grid -/

/-- Decided over the 32 points: the scores' window moves with the output's on every axis; the pairwise window follows
    the output's image tile and stays at class block 0; the output's block index is (image tile ≤ 3, proposal tile
    ≤ 7, 0). -/
theorem idx_facts5 : ∀ t : Fin cfg5.N,
    win5_0.index t (0 : Fin 3) = win5_2.index t (0 : Fin 3)
    ∧ win5_0.index t (1 : Fin 3) = win5_2.index t (1 : Fin 3)
    ∧ win5_0.index t (2 : Fin 3) = win5_2.index t (2 : Fin 3)
    ∧ win5_1.index t (0 : Fin 2) = win5_2.index t (0 : Fin 3)
    ∧ win5_1.index t (1 : Fin 2) = 0
    ∧ win5_2.index t (0 : Fin 3) ≤ 3
    ∧ win5_2.index t (1 : Fin 3) ≤ 7
    ∧ win5_2.index t (2 : Fin 3) = 0 :=
  (by decide +kernel : ∀ t : Fin grid5.N, _)

/-- Every (image tile, proposal tile) is some point's output block. -/
theorem idx_onto5 : ∀ (q0 : Fin 4) (q1 : Fin 8), ∃ t : Fin cfg5.N, win5_2.index t = ![q0.val, q1.val, 0] :=
  (by decide +kernel : ∀ (q0 : Fin 4) (q1 : Fin 8), ∃ t : Fin grid5.N, win5_2.index t = ![q0.val, q1.val, 0])

/-! ## What a point writes back -/

/-- Point `t` writes back block `t` of `G1` of the two input arrays: a block's coordinate on an axis is its block
    index times the block's extent plus the coordinate inside the block, so by the decided relations the scores' block
    is read where the output's block lies, and the pairwise block at that image and class. -/
theorem flushed5_eq (c : Dev nD) (t : Fin cfg5.N) :
    (dat5 V c).flushed 2 t = ((cfg5.win 2).blk t).view.read (Elt F) (G1 (V c main_arg0) (V c main_v11)) := by
  show (cfg5.win 2).cut (grid5.coords t) ((dat5 V c).after 2 t) = _
  rw [after5_2]
  obtain ⟨e0, e1, e2, e3, e4, e5, e6, e7⟩ := idx_facts5 t
  funext j
  refine (pay5_apply (iblk5 V c 1 t) (iblk5 V c 0 t) j).trans ?_
  show FloatOps.subf (V c main_arg0 (((cfg5.win 0).blk t).view.emb j)) (V c main_v11 (((cfg5.win 1).blk t).view.emb (ix2 (j 0) (j 2))))
    = FloatOps.subf (V c main_arg0 (((cfg5.win 2).blk t).view.emb j))
        (V c main_v11 (ix2 ((((cfg5.win 2).blk t).view.emb j) 0) ((((cfg5.win 2).blk t).view.emb j) 2)))
  have h0 : ((cfg5.win 0).blk t).view.emb j = ((cfg5.win 2).blk t).view.emb j := by
    funext a; apply Fin.ext
    match a with
    | ⟨0, _⟩ => show win5_0.index t (0 : Fin 3) * 8 + 1 * (j 0).val = win5_2.index t (0 : Fin 3) * 8 + 1 * (j 0).val; omega
    | ⟨1, _⟩ => show win5_0.index t (1 : Fin 3) * 256 + 1 * (j 1).val = win5_2.index t (1 : Fin 3) * 256 + 1 * (j 1).val; omega
    | ⟨2, _⟩ => show win5_0.index t (2 : Fin 3) * 601 + 1 * (j 2).val = win5_2.index t (2 : Fin 3) * 601 + 1 * (j 2).val; omega
  have h1 : ((cfg5.win 1).blk t).view.emb (ix2 (j 0) (j 2))
      = ix2 ((((cfg5.win 2).blk t).view.emb j) 0) ((((cfg5.win 2).blk t).view.emb j) 2) := by
    funext a; apply Fin.ext
    match a with
    | ⟨0, _⟩ => show win5_1.index t (0 : Fin 2) * 8 + 1 * (j 0).val = win5_2.index t (0 : Fin 3) * 8 + 1 * (j 0).val; omega
    | ⟨1, _⟩ => show win5_1.index t (1 : Fin 2) * 601 + 1 * (j 2).val = win5_2.index t (2 : Fin 3) * 601 + 1 * (j 2).val; omega
  rw [h0, h1]
  rfl

/-! ## The output's blocks tile its array -/

/-- An index of the output array is in point `t`'s block iff each coordinate is in the block's range on its axis. -/
theorem mem_blk5 (t : Fin cfg5.N) (i : S32x2048x601.Idx) :
    i ∈ ((cfg5.win 2).blk t).view.set ↔ ∀ a : Fin 3, win5_2.index t a * S8x256x601.size a ≤ (i a).val ∧ (i a).val < win5_2.index t a * S8x256x601.size a + S8x256x601.size a := by
  show i ∈ ((View.whole main_v12).slice (win5_2.rect t)).set ↔ _
  rw [View.set_slice_whole, Rect.mem_set_unit]
  exact Iff.rfl

/-- Every index is in the block of the point whose output block is (image / 8, proposal / 256, 0), and every point
    writes its block back. -/
theorem covered5 (i : S32x2048x601.Idx) :
    ∃ t : Fin cfg5.N, (cfg5.win 2).flush t = true ∧ i ∈ ((cfg5.win 2).blk t).view.set := by
  have hi0 : (i 0).val < 32 := (i 0).isLt
  have hi1 : (i 1).val < 2048 := (i 1).isLt
  have hi2 : (i 2).val < 601 := (i 2).isLt
  obtain ⟨t, ht⟩ := idx_onto5 ⟨(i 0).val / 8, by omega⟩ ⟨(i 1).val / 256, by omega⟩
  have q0 : win5_2.index t (0 : Fin 3) = (i 0).val / 8 := congrFun ht 0
  have q1 : win5_2.index t (1 : Fin 3) = (i 1).val / 256 := congrFun ht 1
  have q2 : win5_2.index t (2 : Fin 3) = 0 := congrFun ht 2
  refine ⟨t, flush5_2 t, ?_⟩
  rw [mem_blk5]
  intro a
  match a with
  | ⟨0, _⟩ => show win5_2.index t (0 : Fin 3) * 8 ≤ (i 0).val ∧ (i 0).val < win5_2.index t (0 : Fin 3) * 8 + 8; omega
  | ⟨1, _⟩ => show win5_2.index t (1 : Fin 3) * 256 ≤ (i 1).val ∧ (i 1).val < win5_2.index t (1 : Fin 3) * 256 + 256; omega
  | ⟨2, _⟩ => show win5_2.index t (2 : Fin 3) * 601 ≤ (i 2).val ∧ (i 2).val < win5_2.index t (2 : Fin 3) * 601 + 601; omega

/-! ## The array after the region -/

/-- After the last point the output array is `G1` of the unary scores and the scaled pairwise array as the region
    found them. -/
theorem final5 (c : Dev nD) : (dat5 V c).arrAt 2 cfg5.N = G1 (V c main_arg0) (V c main_v11) :=
  (dat5 V c).arrAt_eq_of_cover 2 (G1 (V c main_arg0) (V c main_v11)) (fun t _ => flushed5_eq V c t) covered5

end Cert.KernelIdeal.Frame
-- ==== Proof.KI.Red6Pieces.lean ====
/-
  The reduce call (custom_call 6): the contents each kind of grid point leaves, as the body's arithmetic.
  The stores are of whole buffers, so what is read back after them is the last store's payload; a load
  that follows a store of the same buffer reads that store's payload.
-/
import proofs.«121405_j17162689315290_1_alg».proof.Proof.KI.Red6
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces are: the payloads -/

theorem hz6_2 : (![0, 0] : Fin 2 → Nat) = fun _ => 0 := by funext a; fin_cases a <;> rfl
theorem hz6_3 : (![0, 0, 0] : Fin 3 → Nat) = fun _ => 0 := by funext a; fin_cases a <;> rfl

/-- After a first proposal tile the carried buffer holds the tile's maximum folded into the reset value. -/
theorem sout6_A_0_eq (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond6_0 i) (hc1 : ¬cond6_1 i) (x0 : Vec F S8x256x601 .f32) :
    sout6_A_0 c i arg2 harg2 arg3 harg3 arg4 harg4 arg5 harg5 hc0 hc1 x0 = k6_pay2 x0 (k6_pay1 (F := F)) := by
  unfold sout6_A_0
  rw [View.read_writes_eq_canon _ _ _ (scover6_A_0 c i arg2 harg2 arg3 harg3 arg4 harg4 arg5 harg5 hc0 hc1 x0)]
  unfold kernelRun6_A
  dsimp only
  sl_unfold_words
  rw [View.canon_cons_unit_zero hz6_2]
  simp only [View.readAt_eq_ld, harg2.read_unread, View.ld_unit_zero (S := S8x256x601) hz6_3]
  exact congrArg (k6_pay2 x0) (View.readCov_unit_zero (S := S8x601) arg5.view hz6_2 _ _)

/-- After an inner tile: the tile's maximum folded into what the point before left. -/
theorem sout6_B_0_eq (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : ¬cond6_1 i) (x0 : Vec F S8x256x601 .f32) (xs0 : Vec F S8x601 .f32) :
    sout6_B_0 c i arg2 harg2 arg3 harg3 arg4 harg4 arg5 harg5 hc0 hc1 x0 xs0 = k6_pay2 x0 xs0 := by
  unfold sout6_B_0
  rw [View.read_writes_eq_canon _ _ _ (scover6_B_0 c i arg2 harg2 arg3 harg3 arg4 harg4 arg5 harg5 hc0 hc1 x0 xs0)]
  unfold kernelRun6_B
  dsimp only
  sl_unfold_words
  rw [View.canon_unit_zero hz6_2]
  simp only [View.readAt_eq_ld, harg2.read_unread, harg5.read_unread, View.ld_unit_zero (S := S8x256x601) hz6_3, View.ld_unit_zero (S := S8x601) hz6_2]
  try rfl

/-- After a last tile the carried buffer likewise, -/
theorem sout6_C_0_eq (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i) (x0 : Vec F S8x256x601 .f32) (x1 : Vec F S601x601 .f32) (xs0 : Vec F S8x601 .f32) :
    sout6_C_0 c i arg2 harg2 arg3 harg3 arg4 harg4 arg5 harg5 hc0 hc1 x0 x1 xs0 = k6_pay2 x0 xs0 := by
  unfold sout6_C_0
  rw [View.read_writes_eq_canon _ _ _ (scover6_C_0 c i arg2 harg2 arg3 harg3 arg4 harg4 arg5 harg5 hc0 hc1 x0 x1 xs0)]
  unfold kernelRun6_C
  dsimp only
  sl_unfold_words
  rw [View.canon_unit_zero hz6_2]
  simp only [View.readAt_eq_ld, harg2.read_unread, harg5.read_unread, View.ld_unit_zero (S := S8x256x601) hz6_3, View.ld_unit_zero (S := S8x601) hz6_2]
  try rfl

/-- and the output block holds that maximum times the matrix's block. -/
theorem out6_C_2_eq (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i) (x0 : Vec F S8x256x601 .f32) (x1 : Vec F S601x601 .f32) (xs0 : Vec F S8x601 .f32) :
    out6_C_2 c i arg2 harg2 arg3 harg3 arg4 harg4 arg5 harg5 hc0 hc1 x0 x1 xs0 = k6_pay3 (k6_pay2 x0 xs0) x1 := by
  unfold out6_C_2
  rw [View.read_writes_eq_canon _ _ _ (cover6_C_2 c i arg2 harg2 arg3 harg3 arg4 harg4 arg5 harg5 hc0 hc1 x0 x1 xs0)]
  unfold kernelRun6_C
  dsimp only
  sl_unfold_words
  rw [View.canon_unit_zero hz6_2]
  simp only [View.readAt_eq_ld, harg2.read_unread, harg3.read_unread, harg5.read_unread, View.ld_unit_zero (S := S8x256x601) hz6_3, View.ld_unit_zero (S := S601x601) hz6_2, View.ld_unit_zero (S := S8x601) hz6_2]
  exact congrArg (fun z => k6_pay3 z x1) (View.readCov_unit_zero (S := S8x601) arg5.view hz6_2 _ _)

end Cert.KernelIdeal.Frame

end
-- ==== Proof.KI.Blocks6.lean ====
/-
  The blocks of the reduce call 6 and the update call 7 as tiles of their whole arrays, and which grid points'
  result blocks hold a given index: the same facts as for calls 0 and 1, for this pair's windows.
-/
import proofs.«121405_j17162689315290_1_alg».proof.Proof.KI.Blocks

noncomputable section

namespace Cert.KernelIdeal.Frame

open Cert.KernelIdeal Cert.KernelIdeal.Gen Idealize.ShloMosaic Idealize.ShloMosaic.ValueIdx

variable {F : FTy → Type} [FloatOps F]

/-- A point of the reduce call's grid as a number below 32, and likewise for the update call. -/
abbrev pt6 (t : Fin cfg6.N) : Fin 32 := t.cast N_6
abbrev pt7 (t : Fin cfg7.N) : Fin 32 := t.cast N_7

@[simp] theorem pt6_val (t : Fin cfg6.N) : (pt6 t).val = t.val := rfl
@[simp] theorem pt7_val (t : Fin cfg7.N) : (pt7 t).val = t.val := rfl

/-! ## The printed index maps, decided once over the grid -/

/-- The reduce call: scores at block (t / 8, t % 8, 0), the matrix at block (0, 0), the result at block (t / 8, 0). -/
theorem idx6 : ∀ t : Fin cfg6.N,
    (win6_0.index t (0 : Fin 3) = t.val / 8 ∧ win6_0.index t (1 : Fin 3) = t.val % 8 ∧ win6_0.index t (2 : Fin 3) = 0)
    ∧ (win6_1.index t (0 : Fin 2) = 0 ∧ win6_1.index t (1 : Fin 2) = 0)
    ∧ (win6_2.index t (0 : Fin 2) = t.val / 8 ∧ win6_2.index t (1 : Fin 2) = 0) :=
  (by decide +kernel : ∀ t : Fin grid6.N, _)

/-- The update call: unaries and result at block (t / 8, t % 8, 0), the per-image rows at block (t / 8, 0). -/
theorem idx7 : ∀ t : Fin cfg7.N,
    (win7_0.index t (0 : Fin 3) = t.val / 8 ∧ win7_0.index t (1 : Fin 3) = t.val % 8 ∧ win7_0.index t (2 : Fin 3) = 0)
    ∧ (win7_1.index t (0 : Fin 2) = t.val / 8 ∧ win7_1.index t (1 : Fin 2) = 0)
    ∧ (win7_2.index t (0 : Fin 3) = t.val / 8 ∧ win7_2.index t (1 : Fin 3) = t.val % 8 ∧ win7_2.index t (2 : Fin 3) = 0) :=
  (by decide +kernel : ∀ t : Fin grid7.N, _)

/-! ## Each block, read off its whole array -/

/-- The reduce call's block of scores at point `t` is the tile at image tile `t / 8`, proposal tile `t % 8`. -/
theorem blk6_0_read (A : FVec F S32x2048x601 .f32) (t : Fin cfg6.N) :
    (((cfg6.win 0).blk t).view.read (Elt F) A : Vec F S8x256x601 .f32) = tileOf A (bOf (pt6 t)) (nOf (pt6 t)) := by
  obtain ⟨⟨e0, e1, e2⟩, -, -⟩ := idx6 t
  funext y
  rw [View.read_apply]
  show A (((cfg6.win 0).blk t).view.emb y) = A _
  congr 1
  funext a
  apply Fin.ext
  match a with
  | ⟨0, _⟩ => show win6_0.index t (0 : Fin 3) * 8 + 1 * (y 0).val = 8 * (t.val / 8) + (y 0).val; omega
  | ⟨1, _⟩ => show win6_0.index t (1 : Fin 3) * 256 + 1 * (y 1).val = 256 * (t.val % 8) + (y 1).val; omega
  | ⟨2, _⟩ => show win6_0.index t (2 : Fin 3) * 601 + 1 * (y 2).val = (y 2).val; omega

/-- The reduce call's one block of the compatibility matrix is the matrix. -/
theorem blk6_1_read (A : FVec F S601x601 .f32) (t : Fin cfg6.N) :
    (((cfg6.win 1).blk t).view.read (Elt F) A : Vec F S601x601 .f32) = A := by
  obtain ⟨-, ⟨e0, e1⟩, -⟩ := idx6 t
  funext y
  rw [View.read_apply]
  show A (((cfg6.win 1).blk t).view.emb y) = A y
  congr 1
  funext a
  apply Fin.ext
  match a with
  | ⟨0, _⟩ => show win6_1.index t (0 : Fin 2) * 601 + 1 * (y 0).val = (y 0).val; omega
  | ⟨1, _⟩ => show win6_1.index t (1 : Fin 2) * 601 + 1 * (y 1).val = (y 1).val; omega

/-- The reduce call's result block at point `t` is rows `8·(t / 8) …` of the per-image array. -/
theorem blk6_2_read (X : FVec F S32x601 .f32) (t : Fin cfg6.N) :
    (((cfg6.win 2).blk t).view.read (Elt F) X : Vec F S8x601 .f32) = rowsOf X (bOf (pt6 t)) := by
  obtain ⟨-, -, ⟨e0, e1⟩⟩ := idx6 t
  funext y
  rw [View.read_apply]
  show X (((cfg6.win 2).blk t).view.emb y) = X _
  congr 1
  funext a
  apply Fin.ext
  match a with
  | ⟨0, _⟩ => show win6_2.index t (0 : Fin 2) * 8 + 1 * (y 0).val = 8 * (t.val / 8) + (y 0).val; omega
  | ⟨1, _⟩ => show win6_2.index t (1 : Fin 2) * 601 + 1 * (y 1).val = (y 1).val; omega

/-- The update call's block of unaries at point `t` is the tile at image tile `t / 8`, proposal tile `t % 8`. -/
theorem blk7_0_read (A : FVec F S32x2048x601 .f32) (t : Fin cfg7.N) :
    (((cfg7.win 0).blk t).view.read (Elt F) A : Vec F S8x256x601 .f32) = tileOf A (bOf (pt7 t)) (nOf (pt7 t)) := by
  obtain ⟨⟨e0, e1, e2⟩, -, -⟩ := idx7 t
  funext y
  rw [View.read_apply]
  show A (((cfg7.win 0).blk t).view.emb y) = A _
  congr 1
  funext a
  apply Fin.ext
  match a with
  | ⟨0, _⟩ => show win7_0.index t (0 : Fin 3) * 8 + 1 * (y 0).val = 8 * (t.val / 8) + (y 0).val; omega
  | ⟨1, _⟩ => show win7_0.index t (1 : Fin 3) * 256 + 1 * (y 1).val = 256 * (t.val % 8) + (y 1).val; omega
  | ⟨2, _⟩ => show win7_0.index t (2 : Fin 3) * 601 + 1 * (y 2).val = (y 2).val; omega

/-- The update call's block of the per-image array at point `t` is its rows `8·(t / 8) …`. -/
theorem blk7_1_read (X : FVec F S32x601 .f32) (t : Fin cfg7.N) :
    (((cfg7.win 1).blk t).view.read (Elt F) X : Vec F S8x601 .f32) = rowsOf X (bOf (pt7 t)) := by
  obtain ⟨-, ⟨e0, e1⟩, -⟩ := idx7 t
  funext y
  rw [View.read_apply]
  show X (((cfg7.win 1).blk t).view.emb y) = X _
  congr 1
  funext a
  apply Fin.ext
  match a with
  | ⟨0, _⟩ => show win7_1.index t (0 : Fin 2) * 8 + 1 * (y 0).val = 8 * (t.val / 8) + (y 0).val; omega
  | ⟨1, _⟩ => show win7_1.index t (1 : Fin 2) * 601 + 1 * (y 1).val = (y 1).val; omega

/-- The update call's result block at point `t` is the tile at image tile `t / 8`, proposal tile `t % 8`. -/
theorem blk7_2_read (A : FVec F S32x2048x601 .f32) (t : Fin cfg7.N) :
    (((cfg7.win 2).blk t).view.read (Elt F) A : Vec F S8x256x601 .f32) = tileOf A (bOf (pt7 t)) (nOf (pt7 t)) := by
  obtain ⟨-, -, ⟨e0, e1, e2⟩⟩ := idx7 t
  funext y
  rw [View.read_apply]
  show A (((cfg7.win 2).blk t).view.emb y) = A _
  congr 1
  funext a
  apply Fin.ext
  match a with
  | ⟨0, _⟩ => show win7_2.index t (0 : Fin 3) * 8 + 1 * (y 0).val = 8 * (t.val / 8) + (y 0).val; omega
  | ⟨1, _⟩ => show win7_2.index t (1 : Fin 3) * 256 + 1 * (y 1).val = 256 * (t.val % 8) + (y 1).val; omega
  | ⟨2, _⟩ => show win7_2.index t (2 : Fin 3) * 601 + 1 * (y 2).val = (y 2).val; omega

/-! ## Which points' result blocks hold a given index -/

/-- An index of the per-image array is in the reduce call's result block at point `t` iff, on each axis, it is
    in the block's range. -/
theorem mem_blk6_2 (t : Fin cfg6.N) (i : S32x601.Idx) :
    i ∈ ((cfg6.win 2).blk t).view.set ↔ ∀ a : Fin 2, win6_2.index t a * S8x601.size a ≤ (i a).val ∧ (i a).val < win6_2.index t a * S8x601.size a + S8x601.size a := by
  show i ∈ ((View.whole main_v13).slice (win6_2.rect t)).set ↔ _
  rw [View.set_slice_whole, Rect.mem_set_unit]
  exact Iff.rfl

/-- … that is, iff its image lies in the point's image tile. -/
theorem mem_blk6_2_iff (t : Fin cfg6.N) (i : S32x601.Idx) :
    i ∈ ((cfg6.win 2).blk t).view.set ↔ (i 0).val / 8 = t.val / 8 := by
  rw [mem_blk6_2]
  obtain ⟨-, -, ⟨e0, e1⟩⟩ := idx6 t
  have h1 : (i 1).val < 601 := (i 1).isLt
  constructor
  · intro h
    have b0 : win6_2.index t (0 : Fin 2) * 8 ≤ (i 0).val ∧ (i 0).val < win6_2.index t (0 : Fin 2) * 8 + 8 := h 0
    omega
  · intro h a
    match a with
    | ⟨0, _⟩ => show win6_2.index t (0 : Fin 2) * 8 ≤ (i 0).val ∧ (i 0).val < win6_2.index t (0 : Fin 2) * 8 + 8; omega
    | ⟨1, _⟩ => show win6_2.index t (1 : Fin 2) * 601 ≤ (i 1).val ∧ (i 1).val < win6_2.index t (1 : Fin 2) * 601 + 601; omega

/-- The point that writes back the rows of image `r`: the last proposal tile of image tile `r / 8`. -/
def lastPt6 (r : Fin 32) : Fin cfg6.N := ⟨8 * (r.val / 8) + 7, by rw [show cfg6.N = 32 from N_6]; omega⟩

@[simp] theorem lastPt6_val (r : Fin 32) : (lastPt6 r).val = 8 * (r.val / 8) + 7 := rfl

/-- Every index of the per-image array is in the result block of a point that writes it back: the last
    proposal tile of its image's tile. -/
theorem cover6_2 (i : S32x601.Idx) :
    ∃ t : Fin cfg6.N, (cfg6.win 2).flush t = true ∧ i ∈ ((cfg6.win 2).blk t).view.set := by
  have h0 : (i 0).val < 32 := (i 0).isLt
  refine ⟨lastPt6 ⟨(i 0).val, h0⟩, (flush6_2 _).mpr ?_, (mem_blk6_2_iff _ i).mpr ?_⟩
  · show (8 * ((i 0).val / 8) + 7) % 8 = 7; omega
  · show (i 0).val / 8 = (8 * ((i 0).val / 8) + 7) / 8; omega

/-- The points that write the reduce call's result back and hold a given index are exactly the last proposal
    tile of its image's tile. -/
theorem flush_mem6_2_iff (t : Fin cfg6.N) (i : S32x601.Idx) :
    ((cfg6.win 2).flush t = true ∧ i ∈ ((cfg6.win 2).blk t).view.set) ↔ t.val = 8 * ((i 0).val / 8) + 7 := by
  rw [flush6_2, mem_blk6_2_iff]
  have ht : t.val < 32 := (pt6 t).isLt
  omega

/-- An index of the scores-shaped result is in the update call's result block at point `t` iff, on each axis, it
    is in the block's range. -/
theorem mem_blk7_2 (t : Fin cfg7.N) (i : S32x2048x601.Idx) :
    i ∈ ((cfg7.win 2).blk t).view.set ↔ ∀ a : Fin 3, win7_2.index t a * S8x256x601.size a ≤ (i a).val ∧ (i a).val < win7_2.index t a * S8x256x601.size a + S8x256x601.size a := by
  show i ∈ ((View.whole main_v16).slice (win7_2.rect t)).set ↔ _
  rw [View.set_slice_whole, Rect.mem_set_unit]
  exact Iff.rfl

/-- … that is, iff its image and its proposal lie in the point's tiles. -/
theorem mem_blk7_2_iff (t : Fin cfg7.N) (i : S32x2048x601.Idx) :
    i ∈ ((cfg7.win 2).blk t).view.set ↔ (i 0).val / 8 = t.val / 8 ∧ (i 1).val / 256 = t.val % 8 := by
  rw [mem_blk7_2]
  obtain ⟨-, -, ⟨e0, e1, e2⟩⟩ := idx7 t
  have h2 : (i 2).val < 601 := (i 2).isLt
  constructor
  · intro h
    have b0 : win7_2.index t (0 : Fin 3) * 8 ≤ (i 0).val ∧ (i 0).val < win7_2.index t (0 : Fin 3) * 8 + 8 := h 0
    have b1 : win7_2.index t (1 : Fin 3) * 256 ≤ (i 1).val ∧ (i 1).val < win7_2.index t (1 : Fin 3) * 256 + 256 := h 1
    omega
  · intro h a
    match a with
    | ⟨0, _⟩ => show win7_2.index t (0 : Fin 3) * 8 ≤ (i 0).val ∧ (i 0).val < win7_2.index t (0 : Fin 3) * 8 + 8; omega
    | ⟨1, _⟩ => show win7_2.index t (1 : Fin 3) * 256 ≤ (i 1).val ∧ (i 1).val < win7_2.index t (1 : Fin 3) * 256 + 256; omega
    | ⟨2, _⟩ => show win7_2.index t (2 : Fin 3) * 601 ≤ (i 2).val ∧ (i 2).val < win7_2.index t (2 : Fin 3) * 601 + 601; omega

/-- The point whose tiles hold image `r` and proposal `p`. -/
def ptOf7 (r : Fin 32) (p : Fin 2048) : Fin cfg7.N := ⟨8 * (r.val / 8) + p.val / 256, by rw [show cfg7.N = 32 from N_7]; omega⟩

@[simp] theorem ptOf7_val (r : Fin 32) (p : Fin 2048) : (ptOf7 r p).val = 8 * (r.val / 8) + p.val / 256 := rfl

/-- Every index of the update call's result is in the result block of a point (every point writes back): the
    point of its image's and its proposal's tiles. -/
theorem cover7_2 (i : S32x2048x601.Idx) :
    ∃ t : Fin cfg7.N, (cfg7.win 2).flush t = true ∧ i ∈ ((cfg7.win 2).blk t).view.set := by
  have h0 : (i 0).val < 32 := (i 0).isLt
  have h1 : (i 1).val < 2048 := (i 1).isLt
  refine ⟨ptOf7 ⟨(i 0).val, h0⟩ ⟨(i 1).val, h1⟩, flush7_2 _, (mem_blk7_2_iff _ i).mpr ⟨?_, ?_⟩⟩
  · show (i 0).val / 8 = (8 * ((i 0).val / 8) + (i 1).val / 256) / 8; omega
  · show (i 1).val / 256 = (8 * ((i 0).val / 8) + (i 1).val / 256) % 8; omega

/-- The one point whose result block holds a given index of the update call's result. -/
theorem mem_blk7_2_iff_pt (t : Fin cfg7.N) (i : S32x2048x601.Idx) :
    i ∈ ((cfg7.win 2).blk t).view.set ↔ t.val = 8 * ((i 0).val / 8) + (i 1).val / 256 := by
  rw [mem_blk7_2_iff]
  have ht : t.val < 32 := (pt7 t).isLt
  have h1 : (i 1).val < 2048 := (i 1).isLt
  omega

end Cert.KernelIdeal.Frame

end
-- ==== Proof.KI.Red6Value.lean ====
/-
  The reduce call (custom_call 6) at the exact instance: what it leaves in its result array.

  With q the scores and M the compatibility matrix as the region finds them: after the point of image tile b
  and proposal tile k the carried buffer holds the running maximum of the tiles' softmax maxima over proposal
  tiles 0 … k of image tile b; at k = 7 the output block is that maximum times M, which is rows 8b … 8b+7 of
  the specification's pairwise term; the eight-point runs' blocks tile the result, so the result array ends
  at the pairwise term of q and M.
-/
import proofs.«121405_j17162689315290_1_alg».proof.Proof.KI.Red6Pieces
import proofs.«121405_j17162689315290_1_alg».proof.Proof.KI.Blocks6
import proofs.«121405_j17162689315290_1_alg».proof.Proof.RedMath
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

/-- This call's arithmetic is the first reduce call's: its loaded block of scores only passes through an identity
    cast first. -/
theorem pay6_2 (v : Vec Ideal S8x256x601 .f32) (w : Vec Ideal S8x601 .f32) : k6_pay2 v w = k0_pay2 v w := by
  unfold k6_pay2 k0_pay2; simp only [shapeCast_self]
theorem pay6_3 (v : Vec Ideal S8x601 .f32) (w : Vec Ideal S601x601 .f32) : k6_pay3 v w = k0_pay3 v w := by
  unfold k6_pay3 k0_pay3; rfl
theorem pay6_1 : k6_pay1 (F := Ideal) = k0_pay1 := by unfold k6_pay1 k0_pay1; rfl

/-- The scores' block at the point 8·b + k is tile (b, k) of the scores. -/
theorem iblk6_0_tile (c : Dev nD) (n : ℕ) (hn : n < cfg6.N) (b : Fin 4) (k : Fin 8) (h : n = 8 * b.val + k.val) :
    (iblk6 V c 0 ⟨n, hn⟩ : Vec Ideal S8x256x601 .f32) = RedMath.tile (V c (Pipeline.arrRef spec6 0)) b k := by
  unfold iblk6
  rw [blk6_0_read, tileOf_ideal]
  have hb : bOf (pt6 ⟨n, hn⟩) = b := Fin.ext (by simp only [bOf_val, pt6_val]; omega)
  have hk : nOf (pt6 ⟨n, hn⟩) = k := Fin.ext (by simp only [nOf_val, pt6_val]; omega)
  rw [hb, hk]

/-- The matrix's block is the matrix. -/
theorem iblk6_1_whole (c : Dev nD) (t : Fin cfg6.N) :
    (iblk6 V c 1 t : Vec Ideal S601x601 .f32) = V c (Pipeline.arrRef spec6 1) := by
  unfold iblk6; exact blk6_1_read _ t

/-- The accumulation in closed form: after point 8·b + k the carried buffer holds the running maximum over proposal tiles 0 … k. -/
theorem carried6_eq (c : Dev nD) (b : Fin 4) : ∀ (k : ℕ) (hk : k < 8) (n : ℕ) (hn : n < cfg6.N), n = 8 * b.val + k →
    (outsAt6 V c n hn).2 = RedMath.runMax (V c (Pipeline.arrRef spec6 0)) b k := by
  intro k
  induction k with
  | zero =>
    intro hk n hn h
    have h0 : (⟨n, hn⟩ : Fin cfg6.N).val % 8 = 0 := by simp only; omega
    have h1 : ¬(⟨n, hn⟩ : Fin cfg6.N).val % 8 = 7 := by simp only; omega
    have e := outsAt6_A V c ⟨n, hn⟩ h0 h1
    simp only at e
    rw [e]
    simp only [sout6_A_0_eq, pay6_2, pay6_1]
    rw [iblk6_0_tile V c n hn b ⟨0, by omega⟩ (by simpa using h), RedMath.runMax_zero]
    rfl
  | succ k ih =>
    intro hk n hn h
    have hprev := ih (by omega) (n - 1) (by omega) (by omega)
    have h0 : ¬(⟨n, hn⟩ : Fin cfg6.N).val % 8 = 0 := by simp only; omega
    have hsucc : RedMath.runMax (V c (Pipeline.arrRef spec6 0)) b (k + 1)
        = k0_pay2 (RedMath.tile (V c (Pipeline.arrRef spec6 0)) b ⟨k + 1, hk⟩) (RedMath.runMax (V c (Pipeline.arrRef spec6 0)) b k) := by
      rw [RedMath.runMax_succ]
      congr 2
      exact Fin.ext (Nat.mod_eq_of_lt hk)
    by_cases h1 : (⟨n, hn⟩ : Fin cfg6.N).val % 8 = 7
    · have e := outsAt6_C V c ⟨n, hn⟩ h0 h1
      simp only at e
      rw [e]
      simp only [sout6_C_0_eq, pay6_2]
      rw [iblk6_0_tile V c n hn b ⟨k + 1, hk⟩ (by simpa using h), hprev, hsucc]
    · have e := outsAt6_B V c ⟨n, hn⟩ h0 h1
      simp only at e
      rw [e]
      simp only [sout6_B_0_eq, pay6_2]
      rw [iblk6_0_tile V c n hn b ⟨k + 1, hk⟩ (by simpa using h), hprev, hsucc]

/-- At the last proposal tile of image tile b the output block holds rows 8b … 8b+7 of the pairwise term. -/
theorem outBlock6_eq (c : Dev nD) (b : Fin 4) (n : ℕ) (hn : n < cfg6.N) (h : n = 8 * b.val + 7) :
    (outsAt6 V c n hn).1 = RedMath.rows (Cert.ReferenceIdeal.Crf.pairwise (V c (Pipeline.arrRef spec6 0)) (V c (Pipeline.arrRef spec6 1))) b := by
  have h0 : ¬(⟨n, hn⟩ : Fin cfg6.N).val % 8 = 0 := by simp only; omega
  have h1 : (⟨n, hn⟩ : Fin cfg6.N).val % 8 = 7 := by simp only; omega
  have hprev := carried6_eq V c b 6 (by omega) (n - 1) (by omega) (by omega)
  have e := outsAt6_C V c ⟨n, hn⟩ h0 h1
  simp only at e
  rw [e]
  simp only [out6_C_2_eq, pay6_2, pay6_3]
  rw [iblk6_0_tile V c n hn b ⟨7, by omega⟩ (by simpa using h), iblk6_1_whole, hprev]
  have hsucc : k0_pay2 (RedMath.tile (V c (Pipeline.arrRef spec6 0)) b ⟨7, by omega⟩) (RedMath.runMax (V c (Pipeline.arrRef spec6 0)) b 6)
      = RedMath.runMax (V c (Pipeline.arrRef spec6 0)) b 7 := rfl
  rw [hsucc]
  exact RedMath.reduce_rows (V c (Pipeline.arrRef spec6 0)) (V c (Pipeline.arrRef spec6 1)) b

/-- The result array after the region: the pairwise term of the scores and the matrix as the region finds them. -/
theorem final6 (c : Dev nD) :
    ((dat6 V c).arrAt 2 cfg6.N : S32x601.Idx → Elt Ideal .f32) = Cert.ReferenceIdeal.Crf.pairwise (F := Ideal) (V c (Pipeline.arrRef spec6 0)) (V c (Pipeline.arrRef spec6 1)) := by
  refine (dat6 V c).arrAt_eq_of_cover 2 (Cert.ReferenceIdeal.Crf.pairwise (F := Ideal) (V c (Pipeline.arrRef spec6 0)) (V c (Pipeline.arrRef spec6 1))) (fun t hf => ?_) cover6_2
  have h7 : t.val % 8 = 7 := (flush6_2 t).mp hf
  have hN : t.val < 32 := lt_of_lt_of_eq t.isLt (show cfg6.N = 32 from N_6)
  rw [blk6_2_read, rowsOf_ideal]
  show (dat6 V c).after 2 t = _
  rw [after6_2]
  have hb : bOf (pt6 t) = ⟨t.val / 8, by omega⟩ := Fin.ext (by simp only [bOf_val, pt6_val])
  rw [hb]
  exact outBlock6_eq V c ⟨t.val / 8, by omega⟩ t.val t.isLt (by simp only; omega)

end Cert.KernelIdeal.Frame

end
-- ==== Proof.KI.Upd7Value.lean ====
/-
  The value of the update step's region (custom_call 7): after its 32 grid points the output array holds, at
  every index (image, proposal, class), the unary score there minus the scaled pairwise term of that image and
  class — one whole-array function of the two input arrays as the region finds them, at any float instance.
-/
import proofs.«121405_j17162689315290_1_alg».proof.Proof.KI.Upd7
import proofs.«121405_j17162689315290_1_alg».proof.Proof.KI.Upd1Value
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The body's stored value at an index -/

/-- The stored block at (image, proposal, class) is the scores' block there minus the pairwise block at (image, class):
    the cast to the same shape is the identity, the cast that inserts a unit axis keeps the row-major position
    (image · 601 + class on both sides), and the broadcast along the unit axis reads coordinate 0 there. -/
theorem pay7_apply (x1 : Vec F S8x601 .f32) (x0 : Vec F S8x256x601 .f32) (j : S8x256x601.Idx) :
    k7_pay1 x1 x0 j = FloatOps.subf (x0 j) (x1 (ix2 (j 0) (j 2))) := by
  unfold k7_pay1
  show FloatOps.subf (x0 j) (broadcastTo S8x256x601 (shapeCast S8x1x601 (shapeCast S8x601 x1 shapeCasts_S8x601_S8x601) shapeCasts_S8x601_S8x1x601) broadcasts_S8x1x601_S8x256x601 j) = _
  congr 1
  rw [shapeCast_self]
  refine (broadcastTo_apply (s := S8x1x601) (t := S8x256x601) _ broadcasts_S8x1x601_S8x256x601 j (ix3 (j 0) (0 : Fin 1) (j 2)) (fun a => by
    match a with
    | ⟨0, _⟩ => rfl
    | ⟨1, _⟩ => rfl
    | ⟨2, _⟩ => rfl)).trans ?_
  refine shapeCast_apply (s := S8x601) (t := S8x1x601) x1 shapeCasts_S8x601_S8x1x601 (ix3 (j 0) (0 : Fin 1) (j 2)) (ix2 (j 0) (j 2)) ?_
  rw [Shape.rowMajor_val_two, Shape.rowMajor_val_three]
  show (j 0).val * 601 + (j 2).val = ((j 0).val * 1 + 0) * 601 + (j 2).val
  omega

/-! ## The windows' block indices over the grid -/

/-- Decided over the 32 points: the scores' window moves with the output's on every axis; the pairwise window follows
    the output's image tile and stays at class block 0; the output's block index is (image tile ≤ 3, proposal tile
    ≤ 7, 0). -/
theorem idx_facts7 : ∀ t : Fin cfg7.N,
    win7_0.index t (0 : Fin 3) = win7_2.index t (0 : Fin 3)
    ∧ win7_0.index t (1 : Fin 3) = win7_2.index t (1 : Fin 3)
    ∧ win7_0.index t (2 : Fin 3) = win7_2.index t (2 : Fin 3)
    ∧ win7_1.index t (0 : Fin 2) = win7_2.index t (0 : Fin 3)
    ∧ win7_1.index t (1 : Fin 2) = 0
    ∧ win7_2.index t (0 : Fin 3) ≤ 3
    ∧ win7_2.index t (1 : Fin 3) ≤ 7
    ∧ win7_2.index t (2 : Fin 3) = 0 :=
  (by decide +kernel : ∀ t : Fin grid7.N, _)

/-- Every (image tile, proposal tile) is some point's output block. -/
theorem idx_onto7 : ∀ (q0 : Fin 4) (q1 : Fin 8), ∃ t : Fin cfg7.N, win7_2.index t = ![q0.val, q1.val, 0] :=
  (by decide +kernel : ∀ (q0 : Fin 4) (q1 : Fin 8), ∃ t : Fin grid7.N, win7_2.index t = ![q0.val, q1.val, 0])

/-! ## What a point writes back -/

/-- Point `t` writes back block `t` of `G1` of the two input arrays: a block's coordinate on an axis is its block
    index times the block's extent plus the coordinate inside the block, so by the decided relations the scores' block
    is read where the output's block lies, and the pairwise block at that image and class. -/
theorem flushed7_eq (c : Dev nD) (t : Fin cfg7.N) :
    (dat7 V c).flushed 2 t = ((cfg7.win 2).blk t).view.read (Elt F) (G1 (V c main_arg0) (V c main_v15)) := by
  show (cfg7.win 2).cut (grid7.coords t) ((dat7 V c).after 2 t) = _
  rw [after7_2]
  obtain ⟨e0, e1, e2, e3, e4, e5, e6, e7⟩ := idx_facts7 t
  funext j
  refine (pay7_apply (iblk7 V c 1 t) (iblk7 V c 0 t) j).trans ?_
  show FloatOps.subf (V c main_arg0 (((cfg7.win 0).blk t).view.emb j)) (V c main_v15 (((cfg7.win 1).blk t).view.emb (ix2 (j 0) (j 2))))
    = FloatOps.subf (V c main_arg0 (((cfg7.win 2).blk t).view.emb j))
        (V c main_v15 (ix2 ((((cfg7.win 2).blk t).view.emb j) 0) ((((cfg7.win 2).blk t).view.emb j) 2)))
  have h0 : ((cfg7.win 0).blk t).view.emb j = ((cfg7.win 2).blk t).view.emb j := by
    funext a; apply Fin.ext
    match a with
    | ⟨0, _⟩ => show win7_0.index t (0 : Fin 3) * 8 + 1 * (j 0).val = win7_2.index t (0 : Fin 3) * 8 + 1 * (j 0).val; omega
    | ⟨1, _⟩ => show win7_0.index t (1 : Fin 3) * 256 + 1 * (j 1).val = win7_2.index t (1 : Fin 3) * 256 + 1 * (j 1).val; omega
    | ⟨2, _⟩ => show win7_0.index t (2 : Fin 3) * 601 + 1 * (j 2).val = win7_2.index t (2 : Fin 3) * 601 + 1 * (j 2).val; omega
  have h1 : ((cfg7.win 1).blk t).view.emb (ix2 (j 0) (j 2))
      = ix2 ((((cfg7.win 2).blk t).view.emb j) 0) ((((cfg7.win 2).blk t).view.emb j) 2) := by
    funext a; apply Fin.ext
    match a with
    | ⟨0, _⟩ => show win7_1.index t (0 : Fin 2) * 8 + 1 * (j 0).val = win7_2.index t (0 : Fin 3) * 8 + 1 * (j 0).val; omega
    | ⟨1, _⟩ => show win7_1.index t (1 : Fin 2) * 601 + 1 * (j 2).val = win7_2.index t (2 : Fin 3) * 601 + 1 * (j 2).val; omega
  rw [h0, h1]
  rfl

/-! ## The output's blocks tile its array -/

/-- An index of the output array is in point `t`'s block iff each coordinate is in the block's range on its axis. -/
theorem mem_blk7 (t : Fin cfg7.N) (i : S32x2048x601.Idx) :
    i ∈ ((cfg7.win 2).blk t).view.set ↔ ∀ a : Fin 3, win7_2.index t a * S8x256x601.size a ≤ (i a).val ∧ (i a).val < win7_2.index t a * S8x256x601.size a + S8x256x601.size a := by
  show i ∈ ((View.whole main_v16).slice (win7_2.rect t)).set ↔ _
  rw [View.set_slice_whole, Rect.mem_set_unit]
  exact Iff.rfl

/-- Every index is in the block of the point whose output block is (image / 8, proposal / 256, 0), and every point
    writes its block back. -/
theorem covered7 (i : S32x2048x601.Idx) :
    ∃ t : Fin cfg7.N, (cfg7.win 2).flush t = true ∧ i ∈ ((cfg7.win 2).blk t).view.set := by
  have hi0 : (i 0).val < 32 := (i 0).isLt
  have hi1 : (i 1).val < 2048 := (i 1).isLt
  have hi2 : (i 2).val < 601 := (i 2).isLt
  obtain ⟨t, ht⟩ := idx_onto7 ⟨(i 0).val / 8, by omega⟩ ⟨(i 1).val / 256, by omega⟩
  have q0 : win7_2.index t (0 : Fin 3) = (i 0).val / 8 := congrFun ht 0
  have q1 : win7_2.index t (1 : Fin 3) = (i 1).val / 256 := congrFun ht 1
  have q2 : win7_2.index t (2 : Fin 3) = 0 := congrFun ht 2
  refine ⟨t, flush7_2 t, ?_⟩
  rw [mem_blk7]
  intro a
  match a with
  | ⟨0, _⟩ => show win7_2.index t (0 : Fin 3) * 8 ≤ (i 0).val ∧ (i 0).val < win7_2.index t (0 : Fin 3) * 8 + 8; omega
  | ⟨1, _⟩ => show win7_2.index t (1 : Fin 3) * 256 ≤ (i 1).val ∧ (i 1).val < win7_2.index t (1 : Fin 3) * 256 + 256; omega
  | ⟨2, _⟩ => show win7_2.index t (2 : Fin 3) * 601 ≤ (i 2).val ∧ (i 2).val < win7_2.index t (2 : Fin 3) * 601 + 601; omega

/-! ## The array after the region -/

/-- After the last point the output array is `G1` of the unary scores and the scaled pairwise array as the region
    found them. -/
theorem final7 (c : Dev nD) : (dat7 V c).arrAt 2 cfg7.N = G1 (V c main_arg0) (V c main_v15) :=
  (dat7 V c).arrAt_eq_of_cover 2 (G1 (V c main_arg0) (V c main_v15)) (fun t _ => flushed7_eq V c t) covered7

end Cert.KernelIdeal.Frame
-- ==== Proof.KI.Red8Pieces.lean ====
/-
  The reduce call (custom_call 8): the contents each kind of grid point leaves, as the body's arithmetic.
  The stores are of whole buffers, so what is read back after them is the last store's payload; a load
  that follows a store of the same buffer reads that store's payload.
-/
import proofs.«121405_j17162689315290_1_alg».proof.Proof.KI.Red8
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces are: the payloads -/

theorem hz8_2 : (![0, 0] : Fin 2 → Nat) = fun _ => 0 := by funext a; fin_cases a <;> rfl
theorem hz8_3 : (![0, 0, 0] : Fin 3 → Nat) = fun _ => 0 := by funext a; fin_cases a <;> rfl

/-- After a first proposal tile the carried buffer holds the tile's maximum folded into the reset value. -/
theorem sout8_A_0_eq (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond8_0 i) (hc1 : ¬cond8_1 i) (x0 : Vec F S8x256x601 .f32) :
    sout8_A_0 c i arg2 harg2 arg3 harg3 arg4 harg4 arg5 harg5 hc0 hc1 x0 = k8_pay2 x0 (k8_pay1 (F := F)) := by
  unfold sout8_A_0
  rw [View.read_writes_eq_canon _ _ _ (scover8_A_0 c i arg2 harg2 arg3 harg3 arg4 harg4 arg5 harg5 hc0 hc1 x0)]
  unfold kernelRun8_A
  dsimp only
  sl_unfold_words
  rw [View.canon_cons_unit_zero hz8_2]
  simp only [View.readAt_eq_ld, harg2.read_unread, View.ld_unit_zero (S := S8x256x601) hz8_3]
  exact congrArg (k8_pay2 x0) (View.readCov_unit_zero (S := S8x601) arg5.view hz8_2 _ _)

/-- After an inner tile: the tile's maximum folded into what the point before left. -/
theorem sout8_B_0_eq (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : ¬cond8_1 i) (x0 : Vec F S8x256x601 .f32) (xs0 : Vec F S8x601 .f32) :
    sout8_B_0 c i arg2 harg2 arg3 harg3 arg4 harg4 arg5 harg5 hc0 hc1 x0 xs0 = k8_pay2 x0 xs0 := by
  unfold sout8_B_0
  rw [View.read_writes_eq_canon _ _ _ (scover8_B_0 c i arg2 harg2 arg3 harg3 arg4 harg4 arg5 harg5 hc0 hc1 x0 xs0)]
  unfold kernelRun8_B
  dsimp only
  sl_unfold_words
  rw [View.canon_unit_zero hz8_2]
  simp only [View.readAt_eq_ld, harg2.read_unread, harg5.read_unread, View.ld_unit_zero (S := S8x256x601) hz8_3, View.ld_unit_zero (S := S8x601) hz8_2]
  try rfl

/-- After a last tile the carried buffer likewise, -/
theorem sout8_C_0_eq (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i) (x0 : Vec F S8x256x601 .f32) (x1 : Vec F S601x601 .f32) (xs0 : Vec F S8x601 .f32) :
    sout8_C_0 c i arg2 harg2 arg3 harg3 arg4 harg4 arg5 harg5 hc0 hc1 x0 x1 xs0 = k8_pay2 x0 xs0 := by
  unfold sout8_C_0
  rw [View.read_writes_eq_canon _ _ _ (scover8_C_0 c i arg2 harg2 arg3 harg3 arg4 harg4 arg5 harg5 hc0 hc1 x0 x1 xs0)]
  unfold kernelRun8_C
  dsimp only
  sl_unfold_words
  rw [View.canon_unit_zero hz8_2]
  simp only [View.readAt_eq_ld, harg2.read_unread, harg5.read_unread, View.ld_unit_zero (S := S8x256x601) hz8_3, View.ld_unit_zero (S := S8x601) hz8_2]
  try rfl

/-- and the output block holds that maximum times the matrix's block. -/
theorem out8_C_2_eq (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i) (x0 : Vec F S8x256x601 .f32) (x1 : Vec F S601x601 .f32) (xs0 : Vec F S8x601 .f32) :
    out8_C_2 c i arg2 harg2 arg3 harg3 arg4 harg4 arg5 harg5 hc0 hc1 x0 x1 xs0 = k8_pay3 (k8_pay2 x0 xs0) x1 := by
  unfold out8_C_2
  rw [View.read_writes_eq_canon _ _ _ (cover8_C_2 c i arg2 harg2 arg3 harg3 arg4 harg4 arg5 harg5 hc0 hc1 x0 x1 xs0)]
  unfold kernelRun8_C
  dsimp only
  sl_unfold_words
  rw [View.canon_unit_zero hz8_2]
  simp only [View.readAt_eq_ld, harg2.read_unread, harg3.read_unread, harg5.read_unread, View.ld_unit_zero (S := S8x256x601) hz8_3, View.ld_unit_zero (S := S601x601) hz8_2, View.ld_unit_zero (S := S8x601) hz8_2]
  exact congrArg (fun z => k8_pay3 z x1) (View.readCov_unit_zero (S := S8x601) arg5.view hz8_2 _ _)

end Cert.KernelIdeal.Frame

end
-- ==== Proof.KI.Blocks8.lean ====
/-
  The blocks of the reduce call 8 and the update call 9 as tiles of their whole arrays, and which grid points'
  result blocks hold a given index: the same facts as for calls 0 and 1, for this pair's windows.
-/
import proofs.«121405_j17162689315290_1_alg».proof.Proof.KI.Blocks

noncomputable section

namespace Cert.KernelIdeal.Frame

open Cert.KernelIdeal Cert.KernelIdeal.Gen Idealize.ShloMosaic Idealize.ShloMosaic.ValueIdx

variable {F : FTy → Type} [FloatOps F]

/-- A point of the reduce call's grid as a number below 32, and likewise for the update call. -/
abbrev pt8 (t : Fin cfg8.N) : Fin 32 := t.cast N_8
abbrev pt9 (t : Fin cfg9.N) : Fin 32 := t.cast N_9

@[simp] theorem pt8_val (t : Fin cfg8.N) : (pt8 t).val = t.val := rfl
@[simp] theorem pt9_val (t : Fin cfg9.N) : (pt9 t).val = t.val := rfl

/-! ## The printed index maps, decided once over the grid -/

/-- The reduce call: scores at block (t / 8, t % 8, 0), the matrix at block (0, 0), the result at block (t / 8, 0). -/
theorem idx8 : ∀ t : Fin cfg8.N,
    (win8_0.index t (0 : Fin 3) = t.val / 8 ∧ win8_0.index t (1 : Fin 3) = t.val % 8 ∧ win8_0.index t (2 : Fin 3) = 0)
    ∧ (win8_1.index t (0 : Fin 2) = 0 ∧ win8_1.index t (1 : Fin 2) = 0)
    ∧ (win8_2.index t (0 : Fin 2) = t.val / 8 ∧ win8_2.index t (1 : Fin 2) = 0) :=
  (by decide +kernel : ∀ t : Fin grid8.N, _)

/-- The update call: unaries and result at block (t / 8, t % 8, 0), the per-image rows at block (t / 8, 0). -/
theorem idx9 : ∀ t : Fin cfg9.N,
    (win9_0.index t (0 : Fin 3) = t.val / 8 ∧ win9_0.index t (1 : Fin 3) = t.val % 8 ∧ win9_0.index t (2 : Fin 3) = 0)
    ∧ (win9_1.index t (0 : Fin 2) = t.val / 8 ∧ win9_1.index t (1 : Fin 2) = 0)
    ∧ (win9_2.index t (0 : Fin 3) = t.val / 8 ∧ win9_2.index t (1 : Fin 3) = t.val % 8 ∧ win9_2.index t (2 : Fin 3) = 0) :=
  (by decide +kernel : ∀ t : Fin grid9.N, _)

/-! ## Each block, read off its whole array -/

/-- The reduce call's block of scores at point `t` is the tile at image tile `t / 8`, proposal tile `t % 8`. -/
theorem blk8_0_read (A : FVec F S32x2048x601 .f32) (t : Fin cfg8.N) :
    (((cfg8.win 0).blk t).view.read (Elt F) A : Vec F S8x256x601 .f32) = tileOf A (bOf (pt8 t)) (nOf (pt8 t)) := by
  obtain ⟨⟨e0, e1, e2⟩, -, -⟩ := idx8 t
  funext y
  rw [View.read_apply]
  show A (((cfg8.win 0).blk t).view.emb y) = A _
  congr 1
  funext a
  apply Fin.ext
  match a with
  | ⟨0, _⟩ => show win8_0.index t (0 : Fin 3) * 8 + 1 * (y 0).val = 8 * (t.val / 8) + (y 0).val; omega
  | ⟨1, _⟩ => show win8_0.index t (1 : Fin 3) * 256 + 1 * (y 1).val = 256 * (t.val % 8) + (y 1).val; omega
  | ⟨2, _⟩ => show win8_0.index t (2 : Fin 3) * 601 + 1 * (y 2).val = (y 2).val; omega

/-- The reduce call's one block of the compatibility matrix is the matrix. -/
theorem blk8_1_read (A : FVec F S601x601 .f32) (t : Fin cfg8.N) :
    (((cfg8.win 1).blk t).view.read (Elt F) A : Vec F S601x601 .f32) = A := by
  obtain ⟨-, ⟨e0, e1⟩, -⟩ := idx8 t
  funext y
  rw [View.read_apply]
  show A (((cfg8.win 1).blk t).view.emb y) = A y
  congr 1
  funext a
  apply Fin.ext
  match a with
  | ⟨0, _⟩ => show win8_1.index t (0 : Fin 2) * 601 + 1 * (y 0).val = (y 0).val; omega
  | ⟨1, _⟩ => show win8_1.index t (1 : Fin 2) * 601 + 1 * (y 1).val = (y 1).val; omega

/-- The reduce call's result block at point `t` is rows `8·(t / 8) …` of the per-image array. -/
theorem blk8_2_read (X : FVec F S32x601 .f32) (t : Fin cfg8.N) :
    (((cfg8.win 2).blk t).view.read (Elt F) X : Vec F S8x601 .f32) = rowsOf X (bOf (pt8 t)) := by
  obtain ⟨-, -, ⟨e0, e1⟩⟩ := idx8 t
  funext y
  rw [View.read_apply]
  show X (((cfg8.win 2).blk t).view.emb y) = X _
  congr 1
  funext a
  apply Fin.ext
  match a with
  | ⟨0, _⟩ => show win8_2.index t (0 : Fin 2) * 8 + 1 * (y 0).val = 8 * (t.val / 8) + (y 0).val; omega
  | ⟨1, _⟩ => show win8_2.index t (1 : Fin 2) * 601 + 1 * (y 1).val = (y 1).val; omega

/-- The update call's block of unaries at point `t` is the tile at image tile `t / 8`, proposal tile `t % 8`. -/
theorem blk9_0_read (A : FVec F S32x2048x601 .f32) (t : Fin cfg9.N) :
    (((cfg9.win 0).blk t).view.read (Elt F) A : Vec F S8x256x601 .f32) = tileOf A (bOf (pt9 t)) (nOf (pt9 t)) := by
  obtain ⟨⟨e0, e1, e2⟩, -, -⟩ := idx9 t
  funext y
  rw [View.read_apply]
  show A (((cfg9.win 0).blk t).view.emb y) = A _
  congr 1
  funext a
  apply Fin.ext
  match a with
  | ⟨0, _⟩ => show win9_0.index t (0 : Fin 3) * 8 + 1 * (y 0).val = 8 * (t.val / 8) + (y 0).val; omega
  | ⟨1, _⟩ => show win9_0.index t (1 : Fin 3) * 256 + 1 * (y 1).val = 256 * (t.val % 8) + (y 1).val; omega
  | ⟨2, _⟩ => show win9_0.index t (2 : Fin 3) * 601 + 1 * (y 2).val = (y 2).val; omega

/-- The update call's block of the per-image array at point `t` is its rows `8·(t / 8) …`. -/
theorem blk9_1_read (X : FVec F S32x601 .f32) (t : Fin cfg9.N) :
    (((cfg9.win 1).blk t).view.read (Elt F) X : Vec F S8x601 .f32) = rowsOf X (bOf (pt9 t)) := by
  obtain ⟨-, ⟨e0, e1⟩, -⟩ := idx9 t
  funext y
  rw [View.read_apply]
  show X (((cfg9.win 1).blk t).view.emb y) = X _
  congr 1
  funext a
  apply Fin.ext
  match a with
  | ⟨0, _⟩ => show win9_1.index t (0 : Fin 2) * 8 + 1 * (y 0).val = 8 * (t.val / 8) + (y 0).val; omega
  | ⟨1, _⟩ => show win9_1.index t (1 : Fin 2) * 601 + 1 * (y 1).val = (y 1).val; omega

/-- The update call's result block at point `t` is the tile at image tile `t / 8`, proposal tile `t % 8`. -/
theorem blk9_2_read (A : FVec F S32x2048x601 .f32) (t : Fin cfg9.N) :
    (((cfg9.win 2).blk t).view.read (Elt F) A : Vec F S8x256x601 .f32) = tileOf A (bOf (pt9 t)) (nOf (pt9 t)) := by
  obtain ⟨-, -, ⟨e0, e1, e2⟩⟩ := idx9 t
  funext y
  rw [View.read_apply]
  show A (((cfg9.win 2).blk t).view.emb y) = A _
  congr 1
  funext a
  apply Fin.ext
  match a with
  | ⟨0, _⟩ => show win9_2.index t (0 : Fin 3) * 8 + 1 * (y 0).val = 8 * (t.val / 8) + (y 0).val; omega
  | ⟨1, _⟩ => show win9_2.index t (1 : Fin 3) * 256 + 1 * (y 1).val = 256 * (t.val % 8) + (y 1).val; omega
  | ⟨2, _⟩ => show win9_2.index t (2 : Fin 3) * 601 + 1 * (y 2).val = (y 2).val; omega

/-! ## Which points' result blocks hold a given index -/

/-- An index of the per-image array is in the reduce call's result block at point `t` iff, on each axis, it is
    in the block's range. -/
theorem mem_blk8_2 (t : Fin cfg8.N) (i : S32x601.Idx) :
    i ∈ ((cfg8.win 2).blk t).view.set ↔ ∀ a : Fin 2, win8_2.index t a * S8x601.size a ≤ (i a).val ∧ (i a).val < win8_2.index t a * S8x601.size a + S8x601.size a := by
  show i ∈ ((View.whole main_v17).slice (win8_2.rect t)).set ↔ _
  rw [View.set_slice_whole, Rect.mem_set_unit]
  exact Iff.rfl

/-- … that is, iff its image lies in the point's image tile. -/
theorem mem_blk8_2_iff (t : Fin cfg8.N) (i : S32x601.Idx) :
    i ∈ ((cfg8.win 2).blk t).view.set ↔ (i 0).val / 8 = t.val / 8 := by
  rw [mem_blk8_2]
  obtain ⟨-, -, ⟨e0, e1⟩⟩ := idx8 t
  have h1 : (i 1).val < 601 := (i 1).isLt
  constructor
  · intro h
    have b0 : win8_2.index t (0 : Fin 2) * 8 ≤ (i 0).val ∧ (i 0).val < win8_2.index t (0 : Fin 2) * 8 + 8 := h 0
    omega
  · intro h a
    match a with
    | ⟨0, _⟩ => show win8_2.index t (0 : Fin 2) * 8 ≤ (i 0).val ∧ (i 0).val < win8_2.index t (0 : Fin 2) * 8 + 8; omega
    | ⟨1, _⟩ => show win8_2.index t (1 : Fin 2) * 601 ≤ (i 1).val ∧ (i 1).val < win8_2.index t (1 : Fin 2) * 601 + 601; omega

/-- The point that writes back the rows of image `r`: the last proposal tile of image tile `r / 8`. -/
def lastPt8 (r : Fin 32) : Fin cfg8.N := ⟨8 * (r.val / 8) + 7, by rw [show cfg8.N = 32 from N_8]; omega⟩

@[simp] theorem lastPt8_val (r : Fin 32) : (lastPt8 r).val = 8 * (r.val / 8) + 7 := rfl

/-- Every index of the per-image array is in the result block of a point that writes it back: the last
    proposal tile of its image's tile. -/
theorem cover8_2 (i : S32x601.Idx) :
    ∃ t : Fin cfg8.N, (cfg8.win 2).flush t = true ∧ i ∈ ((cfg8.win 2).blk t).view.set := by
  have h0 : (i 0).val < 32 := (i 0).isLt
  refine ⟨lastPt8 ⟨(i 0).val, h0⟩, (flush8_2 _).mpr ?_, (mem_blk8_2_iff _ i).mpr ?_⟩
  · show (8 * ((i 0).val / 8) + 7) % 8 = 7; omega
  · show (i 0).val / 8 = (8 * ((i 0).val / 8) + 7) / 8; omega

/-- The points that write the reduce call's result back and hold a given index are exactly the last proposal
    tile of its image's tile. -/
theorem flush_mem8_2_iff (t : Fin cfg8.N) (i : S32x601.Idx) :
    ((cfg8.win 2).flush t = true ∧ i ∈ ((cfg8.win 2).blk t).view.set) ↔ t.val = 8 * ((i 0).val / 8) + 7 := by
  rw [flush8_2, mem_blk8_2_iff]
  have ht : t.val < 32 := (pt8 t).isLt
  omega

/-- An index of the scores-shaped result is in the update call's result block at point `t` iff, on each axis, it
    is in the block's range. -/
theorem mem_blk9_2 (t : Fin cfg9.N) (i : S32x2048x601.Idx) :
    i ∈ ((cfg9.win 2).blk t).view.set ↔ ∀ a : Fin 3, win9_2.index t a * S8x256x601.size a ≤ (i a).val ∧ (i a).val < win9_2.index t a * S8x256x601.size a + S8x256x601.size a := by
  show i ∈ ((View.whole main_v20).slice (win9_2.rect t)).set ↔ _
  rw [View.set_slice_whole, Rect.mem_set_unit]
  exact Iff.rfl

/-- … that is, iff its image and its proposal lie in the point's tiles. -/
theorem mem_blk9_2_iff (t : Fin cfg9.N) (i : S32x2048x601.Idx) :
    i ∈ ((cfg9.win 2).blk t).view.set ↔ (i 0).val / 8 = t.val / 8 ∧ (i 1).val / 256 = t.val % 8 := by
  rw [mem_blk9_2]
  obtain ⟨-, -, ⟨e0, e1, e2⟩⟩ := idx9 t
  have h2 : (i 2).val < 601 := (i 2).isLt
  constructor
  · intro h
    have b0 : win9_2.index t (0 : Fin 3) * 8 ≤ (i 0).val ∧ (i 0).val < win9_2.index t (0 : Fin 3) * 8 + 8 := h 0
    have b1 : win9_2.index t (1 : Fin 3) * 256 ≤ (i 1).val ∧ (i 1).val < win9_2.index t (1 : Fin 3) * 256 + 256 := h 1
    omega
  · intro h a
    match a with
    | ⟨0, _⟩ => show win9_2.index t (0 : Fin 3) * 8 ≤ (i 0).val ∧ (i 0).val < win9_2.index t (0 : Fin 3) * 8 + 8; omega
    | ⟨1, _⟩ => show win9_2.index t (1 : Fin 3) * 256 ≤ (i 1).val ∧ (i 1).val < win9_2.index t (1 : Fin 3) * 256 + 256; omega
    | ⟨2, _⟩ => show win9_2.index t (2 : Fin 3) * 601 ≤ (i 2).val ∧ (i 2).val < win9_2.index t (2 : Fin 3) * 601 + 601; omega

/-- The point whose tiles hold image `r` and proposal `p`. -/
def ptOf9 (r : Fin 32) (p : Fin 2048) : Fin cfg9.N := ⟨8 * (r.val / 8) + p.val / 256, by rw [show cfg9.N = 32 from N_9]; omega⟩

@[simp] theorem ptOf9_val (r : Fin 32) (p : Fin 2048) : (ptOf9 r p).val = 8 * (r.val / 8) + p.val / 256 := rfl

/-- Every index of the update call's result is in the result block of a point (every point writes back): the
    point of its image's and its proposal's tiles. -/
theorem cover9_2 (i : S32x2048x601.Idx) :
    ∃ t : Fin cfg9.N, (cfg9.win 2).flush t = true ∧ i ∈ ((cfg9.win 2).blk t).view.set := by
  have h0 : (i 0).val < 32 := (i 0).isLt
  have h1 : (i 1).val < 2048 := (i 1).isLt
  refine ⟨ptOf9 ⟨(i 0).val, h0⟩ ⟨(i 1).val, h1⟩, flush9_2 _, (mem_blk9_2_iff _ i).mpr ⟨?_, ?_⟩⟩
  · show (i 0).val / 8 = (8 * ((i 0).val / 8) + (i 1).val / 256) / 8; omega
  · show (i 1).val / 256 = (8 * ((i 0).val / 8) + (i 1).val / 256) % 8; omega

/-- The one point whose result block holds a given index of the update call's result. -/
theorem mem_blk9_2_iff_pt (t : Fin cfg9.N) (i : S32x2048x601.Idx) :
    i ∈ ((cfg9.win 2).blk t).view.set ↔ t.val = 8 * ((i 0).val / 8) + (i 1).val / 256 := by
  rw [mem_blk9_2_iff]
  have ht : t.val < 32 := (pt9 t).isLt
  have h1 : (i 1).val < 2048 := (i 1).isLt
  omega

end Cert.KernelIdeal.Frame

end
-- ==== Proof.KI.Red8Value.lean ====
/-
  The reduce call (custom_call 8) at the exact instance: what it leaves in its result array.

  With q the scores and M the compatibility matrix as the region finds them: after the point of image tile b
  and proposal tile k the carried buffer holds the running maximum of the tiles' softmax maxima over proposal
  tiles 0 … k of image tile b; at k = 7 the output block is that maximum times M, which is rows 8b … 8b+7 of
  the specification's pairwise term; the eight-point runs' blocks tile the result, so the result array ends
  at the pairwise term of q and M.
-/
import proofs.«121405_j17162689315290_1_alg».proof.Proof.KI.Red8Pieces
import proofs.«121405_j17162689315290_1_alg».proof.Proof.KI.Blocks8
import proofs.«121405_j17162689315290_1_alg».proof.Proof.RedMath
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

/-- This call's arithmetic is the first reduce call's: its loaded block of scores only passes through an identity
    cast first. -/
theorem pay8_2 (v : Vec Ideal S8x256x601 .f32) (w : Vec Ideal S8x601 .f32) : k8_pay2 v w = k0_pay2 v w := by
  unfold k8_pay2 k0_pay2; simp only [shapeCast_self]
theorem pay8_3 (v : Vec Ideal S8x601 .f32) (w : Vec Ideal S601x601 .f32) : k8_pay3 v w = k0_pay3 v w := by
  unfold k8_pay3 k0_pay3; rfl
theorem pay8_1 : k8_pay1 (F := Ideal) = k0_pay1 := by unfold k8_pay1 k0_pay1; rfl

/-- The scores' block at the point 8·b + k is tile (b, k) of the scores. -/
theorem iblk8_0_tile (c : Dev nD) (n : ℕ) (hn : n < cfg8.N) (b : Fin 4) (k : Fin 8) (h : n = 8 * b.val + k.val) :
    (iblk8 V c 0 ⟨n, hn⟩ : Vec Ideal S8x256x601 .f32) = RedMath.tile (V c (Pipeline.arrRef spec8 0)) b k := by
  unfold iblk8
  rw [blk8_0_read, tileOf_ideal]
  have hb : bOf (pt8 ⟨n, hn⟩) = b := Fin.ext (by simp only [bOf_val, pt8_val]; omega)
  have hk : nOf (pt8 ⟨n, hn⟩) = k := Fin.ext (by simp only [nOf_val, pt8_val]; omega)
  rw [hb, hk]

/-- The matrix's block is the matrix. -/
theorem iblk8_1_whole (c : Dev nD) (t : Fin cfg8.N) :
    (iblk8 V c 1 t : Vec Ideal S601x601 .f32) = V c (Pipeline.arrRef spec8 1) := by
  unfold iblk8; exact blk8_1_read _ t

/-- The accumulation in closed form: after point 8·b + k the carried buffer holds the running maximum over proposal tiles 0 … k. -/
theorem carried8_eq (c : Dev nD) (b : Fin 4) : ∀ (k : ℕ) (hk : k < 8) (n : ℕ) (hn : n < cfg8.N), n = 8 * b.val + k →
    (outsAt8 V c n hn).2 = RedMath.runMax (V c (Pipeline.arrRef spec8 0)) b k := by
  intro k
  induction k with
  | zero =>
    intro hk n hn h
    have h0 : (⟨n, hn⟩ : Fin cfg8.N).val % 8 = 0 := by simp only; omega
    have h1 : ¬(⟨n, hn⟩ : Fin cfg8.N).val % 8 = 7 := by simp only; omega
    have e := outsAt8_A V c ⟨n, hn⟩ h0 h1
    simp only at e
    rw [e]
    simp only [sout8_A_0_eq, pay8_2, pay8_1]
    rw [iblk8_0_tile V c n hn b ⟨0, by omega⟩ (by simpa using h), RedMath.runMax_zero]
    rfl
  | succ k ih =>
    intro hk n hn h
    have hprev := ih (by omega) (n - 1) (by omega) (by omega)
    have h0 : ¬(⟨n, hn⟩ : Fin cfg8.N).val % 8 = 0 := by simp only; omega
    have hsucc : RedMath.runMax (V c (Pipeline.arrRef spec8 0)) b (k + 1)
        = k0_pay2 (RedMath.tile (V c (Pipeline.arrRef spec8 0)) b ⟨k + 1, hk⟩) (RedMath.runMax (V c (Pipeline.arrRef spec8 0)) b k) := by
      rw [RedMath.runMax_succ]
      congr 2
      exact Fin.ext (Nat.mod_eq_of_lt hk)
    by_cases h1 : (⟨n, hn⟩ : Fin cfg8.N).val % 8 = 7
    · have e := outsAt8_C V c ⟨n, hn⟩ h0 h1
      simp only at e
      rw [e]
      simp only [sout8_C_0_eq, pay8_2]
      rw [iblk8_0_tile V c n hn b ⟨k + 1, hk⟩ (by simpa using h), hprev, hsucc]
    · have e := outsAt8_B V c ⟨n, hn⟩ h0 h1
      simp only at e
      rw [e]
      simp only [sout8_B_0_eq, pay8_2]
      rw [iblk8_0_tile V c n hn b ⟨k + 1, hk⟩ (by simpa using h), hprev, hsucc]

/-- At the last proposal tile of image tile b the output block holds rows 8b … 8b+7 of the pairwise term. -/
theorem outBlock8_eq (c : Dev nD) (b : Fin 4) (n : ℕ) (hn : n < cfg8.N) (h : n = 8 * b.val + 7) :
    (outsAt8 V c n hn).1 = RedMath.rows (Cert.ReferenceIdeal.Crf.pairwise (V c (Pipeline.arrRef spec8 0)) (V c (Pipeline.arrRef spec8 1))) b := by
  have h0 : ¬(⟨n, hn⟩ : Fin cfg8.N).val % 8 = 0 := by simp only; omega
  have h1 : (⟨n, hn⟩ : Fin cfg8.N).val % 8 = 7 := by simp only; omega
  have hprev := carried8_eq V c b 6 (by omega) (n - 1) (by omega) (by omega)
  have e := outsAt8_C V c ⟨n, hn⟩ h0 h1
  simp only at e
  rw [e]
  simp only [out8_C_2_eq, pay8_2, pay8_3]
  rw [iblk8_0_tile V c n hn b ⟨7, by omega⟩ (by simpa using h), iblk8_1_whole, hprev]
  have hsucc : k0_pay2 (RedMath.tile (V c (Pipeline.arrRef spec8 0)) b ⟨7, by omega⟩) (RedMath.runMax (V c (Pipeline.arrRef spec8 0)) b 6)
      = RedMath.runMax (V c (Pipeline.arrRef spec8 0)) b 7 := rfl
  rw [hsucc]
  exact RedMath.reduce_rows (V c (Pipeline.arrRef spec8 0)) (V c (Pipeline.arrRef spec8 1)) b

/-- The result array after the region: the pairwise term of the scores and the matrix as the region finds them. -/
theorem final8 (c : Dev nD) :
    ((dat8 V c).arrAt 2 cfg8.N : S32x601.Idx → Elt Ideal .f32) = Cert.ReferenceIdeal.Crf.pairwise (F := Ideal) (V c (Pipeline.arrRef spec8 0)) (V c (Pipeline.arrRef spec8 1)) := by
  refine (dat8 V c).arrAt_eq_of_cover 2 (Cert.ReferenceIdeal.Crf.pairwise (F := Ideal) (V c (Pipeline.arrRef spec8 0)) (V c (Pipeline.arrRef spec8 1))) (fun t hf => ?_) cover8_2
  have h7 : t.val % 8 = 7 := (flush8_2 t).mp hf
  have hN : t.val < 32 := lt_of_lt_of_eq t.isLt (show cfg8.N = 32 from N_8)
  rw [blk8_2_read, rowsOf_ideal]
  show (dat8 V c).after 2 t = _
  rw [after8_2]
  have hb : bOf (pt8 t) = ⟨t.val / 8, by omega⟩ := Fin.ext (by simp only [bOf_val, pt8_val])
  rw [hb]
  exact outBlock8_eq V c ⟨t.val / 8, by omega⟩ t.val t.isLt (by simp only; omega)

end Cert.KernelIdeal.Frame

end
-- ==== Proof.KI.Upd9Value.lean ====
/-
  The value of the update step's region (custom_call 9): after its 32 grid points the output array holds, at
  every index (image, proposal, class), the unary score there minus the scaled pairwise term of that image and
  class — one whole-array function of the two input arrays as the region finds them, at any float instance.
-/
import proofs.«121405_j17162689315290_1_alg».proof.Proof.KI.Upd9
import proofs.«121405_j17162689315290_1_alg».proof.Proof.KI.Upd1Value
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The body's stored value at an index -/

/-- The stored block at (image, proposal, class) is the scores' block there minus the pairwise block at (image, class):
    the cast to the same shape is the identity, the cast that inserts a unit axis keeps the row-major position
    (image · 601 + class on both sides), and the broadcast along the unit axis reads coordinate 0 there. -/
theorem pay9_apply (x1 : Vec F S8x601 .f32) (x0 : Vec F S8x256x601 .f32) (j : S8x256x601.Idx) :
    k9_pay1 x1 x0 j = FloatOps.subf (x0 j) (x1 (ix2 (j 0) (j 2))) := by
  unfold k9_pay1
  show FloatOps.subf (x0 j) (broadcastTo S8x256x601 (shapeCast S8x1x601 (shapeCast S8x601 x1 shapeCasts_S8x601_S8x601) shapeCasts_S8x601_S8x1x601) broadcasts_S8x1x601_S8x256x601 j) = _
  congr 1
  rw [shapeCast_self]
  refine (broadcastTo_apply (s := S8x1x601) (t := S8x256x601) _ broadcasts_S8x1x601_S8x256x601 j (ix3 (j 0) (0 : Fin 1) (j 2)) (fun a => by
    match a with
    | ⟨0, _⟩ => rfl
    | ⟨1, _⟩ => rfl
    | ⟨2, _⟩ => rfl)).trans ?_
  refine shapeCast_apply (s := S8x601) (t := S8x1x601) x1 shapeCasts_S8x601_S8x1x601 (ix3 (j 0) (0 : Fin 1) (j 2)) (ix2 (j 0) (j 2)) ?_
  rw [Shape.rowMajor_val_two, Shape.rowMajor_val_three]
  show (j 0).val * 601 + (j 2).val = ((j 0).val * 1 + 0) * 601 + (j 2).val
  omega

/-! ## The windows' block indices over the grid -/

/-- Decided over the 32 points: the scores' window moves with the output's on every axis; the pairwise window follows
    the output's image tile and stays at class block 0; the output's block index is (image tile ≤ 3, proposal tile
    ≤ 7, 0). -/
theorem idx_facts9 : ∀ t : Fin cfg9.N,
    win9_0.index t (0 : Fin 3) = win9_2.index t (0 : Fin 3)
    ∧ win9_0.index t (1 : Fin 3) = win9_2.index t (1 : Fin 3)
    ∧ win9_0.index t (2 : Fin 3) = win9_2.index t (2 : Fin 3)
    ∧ win9_1.index t (0 : Fin 2) = win9_2.index t (0 : Fin 3)
    ∧ win9_1.index t (1 : Fin 2) = 0
    ∧ win9_2.index t (0 : Fin 3) ≤ 3
    ∧ win9_2.index t (1 : Fin 3) ≤ 7
    ∧ win9_2.index t (2 : Fin 3) = 0 :=
  (by decide +kernel : ∀ t : Fin grid9.N, _)

/-- Every (image tile, proposal tile) is some point's output block. -/
theorem idx_onto9 : ∀ (q0 : Fin 4) (q1 : Fin 8), ∃ t : Fin cfg9.N, win9_2.index t = ![q0.val, q1.val, 0] :=
  (by decide +kernel : ∀ (q0 : Fin 4) (q1 : Fin 8), ∃ t : Fin grid9.N, win9_2.index t = ![q0.val, q1.val, 0])

/-! ## What a point writes back -/

/-- Point `t` writes back block `t` of `G1` of the two input arrays: a block's coordinate on an axis is its block
    index times the block's extent plus the coordinate inside the block, so by the decided relations the scores' block
    is read where the output's block lies, and the pairwise block at that image and class. -/
theorem flushed9_eq (c : Dev nD) (t : Fin cfg9.N) :
    (dat9 V c).flushed 2 t = ((cfg9.win 2).blk t).view.read (Elt F) (G1 (V c main_arg0) (V c main_v19)) := by
  show (cfg9.win 2).cut (grid9.coords t) ((dat9 V c).after 2 t) = _
  rw [after9_2]
  obtain ⟨e0, e1, e2, e3, e4, e5, e6, e7⟩ := idx_facts9 t
  funext j
  refine (pay9_apply (iblk9 V c 1 t) (iblk9 V c 0 t) j).trans ?_
  show FloatOps.subf (V c main_arg0 (((cfg9.win 0).blk t).view.emb j)) (V c main_v19 (((cfg9.win 1).blk t).view.emb (ix2 (j 0) (j 2))))
    = FloatOps.subf (V c main_arg0 (((cfg9.win 2).blk t).view.emb j))
        (V c main_v19 (ix2 ((((cfg9.win 2).blk t).view.emb j) 0) ((((cfg9.win 2).blk t).view.emb j) 2)))
  have h0 : ((cfg9.win 0).blk t).view.emb j = ((cfg9.win 2).blk t).view.emb j := by
    funext a; apply Fin.ext
    match a with
    | ⟨0, _⟩ => show win9_0.index t (0 : Fin 3) * 8 + 1 * (j 0).val = win9_2.index t (0 : Fin 3) * 8 + 1 * (j 0).val; omega
    | ⟨1, _⟩ => show win9_0.index t (1 : Fin 3) * 256 + 1 * (j 1).val = win9_2.index t (1 : Fin 3) * 256 + 1 * (j 1).val; omega
    | ⟨2, _⟩ => show win9_0.index t (2 : Fin 3) * 601 + 1 * (j 2).val = win9_2.index t (2 : Fin 3) * 601 + 1 * (j 2).val; omega
  have h1 : ((cfg9.win 1).blk t).view.emb (ix2 (j 0) (j 2))
      = ix2 ((((cfg9.win 2).blk t).view.emb j) 0) ((((cfg9.win 2).blk t).view.emb j) 2) := by
    funext a; apply Fin.ext
    match a with
    | ⟨0, _⟩ => show win9_1.index t (0 : Fin 2) * 8 + 1 * (j 0).val = win9_2.index t (0 : Fin 3) * 8 + 1 * (j 0).val; omega
    | ⟨1, _⟩ => show win9_1.index t (1 : Fin 2) * 601 + 1 * (j 2).val = win9_2.index t (2 : Fin 3) * 601 + 1 * (j 2).val; omega
  rw [h0, h1]
  rfl

/-! ## The output's blocks tile its array -/

/-- An index of the output array is in point `t`'s block iff each coordinate is in the block's range on its axis. -/
theorem mem_blk9 (t : Fin cfg9.N) (i : S32x2048x601.Idx) :
    i ∈ ((cfg9.win 2).blk t).view.set ↔ ∀ a : Fin 3, win9_2.index t a * S8x256x601.size a ≤ (i a).val ∧ (i a).val < win9_2.index t a * S8x256x601.size a + S8x256x601.size a := by
  show i ∈ ((View.whole main_v20).slice (win9_2.rect t)).set ↔ _
  rw [View.set_slice_whole, Rect.mem_set_unit]
  exact Iff.rfl

/-- Every index is in the block of the point whose output block is (image / 8, proposal / 256, 0), and every point
    writes its block back. -/
theorem covered9 (i : S32x2048x601.Idx) :
    ∃ t : Fin cfg9.N, (cfg9.win 2).flush t = true ∧ i ∈ ((cfg9.win 2).blk t).view.set := by
  have hi0 : (i 0).val < 32 := (i 0).isLt
  have hi1 : (i 1).val < 2048 := (i 1).isLt
  have hi2 : (i 2).val < 601 := (i 2).isLt
  obtain ⟨t, ht⟩ := idx_onto9 ⟨(i 0).val / 8, by omega⟩ ⟨(i 1).val / 256, by omega⟩
  have q0 : win9_2.index t (0 : Fin 3) = (i 0).val / 8 := congrFun ht 0
  have q1 : win9_2.index t (1 : Fin 3) = (i 1).val / 256 := congrFun ht 1
  have q2 : win9_2.index t (2 : Fin 3) = 0 := congrFun ht 2
  refine ⟨t, flush9_2 t, ?_⟩
  rw [mem_blk9]
  intro a
  match a with
  | ⟨0, _⟩ => show win9_2.index t (0 : Fin 3) * 8 ≤ (i 0).val ∧ (i 0).val < win9_2.index t (0 : Fin 3) * 8 + 8; omega
  | ⟨1, _⟩ => show win9_2.index t (1 : Fin 3) * 256 ≤ (i 1).val ∧ (i 1).val < win9_2.index t (1 : Fin 3) * 256 + 256; omega
  | ⟨2, _⟩ => show win9_2.index t (2 : Fin 3) * 601 ≤ (i 2).val ∧ (i 2).val < win9_2.index t (2 : Fin 3) * 601 + 601; omega

/-! ## The array after the region -/

/-- After the last point the output array is `G1` of the unary scores and the scaled pairwise array as the region
    found them. -/
theorem final9 (c : Dev nD) : (dat9 V c).arrAt 2 cfg9.N = G1 (V c main_arg0) (V c main_v19) :=
  (dat9 V c).arrAt_eq_of_cover 2 (G1 (V c main_arg0) (V c main_v19)) (fun t _ => flushed9_eq V c t) covered9

end Cert.KernelIdeal.Frame
-- ==== Proof.KI.Red10Pieces.lean ====
/-
  The reduce call (custom_call 10): the contents each kind of grid point leaves, as the body's arithmetic.
  The stores are of whole buffers, so what is read back after them is the last store's payload; a load
  that follows a store of the same buffer reads that store's payload.
-/
import proofs.«121405_j17162689315290_1_alg».proof.Proof.KI.Red10
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces are: the payloads -/

theorem hz10_2 : (![0, 0] : Fin 2 → Nat) = fun _ => 0 := by funext a; fin_cases a <;> rfl
theorem hz10_3 : (![0, 0, 0] : Fin 3 → Nat) = fun _ => 0 := by funext a; fin_cases a <;> rfl

/-- After a first proposal tile the carried buffer holds the tile's maximum folded into the reset value. -/
theorem sout10_A_0_eq (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond10_0 i) (hc1 : ¬cond10_1 i) (x0 : Vec F S8x256x601 .f32) :
    sout10_A_0 c i arg2 harg2 arg3 harg3 arg4 harg4 arg5 harg5 hc0 hc1 x0 = k10_pay2 x0 (k10_pay1 (F := F)) := by
  unfold sout10_A_0
  rw [View.read_writes_eq_canon _ _ _ (scover10_A_0 c i arg2 harg2 arg3 harg3 arg4 harg4 arg5 harg5 hc0 hc1 x0)]
  unfold kernelRun10_A
  dsimp only
  sl_unfold_words
  rw [View.canon_cons_unit_zero hz10_2]
  simp only [View.readAt_eq_ld, harg2.read_unread, View.ld_unit_zero (S := S8x256x601) hz10_3]
  exact congrArg (k10_pay2 x0) (View.readCov_unit_zero (S := S8x601) arg5.view hz10_2 _ _)

/-- After an inner tile: the tile's maximum folded into what the point before left. -/
theorem sout10_B_0_eq (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : ¬cond10_1 i) (x0 : Vec F S8x256x601 .f32) (xs0 : Vec F S8x601 .f32) :
    sout10_B_0 c i arg2 harg2 arg3 harg3 arg4 harg4 arg5 harg5 hc0 hc1 x0 xs0 = k10_pay2 x0 xs0 := by
  unfold sout10_B_0
  rw [View.read_writes_eq_canon _ _ _ (scover10_B_0 c i arg2 harg2 arg3 harg3 arg4 harg4 arg5 harg5 hc0 hc1 x0 xs0)]
  unfold kernelRun10_B
  dsimp only
  sl_unfold_words
  rw [View.canon_unit_zero hz10_2]
  simp only [View.readAt_eq_ld, harg2.read_unread, harg5.read_unread, View.ld_unit_zero (S := S8x256x601) hz10_3, View.ld_unit_zero (S := S8x601) hz10_2]
  try rfl

/-- After a last tile the carried buffer likewise, -/
theorem sout10_C_0_eq (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i) (x0 : Vec F S8x256x601 .f32) (x1 : Vec F S601x601 .f32) (xs0 : Vec F S8x601 .f32) :
    sout10_C_0 c i arg2 harg2 arg3 harg3 arg4 harg4 arg5 harg5 hc0 hc1 x0 x1 xs0 = k10_pay2 x0 xs0 := by
  unfold sout10_C_0
  rw [View.read_writes_eq_canon _ _ _ (scover10_C_0 c i arg2 harg2 arg3 harg3 arg4 harg4 arg5 harg5 hc0 hc1 x0 x1 xs0)]
  unfold kernelRun10_C
  dsimp only
  sl_unfold_words
  rw [View.canon_unit_zero hz10_2]
  simp only [View.readAt_eq_ld, harg2.read_unread, harg5.read_unread, View.ld_unit_zero (S := S8x256x601) hz10_3, View.ld_unit_zero (S := S8x601) hz10_2]
  try rfl

/-- and the output block holds that maximum times the matrix's block. -/
theorem out10_C_2_eq (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i) (x0 : Vec F S8x256x601 .f32) (x1 : Vec F S601x601 .f32) (xs0 : Vec F S8x601 .f32) :
    out10_C_2 c i arg2 harg2 arg3 harg3 arg4 harg4 arg5 harg5 hc0 hc1 x0 x1 xs0 = k10_pay3 (k10_pay2 x0 xs0) x1 := by
  unfold out10_C_2
  rw [View.read_writes_eq_canon _ _ _ (cover10_C_2 c i arg2 harg2 arg3 harg3 arg4 harg4 arg5 harg5 hc0 hc1 x0 x1 xs0)]
  unfold kernelRun10_C
  dsimp only
  sl_unfold_words
  rw [View.canon_unit_zero hz10_2]
  simp only [View.readAt_eq_ld, harg2.read_unread, harg3.read_unread, harg5.read_unread, View.ld_unit_zero (S := S8x256x601) hz10_3, View.ld_unit_zero (S := S601x601) hz10_2, View.ld_unit_zero (S := S8x601) hz10_2]
  exact congrArg (fun z => k10_pay3 z x1) (View.readCov_unit_zero (S := S8x601) arg5.view hz10_2 _ _)

end Cert.KernelIdeal.Frame

end
-- ==== Proof.KI.Blocks10.lean ====
/-
  The blocks of the reduce call 10 and the update call 11 as tiles of their whole arrays, and which grid points'
  result blocks hold a given index: the same facts as for calls 0 and 1, for this pair's windows.
-/
import proofs.«121405_j17162689315290_1_alg».proof.Proof.KI.Blocks

noncomputable section

namespace Cert.KernelIdeal.Frame

open Cert.KernelIdeal Cert.KernelIdeal.Gen Idealize.ShloMosaic Idealize.ShloMosaic.ValueIdx

variable {F : FTy → Type} [FloatOps F]

/-- A point of the reduce call's grid as a number below 32, and likewise for the update call. -/
abbrev pt10 (t : Fin cfg10.N) : Fin 32 := t.cast N_10
abbrev pt11 (t : Fin cfg11.N) : Fin 32 := t.cast N_11

@[simp] theorem pt10_val (t : Fin cfg10.N) : (pt10 t).val = t.val := rfl
@[simp] theorem pt11_val (t : Fin cfg11.N) : (pt11 t).val = t.val := rfl

/-! ## The printed index maps, decided once over the grid -/

/-- The reduce call: scores at block (t / 8, t % 8, 0), the matrix at block (0, 0), the result at block (t / 8, 0). -/
theorem idx10 : ∀ t : Fin cfg10.N,
    (win10_0.index t (0 : Fin 3) = t.val / 8 ∧ win10_0.index t (1 : Fin 3) = t.val % 8 ∧ win10_0.index t (2 : Fin 3) = 0)
    ∧ (win10_1.index t (0 : Fin 2) = 0 ∧ win10_1.index t (1 : Fin 2) = 0)
    ∧ (win10_2.index t (0 : Fin 2) = t.val / 8 ∧ win10_2.index t (1 : Fin 2) = 0) :=
  (by decide +kernel : ∀ t : Fin grid10.N, _)

/-- The update call: unaries and result at block (t / 8, t % 8, 0), the per-image rows at block (t / 8, 0). -/
theorem idx11 : ∀ t : Fin cfg11.N,
    (win11_0.index t (0 : Fin 3) = t.val / 8 ∧ win11_0.index t (1 : Fin 3) = t.val % 8 ∧ win11_0.index t (2 : Fin 3) = 0)
    ∧ (win11_1.index t (0 : Fin 2) = t.val / 8 ∧ win11_1.index t (1 : Fin 2) = 0)
    ∧ (win11_2.index t (0 : Fin 3) = t.val / 8 ∧ win11_2.index t (1 : Fin 3) = t.val % 8 ∧ win11_2.index t (2 : Fin 3) = 0) :=
  (by decide +kernel : ∀ t : Fin grid11.N, _)

/-! ## Each block, read off its whole array -/

/-- The reduce call's block of scores at point `t` is the tile at image tile `t / 8`, proposal tile `t % 8`. -/
theorem blk10_0_read (A : FVec F S32x2048x601 .f32) (t : Fin cfg10.N) :
    (((cfg10.win 0).blk t).view.read (Elt F) A : Vec F S8x256x601 .f32) = tileOf A (bOf (pt10 t)) (nOf (pt10 t)) := by
  obtain ⟨⟨e0, e1, e2⟩, -, -⟩ := idx10 t
  funext y
  rw [View.read_apply]
  show A (((cfg10.win 0).blk t).view.emb y) = A _
  congr 1
  funext a
  apply Fin.ext
  match a with
  | ⟨0, _⟩ => show win10_0.index t (0 : Fin 3) * 8 + 1 * (y 0).val = 8 * (t.val / 8) + (y 0).val; omega
  | ⟨1, _⟩ => show win10_0.index t (1 : Fin 3) * 256 + 1 * (y 1).val = 256 * (t.val % 8) + (y 1).val; omega
  | ⟨2, _⟩ => show win10_0.index t (2 : Fin 3) * 601 + 1 * (y 2).val = (y 2).val; omega

/-- The reduce call's one block of the compatibility matrix is the matrix. -/
theorem blk10_1_read (A : FVec F S601x601 .f32) (t : Fin cfg10.N) :
    (((cfg10.win 1).blk t).view.read (Elt F) A : Vec F S601x601 .f32) = A := by
  obtain ⟨-, ⟨e0, e1⟩, -⟩ := idx10 t
  funext y
  rw [View.read_apply]
  show A (((cfg10.win 1).blk t).view.emb y) = A y
  congr 1
  funext a
  apply Fin.ext
  match a with
  | ⟨0, _⟩ => show win10_1.index t (0 : Fin 2) * 601 + 1 * (y 0).val = (y 0).val; omega
  | ⟨1, _⟩ => show win10_1.index t (1 : Fin 2) * 601 + 1 * (y 1).val = (y 1).val; omega

/-- The reduce call's result block at point `t` is rows `8·(t / 8) …` of the per-image array. -/
theorem blk10_2_read (X : FVec F S32x601 .f32) (t : Fin cfg10.N) :
    (((cfg10.win 2).blk t).view.read (Elt F) X : Vec F S8x601 .f32) = rowsOf X (bOf (pt10 t)) := by
  obtain ⟨-, -, ⟨e0, e1⟩⟩ := idx10 t
  funext y
  rw [View.read_apply]
  show X (((cfg10.win 2).blk t).view.emb y) = X _
  congr 1
  funext a
  apply Fin.ext
  match a with
  | ⟨0, _⟩ => show win10_2.index t (0 : Fin 2) * 8 + 1 * (y 0).val = 8 * (t.val / 8) + (y 0).val; omega
  | ⟨1, _⟩ => show win10_2.index t (1 : Fin 2) * 601 + 1 * (y 1).val = (y 1).val; omega

/-- The update call's block of unaries at point `t` is the tile at image tile `t / 8`, proposal tile `t % 8`. -/
theorem blk11_0_read (A : FVec F S32x2048x601 .f32) (t : Fin cfg11.N) :
    (((cfg11.win 0).blk t).view.read (Elt F) A : Vec F S8x256x601 .f32) = tileOf A (bOf (pt11 t)) (nOf (pt11 t)) := by
  obtain ⟨⟨e0, e1, e2⟩, -, -⟩ := idx11 t
  funext y
  rw [View.read_apply]
  show A (((cfg11.win 0).blk t).view.emb y) = A _
  congr 1
  funext a
  apply Fin.ext
  match a with
  | ⟨0, _⟩ => show win11_0.index t (0 : Fin 3) * 8 + 1 * (y 0).val = 8 * (t.val / 8) + (y 0).val; omega
  | ⟨1, _⟩ => show win11_0.index t (1 : Fin 3) * 256 + 1 * (y 1).val = 256 * (t.val % 8) + (y 1).val; omega
  | ⟨2, _⟩ => show win11_0.index t (2 : Fin 3) * 601 + 1 * (y 2).val = (y 2).val; omega

/-- The update call's block of the per-image array at point `t` is its rows `8·(t / 8) …`. -/
theorem blk11_1_read (X : FVec F S32x601 .f32) (t : Fin cfg11.N) :
    (((cfg11.win 1).blk t).view.read (Elt F) X : Vec F S8x601 .f32) = rowsOf X (bOf (pt11 t)) := by
  obtain ⟨-, ⟨e0, e1⟩, -⟩ := idx11 t
  funext y
  rw [View.read_apply]
  show X (((cfg11.win 1).blk t).view.emb y) = X _
  congr 1
  funext a
  apply Fin.ext
  match a with
  | ⟨0, _⟩ => show win11_1.index t (0 : Fin 2) * 8 + 1 * (y 0).val = 8 * (t.val / 8) + (y 0).val; omega
  | ⟨1, _⟩ => show win11_1.index t (1 : Fin 2) * 601 + 1 * (y 1).val = (y 1).val; omega

/-- The update call's result block at point `t` is the tile at image tile `t / 8`, proposal tile `t % 8`. -/
theorem blk11_2_read (A : FVec F S32x2048x601 .f32) (t : Fin cfg11.N) :
    (((cfg11.win 2).blk t).view.read (Elt F) A : Vec F S8x256x601 .f32) = tileOf A (bOf (pt11 t)) (nOf (pt11 t)) := by
  obtain ⟨-, -, ⟨e0, e1, e2⟩⟩ := idx11 t
  funext y
  rw [View.read_apply]
  show A (((cfg11.win 2).blk t).view.emb y) = A _
  congr 1
  funext a
  apply Fin.ext
  match a with
  | ⟨0, _⟩ => show win11_2.index t (0 : Fin 3) * 8 + 1 * (y 0).val = 8 * (t.val / 8) + (y 0).val; omega
  | ⟨1, _⟩ => show win11_2.index t (1 : Fin 3) * 256 + 1 * (y 1).val = 256 * (t.val % 8) + (y 1).val; omega
  | ⟨2, _⟩ => show win11_2.index t (2 : Fin 3) * 601 + 1 * (y 2).val = (y 2).val; omega

/-! ## Which points' result blocks hold a given index -/

/-- An index of the per-image array is in the reduce call's result block at point `t` iff, on each axis, it is
    in the block's range. -/
theorem mem_blk10_2 (t : Fin cfg10.N) (i : S32x601.Idx) :
    i ∈ ((cfg10.win 2).blk t).view.set ↔ ∀ a : Fin 2, win10_2.index t a * S8x601.size a ≤ (i a).val ∧ (i a).val < win10_2.index t a * S8x601.size a + S8x601.size a := by
  show i ∈ ((View.whole main_v21).slice (win10_2.rect t)).set ↔ _
  rw [View.set_slice_whole, Rect.mem_set_unit]
  exact Iff.rfl

/-- … that is, iff its image lies in the point's image tile. -/
theorem mem_blk10_2_iff (t : Fin cfg10.N) (i : S32x601.Idx) :
    i ∈ ((cfg10.win 2).blk t).view.set ↔ (i 0).val / 8 = t.val / 8 := by
  rw [mem_blk10_2]
  obtain ⟨-, -, ⟨e0, e1⟩⟩ := idx10 t
  have h1 : (i 1).val < 601 := (i 1).isLt
  constructor
  · intro h
    have b0 : win10_2.index t (0 : Fin 2) * 8 ≤ (i 0).val ∧ (i 0).val < win10_2.index t (0 : Fin 2) * 8 + 8 := h 0
    omega
  · intro h a
    match a with
    | ⟨0, _⟩ => show win10_2.index t (0 : Fin 2) * 8 ≤ (i 0).val ∧ (i 0).val < win10_2.index t (0 : Fin 2) * 8 + 8; omega
    | ⟨1, _⟩ => show win10_2.index t (1 : Fin 2) * 601 ≤ (i 1).val ∧ (i 1).val < win10_2.index t (1 : Fin 2) * 601 + 601; omega

/-- The point that writes back the rows of image `r`: the last proposal tile of image tile `r / 8`. -/
def lastPt10 (r : Fin 32) : Fin cfg10.N := ⟨8 * (r.val / 8) + 7, by rw [show cfg10.N = 32 from N_10]; omega⟩

@[simp] theorem lastPt10_val (r : Fin 32) : (lastPt10 r).val = 8 * (r.val / 8) + 7 := rfl

/-- Every index of the per-image array is in the result block of a point that writes it back: the last
    proposal tile of its image's tile. -/
theorem cover10_2 (i : S32x601.Idx) :
    ∃ t : Fin cfg10.N, (cfg10.win 2).flush t = true ∧ i ∈ ((cfg10.win 2).blk t).view.set := by
  have h0 : (i 0).val < 32 := (i 0).isLt
  refine ⟨lastPt10 ⟨(i 0).val, h0⟩, (flush10_2 _).mpr ?_, (mem_blk10_2_iff _ i).mpr ?_⟩
  · show (8 * ((i 0).val / 8) + 7) % 8 = 7; omega
  · show (i 0).val / 8 = (8 * ((i 0).val / 8) + 7) / 8; omega

/-- The points that write the reduce call's result back and hold a given index are exactly the last proposal
    tile of its image's tile. -/
theorem flush_mem10_2_iff (t : Fin cfg10.N) (i : S32x601.Idx) :
    ((cfg10.win 2).flush t = true ∧ i ∈ ((cfg10.win 2).blk t).view.set) ↔ t.val = 8 * ((i 0).val / 8) + 7 := by
  rw [flush10_2, mem_blk10_2_iff]
  have ht : t.val < 32 := (pt10 t).isLt
  omega

/-- An index of the scores-shaped result is in the update call's result block at point `t` iff, on each axis, it
    is in the block's range. -/
theorem mem_blk11_2 (t : Fin cfg11.N) (i : S32x2048x601.Idx) :
    i ∈ ((cfg11.win 2).blk t).view.set ↔ ∀ a : Fin 3, win11_2.index t a * S8x256x601.size a ≤ (i a).val ∧ (i a).val < win11_2.index t a * S8x256x601.size a + S8x256x601.size a := by
  show i ∈ ((View.whole main_v24).slice (win11_2.rect t)).set ↔ _
  rw [View.set_slice_whole, Rect.mem_set_unit]
  exact Iff.rfl

/-- … that is, iff its image and its proposal lie in the point's tiles. -/
theorem mem_blk11_2_iff (t : Fin cfg11.N) (i : S32x2048x601.Idx) :
    i ∈ ((cfg11.win 2).blk t).view.set ↔ (i 0).val / 8 = t.val / 8 ∧ (i 1).val / 256 = t.val % 8 := by
  rw [mem_blk11_2]
  obtain ⟨-, -, ⟨e0, e1, e2⟩⟩ := idx11 t
  have h2 : (i 2).val < 601 := (i 2).isLt
  constructor
  · intro h
    have b0 : win11_2.index t (0 : Fin 3) * 8 ≤ (i 0).val ∧ (i 0).val < win11_2.index t (0 : Fin 3) * 8 + 8 := h 0
    have b1 : win11_2.index t (1 : Fin 3) * 256 ≤ (i 1).val ∧ (i 1).val < win11_2.index t (1 : Fin 3) * 256 + 256 := h 1
    omega
  · intro h a
    match a with
    | ⟨0, _⟩ => show win11_2.index t (0 : Fin 3) * 8 ≤ (i 0).val ∧ (i 0).val < win11_2.index t (0 : Fin 3) * 8 + 8; omega
    | ⟨1, _⟩ => show win11_2.index t (1 : Fin 3) * 256 ≤ (i 1).val ∧ (i 1).val < win11_2.index t (1 : Fin 3) * 256 + 256; omega
    | ⟨2, _⟩ => show win11_2.index t (2 : Fin 3) * 601 ≤ (i 2).val ∧ (i 2).val < win11_2.index t (2 : Fin 3) * 601 + 601; omega

/-- The point whose tiles hold image `r` and proposal `p`. -/
def ptOf11 (r : Fin 32) (p : Fin 2048) : Fin cfg11.N := ⟨8 * (r.val / 8) + p.val / 256, by rw [show cfg11.N = 32 from N_11]; omega⟩

@[simp] theorem ptOf11_val (r : Fin 32) (p : Fin 2048) : (ptOf11 r p).val = 8 * (r.val / 8) + p.val / 256 := rfl

/-- Every index of the update call's result is in the result block of a point (every point writes back): the
    point of its image's and its proposal's tiles. -/
theorem cover11_2 (i : S32x2048x601.Idx) :
    ∃ t : Fin cfg11.N, (cfg11.win 2).flush t = true ∧ i ∈ ((cfg11.win 2).blk t).view.set := by
  have h0 : (i 0).val < 32 := (i 0).isLt
  have h1 : (i 1).val < 2048 := (i 1).isLt
  refine ⟨ptOf11 ⟨(i 0).val, h0⟩ ⟨(i 1).val, h1⟩, flush11_2 _, (mem_blk11_2_iff _ i).mpr ⟨?_, ?_⟩⟩
  · show (i 0).val / 8 = (8 * ((i 0).val / 8) + (i 1).val / 256) / 8; omega
  · show (i 1).val / 256 = (8 * ((i 0).val / 8) + (i 1).val / 256) % 8; omega

/-- The one point whose result block holds a given index of the update call's result. -/
theorem mem_blk11_2_iff_pt (t : Fin cfg11.N) (i : S32x2048x601.Idx) :
    i ∈ ((cfg11.win 2).blk t).view.set ↔ t.val = 8 * ((i 0).val / 8) + (i 1).val / 256 := by
  rw [mem_blk11_2_iff]
  have ht : t.val < 32 := (pt11 t).isLt
  have h1 : (i 1).val < 2048 := (i 1).isLt
  omega

end Cert.KernelIdeal.Frame

end
-- ==== Proof.KI.Red10Value.lean ====
/-
  The reduce call (custom_call 10) at the exact instance: what it leaves in its result array.

  With q the scores and M the compatibility matrix as the region finds them: after the point of image tile b
  and proposal tile k the carried buffer holds the running maximum of the tiles' softmax maxima over proposal
  tiles 0 … k of image tile b; at k = 7 the output block is that maximum times M, which is rows 8b … 8b+7 of
  the specification's pairwise term; the eight-point runs' blocks tile the result, so the result array ends
  at the pairwise term of q and M.
-/
import proofs.«121405_j17162689315290_1_alg».proof.Proof.KI.Red10Pieces
import proofs.«121405_j17162689315290_1_alg».proof.Proof.KI.Blocks10
import proofs.«121405_j17162689315290_1_alg».proof.Proof.RedMath
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

/-- This call's arithmetic is the first reduce call's: its loaded block of scores only passes through an identity
    cast first. -/
theorem pay10_2 (v : Vec Ideal S8x256x601 .f32) (w : Vec Ideal S8x601 .f32) : k10_pay2 v w = k0_pay2 v w := by
  unfold k10_pay2 k0_pay2; simp only [shapeCast_self]
theorem pay10_3 (v : Vec Ideal S8x601 .f32) (w : Vec Ideal S601x601 .f32) : k10_pay3 v w = k0_pay3 v w := by
  unfold k10_pay3 k0_pay3; rfl
theorem pay10_1 : k10_pay1 (F := Ideal) = k0_pay1 := by unfold k10_pay1 k0_pay1; rfl

/-- The scores' block at the point 8·b + k is tile (b, k) of the scores. -/
theorem iblk10_0_tile (c : Dev nD) (n : ℕ) (hn : n < cfg10.N) (b : Fin 4) (k : Fin 8) (h : n = 8 * b.val + k.val) :
    (iblk10 V c 0 ⟨n, hn⟩ : Vec Ideal S8x256x601 .f32) = RedMath.tile (V c (Pipeline.arrRef spec10 0)) b k := by
  unfold iblk10
  rw [blk10_0_read, tileOf_ideal]
  have hb : bOf (pt10 ⟨n, hn⟩) = b := Fin.ext (by simp only [bOf_val, pt10_val]; omega)
  have hk : nOf (pt10 ⟨n, hn⟩) = k := Fin.ext (by simp only [nOf_val, pt10_val]; omega)
  rw [hb, hk]

/-- The matrix's block is the matrix. -/
theorem iblk10_1_whole (c : Dev nD) (t : Fin cfg10.N) :
    (iblk10 V c 1 t : Vec Ideal S601x601 .f32) = V c (Pipeline.arrRef spec10 1) := by
  unfold iblk10; exact blk10_1_read _ t

/-- The accumulation in closed form: after point 8·b + k the carried buffer holds the running maximum over proposal tiles 0 … k. -/
theorem carried10_eq (c : Dev nD) (b : Fin 4) : ∀ (k : ℕ) (hk : k < 8) (n : ℕ) (hn : n < cfg10.N), n = 8 * b.val + k →
    (outsAt10 V c n hn).2 = RedMath.runMax (V c (Pipeline.arrRef spec10 0)) b k := by
  intro k
  induction k with
  | zero =>
    intro hk n hn h
    have h0 : (⟨n, hn⟩ : Fin cfg10.N).val % 8 = 0 := by simp only; omega
    have h1 : ¬(⟨n, hn⟩ : Fin cfg10.N).val % 8 = 7 := by simp only; omega
    have e := outsAt10_A V c ⟨n, hn⟩ h0 h1
    simp only at e
    rw [e]
    simp only [sout10_A_0_eq, pay10_2, pay10_1]
    rw [iblk10_0_tile V c n hn b ⟨0, by omega⟩ (by simpa using h), RedMath.runMax_zero]
    rfl
  | succ k ih =>
    intro hk n hn h
    have hprev := ih (by omega) (n - 1) (by omega) (by omega)
    have h0 : ¬(⟨n, hn⟩ : Fin cfg10.N).val % 8 = 0 := by simp only; omega
    have hsucc : RedMath.runMax (V c (Pipeline.arrRef spec10 0)) b (k + 1)
        = k0_pay2 (RedMath.tile (V c (Pipeline.arrRef spec10 0)) b ⟨k + 1, hk⟩) (RedMath.runMax (V c (Pipeline.arrRef spec10 0)) b k) := by
      rw [RedMath.runMax_succ]
      congr 2
      exact Fin.ext (Nat.mod_eq_of_lt hk)
    by_cases h1 : (⟨n, hn⟩ : Fin cfg10.N).val % 8 = 7
    · have e := outsAt10_C V c ⟨n, hn⟩ h0 h1
      simp only at e
      rw [e]
      simp only [sout10_C_0_eq, pay10_2]
      rw [iblk10_0_tile V c n hn b ⟨k + 1, hk⟩ (by simpa using h), hprev, hsucc]
    · have e := outsAt10_B V c ⟨n, hn⟩ h0 h1
      simp only at e
      rw [e]
      simp only [sout10_B_0_eq, pay10_2]
      rw [iblk10_0_tile V c n hn b ⟨k + 1, hk⟩ (by simpa using h), hprev, hsucc]

/-- At the last proposal tile of image tile b the output block holds rows 8b … 8b+7 of the pairwise term. -/
theorem outBlock10_eq (c : Dev nD) (b : Fin 4) (n : ℕ) (hn : n < cfg10.N) (h : n = 8 * b.val + 7) :
    (outsAt10 V c n hn).1 = RedMath.rows (Cert.ReferenceIdeal.Crf.pairwise (V c (Pipeline.arrRef spec10 0)) (V c (Pipeline.arrRef spec10 1))) b := by
  have h0 : ¬(⟨n, hn⟩ : Fin cfg10.N).val % 8 = 0 := by simp only; omega
  have h1 : (⟨n, hn⟩ : Fin cfg10.N).val % 8 = 7 := by simp only; omega
  have hprev := carried10_eq V c b 6 (by omega) (n - 1) (by omega) (by omega)
  have e := outsAt10_C V c ⟨n, hn⟩ h0 h1
  simp only at e
  rw [e]
  simp only [out10_C_2_eq, pay10_2, pay10_3]
  rw [iblk10_0_tile V c n hn b ⟨7, by omega⟩ (by simpa using h), iblk10_1_whole, hprev]
  have hsucc : k0_pay2 (RedMath.tile (V c (Pipeline.arrRef spec10 0)) b ⟨7, by omega⟩) (RedMath.runMax (V c (Pipeline.arrRef spec10 0)) b 6)
      = RedMath.runMax (V c (Pipeline.arrRef spec10 0)) b 7 := rfl
  rw [hsucc]
  exact RedMath.reduce_rows (V c (Pipeline.arrRef spec10 0)) (V c (Pipeline.arrRef spec10 1)) b

/-- The result array after the region: the pairwise term of the scores and the matrix as the region finds them. -/
theorem final10 (c : Dev nD) :
    ((dat10 V c).arrAt 2 cfg10.N : S32x601.Idx → Elt Ideal .f32) = Cert.ReferenceIdeal.Crf.pairwise (F := Ideal) (V c (Pipeline.arrRef spec10 0)) (V c (Pipeline.arrRef spec10 1)) := by
  refine (dat10 V c).arrAt_eq_of_cover 2 (Cert.ReferenceIdeal.Crf.pairwise (F := Ideal) (V c (Pipeline.arrRef spec10 0)) (V c (Pipeline.arrRef spec10 1))) (fun t hf => ?_) cover10_2
  have h7 : t.val % 8 = 7 := (flush10_2 t).mp hf
  have hN : t.val < 32 := lt_of_lt_of_eq t.isLt (show cfg10.N = 32 from N_10)
  rw [blk10_2_read, rowsOf_ideal]
  show (dat10 V c).after 2 t = _
  rw [after10_2]
  have hb : bOf (pt10 t) = ⟨t.val / 8, by omega⟩ := Fin.ext (by simp only [bOf_val, pt10_val])
  rw [hb]
  exact outBlock10_eq V c ⟨t.val / 8, by omega⟩ t.val t.isLt (by simp only; omega)

end Cert.KernelIdeal.Frame

end
-- ==== Proof.KI.Upd11Value.lean ====
/-
  The value of the update step's region (custom_call 11): after its 32 grid points the output array holds, at
  every index (image, proposal, class), the unary score there minus the scaled pairwise term of that image and
  class — one whole-array function of the two input arrays as the region finds them, at any float instance.
-/
import proofs.«121405_j17162689315290_1_alg».proof.Proof.KI.Upd11
import proofs.«121405_j17162689315290_1_alg».proof.Proof.KI.Upd1Value
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The body's stored value at an index -/

/-- The stored block at (image, proposal, class) is the scores' block there minus the pairwise block at (image, class):
    the cast to the same shape is the identity, the cast that inserts a unit axis keeps the row-major position
    (image · 601 + class on both sides), and the broadcast along the unit axis reads coordinate 0 there. -/
theorem pay11_apply (x1 : Vec F S8x601 .f32) (x0 : Vec F S8x256x601 .f32) (j : S8x256x601.Idx) :
    k11_pay1 x1 x0 j = FloatOps.subf (x0 j) (x1 (ix2 (j 0) (j 2))) := by
  unfold k11_pay1
  show FloatOps.subf (x0 j) (broadcastTo S8x256x601 (shapeCast S8x1x601 (shapeCast S8x601 x1 shapeCasts_S8x601_S8x601) shapeCasts_S8x601_S8x1x601) broadcasts_S8x1x601_S8x256x601 j) = _
  congr 1
  rw [shapeCast_self]
  refine (broadcastTo_apply (s := S8x1x601) (t := S8x256x601) _ broadcasts_S8x1x601_S8x256x601 j (ix3 (j 0) (0 : Fin 1) (j 2)) (fun a => by
    match a with
    | ⟨0, _⟩ => rfl
    | ⟨1, _⟩ => rfl
    | ⟨2, _⟩ => rfl)).trans ?_
  refine shapeCast_apply (s := S8x601) (t := S8x1x601) x1 shapeCasts_S8x601_S8x1x601 (ix3 (j 0) (0 : Fin 1) (j 2)) (ix2 (j 0) (j 2)) ?_
  rw [Shape.rowMajor_val_two, Shape.rowMajor_val_three]
  show (j 0).val * 601 + (j 2).val = ((j 0).val * 1 + 0) * 601 + (j 2).val
  omega

/-! ## The windows' block indices over the grid -/

/-- Decided over the 32 points: the scores' window moves with the output's on every axis; the pairwise window follows
    the output's image tile and stays at class block 0; the output's block index is (image tile ≤ 3, proposal tile
    ≤ 7, 0). -/
theorem idx_facts11 : ∀ t : Fin cfg11.N,
    win11_0.index t (0 : Fin 3) = win11_2.index t (0 : Fin 3)
    ∧ win11_0.index t (1 : Fin 3) = win11_2.index t (1 : Fin 3)
    ∧ win11_0.index t (2 : Fin 3) = win11_2.index t (2 : Fin 3)
    ∧ win11_1.index t (0 : Fin 2) = win11_2.index t (0 : Fin 3)
    ∧ win11_1.index t (1 : Fin 2) = 0
    ∧ win11_2.index t (0 : Fin 3) ≤ 3
    ∧ win11_2.index t (1 : Fin 3) ≤ 7
    ∧ win11_2.index t (2 : Fin 3) = 0 :=
  (by decide +kernel : ∀ t : Fin grid11.N, _)

/-- Every (image tile, proposal tile) is some point's output block. -/
theorem idx_onto11 : ∀ (q0 : Fin 4) (q1 : Fin 8), ∃ t : Fin cfg11.N, win11_2.index t = ![q0.val, q1.val, 0] :=
  (by decide +kernel : ∀ (q0 : Fin 4) (q1 : Fin 8), ∃ t : Fin grid11.N, win11_2.index t = ![q0.val, q1.val, 0])

/-! ## What a point writes back -/

/-- Point `t` writes back block `t` of `G1` of the two input arrays: a block's coordinate on an axis is its block
    index times the block's extent plus the coordinate inside the block, so by the decided relations the scores' block
    is read where the output's block lies, and the pairwise block at that image and class. -/
theorem flushed11_eq (c : Dev nD) (t : Fin cfg11.N) :
    (dat11 V c).flushed 2 t = ((cfg11.win 2).blk t).view.read (Elt F) (G1 (V c main_arg0) (V c main_v23)) := by
  show (cfg11.win 2).cut (grid11.coords t) ((dat11 V c).after 2 t) = _
  rw [after11_2]
  obtain ⟨e0, e1, e2, e3, e4, e5, e6, e7⟩ := idx_facts11 t
  funext j
  refine (pay11_apply (iblk11 V c 1 t) (iblk11 V c 0 t) j).trans ?_
  show FloatOps.subf (V c main_arg0 (((cfg11.win 0).blk t).view.emb j)) (V c main_v23 (((cfg11.win 1).blk t).view.emb (ix2 (j 0) (j 2))))
    = FloatOps.subf (V c main_arg0 (((cfg11.win 2).blk t).view.emb j))
        (V c main_v23 (ix2 ((((cfg11.win 2).blk t).view.emb j) 0) ((((cfg11.win 2).blk t).view.emb j) 2)))
  have h0 : ((cfg11.win 0).blk t).view.emb j = ((cfg11.win 2).blk t).view.emb j := by
    funext a; apply Fin.ext
    match a with
    | ⟨0, _⟩ => show win11_0.index t (0 : Fin 3) * 8 + 1 * (j 0).val = win11_2.index t (0 : Fin 3) * 8 + 1 * (j 0).val; omega
    | ⟨1, _⟩ => show win11_0.index t (1 : Fin 3) * 256 + 1 * (j 1).val = win11_2.index t (1 : Fin 3) * 256 + 1 * (j 1).val; omega
    | ⟨2, _⟩ => show win11_0.index t (2 : Fin 3) * 601 + 1 * (j 2).val = win11_2.index t (2 : Fin 3) * 601 + 1 * (j 2).val; omega
  have h1 : ((cfg11.win 1).blk t).view.emb (ix2 (j 0) (j 2))
      = ix2 ((((cfg11.win 2).blk t).view.emb j) 0) ((((cfg11.win 2).blk t).view.emb j) 2) := by
    funext a; apply Fin.ext
    match a with
    | ⟨0, _⟩ => show win11_1.index t (0 : Fin 2) * 8 + 1 * (j 0).val = win11_2.index t (0 : Fin 3) * 8 + 1 * (j 0).val; omega
    | ⟨1, _⟩ => show win11_1.index t (1 : Fin 2) * 601 + 1 * (j 2).val = win11_2.index t (2 : Fin 3) * 601 + 1 * (j 2).val; omega
  rw [h0, h1]
  rfl

/-! ## The output's blocks tile its array -/

/-- An index of the output array is in point `t`'s block iff each coordinate is in the block's range on its axis. -/
theorem mem_blk11 (t : Fin cfg11.N) (i : S32x2048x601.Idx) :
    i ∈ ((cfg11.win 2).blk t).view.set ↔ ∀ a : Fin 3, win11_2.index t a * S8x256x601.size a ≤ (i a).val ∧ (i a).val < win11_2.index t a * S8x256x601.size a + S8x256x601.size a := by
  show i ∈ ((View.whole main_v24).slice (win11_2.rect t)).set ↔ _
  rw [View.set_slice_whole, Rect.mem_set_unit]
  exact Iff.rfl

/-- Every index is in the block of the point whose output block is (image / 8, proposal / 256, 0), and every point
    writes its block back. -/
theorem covered11 (i : S32x2048x601.Idx) :
    ∃ t : Fin cfg11.N, (cfg11.win 2).flush t = true ∧ i ∈ ((cfg11.win 2).blk t).view.set := by
  have hi0 : (i 0).val < 32 := (i 0).isLt
  have hi1 : (i 1).val < 2048 := (i 1).isLt
  have hi2 : (i 2).val < 601 := (i 2).isLt
  obtain ⟨t, ht⟩ := idx_onto11 ⟨(i 0).val / 8, by omega⟩ ⟨(i 1).val / 256, by omega⟩
  have q0 : win11_2.index t (0 : Fin 3) = (i 0).val / 8 := congrFun ht 0
  have q1 : win11_2.index t (1 : Fin 3) = (i 1).val / 256 := congrFun ht 1
  have q2 : win11_2.index t (2 : Fin 3) = 0 := congrFun ht 2
  refine ⟨t, flush11_2 t, ?_⟩
  rw [mem_blk11]
  intro a
  match a with
  | ⟨0, _⟩ => show win11_2.index t (0 : Fin 3) * 8 ≤ (i 0).val ∧ (i 0).val < win11_2.index t (0 : Fin 3) * 8 + 8; omega
  | ⟨1, _⟩ => show win11_2.index t (1 : Fin 3) * 256 ≤ (i 1).val ∧ (i 1).val < win11_2.index t (1 : Fin 3) * 256 + 256; omega
  | ⟨2, _⟩ => show win11_2.index t (2 : Fin 3) * 601 ≤ (i 2).val ∧ (i 2).val < win11_2.index t (2 : Fin 3) * 601 + 601; omega

/-! ## The array after the region -/

/-- After the last point the output array is `G1` of the unary scores and the scaled pairwise array as the region
    found them. -/
theorem final11 (c : Dev nD) : (dat11 V c).arrAt 2 cfg11.N = G1 (V c main_arg0) (V c main_v23) :=
  (dat11 V c).arrAt_eq_of_cover 2 (G1 (V c main_arg0) (V c main_v23)) (fun t _ => flushed11_eq V c t) covered11

end Cert.KernelIdeal.Frame
-- ==== Proof.KI.Red12Pieces.lean ====
/-
  The reduce call (custom_call 12): the contents each kind of grid point leaves, as the body's arithmetic.
  The stores are of whole buffers, so what is read back after them is the last store's payload; a load
  that follows a store of the same buffer reads that store's payload.
-/
import proofs.«121405_j17162689315290_1_alg».proof.Proof.KI.Red12
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces are: the payloads -/

theorem hz12_2 : (![0, 0] : Fin 2 → Nat) = fun _ => 0 := by funext a; fin_cases a <;> rfl
theorem hz12_3 : (![0, 0, 0] : Fin 3 → Nat) = fun _ => 0 := by funext a; fin_cases a <;> rfl

/-- After a first proposal tile the carried buffer holds the tile's maximum folded into the reset value. -/
theorem sout12_A_0_eq (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond12_0 i) (hc1 : ¬cond12_1 i) (x0 : Vec F S8x256x601 .f32) :
    sout12_A_0 c i arg2 harg2 arg3 harg3 arg4 harg4 arg5 harg5 hc0 hc1 x0 = k12_pay2 x0 (k12_pay1 (F := F)) := by
  unfold sout12_A_0
  rw [View.read_writes_eq_canon _ _ _ (scover12_A_0 c i arg2 harg2 arg3 harg3 arg4 harg4 arg5 harg5 hc0 hc1 x0)]
  unfold kernelRun12_A
  dsimp only
  sl_unfold_words
  rw [View.canon_cons_unit_zero hz12_2]
  simp only [View.readAt_eq_ld, harg2.read_unread, View.ld_unit_zero (S := S8x256x601) hz12_3]
  exact congrArg (k12_pay2 x0) (View.readCov_unit_zero (S := S8x601) arg5.view hz12_2 _ _)

/-- After an inner tile: the tile's maximum folded into what the point before left. -/
theorem sout12_B_0_eq (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : ¬cond12_1 i) (x0 : Vec F S8x256x601 .f32) (xs0 : Vec F S8x601 .f32) :
    sout12_B_0 c i arg2 harg2 arg3 harg3 arg4 harg4 arg5 harg5 hc0 hc1 x0 xs0 = k12_pay2 x0 xs0 := by
  unfold sout12_B_0
  rw [View.read_writes_eq_canon _ _ _ (scover12_B_0 c i arg2 harg2 arg3 harg3 arg4 harg4 arg5 harg5 hc0 hc1 x0 xs0)]
  unfold kernelRun12_B
  dsimp only
  sl_unfold_words
  rw [View.canon_unit_zero hz12_2]
  simp only [View.readAt_eq_ld, harg2.read_unread, harg5.read_unread, View.ld_unit_zero (S := S8x256x601) hz12_3, View.ld_unit_zero (S := S8x601) hz12_2]
  try rfl

/-- After a last tile the carried buffer likewise, -/
theorem sout12_C_0_eq (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i) (x0 : Vec F S8x256x601 .f32) (x1 : Vec F S601x601 .f32) (xs0 : Vec F S8x601 .f32) :
    sout12_C_0 c i arg2 harg2 arg3 harg3 arg4 harg4 arg5 harg5 hc0 hc1 x0 x1 xs0 = k12_pay2 x0 xs0 := by
  unfold sout12_C_0
  rw [View.read_writes_eq_canon _ _ _ (scover12_C_0 c i arg2 harg2 arg3 harg3 arg4 harg4 arg5 harg5 hc0 hc1 x0 x1 xs0)]
  unfold kernelRun12_C
  dsimp only
  sl_unfold_words
  rw [View.canon_unit_zero hz12_2]
  simp only [View.readAt_eq_ld, harg2.read_unread, harg5.read_unread, View.ld_unit_zero (S := S8x256x601) hz12_3, View.ld_unit_zero (S := S8x601) hz12_2]
  try rfl

/-- and the output block holds that maximum times the matrix's block. -/
theorem out12_C_2_eq (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i) (x0 : Vec F S8x256x601 .f32) (x1 : Vec F S601x601 .f32) (xs0 : Vec F S8x601 .f32) :
    out12_C_2 c i arg2 harg2 arg3 harg3 arg4 harg4 arg5 harg5 hc0 hc1 x0 x1 xs0 = k12_pay3 (k12_pay2 x0 xs0) x1 := by
  unfold out12_C_2
  rw [View.read_writes_eq_canon _ _ _ (cover12_C_2 c i arg2 harg2 arg3 harg3 arg4 harg4 arg5 harg5 hc0 hc1 x0 x1 xs0)]
  unfold kernelRun12_C
  dsimp only
  sl_unfold_words
  rw [View.canon_unit_zero hz12_2]
  simp only [View.readAt_eq_ld, harg2.read_unread, harg3.read_unread, harg5.read_unread, View.ld_unit_zero (S := S8x256x601) hz12_3, View.ld_unit_zero (S := S601x601) hz12_2, View.ld_unit_zero (S := S8x601) hz12_2]
  exact congrArg (fun z => k12_pay3 z x1) (View.readCov_unit_zero (S := S8x601) arg5.view hz12_2 _ _)

end Cert.KernelIdeal.Frame

end
-- ==== Proof.KI.Blocks12.lean ====
/-
  The blocks of the reduce call 12 and the update call 13 as tiles of their whole arrays, and which grid points'
  result blocks hold a given index: the same facts as for calls 0 and 1, for this pair's windows.
-/
import proofs.«121405_j17162689315290_1_alg».proof.Proof.KI.Blocks

noncomputable section

namespace Cert.KernelIdeal.Frame

open Cert.KernelIdeal Cert.KernelIdeal.Gen Idealize.ShloMosaic Idealize.ShloMosaic.ValueIdx

variable {F : FTy → Type} [FloatOps F]

/-- A point of the reduce call's grid as a number below 32, and likewise for the update call. -/
abbrev pt12 (t : Fin cfg12.N) : Fin 32 := t.cast N_12
abbrev pt13 (t : Fin cfg13.N) : Fin 32 := t.cast N_13

@[simp] theorem pt12_val (t : Fin cfg12.N) : (pt12 t).val = t.val := rfl
@[simp] theorem pt13_val (t : Fin cfg13.N) : (pt13 t).val = t.val := rfl

/-! ## The printed index maps, decided once over the grid -/

/-- The reduce call: scores at block (t / 8, t % 8, 0), the matrix at block (0, 0), the result at block (t / 8, 0). -/
theorem idx12 : ∀ t : Fin cfg12.N,
    (win12_0.index t (0 : Fin 3) = t.val / 8 ∧ win12_0.index t (1 : Fin 3) = t.val % 8 ∧ win12_0.index t (2 : Fin 3) = 0)
    ∧ (win12_1.index t (0 : Fin 2) = 0 ∧ win12_1.index t (1 : Fin 2) = 0)
    ∧ (win12_2.index t (0 : Fin 2) = t.val / 8 ∧ win12_2.index t (1 : Fin 2) = 0) :=
  (by decide +kernel : ∀ t : Fin grid12.N, _)

/-- The update call: unaries and result at block (t / 8, t % 8, 0), the per-image rows at block (t / 8, 0). -/
theorem idx13 : ∀ t : Fin cfg13.N,
    (win13_0.index t (0 : Fin 3) = t.val / 8 ∧ win13_0.index t (1 : Fin 3) = t.val % 8 ∧ win13_0.index t (2 : Fin 3) = 0)
    ∧ (win13_1.index t (0 : Fin 2) = t.val / 8 ∧ win13_1.index t (1 : Fin 2) = 0)
    ∧ (win13_2.index t (0 : Fin 3) = t.val / 8 ∧ win13_2.index t (1 : Fin 3) = t.val % 8 ∧ win13_2.index t (2 : Fin 3) = 0) :=
  (by decide +kernel : ∀ t : Fin grid13.N, _)

/-! ## Each block, read off its whole array -/

/-- The reduce call's block of scores at point `t` is the tile at image tile `t / 8`, proposal tile `t % 8`. -/
theorem blk12_0_read (A : FVec F S32x2048x601 .f32) (t : Fin cfg12.N) :
    (((cfg12.win 0).blk t).view.read (Elt F) A : Vec F S8x256x601 .f32) = tileOf A (bOf (pt12 t)) (nOf (pt12 t)) := by
  obtain ⟨⟨e0, e1, e2⟩, -, -⟩ := idx12 t
  funext y
  rw [View.read_apply]
  show A (((cfg12.win 0).blk t).view.emb y) = A _
  congr 1
  funext a
  apply Fin.ext
  match a with
  | ⟨0, _⟩ => show win12_0.index t (0 : Fin 3) * 8 + 1 * (y 0).val = 8 * (t.val / 8) + (y 0).val; omega
  | ⟨1, _⟩ => show win12_0.index t (1 : Fin 3) * 256 + 1 * (y 1).val = 256 * (t.val % 8) + (y 1).val; omega
  | ⟨2, _⟩ => show win12_0.index t (2 : Fin 3) * 601 + 1 * (y 2).val = (y 2).val; omega

/-- The reduce call's one block of the compatibility matrix is the matrix. -/
theorem blk12_1_read (A : FVec F S601x601 .f32) (t : Fin cfg12.N) :
    (((cfg12.win 1).blk t).view.read (Elt F) A : Vec F S601x601 .f32) = A := by
  obtain ⟨-, ⟨e0, e1⟩, -⟩ := idx12 t
  funext y
  rw [View.read_apply]
  show A (((cfg12.win 1).blk t).view.emb y) = A y
  congr 1
  funext a
  apply Fin.ext
  match a with
  | ⟨0, _⟩ => show win12_1.index t (0 : Fin 2) * 601 + 1 * (y 0).val = (y 0).val; omega
  | ⟨1, _⟩ => show win12_1.index t (1 : Fin 2) * 601 + 1 * (y 1).val = (y 1).val; omega

/-- The reduce call's result block at point `t` is rows `8·(t / 8) …` of the per-image array. -/
theorem blk12_2_read (X : FVec F S32x601 .f32) (t : Fin cfg12.N) :
    (((cfg12.win 2).blk t).view.read (Elt F) X : Vec F S8x601 .f32) = rowsOf X (bOf (pt12 t)) := by
  obtain ⟨-, -, ⟨e0, e1⟩⟩ := idx12 t
  funext y
  rw [View.read_apply]
  show X (((cfg12.win 2).blk t).view.emb y) = X _
  congr 1
  funext a
  apply Fin.ext
  match a with
  | ⟨0, _⟩ => show win12_2.index t (0 : Fin 2) * 8 + 1 * (y 0).val = 8 * (t.val / 8) + (y 0).val; omega
  | ⟨1, _⟩ => show win12_2.index t (1 : Fin 2) * 601 + 1 * (y 1).val = (y 1).val; omega

/-- The update call's block of unaries at point `t` is the tile at image tile `t / 8`, proposal tile `t % 8`. -/
theorem blk13_0_read (A : FVec F S32x2048x601 .f32) (t : Fin cfg13.N) :
    (((cfg13.win 0).blk t).view.read (Elt F) A : Vec F S8x256x601 .f32) = tileOf A (bOf (pt13 t)) (nOf (pt13 t)) := by
  obtain ⟨⟨e0, e1, e2⟩, -, -⟩ := idx13 t
  funext y
  rw [View.read_apply]
  show A (((cfg13.win 0).blk t).view.emb y) = A _
  congr 1
  funext a
  apply Fin.ext
  match a with
  | ⟨0, _⟩ => show win13_0.index t (0 : Fin 3) * 8 + 1 * (y 0).val = 8 * (t.val / 8) + (y 0).val; omega
  | ⟨1, _⟩ => show win13_0.index t (1 : Fin 3) * 256 + 1 * (y 1).val = 256 * (t.val % 8) + (y 1).val; omega
  | ⟨2, _⟩ => show win13_0.index t (2 : Fin 3) * 601 + 1 * (y 2).val = (y 2).val; omega

/-- The update call's block of the per-image array at point `t` is its rows `8·(t / 8) …`. -/
theorem blk13_1_read (X : FVec F S32x601 .f32) (t : Fin cfg13.N) :
    (((cfg13.win 1).blk t).view.read (Elt F) X : Vec F S8x601 .f32) = rowsOf X (bOf (pt13 t)) := by
  obtain ⟨-, ⟨e0, e1⟩, -⟩ := idx13 t
  funext y
  rw [View.read_apply]
  show X (((cfg13.win 1).blk t).view.emb y) = X _
  congr 1
  funext a
  apply Fin.ext
  match a with
  | ⟨0, _⟩ => show win13_1.index t (0 : Fin 2) * 8 + 1 * (y 0).val = 8 * (t.val / 8) + (y 0).val; omega
  | ⟨1, _⟩ => show win13_1.index t (1 : Fin 2) * 601 + 1 * (y 1).val = (y 1).val; omega

/-- The update call's result block at point `t` is the tile at image tile `t / 8`, proposal tile `t % 8`. -/
theorem blk13_2_read (A : FVec F S32x2048x601 .f32) (t : Fin cfg13.N) :
    (((cfg13.win 2).blk t).view.read (Elt F) A : Vec F S8x256x601 .f32) = tileOf A (bOf (pt13 t)) (nOf (pt13 t)) := by
  obtain ⟨-, -, ⟨e0, e1, e2⟩⟩ := idx13 t
  funext y
  rw [View.read_apply]
  show A (((cfg13.win 2).blk t).view.emb y) = A _
  congr 1
  funext a
  apply Fin.ext
  match a with
  | ⟨0, _⟩ => show win13_2.index t (0 : Fin 3) * 8 + 1 * (y 0).val = 8 * (t.val / 8) + (y 0).val; omega
  | ⟨1, _⟩ => show win13_2.index t (1 : Fin 3) * 256 + 1 * (y 1).val = 256 * (t.val % 8) + (y 1).val; omega
  | ⟨2, _⟩ => show win13_2.index t (2 : Fin 3) * 601 + 1 * (y 2).val = (y 2).val; omega

/-! ## Which points' result blocks hold a given index -/

/-- An index of the per-image array is in the reduce call's result block at point `t` iff, on each axis, it is
    in the block's range. -/
theorem mem_blk12_2 (t : Fin cfg12.N) (i : S32x601.Idx) :
    i ∈ ((cfg12.win 2).blk t).view.set ↔ ∀ a : Fin 2, win12_2.index t a * S8x601.size a ≤ (i a).val ∧ (i a).val < win12_2.index t a * S8x601.size a + S8x601.size a := by
  show i ∈ ((View.whole main_v25).slice (win12_2.rect t)).set ↔ _
  rw [View.set_slice_whole, Rect.mem_set_unit]
  exact Iff.rfl

/-- … that is, iff its image lies in the point's image tile. -/
theorem mem_blk12_2_iff (t : Fin cfg12.N) (i : S32x601.Idx) :
    i ∈ ((cfg12.win 2).blk t).view.set ↔ (i 0).val / 8 = t.val / 8 := by
  rw [mem_blk12_2]
  obtain ⟨-, -, ⟨e0, e1⟩⟩ := idx12 t
  have h1 : (i 1).val < 601 := (i 1).isLt
  constructor
  · intro h
    have b0 : win12_2.index t (0 : Fin 2) * 8 ≤ (i 0).val ∧ (i 0).val < win12_2.index t (0 : Fin 2) * 8 + 8 := h 0
    omega
  · intro h a
    match a with
    | ⟨0, _⟩ => show win12_2.index t (0 : Fin 2) * 8 ≤ (i 0).val ∧ (i 0).val < win12_2.index t (0 : Fin 2) * 8 + 8; omega
    | ⟨1, _⟩ => show win12_2.index t (1 : Fin 2) * 601 ≤ (i 1).val ∧ (i 1).val < win12_2.index t (1 : Fin 2) * 601 + 601; omega

/-- The point that writes back the rows of image `r`: the last proposal tile of image tile `r / 8`. -/
def lastPt12 (r : Fin 32) : Fin cfg12.N := ⟨8 * (r.val / 8) + 7, by rw [show cfg12.N = 32 from N_12]; omega⟩

@[simp] theorem lastPt12_val (r : Fin 32) : (lastPt12 r).val = 8 * (r.val / 8) + 7 := rfl

/-- Every index of the per-image array is in the result block of a point that writes it back: the last
    proposal tile of its image's tile. -/
theorem cover12_2 (i : S32x601.Idx) :
    ∃ t : Fin cfg12.N, (cfg12.win 2).flush t = true ∧ i ∈ ((cfg12.win 2).blk t).view.set := by
  have h0 : (i 0).val < 32 := (i 0).isLt
  refine ⟨lastPt12 ⟨(i 0).val, h0⟩, (flush12_2 _).mpr ?_, (mem_blk12_2_iff _ i).mpr ?_⟩
  · show (8 * ((i 0).val / 8) + 7) % 8 = 7; omega
  · show (i 0).val / 8 = (8 * ((i 0).val / 8) + 7) / 8; omega

/-- The points that write the reduce call's result back and hold a given index are exactly the last proposal
    tile of its image's tile. -/
theorem flush_mem12_2_iff (t : Fin cfg12.N) (i : S32x601.Idx) :
    ((cfg12.win 2).flush t = true ∧ i ∈ ((cfg12.win 2).blk t).view.set) ↔ t.val = 8 * ((i 0).val / 8) + 7 := by
  rw [flush12_2, mem_blk12_2_iff]
  have ht : t.val < 32 := (pt12 t).isLt
  omega

/-- An index of the scores-shaped result is in the update call's result block at point `t` iff, on each axis, it
    is in the block's range. -/
theorem mem_blk13_2 (t : Fin cfg13.N) (i : S32x2048x601.Idx) :
    i ∈ ((cfg13.win 2).blk t).view.set ↔ ∀ a : Fin 3, win13_2.index t a * S8x256x601.size a ≤ (i a).val ∧ (i a).val < win13_2.index t a * S8x256x601.size a + S8x256x601.size a := by
  show i ∈ ((View.whole main_v28).slice (win13_2.rect t)).set ↔ _
  rw [View.set_slice_whole, Rect.mem_set_unit]
  exact Iff.rfl

/-- … that is, iff its image and its proposal lie in the point's tiles. -/
theorem mem_blk13_2_iff (t : Fin cfg13.N) (i : S32x2048x601.Idx) :
    i ∈ ((cfg13.win 2).blk t).view.set ↔ (i 0).val / 8 = t.val / 8 ∧ (i 1).val / 256 = t.val % 8 := by
  rw [mem_blk13_2]
  obtain ⟨-, -, ⟨e0, e1, e2⟩⟩ := idx13 t
  have h2 : (i 2).val < 601 := (i 2).isLt
  constructor
  · intro h
    have b0 : win13_2.index t (0 : Fin 3) * 8 ≤ (i 0).val ∧ (i 0).val < win13_2.index t (0 : Fin 3) * 8 + 8 := h 0
    have b1 : win13_2.index t (1 : Fin 3) * 256 ≤ (i 1).val ∧ (i 1).val < win13_2.index t (1 : Fin 3) * 256 + 256 := h 1
    omega
  · intro h a
    match a with
    | ⟨0, _⟩ => show win13_2.index t (0 : Fin 3) * 8 ≤ (i 0).val ∧ (i 0).val < win13_2.index t (0 : Fin 3) * 8 + 8; omega
    | ⟨1, _⟩ => show win13_2.index t (1 : Fin 3) * 256 ≤ (i 1).val ∧ (i 1).val < win13_2.index t (1 : Fin 3) * 256 + 256; omega
    | ⟨2, _⟩ => show win13_2.index t (2 : Fin 3) * 601 ≤ (i 2).val ∧ (i 2).val < win13_2.index t (2 : Fin 3) * 601 + 601; omega

/-- The point whose tiles hold image `r` and proposal `p`. -/
def ptOf13 (r : Fin 32) (p : Fin 2048) : Fin cfg13.N := ⟨8 * (r.val / 8) + p.val / 256, by rw [show cfg13.N = 32 from N_13]; omega⟩

@[simp] theorem ptOf13_val (r : Fin 32) (p : Fin 2048) : (ptOf13 r p).val = 8 * (r.val / 8) + p.val / 256 := rfl

/-- Every index of the update call's result is in the result block of a point (every point writes back): the
    point of its image's and its proposal's tiles. -/
theorem cover13_2 (i : S32x2048x601.Idx) :
    ∃ t : Fin cfg13.N, (cfg13.win 2).flush t = true ∧ i ∈ ((cfg13.win 2).blk t).view.set := by
  have h0 : (i 0).val < 32 := (i 0).isLt
  have h1 : (i 1).val < 2048 := (i 1).isLt
  refine ⟨ptOf13 ⟨(i 0).val, h0⟩ ⟨(i 1).val, h1⟩, flush13_2 _, (mem_blk13_2_iff _ i).mpr ⟨?_, ?_⟩⟩
  · show (i 0).val / 8 = (8 * ((i 0).val / 8) + (i 1).val / 256) / 8; omega
  · show (i 1).val / 256 = (8 * ((i 0).val / 8) + (i 1).val / 256) % 8; omega

/-- The one point whose result block holds a given index of the update call's result. -/
theorem mem_blk13_2_iff_pt (t : Fin cfg13.N) (i : S32x2048x601.Idx) :
    i ∈ ((cfg13.win 2).blk t).view.set ↔ t.val = 8 * ((i 0).val / 8) + (i 1).val / 256 := by
  rw [mem_blk13_2_iff]
  have ht : t.val < 32 := (pt13 t).isLt
  have h1 : (i 1).val < 2048 := (i 1).isLt
  omega

end Cert.KernelIdeal.Frame

end
-- ==== Proof.KI.Red12Value.lean ====
/-
  The reduce call (custom_call 12) at the exact instance: what it leaves in its result array.

  With q the scores and M the compatibility matrix as the region finds them: after the point of image tile b
  and proposal tile k the carried buffer holds the running maximum of the tiles' softmax maxima over proposal
  tiles 0 … k of image tile b; at k = 7 the output block is that maximum times M, which is rows 8b … 8b+7 of
  the specification's pairwise term; the eight-point runs' blocks tile the result, so the result array ends
  at the pairwise term of q and M.
-/
import proofs.«121405_j17162689315290_1_alg».proof.Proof.KI.Red12Pieces
import proofs.«121405_j17162689315290_1_alg».proof.Proof.KI.Blocks12
import proofs.«121405_j17162689315290_1_alg».proof.Proof.RedMath
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

/-- This call's arithmetic is the first reduce call's: its loaded block of scores only passes through an identity
    cast first. -/
theorem pay12_2 (v : Vec Ideal S8x256x601 .f32) (w : Vec Ideal S8x601 .f32) : k12_pay2 v w = k0_pay2 v w := by
  unfold k12_pay2 k0_pay2; simp only [shapeCast_self]
theorem pay12_3 (v : Vec Ideal S8x601 .f32) (w : Vec Ideal S601x601 .f32) : k12_pay3 v w = k0_pay3 v w := by
  unfold k12_pay3 k0_pay3; rfl
theorem pay12_1 : k12_pay1 (F := Ideal) = k0_pay1 := by unfold k12_pay1 k0_pay1; rfl

/-- The scores' block at the point 8·b + k is tile (b, k) of the scores. -/
theorem iblk12_0_tile (c : Dev nD) (n : ℕ) (hn : n < cfg12.N) (b : Fin 4) (k : Fin 8) (h : n = 8 * b.val + k.val) :
    (iblk12 V c 0 ⟨n, hn⟩ : Vec Ideal S8x256x601 .f32) = RedMath.tile (V c (Pipeline.arrRef spec12 0)) b k := by
  unfold iblk12
  rw [blk12_0_read, tileOf_ideal]
  have hb : bOf (pt12 ⟨n, hn⟩) = b := Fin.ext (by simp only [bOf_val, pt12_val]; omega)
  have hk : nOf (pt12 ⟨n, hn⟩) = k := Fin.ext (by simp only [nOf_val, pt12_val]; omega)
  rw [hb, hk]

/-- The matrix's block is the matrix. -/
theorem iblk12_1_whole (c : Dev nD) (t : Fin cfg12.N) :
    (iblk12 V c 1 t : Vec Ideal S601x601 .f32) = V c (Pipeline.arrRef spec12 1) := by
  unfold iblk12; exact blk12_1_read _ t

/-- The accumulation in closed form: after point 8·b + k the carried buffer holds the running maximum over proposal tiles 0 … k. -/
theorem carried12_eq (c : Dev nD) (b : Fin 4) : ∀ (k : ℕ) (hk : k < 8) (n : ℕ) (hn : n < cfg12.N), n = 8 * b.val + k →
    (outsAt12 V c n hn).2 = RedMath.runMax (V c (Pipeline.arrRef spec12 0)) b k := by
  intro k
  induction k with
  | zero =>
    intro hk n hn h
    have h0 : (⟨n, hn⟩ : Fin cfg12.N).val % 8 = 0 := by simp only; omega
    have h1 : ¬(⟨n, hn⟩ : Fin cfg12.N).val % 8 = 7 := by simp only; omega
    have e := outsAt12_A V c ⟨n, hn⟩ h0 h1
    simp only at e
    rw [e]
    simp only [sout12_A_0_eq, pay12_2, pay12_1]
    rw [iblk12_0_tile V c n hn b ⟨0, by omega⟩ (by simpa using h), RedMath.runMax_zero]
    rfl
  | succ k ih =>
    intro hk n hn h
    have hprev := ih (by omega) (n - 1) (by omega) (by omega)
    have h0 : ¬(⟨n, hn⟩ : Fin cfg12.N).val % 8 = 0 := by simp only; omega
    have hsucc : RedMath.runMax (V c (Pipeline.arrRef spec12 0)) b (k + 1)
        = k0_pay2 (RedMath.tile (V c (Pipeline.arrRef spec12 0)) b ⟨k + 1, hk⟩) (RedMath.runMax (V c (Pipeline.arrRef spec12 0)) b k) := by
      rw [RedMath.runMax_succ]
      congr 2
      exact Fin.ext (Nat.mod_eq_of_lt hk)
    by_cases h1 : (⟨n, hn⟩ : Fin cfg12.N).val % 8 = 7
    · have e := outsAt12_C V c ⟨n, hn⟩ h0 h1
      simp only at e
      rw [e]
      simp only [sout12_C_0_eq, pay12_2]
      rw [iblk12_0_tile V c n hn b ⟨k + 1, hk⟩ (by simpa using h), hprev, hsucc]
    · have e := outsAt12_B V c ⟨n, hn⟩ h0 h1
      simp only at e
      rw [e]
      simp only [sout12_B_0_eq, pay12_2]
      rw [iblk12_0_tile V c n hn b ⟨k + 1, hk⟩ (by simpa using h), hprev, hsucc]

/-- At the last proposal tile of image tile b the output block holds rows 8b … 8b+7 of the pairwise term. -/
theorem outBlock12_eq (c : Dev nD) (b : Fin 4) (n : ℕ) (hn : n < cfg12.N) (h : n = 8 * b.val + 7) :
    (outsAt12 V c n hn).1 = RedMath.rows (Cert.ReferenceIdeal.Crf.pairwise (V c (Pipeline.arrRef spec12 0)) (V c (Pipeline.arrRef spec12 1))) b := by
  have h0 : ¬(⟨n, hn⟩ : Fin cfg12.N).val % 8 = 0 := by simp only; omega
  have h1 : (⟨n, hn⟩ : Fin cfg12.N).val % 8 = 7 := by simp only; omega
  have hprev := carried12_eq V c b 6 (by omega) (n - 1) (by omega) (by omega)
  have e := outsAt12_C V c ⟨n, hn⟩ h0 h1
  simp only at e
  rw [e]
  simp only [out12_C_2_eq, pay12_2, pay12_3]
  rw [iblk12_0_tile V c n hn b ⟨7, by omega⟩ (by simpa using h), iblk12_1_whole, hprev]
  have hsucc : k0_pay2 (RedMath.tile (V c (Pipeline.arrRef spec12 0)) b ⟨7, by omega⟩) (RedMath.runMax (V c (Pipeline.arrRef spec12 0)) b 6)
      = RedMath.runMax (V c (Pipeline.arrRef spec12 0)) b 7 := rfl
  rw [hsucc]
  exact RedMath.reduce_rows (V c (Pipeline.arrRef spec12 0)) (V c (Pipeline.arrRef spec12 1)) b

/-- The result array after the region: the pairwise term of the scores and the matrix as the region finds them. -/
theorem final12 (c : Dev nD) :
    ((dat12 V c).arrAt 2 cfg12.N : S32x601.Idx → Elt Ideal .f32) = Cert.ReferenceIdeal.Crf.pairwise (F := Ideal) (V c (Pipeline.arrRef spec12 0)) (V c (Pipeline.arrRef spec12 1)) := by
  refine (dat12 V c).arrAt_eq_of_cover 2 (Cert.ReferenceIdeal.Crf.pairwise (F := Ideal) (V c (Pipeline.arrRef spec12 0)) (V c (Pipeline.arrRef spec12 1))) (fun t hf => ?_) cover12_2
  have h7 : t.val % 8 = 7 := (flush12_2 t).mp hf
  have hN : t.val < 32 := lt_of_lt_of_eq t.isLt (show cfg12.N = 32 from N_12)
  rw [blk12_2_read, rowsOf_ideal]
  show (dat12 V c).after 2 t = _
  rw [after12_2]
  have hb : bOf (pt12 t) = ⟨t.val / 8, by omega⟩ := Fin.ext (by simp only [bOf_val, pt12_val])
  rw [hb]
  exact outBlock12_eq V c ⟨t.val / 8, by omega⟩ t.val t.isLt (by simp only; omega)

end Cert.KernelIdeal.Frame

end
-- ==== Proof.KI.Upd13Value.lean ====
/-
  The value of the update step's region (custom_call 13): after its 32 grid points the output array holds, at
  every index (image, proposal, class), the unary score there minus the scaled pairwise term of that image and
  class — one whole-array function of the two input arrays as the region finds them, at any float instance.
-/
import proofs.«121405_j17162689315290_1_alg».proof.Proof.KI.Upd13
import proofs.«121405_j17162689315290_1_alg».proof.Proof.KI.Upd1Value
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The body's stored value at an index -/

/-- The stored block at (image, proposal, class) is the scores' block there minus the pairwise block at (image, class):
    the cast to the same shape is the identity, the cast that inserts a unit axis keeps the row-major position
    (image · 601 + class on both sides), and the broadcast along the unit axis reads coordinate 0 there. -/
theorem pay13_apply (x1 : Vec F S8x601 .f32) (x0 : Vec F S8x256x601 .f32) (j : S8x256x601.Idx) :
    k13_pay1 x1 x0 j = FloatOps.subf (x0 j) (x1 (ix2 (j 0) (j 2))) := by
  unfold k13_pay1
  show FloatOps.subf (x0 j) (broadcastTo S8x256x601 (shapeCast S8x1x601 (shapeCast S8x601 x1 shapeCasts_S8x601_S8x601) shapeCasts_S8x601_S8x1x601) broadcasts_S8x1x601_S8x256x601 j) = _
  congr 1
  rw [shapeCast_self]
  refine (broadcastTo_apply (s := S8x1x601) (t := S8x256x601) _ broadcasts_S8x1x601_S8x256x601 j (ix3 (j 0) (0 : Fin 1) (j 2)) (fun a => by
    match a with
    | ⟨0, _⟩ => rfl
    | ⟨1, _⟩ => rfl
    | ⟨2, _⟩ => rfl)).trans ?_
  refine shapeCast_apply (s := S8x601) (t := S8x1x601) x1 shapeCasts_S8x601_S8x1x601 (ix3 (j 0) (0 : Fin 1) (j 2)) (ix2 (j 0) (j 2)) ?_
  rw [Shape.rowMajor_val_two, Shape.rowMajor_val_three]
  show (j 0).val * 601 + (j 2).val = ((j 0).val * 1 + 0) * 601 + (j 2).val
  omega

/-! ## The windows' block indices over the grid -/

/-- Decided over the 32 points: the scores' window moves with the output's on every axis; the pairwise window follows
    the output's image tile and stays at class block 0; the output's block index is (image tile ≤ 3, proposal tile
    ≤ 7, 0). -/
theorem idx_facts13 : ∀ t : Fin cfg13.N,
    win13_0.index t (0 : Fin 3) = win13_2.index t (0 : Fin 3)
    ∧ win13_0.index t (1 : Fin 3) = win13_2.index t (1 : Fin 3)
    ∧ win13_0.index t (2 : Fin 3) = win13_2.index t (2 : Fin 3)
    ∧ win13_1.index t (0 : Fin 2) = win13_2.index t (0 : Fin 3)
    ∧ win13_1.index t (1 : Fin 2) = 0
    ∧ win13_2.index t (0 : Fin 3) ≤ 3
    ∧ win13_2.index t (1 : Fin 3) ≤ 7
    ∧ win13_2.index t (2 : Fin 3) = 0 :=
  (by decide +kernel : ∀ t : Fin grid13.N, _)

/-- Every (image tile, proposal tile) is some point's output block. -/
theorem idx_onto13 : ∀ (q0 : Fin 4) (q1 : Fin 8), ∃ t : Fin cfg13.N, win13_2.index t = ![q0.val, q1.val, 0] :=
  (by decide +kernel : ∀ (q0 : Fin 4) (q1 : Fin 8), ∃ t : Fin grid13.N, win13_2.index t = ![q0.val, q1.val, 0])

/-! ## What a point writes back -/

/-- Point `t` writes back block `t` of `G1` of the two input arrays: a block's coordinate on an axis is its block
    index times the block's extent plus the coordinate inside the block, so by the decided relations the scores' block
    is read where the output's block lies, and the pairwise block at that image and class. -/
theorem flushed13_eq (c : Dev nD) (t : Fin cfg13.N) :
    (dat13 V c).flushed 2 t = ((cfg13.win 2).blk t).view.read (Elt F) (G1 (V c main_arg0) (V c main_v27)) := by
  show (cfg13.win 2).cut (grid13.coords t) ((dat13 V c).after 2 t) = _
  rw [after13_2]
  obtain ⟨e0, e1, e2, e3, e4, e5, e6, e7⟩ := idx_facts13 t
  funext j
  refine (pay13_apply (iblk13 V c 1 t) (iblk13 V c 0 t) j).trans ?_
  show FloatOps.subf (V c main_arg0 (((cfg13.win 0).blk t).view.emb j)) (V c main_v27 (((cfg13.win 1).blk t).view.emb (ix2 (j 0) (j 2))))
    = FloatOps.subf (V c main_arg0 (((cfg13.win 2).blk t).view.emb j))
        (V c main_v27 (ix2 ((((cfg13.win 2).blk t).view.emb j) 0) ((((cfg13.win 2).blk t).view.emb j) 2)))
  have h0 : ((cfg13.win 0).blk t).view.emb j = ((cfg13.win 2).blk t).view.emb j := by
    funext a; apply Fin.ext
    match a with
    | ⟨0, _⟩ => show win13_0.index t (0 : Fin 3) * 8 + 1 * (j 0).val = win13_2.index t (0 : Fin 3) * 8 + 1 * (j 0).val; omega
    | ⟨1, _⟩ => show win13_0.index t (1 : Fin 3) * 256 + 1 * (j 1).val = win13_2.index t (1 : Fin 3) * 256 + 1 * (j 1).val; omega
    | ⟨2, _⟩ => show win13_0.index t (2 : Fin 3) * 601 + 1 * (j 2).val = win13_2.index t (2 : Fin 3) * 601 + 1 * (j 2).val; omega
  have h1 : ((cfg13.win 1).blk t).view.emb (ix2 (j 0) (j 2))
      = ix2 ((((cfg13.win 2).blk t).view.emb j) 0) ((((cfg13.win 2).blk t).view.emb j) 2) := by
    funext a; apply Fin.ext
    match a with
    | ⟨0, _⟩ => show win13_1.index t (0 : Fin 2) * 8 + 1 * (j 0).val = win13_2.index t (0 : Fin 3) * 8 + 1 * (j 0).val; omega
    | ⟨1, _⟩ => show win13_1.index t (1 : Fin 2) * 601 + 1 * (j 2).val = win13_2.index t (2 : Fin 3) * 601 + 1 * (j 2).val; omega
  rw [h0, h1]
  rfl

/-! ## The output's blocks tile its array -/

/-- An index of the output array is in point `t`'s block iff each coordinate is in the block's range on its axis. -/
theorem mem_blk13 (t : Fin cfg13.N) (i : S32x2048x601.Idx) :
    i ∈ ((cfg13.win 2).blk t).view.set ↔ ∀ a : Fin 3, win13_2.index t a * S8x256x601.size a ≤ (i a).val ∧ (i a).val < win13_2.index t a * S8x256x601.size a + S8x256x601.size a := by
  show i ∈ ((View.whole main_v28).slice (win13_2.rect t)).set ↔ _
  rw [View.set_slice_whole, Rect.mem_set_unit]
  exact Iff.rfl

/-- Every index is in the block of the point whose output block is (image / 8, proposal / 256, 0), and every point
    writes its block back. -/
theorem covered13 (i : S32x2048x601.Idx) :
    ∃ t : Fin cfg13.N, (cfg13.win 2).flush t = true ∧ i ∈ ((cfg13.win 2).blk t).view.set := by
  have hi0 : (i 0).val < 32 := (i 0).isLt
  have hi1 : (i 1).val < 2048 := (i 1).isLt
  have hi2 : (i 2).val < 601 := (i 2).isLt
  obtain ⟨t, ht⟩ := idx_onto13 ⟨(i 0).val / 8, by omega⟩ ⟨(i 1).val / 256, by omega⟩
  have q0 : win13_2.index t (0 : Fin 3) = (i 0).val / 8 := congrFun ht 0
  have q1 : win13_2.index t (1 : Fin 3) = (i 1).val / 256 := congrFun ht 1
  have q2 : win13_2.index t (2 : Fin 3) = 0 := congrFun ht 2
  refine ⟨t, flush13_2 t, ?_⟩
  rw [mem_blk13]
  intro a
  match a with
  | ⟨0, _⟩ => show win13_2.index t (0 : Fin 3) * 8 ≤ (i 0).val ∧ (i 0).val < win13_2.index t (0 : Fin 3) * 8 + 8; omega
  | ⟨1, _⟩ => show win13_2.index t (1 : Fin 3) * 256 ≤ (i 1).val ∧ (i 1).val < win13_2.index t (1 : Fin 3) * 256 + 256; omega
  | ⟨2, _⟩ => show win13_2.index t (2 : Fin 3) * 601 ≤ (i 2).val ∧ (i 2).val < win13_2.index t (2 : Fin 3) * 601 + 601; omega

/-! ## The array after the region -/

/-- After the last point the output array is `G1` of the unary scores and the scaled pairwise array as the region
    found them. -/
theorem final13 (c : Dev nD) : (dat13 V c).arrAt 2 cfg13.N = G1 (V c main_arg0) (V c main_v27) :=
  (dat13 V c).arrAt_eq_of_cover 2 (G1 (V c main_arg0) (V c main_v27)) (fun t _ => flushed13_eq V c t) covered13

end Cert.KernelIdeal.Frame
-- ==== Proof.KI.Red14Pieces.lean ====
/-
  The reduce call (custom_call 14): the contents each kind of grid point leaves, as the body's arithmetic.
  The stores are of whole buffers, so what is read back after them is the last store's payload; a load
  that follows a store of the same buffer reads that store's payload.
-/
import proofs.«121405_j17162689315290_1_alg».proof.Proof.KI.Red14
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces are: the payloads -/

theorem hz14_2 : (![0, 0] : Fin 2 → Nat) = fun _ => 0 := by funext a; fin_cases a <;> rfl
theorem hz14_3 : (![0, 0, 0] : Fin 3 → Nat) = fun _ => 0 := by funext a; fin_cases a <;> rfl

/-- After a first proposal tile the carried buffer holds the tile's maximum folded into the reset value. -/
theorem sout14_A_0_eq (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond14_0 i) (hc1 : ¬cond14_1 i) (x0 : Vec F S8x256x601 .f32) :
    sout14_A_0 c i arg2 harg2 arg3 harg3 arg4 harg4 arg5 harg5 hc0 hc1 x0 = k14_pay2 x0 (k14_pay1 (F := F)) := by
  unfold sout14_A_0
  rw [View.read_writes_eq_canon _ _ _ (scover14_A_0 c i arg2 harg2 arg3 harg3 arg4 harg4 arg5 harg5 hc0 hc1 x0)]
  unfold kernelRun14_A
  dsimp only
  sl_unfold_words
  rw [View.canon_cons_unit_zero hz14_2]
  simp only [View.readAt_eq_ld, harg2.read_unread, View.ld_unit_zero (S := S8x256x601) hz14_3]
  exact congrArg (k14_pay2 x0) (View.readCov_unit_zero (S := S8x601) arg5.view hz14_2 _ _)

/-- After an inner tile: the tile's maximum folded into what the point before left. -/
theorem sout14_B_0_eq (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : ¬cond14_1 i) (x0 : Vec F S8x256x601 .f32) (xs0 : Vec F S8x601 .f32) :
    sout14_B_0 c i arg2 harg2 arg3 harg3 arg4 harg4 arg5 harg5 hc0 hc1 x0 xs0 = k14_pay2 x0 xs0 := by
  unfold sout14_B_0
  rw [View.read_writes_eq_canon _ _ _ (scover14_B_0 c i arg2 harg2 arg3 harg3 arg4 harg4 arg5 harg5 hc0 hc1 x0 xs0)]
  unfold kernelRun14_B
  dsimp only
  sl_unfold_words
  rw [View.canon_unit_zero hz14_2]
  simp only [View.readAt_eq_ld, harg2.read_unread, harg5.read_unread, View.ld_unit_zero (S := S8x256x601) hz14_3, View.ld_unit_zero (S := S8x601) hz14_2]
  try rfl

/-- After a last tile the carried buffer likewise, -/
theorem sout14_C_0_eq (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i) (x0 : Vec F S8x256x601 .f32) (x1 : Vec F S601x601 .f32) (xs0 : Vec F S8x601 .f32) :
    sout14_C_0 c i arg2 harg2 arg3 harg3 arg4 harg4 arg5 harg5 hc0 hc1 x0 x1 xs0 = k14_pay2 x0 xs0 := by
  unfold sout14_C_0
  rw [View.read_writes_eq_canon _ _ _ (scover14_C_0 c i arg2 harg2 arg3 harg3 arg4 harg4 arg5 harg5 hc0 hc1 x0 x1 xs0)]
  unfold kernelRun14_C
  dsimp only
  sl_unfold_words
  rw [View.canon_unit_zero hz14_2]
  simp only [View.readAt_eq_ld, harg2.read_unread, harg5.read_unread, View.ld_unit_zero (S := S8x256x601) hz14_3, View.ld_unit_zero (S := S8x601) hz14_2]
  try rfl

/-- and the output block holds that maximum times the matrix's block. -/
theorem out14_C_2_eq (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i) (x0 : Vec F S8x256x601 .f32) (x1 : Vec F S601x601 .f32) (xs0 : Vec F S8x601 .f32) :
    out14_C_2 c i arg2 harg2 arg3 harg3 arg4 harg4 arg5 harg5 hc0 hc1 x0 x1 xs0 = k14_pay3 (k14_pay2 x0 xs0) x1 := by
  unfold out14_C_2
  rw [View.read_writes_eq_canon _ _ _ (cover14_C_2 c i arg2 harg2 arg3 harg3 arg4 harg4 arg5 harg5 hc0 hc1 x0 x1 xs0)]
  unfold kernelRun14_C
  dsimp only
  sl_unfold_words
  rw [View.canon_unit_zero hz14_2]
  simp only [View.readAt_eq_ld, harg2.read_unread, harg3.read_unread, harg5.read_unread, View.ld_unit_zero (S := S8x256x601) hz14_3, View.ld_unit_zero (S := S601x601) hz14_2, View.ld_unit_zero (S := S8x601) hz14_2]
  exact congrArg (fun z => k14_pay3 z x1) (View.readCov_unit_zero (S := S8x601) arg5.view hz14_2 _ _)

end Cert.KernelIdeal.Frame

end
-- ==== Proof.KI.Blocks14.lean ====
/-
  The blocks of the reduce call 14 and the update call 15 as tiles of their whole arrays, and which grid points'
  result blocks hold a given index: the same facts as for calls 0 and 1, for this pair's windows.
-/
import proofs.«121405_j17162689315290_1_alg».proof.Proof.KI.Blocks

noncomputable section

namespace Cert.KernelIdeal.Frame

open Cert.KernelIdeal Cert.KernelIdeal.Gen Idealize.ShloMosaic Idealize.ShloMosaic.ValueIdx

variable {F : FTy → Type} [FloatOps F]

/-- A point of the reduce call's grid as a number below 32, and likewise for the update call. -/
abbrev pt14 (t : Fin cfg14.N) : Fin 32 := t.cast N_14
abbrev pt15 (t : Fin cfg15.N) : Fin 32 := t.cast N_15

@[simp] theorem pt14_val (t : Fin cfg14.N) : (pt14 t).val = t.val := rfl
@[simp] theorem pt15_val (t : Fin cfg15.N) : (pt15 t).val = t.val := rfl

/-! ## The printed index maps, decided once over the grid -/

/-- The reduce call: scores at block (t / 8, t % 8, 0), the matrix at block (0, 0), the result at block (t / 8, 0). -/
theorem idx14 : ∀ t : Fin cfg14.N,
    (win14_0.index t (0 : Fin 3) = t.val / 8 ∧ win14_0.index t (1 : Fin 3) = t.val % 8 ∧ win14_0.index t (2 : Fin 3) = 0)
    ∧ (win14_1.index t (0 : Fin 2) = 0 ∧ win14_1.index t (1 : Fin 2) = 0)
    ∧ (win14_2.index t (0 : Fin 2) = t.val / 8 ∧ win14_2.index t (1 : Fin 2) = 0) :=
  (by decide +kernel : ∀ t : Fin grid14.N, _)

/-- The update call: unaries and result at block (t / 8, t % 8, 0), the per-image rows at block (t / 8, 0). -/
theorem idx15 : ∀ t : Fin cfg15.N,
    (win15_0.index t (0 : Fin 3) = t.val / 8 ∧ win15_0.index t (1 : Fin 3) = t.val % 8 ∧ win15_0.index t (2 : Fin 3) = 0)
    ∧ (win15_1.index t (0 : Fin 2) = t.val / 8 ∧ win15_1.index t (1 : Fin 2) = 0)
    ∧ (win15_2.index t (0 : Fin 3) = t.val / 8 ∧ win15_2.index t (1 : Fin 3) = t.val % 8 ∧ win15_2.index t (2 : Fin 3) = 0) :=
  (by decide +kernel : ∀ t : Fin grid15.N, _)

/-! ## Each block, read off its whole array -/

/-- The reduce call's block of scores at point `t` is the tile at image tile `t / 8`, proposal tile `t % 8`. -/
theorem blk14_0_read (A : FVec F S32x2048x601 .f32) (t : Fin cfg14.N) :
    (((cfg14.win 0).blk t).view.read (Elt F) A : Vec F S8x256x601 .f32) = tileOf A (bOf (pt14 t)) (nOf (pt14 t)) := by
  obtain ⟨⟨e0, e1, e2⟩, -, -⟩ := idx14 t
  funext y
  rw [View.read_apply]
  show A (((cfg14.win 0).blk t).view.emb y) = A _
  congr 1
  funext a
  apply Fin.ext
  match a with
  | ⟨0, _⟩ => show win14_0.index t (0 : Fin 3) * 8 + 1 * (y 0).val = 8 * (t.val / 8) + (y 0).val; omega
  | ⟨1, _⟩ => show win14_0.index t (1 : Fin 3) * 256 + 1 * (y 1).val = 256 * (t.val % 8) + (y 1).val; omega
  | ⟨2, _⟩ => show win14_0.index t (2 : Fin 3) * 601 + 1 * (y 2).val = (y 2).val; omega

/-- The reduce call's one block of the compatibility matrix is the matrix. -/
theorem blk14_1_read (A : FVec F S601x601 .f32) (t : Fin cfg14.N) :
    (((cfg14.win 1).blk t).view.read (Elt F) A : Vec F S601x601 .f32) = A := by
  obtain ⟨-, ⟨e0, e1⟩, -⟩ := idx14 t
  funext y
  rw [View.read_apply]
  show A (((cfg14.win 1).blk t).view.emb y) = A y
  congr 1
  funext a
  apply Fin.ext
  match a with
  | ⟨0, _⟩ => show win14_1.index t (0 : Fin 2) * 601 + 1 * (y 0).val = (y 0).val; omega
  | ⟨1, _⟩ => show win14_1.index t (1 : Fin 2) * 601 + 1 * (y 1).val = (y 1).val; omega

/-- The reduce call's result block at point `t` is rows `8·(t / 8) …` of the per-image array. -/
theorem blk14_2_read (X : FVec F S32x601 .f32) (t : Fin cfg14.N) :
    (((cfg14.win 2).blk t).view.read (Elt F) X : Vec F S8x601 .f32) = rowsOf X (bOf (pt14 t)) := by
  obtain ⟨-, -, ⟨e0, e1⟩⟩ := idx14 t
  funext y
  rw [View.read_apply]
  show X (((cfg14.win 2).blk t).view.emb y) = X _
  congr 1
  funext a
  apply Fin.ext
  match a with
  | ⟨0, _⟩ => show win14_2.index t (0 : Fin 2) * 8 + 1 * (y 0).val = 8 * (t.val / 8) + (y 0).val; omega
  | ⟨1, _⟩ => show win14_2.index t (1 : Fin 2) * 601 + 1 * (y 1).val = (y 1).val; omega

/-- The update call's block of unaries at point `t` is the tile at image tile `t / 8`, proposal tile `t % 8`. -/
theorem blk15_0_read (A : FVec F S32x2048x601 .f32) (t : Fin cfg15.N) :
    (((cfg15.win 0).blk t).view.read (Elt F) A : Vec F S8x256x601 .f32) = tileOf A (bOf (pt15 t)) (nOf (pt15 t)) := by
  obtain ⟨⟨e0, e1, e2⟩, -, -⟩ := idx15 t
  funext y
  rw [View.read_apply]
  show A (((cfg15.win 0).blk t).view.emb y) = A _
  congr 1
  funext a
  apply Fin.ext
  match a with
  | ⟨0, _⟩ => show win15_0.index t (0 : Fin 3) * 8 + 1 * (y 0).val = 8 * (t.val / 8) + (y 0).val; omega
  | ⟨1, _⟩ => show win15_0.index t (1 : Fin 3) * 256 + 1 * (y 1).val = 256 * (t.val % 8) + (y 1).val; omega
  | ⟨2, _⟩ => show win15_0.index t (2 : Fin 3) * 601 + 1 * (y 2).val = (y 2).val; omega

/-- The update call's block of the per-image array at point `t` is its rows `8·(t / 8) …`. -/
theorem blk15_1_read (X : FVec F S32x601 .f32) (t : Fin cfg15.N) :
    (((cfg15.win 1).blk t).view.read (Elt F) X : Vec F S8x601 .f32) = rowsOf X (bOf (pt15 t)) := by
  obtain ⟨-, ⟨e0, e1⟩, -⟩ := idx15 t
  funext y
  rw [View.read_apply]
  show X (((cfg15.win 1).blk t).view.emb y) = X _
  congr 1
  funext a
  apply Fin.ext
  match a with
  | ⟨0, _⟩ => show win15_1.index t (0 : Fin 2) * 8 + 1 * (y 0).val = 8 * (t.val / 8) + (y 0).val; omega
  | ⟨1, _⟩ => show win15_1.index t (1 : Fin 2) * 601 + 1 * (y 1).val = (y 1).val; omega

/-- The update call's result block at point `t` is the tile at image tile `t / 8`, proposal tile `t % 8`. -/
theorem blk15_2_read (A : FVec F S32x2048x601 .f32) (t : Fin cfg15.N) :
    (((cfg15.win 2).blk t).view.read (Elt F) A : Vec F S8x256x601 .f32) = tileOf A (bOf (pt15 t)) (nOf (pt15 t)) := by
  obtain ⟨-, -, ⟨e0, e1, e2⟩⟩ := idx15 t
  funext y
  rw [View.read_apply]
  show A (((cfg15.win 2).blk t).view.emb y) = A _
  congr 1
  funext a
  apply Fin.ext
  match a with
  | ⟨0, _⟩ => show win15_2.index t (0 : Fin 3) * 8 + 1 * (y 0).val = 8 * (t.val / 8) + (y 0).val; omega
  | ⟨1, _⟩ => show win15_2.index t (1 : Fin 3) * 256 + 1 * (y 1).val = 256 * (t.val % 8) + (y 1).val; omega
  | ⟨2, _⟩ => show win15_2.index t (2 : Fin 3) * 601 + 1 * (y 2).val = (y 2).val; omega

/-! ## Which points' result blocks hold a given index -/

/-- An index of the per-image array is in the reduce call's result block at point `t` iff, on each axis, it is
    in the block's range. -/
theorem mem_blk14_2 (t : Fin cfg14.N) (i : S32x601.Idx) :
    i ∈ ((cfg14.win 2).blk t).view.set ↔ ∀ a : Fin 2, win14_2.index t a * S8x601.size a ≤ (i a).val ∧ (i a).val < win14_2.index t a * S8x601.size a + S8x601.size a := by
  show i ∈ ((View.whole main_v29).slice (win14_2.rect t)).set ↔ _
  rw [View.set_slice_whole, Rect.mem_set_unit]
  exact Iff.rfl

/-- … that is, iff its image lies in the point's image tile. -/
theorem mem_blk14_2_iff (t : Fin cfg14.N) (i : S32x601.Idx) :
    i ∈ ((cfg14.win 2).blk t).view.set ↔ (i 0).val / 8 = t.val / 8 := by
  rw [mem_blk14_2]
  obtain ⟨-, -, ⟨e0, e1⟩⟩ := idx14 t
  have h1 : (i 1).val < 601 := (i 1).isLt
  constructor
  · intro h
    have b0 : win14_2.index t (0 : Fin 2) * 8 ≤ (i 0).val ∧ (i 0).val < win14_2.index t (0 : Fin 2) * 8 + 8 := h 0
    omega
  · intro h a
    match a with
    | ⟨0, _⟩ => show win14_2.index t (0 : Fin 2) * 8 ≤ (i 0).val ∧ (i 0).val < win14_2.index t (0 : Fin 2) * 8 + 8; omega
    | ⟨1, _⟩ => show win14_2.index t (1 : Fin 2) * 601 ≤ (i 1).val ∧ (i 1).val < win14_2.index t (1 : Fin 2) * 601 + 601; omega

/-- The point that writes back the rows of image `r`: the last proposal tile of image tile `r / 8`. -/
def lastPt14 (r : Fin 32) : Fin cfg14.N := ⟨8 * (r.val / 8) + 7, by rw [show cfg14.N = 32 from N_14]; omega⟩

@[simp] theorem lastPt14_val (r : Fin 32) : (lastPt14 r).val = 8 * (r.val / 8) + 7 := rfl

/-- Every index of the per-image array is in the result block of a point that writes it back: the last
    proposal tile of its image's tile. -/
theorem cover14_2 (i : S32x601.Idx) :
    ∃ t : Fin cfg14.N, (cfg14.win 2).flush t = true ∧ i ∈ ((cfg14.win 2).blk t).view.set := by
  have h0 : (i 0).val < 32 := (i 0).isLt
  refine ⟨lastPt14 ⟨(i 0).val, h0⟩, (flush14_2 _).mpr ?_, (mem_blk14_2_iff _ i).mpr ?_⟩
  · show (8 * ((i 0).val / 8) + 7) % 8 = 7; omega
  · show (i 0).val / 8 = (8 * ((i 0).val / 8) + 7) / 8; omega

/-- The points that write the reduce call's result back and hold a given index are exactly the last proposal
    tile of its image's tile. -/
theorem flush_mem14_2_iff (t : Fin cfg14.N) (i : S32x601.Idx) :
    ((cfg14.win 2).flush t = true ∧ i ∈ ((cfg14.win 2).blk t).view.set) ↔ t.val = 8 * ((i 0).val / 8) + 7 := by
  rw [flush14_2, mem_blk14_2_iff]
  have ht : t.val < 32 := (pt14 t).isLt
  omega

/-- An index of the scores-shaped result is in the update call's result block at point `t` iff, on each axis, it
    is in the block's range. -/
theorem mem_blk15_2 (t : Fin cfg15.N) (i : S32x2048x601.Idx) :
    i ∈ ((cfg15.win 2).blk t).view.set ↔ ∀ a : Fin 3, win15_2.index t a * S8x256x601.size a ≤ (i a).val ∧ (i a).val < win15_2.index t a * S8x256x601.size a + S8x256x601.size a := by
  show i ∈ ((View.whole main_v32).slice (win15_2.rect t)).set ↔ _
  rw [View.set_slice_whole, Rect.mem_set_unit]
  exact Iff.rfl

/-- … that is, iff its image and its proposal lie in the point's tiles. -/
theorem mem_blk15_2_iff (t : Fin cfg15.N) (i : S32x2048x601.Idx) :
    i ∈ ((cfg15.win 2).blk t).view.set ↔ (i 0).val / 8 = t.val / 8 ∧ (i 1).val / 256 = t.val % 8 := by
  rw [mem_blk15_2]
  obtain ⟨-, -, ⟨e0, e1, e2⟩⟩ := idx15 t
  have h2 : (i 2).val < 601 := (i 2).isLt
  constructor
  · intro h
    have b0 : win15_2.index t (0 : Fin 3) * 8 ≤ (i 0).val ∧ (i 0).val < win15_2.index t (0 : Fin 3) * 8 + 8 := h 0
    have b1 : win15_2.index t (1 : Fin 3) * 256 ≤ (i 1).val ∧ (i 1).val < win15_2.index t (1 : Fin 3) * 256 + 256 := h 1
    omega
  · intro h a
    match a with
    | ⟨0, _⟩ => show win15_2.index t (0 : Fin 3) * 8 ≤ (i 0).val ∧ (i 0).val < win15_2.index t (0 : Fin 3) * 8 + 8; omega
    | ⟨1, _⟩ => show win15_2.index t (1 : Fin 3) * 256 ≤ (i 1).val ∧ (i 1).val < win15_2.index t (1 : Fin 3) * 256 + 256; omega
    | ⟨2, _⟩ => show win15_2.index t (2 : Fin 3) * 601 ≤ (i 2).val ∧ (i 2).val < win15_2.index t (2 : Fin 3) * 601 + 601; omega

/-- The point whose tiles hold image `r` and proposal `p`. -/
def ptOf15 (r : Fin 32) (p : Fin 2048) : Fin cfg15.N := ⟨8 * (r.val / 8) + p.val / 256, by rw [show cfg15.N = 32 from N_15]; omega⟩

@[simp] theorem ptOf15_val (r : Fin 32) (p : Fin 2048) : (ptOf15 r p).val = 8 * (r.val / 8) + p.val / 256 := rfl

/-- Every index of the update call's result is in the result block of a point (every point writes back): the
    point of its image's and its proposal's tiles. -/
theorem cover15_2 (i : S32x2048x601.Idx) :
    ∃ t : Fin cfg15.N, (cfg15.win 2).flush t = true ∧ i ∈ ((cfg15.win 2).blk t).view.set := by
  have h0 : (i 0).val < 32 := (i 0).isLt
  have h1 : (i 1).val < 2048 := (i 1).isLt
  refine ⟨ptOf15 ⟨(i 0).val, h0⟩ ⟨(i 1).val, h1⟩, flush15_2 _, (mem_blk15_2_iff _ i).mpr ⟨?_, ?_⟩⟩
  · show (i 0).val / 8 = (8 * ((i 0).val / 8) + (i 1).val / 256) / 8; omega
  · show (i 1).val / 256 = (8 * ((i 0).val / 8) + (i 1).val / 256) % 8; omega

/-- The one point whose result block holds a given index of the update call's result. -/
theorem mem_blk15_2_iff_pt (t : Fin cfg15.N) (i : S32x2048x601.Idx) :
    i ∈ ((cfg15.win 2).blk t).view.set ↔ t.val = 8 * ((i 0).val / 8) + (i 1).val / 256 := by
  rw [mem_blk15_2_iff]
  have ht : t.val < 32 := (pt15 t).isLt
  have h1 : (i 1).val < 2048 := (i 1).isLt
  omega

end Cert.KernelIdeal.Frame

end
-- ==== Proof.KI.Red14Value.lean ====
/-
  The reduce call (custom_call 14) at the exact instance: what it leaves in its result array.

  With q the scores and M the compatibility matrix as the region finds them: after the point of image tile b
  and proposal tile k the carried buffer holds the running maximum of the tiles' softmax maxima over proposal
  tiles 0 … k of image tile b; at k = 7 the output block is that maximum times M, which is rows 8b … 8b+7 of
  the specification's pairwise term; the eight-point runs' blocks tile the result, so the result array ends
  at the pairwise term of q and M.
-/
import proofs.«121405_j17162689315290_1_alg».proof.Proof.KI.Red14Pieces
import proofs.«121405_j17162689315290_1_alg».proof.Proof.KI.Blocks14
import proofs.«121405_j17162689315290_1_alg».proof.Proof.RedMath
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

/-- This call's arithmetic is the first reduce call's: its loaded block of scores only passes through an identity
    cast first. -/
theorem pay14_2 (v : Vec Ideal S8x256x601 .f32) (w : Vec Ideal S8x601 .f32) : k14_pay2 v w = k0_pay2 v w := by
  unfold k14_pay2 k0_pay2; simp only [shapeCast_self]
theorem pay14_3 (v : Vec Ideal S8x601 .f32) (w : Vec Ideal S601x601 .f32) : k14_pay3 v w = k0_pay3 v w := by
  unfold k14_pay3 k0_pay3; rfl
theorem pay14_1 : k14_pay1 (F := Ideal) = k0_pay1 := by unfold k14_pay1 k0_pay1; rfl

/-- The scores' block at the point 8·b + k is tile (b, k) of the scores. -/
theorem iblk14_0_tile (c : Dev nD) (n : ℕ) (hn : n < cfg14.N) (b : Fin 4) (k : Fin 8) (h : n = 8 * b.val + k.val) :
    (iblk14 V c 0 ⟨n, hn⟩ : Vec Ideal S8x256x601 .f32) = RedMath.tile (V c (Pipeline.arrRef spec14 0)) b k := by
  unfold iblk14
  rw [blk14_0_read, tileOf_ideal]
  have hb : bOf (pt14 ⟨n, hn⟩) = b := Fin.ext (by simp only [bOf_val, pt14_val]; omega)
  have hk : nOf (pt14 ⟨n, hn⟩) = k := Fin.ext (by simp only [nOf_val, pt14_val]; omega)
  rw [hb, hk]

/-- The matrix's block is the matrix. -/
theorem iblk14_1_whole (c : Dev nD) (t : Fin cfg14.N) :
    (iblk14 V c 1 t : Vec Ideal S601x601 .f32) = V c (Pipeline.arrRef spec14 1) := by
  unfold iblk14; exact blk14_1_read _ t

/-- The accumulation in closed form: after point 8·b + k the carried buffer holds the running maximum over proposal tiles 0 … k. -/
theorem carried14_eq (c : Dev nD) (b : Fin 4) : ∀ (k : ℕ) (hk : k < 8) (n : ℕ) (hn : n < cfg14.N), n = 8 * b.val + k →
    (outsAt14 V c n hn).2 = RedMath.runMax (V c (Pipeline.arrRef spec14 0)) b k := by
  intro k
  induction k with
  | zero =>
    intro hk n hn h
    have h0 : (⟨n, hn⟩ : Fin cfg14.N).val % 8 = 0 := by simp only; omega
    have h1 : ¬(⟨n, hn⟩ : Fin cfg14.N).val % 8 = 7 := by simp only; omega
    have e := outsAt14_A V c ⟨n, hn⟩ h0 h1
    simp only at e
    rw [e]
    simp only [sout14_A_0_eq, pay14_2, pay14_1]
    rw [iblk14_0_tile V c n hn b ⟨0, by omega⟩ (by simpa using h), RedMath.runMax_zero]
    rfl
  | succ k ih =>
    intro hk n hn h
    have hprev := ih (by omega) (n - 1) (by omega) (by omega)
    have h0 : ¬(⟨n, hn⟩ : Fin cfg14.N).val % 8 = 0 := by simp only; omega
    have hsucc : RedMath.runMax (V c (Pipeline.arrRef spec14 0)) b (k + 1)
        = k0_pay2 (RedMath.tile (V c (Pipeline.arrRef spec14 0)) b ⟨k + 1, hk⟩) (RedMath.runMax (V c (Pipeline.arrRef spec14 0)) b k) := by
      rw [RedMath.runMax_succ]
      congr 2
      exact Fin.ext (Nat.mod_eq_of_lt hk)
    by_cases h1 : (⟨n, hn⟩ : Fin cfg14.N).val % 8 = 7
    · have e := outsAt14_C V c ⟨n, hn⟩ h0 h1
      simp only at e
      rw [e]
      simp only [sout14_C_0_eq, pay14_2]
      rw [iblk14_0_tile V c n hn b ⟨k + 1, hk⟩ (by simpa using h), hprev, hsucc]
    · have e := outsAt14_B V c ⟨n, hn⟩ h0 h1
      simp only at e
      rw [e]
      simp only [sout14_B_0_eq, pay14_2]
      rw [iblk14_0_tile V c n hn b ⟨k + 1, hk⟩ (by simpa using h), hprev, hsucc]

/-- At the last proposal tile of image tile b the output block holds rows 8b … 8b+7 of the pairwise term. -/
theorem outBlock14_eq (c : Dev nD) (b : Fin 4) (n : ℕ) (hn : n < cfg14.N) (h : n = 8 * b.val + 7) :
    (outsAt14 V c n hn).1 = RedMath.rows (Cert.ReferenceIdeal.Crf.pairwise (V c (Pipeline.arrRef spec14 0)) (V c (Pipeline.arrRef spec14 1))) b := by
  have h0 : ¬(⟨n, hn⟩ : Fin cfg14.N).val % 8 = 0 := by simp only; omega
  have h1 : (⟨n, hn⟩ : Fin cfg14.N).val % 8 = 7 := by simp only; omega
  have hprev := carried14_eq V c b 6 (by omega) (n - 1) (by omega) (by omega)
  have e := outsAt14_C V c ⟨n, hn⟩ h0 h1
  simp only at e
  rw [e]
  simp only [out14_C_2_eq, pay14_2, pay14_3]
  rw [iblk14_0_tile V c n hn b ⟨7, by omega⟩ (by simpa using h), iblk14_1_whole, hprev]
  have hsucc : k0_pay2 (RedMath.tile (V c (Pipeline.arrRef spec14 0)) b ⟨7, by omega⟩) (RedMath.runMax (V c (Pipeline.arrRef spec14 0)) b 6)
      = RedMath.runMax (V c (Pipeline.arrRef spec14 0)) b 7 := rfl
  rw [hsucc]
  exact RedMath.reduce_rows (V c (Pipeline.arrRef spec14 0)) (V c (Pipeline.arrRef spec14 1)) b

/-- The result array after the region: the pairwise term of the scores and the matrix as the region finds them. -/
theorem final14 (c : Dev nD) :
    ((dat14 V c).arrAt 2 cfg14.N : S32x601.Idx → Elt Ideal .f32) = Cert.ReferenceIdeal.Crf.pairwise (F := Ideal) (V c (Pipeline.arrRef spec14 0)) (V c (Pipeline.arrRef spec14 1)) := by
  refine (dat14 V c).arrAt_eq_of_cover 2 (Cert.ReferenceIdeal.Crf.pairwise (F := Ideal) (V c (Pipeline.arrRef spec14 0)) (V c (Pipeline.arrRef spec14 1))) (fun t hf => ?_) cover14_2
  have h7 : t.val % 8 = 7 := (flush14_2 t).mp hf
  have hN : t.val < 32 := lt_of_lt_of_eq t.isLt (show cfg14.N = 32 from N_14)
  rw [blk14_2_read, rowsOf_ideal]
  show (dat14 V c).after 2 t = _
  rw [after14_2]
  have hb : bOf (pt14 t) = ⟨t.val / 8, by omega⟩ := Fin.ext (by simp only [bOf_val, pt14_val])
  rw [hb]
  exact outBlock14_eq V c ⟨t.val / 8, by omega⟩ t.val t.isLt (by simp only; omega)

end Cert.KernelIdeal.Frame

end
-- ==== Proof.KI.Upd15Value.lean ====
/-
  The value of the update step's region (custom_call 15): after its 32 grid points the output array holds, at
  every index (image, proposal, class), the unary score there minus the scaled pairwise term of that image and
  class — one whole-array function of the two input arrays as the region finds them, at any float instance.
-/
import proofs.«121405_j17162689315290_1_alg».proof.Proof.KI.Upd15
import proofs.«121405_j17162689315290_1_alg».proof.Proof.KI.Upd1Value
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The body's stored value at an index -/

/-- The stored block at (image, proposal, class) is the scores' block there minus the pairwise block at (image, class):
    the cast to the same shape is the identity, the cast that inserts a unit axis keeps the row-major position
    (image · 601 + class on both sides), and the broadcast along the unit axis reads coordinate 0 there. -/
theorem pay15_apply (x1 : Vec F S8x601 .f32) (x0 : Vec F S8x256x601 .f32) (j : S8x256x601.Idx) :
    k15_pay1 x1 x0 j = FloatOps.subf (x0 j) (x1 (ix2 (j 0) (j 2))) := by
  unfold k15_pay1
  show FloatOps.subf (x0 j) (broadcastTo S8x256x601 (shapeCast S8x1x601 (shapeCast S8x601 x1 shapeCasts_S8x601_S8x601) shapeCasts_S8x601_S8x1x601) broadcasts_S8x1x601_S8x256x601 j) = _
  congr 1
  rw [shapeCast_self]
  refine (broadcastTo_apply (s := S8x1x601) (t := S8x256x601) _ broadcasts_S8x1x601_S8x256x601 j (ix3 (j 0) (0 : Fin 1) (j 2)) (fun a => by
    match a with
    | ⟨0, _⟩ => rfl
    | ⟨1, _⟩ => rfl
    | ⟨2, _⟩ => rfl)).trans ?_
  refine shapeCast_apply (s := S8x601) (t := S8x1x601) x1 shapeCasts_S8x601_S8x1x601 (ix3 (j 0) (0 : Fin 1) (j 2)) (ix2 (j 0) (j 2)) ?_
  rw [Shape.rowMajor_val_two, Shape.rowMajor_val_three]
  show (j 0).val * 601 + (j 2).val = ((j 0).val * 1 + 0) * 601 + (j 2).val
  omega

/-! ## The windows' block indices over the grid -/

/-- Decided over the 32 points: the scores' window moves with the output's on every axis; the pairwise window follows
    the output's image tile and stays at class block 0; the output's block index is (image tile ≤ 3, proposal tile
    ≤ 7, 0). -/
theorem idx_facts15 : ∀ t : Fin cfg15.N,
    win15_0.index t (0 : Fin 3) = win15_2.index t (0 : Fin 3)
    ∧ win15_0.index t (1 : Fin 3) = win15_2.index t (1 : Fin 3)
    ∧ win15_0.index t (2 : Fin 3) = win15_2.index t (2 : Fin 3)
    ∧ win15_1.index t (0 : Fin 2) = win15_2.index t (0 : Fin 3)
    ∧ win15_1.index t (1 : Fin 2) = 0
    ∧ win15_2.index t (0 : Fin 3) ≤ 3
    ∧ win15_2.index t (1 : Fin 3) ≤ 7
    ∧ win15_2.index t (2 : Fin 3) = 0 :=
  (by decide +kernel : ∀ t : Fin grid15.N, _)

/-- Every (image tile, proposal tile) is some point's output block. -/
theorem idx_onto15 : ∀ (q0 : Fin 4) (q1 : Fin 8), ∃ t : Fin cfg15.N, win15_2.index t = ![q0.val, q1.val, 0] :=
  (by decide +kernel : ∀ (q0 : Fin 4) (q1 : Fin 8), ∃ t : Fin grid15.N, win15_2.index t = ![q0.val, q1.val, 0])

/-! ## What a point writes back -/

/-- Point `t` writes back block `t` of `G1` of the two input arrays: a block's coordinate on an axis is its block
    index times the block's extent plus the coordinate inside the block, so by the decided relations the scores' block
    is read where the output's block lies, and the pairwise block at that image and class. -/
theorem flushed15_eq (c : Dev nD) (t : Fin cfg15.N) :
    (dat15 V c).flushed 2 t = ((cfg15.win 2).blk t).view.read (Elt F) (G1 (V c main_arg0) (V c main_v31)) := by
  show (cfg15.win 2).cut (grid15.coords t) ((dat15 V c).after 2 t) = _
  rw [after15_2]
  obtain ⟨e0, e1, e2, e3, e4, e5, e6, e7⟩ := idx_facts15 t
  funext j
  refine (pay15_apply (iblk15 V c 1 t) (iblk15 V c 0 t) j).trans ?_
  show FloatOps.subf (V c main_arg0 (((cfg15.win 0).blk t).view.emb j)) (V c main_v31 (((cfg15.win 1).blk t).view.emb (ix2 (j 0) (j 2))))
    = FloatOps.subf (V c main_arg0 (((cfg15.win 2).blk t).view.emb j))
        (V c main_v31 (ix2 ((((cfg15.win 2).blk t).view.emb j) 0) ((((cfg15.win 2).blk t).view.emb j) 2)))
  have h0 : ((cfg15.win 0).blk t).view.emb j = ((cfg15.win 2).blk t).view.emb j := by
    funext a; apply Fin.ext
    match a with
    | ⟨0, _⟩ => show win15_0.index t (0 : Fin 3) * 8 + 1 * (j 0).val = win15_2.index t (0 : Fin 3) * 8 + 1 * (j 0).val; omega
    | ⟨1, _⟩ => show win15_0.index t (1 : Fin 3) * 256 + 1 * (j 1).val = win15_2.index t (1 : Fin 3) * 256 + 1 * (j 1).val; omega
    | ⟨2, _⟩ => show win15_0.index t (2 : Fin 3) * 601 + 1 * (j 2).val = win15_2.index t (2 : Fin 3) * 601 + 1 * (j 2).val; omega
  have h1 : ((cfg15.win 1).blk t).view.emb (ix2 (j 0) (j 2))
      = ix2 ((((cfg15.win 2).blk t).view.emb j) 0) ((((cfg15.win 2).blk t).view.emb j) 2) := by
    funext a; apply Fin.ext
    match a with
    | ⟨0, _⟩ => show win15_1.index t (0 : Fin 2) * 8 + 1 * (j 0).val = win15_2.index t (0 : Fin 3) * 8 + 1 * (j 0).val; omega
    | ⟨1, _⟩ => show win15_1.index t (1 : Fin 2) * 601 + 1 * (j 2).val = win15_2.index t (2 : Fin 3) * 601 + 1 * (j 2).val; omega
  rw [h0, h1]
  rfl

/-! ## The output's blocks tile its array -/

/-- An index of the output array is in point `t`'s block iff each coordinate is in the block's range on its axis. -/
theorem mem_blk15 (t : Fin cfg15.N) (i : S32x2048x601.Idx) :
    i ∈ ((cfg15.win 2).blk t).view.set ↔ ∀ a : Fin 3, win15_2.index t a * S8x256x601.size a ≤ (i a).val ∧ (i a).val < win15_2.index t a * S8x256x601.size a + S8x256x601.size a := by
  show i ∈ ((View.whole main_v32).slice (win15_2.rect t)).set ↔ _
  rw [View.set_slice_whole, Rect.mem_set_unit]
  exact Iff.rfl

/-- Every index is in the block of the point whose output block is (image / 8, proposal / 256, 0), and every point
    writes its block back. -/
theorem covered15 (i : S32x2048x601.Idx) :
    ∃ t : Fin cfg15.N, (cfg15.win 2).flush t = true ∧ i ∈ ((cfg15.win 2).blk t).view.set := by
  have hi0 : (i 0).val < 32 := (i 0).isLt
  have hi1 : (i 1).val < 2048 := (i 1).isLt
  have hi2 : (i 2).val < 601 := (i 2).isLt
  obtain ⟨t, ht⟩ := idx_onto15 ⟨(i 0).val / 8, by omega⟩ ⟨(i 1).val / 256, by omega⟩
  have q0 : win15_2.index t (0 : Fin 3) = (i 0).val / 8 := congrFun ht 0
  have q1 : win15_2.index t (1 : Fin 3) = (i 1).val / 256 := congrFun ht 1
  have q2 : win15_2.index t (2 : Fin 3) = 0 := congrFun ht 2
  refine ⟨t, flush15_2 t, ?_⟩
  rw [mem_blk15]
  intro a
  match a with
  | ⟨0, _⟩ => show win15_2.index t (0 : Fin 3) * 8 ≤ (i 0).val ∧ (i 0).val < win15_2.index t (0 : Fin 3) * 8 + 8; omega
  | ⟨1, _⟩ => show win15_2.index t (1 : Fin 3) * 256 ≤ (i 1).val ∧ (i 1).val < win15_2.index t (1 : Fin 3) * 256 + 256; omega
  | ⟨2, _⟩ => show win15_2.index t (2 : Fin 3) * 601 ≤ (i 2).val ∧ (i 2).val < win15_2.index t (2 : Fin 3) * 601 + 601; omega

/-! ## The array after the region -/

/-- After the last point the output array is `G1` of the unary scores and the scaled pairwise array as the region
    found them. -/
theorem final15 (c : Dev nD) : (dat15 V c).arrAt 2 cfg15.N = G1 (V c main_arg0) (V c main_v31) :=
  (dat15 V c).arrAt_eq_of_cover 2 (G1 (V c main_arg0) (V c main_v31)) (fun t _ => flushed15_eq V c t) covered15

end Cert.KernelIdeal.Frame
-- ==== Proof.KI.Red16Pieces.lean ====
/-
  The reduce call (custom_call 16): the contents each kind of grid point leaves, as the body's arithmetic.
  The stores are of whole buffers, so what is read back after them is the last store's payload; a load
  that follows a store of the same buffer reads that store's payload.
-/
import proofs.«121405_j17162689315290_1_alg».proof.Proof.KI.Red16
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces are: the payloads -/

theorem hz16_2 : (![0, 0] : Fin 2 → Nat) = fun _ => 0 := by funext a; fin_cases a <;> rfl
theorem hz16_3 : (![0, 0, 0] : Fin 3 → Nat) = fun _ => 0 := by funext a; fin_cases a <;> rfl

/-- After a first proposal tile the carried buffer holds the tile's maximum folded into the reset value. -/
theorem sout16_A_0_eq (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond16_0 i) (hc1 : ¬cond16_1 i) (x0 : Vec F S8x256x601 .f32) :
    sout16_A_0 c i arg2 harg2 arg3 harg3 arg4 harg4 arg5 harg5 hc0 hc1 x0 = k16_pay2 x0 (k16_pay1 (F := F)) := by
  unfold sout16_A_0
  rw [View.read_writes_eq_canon _ _ _ (scover16_A_0 c i arg2 harg2 arg3 harg3 arg4 harg4 arg5 harg5 hc0 hc1 x0)]
  unfold kernelRun16_A
  dsimp only
  sl_unfold_words
  rw [View.canon_cons_unit_zero hz16_2]
  simp only [View.readAt_eq_ld, harg2.read_unread, View.ld_unit_zero (S := S8x256x601) hz16_3]
  exact congrArg (k16_pay2 x0) (View.readCov_unit_zero (S := S8x601) arg5.view hz16_2 _ _)

/-- After an inner tile: the tile's maximum folded into what the point before left. -/
theorem sout16_B_0_eq (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : ¬cond16_1 i) (x0 : Vec F S8x256x601 .f32) (xs0 : Vec F S8x601 .f32) :
    sout16_B_0 c i arg2 harg2 arg3 harg3 arg4 harg4 arg5 harg5 hc0 hc1 x0 xs0 = k16_pay2 x0 xs0 := by
  unfold sout16_B_0
  rw [View.read_writes_eq_canon _ _ _ (scover16_B_0 c i arg2 harg2 arg3 harg3 arg4 harg4 arg5 harg5 hc0 hc1 x0 xs0)]
  unfold kernelRun16_B
  dsimp only
  sl_unfold_words
  rw [View.canon_unit_zero hz16_2]
  simp only [View.readAt_eq_ld, harg2.read_unread, harg5.read_unread, View.ld_unit_zero (S := S8x256x601) hz16_3, View.ld_unit_zero (S := S8x601) hz16_2]
  try rfl

/-- After a last tile the carried buffer likewise, -/
theorem sout16_C_0_eq (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i) (x0 : Vec F S8x256x601 .f32) (x1 : Vec F S601x601 .f32) (xs0 : Vec F S8x601 .f32) :
    sout16_C_0 c i arg2 harg2 arg3 harg3 arg4 harg4 arg5 harg5 hc0 hc1 x0 x1 xs0 = k16_pay2 x0 xs0 := by
  unfold sout16_C_0
  rw [View.read_writes_eq_canon _ _ _ (scover16_C_0 c i arg2 harg2 arg3 harg3 arg4 harg4 arg5 harg5 hc0 hc1 x0 x1 xs0)]
  unfold kernelRun16_C
  dsimp only
  sl_unfold_words
  rw [View.canon_unit_zero hz16_2]
  simp only [View.readAt_eq_ld, harg2.read_unread, harg5.read_unread, View.ld_unit_zero (S := S8x256x601) hz16_3, View.ld_unit_zero (S := S8x601) hz16_2]
  try rfl

/-- and the output block holds that maximum times the matrix's block. -/
theorem out16_C_2_eq (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i) (x0 : Vec F S8x256x601 .f32) (x1 : Vec F S601x601 .f32) (xs0 : Vec F S8x601 .f32) :
    out16_C_2 c i arg2 harg2 arg3 harg3 arg4 harg4 arg5 harg5 hc0 hc1 x0 x1 xs0 = k16_pay3 (k16_pay2 x0 xs0) x1 := by
  unfold out16_C_2
  rw [View.read_writes_eq_canon _ _ _ (cover16_C_2 c i arg2 harg2 arg3 harg3 arg4 harg4 arg5 harg5 hc0 hc1 x0 x1 xs0)]
  unfold kernelRun16_C
  dsimp only
  sl_unfold_words
  rw [View.canon_unit_zero hz16_2]
  simp only [View.readAt_eq_ld, harg2.read_unread, harg3.read_unread, harg5.read_unread, View.ld_unit_zero (S := S8x256x601) hz16_3, View.ld_unit_zero (S := S601x601) hz16_2, View.ld_unit_zero (S := S8x601) hz16_2]
  exact congrArg (fun z => k16_pay3 z x1) (View.readCov_unit_zero (S := S8x601) arg5.view hz16_2 _ _)

end Cert.KernelIdeal.Frame

end
-- ==== Proof.KI.Blocks16.lean ====
/-
  The blocks of the reduce call 16 and the update call 17 as tiles of their whole arrays, and which grid points'
  result blocks hold a given index: the same facts as for calls 0 and 1, for this pair's windows.
-/
import proofs.«121405_j17162689315290_1_alg».proof.Proof.KI.Blocks

noncomputable section

namespace Cert.KernelIdeal.Frame

open Cert.KernelIdeal Cert.KernelIdeal.Gen Idealize.ShloMosaic Idealize.ShloMosaic.ValueIdx

variable {F : FTy → Type} [FloatOps F]

/-- A point of the reduce call's grid as a number below 32, and likewise for the update call. -/
abbrev pt16 (t : Fin cfg16.N) : Fin 32 := t.cast N_16
abbrev pt17 (t : Fin cfg17.N) : Fin 32 := t.cast N_17

@[simp] theorem pt16_val (t : Fin cfg16.N) : (pt16 t).val = t.val := rfl
@[simp] theorem pt17_val (t : Fin cfg17.N) : (pt17 t).val = t.val := rfl

/-! ## The printed index maps, decided once over the grid -/

/-- The reduce call: scores at block (t / 8, t % 8, 0), the matrix at block (0, 0), the result at block (t / 8, 0). -/
theorem idx16 : ∀ t : Fin cfg16.N,
    (win16_0.index t (0 : Fin 3) = t.val / 8 ∧ win16_0.index t (1 : Fin 3) = t.val % 8 ∧ win16_0.index t (2 : Fin 3) = 0)
    ∧ (win16_1.index t (0 : Fin 2) = 0 ∧ win16_1.index t (1 : Fin 2) = 0)
    ∧ (win16_2.index t (0 : Fin 2) = t.val / 8 ∧ win16_2.index t (1 : Fin 2) = 0) :=
  (by decide +kernel : ∀ t : Fin grid16.N, _)

/-- The update call: unaries and result at block (t / 8, t % 8, 0), the per-image rows at block (t / 8, 0). -/
theorem idx17 : ∀ t : Fin cfg17.N,
    (win17_0.index t (0 : Fin 3) = t.val / 8 ∧ win17_0.index t (1 : Fin 3) = t.val % 8 ∧ win17_0.index t (2 : Fin 3) = 0)
    ∧ (win17_1.index t (0 : Fin 2) = t.val / 8 ∧ win17_1.index t (1 : Fin 2) = 0)
    ∧ (win17_2.index t (0 : Fin 3) = t.val / 8 ∧ win17_2.index t (1 : Fin 3) = t.val % 8 ∧ win17_2.index t (2 : Fin 3) = 0) :=
  (by decide +kernel : ∀ t : Fin grid17.N, _)

/-! ## Each block, read off its whole array -/

/-- The reduce call's block of scores at point `t` is the tile at image tile `t / 8`, proposal tile `t % 8`. -/
theorem blk16_0_read (A : FVec F S32x2048x601 .f32) (t : Fin cfg16.N) :
    (((cfg16.win 0).blk t).view.read (Elt F) A : Vec F S8x256x601 .f32) = tileOf A (bOf (pt16 t)) (nOf (pt16 t)) := by
  obtain ⟨⟨e0, e1, e2⟩, -, -⟩ := idx16 t
  funext y
  rw [View.read_apply]
  show A (((cfg16.win 0).blk t).view.emb y) = A _
  congr 1
  funext a
  apply Fin.ext
  match a with
  | ⟨0, _⟩ => show win16_0.index t (0 : Fin 3) * 8 + 1 * (y 0).val = 8 * (t.val / 8) + (y 0).val; omega
  | ⟨1, _⟩ => show win16_0.index t (1 : Fin 3) * 256 + 1 * (y 1).val = 256 * (t.val % 8) + (y 1).val; omega
  | ⟨2, _⟩ => show win16_0.index t (2 : Fin 3) * 601 + 1 * (y 2).val = (y 2).val; omega

/-- The reduce call's one block of the compatibility matrix is the matrix. -/
theorem blk16_1_read (A : FVec F S601x601 .f32) (t : Fin cfg16.N) :
    (((cfg16.win 1).blk t).view.read (Elt F) A : Vec F S601x601 .f32) = A := by
  obtain ⟨-, ⟨e0, e1⟩, -⟩ := idx16 t
  funext y
  rw [View.read_apply]
  show A (((cfg16.win 1).blk t).view.emb y) = A y
  congr 1
  funext a
  apply Fin.ext
  match a with
  | ⟨0, _⟩ => show win16_1.index t (0 : Fin 2) * 601 + 1 * (y 0).val = (y 0).val; omega
  | ⟨1, _⟩ => show win16_1.index t (1 : Fin 2) * 601 + 1 * (y 1).val = (y 1).val; omega

/-- The reduce call's result block at point `t` is rows `8·(t / 8) …` of the per-image array. -/
theorem blk16_2_read (X : FVec F S32x601 .f32) (t : Fin cfg16.N) :
    (((cfg16.win 2).blk t).view.read (Elt F) X : Vec F S8x601 .f32) = rowsOf X (bOf (pt16 t)) := by
  obtain ⟨-, -, ⟨e0, e1⟩⟩ := idx16 t
  funext y
  rw [View.read_apply]
  show X (((cfg16.win 2).blk t).view.emb y) = X _
  congr 1
  funext a
  apply Fin.ext
  match a with
  | ⟨0, _⟩ => show win16_2.index t (0 : Fin 2) * 8 + 1 * (y 0).val = 8 * (t.val / 8) + (y 0).val; omega
  | ⟨1, _⟩ => show win16_2.index t (1 : Fin 2) * 601 + 1 * (y 1).val = (y 1).val; omega

/-- The update call's block of unaries at point `t` is the tile at image tile `t / 8`, proposal tile `t % 8`. -/
theorem blk17_0_read (A : FVec F S32x2048x601 .f32) (t : Fin cfg17.N) :
    (((cfg17.win 0).blk t).view.read (Elt F) A : Vec F S8x256x601 .f32) = tileOf A (bOf (pt17 t)) (nOf (pt17 t)) := by
  obtain ⟨⟨e0, e1, e2⟩, -, -⟩ := idx17 t
  funext y
  rw [View.read_apply]
  show A (((cfg17.win 0).blk t).view.emb y) = A _
  congr 1
  funext a
  apply Fin.ext
  match a with
  | ⟨0, _⟩ => show win17_0.index t (0 : Fin 3) * 8 + 1 * (y 0).val = 8 * (t.val / 8) + (y 0).val; omega
  | ⟨1, _⟩ => show win17_0.index t (1 : Fin 3) * 256 + 1 * (y 1).val = 256 * (t.val % 8) + (y 1).val; omega
  | ⟨2, _⟩ => show win17_0.index t (2 : Fin 3) * 601 + 1 * (y 2).val = (y 2).val; omega

/-- The update call's block of the per-image array at point `t` is its rows `8·(t / 8) …`. -/
theorem blk17_1_read (X : FVec F S32x601 .f32) (t : Fin cfg17.N) :
    (((cfg17.win 1).blk t).view.read (Elt F) X : Vec F S8x601 .f32) = rowsOf X (bOf (pt17 t)) := by
  obtain ⟨-, ⟨e0, e1⟩, -⟩ := idx17 t
  funext y
  rw [View.read_apply]
  show X (((cfg17.win 1).blk t).view.emb y) = X _
  congr 1
  funext a
  apply Fin.ext
  match a with
  | ⟨0, _⟩ => show win17_1.index t (0 : Fin 2) * 8 + 1 * (y 0).val = 8 * (t.val / 8) + (y 0).val; omega
  | ⟨1, _⟩ => show win17_1.index t (1 : Fin 2) * 601 + 1 * (y 1).val = (y 1).val; omega

/-- The update call's result block at point `t` is the tile at image tile `t / 8`, proposal tile `t % 8`. -/
theorem blk17_2_read (A : FVec F S32x2048x601 .f32) (t : Fin cfg17.N) :
    (((cfg17.win 2).blk t).view.read (Elt F) A : Vec F S8x256x601 .f32) = tileOf A (bOf (pt17 t)) (nOf (pt17 t)) := by
  obtain ⟨-, -, ⟨e0, e1, e2⟩⟩ := idx17 t
  funext y
  rw [View.read_apply]
  show A (((cfg17.win 2).blk t).view.emb y) = A _
  congr 1
  funext a
  apply Fin.ext
  match a with
  | ⟨0, _⟩ => show win17_2.index t (0 : Fin 3) * 8 + 1 * (y 0).val = 8 * (t.val / 8) + (y 0).val; omega
  | ⟨1, _⟩ => show win17_2.index t (1 : Fin 3) * 256 + 1 * (y 1).val = 256 * (t.val % 8) + (y 1).val; omega
  | ⟨2, _⟩ => show win17_2.index t (2 : Fin 3) * 601 + 1 * (y 2).val = (y 2).val; omega

/-! ## Which points' result blocks hold a given index -/

/-- An index of the per-image array is in the reduce call's result block at point `t` iff, on each axis, it is
    in the block's range. -/
theorem mem_blk16_2 (t : Fin cfg16.N) (i : S32x601.Idx) :
    i ∈ ((cfg16.win 2).blk t).view.set ↔ ∀ a : Fin 2, win16_2.index t a * S8x601.size a ≤ (i a).val ∧ (i a).val < win16_2.index t a * S8x601.size a + S8x601.size a := by
  show i ∈ ((View.whole main_v33).slice (win16_2.rect t)).set ↔ _
  rw [View.set_slice_whole, Rect.mem_set_unit]
  exact Iff.rfl

/-- … that is, iff its image lies in the point's image tile. -/
theorem mem_blk16_2_iff (t : Fin cfg16.N) (i : S32x601.Idx) :
    i ∈ ((cfg16.win 2).blk t).view.set ↔ (i 0).val / 8 = t.val / 8 := by
  rw [mem_blk16_2]
  obtain ⟨-, -, ⟨e0, e1⟩⟩ := idx16 t
  have h1 : (i 1).val < 601 := (i 1).isLt
  constructor
  · intro h
    have b0 : win16_2.index t (0 : Fin 2) * 8 ≤ (i 0).val ∧ (i 0).val < win16_2.index t (0 : Fin 2) * 8 + 8 := h 0
    omega
  · intro h a
    match a with
    | ⟨0, _⟩ => show win16_2.index t (0 : Fin 2) * 8 ≤ (i 0).val ∧ (i 0).val < win16_2.index t (0 : Fin 2) * 8 + 8; omega
    | ⟨1, _⟩ => show win16_2.index t (1 : Fin 2) * 601 ≤ (i 1).val ∧ (i 1).val < win16_2.index t (1 : Fin 2) * 601 + 601; omega

/-- The point that writes back the rows of image `r`: the last proposal tile of image tile `r / 8`. -/
def lastPt16 (r : Fin 32) : Fin cfg16.N := ⟨8 * (r.val / 8) + 7, by rw [show cfg16.N = 32 from N_16]; omega⟩

@[simp] theorem lastPt16_val (r : Fin 32) : (lastPt16 r).val = 8 * (r.val / 8) + 7 := rfl

/-- Every index of the per-image array is in the result block of a point that writes it back: the last
    proposal tile of its image's tile. -/
theorem cover16_2 (i : S32x601.Idx) :
    ∃ t : Fin cfg16.N, (cfg16.win 2).flush t = true ∧ i ∈ ((cfg16.win 2).blk t).view.set := by
  have h0 : (i 0).val < 32 := (i 0).isLt
  refine ⟨lastPt16 ⟨(i 0).val, h0⟩, (flush16_2 _).mpr ?_, (mem_blk16_2_iff _ i).mpr ?_⟩
  · show (8 * ((i 0).val / 8) + 7) % 8 = 7; omega
  · show (i 0).val / 8 = (8 * ((i 0).val / 8) + 7) / 8; omega

/-- The points that write the reduce call's result back and hold a given index are exactly the last proposal
    tile of its image's tile. -/
theorem flush_mem16_2_iff (t : Fin cfg16.N) (i : S32x601.Idx) :
    ((cfg16.win 2).flush t = true ∧ i ∈ ((cfg16.win 2).blk t).view.set) ↔ t.val = 8 * ((i 0).val / 8) + 7 := by
  rw [flush16_2, mem_blk16_2_iff]
  have ht : t.val < 32 := (pt16 t).isLt
  omega

/-- An index of the scores-shaped result is in the update call's result block at point `t` iff, on each axis, it
    is in the block's range. -/
theorem mem_blk17_2 (t : Fin cfg17.N) (i : S32x2048x601.Idx) :
    i ∈ ((cfg17.win 2).blk t).view.set ↔ ∀ a : Fin 3, win17_2.index t a * S8x256x601.size a ≤ (i a).val ∧ (i a).val < win17_2.index t a * S8x256x601.size a + S8x256x601.size a := by
  show i ∈ ((View.whole main_v36).slice (win17_2.rect t)).set ↔ _
  rw [View.set_slice_whole, Rect.mem_set_unit]
  exact Iff.rfl

/-- … that is, iff its image and its proposal lie in the point's tiles. -/
theorem mem_blk17_2_iff (t : Fin cfg17.N) (i : S32x2048x601.Idx) :
    i ∈ ((cfg17.win 2).blk t).view.set ↔ (i 0).val / 8 = t.val / 8 ∧ (i 1).val / 256 = t.val % 8 := by
  rw [mem_blk17_2]
  obtain ⟨-, -, ⟨e0, e1, e2⟩⟩ := idx17 t
  have h2 : (i 2).val < 601 := (i 2).isLt
  constructor
  · intro h
    have b0 : win17_2.index t (0 : Fin 3) * 8 ≤ (i 0).val ∧ (i 0).val < win17_2.index t (0 : Fin 3) * 8 + 8 := h 0
    have b1 : win17_2.index t (1 : Fin 3) * 256 ≤ (i 1).val ∧ (i 1).val < win17_2.index t (1 : Fin 3) * 256 + 256 := h 1
    omega
  · intro h a
    match a with
    | ⟨0, _⟩ => show win17_2.index t (0 : Fin 3) * 8 ≤ (i 0).val ∧ (i 0).val < win17_2.index t (0 : Fin 3) * 8 + 8; omega
    | ⟨1, _⟩ => show win17_2.index t (1 : Fin 3) * 256 ≤ (i 1).val ∧ (i 1).val < win17_2.index t (1 : Fin 3) * 256 + 256; omega
    | ⟨2, _⟩ => show win17_2.index t (2 : Fin 3) * 601 ≤ (i 2).val ∧ (i 2).val < win17_2.index t (2 : Fin 3) * 601 + 601; omega

/-- The point whose tiles hold image `r` and proposal `p`. -/
def ptOf17 (r : Fin 32) (p : Fin 2048) : Fin cfg17.N := ⟨8 * (r.val / 8) + p.val / 256, by rw [show cfg17.N = 32 from N_17]; omega⟩

@[simp] theorem ptOf17_val (r : Fin 32) (p : Fin 2048) : (ptOf17 r p).val = 8 * (r.val / 8) + p.val / 256 := rfl

/-- Every index of the update call's result is in the result block of a point (every point writes back): the
    point of its image's and its proposal's tiles. -/
theorem cover17_2 (i : S32x2048x601.Idx) :
    ∃ t : Fin cfg17.N, (cfg17.win 2).flush t = true ∧ i ∈ ((cfg17.win 2).blk t).view.set := by
  have h0 : (i 0).val < 32 := (i 0).isLt
  have h1 : (i 1).val < 2048 := (i 1).isLt
  refine ⟨ptOf17 ⟨(i 0).val, h0⟩ ⟨(i 1).val, h1⟩, flush17_2 _, (mem_blk17_2_iff _ i).mpr ⟨?_, ?_⟩⟩
  · show (i 0).val / 8 = (8 * ((i 0).val / 8) + (i 1).val / 256) / 8; omega
  · show (i 1).val / 256 = (8 * ((i 0).val / 8) + (i 1).val / 256) % 8; omega

/-- The one point whose result block holds a given index of the update call's result. -/
theorem mem_blk17_2_iff_pt (t : Fin cfg17.N) (i : S32x2048x601.Idx) :
    i ∈ ((cfg17.win 2).blk t).view.set ↔ t.val = 8 * ((i 0).val / 8) + (i 1).val / 256 := by
  rw [mem_blk17_2_iff]
  have ht : t.val < 32 := (pt17 t).isLt
  have h1 : (i 1).val < 2048 := (i 1).isLt
  omega

end Cert.KernelIdeal.Frame

end
-- ==== Proof.KI.Red16Value.lean ====
/-
  The reduce call (custom_call 16) at the exact instance: what it leaves in its result array.

  With q the scores and M the compatibility matrix as the region finds them: after the point of image tile b
  and proposal tile k the carried buffer holds the running maximum of the tiles' softmax maxima over proposal
  tiles 0 … k of image tile b; at k = 7 the output block is that maximum times M, which is rows 8b … 8b+7 of
  the specification's pairwise term; the eight-point runs' blocks tile the result, so the result array ends
  at the pairwise term of q and M.
-/
import proofs.«121405_j17162689315290_1_alg».proof.Proof.KI.Red16Pieces
import proofs.«121405_j17162689315290_1_alg».proof.Proof.KI.Blocks16
import proofs.«121405_j17162689315290_1_alg».proof.Proof.RedMath
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

/-- This call's arithmetic is the first reduce call's: its loaded block of scores only passes through an identity
    cast first. -/
theorem pay16_2 (v : Vec Ideal S8x256x601 .f32) (w : Vec Ideal S8x601 .f32) : k16_pay2 v w = k0_pay2 v w := by
  unfold k16_pay2 k0_pay2; simp only [shapeCast_self]
theorem pay16_3 (v : Vec Ideal S8x601 .f32) (w : Vec Ideal S601x601 .f32) : k16_pay3 v w = k0_pay3 v w := by
  unfold k16_pay3 k0_pay3; rfl
theorem pay16_1 : k16_pay1 (F := Ideal) = k0_pay1 := by unfold k16_pay1 k0_pay1; rfl

/-- The scores' block at the point 8·b + k is tile (b, k) of the scores. -/
theorem iblk16_0_tile (c : Dev nD) (n : ℕ) (hn : n < cfg16.N) (b : Fin 4) (k : Fin 8) (h : n = 8 * b.val + k.val) :
    (iblk16 V c 0 ⟨n, hn⟩ : Vec Ideal S8x256x601 .f32) = RedMath.tile (V c (Pipeline.arrRef spec16 0)) b k := by
  unfold iblk16
  rw [blk16_0_read, tileOf_ideal]
  have hb : bOf (pt16 ⟨n, hn⟩) = b := Fin.ext (by simp only [bOf_val, pt16_val]; omega)
  have hk : nOf (pt16 ⟨n, hn⟩) = k := Fin.ext (by simp only [nOf_val, pt16_val]; omega)
  rw [hb, hk]

/-- The matrix's block is the matrix. -/
theorem iblk16_1_whole (c : Dev nD) (t : Fin cfg16.N) :
    (iblk16 V c 1 t : Vec Ideal S601x601 .f32) = V c (Pipeline.arrRef spec16 1) := by
  unfold iblk16; exact blk16_1_read _ t

/-- The accumulation in closed form: after point 8·b + k the carried buffer holds the running maximum over proposal tiles 0 … k. -/
theorem carried16_eq (c : Dev nD) (b : Fin 4) : ∀ (k : ℕ) (hk : k < 8) (n : ℕ) (hn : n < cfg16.N), n = 8 * b.val + k →
    (outsAt16 V c n hn).2 = RedMath.runMax (V c (Pipeline.arrRef spec16 0)) b k := by
  intro k
  induction k with
  | zero =>
    intro hk n hn h
    have h0 : (⟨n, hn⟩ : Fin cfg16.N).val % 8 = 0 := by simp only; omega
    have h1 : ¬(⟨n, hn⟩ : Fin cfg16.N).val % 8 = 7 := by simp only; omega
    have e := outsAt16_A V c ⟨n, hn⟩ h0 h1
    simp only at e
    rw [e]
    simp only [sout16_A_0_eq, pay16_2, pay16_1]
    rw [iblk16_0_tile V c n hn b ⟨0, by omega⟩ (by simpa using h), RedMath.runMax_zero]
    rfl
  | succ k ih =>
    intro hk n hn h
    have hprev := ih (by omega) (n - 1) (by omega) (by omega)
    have h0 : ¬(⟨n, hn⟩ : Fin cfg16.N).val % 8 = 0 := by simp only; omega
    have hsucc : RedMath.runMax (V c (Pipeline.arrRef spec16 0)) b (k + 1)
        = k0_pay2 (RedMath.tile (V c (Pipeline.arrRef spec16 0)) b ⟨k + 1, hk⟩) (RedMath.runMax (V c (Pipeline.arrRef spec16 0)) b k) := by
      rw [RedMath.runMax_succ]
      congr 2
      exact Fin.ext (Nat.mod_eq_of_lt hk)
    by_cases h1 : (⟨n, hn⟩ : Fin cfg16.N).val % 8 = 7
    · have e := outsAt16_C V c ⟨n, hn⟩ h0 h1
      simp only at e
      rw [e]
      simp only [sout16_C_0_eq, pay16_2]
      rw [iblk16_0_tile V c n hn b ⟨k + 1, hk⟩ (by simpa using h), hprev, hsucc]
    · have e := outsAt16_B V c ⟨n, hn⟩ h0 h1
      simp only at e
      rw [e]
      simp only [sout16_B_0_eq, pay16_2]
      rw [iblk16_0_tile V c n hn b ⟨k + 1, hk⟩ (by simpa using h), hprev, hsucc]

/-- At the last proposal tile of image tile b the output block holds rows 8b … 8b+7 of the pairwise term. -/
theorem outBlock16_eq (c : Dev nD) (b : Fin 4) (n : ℕ) (hn : n < cfg16.N) (h : n = 8 * b.val + 7) :
    (outsAt16 V c n hn).1 = RedMath.rows (Cert.ReferenceIdeal.Crf.pairwise (V c (Pipeline.arrRef spec16 0)) (V c (Pipeline.arrRef spec16 1))) b := by
  have h0 : ¬(⟨n, hn⟩ : Fin cfg16.N).val % 8 = 0 := by simp only; omega
  have h1 : (⟨n, hn⟩ : Fin cfg16.N).val % 8 = 7 := by simp only; omega
  have hprev := carried16_eq V c b 6 (by omega) (n - 1) (by omega) (by omega)
  have e := outsAt16_C V c ⟨n, hn⟩ h0 h1
  simp only at e
  rw [e]
  simp only [out16_C_2_eq, pay16_2, pay16_3]
  rw [iblk16_0_tile V c n hn b ⟨7, by omega⟩ (by simpa using h), iblk16_1_whole, hprev]
  have hsucc : k0_pay2 (RedMath.tile (V c (Pipeline.arrRef spec16 0)) b ⟨7, by omega⟩) (RedMath.runMax (V c (Pipeline.arrRef spec16 0)) b 6)
      = RedMath.runMax (V c (Pipeline.arrRef spec16 0)) b 7 := rfl
  rw [hsucc]
  exact RedMath.reduce_rows (V c (Pipeline.arrRef spec16 0)) (V c (Pipeline.arrRef spec16 1)) b

/-- The result array after the region: the pairwise term of the scores and the matrix as the region finds them. -/
theorem final16 (c : Dev nD) :
    ((dat16 V c).arrAt 2 cfg16.N : S32x601.Idx → Elt Ideal .f32) = Cert.ReferenceIdeal.Crf.pairwise (F := Ideal) (V c (Pipeline.arrRef spec16 0)) (V c (Pipeline.arrRef spec16 1)) := by
  refine (dat16 V c).arrAt_eq_of_cover 2 (Cert.ReferenceIdeal.Crf.pairwise (F := Ideal) (V c (Pipeline.arrRef spec16 0)) (V c (Pipeline.arrRef spec16 1))) (fun t hf => ?_) cover16_2
  have h7 : t.val % 8 = 7 := (flush16_2 t).mp hf
  have hN : t.val < 32 := lt_of_lt_of_eq t.isLt (show cfg16.N = 32 from N_16)
  rw [blk16_2_read, rowsOf_ideal]
  show (dat16 V c).after 2 t = _
  rw [after16_2]
  have hb : bOf (pt16 t) = ⟨t.val / 8, by omega⟩ := Fin.ext (by simp only [bOf_val, pt16_val])
  rw [hb]
  exact outBlock16_eq V c ⟨t.val / 8, by omega⟩ t.val t.isLt (by simp only; omega)

end Cert.KernelIdeal.Frame

end
-- ==== Proof.KI.Upd17Value.lean ====
/-
  The value of the update step's region (custom_call 17): after its 32 grid points the output array holds, at
  every index (image, proposal, class), the unary score there minus the scaled pairwise term of that image and
  class — one whole-array function of the two input arrays as the region finds them, at any float instance.
-/
import proofs.«121405_j17162689315290_1_alg».proof.Proof.KI.Upd17
import proofs.«121405_j17162689315290_1_alg».proof.Proof.KI.Upd1Value
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The body's stored value at an index -/

/-- The stored block at (image, proposal, class) is the scores' block there minus the pairwise block at (image, class):
    the cast to the same shape is the identity, the cast that inserts a unit axis keeps the row-major position
    (image · 601 + class on both sides), and the broadcast along the unit axis reads coordinate 0 there. -/
theorem pay17_apply (x1 : Vec F S8x601 .f32) (x0 : Vec F S8x256x601 .f32) (j : S8x256x601.Idx) :
    k17_pay1 x1 x0 j = FloatOps.subf (x0 j) (x1 (ix2 (j 0) (j 2))) := by
  unfold k17_pay1
  show FloatOps.subf (x0 j) (broadcastTo S8x256x601 (shapeCast S8x1x601 (shapeCast S8x601 x1 shapeCasts_S8x601_S8x601) shapeCasts_S8x601_S8x1x601) broadcasts_S8x1x601_S8x256x601 j) = _
  congr 1
  rw [shapeCast_self]
  refine (broadcastTo_apply (s := S8x1x601) (t := S8x256x601) _ broadcasts_S8x1x601_S8x256x601 j (ix3 (j 0) (0 : Fin 1) (j 2)) (fun a => by
    match a with
    | ⟨0, _⟩ => rfl
    | ⟨1, _⟩ => rfl
    | ⟨2, _⟩ => rfl)).trans ?_
  refine shapeCast_apply (s := S8x601) (t := S8x1x601) x1 shapeCasts_S8x601_S8x1x601 (ix3 (j 0) (0 : Fin 1) (j 2)) (ix2 (j 0) (j 2)) ?_
  rw [Shape.rowMajor_val_two, Shape.rowMajor_val_three]
  show (j 0).val * 601 + (j 2).val = ((j 0).val * 1 + 0) * 601 + (j 2).val
  omega

/-! ## The windows' block indices over the grid -/

/-- Decided over the 32 points: the scores' window moves with the output's on every axis; the pairwise window follows
    the output's image tile and stays at class block 0; the output's block index is (image tile ≤ 3, proposal tile
    ≤ 7, 0). -/
theorem idx_facts17 : ∀ t : Fin cfg17.N,
    win17_0.index t (0 : Fin 3) = win17_2.index t (0 : Fin 3)
    ∧ win17_0.index t (1 : Fin 3) = win17_2.index t (1 : Fin 3)
    ∧ win17_0.index t (2 : Fin 3) = win17_2.index t (2 : Fin 3)
    ∧ win17_1.index t (0 : Fin 2) = win17_2.index t (0 : Fin 3)
    ∧ win17_1.index t (1 : Fin 2) = 0
    ∧ win17_2.index t (0 : Fin 3) ≤ 3
    ∧ win17_2.index t (1 : Fin 3) ≤ 7
    ∧ win17_2.index t (2 : Fin 3) = 0 :=
  (by decide +kernel : ∀ t : Fin grid17.N, _)

/-- Every (image tile, proposal tile) is some point's output block. -/
theorem idx_onto17 : ∀ (q0 : Fin 4) (q1 : Fin 8), ∃ t : Fin cfg17.N, win17_2.index t = ![q0.val, q1.val, 0] :=
  (by decide +kernel : ∀ (q0 : Fin 4) (q1 : Fin 8), ∃ t : Fin grid17.N, win17_2.index t = ![q0.val, q1.val, 0])

/-! ## What a point writes back -/

/-- Point `t` writes back block `t` of `G1` of the two input arrays: a block's coordinate on an axis is its block
    index times the block's extent plus the coordinate inside the block, so by the decided relations the scores' block
    is read where the output's block lies, and the pairwise block at that image and class. -/
theorem flushed17_eq (c : Dev nD) (t : Fin cfg17.N) :
    (dat17 V c).flushed 2 t = ((cfg17.win 2).blk t).view.read (Elt F) (G1 (V c main_arg0) (V c main_v35)) := by
  show (cfg17.win 2).cut (grid17.coords t) ((dat17 V c).after 2 t) = _
  rw [after17_2]
  obtain ⟨e0, e1, e2, e3, e4, e5, e6, e7⟩ := idx_facts17 t
  funext j
  refine (pay17_apply (iblk17 V c 1 t) (iblk17 V c 0 t) j).trans ?_
  show FloatOps.subf (V c main_arg0 (((cfg17.win 0).blk t).view.emb j)) (V c main_v35 (((cfg17.win 1).blk t).view.emb (ix2 (j 0) (j 2))))
    = FloatOps.subf (V c main_arg0 (((cfg17.win 2).blk t).view.emb j))
        (V c main_v35 (ix2 ((((cfg17.win 2).blk t).view.emb j) 0) ((((cfg17.win 2).blk t).view.emb j) 2)))
  have h0 : ((cfg17.win 0).blk t).view.emb j = ((cfg17.win 2).blk t).view.emb j := by
    funext a; apply Fin.ext
    match a with
    | ⟨0, _⟩ => show win17_0.index t (0 : Fin 3) * 8 + 1 * (j 0).val = win17_2.index t (0 : Fin 3) * 8 + 1 * (j 0).val; omega
    | ⟨1, _⟩ => show win17_0.index t (1 : Fin 3) * 256 + 1 * (j 1).val = win17_2.index t (1 : Fin 3) * 256 + 1 * (j 1).val; omega
    | ⟨2, _⟩ => show win17_0.index t (2 : Fin 3) * 601 + 1 * (j 2).val = win17_2.index t (2 : Fin 3) * 601 + 1 * (j 2).val; omega
  have h1 : ((cfg17.win 1).blk t).view.emb (ix2 (j 0) (j 2))
      = ix2 ((((cfg17.win 2).blk t).view.emb j) 0) ((((cfg17.win 2).blk t).view.emb j) 2) := by
    funext a; apply Fin.ext
    match a with
    | ⟨0, _⟩ => show win17_1.index t (0 : Fin 2) * 8 + 1 * (j 0).val = win17_2.index t (0 : Fin 3) * 8 + 1 * (j 0).val; omega
    | ⟨1, _⟩ => show win17_1.index t (1 : Fin 2) * 601 + 1 * (j 2).val = win17_2.index t (2 : Fin 3) * 601 + 1 * (j 2).val; omega
  rw [h0, h1]
  rfl

/-! ## The output's blocks tile its array -/

/-- An index of the output array is in point `t`'s block iff each coordinate is in the block's range on its axis. -/
theorem mem_blk17 (t : Fin cfg17.N) (i : S32x2048x601.Idx) :
    i ∈ ((cfg17.win 2).blk t).view.set ↔ ∀ a : Fin 3, win17_2.index t a * S8x256x601.size a ≤ (i a).val ∧ (i a).val < win17_2.index t a * S8x256x601.size a + S8x256x601.size a := by
  show i ∈ ((View.whole main_v36).slice (win17_2.rect t)).set ↔ _
  rw [View.set_slice_whole, Rect.mem_set_unit]
  exact Iff.rfl

/-- Every index is in the block of the point whose output block is (image / 8, proposal / 256, 0), and every point
    writes its block back. -/
theorem covered17 (i : S32x2048x601.Idx) :
    ∃ t : Fin cfg17.N, (cfg17.win 2).flush t = true ∧ i ∈ ((cfg17.win 2).blk t).view.set := by
  have hi0 : (i 0).val < 32 := (i 0).isLt
  have hi1 : (i 1).val < 2048 := (i 1).isLt
  have hi2 : (i 2).val < 601 := (i 2).isLt
  obtain ⟨t, ht⟩ := idx_onto17 ⟨(i 0).val / 8, by omega⟩ ⟨(i 1).val / 256, by omega⟩
  have q0 : win17_2.index t (0 : Fin 3) = (i 0).val / 8 := congrFun ht 0
  have q1 : win17_2.index t (1 : Fin 3) = (i 1).val / 256 := congrFun ht 1
  have q2 : win17_2.index t (2 : Fin 3) = 0 := congrFun ht 2
  refine ⟨t, flush17_2 t, ?_⟩
  rw [mem_blk17]
  intro a
  match a with
  | ⟨0, _⟩ => show win17_2.index t (0 : Fin 3) * 8 ≤ (i 0).val ∧ (i 0).val < win17_2.index t (0 : Fin 3) * 8 + 8; omega
  | ⟨1, _⟩ => show win17_2.index t (1 : Fin 3) * 256 ≤ (i 1).val ∧ (i 1).val < win17_2.index t (1 : Fin 3) * 256 + 256; omega
  | ⟨2, _⟩ => show win17_2.index t (2 : Fin 3) * 601 ≤ (i 2).val ∧ (i 2).val < win17_2.index t (2 : Fin 3) * 601 + 601; omega

/-! ## The array after the region -/

/-- After the last point the output array is `G1` of the unary scores and the scaled pairwise array as the region
    found them. -/
theorem final17 (c : Dev nD) : (dat17 V c).arrAt 2 cfg17.N = G1 (V c main_arg0) (V c main_v35) :=
  (dat17 V c).arrAt_eq_of_cover 2 (G1 (V c main_arg0) (V c main_v35)) (fun t _ => flushed17_eq V c t) covered17

end Cert.KernelIdeal.Frame
-- ==== Proof.KI.Red18Pieces.lean ====
/-
  The reduce call (custom_call 18): the contents each kind of grid point leaves, as the body's arithmetic.
  The stores are of whole buffers, so what is read back after them is the last store's payload; a load
  that follows a store of the same buffer reads that store's payload.
-/
import proofs.«121405_j17162689315290_1_alg».proof.Proof.KI.Red18
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the pieces are: the payloads -/

theorem hz18_2 : (![0, 0] : Fin 2 → Nat) = fun _ => 0 := by funext a; fin_cases a <;> rfl
theorem hz18_3 : (![0, 0, 0] : Fin 3 → Nat) = fun _ => 0 := by funext a; fin_cases a <;> rfl

/-- After a first proposal tile the carried buffer holds the tile's maximum folded into the reset value. -/
theorem sout18_A_0_eq (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond18_0 i) (hc1 : ¬cond18_1 i) (x0 : Vec F S8x256x601 .f32) :
    sout18_A_0 c i arg2 harg2 arg3 harg3 arg4 harg4 arg5 harg5 hc0 hc1 x0 = k18_pay2 x0 (k18_pay1 (F := F)) := by
  unfold sout18_A_0
  rw [View.read_writes_eq_canon _ _ _ (scover18_A_0 c i arg2 harg2 arg3 harg3 arg4 harg4 arg5 harg5 hc0 hc1 x0)]
  unfold kernelRun18_A
  dsimp only
  sl_unfold_words
  rw [View.canon_cons_unit_zero hz18_2]
  simp only [View.readAt_eq_ld, harg2.read_unread, View.ld_unit_zero (S := S8x256x601) hz18_3]
  exact congrArg (k18_pay2 x0) (View.readCov_unit_zero (S := S8x601) arg5.view hz18_2 _ _)

/-- After an inner tile: the tile's maximum folded into what the point before left. -/
theorem sout18_B_0_eq (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : ¬cond18_1 i) (x0 : Vec F S8x256x601 .f32) (xs0 : Vec F S8x601 .f32) :
    sout18_B_0 c i arg2 harg2 arg3 harg3 arg4 harg4 arg5 harg5 hc0 hc1 x0 xs0 = k18_pay2 x0 xs0 := by
  unfold sout18_B_0
  rw [View.read_writes_eq_canon _ _ _ (scover18_B_0 c i arg2 harg2 arg3 harg3 arg4 harg4 arg5 harg5 hc0 hc1 x0 xs0)]
  unfold kernelRun18_B
  dsimp only
  sl_unfold_words
  rw [View.canon_unit_zero hz18_2]
  simp only [View.readAt_eq_ld, harg2.read_unread, harg5.read_unread, View.ld_unit_zero (S := S8x256x601) hz18_3, View.ld_unit_zero (S := S8x601) hz18_2]
  try rfl

/-- After a last tile the carried buffer likewise, -/
theorem sout18_C_0_eq (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i) (x0 : Vec F S8x256x601 .f32) (x1 : Vec F S601x601 .f32) (xs0 : Vec F S8x601 .f32) :
    sout18_C_0 c i arg2 harg2 arg3 harg3 arg4 harg4 arg5 harg5 hc0 hc1 x0 x1 xs0 = k18_pay2 x0 xs0 := by
  unfold sout18_C_0
  rw [View.read_writes_eq_canon _ _ _ (scover18_C_0 c i arg2 harg2 arg3 harg3 arg4 harg4 arg5 harg5 hc0 hc1 x0 x1 xs0)]
  unfold kernelRun18_C
  dsimp only
  sl_unfold_words
  rw [View.canon_unit_zero hz18_2]
  simp only [View.readAt_eq_ld, harg2.read_unread, harg5.read_unread, View.ld_unit_zero (S := S8x256x601) hz18_3, View.ld_unit_zero (S := S8x601) hz18_2]
  try rfl

/-- and the output block holds that maximum times the matrix's block. -/
theorem out18_C_2_eq (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i) (x0 : Vec F S8x256x601 .f32) (x1 : Vec F S601x601 .f32) (xs0 : Vec F S8x601 .f32) :
    out18_C_2 c i arg2 harg2 arg3 harg3 arg4 harg4 arg5 harg5 hc0 hc1 x0 x1 xs0 = k18_pay3 (k18_pay2 x0 xs0) x1 := by
  unfold out18_C_2
  rw [View.read_writes_eq_canon _ _ _ (cover18_C_2 c i arg2 harg2 arg3 harg3 arg4 harg4 arg5 harg5 hc0 hc1 x0 x1 xs0)]
  unfold kernelRun18_C
  dsimp only
  sl_unfold_words
  rw [View.canon_unit_zero hz18_2]
  simp only [View.readAt_eq_ld, harg2.read_unread, harg3.read_unread, harg5.read_unread, View.ld_unit_zero (S := S8x256x601) hz18_3, View.ld_unit_zero (S := S601x601) hz18_2, View.ld_unit_zero (S := S8x601) hz18_2]
  exact congrArg (fun z => k18_pay3 z x1) (View.readCov_unit_zero (S := S8x601) arg5.view hz18_2 _ _)

end Cert.KernelIdeal.Frame

end
-- ==== Proof.KI.Blocks18.lean ====
/-
  The blocks of the reduce call 18 and the update call 19 as tiles of their whole arrays, and which grid points'
  result blocks hold a given index: the same facts as for calls 0 and 1, for this pair's windows.
-/
import proofs.«121405_j17162689315290_1_alg».proof.Proof.KI.Blocks

noncomputable section

namespace Cert.KernelIdeal.Frame

open Cert.KernelIdeal Cert.KernelIdeal.Gen Idealize.ShloMosaic Idealize.ShloMosaic.ValueIdx

variable {F : FTy → Type} [FloatOps F]

/-- A point of the reduce call's grid as a number below 32, and likewise for the update call. -/
abbrev pt18 (t : Fin cfg18.N) : Fin 32 := t.cast N_18
abbrev pt19 (t : Fin cfg19.N) : Fin 32 := t.cast N_19

@[simp] theorem pt18_val (t : Fin cfg18.N) : (pt18 t).val = t.val := rfl
@[simp] theorem pt19_val (t : Fin cfg19.N) : (pt19 t).val = t.val := rfl

/-! ## The printed index maps, decided once over the grid -/

/-- The reduce call: scores at block (t / 8, t % 8, 0), the matrix at block (0, 0), the result at block (t / 8, 0). -/
theorem idx18 : ∀ t : Fin cfg18.N,
    (win18_0.index t (0 : Fin 3) = t.val / 8 ∧ win18_0.index t (1 : Fin 3) = t.val % 8 ∧ win18_0.index t (2 : Fin 3) = 0)
    ∧ (win18_1.index t (0 : Fin 2) = 0 ∧ win18_1.index t (1 : Fin 2) = 0)
    ∧ (win18_2.index t (0 : Fin 2) = t.val / 8 ∧ win18_2.index t (1 : Fin 2) = 0) :=
  (by decide +kernel : ∀ t : Fin grid18.N, _)

/-- The update call: unaries and result at block (t / 8, t % 8, 0), the per-image rows at block (t / 8, 0). -/
theorem idx19 : ∀ t : Fin cfg19.N,
    (win19_0.index t (0 : Fin 3) = t.val / 8 ∧ win19_0.index t (1 : Fin 3) = t.val % 8 ∧ win19_0.index t (2 : Fin 3) = 0)
    ∧ (win19_1.index t (0 : Fin 2) = t.val / 8 ∧ win19_1.index t (1 : Fin 2) = 0)
    ∧ (win19_2.index t (0 : Fin 3) = t.val / 8 ∧ win19_2.index t (1 : Fin 3) = t.val % 8 ∧ win19_2.index t (2 : Fin 3) = 0) :=
  (by decide +kernel : ∀ t : Fin grid19.N, _)

/-! ## Each block, read off its whole array -/

/-- The reduce call's block of scores at point `t` is the tile at image tile `t / 8`, proposal tile `t % 8`. -/
theorem blk18_0_read (A : FVec F S32x2048x601 .f32) (t : Fin cfg18.N) :
    (((cfg18.win 0).blk t).view.read (Elt F) A : Vec F S8x256x601 .f32) = tileOf A (bOf (pt18 t)) (nOf (pt18 t)) := by
  obtain ⟨⟨e0, e1, e2⟩, -, -⟩ := idx18 t
  funext y
  rw [View.read_apply]
  show A (((cfg18.win 0).blk t).view.emb y) = A _
  congr 1
  funext a
  apply Fin.ext
  match a with
  | ⟨0, _⟩ => show win18_0.index t (0 : Fin 3) * 8 + 1 * (y 0).val = 8 * (t.val / 8) + (y 0).val; omega
  | ⟨1, _⟩ => show win18_0.index t (1 : Fin 3) * 256 + 1 * (y 1).val = 256 * (t.val % 8) + (y 1).val; omega
  | ⟨2, _⟩ => show win18_0.index t (2 : Fin 3) * 601 + 1 * (y 2).val = (y 2).val; omega

/-- The reduce call's one block of the compatibility matrix is the matrix. -/
theorem blk18_1_read (A : FVec F S601x601 .f32) (t : Fin cfg18.N) :
    (((cfg18.win 1).blk t).view.read (Elt F) A : Vec F S601x601 .f32) = A := by
  obtain ⟨-, ⟨e0, e1⟩, -⟩ := idx18 t
  funext y
  rw [View.read_apply]
  show A (((cfg18.win 1).blk t).view.emb y) = A y
  congr 1
  funext a
  apply Fin.ext
  match a with
  | ⟨0, _⟩ => show win18_1.index t (0 : Fin 2) * 601 + 1 * (y 0).val = (y 0).val; omega
  | ⟨1, _⟩ => show win18_1.index t (1 : Fin 2) * 601 + 1 * (y 1).val = (y 1).val; omega

/-- The reduce call's result block at point `t` is rows `8·(t / 8) …` of the per-image array. -/
theorem blk18_2_read (X : FVec F S32x601 .f32) (t : Fin cfg18.N) :
    (((cfg18.win 2).blk t).view.read (Elt F) X : Vec F S8x601 .f32) = rowsOf X (bOf (pt18 t)) := by
  obtain ⟨-, -, ⟨e0, e1⟩⟩ := idx18 t
  funext y
  rw [View.read_apply]
  show X (((cfg18.win 2).blk t).view.emb y) = X _
  congr 1
  funext a
  apply Fin.ext
  match a with
  | ⟨0, _⟩ => show win18_2.index t (0 : Fin 2) * 8 + 1 * (y 0).val = 8 * (t.val / 8) + (y 0).val; omega
  | ⟨1, _⟩ => show win18_2.index t (1 : Fin 2) * 601 + 1 * (y 1).val = (y 1).val; omega

/-- The update call's block of unaries at point `t` is the tile at image tile `t / 8`, proposal tile `t % 8`. -/
theorem blk19_0_read (A : FVec F S32x2048x601 .f32) (t : Fin cfg19.N) :
    (((cfg19.win 0).blk t).view.read (Elt F) A : Vec F S8x256x601 .f32) = tileOf A (bOf (pt19 t)) (nOf (pt19 t)) := by
  obtain ⟨⟨e0, e1, e2⟩, -, -⟩ := idx19 t
  funext y
  rw [View.read_apply]
  show A (((cfg19.win 0).blk t).view.emb y) = A _
  congr 1
  funext a
  apply Fin.ext
  match a with
  | ⟨0, _⟩ => show win19_0.index t (0 : Fin 3) * 8 + 1 * (y 0).val = 8 * (t.val / 8) + (y 0).val; omega
  | ⟨1, _⟩ => show win19_0.index t (1 : Fin 3) * 256 + 1 * (y 1).val = 256 * (t.val % 8) + (y 1).val; omega
  | ⟨2, _⟩ => show win19_0.index t (2 : Fin 3) * 601 + 1 * (y 2).val = (y 2).val; omega

/-- The update call's block of the per-image array at point `t` is its rows `8·(t / 8) …`. -/
theorem blk19_1_read (X : FVec F S32x601 .f32) (t : Fin cfg19.N) :
    (((cfg19.win 1).blk t).view.read (Elt F) X : Vec F S8x601 .f32) = rowsOf X (bOf (pt19 t)) := by
  obtain ⟨-, ⟨e0, e1⟩, -⟩ := idx19 t
  funext y
  rw [View.read_apply]
  show X (((cfg19.win 1).blk t).view.emb y) = X _
  congr 1
  funext a
  apply Fin.ext
  match a with
  | ⟨0, _⟩ => show win19_1.index t (0 : Fin 2) * 8 + 1 * (y 0).val = 8 * (t.val / 8) + (y 0).val; omega
  | ⟨1, _⟩ => show win19_1.index t (1 : Fin 2) * 601 + 1 * (y 1).val = (y 1).val; omega

/-- The update call's result block at point `t` is the tile at image tile `t / 8`, proposal tile `t % 8`. -/
theorem blk19_2_read (A : FVec F S32x2048x601 .f32) (t : Fin cfg19.N) :
    (((cfg19.win 2).blk t).view.read (Elt F) A : Vec F S8x256x601 .f32) = tileOf A (bOf (pt19 t)) (nOf (pt19 t)) := by
  obtain ⟨-, -, ⟨e0, e1, e2⟩⟩ := idx19 t
  funext y
  rw [View.read_apply]
  show A (((cfg19.win 2).blk t).view.emb y) = A _
  congr 1
  funext a
  apply Fin.ext
  match a with
  | ⟨0, _⟩ => show win19_2.index t (0 : Fin 3) * 8 + 1 * (y 0).val = 8 * (t.val / 8) + (y 0).val; omega
  | ⟨1, _⟩ => show win19_2.index t (1 : Fin 3) * 256 + 1 * (y 1).val = 256 * (t.val % 8) + (y 1).val; omega
  | ⟨2, _⟩ => show win19_2.index t (2 : Fin 3) * 601 + 1 * (y 2).val = (y 2).val; omega

/-! ## Which points' result blocks hold a given index -/

/-- An index of the per-image array is in the reduce call's result block at point `t` iff, on each axis, it is
    in the block's range. -/
theorem mem_blk18_2 (t : Fin cfg18.N) (i : S32x601.Idx) :
    i ∈ ((cfg18.win 2).blk t).view.set ↔ ∀ a : Fin 2, win18_2.index t a * S8x601.size a ≤ (i a).val ∧ (i a).val < win18_2.index t a * S8x601.size a + S8x601.size a := by
  show i ∈ ((View.whole main_v37).slice (win18_2.rect t)).set ↔ _
  rw [View.set_slice_whole, Rect.mem_set_unit]
  exact Iff.rfl

/-- … that is, iff its image lies in the point's image tile. -/
theorem mem_blk18_2_iff (t : Fin cfg18.N) (i : S32x601.Idx) :
    i ∈ ((cfg18.win 2).blk t).view.set ↔ (i 0).val / 8 = t.val / 8 := by
  rw [mem_blk18_2]
  obtain ⟨-, -, ⟨e0, e1⟩⟩ := idx18 t
  have h1 : (i 1).val < 601 := (i 1).isLt
  constructor
  · intro h
    have b0 : win18_2.index t (0 : Fin 2) * 8 ≤ (i 0).val ∧ (i 0).val < win18_2.index t (0 : Fin 2) * 8 + 8 := h 0
    omega
  · intro h a
    match a with
    | ⟨0, _⟩ => show win18_2.index t (0 : Fin 2) * 8 ≤ (i 0).val ∧ (i 0).val < win18_2.index t (0 : Fin 2) * 8 + 8; omega
    | ⟨1, _⟩ => show win18_2.index t (1 : Fin 2) * 601 ≤ (i 1).val ∧ (i 1).val < win18_2.index t (1 : Fin 2) * 601 + 601; omega

/-- The point that writes back the rows of image `r`: the last proposal tile of image tile `r / 8`. -/
def lastPt18 (r : Fin 32) : Fin cfg18.N := ⟨8 * (r.val / 8) + 7, by rw [show cfg18.N = 32 from N_18]; omega⟩

@[simp] theorem lastPt18_val (r : Fin 32) : (lastPt18 r).val = 8 * (r.val / 8) + 7 := rfl

/-- Every index of the per-image array is in the result block of a point that writes it back: the last
    proposal tile of its image's tile. -/
theorem cover18_2 (i : S32x601.Idx) :
    ∃ t : Fin cfg18.N, (cfg18.win 2).flush t = true ∧ i ∈ ((cfg18.win 2).blk t).view.set := by
  have h0 : (i 0).val < 32 := (i 0).isLt
  refine ⟨lastPt18 ⟨(i 0).val, h0⟩, (flush18_2 _).mpr ?_, (mem_blk18_2_iff _ i).mpr ?_⟩
  · show (8 * ((i 0).val / 8) + 7) % 8 = 7; omega
  · show (i 0).val / 8 = (8 * ((i 0).val / 8) + 7) / 8; omega

/-- The points that write the reduce call's result back and hold a given index are exactly the last proposal
    tile of its image's tile. -/
theorem flush_mem18_2_iff (t : Fin cfg18.N) (i : S32x601.Idx) :
    ((cfg18.win 2).flush t = true ∧ i ∈ ((cfg18.win 2).blk t).view.set) ↔ t.val = 8 * ((i 0).val / 8) + 7 := by
  rw [flush18_2, mem_blk18_2_iff]
  have ht : t.val < 32 := (pt18 t).isLt
  omega

/-- An index of the scores-shaped result is in the update call's result block at point `t` iff, on each axis, it
    is in the block's range. -/
theorem mem_blk19_2 (t : Fin cfg19.N) (i : S32x2048x601.Idx) :
    i ∈ ((cfg19.win 2).blk t).view.set ↔ ∀ a : Fin 3, win19_2.index t a * S8x256x601.size a ≤ (i a).val ∧ (i a).val < win19_2.index t a * S8x256x601.size a + S8x256x601.size a := by
  show i ∈ ((View.whole main_v40).slice (win19_2.rect t)).set ↔ _
  rw [View.set_slice_whole, Rect.mem_set_unit]
  exact Iff.rfl

/-- … that is, iff its image and its proposal lie in the point's tiles. -/
theorem mem_blk19_2_iff (t : Fin cfg19.N) (i : S32x2048x601.Idx) :
    i ∈ ((cfg19.win 2).blk t).view.set ↔ (i 0).val / 8 = t.val / 8 ∧ (i 1).val / 256 = t.val % 8 := by
  rw [mem_blk19_2]
  obtain ⟨-, -, ⟨e0, e1, e2⟩⟩ := idx19 t
  have h2 : (i 2).val < 601 := (i 2).isLt
  constructor
  · intro h
    have b0 : win19_2.index t (0 : Fin 3) * 8 ≤ (i 0).val ∧ (i 0).val < win19_2.index t (0 : Fin 3) * 8 + 8 := h 0
    have b1 : win19_2.index t (1 : Fin 3) * 256 ≤ (i 1).val ∧ (i 1).val < win19_2.index t (1 : Fin 3) * 256 + 256 := h 1
    omega
  · intro h a
    match a with
    | ⟨0, _⟩ => show win19_2.index t (0 : Fin 3) * 8 ≤ (i 0).val ∧ (i 0).val < win19_2.index t (0 : Fin 3) * 8 + 8; omega
    | ⟨1, _⟩ => show win19_2.index t (1 : Fin 3) * 256 ≤ (i 1).val ∧ (i 1).val < win19_2.index t (1 : Fin 3) * 256 + 256; omega
    | ⟨2, _⟩ => show win19_2.index t (2 : Fin 3) * 601 ≤ (i 2).val ∧ (i 2).val < win19_2.index t (2 : Fin 3) * 601 + 601; omega

/-- The point whose tiles hold image `r` and proposal `p`. -/
def ptOf19 (r : Fin 32) (p : Fin 2048) : Fin cfg19.N := ⟨8 * (r.val / 8) + p.val / 256, by rw [show cfg19.N = 32 from N_19]; omega⟩

@[simp] theorem ptOf19_val (r : Fin 32) (p : Fin 2048) : (ptOf19 r p).val = 8 * (r.val / 8) + p.val / 256 := rfl

/-- Every index of the update call's result is in the result block of a point (every point writes back): the
    point of its image's and its proposal's tiles. -/
theorem cover19_2 (i : S32x2048x601.Idx) :
    ∃ t : Fin cfg19.N, (cfg19.win 2).flush t = true ∧ i ∈ ((cfg19.win 2).blk t).view.set := by
  have h0 : (i 0).val < 32 := (i 0).isLt
  have h1 : (i 1).val < 2048 := (i 1).isLt
  refine ⟨ptOf19 ⟨(i 0).val, h0⟩ ⟨(i 1).val, h1⟩, flush19_2 _, (mem_blk19_2_iff _ i).mpr ⟨?_, ?_⟩⟩
  · show (i 0).val / 8 = (8 * ((i 0).val / 8) + (i 1).val / 256) / 8; omega
  · show (i 1).val / 256 = (8 * ((i 0).val / 8) + (i 1).val / 256) % 8; omega

/-- The one point whose result block holds a given index of the update call's result. -/
theorem mem_blk19_2_iff_pt (t : Fin cfg19.N) (i : S32x2048x601.Idx) :
    i ∈ ((cfg19.win 2).blk t).view.set ↔ t.val = 8 * ((i 0).val / 8) + (i 1).val / 256 := by
  rw [mem_blk19_2_iff]
  have ht : t.val < 32 := (pt19 t).isLt
  have h1 : (i 1).val < 2048 := (i 1).isLt
  omega

end Cert.KernelIdeal.Frame

end
-- ==== Proof.KI.Red18Value.lean ====
/-
  The reduce call (custom_call 18) at the exact instance: what it leaves in its result array.

  With q the scores and M the compatibility matrix as the region finds them: after the point of image tile b
  and proposal tile k the carried buffer holds the running maximum of the tiles' softmax maxima over proposal
  tiles 0 … k of image tile b; at k = 7 the output block is that maximum times M, which is rows 8b … 8b+7 of
  the specification's pairwise term; the eight-point runs' blocks tile the result, so the result array ends
  at the pairwise term of q and M.
-/
import proofs.«121405_j17162689315290_1_alg».proof.Proof.KI.Red18Pieces
import proofs.«121405_j17162689315290_1_alg».proof.Proof.KI.Blocks18
import proofs.«121405_j17162689315290_1_alg».proof.Proof.RedMath
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

/-- This call's arithmetic is the first reduce call's: its loaded block of scores only passes through an identity
    cast first. -/
theorem pay18_2 (v : Vec Ideal S8x256x601 .f32) (w : Vec Ideal S8x601 .f32) : k18_pay2 v w = k0_pay2 v w := by
  unfold k18_pay2 k0_pay2; simp only [shapeCast_self]
theorem pay18_3 (v : Vec Ideal S8x601 .f32) (w : Vec Ideal S601x601 .f32) : k18_pay3 v w = k0_pay3 v w := by
  unfold k18_pay3 k0_pay3; rfl
theorem pay18_1 : k18_pay1 (F := Ideal) = k0_pay1 := by unfold k18_pay1 k0_pay1; rfl

/-- The scores' block at the point 8·b + k is tile (b, k) of the scores. -/
theorem iblk18_0_tile (c : Dev nD) (n : ℕ) (hn : n < cfg18.N) (b : Fin 4) (k : Fin 8) (h : n = 8 * b.val + k.val) :
    (iblk18 V c 0 ⟨n, hn⟩ : Vec Ideal S8x256x601 .f32) = RedMath.tile (V c (Pipeline.arrRef spec18 0)) b k := by
  unfold iblk18
  rw [blk18_0_read, tileOf_ideal]
  have hb : bOf (pt18 ⟨n, hn⟩) = b := Fin.ext (by simp only [bOf_val, pt18_val]; omega)
  have hk : nOf (pt18 ⟨n, hn⟩) = k := Fin.ext (by simp only [nOf_val, pt18_val]; omega)
  rw [hb, hk]

/-- The matrix's block is the matrix. -/
theorem iblk18_1_whole (c : Dev nD) (t : Fin cfg18.N) :
    (iblk18 V c 1 t : Vec Ideal S601x601 .f32) = V c (Pipeline.arrRef spec18 1) := by
  unfold iblk18; exact blk18_1_read _ t

/-- The accumulation in closed form: after point 8·b + k the carried buffer holds the running maximum over proposal tiles 0 … k. -/
theorem carried18_eq (c : Dev nD) (b : Fin 4) : ∀ (k : ℕ) (hk : k < 8) (n : ℕ) (hn : n < cfg18.N), n = 8 * b.val + k →
    (outsAt18 V c n hn).2 = RedMath.runMax (V c (Pipeline.arrRef spec18 0)) b k := by
  intro k
  induction k with
  | zero =>
    intro hk n hn h
    have h0 : (⟨n, hn⟩ : Fin cfg18.N).val % 8 = 0 := by simp only; omega
    have h1 : ¬(⟨n, hn⟩ : Fin cfg18.N).val % 8 = 7 := by simp only; omega
    have e := outsAt18_A V c ⟨n, hn⟩ h0 h1
    simp only at e
    rw [e]
    simp only [sout18_A_0_eq, pay18_2, pay18_1]
    rw [iblk18_0_tile V c n hn b ⟨0, by omega⟩ (by simpa using h), RedMath.runMax_zero]
    rfl
  | succ k ih =>
    intro hk n hn h
    have hprev := ih (by omega) (n - 1) (by omega) (by omega)
    have h0 : ¬(⟨n, hn⟩ : Fin cfg18.N).val % 8 = 0 := by simp only; omega
    have hsucc : RedMath.runMax (V c (Pipeline.arrRef spec18 0)) b (k + 1)
        = k0_pay2 (RedMath.tile (V c (Pipeline.arrRef spec18 0)) b ⟨k + 1, hk⟩) (RedMath.runMax (V c (Pipeline.arrRef spec18 0)) b k) := by
      rw [RedMath.runMax_succ]
      congr 2
      exact Fin.ext (Nat.mod_eq_of_lt hk)
    by_cases h1 : (⟨n, hn⟩ : Fin cfg18.N).val % 8 = 7
    · have e := outsAt18_C V c ⟨n, hn⟩ h0 h1
      simp only at e
      rw [e]
      simp only [sout18_C_0_eq, pay18_2]
      rw [iblk18_0_tile V c n hn b ⟨k + 1, hk⟩ (by simpa using h), hprev, hsucc]
    · have e := outsAt18_B V c ⟨n, hn⟩ h0 h1
      simp only at e
      rw [e]
      simp only [sout18_B_0_eq, pay18_2]
      rw [iblk18_0_tile V c n hn b ⟨k + 1, hk⟩ (by simpa using h), hprev, hsucc]

/-- At the last proposal tile of image tile b the output block holds rows 8b … 8b+7 of the pairwise term. -/
theorem outBlock18_eq (c : Dev nD) (b : Fin 4) (n : ℕ) (hn : n < cfg18.N) (h : n = 8 * b.val + 7) :
    (outsAt18 V c n hn).1 = RedMath.rows (Cert.ReferenceIdeal.Crf.pairwise (V c (Pipeline.arrRef spec18 0)) (V c (Pipeline.arrRef spec18 1))) b := by
  have h0 : ¬(⟨n, hn⟩ : Fin cfg18.N).val % 8 = 0 := by simp only; omega
  have h1 : (⟨n, hn⟩ : Fin cfg18.N).val % 8 = 7 := by simp only; omega
  have hprev := carried18_eq V c b 6 (by omega) (n - 1) (by omega) (by omega)
  have e := outsAt18_C V c ⟨n, hn⟩ h0 h1
  simp only at e
  rw [e]
  simp only [out18_C_2_eq, pay18_2, pay18_3]
  rw [iblk18_0_tile V c n hn b ⟨7, by omega⟩ (by simpa using h), iblk18_1_whole, hprev]
  have hsucc : k0_pay2 (RedMath.tile (V c (Pipeline.arrRef spec18 0)) b ⟨7, by omega⟩) (RedMath.runMax (V c (Pipeline.arrRef spec18 0)) b 6)
      = RedMath.runMax (V c (Pipeline.arrRef spec18 0)) b 7 := rfl
  rw [hsucc]
  exact RedMath.reduce_rows (V c (Pipeline.arrRef spec18 0)) (V c (Pipeline.arrRef spec18 1)) b

/-- The result array after the region: the pairwise term of the scores and the matrix as the region finds them. -/
theorem final18 (c : Dev nD) :
    ((dat18 V c).arrAt 2 cfg18.N : S32x601.Idx → Elt Ideal .f32) = Cert.ReferenceIdeal.Crf.pairwise (F := Ideal) (V c (Pipeline.arrRef spec18 0)) (V c (Pipeline.arrRef spec18 1)) := by
  refine (dat18 V c).arrAt_eq_of_cover 2 (Cert.ReferenceIdeal.Crf.pairwise (F := Ideal) (V c (Pipeline.arrRef spec18 0)) (V c (Pipeline.arrRef spec18 1))) (fun t hf => ?_) cover18_2
  have h7 : t.val % 8 = 7 := (flush18_2 t).mp hf
  have hN : t.val < 32 := lt_of_lt_of_eq t.isLt (show cfg18.N = 32 from N_18)
  rw [blk18_2_read, rowsOf_ideal]
  show (dat18 V c).after 2 t = _
  rw [after18_2]
  have hb : bOf (pt18 t) = ⟨t.val / 8, by omega⟩ := Fin.ext (by simp only [bOf_val, pt18_val])
  rw [hb]
  exact outBlock18_eq V c ⟨t.val / 8, by omega⟩ t.val t.isLt (by simp only; omega)

end Cert.KernelIdeal.Frame

end
-- ==== Proof.KI.Upd19Value.lean ====
/-
  The value of the update step's region (custom_call 19): after its 32 grid points the output array holds, at
  every index (image, proposal, class), the unary score there minus the scaled pairwise term of that image and
  class — one whole-array function of the two input arrays as the region finds them, at any float instance.
-/
import proofs.«121405_j17162689315290_1_alg».proof.Proof.KI.Upd19
import proofs.«121405_j17162689315290_1_alg».proof.Proof.KI.Upd1Value
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The body's stored value at an index -/

/-- The stored block at (image, proposal, class) is the scores' block there minus the pairwise block at (image, class):
    the cast to the same shape is the identity, the cast that inserts a unit axis keeps the row-major position
    (image · 601 + class on both sides), and the broadcast along the unit axis reads coordinate 0 there. -/
theorem pay19_apply (x1 : Vec F S8x601 .f32) (x0 : Vec F S8x256x601 .f32) (j : S8x256x601.Idx) :
    k19_pay1 x1 x0 j = FloatOps.subf (x0 j) (x1 (ix2 (j 0) (j 2))) := by
  unfold k19_pay1
  show FloatOps.subf (x0 j) (broadcastTo S8x256x601 (shapeCast S8x1x601 (shapeCast S8x601 x1 shapeCasts_S8x601_S8x601) shapeCasts_S8x601_S8x1x601) broadcasts_S8x1x601_S8x256x601 j) = _
  congr 1
  rw [shapeCast_self]
  refine (broadcastTo_apply (s := S8x1x601) (t := S8x256x601) _ broadcasts_S8x1x601_S8x256x601 j (ix3 (j 0) (0 : Fin 1) (j 2)) (fun a => by
    match a with
    | ⟨0, _⟩ => rfl
    | ⟨1, _⟩ => rfl
    | ⟨2, _⟩ => rfl)).trans ?_
  refine shapeCast_apply (s := S8x601) (t := S8x1x601) x1 shapeCasts_S8x601_S8x1x601 (ix3 (j 0) (0 : Fin 1) (j 2)) (ix2 (j 0) (j 2)) ?_
  rw [Shape.rowMajor_val_two, Shape.rowMajor_val_three]
  show (j 0).val * 601 + (j 2).val = ((j 0).val * 1 + 0) * 601 + (j 2).val
  omega

/-! ## The windows' block indices over the grid -/

/-- Decided over the 32 points: the scores' window moves with the output's on every axis; the pairwise window follows
    the output's image tile and stays at class block 0; the output's block index is (image tile ≤ 3, proposal tile
    ≤ 7, 0). -/
theorem idx_facts19 : ∀ t : Fin cfg19.N,
    win19_0.index t (0 : Fin 3) = win19_2.index t (0 : Fin 3)
    ∧ win19_0.index t (1 : Fin 3) = win19_2.index t (1 : Fin 3)
    ∧ win19_0.index t (2 : Fin 3) = win19_2.index t (2 : Fin 3)
    ∧ win19_1.index t (0 : Fin 2) = win19_2.index t (0 : Fin 3)
    ∧ win19_1.index t (1 : Fin 2) = 0
    ∧ win19_2.index t (0 : Fin 3) ≤ 3
    ∧ win19_2.index t (1 : Fin 3) ≤ 7
    ∧ win19_2.index t (2 : Fin 3) = 0 :=
  (by decide +kernel : ∀ t : Fin grid19.N, _)

/-- Every (image tile, proposal tile) is some point's output block. -/
theorem idx_onto19 : ∀ (q0 : Fin 4) (q1 : Fin 8), ∃ t : Fin cfg19.N, win19_2.index t = ![q0.val, q1.val, 0] :=
  (by decide +kernel : ∀ (q0 : Fin 4) (q1 : Fin 8), ∃ t : Fin grid19.N, win19_2.index t = ![q0.val, q1.val, 0])

/-! ## What a point writes back -/

/-- Point `t` writes back block `t` of `G1` of the two input arrays: a block's coordinate on an axis is its block
    index times the block's extent plus the coordinate inside the block, so by the decided relations the scores' block
    is read where the output's block lies, and the pairwise block at that image and class. -/
theorem flushed19_eq (c : Dev nD) (t : Fin cfg19.N) :
    (dat19 V c).flushed 2 t = ((cfg19.win 2).blk t).view.read (Elt F) (G1 (V c main_arg0) (V c main_v39)) := by
  show (cfg19.win 2).cut (grid19.coords t) ((dat19 V c).after 2 t) = _
  rw [after19_2]
  obtain ⟨e0, e1, e2, e3, e4, e5, e6, e7⟩ := idx_facts19 t
  funext j
  refine (pay19_apply (iblk19 V c 1 t) (iblk19 V c 0 t) j).trans ?_
  show FloatOps.subf (V c main_arg0 (((cfg19.win 0).blk t).view.emb j)) (V c main_v39 (((cfg19.win 1).blk t).view.emb (ix2 (j 0) (j 2))))
    = FloatOps.subf (V c main_arg0 (((cfg19.win 2).blk t).view.emb j))
        (V c main_v39 (ix2 ((((cfg19.win 2).blk t).view.emb j) 0) ((((cfg19.win 2).blk t).view.emb j) 2)))
  have h0 : ((cfg19.win 0).blk t).view.emb j = ((cfg19.win 2).blk t).view.emb j := by
    funext a; apply Fin.ext
    match a with
    | ⟨0, _⟩ => show win19_0.index t (0 : Fin 3) * 8 + 1 * (j 0).val = win19_2.index t (0 : Fin 3) * 8 + 1 * (j 0).val; omega
    | ⟨1, _⟩ => show win19_0.index t (1 : Fin 3) * 256 + 1 * (j 1).val = win19_2.index t (1 : Fin 3) * 256 + 1 * (j 1).val; omega
    | ⟨2, _⟩ => show win19_0.index t (2 : Fin 3) * 601 + 1 * (j 2).val = win19_2.index t (2 : Fin 3) * 601 + 1 * (j 2).val; omega
  have h1 : ((cfg19.win 1).blk t).view.emb (ix2 (j 0) (j 2))
      = ix2 ((((cfg19.win 2).blk t).view.emb j) 0) ((((cfg19.win 2).blk t).view.emb j) 2) := by
    funext a; apply Fin.ext
    match a with
    | ⟨0, _⟩ => show win19_1.index t (0 : Fin 2) * 8 + 1 * (j 0).val = win19_2.index t (0 : Fin 3) * 8 + 1 * (j 0).val; omega
    | ⟨1, _⟩ => show win19_1.index t (1 : Fin 2) * 601 + 1 * (j 2).val = win19_2.index t (2 : Fin 3) * 601 + 1 * (j 2).val; omega
  rw [h0, h1]
  rfl

/-! ## The output's blocks tile its array -/

/-- An index of the output array is in point `t`'s block iff each coordinate is in the block's range on its axis. -/
theorem mem_blk19 (t : Fin cfg19.N) (i : S32x2048x601.Idx) :
    i ∈ ((cfg19.win 2).blk t).view.set ↔ ∀ a : Fin 3, win19_2.index t a * S8x256x601.size a ≤ (i a).val ∧ (i a).val < win19_2.index t a * S8x256x601.size a + S8x256x601.size a := by
  show i ∈ ((View.whole main_v40).slice (win19_2.rect t)).set ↔ _
  rw [View.set_slice_whole, Rect.mem_set_unit]
  exact Iff.rfl

/-- Every index is in the block of the point whose output block is (image / 8, proposal / 256, 0), and every point
    writes its block back. -/
theorem covered19 (i : S32x2048x601.Idx) :
    ∃ t : Fin cfg19.N, (cfg19.win 2).flush t = true ∧ i ∈ ((cfg19.win 2).blk t).view.set := by
  have hi0 : (i 0).val < 32 := (i 0).isLt
  have hi1 : (i 1).val < 2048 := (i 1).isLt
  have hi2 : (i 2).val < 601 := (i 2).isLt
  obtain ⟨t, ht⟩ := idx_onto19 ⟨(i 0).val / 8, by omega⟩ ⟨(i 1).val / 256, by omega⟩
  have q0 : win19_2.index t (0 : Fin 3) = (i 0).val / 8 := congrFun ht 0
  have q1 : win19_2.index t (1 : Fin 3) = (i 1).val / 256 := congrFun ht 1
  have q2 : win19_2.index t (2 : Fin 3) = 0 := congrFun ht 2
  refine ⟨t, flush19_2 t, ?_⟩
  rw [mem_blk19]
  intro a
  match a with
  | ⟨0, _⟩ => show win19_2.index t (0 : Fin 3) * 8 ≤ (i 0).val ∧ (i 0).val < win19_2.index t (0 : Fin 3) * 8 + 8; omega
  | ⟨1, _⟩ => show win19_2.index t (1 : Fin 3) * 256 ≤ (i 1).val ∧ (i 1).val < win19_2.index t (1 : Fin 3) * 256 + 256; omega
  | ⟨2, _⟩ => show win19_2.index t (2 : Fin 3) * 601 ≤ (i 2).val ∧ (i 2).val < win19_2.index t (2 : Fin 3) * 601 + 601; omega

/-! ## The array after the region -/

/-- After the last point the output array is `G1` of the unary scores and the scaled pairwise array as the region
    found them. -/
theorem final19 (c : Dev nD) : (dat19 V c).arrAt 2 cfg19.N = G1 (V c main_arg0) (V c main_v39) :=
  (dat19 V c).arrAt_eq_of_cover 2 (G1 (V c main_arg0) (V c main_v39)) (fun t _ => flushed19_eq V c t) covered19

end Cert.KernelIdeal.Frame
-- ==== Proof.KI.HostValues.lean ====
/-
  What the host operations between the calls compute and keep.

  The program's host side is eleven short stretches: the first reshapes the one-element weight array to a
  scalar; each of the other ten broadcasts that scalar over a per-image array and multiplies the reduce call's
  result by it. Over an arbitrary valuation of the buffers, the buffer each stretch ends on holds the
  specification's `weight`, respectively `scaled`, of what the stretch read; every buffer a stretch does not
  write keeps its contents.
-/
import proofs.«121405_j17162689315290_1_alg».proof.Proof.Gen.KernelIdeal.Launch
import proofs.«121405_j17162689315290_1_alg».proof.Proof.Gen.KernelIdeal.Regions
import proofs.«121405_j17162689315290_1_alg».proof.Proof.Spec
import Idealize.ShloMosaic.Lib.StableHlo.Run

noncomputable section

namespace Cert.KernelIdeal.Frame

open Cert.KernelIdeal Cert.KernelIdeal.Gen Idealize.ShloMosaic Idealize.ShloMosaic.TcCoe Idealize.ShloMosaic.StableHlo

variable {F : FTy → Type} [FloatOps F]

/-! ## What each stretch computes -/

/-- The first stretch leaves the weight, as a scalar, in its result buffer. -/
theorem hostOps0_v0 (W : Valuation τ sig (Elt F)) :
    StableHlo.after hostOps0 W (Proc.devRef .tc main_v0) = Cert.ReferenceIdeal.Crf.weight (W (Proc.devRef .tc main_arg2)) := by
  unfold Cert.ReferenceIdeal.Crf.weight
  after_results
  all_goals rfl

/-- Stretch 1 broadcasts the scalar weight over a per-image array (into `main_v2`) and leaves, in `main_v3`, the
    reduce call's result `main_v1` scaled by it. -/
theorem hostOps1_v3 (W : Valuation τ sig (Elt F)) :
    StableHlo.after hostOps1 W (Proc.devRef .tc main_v3)
      = Cert.ReferenceIdeal.Crf.scaled (W (Proc.devRef .tc main_v0)) (W (Proc.devRef .tc main_v1)) := by
  unfold Cert.ReferenceIdeal.Crf.scaled
  after_results
  all_goals rfl

/-- Stretch 3 broadcasts the scalar weight over a per-image array (into `main_v6`) and leaves, in `main_v7`, the
    reduce call's result `main_v5` scaled by it. -/
theorem hostOps3_v7 (W : Valuation τ sig (Elt F)) :
    StableHlo.after hostOps3 W (Proc.devRef .tc main_v7)
      = Cert.ReferenceIdeal.Crf.scaled (W (Proc.devRef .tc main_v0)) (W (Proc.devRef .tc main_v5)) := by
  unfold Cert.ReferenceIdeal.Crf.scaled
  after_results
  all_goals rfl

/-- Stretch 5 broadcasts the scalar weight over a per-image array (into `main_v10`) and leaves, in `main_v11`, the
    reduce call's result `main_v9` scaled by it. -/
theorem hostOps5_v11 (W : Valuation τ sig (Elt F)) :
    StableHlo.after hostOps5 W (Proc.devRef .tc main_v11)
      = Cert.ReferenceIdeal.Crf.scaled (W (Proc.devRef .tc main_v0)) (W (Proc.devRef .tc main_v9)) := by
  unfold Cert.ReferenceIdeal.Crf.scaled
  after_results
  all_goals rfl

/-- Stretch 7 broadcasts the scalar weight over a per-image array (into `main_v14`) and leaves, in `main_v15`, the
    reduce call's result `main_v13` scaled by it. -/
theorem hostOps7_v15 (W : Valuation τ sig (Elt F)) :
    StableHlo.after hostOps7 W (Proc.devRef .tc main_v15)
      = Cert.ReferenceIdeal.Crf.scaled (W (Proc.devRef .tc main_v0)) (W (Proc.devRef .tc main_v13)) := by
  unfold Cert.ReferenceIdeal.Crf.scaled
  after_results
  all_goals rfl

/-- Stretch 9 broadcasts the scalar weight over a per-image array (into `main_v18`) and leaves, in `main_v19`, the
    reduce call's result `main_v17` scaled by it. -/
theorem hostOps9_v19 (W : Valuation τ sig (Elt F)) :
    StableHlo.after hostOps9 W (Proc.devRef .tc main_v19)
      = Cert.ReferenceIdeal.Crf.scaled (W (Proc.devRef .tc main_v0)) (W (Proc.devRef .tc main_v17)) := by
  unfold Cert.ReferenceIdeal.Crf.scaled
  after_results
  all_goals rfl

/-- Stretch 11 broadcasts the scalar weight over a per-image array (into `main_v22`) and leaves, in `main_v23`, the
    reduce call's result `main_v21` scaled by it. -/
theorem hostOps11_v23 (W : Valuation τ sig (Elt F)) :
    StableHlo.after hostOps11 W (Proc.devRef .tc main_v23)
      = Cert.ReferenceIdeal.Crf.scaled (W (Proc.devRef .tc main_v0)) (W (Proc.devRef .tc main_v21)) := by
  unfold Cert.ReferenceIdeal.Crf.scaled
  after_results
  all_goals rfl

/-- Stretch 13 broadcasts the scalar weight over a per-image array (into `main_v26`) and leaves, in `main_v27`, the
    reduce call's result `main_v25` scaled by it. -/
theorem hostOps13_v27 (W : Valuation τ sig (Elt F)) :
    StableHlo.after hostOps13 W (Proc.devRef .tc main_v27)
      = Cert.ReferenceIdeal.Crf.scaled (W (Proc.devRef .tc main_v0)) (W (Proc.devRef .tc main_v25)) := by
  unfold Cert.ReferenceIdeal.Crf.scaled
  after_results
  all_goals rfl

/-- Stretch 15 broadcasts the scalar weight over a per-image array (into `main_v30`) and leaves, in `main_v31`, the
    reduce call's result `main_v29` scaled by it. -/
theorem hostOps15_v31 (W : Valuation τ sig (Elt F)) :
    StableHlo.after hostOps15 W (Proc.devRef .tc main_v31)
      = Cert.ReferenceIdeal.Crf.scaled (W (Proc.devRef .tc main_v0)) (W (Proc.devRef .tc main_v29)) := by
  unfold Cert.ReferenceIdeal.Crf.scaled
  after_results
  all_goals rfl

/-- Stretch 17 broadcasts the scalar weight over a per-image array (into `main_v34`) and leaves, in `main_v35`, the
    reduce call's result `main_v33` scaled by it. -/
theorem hostOps17_v35 (W : Valuation τ sig (Elt F)) :
    StableHlo.after hostOps17 W (Proc.devRef .tc main_v35)
      = Cert.ReferenceIdeal.Crf.scaled (W (Proc.devRef .tc main_v0)) (W (Proc.devRef .tc main_v33)) := by
  unfold Cert.ReferenceIdeal.Crf.scaled
  after_results
  all_goals rfl

/-- Stretch 19 broadcasts the scalar weight over a per-image array (into `main_v38`) and leaves, in `main_v39`, the
    reduce call's result `main_v37` scaled by it. -/
theorem hostOps19_v39 (W : Valuation τ sig (Elt F)) :
    StableHlo.after hostOps19 W (Proc.devRef .tc main_v39)
      = Cert.ReferenceIdeal.Crf.scaled (W (Proc.devRef .tc main_v0)) (W (Proc.devRef .tc main_v37)) := by
  unfold Cert.ReferenceIdeal.Crf.scaled
  after_results
  all_goals rfl

/-! ## What each stretch keeps: every buffer it does not write -/

theorem hostOps0_keep (W : Valuation τ sig (Elt F)) (r : Ref sig .tc) (h : r ∉ hostOps0_W) :
    StableHlo.after hostOps0 W (Proc.devRef .tc r) = W (Proc.devRef .tc r) :=
  StableHlo.after_of_writes_sub hostOps0 W hostOps0_writes h

theorem hostOps1_keep (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h

theorem hostOps3_keep (W : Valuation τ sig (Elt F)) (r : Ref sig .tc) (h : r ∉ hostOps3_W) :
    StableHlo.after hostOps3 W (Proc.devRef .tc r) = W (Proc.devRef .tc r) :=
  StableHlo.after_of_writes_sub hostOps3 W hostOps3_writes h

theorem hostOps5_keep (W : Valuation τ sig (Elt F)) (r : Ref sig .tc) (h : r ∉ hostOps5_W) :
    StableHlo.after hostOps5 W (Proc.devRef .tc r) = W (Proc.devRef .tc r) :=
  StableHlo.after_of_writes_sub hostOps5 W hostOps5_writes h

theorem hostOps7_keep (W : Valuation τ sig (Elt F)) (r : Ref sig .tc) (h : r ∉ hostOps7_W) :
    StableHlo.after hostOps7 W (Proc.devRef .tc r) = W (Proc.devRef .tc r) :=
  StableHlo.after_of_writes_sub hostOps7 W hostOps7_writes h

theorem hostOps9_keep (W : Valuation τ sig (Elt F)) (r : Ref sig .tc) (h : r ∉ hostOps9_W) :
    StableHlo.after hostOps9 W (Proc.devRef .tc r) = W (Proc.devRef .tc r) :=
  StableHlo.after_of_writes_sub hostOps9 W hostOps9_writes h

theorem hostOps11_keep (W : Valuation τ sig (Elt F)) (r : Ref sig .tc) (h : r ∉ hostOps11_W) :
    StableHlo.after hostOps11 W (Proc.devRef .tc r) = W (Proc.devRef .tc r) :=
  StableHlo.after_of_writes_sub hostOps11 W hostOps11_writes h

theorem hostOps13_keep (W : Valuation τ sig (Elt F)) (r : Ref sig .tc) (h : r ∉ hostOps13_W) :
    StableHlo.after hostOps13 W (Proc.devRef .tc r) = W (Proc.devRef .tc r) :=
  StableHlo.after_of_writes_sub hostOps13 W hostOps13_writes h

theorem hostOps15_keep (W : Valuation τ sig (Elt F)) (r : Ref sig .tc) (h : r ∉ hostOps15_W) :
    StableHlo.after hostOps15 W (Proc.devRef .tc r) = W (Proc.devRef .tc r) :=
  StableHlo.after_of_writes_sub hostOps15 W hostOps15_writes h

theorem hostOps17_keep (W : Valuation τ sig (Elt F)) (r : Ref sig .tc) (h : r ∉ hostOps17_W) :
    StableHlo.after hostOps17 W (Proc.devRef .tc r) = W (Proc.devRef .tc r) :=
  StableHlo.after_of_writes_sub hostOps17 W hostOps17_writes h

theorem hostOps19_keep (W : Valuation τ sig (Elt F)) (r : Ref sig .tc) (h : r ∉ hostOps19_W) :
    StableHlo.after hostOps19 W (Proc.devRef .tc r) = W (Proc.devRef .tc r) :=
  StableHlo.after_of_writes_sub hostOps19 W hostOps19_writes h

end Cert.KernelIdeal.Frame

end
-- ==== Proof.KI.ValueChain.lean ====
/-
  The value of the kernel program's run at the exact instance, boundary by boundary: the buffers that carry the
  refinement hold, after the j-th update call, the j-th iterate of the specification's step from the unary scores.

  Three buffers never change — the unary scores u, the compatibility matrix M (both arguments, addressed only by
  input windows) and the scalar weight w (written once by the first host stretch). Iteration j reads the current
  scores q_j, and in three segments leaves: the reduce call, the pairwise term of q_j and M; the host stretch, that
  term scaled by w; the update call, u minus the scaled term repeated over the proposals — the specification's step
  of q_j. Ten iterations give the specification's result.
-/
import proofs.«121405_j17162689315290_1_alg».proof.Proof.KI.Fold
import proofs.«121405_j17162689315290_1_alg».proof.Proof.KI.Red0Value
import proofs.«121405_j17162689315290_1_alg».proof.Proof.KI.Upd1Value
import proofs.«121405_j17162689315290_1_alg».proof.Proof.KI.Red2Value
import proofs.«121405_j17162689315290_1_alg».proof.Proof.KI.Upd3Value
import proofs.«121405_j17162689315290_1_alg».proof.Proof.KI.Red4Value
import proofs.«121405_j17162689315290_1_alg».proof.Proof.KI.Upd5Value
import proofs.«121405_j17162689315290_1_alg».proof.Proof.KI.Red6Value
import proofs.«121405_j17162689315290_1_alg».proof.Proof.KI.Upd7Value
import proofs.«121405_j17162689315290_1_alg».proof.Proof.KI.Red8Value
import proofs.«121405_j17162689315290_1_alg».proof.Proof.KI.Upd9Value
import proofs.«121405_j17162689315290_1_alg».proof.Proof.KI.Red10Value
import proofs.«121405_j17162689315290_1_alg».proof.Proof.KI.Upd11Value
import proofs.«121405_j17162689315290_1_alg».proof.Proof.KI.Red12Value
import proofs.«121405_j17162689315290_1_alg».proof.Proof.KI.Upd13Value
import proofs.«121405_j17162689315290_1_alg».proof.Proof.KI.Red14Value
import proofs.«121405_j17162689315290_1_alg».proof.Proof.KI.Upd15Value
import proofs.«121405_j17162689315290_1_alg».proof.Proof.KI.Red16Value
import proofs.«121405_j17162689315290_1_alg».proof.Proof.KI.Upd17Value
import proofs.«121405_j17162689315290_1_alg».proof.Proof.KI.Red18Value
import proofs.«121405_j17162689315290_1_alg».proof.Proof.KI.Upd19Value
import proofs.«121405_j17162689315290_1_alg».proof.Proof.KI.HostValues

noncomputable section

namespace Cert.KernelIdeal.Frame

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-! ## The specification's data, read off the launch memory -/

/-- The unary scores, -/
abbrev uOf (c : Dev nD) : FVec Ideal Cert.ReferenceIdeal.S32x2048x601 .f32 := m ((c : Thread nD τ).loc main_arg0)
/-- the compatibility matrix, -/
abbrev cmOf (c : Dev nD) : FVec Ideal Cert.ReferenceIdeal.S601x601 .f32 := m ((c : Thread nD τ).loc main_arg1)
/-- the influence weight as a scalar, -/
abbrev w0Of (c : Dev nD) : FVec Ideal Cert.ReferenceIdeal.S_ .f32 := Cert.ReferenceIdeal.Crf.weight (m ((c : Thread nD τ).loc main_arg2))
/-- and the scores after `j` steps of the refinement. -/
abbrev qAt (c : Dev nD) (j : ℕ) : FVec Ideal Cert.ReferenceIdeal.S32x2048x601 .f32 :=
  (Cert.ReferenceIdeal.Crf.step (uOf m c) (cmOf m c) (w0Of m c))^[j] (uOf m c)

/-- One step of the specification is the update region's whole-array function of the scaled pairwise term. -/
theorem step_eq_G1 (u : FVec Ideal Cert.ReferenceIdeal.S32x2048x601 .f32) (cm : FVec Ideal Cert.ReferenceIdeal.S601x601 .f32)
    (w0 : FVec Ideal Cert.ReferenceIdeal.S_ .f32) (q : FVec Ideal Cert.ReferenceIdeal.S32x2048x601 .f32) :
    G1 u (Cert.ReferenceIdeal.Crf.scaled w0 (Cert.ReferenceIdeal.Crf.pairwise q cm)) = Cert.ReferenceIdeal.Crf.step u cm w0 q :=
  (G1_eq_subf_broadcast _ _ u _).symm

/-! ## Before the first iteration: the first host stretch has made the scalar weight -/

theorem at1_arg0 (c : Dev nD) : W1 m ρ c (Proc.devRef .tc main_arg0) = uOf m c :=
  hostOps0_keep _ main_arg0 (by decide)
theorem at1_arg1 (c : Dev nD) : W1 m ρ c (Proc.devRef .tc main_arg1) = cmOf m c :=
  hostOps0_keep _ main_arg1 (by decide)
theorem at1_w0 (c : Dev nD) : W1 m ρ c (Proc.devRef .tc main_v0) = w0Of m c :=
  hostOps0_v0 _
/-- No step taken yet: the scores are the unary scores. -/
theorem at1_q (c : Dev nD) : W1 m ρ c (Proc.devRef .tc main_arg0) = qAt m c 0 :=
  at1_arg0 m ρ c

/-! ## Iteration 0: the reduce call 0, the host stretch 1, the update call 1 -/

theorem at2_arg0 (c : Dev nD) : W2 m ρ c (Proc.devRef .tc main_arg0) = uOf m c :=
  ((W2_arr m ρ c 0).trans (((dat0 (V1 m ρ) c).arrAt_in 0 rfl _).trans (A_eq0 (V1 m ρ) c 0))).trans (at1_arg0 m ρ c)
theorem at2_arg1 (c : Dev nD) : W2 m ρ c (Proc.devRef .tc main_arg1) = cmOf m c :=
  ((W2_arr m ρ c 1).trans (((dat0 (V1 m ρ) c).arrAt_in 1 rfl _).trans (A_eq0 (V1 m ρ) c 1))).trans (at1_arg1 m ρ c)
theorem at2_w0 (c : Dev nD) : W2 m ρ c (Proc.devRef .tc main_v0) = w0Of m c :=
  (W2_of_ne m ρ c main_v0 (by decide)).trans (at1_w0 m ρ c)
/-- The reduce call leaves the pairwise term of the current scores and the matrix. -/
theorem at2_pw (c : Dev nD) : W2 m ρ c (Proc.devRef .tc main_v1) = Cert.ReferenceIdeal.Crf.pairwise (qAt m c 0) (cmOf m c) :=
  ((W2_arr m ρ c 2).trans (final0 (V1 m ρ) c)).trans (congrArg₂ Cert.ReferenceIdeal.Crf.pairwise (at1_q m ρ c) (at1_arg1 m ρ c))
theorem at3_arg0 (c : Dev nD) : W3 m ρ c (Proc.devRef .tc main_arg0) = uOf m c :=
  (hostOps1_keep _ main_arg0 (by decide)).trans (at2_arg0 m ρ c)
theorem at3_arg1 (c : Dev nD) : W3 m ρ c (Proc.devRef .tc main_arg1) = cmOf m c :=
  (hostOps1_keep _ main_arg1 (by decide)).trans (at2_arg1 m ρ c)
theorem at3_w0 (c : Dev nD) : W3 m ρ c (Proc.devRef .tc main_v0) = w0Of m c :=
  (hostOps1_keep _ main_v0 (by decide)).trans (at2_w0 m ρ c)
/-- The host stretch scales it by the weight. -/
theorem at3_sp (c : Dev nD) : W3 m ρ c (Proc.devRef .tc main_v3) = Cert.ReferenceIdeal.Crf.scaled (w0Of m c) (Cert.ReferenceIdeal.Crf.pairwise (qAt m c 0) (cmOf m c)) :=
  (hostOps1_v3 _).trans (congrArg₂ Cert.ReferenceIdeal.Crf.scaled (at2_w0 m ρ c) (at2_pw m ρ c))
theorem at4_arg0 (c : Dev nD) : W4 m ρ c (Proc.devRef .tc main_arg0) = uOf m c :=
  ((W4_arr m ρ c 0).trans (((dat1 (V3 m ρ) c).arrAt_in 0 rfl _).trans (A_eq1 (V3 m ρ) c 0))).trans (at3_arg0 m ρ c)
theorem at4_arg1 (c : Dev nD) : W4 m ρ c (Proc.devRef .tc main_arg1) = cmOf m c :=
  (W4_of_ne m ρ c main_arg1 (by decide)).trans (at3_arg1 m ρ c)
theorem at4_w0 (c : Dev nD) : W4 m ρ c (Proc.devRef .tc main_v0) = w0Of m c :=
  (W4_of_ne m ρ c main_v0 (by decide)).trans (at3_w0 m ρ c)
/-- The update call leaves the unary scores less the scaled term: one more step of the refinement. -/
theorem at4_q (c : Dev nD) : W4 m ρ c (Proc.devRef .tc main_v4) = qAt m c 1 :=
  ((W4_arr m ρ c 2).trans (final1 (V3 m ρ) c)).trans
    ((congrArg₂ G1 (at3_arg0 m ρ c) (at3_sp m ρ c)).trans
      ((step_eq_G1 (uOf m c) (cmOf m c) (w0Of m c) (qAt m c 0)).trans (Function.iterate_succ_apply' _ 0 _).symm))

/-! ## Iteration 1: the reduce call 2, the host stretch 3, the update call 3 -/

theorem at5_arg0 (c : Dev nD) : W5 m ρ c (Proc.devRef .tc main_arg0) = uOf m c :=
  (W5_of_ne m ρ c main_arg0 (by decide)).trans (at4_arg0 m ρ c)
theorem at5_arg1 (c : Dev nD) : W5 m ρ c (Proc.devRef .tc main_arg1) = cmOf m c :=
  ((W5_arr m ρ c 1).trans (((dat2 (V4 m ρ) c).arrAt_in 1 rfl _).trans (A_eq2 (V4 m ρ) c 1))).trans (at4_arg1 m ρ c)
theorem at5_w0 (c : Dev nD) : W5 m ρ c (Proc.devRef .tc main_v0) = w0Of m c :=
  (W5_of_ne m ρ c main_v0 (by decide)).trans (at4_w0 m ρ c)
/-- The reduce call leaves the pairwise term of the current scores and the matrix. -/
theorem at5_pw (c : Dev nD) : W5 m ρ c (Proc.devRef .tc main_v5) = Cert.ReferenceIdeal.Crf.pairwise (qAt m c 1) (cmOf m c) :=
  ((W5_arr m ρ c 2).trans (final2 (V4 m ρ) c)).trans (congrArg₂ Cert.ReferenceIdeal.Crf.pairwise (at4_q m ρ c) (at4_arg1 m ρ c))
theorem at6_arg0 (c : Dev nD) : W6 m ρ c (Proc.devRef .tc main_arg0) = uOf m c :=
  (hostOps3_keep _ main_arg0 (by decide)).trans (at5_arg0 m ρ c)
theorem at6_arg1 (c : Dev nD) : W6 m ρ c (Proc.devRef .tc main_arg1) = cmOf m c :=
  (hostOps3_keep _ main_arg1 (by decide)).trans (at5_arg1 m ρ c)
theorem at6_w0 (c : Dev nD) : W6 m ρ c (Proc.devRef .tc main_v0) = w0Of m c :=
  (hostOps3_keep _ main_v0 (by decide)).trans (at5_w0 m ρ c)
/-- The host stretch scales it by the weight. -/
theorem at6_sp (c : Dev nD) : W6 m ρ c (Proc.devRef .tc main_v7) = Cert.ReferenceIdeal.Crf.scaled (w0Of m c) (Cert.ReferenceIdeal.Crf.pairwise (qAt m c 1) (cmOf m c)) :=
  (hostOps3_v7 _).trans (congrArg₂ Cert.ReferenceIdeal.Crf.scaled (at5_w0 m ρ c) (at5_pw m ρ c))
theorem at7_arg0 (c : Dev nD) : W7 m ρ c (Proc.devRef .tc main_arg0) = uOf m c :=
  ((W7_arr m ρ c 0).trans (((dat3 (V6 m ρ) c).arrAt_in 0 rfl _).trans (A_eq3 (V6 m ρ) c 0))).trans (at6_arg0 m ρ c)
theorem at7_arg1 (c : Dev nD) : W7 m ρ c (Proc.devRef .tc main_arg1) = cmOf m c :=
  (W7_of_ne m ρ c main_arg1 (by decide)).trans (at6_arg1 m ρ c)
theorem at7_w0 (c : Dev nD) : W7 m ρ c (Proc.devRef .tc main_v0) = w0Of m c :=
  (W7_of_ne m ρ c main_v0 (by decide)).trans (at6_w0 m ρ c)
/-- The update call leaves the unary scores less the scaled term: one more step of the refinement. -/
theorem at7_q (c : Dev nD) : W7 m ρ c (Proc.devRef .tc main_v8) = qAt m c 2 :=
  ((W7_arr m ρ c 2).trans (final3 (V6 m ρ) c)).trans
    ((congrArg₂ G1 (at6_arg0 m ρ c) (at6_sp m ρ c)).trans
      ((step_eq_G1 (uOf m c) (cmOf m c) (w0Of m c) (qAt m c 1)).trans (Function.iterate_succ_apply' _ 1 _).symm))

/-! ## Iteration 2: the reduce call 4, the host stretch 5, the update call 5 -/

theorem at8_arg0 (c : Dev nD) : W8 m ρ c (Proc.devRef .tc main_arg0) = uOf m c :=
  (W8_of_ne m ρ c main_arg0 (by decide)).trans (at7_arg0 m ρ c)
theorem at8_arg1 (c : Dev nD) : W8 m ρ c (Proc.devRef .tc main_arg1) = cmOf m c :=
  ((W8_arr m ρ c 1).trans (((dat4 (V7 m ρ) c).arrAt_in 1 rfl _).trans (A_eq4 (V7 m ρ) c 1))).trans (at7_arg1 m ρ c)
theorem at8_w0 (c : Dev nD) : W8 m ρ c (Proc.devRef .tc main_v0) = w0Of m c :=
  (W8_of_ne m ρ c main_v0 (by decide)).trans (at7_w0 m ρ c)
/-- The reduce call leaves the pairwise term of the current scores and the matrix. -/
theorem at8_pw (c : Dev nD) : W8 m ρ c (Proc.devRef .tc main_v9) = Cert.ReferenceIdeal.Crf.pairwise (qAt m c 2) (cmOf m c) :=
  ((W8_arr m ρ c 2).trans (final4 (V7 m ρ) c)).trans (congrArg₂ Cert.ReferenceIdeal.Crf.pairwise (at7_q m ρ c) (at7_arg1 m ρ c))
theorem at9_arg0 (c : Dev nD) : W9 m ρ c (Proc.devRef .tc main_arg0) = uOf m c :=
  (hostOps5_keep _ main_arg0 (by decide)).trans (at8_arg0 m ρ c)
theorem at9_arg1 (c : Dev nD) : W9 m ρ c (Proc.devRef .tc main_arg1) = cmOf m c :=
  (hostOps5_keep _ main_arg1 (by decide)).trans (at8_arg1 m ρ c)
theorem at9_w0 (c : Dev nD) : W9 m ρ c (Proc.devRef .tc main_v0) = w0Of m c :=
  (hostOps5_keep _ main_v0 (by decide)).trans (at8_w0 m ρ c)
/-- The host stretch scales it by the weight. -/
theorem at9_sp (c : Dev nD) : W9 m ρ c (Proc.devRef .tc main_v11) = Cert.ReferenceIdeal.Crf.scaled (w0Of m c) (Cert.ReferenceIdeal.Crf.pairwise (qAt m c 2) (cmOf m c)) :=
  (hostOps5_v11 _).trans (congrArg₂ Cert.ReferenceIdeal.Crf.scaled (at8_w0 m ρ c) (at8_pw m ρ c))
theorem at10_arg0 (c : Dev nD) : W10 m ρ c (Proc.devRef .tc main_arg0) = uOf m c :=
  ((W10_arr m ρ c 0).trans (((dat5 (V9 m ρ) c).arrAt_in 0 rfl _).trans (A_eq5 (V9 m ρ) c 0))).trans (at9_arg0 m ρ c)
theorem at10_arg1 (c : Dev nD) : W10 m ρ c (Proc.devRef .tc main_arg1) = cmOf m c :=
  (W10_of_ne m ρ c main_arg1 (by decide)).trans (at9_arg1 m ρ c)
theorem at10_w0 (c : Dev nD) : W10 m ρ c (Proc.devRef .tc main_v0) = w0Of m c :=
  (W10_of_ne m ρ c main_v0 (by decide)).trans (at9_w0 m ρ c)
/-- The update call leaves the unary scores less the scaled term: one more step of the refinement. -/
theorem at10_q (c : Dev nD) : W10 m ρ c (Proc.devRef .tc main_v12) = qAt m c 3 :=
  ((W10_arr m ρ c 2).trans (final5 (V9 m ρ) c)).trans
    ((congrArg₂ G1 (at9_arg0 m ρ c) (at9_sp m ρ c)).trans
      ((step_eq_G1 (uOf m c) (cmOf m c) (w0Of m c) (qAt m c 2)).trans (Function.iterate_succ_apply' _ 2 _).symm))

/-! ## Iteration 3: the reduce call 6, the host stretch 7, the update call 7 -/

theorem at11_arg0 (c : Dev nD) : W11 m ρ c (Proc.devRef .tc main_arg0) = uOf m c :=
  (W11_of_ne m ρ c main_arg0 (by decide)).trans (at10_arg0 m ρ c)
theorem at11_arg1 (c : Dev nD) : W11 m ρ c (Proc.devRef .tc main_arg1) = cmOf m c :=
  ((W11_arr m ρ c 1).trans (((dat6 (V10 m ρ) c).arrAt_in 1 rfl _).trans (A_eq6 (V10 m ρ) c 1))).trans (at10_arg1 m ρ c)
theorem at11_w0 (c : Dev nD) : W11 m ρ c (Proc.devRef .tc main_v0) = w0Of m c :=
  (W11_of_ne m ρ c main_v0 (by decide)).trans (at10_w0 m ρ c)
/-- The reduce call leaves the pairwise term of the current scores and the matrix. -/
theorem at11_pw (c : Dev nD) : W11 m ρ c (Proc.devRef .tc main_v13) = Cert.ReferenceIdeal.Crf.pairwise (qAt m c 3) (cmOf m c) :=
  ((W11_arr m ρ c 2).trans (final6 (V10 m ρ) c)).trans (congrArg₂ Cert.ReferenceIdeal.Crf.pairwise (at10_q m ρ c) (at10_arg1 m ρ c))
theorem at12_arg0 (c : Dev nD) : W12 m ρ c (Proc.devRef .tc main_arg0) = uOf m c :=
  (hostOps7_keep _ main_arg0 (by decide)).trans (at11_arg0 m ρ c)
theorem at12_arg1 (c : Dev nD) : W12 m ρ c (Proc.devRef .tc main_arg1) = cmOf m c :=
  (hostOps7_keep _ main_arg1 (by decide)).trans (at11_arg1 m ρ c)
theorem at12_w0 (c : Dev nD) : W12 m ρ c (Proc.devRef .tc main_v0) = w0Of m c :=
  (hostOps7_keep _ main_v0 (by decide)).trans (at11_w0 m ρ c)
/-- The host stretch scales it by the weight. -/
theorem at12_sp (c : Dev nD) : W12 m ρ c (Proc.devRef .tc main_v15) = Cert.ReferenceIdeal.Crf.scaled (w0Of m c) (Cert.ReferenceIdeal.Crf.pairwise (qAt m c 3) (cmOf m c)) :=
  (hostOps7_v15 _).trans (congrArg₂ Cert.ReferenceIdeal.Crf.scaled (at11_w0 m ρ c) (at11_pw m ρ c))
theorem at13_arg0 (c : Dev nD) : W13 m ρ c (Proc.devRef .tc main_arg0) = uOf m c :=
  ((W13_arr m ρ c 0).trans (((dat7 (V12 m ρ) c).arrAt_in 0 rfl _).trans (A_eq7 (V12 m ρ) c 0))).trans (at12_arg0 m ρ c)
theorem at13_arg1 (c : Dev nD) : W13 m ρ c (Proc.devRef .tc main_arg1) = cmOf m c :=
  (W13_of_ne m ρ c main_arg1 (by decide)).trans (at12_arg1 m ρ c)
theorem at13_w0 (c : Dev nD) : W13 m ρ c (Proc.devRef .tc main_v0) = w0Of m c :=
  (W13_of_ne m ρ c main_v0 (by decide)).trans (at12_w0 m ρ c)
/-- The update call leaves the unary scores less the scaled term: one more step of the refinement. -/
theorem at13_q (c : Dev nD) : W13 m ρ c (Proc.devRef .tc main_v16) = qAt m c 4 :=
  ((W13_arr m ρ c 2).trans (final7 (V12 m ρ) c)).trans
    ((congrArg₂ G1 (at12_arg0 m ρ c) (at12_sp m ρ c)).trans
      ((step_eq_G1 (uOf m c) (cmOf m c) (w0Of m c) (qAt m c 3)).trans (Function.iterate_succ_apply' _ 3 _).symm))

/-! ## Iteration 4: the reduce call 8, the host stretch 9, the update call 9 -/

theorem at14_arg0 (c : Dev nD) : W14 m ρ c (Proc.devRef .tc main_arg0) = uOf m c :=
  (W14_of_ne m ρ c main_arg0 (by decide)).trans (at13_arg0 m ρ c)
theorem at14_arg1 (c : Dev nD) : W14 m ρ c (Proc.devRef .tc main_arg1) = cmOf m c :=
  ((W14_arr m ρ c 1).trans (((dat8 (V13 m ρ) c).arrAt_in 1 rfl _).trans (A_eq8 (V13 m ρ) c 1))).trans (at13_arg1 m ρ c)
theorem at14_w0 (c : Dev nD) : W14 m ρ c (Proc.devRef .tc main_v0) = w0Of m c :=
  (W14_of_ne m ρ c main_v0 (by decide)).trans (at13_w0 m ρ c)
/-- The reduce call leaves the pairwise term of the current scores and the matrix. -/
theorem at14_pw (c : Dev nD) : W14 m ρ c (Proc.devRef .tc main_v17) = Cert.ReferenceIdeal.Crf.pairwise (qAt m c 4) (cmOf m c) :=
  ((W14_arr m ρ c 2).trans (final8 (V13 m ρ) c)).trans (congrArg₂ Cert.ReferenceIdeal.Crf.pairwise (at13_q m ρ c) (at13_arg1 m ρ c))
theorem at15_arg0 (c : Dev nD) : W15 m ρ c (Proc.devRef .tc main_arg0) = uOf m c :=
  (hostOps9_keep _ main_arg0 (by decide)).trans (at14_arg0 m ρ c)
theorem at15_arg1 (c : Dev nD) : W15 m ρ c (Proc.devRef .tc main_arg1) = cmOf m c :=
  (hostOps9_keep _ main_arg1 (by decide)).trans (at14_arg1 m ρ c)
theorem at15_w0 (c : Dev nD) : W15 m ρ c (Proc.devRef .tc main_v0) = w0Of m c :=
  (hostOps9_keep _ main_v0 (by decide)).trans (at14_w0 m ρ c)
/-- The host stretch scales it by the weight. -/
theorem at15_sp (c : Dev nD) : W15 m ρ c (Proc.devRef .tc main_v19) = Cert.ReferenceIdeal.Crf.scaled (w0Of m c) (Cert.ReferenceIdeal.Crf.pairwise (qAt m c 4) (cmOf m c)) :=
  (hostOps9_v19 _).trans (congrArg₂ Cert.ReferenceIdeal.Crf.scaled (at14_w0 m ρ c) (at14_pw m ρ c))
theorem at16_arg0 (c : Dev nD) : W16 m ρ c (Proc.devRef .tc main_arg0) = uOf m c :=
  ((W16_arr m ρ c 0).trans (((dat9 (V15 m ρ) c).arrAt_in 0 rfl _).trans (A_eq9 (V15 m ρ) c 0))).trans (at15_arg0 m ρ c)
theorem at16_arg1 (c : Dev nD) : W16 m ρ c (Proc.devRef .tc main_arg1) = cmOf m c :=
  (W16_of_ne m ρ c main_arg1 (by decide)).trans (at15_arg1 m ρ c)
theorem at16_w0 (c : Dev nD) : W16 m ρ c (Proc.devRef .tc main_v0) = w0Of m c :=
  (W16_of_ne m ρ c main_v0 (by decide)).trans (at15_w0 m ρ c)
/-- The update call leaves the unary scores less the scaled term: one more step of the refinement. -/
theorem at16_q (c : Dev nD) : W16 m ρ c (Proc.devRef .tc main_v20) = qAt m c 5 :=
  ((W16_arr m ρ c 2).trans (final9 (V15 m ρ) c)).trans
    ((congrArg₂ G1 (at15_arg0 m ρ c) (at15_sp m ρ c)).trans
      ((step_eq_G1 (uOf m c) (cmOf m c) (w0Of m c) (qAt m c 4)).trans (Function.iterate_succ_apply' _ 4 _).symm))

/-! ## Iteration 5: the reduce call 10, the host stretch 11, the update call 11 -/

theorem at17_arg0 (c : Dev nD) : W17 m ρ c (Proc.devRef .tc main_arg0) = uOf m c :=
  (W17_of_ne m ρ c main_arg0 (by decide)).trans (at16_arg0 m ρ c)
theorem at17_arg1 (c : Dev nD) : W17 m ρ c (Proc.devRef .tc main_arg1) = cmOf m c :=
  ((W17_arr m ρ c 1).trans (((dat10 (V16 m ρ) c).arrAt_in 1 rfl _).trans (A_eq10 (V16 m ρ) c 1))).trans (at16_arg1 m ρ c)
theorem at17_w0 (c : Dev nD) : W17 m ρ c (Proc.devRef .tc main_v0) = w0Of m c :=
  (W17_of_ne m ρ c main_v0 (by decide)).trans (at16_w0 m ρ c)
/-- The reduce call leaves the pairwise term of the current scores and the matrix. -/
theorem at17_pw (c : Dev nD) : W17 m ρ c (Proc.devRef .tc main_v21) = Cert.ReferenceIdeal.Crf.pairwise (qAt m c 5) (cmOf m c) :=
  ((W17_arr m ρ c 2).trans (final10 (V16 m ρ) c)).trans (congrArg₂ Cert.ReferenceIdeal.Crf.pairwise (at16_q m ρ c) (at16_arg1 m ρ c))
theorem at18_arg0 (c : Dev nD) : W18 m ρ c (Proc.devRef .tc main_arg0) = uOf m c :=
  (hostOps11_keep _ main_arg0 (by decide)).trans (at17_arg0 m ρ c)
theorem at18_arg1 (c : Dev nD) : W18 m ρ c (Proc.devRef .tc main_arg1) = cmOf m c :=
  (hostOps11_keep _ main_arg1 (by decide)).trans (at17_arg1 m ρ c)
theorem at18_w0 (c : Dev nD) : W18 m ρ c (Proc.devRef .tc main_v0) = w0Of m c :=
  (hostOps11_keep _ main_v0 (by decide)).trans (at17_w0 m ρ c)
/-- The host stretch scales it by the weight. -/
theorem at18_sp (c : Dev nD) : W18 m ρ c (Proc.devRef .tc main_v23) = Cert.ReferenceIdeal.Crf.scaled (w0Of m c) (Cert.ReferenceIdeal.Crf.pairwise (qAt m c 5) (cmOf m c)) :=
  (hostOps11_v23 _).trans (congrArg₂ Cert.ReferenceIdeal.Crf.scaled (at17_w0 m ρ c) (at17_pw m ρ c))
theorem at19_arg0 (c : Dev nD) : W19 m ρ c (Proc.devRef .tc main_arg0) = uOf m c :=
  ((W19_arr m ρ c 0).trans (((dat11 (V18 m ρ) c).arrAt_in 0 rfl _).trans (A_eq11 (V18 m ρ) c 0))).trans (at18_arg0 m ρ c)
theorem at19_arg1 (c : Dev nD) : W19 m ρ c (Proc.devRef .tc main_arg1) = cmOf m c :=
  (W19_of_ne m ρ c main_arg1 (by decide)).trans (at18_arg1 m ρ c)
theorem at19_w0 (c : Dev nD) : W19 m ρ c (Proc.devRef .tc main_v0) = w0Of m c :=
  (W19_of_ne m ρ c main_v0 (by decide)).trans (at18_w0 m ρ c)
/-- The update call leaves the unary scores less the scaled term: one more step of the refinement. -/
theorem at19_q (c : Dev nD) : W19 m ρ c (Proc.devRef .tc main_v24) = qAt m c 6 :=
  ((W19_arr m ρ c 2).trans (final11 (V18 m ρ) c)).trans
    ((congrArg₂ G1 (at18_arg0 m ρ c) (at18_sp m ρ c)).trans
      ((step_eq_G1 (uOf m c) (cmOf m c) (w0Of m c) (qAt m c 5)).trans (Function.iterate_succ_apply' _ 5 _).symm))

/-! ## Iteration 6: the reduce call 12, the host stretch 13, the update call 13 -/

theorem at20_arg0 (c : Dev nD) : W20 m ρ c (Proc.devRef .tc main_arg0) = uOf m c :=
  (W20_of_ne m ρ c main_arg0 (by decide)).trans (at19_arg0 m ρ c)
theorem at20_arg1 (c : Dev nD) : W20 m ρ c (Proc.devRef .tc main_arg1) = cmOf m c :=
  ((W20_arr m ρ c 1).trans (((dat12 (V19 m ρ) c).arrAt_in 1 rfl _).trans (A_eq12 (V19 m ρ) c 1))).trans (at19_arg1 m ρ c)
theorem at20_w0 (c : Dev nD) : W20 m ρ c (Proc.devRef .tc main_v0) = w0Of m c :=
  (W20_of_ne m ρ c main_v0 (by decide)).trans (at19_w0 m ρ c)
/-- The reduce call leaves the pairwise term of the current scores and the matrix. -/
theorem at20_pw (c : Dev nD) : W20 m ρ c (Proc.devRef .tc main_v25) = Cert.ReferenceIdeal.Crf.pairwise (qAt m c 6) (cmOf m c) :=
  ((W20_arr m ρ c 2).trans (final12 (V19 m ρ) c)).trans (congrArg₂ Cert.ReferenceIdeal.Crf.pairwise (at19_q m ρ c) (at19_arg1 m ρ c))
theorem at21_arg0 (c : Dev nD) : W21 m ρ c (Proc.devRef .tc main_arg0) = uOf m c :=
  (hostOps13_keep _ main_arg0 (by decide)).trans (at20_arg0 m ρ c)
theorem at21_arg1 (c : Dev nD) : W21 m ρ c (Proc.devRef .tc main_arg1) = cmOf m c :=
  (hostOps13_keep _ main_arg1 (by decide)).trans (at20_arg1 m ρ c)
theorem at21_w0 (c : Dev nD) : W21 m ρ c (Proc.devRef .tc main_v0) = w0Of m c :=
  (hostOps13_keep _ main_v0 (by decide)).trans (at20_w0 m ρ c)
/-- The host stretch scales it by the weight. -/
theorem at21_sp (c : Dev nD) : W21 m ρ c (Proc.devRef .tc main_v27) = Cert.ReferenceIdeal.Crf.scaled (w0Of m c) (Cert.ReferenceIdeal.Crf.pairwise (qAt m c 6) (cmOf m c)) :=
  (hostOps13_v27 _).trans (congrArg₂ Cert.ReferenceIdeal.Crf.scaled (at20_w0 m ρ c) (at20_pw m ρ c))
theorem at22_arg0 (c : Dev nD) : W22 m ρ c (Proc.devRef .tc main_arg0) = uOf m c :=
  ((W22_arr m ρ c 0).trans (((dat13 (V21 m ρ) c).arrAt_in 0 rfl _).trans (A_eq13 (V21 m ρ) c 0))).trans (at21_arg0 m ρ c)
theorem at22_arg1 (c : Dev nD) : W22 m ρ c (Proc.devRef .tc main_arg1) = cmOf m c :=
  (W22_of_ne m ρ c main_arg1 (by decide)).trans (at21_arg1 m ρ c)
theorem at22_w0 (c : Dev nD) : W22 m ρ c (Proc.devRef .tc main_v0) = w0Of m c :=
  (W22_of_ne m ρ c main_v0 (by decide)).trans (at21_w0 m ρ c)
/-- The update call leaves the unary scores less the scaled term: one more step of the refinement. -/
theorem at22_q (c : Dev nD) : W22 m ρ c (Proc.devRef .tc main_v28) = qAt m c 7 :=
  ((W22_arr m ρ c 2).trans (final13 (V21 m ρ) c)).trans
    ((congrArg₂ G1 (at21_arg0 m ρ c) (at21_sp m ρ c)).trans
      ((step_eq_G1 (uOf m c) (cmOf m c) (w0Of m c) (qAt m c 6)).trans (Function.iterate_succ_apply' _ 6 _).symm))

/-! ## Iteration 7: the reduce call 14, the host stretch 15, the update call 15 -/

theorem at23_arg0 (c : Dev nD) : W23 m ρ c (Proc.devRef .tc main_arg0) = uOf m c :=
  (W23_of_ne m ρ c main_arg0 (by decide)).trans (at22_arg0 m ρ c)
theorem at23_arg1 (c : Dev nD) : W23 m ρ c (Proc.devRef .tc main_arg1) = cmOf m c :=
  ((W23_arr m ρ c 1).trans (((dat14 (V22 m ρ) c).arrAt_in 1 rfl _).trans (A_eq14 (V22 m ρ) c 1))).trans (at22_arg1 m ρ c)
theorem at23_w0 (c : Dev nD) : W23 m ρ c (Proc.devRef .tc main_v0) = w0Of m c :=
  (W23_of_ne m ρ c main_v0 (by decide)).trans (at22_w0 m ρ c)
/-- The reduce call leaves the pairwise term of the current scores and the matrix. -/
theorem at23_pw (c : Dev nD) : W23 m ρ c (Proc.devRef .tc main_v29) = Cert.ReferenceIdeal.Crf.pairwise (qAt m c 7) (cmOf m c) :=
  ((W23_arr m ρ c 2).trans (final14 (V22 m ρ) c)).trans (congrArg₂ Cert.ReferenceIdeal.Crf.pairwise (at22_q m ρ c) (at22_arg1 m ρ c))
theorem at24_arg0 (c : Dev nD) : W24 m ρ c (Proc.devRef .tc main_arg0) = uOf m c :=
  (hostOps15_keep _ main_arg0 (by decide)).trans (at23_arg0 m ρ c)
theorem at24_arg1 (c : Dev nD) : W24 m ρ c (Proc.devRef .tc main_arg1) = cmOf m c :=
  (hostOps15_keep _ main_arg1 (by decide)).trans (at23_arg1 m ρ c)
theorem at24_w0 (c : Dev nD) : W24 m ρ c (Proc.devRef .tc main_v0) = w0Of m c :=
  (hostOps15_keep _ main_v0 (by decide)).trans (at23_w0 m ρ c)
/-- The host stretch scales it by the weight. -/
theorem at24_sp (c : Dev nD) : W24 m ρ c (Proc.devRef .tc main_v31) = Cert.ReferenceIdeal.Crf.scaled (w0Of m c) (Cert.ReferenceIdeal.Crf.pairwise (qAt m c 7) (cmOf m c)) :=
  (hostOps15_v31 _).trans (congrArg₂ Cert.ReferenceIdeal.Crf.scaled (at23_w0 m ρ c) (at23_pw m ρ c))
theorem at25_arg0 (c : Dev nD) : W25 m ρ c (Proc.devRef .tc main_arg0) = uOf m c :=
  ((W25_arr m ρ c 0).trans (((dat15 (V24 m ρ) c).arrAt_in 0 rfl _).trans (A_eq15 (V24 m ρ) c 0))).trans (at24_arg0 m ρ c)
theorem at25_arg1 (c : Dev nD) : W25 m ρ c (Proc.devRef .tc main_arg1) = cmOf m c :=
  (W25_of_ne m ρ c main_arg1 (by decide)).trans (at24_arg1 m ρ c)
theorem at25_w0 (c : Dev nD) : W25 m ρ c (Proc.devRef .tc main_v0) = w0Of m c :=
  (W25_of_ne m ρ c main_v0 (by decide)).trans (at24_w0 m ρ c)
/-- The update call leaves the unary scores less the scaled term: one more step of the refinement. -/
theorem at25_q (c : Dev nD) : W25 m ρ c (Proc.devRef .tc main_v32) = qAt m c 8 :=
  ((W25_arr m ρ c 2).trans (final15 (V24 m ρ) c)).trans
    ((congrArg₂ G1 (at24_arg0 m ρ c) (at24_sp m ρ c)).trans
      ((step_eq_G1 (uOf m c) (cmOf m c) (w0Of m c) (qAt m c 7)).trans (Function.iterate_succ_apply' _ 7 _).symm))

/-! ## Iteration 8: the reduce call 16, the host stretch 17, the update call 17 -/

theorem at26_arg0 (c : Dev nD) : W26 m ρ c (Proc.devRef .tc main_arg0) = uOf m c :=
  (W26_of_ne m ρ c main_arg0 (by decide)).trans (at25_arg0 m ρ c)
theorem at26_arg1 (c : Dev nD) : W26 m ρ c (Proc.devRef .tc main_arg1) = cmOf m c :=
  ((W26_arr m ρ c 1).trans (((dat16 (V25 m ρ) c).arrAt_in 1 rfl _).trans (A_eq16 (V25 m ρ) c 1))).trans (at25_arg1 m ρ c)
theorem at26_w0 (c : Dev nD) : W26 m ρ c (Proc.devRef .tc main_v0) = w0Of m c :=
  (W26_of_ne m ρ c main_v0 (by decide)).trans (at25_w0 m ρ c)
/-- The reduce call leaves the pairwise term of the current scores and the matrix. -/
theorem at26_pw (c : Dev nD) : W26 m ρ c (Proc.devRef .tc main_v33) = Cert.ReferenceIdeal.Crf.pairwise (qAt m c 8) (cmOf m c) :=
  ((W26_arr m ρ c 2).trans (final16 (V25 m ρ) c)).trans (congrArg₂ Cert.ReferenceIdeal.Crf.pairwise (at25_q m ρ c) (at25_arg1 m ρ c))
theorem at27_arg0 (c : Dev nD) : W27 m ρ c (Proc.devRef .tc main_arg0) = uOf m c :=
  (hostOps17_keep _ main_arg0 (by decide)).trans (at26_arg0 m ρ c)
theorem at27_arg1 (c : Dev nD) : W27 m ρ c (Proc.devRef .tc main_arg1) = cmOf m c :=
  (hostOps17_keep _ main_arg1 (by decide)).trans (at26_arg1 m ρ c)
theorem at27_w0 (c : Dev nD) : W27 m ρ c (Proc.devRef .tc main_v0) = w0Of m c :=
  (hostOps17_keep _ main_v0 (by decide)).trans (at26_w0 m ρ c)
/-- The host stretch scales it by the weight. -/
theorem at27_sp (c : Dev nD) : W27 m ρ c (Proc.devRef .tc main_v35) = Cert.ReferenceIdeal.Crf.scaled (w0Of m c) (Cert.ReferenceIdeal.Crf.pairwise (qAt m c 8) (cmOf m c)) :=
  (hostOps17_v35 _).trans (congrArg₂ Cert.ReferenceIdeal.Crf.scaled (at26_w0 m ρ c) (at26_pw m ρ c))
theorem at28_arg0 (c : Dev nD) : W28 m ρ c (Proc.devRef .tc main_arg0) = uOf m c :=
  ((W28_arr m ρ c 0).trans (((dat17 (V27 m ρ) c).arrAt_in 0 rfl _).trans (A_eq17 (V27 m ρ) c 0))).trans (at27_arg0 m ρ c)
theorem at28_arg1 (c : Dev nD) : W28 m ρ c (Proc.devRef .tc main_arg1) = cmOf m c :=
  (W28_of_ne m ρ c main_arg1 (by decide)).trans (at27_arg1 m ρ c)
theorem at28_w0 (c : Dev nD) : W28 m ρ c (Proc.devRef .tc main_v0) = w0Of m c :=
  (W28_of_ne m ρ c main_v0 (by decide)).trans (at27_w0 m ρ c)
/-- The update call leaves the unary scores less the scaled term: one more step of the refinement. -/
theorem at28_q (c : Dev nD) : W28 m ρ c (Proc.devRef .tc main_v36) = qAt m c 9 :=
  ((W28_arr m ρ c 2).trans (final17 (V27 m ρ) c)).trans
    ((congrArg₂ G1 (at27_arg0 m ρ c) (at27_sp m ρ c)).trans
      ((step_eq_G1 (uOf m c) (cmOf m c) (w0Of m c) (qAt m c 8)).trans (Function.iterate_succ_apply' _ 8 _).symm))

/-! ## Iteration 9: the reduce call 18, the host stretch 19, the update call 19 -/

theorem at29_arg0 (c : Dev nD) : W29 m ρ c (Proc.devRef .tc main_arg0) = uOf m c :=
  (W29_of_ne m ρ c main_arg0 (by decide)).trans (at28_arg0 m ρ c)
theorem at29_arg1 (c : Dev nD) : W29 m ρ c (Proc.devRef .tc main_arg1) = cmOf m c :=
  ((W29_arr m ρ c 1).trans (((dat18 (V28 m ρ) c).arrAt_in 1 rfl _).trans (A_eq18 (V28 m ρ) c 1))).trans (at28_arg1 m ρ c)
theorem at29_w0 (c : Dev nD) : W29 m ρ c (Proc.devRef .tc main_v0) = w0Of m c :=
  (W29_of_ne m ρ c main_v0 (by decide)).trans (at28_w0 m ρ c)
/-- The reduce call leaves the pairwise term of the current scores and the matrix. -/
theorem at29_pw (c : Dev nD) : W29 m ρ c (Proc.devRef .tc main_v37) = Cert.ReferenceIdeal.Crf.pairwise (qAt m c 9) (cmOf m c) :=
  ((W29_arr m ρ c 2).trans (final18 (V28 m ρ) c)).trans (congrArg₂ Cert.ReferenceIdeal.Crf.pairwise (at28_q m ρ c) (at28_arg1 m ρ c))
theorem at30_arg0 (c : Dev nD) : W30 m ρ c (Proc.devRef .tc main_arg0) = uOf m c :=
  (hostOps19_keep _ main_arg0 (by decide)).trans (at29_arg0 m ρ c)
theorem at30_arg1 (c : Dev nD) : W30 m ρ c (Proc.devRef .tc main_arg1) = cmOf m c :=
  (hostOps19_keep _ main_arg1 (by decide)).trans (at29_arg1 m ρ c)
theorem at30_w0 (c : Dev nD) : W30 m ρ c (Proc.devRef .tc main_v0) = w0Of m c :=
  (hostOps19_keep _ main_v0 (by decide)).trans (at29_w0 m ρ c)
/-- The host stretch scales it by the weight. -/
theorem at30_sp (c : Dev nD) : W30 m ρ c (Proc.devRef .tc main_v39) = Cert.ReferenceIdeal.Crf.scaled (w0Of m c) (Cert.ReferenceIdeal.Crf.pairwise (qAt m c 9) (cmOf m c)) :=
  (hostOps19_v39 _).trans (congrArg₂ Cert.ReferenceIdeal.Crf.scaled (at29_w0 m ρ c) (at29_pw m ρ c))
theorem at31_arg0 (c : Dev nD) : W31 m ρ c (Proc.devRef .tc main_arg0) = uOf m c :=
  ((W31_arr m ρ c 0).trans (((dat19 (V30 m ρ) c).arrAt_in 0 rfl _).trans (A_eq19 (V30 m ρ) c 0))).trans (at30_arg0 m ρ c)
theorem at31_arg1 (c : Dev nD) : W31 m ρ c (Proc.devRef .tc main_arg1) = cmOf m c :=
  (W31_of_ne m ρ c main_arg1 (by decide)).trans (at30_arg1 m ρ c)
theorem at31_w0 (c : Dev nD) : W31 m ρ c (Proc.devRef .tc main_v0) = w0Of m c :=
  (W31_of_ne m ρ c main_v0 (by decide)).trans (at30_w0 m ρ c)
/-- The update call leaves the unary scores less the scaled term: one more step of the refinement. -/
theorem at31_q (c : Dev nD) : W31 m ρ c (Proc.devRef .tc main_v40) = qAt m c 10 :=
  ((W31_arr m ρ c 2).trans (final19 (V30 m ρ) c)).trans
    ((congrArg₂ G1 (at30_arg0 m ρ c) (at30_sp m ρ c)).trans
      ((step_eq_G1 (uOf m c) (cmOf m c) (w0Of m c) (qAt m c 9)).trans (Function.iterate_succ_apply' _ 9 _).symm))

/-! ## The result -/

/-- After the last update call the result buffer holds the specification's ten steps from the unary scores. -/
theorem W31_main_v40 (c : Dev nD) : W31 m ρ c (Proc.devRef .tc main_v40)
    = Cert.ReferenceIdeal.Crf.crf10 (F := Ideal) (m ((c.tc : Thread nD τ).loc main_arg0)) (m ((c.tc : Thread nD τ).loc main_arg1)) (m ((c.tc : Thread nD τ).loc main_arg2)) :=
  at31_q m ρ c

end Cert.KernelIdeal.Frame
-- ==== Proof.K.Red0Runs.lean ====
/-
  The reduce call (custom_call 0): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "this is the last proposal tile": the condition of the product's branch. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last proposal tile the body stores nothing into the output block, -/
theorem idleAt0_2 : ∀ t : Fin cfg0.N, ¬cond0_1 (grid0.coords t) → cfg0.idle 2 (grid0.coords t) = true := by decide +kernel
/-- and the block is not written back there. -/
theorem noFlush0_2 : ∀ t : Fin cfg0.N, ¬cond0_1 (grid0.coords t) → (cfg0.win 2).flush t = false := by decide +kernel
/-- At the last proposal tile it is stored. -/
theorem liveAt0_2 : ∀ t : Fin cfg0.N, cond0_1 (grid0.coords t) → cfg0.idle 2 (grid0.coords t) = false := by decide +kernel

/-! ## The memrefs the body is called with -/

abbrev VO0_2 : View sig .tc .vmem S8x601 .f32 := (Memref.whole cc0_stg2_0 : Memref sig .tc .vmem S8x601 .f32).view
abbrev ms0_0 (t : Fin cfg0.N) : Memref sig .tc .vmem S8x256x601 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S601x601 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x601 .f32 := win0_2.stage (cfg0.slots t 2)
abbrev hs0_2 (t : Fin cfg0.N) : (ms0_2 t).IsWhole := hstage0_2 ((cfg0.slots t 2).cast nbuf0_2)
/-- The carried maximum's buffer: a whole scoped buffer of the call's own. -/
abbrev scM0_0 : Memref sig .tc .vmem S8x601 .f32 := Memref.whole cc0_scratch0
abbrev VS0_0 : View sig .tc .vmem S8x601 .f32 := scM0_0.view

/-- The class invariant with the carried maximum's buffer taken out of the scoped rest: that buffer at some
    contents, every other scoped buffer unopened, the generator register at some state. -/
theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The input windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scores' staging buffer holds the point's block whenever the body runs, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- and so does the matrix's, fetched once: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Cert.Kernel.Frame

end
-- ==== Proof.K.Red0Run.lean ====
/-
  The reduce call's body (custom_call 0) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.K.Red0Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun0_A (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond0_0 i) (hc1 : ¬cond0_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc0__reduce_kernel i arg2 harg2 arg3 harg3 arg4 harg4 arg5 harg5) K } := by
  refine ⟨?_, fun E K => ?run⟩
  case run =>
    simp only [cc0__reduce_kernel_eq_skeleton]; unfold cc0__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun0_B (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : ¬cond0_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc0__reduce_kernel i arg2 harg2 arg3 harg3 arg4 harg4 arg5 harg5) K } := by
  refine ⟨?_, fun E K => ?run⟩
  case run =>
    simp only [cc0__reduce_kernel_eq_skeleton]; unfold cc0__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun0_C (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__reduce_kernel i arg2 harg2 arg3 harg3 arg4 harg4 arg5 harg5) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Red0.lean ====
/-
  The reduce call (custom_call 0) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.K.Red0Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover0_A_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond0_0 i) (hc1 : ¬cond0_1 i) (x0 : Vec F S8x256x601 .f32) (y : S8x601.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S8x601.size (by sl_kernel_rfl) y
/-- The carried buffer after a first proposal tile: its pieces read back. -/
def sout0_A_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond0_0 i) (hc1 : ¬cond0_1 i) (x0 : Vec F S8x256x601 .f32) : Vec F S8x601 .f32 :=
  VS0_0.read (Elt F) (VS0_0.writes (Elt F) VS0_0.junk (kernelRun0_A c i arg2 harg2 arg3 harg3 arg4 harg4 arg5 harg5 hc0 hc1 x0).1)

theorem scover0_B_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : ¬cond0_1 i) (x0 : Vec F S8x256x601 .f32) (xs0 : Vec F S8x601 .f32) (y : S8x601.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S8x601.size (by sl_kernel_rfl) y
/-- The carried buffer after an inner proposal tile. -/
def sout0_B_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : ¬cond0_1 i) (x0 : Vec F S8x256x601 .f32) (xs0 : Vec F S8x601 .f32) : Vec F S8x601 .f32 :=
  VS0_0.read (Elt F) (VS0_0.writes (Elt F) VS0_0.junk (kernelRun0_B c i arg2 harg2 arg3 harg3 arg4 harg4 arg5 harg5 hc0 hc1 x0 xs0).1)

theorem cover0_C_2 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i) (x0 : Vec F S8x256x601 .f32) (x1 : Vec F S601x601 .f32) (xs0 : Vec F S8x601 .f32) (y : S8x601.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S8x601.size (by sl_kernel_rfl) y
/-- The output block after a last proposal tile. -/
def out0_C_2 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i) (x0 : Vec F S8x256x601 .f32) (x1 : Vec F S601x601 .f32) (xs0 : Vec F S8x601 .f32) : Vec F S8x601 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i) (x0 : Vec F S8x256x601 .f32) (x1 : Vec F S601x601 .f32) (xs0 : Vec F S8x601 .f32) (y : S8x601.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S8x601.size (by sl_kernel_rfl) y
/-- The carried buffer after a last proposal tile. -/
def sout0_C_0 (c : Dev nD) (i : grid0.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond0_0 i) (hc1 : cond0_1 i) (x0 : Vec F S8x256x601 .f32) (x1 : Vec F S601x601 .f32) (xs0 : Vec F S8x601 .f32) : Vec F S8x601 .f32 :=
  VS0_0.read (Elt F) (VS0_0.writes (Elt F) VS0_0.junk (kernelRun0_C c i arg2 harg2 arg3 harg3 arg4 harg4 arg5 harg5 hc0 hc1 x0 x1 xs0).2.1)

/-- What stands for the output block where the body does not store it (nothing consults it there). -/
def idleOut0 : Vec F S8x601 .f32 := VO0_2.read (Elt F) VO0_2.junk

/-! ## The accumulation over the grid points -/

/-- After the body at position `n`: (the output block, the carried buffer). -/
def outsAt0 (c : Dev nD) : (n : ℕ) → n < cfg0.N → Vec F S8x601 .f32 × Vec F S8x601 .f32
  | 0, hn => (idleOut0, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (idleOut0, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleOut0, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleOut0, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    have hc1 : ¬cond0_1 (grid0.coords t) := fun h => h1 ((hcond0_1 t).mp h)
    rw [Dat.leavesExact_idle (dat0 V c) 2 t (idleAt0_2 t hc1) (noFlush0_2 t hc1)]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) hc1 (iblk0 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) hc1 (iblk0 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun e => h0 (by rw [e])
    by_cases h1 : t.val % 8 = 7
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t h0 h1]
      unfold out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ hc0 hc1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hc1 : ¬cond0_1 (grid0.coords t) := fun h => h1 ((hcond0_1 t).mp h)
      rw [Dat.leavesExact_idle (dat0 V c) 2 t (idleAt0_2 t hc1) (noFlush0_2 t hc1)]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ hc0 hc1 (iblk0 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: what the carried buffer holds is forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 32 := N_0; omega)

end Cert.Kernel.Frame

end
-- ==== Proof.K.Upd1.lean ====
/-
  The update step of the mean-field refinement (custom_call 1) as one region of the kernel program: what each
  window's staging buffer holds before and after the body at every grid point, the body's triple, and the body
  obligation the launch theorems ask for — at any float instance.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 1), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The unary scores' staging buffer holds their block at every point (it is fetched at every point), for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The pairwise term's staging buffer holds its block at every point, fetched there or not: its block index is the
    image tile alone, so while the proposal tile runs the index does not move and the buffer, which the body leaves
    as it found it, still holds the block fetched when the image tile began. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: whole buffers, through the rectangle at offset zero -/

theorem zeros1_2 : (![0, 0] : Fin 2 → Nat) = fun _ => 0 := funext fun a => by fin_cases a <;> rfl
theorem zeros1_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k1_pay1 x1 x0`. Each load is of a whole buffer, so it reads the contents;
    the one store is of the whole buffer, so whatever was there before, the buffer reads as the stored value. -/
theorem sound_kernel1 (c : Dev nD) (E : Set ℕ) (i : grid1.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 x1 x0)) -∗ K ⟨⟩))
      ⊢ wp frame (wpE (defs₀ (F := F)) Variants.none c none) E (cc1__update_kernel i arg2 harg2 arg3 harg3 arg4 harg4) K := by
  simp only [cc1__update_kernel_eq_skeleton]; unfold cc1__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros1_3 inb_S8x256x601_S8x256x601_0_0_0 y⟩),
    View.canon_unit_zero (S := S8x256x601) zeros1_3]
  simp only [View.readAt_eq_ld, View.ld_unit_zero (S := S8x601) zeros1_2, View.ld_unit_zero (S := S8x256x601) zeros1_3]

/-! ## The region's proof data -/

/-- The proof data on core `c`: the arrays as the region finds them; after the body at point `t` each input's buffer
    at its block and the output's at the scores' block minus the pairwise block; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 1 t) (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (iblk1 V c 1 t) (iblk1 V c 0 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The region's invariant is the class invariant itself, at the first point and after the last. -/
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

end Cert.Kernel.Frame
-- ==== Proof.K.Red2Runs.lean ====
/-
  The reduce call (custom_call 2): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "this is the last proposal tile": the condition of the product's branch. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last proposal tile the body stores nothing into the output block, -/
theorem idleAt2_2 : ∀ t : Fin cfg2.N, ¬cond2_1 (grid2.coords t) → cfg2.idle 2 (grid2.coords t) = true := by decide +kernel
/-- and the block is not written back there. -/
theorem noFlush2_2 : ∀ t : Fin cfg2.N, ¬cond2_1 (grid2.coords t) → (cfg2.win 2).flush t = false := by decide +kernel
/-- At the last proposal tile it is stored. -/
theorem liveAt2_2 : ∀ t : Fin cfg2.N, cond2_1 (grid2.coords t) → cfg2.idle 2 (grid2.coords t) = false := by decide +kernel

/-! ## The memrefs the body is called with -/

abbrev VO2_2 : View sig .tc .vmem S8x601 .f32 := (Memref.whole cc2_stg2_0 : Memref sig .tc .vmem S8x601 .f32).view
abbrev ms2_0 (t : Fin cfg2.N) : Memref sig .tc .vmem S8x256x601 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S601x601 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x601 .f32 := win2_2.stage (cfg2.slots t 2)
abbrev hs2_2 (t : Fin cfg2.N) : (ms2_2 t).IsWhole := hstage2_2 ((cfg2.slots t 2).cast nbuf2_2)
/-- The carried maximum's buffer: a whole scoped buffer of the call's own. -/
abbrev scM2_0 : Memref sig .tc .vmem S8x601 .f32 := Memref.whole cc2_scratch0
abbrev VS2_0 : View sig .tc .vmem S8x601 .f32 := scM2_0.view

/-- The class invariant with the carried maximum's buffer taken out of the scoped rest: that buffer at some
    contents, every other scoped buffer unopened, the generator register at some state. -/
theorem PhiA2_eq (c : Dev nD) :
    (Pipeline.ΦA spec2 c : sProp 𝕄)
      = iprop(iprop(iprop((∃ d, owns (c : Thread nD τ) scM2_0 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The input windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scores' staging buffer holds the point's block whenever the body runs, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- and so does the matrix's, fetched once: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Cert.Kernel.Frame

end
-- ==== Proof.K.Red2Run.lean ====
/-
  The reduce call's body (custom_call 2) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.K.Red2Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun2_A (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond2_0 i) (hc1 : ¬cond2_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc2__reduce_kernel i arg2 harg2 arg3 harg3 arg4 harg4 arg5 harg5) K } := by
  refine ⟨?_, fun E K => ?run⟩
  case run =>
    simp only [cc2__reduce_kernel_eq_skeleton]; unfold cc2__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun2_B (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : ¬cond2_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc2__reduce_kernel i arg2 harg2 arg3 harg3 arg4 harg4 arg5 harg5) K } := by
  refine ⟨?_, fun E K => ?run⟩
  case run =>
    simp only [cc2__reduce_kernel_eq_skeleton]; unfold cc2__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun2_C (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__reduce_kernel i arg2 harg2 arg3 harg3 arg4 harg4 arg5 harg5) K } := by
  refine ⟨?_, ?_, fun E K => ?run⟩
  case run =>
    simp only [cc2__reduce_kernel_eq_skeleton]; unfold cc2__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Red2.lean ====
/-
  The reduce call (custom_call 2) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.K.Red2Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover2_A_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond2_0 i) (hc1 : ¬cond2_1 i) (x0 : Vec F S8x256x601 .f32) (y : S8x601.Idx) :
    ∃ pc ∈ (kernelRun2_A c i arg2 harg2 arg3 harg3 arg4 harg4 arg5 harg5 hc0 hc1 x0).1, y ∈ pc.1.set :=
  View.cover_of_tiledL (kernelRun2_A c i arg2 harg2 arg3 harg3 arg4 harg4 arg5 harg5 hc0 hc1 x0).1 S8x601.size (by sl_kernel_rfl) y
/-- The carried buffer after a first proposal tile: its pieces read back. -/
def sout2_A_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond2_0 i) (hc1 : ¬cond2_1 i) (x0 : Vec F S8x256x601 .f32) : Vec F S8x601 .f32 :=
  VS2_0.read (Elt F) (VS2_0.writes (Elt F) VS2_0.junk (kernelRun2_A c i arg2 harg2 arg3 harg3 arg4 harg4 arg5 harg5 hc0 hc1 x0).1)

theorem scover2_B_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : ¬cond2_1 i) (x0 : Vec F S8x256x601 .f32) (xs0 : Vec F S8x601 .f32) (y : S8x601.Idx) :
    ∃ pc ∈ (kernelRun2_B c i arg2 harg2 arg3 harg3 arg4 harg4 arg5 harg5 hc0 hc1 x0 xs0).1, y ∈ pc.1.set :=
  View.cover_of_tiledL (kernelRun2_B c i arg2 harg2 arg3 harg3 arg4 harg4 arg5 harg5 hc0 hc1 x0 xs0).1 S8x601.size (by sl_kernel_rfl) y
/-- The carried buffer after an inner proposal tile. -/
def sout2_B_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : ¬cond2_1 i) (x0 : Vec F S8x256x601 .f32) (xs0 : Vec F S8x601 .f32) : Vec F S8x601 .f32 :=
  VS2_0.read (Elt F) (VS2_0.writes (Elt F) VS2_0.junk (kernelRun2_B c i arg2 harg2 arg3 harg3 arg4 harg4 arg5 harg5 hc0 hc1 x0 xs0).1)

theorem cover2_C_2 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i) (x0 : Vec F S8x256x601 .f32) (x1 : Vec F S601x601 .f32) (xs0 : Vec F S8x601 .f32) (y : S8x601.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S8x601.size (by sl_kernel_rfl) y
/-- The output block after a last proposal tile. -/
def out2_C_2 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i) (x0 : Vec F S8x256x601 .f32) (x1 : Vec F S601x601 .f32) (xs0 : Vec F S8x601 .f32) : Vec F S8x601 .f32 :=
  VO2_2.read (Elt F) (VO2_2.writes (Elt F) VO2_2.junk (kernelRun2_C c i arg2 harg2 arg3 harg3 arg4 harg4 arg5 harg5 hc0 hc1 x0 x1 xs0).1)
theorem scover2_C_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i) (x0 : Vec F S8x256x601 .f32) (x1 : Vec F S601x601 .f32) (xs0 : Vec F S8x601 .f32) (y : S8x601.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S8x601.size (by sl_kernel_rfl) y
/-- The carried buffer after a last proposal tile. -/
def sout2_C_0 (c : Dev nD) (i : grid2.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond2_0 i) (hc1 : cond2_1 i) (x0 : Vec F S8x256x601 .f32) (x1 : Vec F S601x601 .f32) (xs0 : Vec F S8x601 .f32) : Vec F S8x601 .f32 :=
  VS2_0.read (Elt F) (VS2_0.writes (Elt F) VS2_0.junk (kernelRun2_C c i arg2 harg2 arg3 harg3 arg4 harg4 arg5 harg5 hc0 hc1 x0 x1 xs0).2.1)

/-- What stands for the output block where the body does not store it (nothing consults it there). -/
def idleOut2 : Vec F S8x601 .f32 := VO2_2.read (Elt F) VO2_2.junk

/-! ## The accumulation over the grid points -/

/-- After the body at position `n`: (the output block, the carried buffer). -/
def outsAt2 (c : Dev nD) : (n : ℕ) → n < cfg2.N → Vec F S8x601 .f32 × Vec F S8x601 .f32
  | 0, hn => (idleOut2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩))
  | n + 1, hn =>
    if h0 : (n + 1) % 8 = 0 then
      if h1 : (n + 1) % 8 = 7 then
        False.elim (by omega)
      else
        (idleOut2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idleOut2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (idleOut2, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (idleOut2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 8 = 0
  · have h1 : ¬t.val % 8 = 7 := by omega
    have hc1 : ¬cond2_1 (grid2.coords t) := fun h => h1 ((hcond2_1 t).mp h)
    rw [Dat.leavesExact_idle (dat2 V c) 2 t (idleAt2_2 t hc1) (noFlush2_2 t hc1)]
    rw [outsAt2_A V c t h0 h1]
    unfold sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) hc1 (iblk2 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) hc1 (iblk2 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      iexists _; iexact H2
  · have hc0 : ¬cond2_0 (grid2.coords t) := fun h => h0 ((hcond2_0 t).mp h)
    have hz : t.val ≠ 0 := fun e => h0 (by rw [e])
    by_cases h1 : t.val % 8 = 7
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [outsAt2_C V c t h0 h1]
      unfold out2_C_2 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ hc0 hc1 (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · have hc1 : ¬cond2_1 (grid2.coords t) := fun h => h1 ((hcond2_1 t).mp h)
      rw [Dat.leavesExact_idle (dat2 V c) 2 t (idleAt2_2 t hc1) (noFlush2_2 t hc1)]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ hc0 hc1 (iblk2 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _)
          iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: what the carried buffer holds is forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ (Pipeline.ΦA spec2 c : sProp 𝕄) :=
  Phi_out2 V c _ (by rw [Fin.val_last]; have : cfg2.N = 32 := N_2; omega)

end Cert.Kernel.Frame

end
-- ==== Proof.K.Upd3.lean ====
/-
  The update step of the mean-field refinement (custom_call 3) as one region of the kernel program: what each
  window's staging buffer holds before and after the body at every grid point, the body's triple, and the body
  obligation the launch theorems ask for — at any float instance.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 3), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The unary scores' staging buffer holds their block at every point (it is fetched at every point), for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The pairwise term's staging buffer holds its block at every point, fetched there or not: its block index is the
    image tile alone, so while the proposal tile runs the index does not move and the buffer, which the body leaves
    as it found it, still holds the block fetched when the image tile began. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: whole buffers, through the rectangle at offset zero -/

theorem zeros3_2 : (![0, 0] : Fin 2 → Nat) = fun _ => 0 := funext fun a => by fin_cases a <;> rfl
theorem zeros3_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k3_pay1 x1 x0`. Each load is of a whole buffer, so it reads the contents;
    the one store is of the whole buffer, so whatever was there before, the buffer reads as the stored value. -/
theorem sound_kernel3 (c : Dev nD) (E : Set ℕ) (i : grid3.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k3_pay1 x1 x0)) -∗ K ⟨⟩))
      ⊢ wp frame (wpE (defs₀ (F := F)) Variants.none c none) E (cc3__update_kernel i arg2 harg2 arg3 harg3 arg4 harg4) K := by
  simp only [cc3__update_kernel_eq_skeleton]; unfold cc3__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros3_3 inb_S8x256x601_S8x256x601_0_0_0 y⟩),
    View.canon_unit_zero (S := S8x256x601) zeros3_3]
  simp only [View.readAt_eq_ld, View.ld_unit_zero (S := S8x601) zeros3_2, View.ld_unit_zero (S := S8x256x601) zeros3_3]

/-! ## The region's proof data -/

/-- The proof data on core `c`: the arrays as the region finds them; after the body at point `t` each input's buffer
    at its block and the output's at the scores' block minus the pairwise block; the invariant is the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 1 t) (iblk3 V c 0 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = k3_pay1 (iblk3 V c 1 t) (iblk3 V c 0 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The region's invariant is the class invariant itself, at the first point and after the last. -/
theorem hin3 (c : Dev nD) : (Pipeline.ΦA spec3 c : sProp 𝕄) ⊢ (dat3 V c).Φ 0 := .rfl
theorem hout3 (c : Dev nD) : (dat3 V c).Φ (Fin.last cfg3.N) ⊢ (Pipeline.ΦA spec3 c : sProp 𝕄) := .rfl

end Cert.Kernel.Frame
-- ==== Proof.K.Red4Runs.lean ====
/-
  The reduce call (custom_call 4): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)

/-- "this is the last proposal tile": the condition of the product's branch. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Away from the last proposal tile the body stores nothing into the output block, -/
theorem idleAt4_2 : ∀ t : Fin cfg4.N, ¬cond4_1 (grid4.coords t) → cfg4.idle 2 (grid4.coords t) = true := by decide +kernel
/-- and the block is not written back there. -/
theorem noFlush4_2 : ∀ t : Fin cfg4.N, ¬cond4_1 (grid4.coords t) → (cfg4.win 2).flush t = false := by decide +kernel
/-- At the last proposal tile it is stored. -/
theorem liveAt4_2 : ∀ t : Fin cfg4.N, cond4_1 (grid4.coords t) → cfg4.idle 2 (grid4.coords t) = false := by decide +kernel

/-! ## The memrefs the body is called with -/

abbrev VO4_2 : View sig .tc .vmem S8x601 .f32 := (Memref.whole cc4_stg2_0 : Memref sig .tc .vmem S8x601 .f32).view
abbrev ms4_0 (t : Fin cfg4.N) : Memref sig .tc .vmem S8x256x601 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S601x601 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S8x601 .f32 := win4_2.stage (cfg4.slots t 2)
abbrev hs4_2 (t : Fin cfg4.N) : (ms4_2 t).IsWhole := hstage4_2 ((cfg4.slots t 2).cast nbuf4_2)
/-- The carried maximum's buffer: a whole scoped buffer of the call's own. -/
abbrev scM4_0 : Memref sig .tc .vmem S8x601 .f32 := Memref.whole cc4_scratch0
abbrev VS4_0 : View sig .tc .vmem S8x601 .f32 := scM4_0.view

/-- The class invariant with the carried maximum's buffer taken out of the scoped rest: that buffer at some
    contents, every other scoped buffer unopened, the generator register at some state. -/
theorem PhiA4_eq (c : Dev nD) :
    (Pipeline.ΦA spec4 c : sProp 𝕄)
      = iprop(iprop(iprop((∃ d, owns (c : Thread nD τ) scM4_0 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The input windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scores' staging buffer holds the point's block whenever the body runs, -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- and so does the matrix's, fetched once: its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end Cert.Kernel.Frame

end
-- ==== Proof.K.Red4Run.lean ====
/-
  The reduce call's body (custom_call 4) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.K.Red4Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun4_A (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond4_0 i) (hc1 : ¬cond4_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc4__reduce_kernel i arg2 harg2 arg3 harg3 arg4 harg4 arg5 harg5) K } := by
  refine ⟨?_, fun E K => ?run⟩
  case run =>
    simp only [cc4__reduce_kernel_eq_skeleton]; unfold cc4__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun4_B (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : ¬cond4_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc4__reduce_kernel i arg2 harg2 arg3 harg3 arg4 harg4 arg5 harg5) K } := by
  refine ⟨?_, fun E K => ?run⟩
  case run =>
    simp only [cc4__reduce_kernel_eq_skeleton]; unfold cc4__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun4_C (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__reduce_kernel i arg2 harg2 arg3 harg3 arg4 harg4 arg5 harg5) K } := by
  refine ⟨?_, ?_, fun E K => ?run⟩
  case run =>
    simp only [cc4__reduce_kernel_eq_skeleton]; unfold cc4__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Red4.lean ====
/-
  The reduce call (custom_call 4) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.K.Red4Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover4_A_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond4_0 i) (hc1 : ¬cond4_1 i) (x0 : Vec F S8x256x601 .f32) (y : S8x601.Idx) :
    ∃ pc ∈ (kernelRun4_A c i arg2 harg2 arg3 harg3 arg4 harg4 arg5 harg5 hc0 hc1 x0).1, y ∈ pc.1.set :=
  View.cover_of_tiledL (kernelRun4_A c i arg2 harg2 arg3 harg3 arg4 harg4 arg5 harg5 hc0 hc1 x0).1 S8x601.size (by sl_kernel_rfl) y
/-- The carried buffer after a first proposal tile: its pieces read back. -/
def sout4_A_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond4_0 i) (hc1 : ¬cond4_1 i) (x0 : Vec F S8x256x601 .f32) : Vec F S8x601 .f32 :=
  VS4_0.read (Elt F) (VS4_0.writes (Elt F) VS4_0.junk (kernelRun4_A c i arg2 harg2 arg3 harg3 arg4 harg4 arg5 harg5 hc0 hc1 x0).1)

theorem scover4_B_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : ¬cond4_1 i) (x0 : Vec F S8x256x601 .f32) (xs0 : Vec F S8x601 .f32) (y : S8x601.Idx) :
    ∃ pc ∈ (kernelRun4_B c i arg2 harg2 arg3 harg3 arg4 harg4 arg5 harg5 hc0 hc1 x0 xs0).1, y ∈ pc.1.set :=
  View.cover_of_tiledL (kernelRun4_B c i arg2 harg2 arg3 harg3 arg4 harg4 arg5 harg5 hc0 hc1 x0 xs0).1 S8x601.size (by sl_kernel_rfl) y
/-- The carried buffer after an inner proposal tile. -/
def sout4_B_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : ¬cond4_1 i) (x0 : Vec F S8x256x601 .f32) (xs0 : Vec F S8x601 .f32) : Vec F S8x601 .f32 :=
  VS4_0.read (Elt F) (VS4_0.writes (Elt F) VS4_0.junk (kernelRun4_B c i arg2 harg2 arg3 harg3 arg4 harg4 arg5 harg5 hc0 hc1 x0 xs0).1)

theorem cover4_C_2 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i) (x0 : Vec F S8x256x601 .f32) (x1 : Vec F S601x601 .f32) (xs0 : Vec F S8x601 .f32) (y : S8x601.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S8x601.size (by sl_kernel_rfl) y
/-- The output block after a last proposal tile. -/
def out4_C_2 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i) (x0 : Vec F S8x256x601 .f32) (x1 : Vec F S601x601 .f32) (xs0 : Vec F S8x601 .f32) : Vec F S8x601 .f32 :=
  VO4_2.read (Elt F) (VO4_2.writes (Elt F) VO4_2.junk (kernelRun4_C c i arg2 harg2 arg3 harg3 arg4 harg4 arg5 harg5 hc0 hc1 x0 x1 xs0).1)
theorem scover4_C_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i) (x0 : Vec F S8x256x601 .f32) (x1 : Vec F S601x601 .f32) (xs0 : Vec F S8x601 .f32) (y : S8x601.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S8x601.size (by sl_kernel_rfl) y
/-- The carried buffer after a last proposal tile. -/
def sout4_C_0 (c : Dev nD) (i : grid4.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond4_0 i) (hc1 : cond4_1 i) (x0 : Vec F S8x256x601 .f32) (x1 : Vec F S601x601 .f32) (xs0 : Vec F S8x601 .f32) : Vec F S8x601 .f32 :=
  VS4_0.read (Elt F) (VS4_0.writes (Elt F) VS4_0.junk (kernelRun4_C c i arg2 harg2 arg3 harg3 arg4 harg4 arg5 harg5 hc0 hc1 x0 x1 xs0).2.1)

/-- What stands for the output block where the body does not store it (nothing consults it there). -/
def idleOut4 : Vec F S8x601 .f32 := VO4_2.read (Elt F) VO4_2.junk

/-! ## The accumulation over the grid points -/

/-- After the body at position `n`: (the output block, the carried buffer). -/
def outsAt4 (c : Dev nD) : (n : ℕ) → n < cfg4.N → Vec F S8x601 .f32 × Vec F S8x601 .f32
  | 0, hn => (idleOut4, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩))
  | n + 1, hn =>
    if h0 : (n + 1) % 8 = 0 then
      if h1 : (n + 1) % 8 = 7 then
        False.elim (by omega)
      else
        (idleOut4, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩))
    else
      if h1 : (n + 1) % 8 = 7 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2,
         sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (idleOut4, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (outsAt4 c n (Nat.lt_of_succ_lt hn)).2)

theorem outsAt4_A (c : Dev nD) (t : Fin cfg4.N) (h0 : t.val % 8 = 0) (h1 : ¬t.val % 8 = 7) :
    outsAt4 V c t.val t.isLt = (idleOut4, sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t)) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = (idleOut4, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 8 = 0
  · have h1 : ¬t.val % 8 = 7 := by omega
    have hc1 : ¬cond4_1 (grid4.coords t) := fun h => h1 ((hcond4_1 t).mp h)
    rw [Dat.leavesExact_idle (dat4 V c) 2 t (idleAt4_2 t hc1) (noFlush4_2 t hc1)]
    rw [outsAt4_A V c t h0 h1]
    unfold sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) hc1 (iblk4 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _)
          iexact HR
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_A c (grid4.coords t) _ _ _ _ _ _ _ _ ((hcond4_0 t).mpr h0) hc1 (iblk4 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _)
          iexact HR
        iexact Hg
      isplitl [Ho]; · iexact Ho
      isplitl [H0]; · iexact H0
      isplitl [H1]; · iexact H1
      iexists _; iexact H2
  · have hc0 : ¬cond4_0 (grid4.coords t) := fun h => h0 ((hcond4_0 t).mp h)
    have hz : t.val ≠ 0 := fun e => h0 (by rw [e])
    by_cases h1 : t.val % 8 = 7
    · have hc1 : cond4_1 (grid4.coords t) := (hcond4_1 t).mpr h1
      rw [show (dat4 V c).leavesExact 2 t = owns (c : Thread nD τ) (ms4_2 t) fullShare ((dat4 V c).after 2 t) from by
        unfold Dat.leavesExact; rw [liveAt4_2 t hc1], after4_2]
      rw [outsAt4_C V c t h0 h1]
      unfold out4_C_2 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_C c (grid4.coords t) _ _ _ _ _ _ _ _ hc0 hc1 (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · have hc1 : ¬cond4_1 (grid4.coords t) := fun h => h1 ((hcond4_1 t).mp h)
      rw [Dat.leavesExact_idle (dat4 V c) 2 t (idleAt4_2 t hc1) (noFlush4_2 t hc1)]
      rw [outsAt4_B V c t h0 h1]
      unfold sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_B c (grid4.coords t) _ _ _ _ _ _ _ _ hc0 hc1 (iblk4 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _)
          iexact HR
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: what the carried buffer holds is forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

theorem hout4 (c : Dev nD) : (dat4 V c).Φ (Fin.last cfg4.N) ⊢ (Pipeline.ΦA spec4 c : sProp 𝕄) :=
  Phi_out4 V c _ (by rw [Fin.val_last]; have : cfg4.N = 32 := N_4; omega)

end Cert.Kernel.Frame

end
-- ==== Proof.K.Upd5.lean ====
/-
  The update step of the mean-field refinement (custom_call 5) as one region of the kernel program: what each
  window's staging buffer holds before and after the body at every grid point, the body's triple, and the body
  obligation the launch theorems ask for — at any float instance.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 5), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The unary scores' staging buffer holds their block at every point (it is fetched at every point), for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The pairwise term's staging buffer holds its block at every point, fetched there or not: its block index is the
    image tile alone, so while the proposal tile runs the index does not move and the buffer, which the body leaves
    as it found it, still holds the block fetched when the image tile began. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: whole buffers, through the rectangle at offset zero -/

theorem zeros5_2 : (![0, 0] : Fin 2 → Nat) = fun _ => 0 := funext fun a => by fin_cases a <;> rfl
theorem zeros5_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k5_pay1 x1 x0`. Each load is of a whole buffer, so it reads the contents;
    the one store is of the whole buffer, so whatever was there before, the buffer reads as the stored value. -/
theorem sound_kernel5 (c : Dev nD) (E : Set ℕ) (i : grid5.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k5_pay1 x1 x0)) -∗ K ⟨⟩))
      ⊢ wp frame (wpE (defs₀ (F := F)) Variants.none c none) E (cc5__update_kernel i arg2 harg2 arg3 harg3 arg4 harg4) K := by
  simp only [cc5__update_kernel_eq_skeleton]; unfold cc5__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros5_3 inb_S8x256x601_S8x256x601_0_0_0 y⟩),
    View.canon_unit_zero (S := S8x256x601) zeros5_3]
  simp only [View.readAt_eq_ld, View.ld_unit_zero (S := S8x601) zeros5_2, View.ld_unit_zero (S := S8x256x601) zeros5_3]

/-! ## The region's proof data -/

/-- The proof data on core `c`: the arrays as the region finds them; after the body at point `t` each input's buffer
    at its block and the output's at the scores' block minus the pairwise block; the invariant is the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay1 (iblk5 V c 1 t) (iblk5 V c 0 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = k5_pay1 (iblk5 V c 1 t) (iblk5 V c 0 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- The region's invariant is the class invariant itself, at the first point and after the last. -/
theorem hin5 (c : Dev nD) : (Pipeline.ΦA spec5 c : sProp 𝕄) ⊢ (dat5 V c).Φ 0 := .rfl
theorem hout5 (c : Dev nD) : (dat5 V c).Φ (Fin.last cfg5.N) ⊢ (Pipeline.ΦA spec5 c : sProp 𝕄) := .rfl

end Cert.Kernel.Frame
-- ==== Proof.K.Red6Runs.lean ====
/-
  The reduce call (custom_call 6): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 8 = 0 :=
  (by decide +kernel : ∀ t : Fin grid6.N, cond6_0 (grid6.coords t) ↔ t.val % 8 = 0)

/-- "this is the last proposal tile": the condition of the product's branch. -/
abbrev cond6_1 (i : grid6.Coords) : Prop := k6_cond2 i = 1#1
theorem hcond6_1 : ∀ t : Fin cfg6.N, cond6_1 (grid6.coords t) ↔ t.val % 8 = 7 :=
  (by decide +kernel : ∀ t : Fin grid6.N, cond6_1 (grid6.coords t) ↔ t.val % 8 = 7)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
/-- Away from the last proposal tile the body stores nothing into the output block, -/
theorem idleAt6_2 : ∀ t : Fin cfg6.N, ¬cond6_1 (grid6.coords t) → cfg6.idle 2 (grid6.coords t) = true := by decide +kernel
/-- and the block is not written back there. -/
theorem noFlush6_2 : ∀ t : Fin cfg6.N, ¬cond6_1 (grid6.coords t) → (cfg6.win 2).flush t = false := by decide +kernel
/-- At the last proposal tile it is stored. -/
theorem liveAt6_2 : ∀ t : Fin cfg6.N, cond6_1 (grid6.coords t) → cfg6.idle 2 (grid6.coords t) = false := by decide +kernel

/-! ## The memrefs the body is called with -/

abbrev VO6_2 : View sig .tc .vmem S8x601 .f32 := (Memref.whole cc6_stg2_0 : Memref sig .tc .vmem S8x601 .f32).view
abbrev ms6_0 (t : Fin cfg6.N) : Memref sig .tc .vmem S8x256x601 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S601x601 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S8x601 .f32 := win6_2.stage (cfg6.slots t 2)
abbrev hs6_2 (t : Fin cfg6.N) : (ms6_2 t).IsWhole := hstage6_2 ((cfg6.slots t 2).cast nbuf6_2)
/-- The carried maximum's buffer: a whole scoped buffer of the call's own. -/
abbrev scM6_0 : Memref sig .tc .vmem S8x601 .f32 := Memref.whole cc6_scratch0
abbrev VS6_0 : View sig .tc .vmem S8x601 .f32 := scM6_0.view

/-- The class invariant with the carried maximum's buffer taken out of the scoped rest: that buffer at some
    contents, every other scoped buffer unopened, the generator register at some state. -/
theorem PhiA6_eq (c : Dev nD) :
    (Pipeline.ΦA spec6 c : sProp 𝕄)
      = iprop(iprop(iprop((∃ d, owns (c : Thread nD τ) scM6_0 fullShare d)) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

/-! ## The input windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The scores' staging buffer holds the point's block whenever the body runs, -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- and so does the matrix's, fetched once: its block index never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

end Cert.Kernel.Frame

end
-- ==== Proof.K.Red6Run.lean ====
/-
  The reduce call's body (custom_call 6) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.K.Red6Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun6_A (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond6_0 i) (hc1 : ¬cond6_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc6__reduce_kernel i arg2 harg2 arg3 harg3 arg4 harg4 arg5 harg5) K } := by
  refine ⟨?_, fun E K => ?run⟩
  case run =>
    simp only [cc6__reduce_kernel_eq_skeleton]; unfold cc6__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun6_B (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : ¬cond6_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc6__reduce_kernel i arg2 harg2 arg3 harg3 arg4 harg4 arg5 harg5) K } := by
  refine ⟨?_, fun E K => ?run⟩
  case run =>
    simp only [cc6__reduce_kernel_eq_skeleton]; unfold cc6__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun6_C (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc6__reduce_kernel i arg2 harg2 arg3 harg3 arg4 harg4 arg5 harg5) K } := by
  refine ⟨?_, ?_, fun E K => ?run⟩
  case run =>
    simp only [cc6__reduce_kernel_eq_skeleton]; unfold cc6__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Red6.lean ====
/-
  The reduce call (custom_call 6) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.K.Red6Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover6_A_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond6_0 i) (hc1 : ¬cond6_1 i) (x0 : Vec F S8x256x601 .f32) (y : S8x601.Idx) :
    ∃ pc ∈ (kernelRun6_A c i arg2 harg2 arg3 harg3 arg4 harg4 arg5 harg5 hc0 hc1 x0).1, y ∈ pc.1.set :=
  View.cover_of_tiledL (kernelRun6_A c i arg2 harg2 arg3 harg3 arg4 harg4 arg5 harg5 hc0 hc1 x0).1 S8x601.size (by sl_kernel_rfl) y
/-- The carried buffer after a first proposal tile: its pieces read back. -/
def sout6_A_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond6_0 i) (hc1 : ¬cond6_1 i) (x0 : Vec F S8x256x601 .f32) : Vec F S8x601 .f32 :=
  VS6_0.read (Elt F) (VS6_0.writes (Elt F) VS6_0.junk (kernelRun6_A c i arg2 harg2 arg3 harg3 arg4 harg4 arg5 harg5 hc0 hc1 x0).1)

theorem scover6_B_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : ¬cond6_1 i) (x0 : Vec F S8x256x601 .f32) (xs0 : Vec F S8x601 .f32) (y : S8x601.Idx) :
    ∃ pc ∈ (kernelRun6_B c i arg2 harg2 arg3 harg3 arg4 harg4 arg5 harg5 hc0 hc1 x0 xs0).1, y ∈ pc.1.set :=
  View.cover_of_tiledL (kernelRun6_B c i arg2 harg2 arg3 harg3 arg4 harg4 arg5 harg5 hc0 hc1 x0 xs0).1 S8x601.size (by sl_kernel_rfl) y
/-- The carried buffer after an inner proposal tile. -/
def sout6_B_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : ¬cond6_1 i) (x0 : Vec F S8x256x601 .f32) (xs0 : Vec F S8x601 .f32) : Vec F S8x601 .f32 :=
  VS6_0.read (Elt F) (VS6_0.writes (Elt F) VS6_0.junk (kernelRun6_B c i arg2 harg2 arg3 harg3 arg4 harg4 arg5 harg5 hc0 hc1 x0 xs0).1)

theorem cover6_C_2 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i) (x0 : Vec F S8x256x601 .f32) (x1 : Vec F S601x601 .f32) (xs0 : Vec F S8x601 .f32) (y : S8x601.Idx) :
    ∃ pc ∈ (kernelRun6_C c i arg2 harg2 arg3 harg3 arg4 harg4 arg5 harg5 hc0 hc1 x0 x1 xs0).1, y ∈ pc.1.set :=
  View.cover_of_tiledL (kernelRun6_C c i arg2 harg2 arg3 harg3 arg4 harg4 arg5 harg5 hc0 hc1 x0 x1 xs0).1 S8x601.size (by sl_kernel_rfl) y
/-- The output block after a last proposal tile. -/
def out6_C_2 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i) (x0 : Vec F S8x256x601 .f32) (x1 : Vec F S601x601 .f32) (xs0 : Vec F S8x601 .f32) : Vec F S8x601 .f32 :=
  VO6_2.read (Elt F) (VO6_2.writes (Elt F) VO6_2.junk (kernelRun6_C c i arg2 harg2 arg3 harg3 arg4 harg4 arg5 harg5 hc0 hc1 x0 x1 xs0).1)
theorem scover6_C_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i) (x0 : Vec F S8x256x601 .f32) (x1 : Vec F S601x601 .f32) (xs0 : Vec F S8x601 .f32) (y : S8x601.Idx) :
    ∃ pc ∈ (kernelRun6_C c i arg2 harg2 arg3 harg3 arg4 harg4 arg5 harg5 hc0 hc1 x0 x1 xs0).2.1, y ∈ pc.1.set :=
  View.cover_of_tiledL (kernelRun6_C c i arg2 harg2 arg3 harg3 arg4 harg4 arg5 harg5 hc0 hc1 x0 x1 xs0).2.1 S8x601.size (by sl_kernel_rfl) y
/-- The carried buffer after a last proposal tile. -/
def sout6_C_0 (c : Dev nD) (i : grid6.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond6_0 i) (hc1 : cond6_1 i) (x0 : Vec F S8x256x601 .f32) (x1 : Vec F S601x601 .f32) (xs0 : Vec F S8x601 .f32) : Vec F S8x601 .f32 :=
  VS6_0.read (Elt F) (VS6_0.writes (Elt F) VS6_0.junk (kernelRun6_C c i arg2 harg2 arg3 harg3 arg4 harg4 arg5 harg5 hc0 hc1 x0 x1 xs0).2.1)

/-- What stands for the output block where the body does not store it (nothing consults it there). -/
def idleOut6 : Vec F S8x601 .f32 := VO6_2.read (Elt F) VO6_2.junk

/-! ## The accumulation over the grid points -/

/-- After the body at position `n`: (the output block, the carried buffer). -/
def outsAt6 (c : Dev nD) : (n : ℕ) → n < cfg6.N → Vec F S8x601 .f32 × Vec F S8x601 .f32
  | 0, hn => (idleOut6, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩))
  | n + 1, hn =>
    if h0 : (n + 1) % 8 = 0 then
      if h1 : (n + 1) % 8 = 7 then
        False.elim (by omega)
      else
        (idleOut6, sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩))
    else
      if h1 : (n + 1) % 8 = 7 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2,
         sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2)
      else
        (idleOut6, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (outsAt6 c n (Nat.lt_of_succ_lt hn)).2)

theorem outsAt6_A (c : Dev nD) (t : Fin cfg6.N) (h0 : t.val % 8 = 0) (h1 : ¬t.val % 8 = 7) :
    outsAt6 V c t.val t.isLt = (idleOut6, sout6_A_0 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t)) := by
  obtain ⟨n, hn⟩ := t
  cases n with
  | zero => exact rfl
  | succ n => exact (dif_pos h0).trans ((dif_neg h1).trans rfl)

theorem outsAt6_B (c : Dev nD) (t : Fin cfg6.N) (h0 : ¬t.val % 8 = 0) (h1 : ¬t.val % 8 = 7) :
    outsAt6 V c t.val t.isLt = (idleOut6, sout6_B_0 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 8 = 0) (h1 : t.val % 8 = 7) :
    outsAt6 V c t.val t.isLt = (out6_C_2 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2,
      sout6_C_0 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(owns (c : Thread nD τ) scM6_0 fullShare ((outsAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The proof data -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 32 := lt_of_lt_of_eq t.isLt (show cfg6.N = 32 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  by_cases h0 : t.val % 8 = 0
  · have h1 : ¬t.val % 8 = 7 := by omega
    have hc1 : ¬cond6_1 (grid6.coords t) := fun h => h1 ((hcond6_1 t).mp h)
    rw [Dat.leavesExact_idle (dat6 V c) 2 t (idleAt6_2 t hc1) (noFlush6_2 t hc1)]
    rw [outsAt6_A V c t h0 h1]
    unfold sout6_A_0; (try dsimp only)
    by_cases hz : t.val = 0
    · rw [PhiS6_castSucc V c t, PhiS6_zero V c _ _ hz, PhiA6_eq]
      iintro ⟨⟨⟨HS0, HR⟩, Hg⟩, Ho, ⟨%d0, H0⟩, ⟨%d1, H1⟩, ⟨%d2, H2⟩⟩
      iapply ((kernelRun6_A c (grid6.coords t) _ _ _ _ _ _ _ _ ((hcond6_0 t).mpr h0) hc1 (iblk6 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _)
          iexact HR
        iexact Hg
      isplitl [Ho]; · iexact Ho
      isplitl [H0]; · iexact H0
      isplitl [H1]; · iexact H1
      iexists _; iexact H2
    · rw [PhiS6_castSucc V c t, PhiS6_pos V c _ _ hz]
      iintro ⟨⟨⟨HS0, HR⟩, Hg⟩, Ho, ⟨%d0, H0⟩, ⟨%d1, H1⟩, ⟨%d2, H2⟩⟩
      iapply ((kernelRun6_A c (grid6.coords t) _ _ _ _ _ _ _ _ ((hcond6_0 t).mpr h0) hc1 (iblk6 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _)
          iexact HR
        iexact Hg
      isplitl [Ho]; · iexact Ho
      isplitl [H0]; · iexact H0
      isplitl [H1]; · iexact H1
      iexists _; iexact H2
  · have hc0 : ¬cond6_0 (grid6.coords t) := fun h => h0 ((hcond6_0 t).mp h)
    have hz : t.val ≠ 0 := fun e => h0 (by rw [e])
    by_cases h1 : t.val % 8 = 7
    · have hc1 : cond6_1 (grid6.coords t) := (hcond6_1 t).mpr h1
      rw [show (dat6 V c).leavesExact 2 t = owns (c : Thread nD τ) (ms6_2 t) fullShare ((dat6 V c).after 2 t) from by
        unfold Dat.leavesExact; rw [liveAt6_2 t hc1], after6_2]
      rw [outsAt6_C V c t h0 h1]
      unfold out6_C_2 sout6_C_0; (try dsimp only)
      rw [PhiS6_castSucc V c t, PhiS6_pos V c _ _ hz]
      iintro ⟨⟨⟨HS0, HR⟩, Hg⟩, Ho, ⟨%d0, H0⟩, ⟨%d1, H1⟩, ⟨%d2, H2⟩⟩
      iapply ((kernelRun6_C c (grid6.coords t) _ _ _ _ _ _ _ _ hc0 hc1 (iblk6 V c 0 t) (iblk6 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover6_C_2 c _ _ _ _ _ _ _ _ _ _ _ _ _ _)
    · have hc1 : ¬cond6_1 (grid6.coords t) := fun h => h1 ((hcond6_1 t).mp h)
      rw [Dat.leavesExact_idle (dat6 V c) 2 t (idleAt6_2 t hc1) (noFlush6_2 t hc1)]
      rw [outsAt6_B V c t h0 h1]
      unfold sout6_B_0; (try dsimp only)
      rw [PhiS6_castSucc V c t, PhiS6_pos V c _ _ hz]
      iintro ⟨⟨⟨HS0, HR⟩, Hg⟩, Ho, ⟨%d0, H0⟩, ⟨%d1, H1⟩, ⟨%d2, H2⟩⟩
      iapply ((kernelRun6_B c (grid6.coords t) _ _ _ _ _ _ _ _ hc0 hc1 (iblk6 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_B_0 c _ _ _ _ _ _ _ _ _ _ _ _ _)
          iexact HR
        iexact Hg
      isplitl [Ho]; · iexact Ho
      isplitl [H0]; · iexact H0
      isplitl [H1]; · iexact H1
      iexists _; iexact H2

theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: what the carried buffer holds is forgotten. -/
theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

theorem hout6 (c : Dev nD) : (dat6 V c).Φ (Fin.last cfg6.N) ⊢ (Pipeline.ΦA spec6 c : sProp 𝕄) :=
  Phi_out6 V c _ (by rw [Fin.val_last]; have : cfg6.N = 32 := N_6; omega)

end Cert.Kernel.Frame

end
-- ==== Proof.K.Upd7.lean ====
/-
  The update step of the mean-field refinement (custom_call 7) as one region of the kernel program: what each
  window's staging buffer holds before and after the body at every grid point, the body's triple, and the body
  obligation the launch theorems ask for — at any float instance.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 7), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The unary scores' staging buffer holds their block at every point (it is fetched at every point), for any proof
    data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The pairwise term's staging buffer holds its block at every point, fetched there or not: its block index is the
    image tile alone, so while the proposal tile runs the index does not move and the buffer, which the body leaves
    as it found it, still holds the block fetched when the image tile began. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: whole buffers, through the rectangle at offset zero -/

theorem zeros7_2 : (![0, 0] : Fin 2 → Nat) = fun _ => 0 := funext fun a => by fin_cases a <;> rfl
theorem zeros7_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k7_pay1 x1 x0`. Each load is of a whole buffer, so it reads the contents;
    the one store is of the whole buffer, so whatever was there before, the buffer reads as the stored value. -/
theorem sound_kernel7 (c : Dev nD) (E : Set ℕ) (i : grid7.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k7_pay1 x1 x0)) -∗ K ⟨⟩))
      ⊢ wp frame (wpE (defs₀ (F := F)) Variants.none c none) E (cc7__update_kernel i arg2 harg2 arg3 harg3 arg4 harg4) K := by
  simp only [cc7__update_kernel_eq_skeleton]; unfold cc7__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros7_3 inb_S8x256x601_S8x256x601_0_0_0 y⟩),
    View.canon_unit_zero (S := S8x256x601) zeros7_3]
  simp only [View.readAt_eq_ld, View.ld_unit_zero (S := S8x601) zeros7_2, View.ld_unit_zero (S := S8x256x601) zeros7_3]

/-! ## The region's proof data -/

/-- The proof data on core `c`: the arrays as the region finds them; after the body at point `t` each input's buffer
    at its block and the output's at the scores' block minus the pairwise block; the invariant is the scoped rest and
    the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay1 (iblk7 V c 1 t) (iblk7 V c 0 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = k7_pay1 (iblk7 V c 1 t) (iblk7 V c 0 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so the body's triple applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- The region's invariant is the class invariant itself, at the first point and after the last. -/
theorem hin7 (c : Dev nD) : (Pipeline.ΦA spec7 c : sProp 𝕄) ⊢ (dat7 V c).Φ 0 := .rfl
theorem hout7 (c : Dev nD) : (dat7 V c).Φ (Fin.last cfg7.N) ⊢ (Pipeline.ΦA spec7 c : sProp 𝕄) := .rfl

end Cert.Kernel.Frame
-- ==== Proof.K.Red8Runs.lean ====
/-
  The reduce call (custom_call 8): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond8_0 (i : grid8.Coords) : Prop := (Scalar.cmpi .ne (Scalar.extui (Scalar.cmpi .eq (BitVec.ofNat 32 (i 1).val) 0#32)) 0#32) = 1#1
theorem hcond8_0 : ∀ t : Fin cfg8.N, cond8_0 (grid8.coords t) ↔ t.val % 8 = 0 :=
  (by decide +kernel : ∀ t : Fin grid8.N, cond8_0 (grid8.coords t) ↔ t.val % 8 = 0)

/-- "this is the last proposal tile": the condition of the product's branch. -/
abbrev cond8_1 (i : grid8.Coords) : Prop := k8_cond2 i = 1#1
theorem hcond8_1 : ∀ t : Fin cfg8.N, cond8_1 (grid8.coords t) ↔ t.val % 8 = 7 :=
  (by decide +kernel : ∀ t : Fin grid8.N, cond8_1 (grid8.coords t) ↔ t.val % 8 = 7)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
/-- Away from the last proposal tile the body stores nothing into the output block, -/
theorem idleAt8_2 : ∀ t : Fin cfg8.N, ¬cond8_1 (grid8.coords t) → cfg8.idle 2 (grid8.coords t) = true := by decide +kernel
/-- and the block is not written back there. -/
theorem noFlush8_2 : ∀ t : Fin cfg8.N, ¬cond8_1 (grid8.coords t) → (cfg8.win 2).flush t = false := by decide +kernel
/-- At the last proposal tile it is stored. -/
theorem liveAt8_2 : ∀ t : Fin cfg8.N, cond8_1 (grid8.coords t) → cfg8.idle 2 (grid8.coords t) = false := by decide +kernel

/-! ## The memrefs the body is called with -/

abbrev VO8_2 : View sig .tc .vmem S8x601 .f32 := (Memref.whole cc8_stg2_0 : Memref sig .tc .vmem S8x601 .f32).view
abbrev ms8_0 (t : Fin cfg8.N) : Memref sig .tc .vmem S8x256x601 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S601x601 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S8x601 .f32 := win8_2.stage (cfg8.slots t 2)
abbrev hs8_2 (t : Fin cfg8.N) : (ms8_2 t).IsWhole := hstage8_2 ((cfg8.slots t 2).cast nbuf8_2)
/-- The carried maximum's buffer: a whole scoped buffer of the call's own. -/
abbrev scM8_0 : Memref sig .tc .vmem S8x601 .f32 := Memref.whole cc8_scratch0
abbrev VS8_0 : View sig .tc .vmem S8x601 .f32 := scM8_0.view

/-- The class invariant with the carried maximum's buffer taken out of the scoped rest: that buffer at some
    contents, every other scoped buffer unopened, the generator register at some state. -/
theorem PhiA8_eq (c : Dev nD) :
    (Pipeline.ΦA spec8 c : sProp 𝕄)
      = iprop(iprop(iprop((∃ d, owns (c : Thread nD τ) scM8_0 fullShare d)) ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

/-! ## The input windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The scores' staging buffer holds the point's block whenever the body runs, -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- and so does the matrix's, fetched once: its block index never moves. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

end Cert.Kernel.Frame

end
-- ==== Proof.K.Red8Run.lean ====
/-
  The reduce call's body (custom_call 8) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.K.Red8Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun8_A (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond8_0 i) (hc1 : ¬cond8_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc8__reduce_kernel i arg2 harg2 arg3 harg3 arg4 harg4 arg5 harg5) K } := by
  refine ⟨?_, fun E K => ?run⟩
  case run =>
    simp only [cc8__reduce_kernel_eq_skeleton]; unfold cc8__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun8_B (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : ¬cond8_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc8__reduce_kernel i arg2 harg2 arg3 harg3 arg4 harg4 arg5 harg5) K } := by
  refine ⟨?_, fun E K => ?run⟩
  case run =>
    simp only [cc8__reduce_kernel_eq_skeleton]; unfold cc8__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun8_C (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc8__reduce_kernel i arg2 harg2 arg3 harg3 arg4 harg4 arg5 harg5) K } := by
  refine ⟨?_, ?_, fun E K => ?run⟩
  case run =>
    simp only [cc8__reduce_kernel_eq_skeleton]; unfold cc8__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Red8.lean ====
/-
  The reduce call (custom_call 8) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.K.Red8Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover8_A_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond8_0 i) (hc1 : ¬cond8_1 i) (x0 : Vec F S8x256x601 .f32) (y : S8x601.Idx) :
    ∃ pc ∈ (kernelRun8_A c i arg2 harg2 arg3 harg3 arg4 harg4 arg5 harg5 hc0 hc1 x0).1, y ∈ pc.1.set :=
  View.cover_of_tiledL (kernelRun8_A c i arg2 harg2 arg3 harg3 arg4 harg4 arg5 harg5 hc0 hc1 x0).1 S8x601.size (by sl_kernel_rfl) y
/-- The carried buffer after a first proposal tile: its pieces read back. -/
def sout8_A_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond8_0 i) (hc1 : ¬cond8_1 i) (x0 : Vec F S8x256x601 .f32) : Vec F S8x601 .f32 :=
  VS8_0.read (Elt F) (VS8_0.writes (Elt F) VS8_0.junk (kernelRun8_A c i arg2 harg2 arg3 harg3 arg4 harg4 arg5 harg5 hc0 hc1 x0).1)

theorem scover8_B_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : ¬cond8_1 i) (x0 : Vec F S8x256x601 .f32) (xs0 : Vec F S8x601 .f32) (y : S8x601.Idx) :
    ∃ pc ∈ (kernelRun8_B c i arg2 harg2 arg3 harg3 arg4 harg4 arg5 harg5 hc0 hc1 x0 xs0).1, y ∈ pc.1.set :=
  View.cover_of_tiledL (kernelRun8_B c i arg2 harg2 arg3 harg3 arg4 harg4 arg5 harg5 hc0 hc1 x0 xs0).1 S8x601.size (by sl_kernel_rfl) y
/-- The carried buffer after an inner proposal tile. -/
def sout8_B_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : ¬cond8_1 i) (x0 : Vec F S8x256x601 .f32) (xs0 : Vec F S8x601 .f32) : Vec F S8x601 .f32 :=
  VS8_0.read (Elt F) (VS8_0.writes (Elt F) VS8_0.junk (kernelRun8_B c i arg2 harg2 arg3 harg3 arg4 harg4 arg5 harg5 hc0 hc1 x0 xs0).1)

theorem cover8_C_2 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i) (x0 : Vec F S8x256x601 .f32) (x1 : Vec F S601x601 .f32) (xs0 : Vec F S8x601 .f32) (y : S8x601.Idx) :
    ∃ pc ∈ (kernelRun8_C c i arg2 harg2 arg3 harg3 arg4 harg4 arg5 harg5 hc0 hc1 x0 x1 xs0).1, y ∈ pc.1.set :=
  View.cover_of_tiledL (kernelRun8_C c i arg2 harg2 arg3 harg3 arg4 harg4 arg5 harg5 hc0 hc1 x0 x1 xs0).1 S8x601.size (by sl_kernel_rfl) y
/-- The output block after a last proposal tile. -/
def out8_C_2 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i) (x0 : Vec F S8x256x601 .f32) (x1 : Vec F S601x601 .f32) (xs0 : Vec F S8x601 .f32) : Vec F S8x601 .f32 :=
  VO8_2.read (Elt F) (VO8_2.writes (Elt F) VO8_2.junk (kernelRun8_C c i arg2 harg2 arg3 harg3 arg4 harg4 arg5 harg5 hc0 hc1 x0 x1 xs0).1)
theorem scover8_C_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i) (x0 : Vec F S8x256x601 .f32) (x1 : Vec F S601x601 .f32) (xs0 : Vec F S8x601 .f32) (y : S8x601.Idx) :
    ∃ pc ∈ (kernelRun8_C c i arg2 harg2 arg3 harg3 arg4 harg4 arg5 harg5 hc0 hc1 x0 x1 xs0).2.1, y ∈ pc.1.set :=
  View.cover_of_tiledL (kernelRun8_C c i arg2 harg2 arg3 harg3 arg4 harg4 arg5 harg5 hc0 hc1 x0 x1 xs0).2.1 S8x601.size (by sl_kernel_rfl) y
/-- The carried buffer after a last proposal tile. -/
def sout8_C_0 (c : Dev nD) (i : grid8.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond8_0 i) (hc1 : cond8_1 i) (x0 : Vec F S8x256x601 .f32) (x1 : Vec F S601x601 .f32) (xs0 : Vec F S8x601 .f32) : Vec F S8x601 .f32 :=
  VS8_0.read (Elt F) (VS8_0.writes (Elt F) VS8_0.junk (kernelRun8_C c i arg2 harg2 arg3 harg3 arg4 harg4 arg5 harg5 hc0 hc1 x0 x1 xs0).2.1)

/-- What stands for the output block where the body does not store it (nothing consults it there). -/
def idleOut8 : Vec F S8x601 .f32 := VO8_2.read (Elt F) VO8_2.junk

/-! ## The accumulation over the grid points -/

/-- After the body at position `n`: (the output block, the carried buffer). -/
def outsAt8 (c : Dev nD) : (n : ℕ) → n < cfg8.N → Vec F S8x601 .f32 × Vec F S8x601 .f32
  | 0, hn => (idleOut8, sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩))
  | n + 1, hn =>
    if h0 : (n + 1) % 8 = 0 then
      if h1 : (n + 1) % 8 = 7 then
        False.elim (by omega)
      else
        (idleOut8, sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩))
    else
      if h1 : (n + 1) % 8 = 7 then
        (out8_C_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2,
         sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2)
      else
        (idleOut8, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (outsAt8 c n (Nat.lt_of_succ_lt hn)).2)

theorem outsAt8_A (c : Dev nD) (t : Fin cfg8.N) (h0 : t.val % 8 = 0) (h1 : ¬t.val % 8 = 7) :
    outsAt8 V c t.val t.isLt = (idleOut8, sout8_A_0 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t)) := by
  obtain ⟨n, hn⟩ := t
  cases n with
  | zero => exact rfl
  | succ n => exact (dif_pos h0).trans ((dif_neg h1).trans rfl)

theorem outsAt8_B (c : Dev nD) (t : Fin cfg8.N) (h0 : ¬t.val % 8 = 0) (h1 : ¬t.val % 8 = 7) :
    outsAt8 V c t.val t.isLt = (idleOut8, sout8_B_0 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt8_C (c : Dev nD) (t : Fin cfg8.N) (h0 : ¬t.val % 8 = 0) (h1 : t.val % 8 = 7) :
    outsAt8 V c t.val t.isLt = (out8_C_2 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2,
      sout8_C_0 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r)) := rfl
theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation -/

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 32 := lt_of_lt_of_eq t.isLt (show cfg8.N = 32 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  by_cases h0 : t.val % 8 = 0
  · have h1 : ¬t.val % 8 = 7 := by omega
    have hc1 : ¬cond8_1 (grid8.coords t) := fun h => h1 ((hcond8_1 t).mp h)
    rw [Dat.leavesExact_idle (dat8 V c) 2 t (idleAt8_2 t hc1) (noFlush8_2 t hc1)]
    rw [outsAt8_A V c t h0 h1]
    unfold sout8_A_0; (try dsimp only)
    by_cases hz : t.val = 0
    · rw [PhiS8_castSucc V c t, PhiS8_zero V c _ _ hz, PhiA8_eq]
      iintro ⟨⟨⟨HS0, HR⟩, Hg⟩, Ho, ⟨%d0, H0⟩, ⟨%d1, H1⟩, ⟨%d2, H2⟩⟩
      iapply ((kernelRun8_A c (grid8.coords t) _ _ _ _ _ _ _ _ ((hcond8_0 t).mpr h0) hc1 (iblk8 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _)
          iexact HR
        iexact Hg
      isplitl [Ho]; · iexact Ho
      isplitl [H0]; · iexact H0
      isplitl [H1]; · iexact H1
      iexists _; iexact H2
    · rw [PhiS8_castSucc V c t, PhiS8_pos V c _ _ hz]
      iintro ⟨⟨⟨HS0, HR⟩, Hg⟩, Ho, ⟨%d0, H0⟩, ⟨%d1, H1⟩, ⟨%d2, H2⟩⟩
      iapply ((kernelRun8_A c (grid8.coords t) _ _ _ _ _ _ _ _ ((hcond8_0 t).mpr h0) hc1 (iblk8 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _)
          iexact HR
        iexact Hg
      isplitl [Ho]; · iexact Ho
      isplitl [H0]; · iexact H0
      isplitl [H1]; · iexact H1
      iexists _; iexact H2
  · have hc0 : ¬cond8_0 (grid8.coords t) := fun h => h0 ((hcond8_0 t).mp h)
    have hz : t.val ≠ 0 := fun e => h0 (by rw [e])
    by_cases h1 : t.val % 8 = 7
    · have hc1 : cond8_1 (grid8.coords t) := (hcond8_1 t).mpr h1
      rw [show (dat8 V c).leavesExact 2 t = owns (c : Thread nD τ) (ms8_2 t) fullShare ((dat8 V c).after 2 t) from by
        unfold Dat.leavesExact; rw [liveAt8_2 t hc1], after8_2]
      rw [outsAt8_C V c t h0 h1]
      unfold out8_C_2 sout8_C_0; (try dsimp only)
      rw [PhiS8_castSucc V c t, PhiS8_pos V c _ _ hz]
      iintro ⟨⟨⟨HS0, HR⟩, Hg⟩, Ho, ⟨%d0, H0⟩, ⟨%d1, H1⟩, ⟨%d2, H2⟩⟩
      iapply ((kernelRun8_C c (grid8.coords t) _ _ _ _ _ _ _ _ hc0 hc1 (iblk8 V c 0 t) (iblk8 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover8_C_2 c _ _ _ _ _ _ _ _ _ _ _ _ _ _)
    · have hc1 : ¬cond8_1 (grid8.coords t) := fun h => h1 ((hcond8_1 t).mp h)
      rw [Dat.leavesExact_idle (dat8 V c) 2 t (idleAt8_2 t hc1) (noFlush8_2 t hc1)]
      rw [outsAt8_B V c t h0 h1]
      unfold sout8_B_0; (try dsimp only)
      rw [PhiS8_castSucc V c t, PhiS8_pos V c _ _ hz]
      iintro ⟨⟨⟨HS0, HR⟩, Hg⟩, Ho, ⟨%d0, H0⟩, ⟨%d1, H1⟩, ⟨%d2, H2⟩⟩
      iapply ((kernelRun8_B c (grid8.coords t) _ _ _ _ _ _ _ _ hc0 hc1 (iblk8 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_B_0 c _ _ _ _ _ _ _ _ _ _ _ _ _)
          iexact HR
        iexact Hg
      isplitl [Ho]; · iexact Ho
      isplitl [H0]; · iexact H0
      isplitl [H1]; · iexact H1
      iexists _; iexact H2

theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : (Pipeline.ΦA spec8 c : sProp 𝕄) ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: what the carried buffer holds is forgotten. -/
theorem Phi_out8 (c : Dev nD) (t : Fin (cfg8.N + 1)) (ht : t.val ≠ 0) : (dat8 V c).Φ t ⊢ (Pipeline.ΦA spec8 c : sProp 𝕄) := by
  rw [show (dat8 V c).Φ t = PhiS8 V c t.val (Nat.le_of_lt_succ t.isLt) from rfl, PhiS8_pos V c _ _ ht, PhiA8_eq]
  iintro ⟨⟨HS0, HR⟩, Hg⟩
  isplitl [HS0 HR]
  · isplitl [HS0]
    · iexists _; iexact HS0
    iexact HR
  iexact Hg

theorem hout8 (c : Dev nD) : (dat8 V c).Φ (Fin.last cfg8.N) ⊢ (Pipeline.ΦA spec8 c : sProp 𝕄) :=
  Phi_out8 V c _ (by rw [Fin.val_last]; have : cfg8.N = 32 := N_8; omega)

end Cert.Kernel.Frame

end
-- ==== Proof.K.Upd9.lean ====
/-
  The update step of the mean-field refinement (custom_call 9) as one region of the kernel program: what each
  window's staging buffer holds before and after the body at every grid point, the body's triple, and the body
  obligation the launch theorems ask for — at any float instance.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 9), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The unary scores' staging buffer holds their block at every point (it is fetched at every point), for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The pairwise term's staging buffer holds its block at every point, fetched there or not: its block index is the
    image tile alone, so while the proposal tile runs the index does not move and the buffer, which the body leaves
    as it found it, still holds the block fetched when the image tile began. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: whole buffers, through the rectangle at offset zero -/

theorem zeros9_2 : (![0, 0] : Fin 2 → Nat) = fun _ => 0 := funext fun a => by fin_cases a <;> rfl
theorem zeros9_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k9_pay1 x1 x0`. Each load is of a whole buffer, so it reads the contents;
    the one store is of the whole buffer, so whatever was there before, the buffer reads as the stored value. -/
theorem sound_kernel9 (c : Dev nD) (E : Set ℕ) (i : grid9.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k9_pay1 x1 x0)) -∗ K ⟨⟩))
      ⊢ wp frame (wpE (defs₀ (F := F)) Variants.none c none) E (cc9__update_kernel i arg2 harg2 arg3 harg3 arg4 harg4) K := by
  simp only [cc9__update_kernel_eq_skeleton]; unfold cc9__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros9_3 inb_S8x256x601_S8x256x601_0_0_0 y⟩),
    View.canon_unit_zero (S := S8x256x601) zeros9_3]
  simp only [View.readAt_eq_ld, View.ld_unit_zero (S := S8x601) zeros9_2, View.ld_unit_zero (S := S8x256x601) zeros9_3]

/-! ## The region's proof data -/

/-- The proof data on core `c`: the arrays as the region finds them; after the body at point `t` each input's buffer
    at its block and the output's at the scores' block minus the pairwise block; the invariant is the scoped rest and
    the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => k9_pay1 (iblk9 V c 1 t) (iblk9 V c 0 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) :
    (dat9 V c).after 2 t = k9_pay1 (iblk9 V c 1 t) (iblk9 V c 0 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so the body's triple applies; the invariant and the
    core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- The region's invariant is the class invariant itself, at the first point and after the last. -/
theorem hin9 (c : Dev nD) : (Pipeline.ΦA spec9 c : sProp 𝕄) ⊢ (dat9 V c).Φ 0 := .rfl
theorem hout9 (c : Dev nD) : (dat9 V c).Φ (Fin.last cfg9.N) ⊢ (Pipeline.ΦA spec9 c : sProp 𝕄) := .rfl

end Cert.Kernel.Frame
-- ==== Proof.K.Red10Runs.lean ====
/-
  The reduce call (custom_call 10): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond10_0 (i : grid10.Coords) : Prop := (Scalar.cmpi .ne (Scalar.extui (Scalar.cmpi .eq (BitVec.ofNat 32 (i 1).val) 0#32)) 0#32) = 1#1
theorem hcond10_0 : ∀ t : Fin cfg10.N, cond10_0 (grid10.coords t) ↔ t.val % 8 = 0 :=
  (by decide +kernel : ∀ t : Fin grid10.N, cond10_0 (grid10.coords t) ↔ t.val % 8 = 0)

/-- "this is the last proposal tile": the condition of the product's branch. -/
abbrev cond10_1 (i : grid10.Coords) : Prop := k10_cond2 i = 1#1
theorem hcond10_1 : ∀ t : Fin cfg10.N, cond10_1 (grid10.coords t) ↔ t.val % 8 = 7 :=
  (by decide +kernel : ∀ t : Fin grid10.N, cond10_1 (grid10.coords t) ↔ t.val % 8 = 7)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
/-- Away from the last proposal tile the body stores nothing into the output block, -/
theorem idleAt10_2 : ∀ t : Fin cfg10.N, ¬cond10_1 (grid10.coords t) → cfg10.idle 2 (grid10.coords t) = true := by decide +kernel
/-- and the block is not written back there. -/
theorem noFlush10_2 : ∀ t : Fin cfg10.N, ¬cond10_1 (grid10.coords t) → (cfg10.win 2).flush t = false := by decide +kernel
/-- At the last proposal tile it is stored. -/
theorem liveAt10_2 : ∀ t : Fin cfg10.N, cond10_1 (grid10.coords t) → cfg10.idle 2 (grid10.coords t) = false := by decide +kernel

/-! ## The memrefs the body is called with -/

abbrev VO10_2 : View sig .tc .vmem S8x601 .f32 := (Memref.whole cc10_stg2_0 : Memref sig .tc .vmem S8x601 .f32).view
abbrev ms10_0 (t : Fin cfg10.N) : Memref sig .tc .vmem S8x256x601 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S601x601 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S8x601 .f32 := win10_2.stage (cfg10.slots t 2)
abbrev hs10_2 (t : Fin cfg10.N) : (ms10_2 t).IsWhole := hstage10_2 ((cfg10.slots t 2).cast nbuf10_2)
/-- The carried maximum's buffer: a whole scoped buffer of the call's own. -/
abbrev scM10_0 : Memref sig .tc .vmem S8x601 .f32 := Memref.whole cc10_scratch0
abbrev VS10_0 : View sig .tc .vmem S8x601 .f32 := scM10_0.view

/-- The class invariant with the carried maximum's buffer taken out of the scoped rest: that buffer at some
    contents, every other scoped buffer unopened, the generator register at some state. -/
theorem PhiA10_eq (c : Dev nD) :
    (Pipeline.ΦA spec10 c : sProp 𝕄)
      = iprop(iprop(iprop((∃ d, owns (c : Thread nD τ) scM10_0 fullShare d)) ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

/-! ## The input windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The scores' staging buffer holds the point's block whenever the body runs, -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- and so does the matrix's, fetched once: its block index never moves. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

end Cert.Kernel.Frame

end
-- ==== Proof.K.Red10Run.lean ====
/-
  The reduce call's body (custom_call 10) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.K.Red10Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun10_A (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond10_0 i) (hc1 : ¬cond10_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc10__reduce_kernel i arg2 harg2 arg3 harg3 arg4 harg4 arg5 harg5) K } := by
  refine ⟨?_, fun E K => ?run⟩
  case run =>
    simp only [cc10__reduce_kernel_eq_skeleton]; unfold cc10__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun10_B (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : ¬cond10_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc10__reduce_kernel i arg2 harg2 arg3 harg3 arg4 harg4 arg5 harg5) K } := by
  refine ⟨?_, fun E K => ?run⟩
  case run =>
    simp only [cc10__reduce_kernel_eq_skeleton]; unfold cc10__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun10_C (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc10__reduce_kernel i arg2 harg2 arg3 harg3 arg4 harg4 arg5 harg5) K } := by
  refine ⟨?_, ?_, fun E K => ?run⟩
  case run =>
    simp only [cc10__reduce_kernel_eq_skeleton]; unfold cc10__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Red10.lean ====
/-
  The reduce call (custom_call 10) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.K.Red10Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover10_A_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond10_0 i) (hc1 : ¬cond10_1 i) (x0 : Vec F S8x256x601 .f32) (y : S8x601.Idx) :
    ∃ pc ∈ (kernelRun10_A c i arg2 harg2 arg3 harg3 arg4 harg4 arg5 harg5 hc0 hc1 x0).1, y ∈ pc.1.set :=
  View.cover_of_tiledL (kernelRun10_A c i arg2 harg2 arg3 harg3 arg4 harg4 arg5 harg5 hc0 hc1 x0).1 S8x601.size (by sl_kernel_rfl) y
/-- The carried buffer after a first proposal tile: its pieces read back. -/
def sout10_A_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond10_0 i) (hc1 : ¬cond10_1 i) (x0 : Vec F S8x256x601 .f32) : Vec F S8x601 .f32 :=
  VS10_0.read (Elt F) (VS10_0.writes (Elt F) VS10_0.junk (kernelRun10_A c i arg2 harg2 arg3 harg3 arg4 harg4 arg5 harg5 hc0 hc1 x0).1)

theorem scover10_B_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : ¬cond10_1 i) (x0 : Vec F S8x256x601 .f32) (xs0 : Vec F S8x601 .f32) (y : S8x601.Idx) :
    ∃ pc ∈ (kernelRun10_B c i arg2 harg2 arg3 harg3 arg4 harg4 arg5 harg5 hc0 hc1 x0 xs0).1, y ∈ pc.1.set :=
  View.cover_of_tiledL (kernelRun10_B c i arg2 harg2 arg3 harg3 arg4 harg4 arg5 harg5 hc0 hc1 x0 xs0).1 S8x601.size (by sl_kernel_rfl) y
/-- The carried buffer after an inner proposal tile. -/
def sout10_B_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : ¬cond10_1 i) (x0 : Vec F S8x256x601 .f32) (xs0 : Vec F S8x601 .f32) : Vec F S8x601 .f32 :=
  VS10_0.read (Elt F) (VS10_0.writes (Elt F) VS10_0.junk (kernelRun10_B c i arg2 harg2 arg3 harg3 arg4 harg4 arg5 harg5 hc0 hc1 x0 xs0).1)

theorem cover10_C_2 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i) (x0 : Vec F S8x256x601 .f32) (x1 : Vec F S601x601 .f32) (xs0 : Vec F S8x601 .f32) (y : S8x601.Idx) :
    ∃ pc ∈ (kernelRun10_C c i arg2 harg2 arg3 harg3 arg4 harg4 arg5 harg5 hc0 hc1 x0 x1 xs0).1, y ∈ pc.1.set :=
  View.cover_of_tiledL (kernelRun10_C c i arg2 harg2 arg3 harg3 arg4 harg4 arg5 harg5 hc0 hc1 x0 x1 xs0).1 S8x601.size (by sl_kernel_rfl) y
/-- The output block after a last proposal tile. -/
def out10_C_2 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i) (x0 : Vec F S8x256x601 .f32) (x1 : Vec F S601x601 .f32) (xs0 : Vec F S8x601 .f32) : Vec F S8x601 .f32 :=
  VO10_2.read (Elt F) (VO10_2.writes (Elt F) VO10_2.junk (kernelRun10_C c i arg2 harg2 arg3 harg3 arg4 harg4 arg5 harg5 hc0 hc1 x0 x1 xs0).1)
theorem scover10_C_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i) (x0 : Vec F S8x256x601 .f32) (x1 : Vec F S601x601 .f32) (xs0 : Vec F S8x601 .f32) (y : S8x601.Idx) :
    ∃ pc ∈ (kernelRun10_C c i arg2 harg2 arg3 harg3 arg4 harg4 arg5 harg5 hc0 hc1 x0 x1 xs0).2.1, y ∈ pc.1.set :=
  View.cover_of_tiledL (kernelRun10_C c i arg2 harg2 arg3 harg3 arg4 harg4 arg5 harg5 hc0 hc1 x0 x1 xs0).2.1 S8x601.size (by sl_kernel_rfl) y
/-- The carried buffer after a last proposal tile. -/
def sout10_C_0 (c : Dev nD) (i : grid10.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond10_0 i) (hc1 : cond10_1 i) (x0 : Vec F S8x256x601 .f32) (x1 : Vec F S601x601 .f32) (xs0 : Vec F S8x601 .f32) : Vec F S8x601 .f32 :=
  VS10_0.read (Elt F) (VS10_0.writes (Elt F) VS10_0.junk (kernelRun10_C c i arg2 harg2 arg3 harg3 arg4 harg4 arg5 harg5 hc0 hc1 x0 x1 xs0).2.1)

/-- What stands for the output block where the body does not store it (nothing consults it there). -/
def idleOut10 : Vec F S8x601 .f32 := VO10_2.read (Elt F) VO10_2.junk

/-! ## The accumulation over the grid points -/

/-- After the body at position `n`: (the output block, the carried buffer). -/
def outsAt10 (c : Dev nD) : (n : ℕ) → n < cfg10.N → Vec F S8x601 .f32 × Vec F S8x601 .f32
  | 0, hn => (idleOut10, sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩))
  | n + 1, hn =>
    if h0 : (n + 1) % 8 = 0 then
      if h1 : (n + 1) % 8 = 7 then
        False.elim (by omega)
      else
        (idleOut10, sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩))
    else
      if h1 : (n + 1) % 8 = 7 then
        (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2,
         sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2)
      else
        (idleOut10, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (outsAt10 c n (Nat.lt_of_succ_lt hn)).2)

theorem outsAt10_A (c : Dev nD) (t : Fin cfg10.N) (h0 : t.val % 8 = 0) (h1 : ¬t.val % 8 = 7) :
    outsAt10 V c t.val t.isLt = (idleOut10, sout10_A_0 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t)) := by
  obtain ⟨n, hn⟩ := t
  cases n with
  | zero => exact rfl
  | succ n => exact (dif_pos h0).trans ((dif_neg h1).trans rfl)

theorem outsAt10_B (c : Dev nD) (t : Fin cfg10.N) (h0 : ¬t.val % 8 = 0) (h1 : ¬t.val % 8 = 7) :
    outsAt10 V c t.val t.isLt = (idleOut10, sout10_B_0 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt10_C (c : Dev nD) (t : Fin cfg10.N) (h0 : ¬t.val % 8 = 0) (h1 : t.val % 8 = 7) :
    outsAt10 V c t.val t.isLt = (out10_C_2 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2,
      sout10_C_0 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(owns (c : Thread nD τ) scM10_0 fullShare ((outsAt10 V c n hn).2) ∗ Pipeline.scopedRestBut (Ix := Unit) (Name := ℕ) (U := UR sig nD τ) (Lvl := ℕ) (Val := Elt F) spec10 c [cc10_scratch0]) ∗ (∃ r, prngReg c r)) := rfl
theorem PhiS10_pos (c : Dev nD) (n : ℕ) (h : n ≤ cfg10.N) (hz : n ≠ 0) :
    PhiS10 V c n h = iprop(iprop(owns (c : Thread nD τ) scM10_0 fullShare ((outsAt10 V c (n - 1) (by omega)).2) ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The proof data -/

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation -/

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 32 := lt_of_lt_of_eq t.isLt (show cfg10.N = 32 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  by_cases h0 : t.val % 8 = 0
  · have h1 : ¬t.val % 8 = 7 := by omega
    have hc1 : ¬cond10_1 (grid10.coords t) := fun h => h1 ((hcond10_1 t).mp h)
    rw [Dat.leavesExact_idle (dat10 V c) 2 t (idleAt10_2 t hc1) (noFlush10_2 t hc1)]
    rw [outsAt10_A V c t h0 h1]
    unfold sout10_A_0; (try dsimp only)
    by_cases hz : t.val = 0
    · rw [PhiS10_castSucc V c t, PhiS10_zero V c _ _ hz, PhiA10_eq]
      iintro ⟨⟨⟨HS0, HR⟩, Hg⟩, Ho, ⟨%d0, H0⟩, ⟨%d1, H1⟩, ⟨%d2, H2⟩⟩
      iapply ((kernelRun10_A c (grid10.coords t) _ _ _ _ _ _ _ _ ((hcond10_0 t).mpr h0) hc1 (iblk10 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _)
          iexact HR
        iexact Hg
      isplitl [Ho]; · iexact Ho
      isplitl [H0]; · iexact H0
      isplitl [H1]; · iexact H1
      iexists _; iexact H2
    · rw [PhiS10_castSucc V c t, PhiS10_pos V c _ _ hz]
      iintro ⟨⟨⟨HS0, HR⟩, Hg⟩, Ho, ⟨%d0, H0⟩, ⟨%d1, H1⟩, ⟨%d2, H2⟩⟩
      iapply ((kernelRun10_A c (grid10.coords t) _ _ _ _ _ _ _ _ ((hcond10_0 t).mpr h0) hc1 (iblk10 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _)
          iexact HR
        iexact Hg
      isplitl [Ho]; · iexact Ho
      isplitl [H0]; · iexact H0
      isplitl [H1]; · iexact H1
      iexists _; iexact H2
  · have hc0 : ¬cond10_0 (grid10.coords t) := fun h => h0 ((hcond10_0 t).mp h)
    have hz : t.val ≠ 0 := fun e => h0 (by rw [e])
    by_cases h1 : t.val % 8 = 7
    · have hc1 : cond10_1 (grid10.coords t) := (hcond10_1 t).mpr h1
      rw [show (dat10 V c).leavesExact 2 t = owns (c : Thread nD τ) (ms10_2 t) fullShare ((dat10 V c).after 2 t) from by
        unfold Dat.leavesExact; rw [liveAt10_2 t hc1], after10_2]
      rw [outsAt10_C V c t h0 h1]
      unfold out10_C_2 sout10_C_0; (try dsimp only)
      rw [PhiS10_castSucc V c t, PhiS10_pos V c _ _ hz]
      iintro ⟨⟨⟨HS0, HR⟩, Hg⟩, Ho, ⟨%d0, H0⟩, ⟨%d1, H1⟩, ⟨%d2, H2⟩⟩
      iapply ((kernelRun10_C c (grid10.coords t) _ _ _ _ _ _ _ _ hc0 hc1 (iblk10 V c 0 t) (iblk10 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_C_2 c _ _ _ _ _ _ _ _ _ _ _ _ _ _)
    · have hc1 : ¬cond10_1 (grid10.coords t) := fun h => h1 ((hcond10_1 t).mp h)
      rw [Dat.leavesExact_idle (dat10 V c) 2 t (idleAt10_2 t hc1) (noFlush10_2 t hc1)]
      rw [outsAt10_B V c t h0 h1]
      unfold sout10_B_0; (try dsimp only)
      rw [PhiS10_castSucc V c t, PhiS10_pos V c _ _ hz]
      iintro ⟨⟨⟨HS0, HR⟩, Hg⟩, Ho, ⟨%d0, H0⟩, ⟨%d1, H1⟩, ⟨%d2, H2⟩⟩
      iapply ((kernelRun10_B c (grid10.coords t) _ _ _ _ _ _ _ _ hc0 hc1 (iblk10 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_B_0 c _ _ _ _ _ _ _ _ _ _ _ _ _)
          iexact HR
        iexact Hg
      isplitl [Ho]; · iexact Ho
      isplitl [H0]; · iexact H0
      isplitl [H1]; · iexact H1
      iexists _; iexact H2

theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : (Pipeline.ΦA spec10 c : sProp 𝕄) ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives the class's back: what the carried buffer holds is forgotten. -/
theorem Phi_out10 (c : Dev nD) (t : Fin (cfg10.N + 1)) (ht : t.val ≠ 0) : (dat10 V c).Φ t ⊢ (Pipeline.ΦA spec10 c : sProp 𝕄) := by
  rw [show (dat10 V c).Φ t = PhiS10 V c t.val (Nat.le_of_lt_succ t.isLt) from rfl, PhiS10_pos V c _ _ ht, PhiA10_eq]
  iintro ⟨⟨HS0, HR⟩, Hg⟩
  isplitl [HS0 HR]
  · isplitl [HS0]
    · iexists _; iexact HS0
    iexact HR
  iexact Hg

theorem hout10 (c : Dev nD) : (dat10 V c).Φ (Fin.last cfg10.N) ⊢ (Pipeline.ΦA spec10 c : sProp 𝕄) :=
  Phi_out10 V c _ (by rw [Fin.val_last]; have : cfg10.N = 32 := N_10; omega)

end Cert.Kernel.Frame

end
-- ==== Proof.K.Upd11.lean ====
/-
  The update step of the mean-field refinement (custom_call 11) as one region of the kernel program: what each
  window's staging buffer holds before and after the body at every grid point, the body's triple, and the body
  obligation the launch theorems ask for — at any float instance.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 11), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The unary scores' staging buffer holds their block at every point (it is fetched at every point), for any proof
    data whose array is `V`'s and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The pairwise term's staging buffer holds its block at every point, fetched there or not: its block index is the
    image tile alone, so while the proposal tile runs the index does not move and the buffer, which the body leaves
    as it found it, still holds the block fetched when the image tile began. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: whole buffers, through the rectangle at offset zero -/

theorem zeros11_2 : (![0, 0] : Fin 2 → Nat) = fun _ => 0 := funext fun a => by fin_cases a <;> rfl
theorem zeros11_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k11_pay1 x1 x0`. Each load is of a whole buffer, so it reads the contents;
    the one store is of the whole buffer, so whatever was there before, the buffer reads as the stored value. -/
theorem sound_kernel11 (c : Dev nD) (E : Set ℕ) (i : grid11.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k11_pay1 x1 x0)) -∗ K ⟨⟩))
      ⊢ wp frame (wpE (defs₀ (F := F)) Variants.none c none) E (cc11__update_kernel i arg2 harg2 arg3 harg3 arg4 harg4) K := by
  simp only [cc11__update_kernel_eq_skeleton]; unfold cc11__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros11_3 inb_S8x256x601_S8x256x601_0_0_0 y⟩),
    View.canon_unit_zero (S := S8x256x601) zeros11_3]
  simp only [View.readAt_eq_ld, View.ld_unit_zero (S := S8x601) zeros11_2, View.ld_unit_zero (S := S8x256x601) zeros11_3]

/-! ## The region's proof data -/

/-- The proof data on core `c`: the arrays as the region finds them; after the body at point `t` each input's buffer
    at its block and the output's at the scores' block minus the pairwise block; the invariant is the scoped rest and
    the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => k11_pay1 (iblk11 V c 1 t) (iblk11 V c 0 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) :
    (dat11 V c).after 2 t = k11_pay1 (iblk11 V c 1 t) (iblk11 V c 0 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks, so the body's triple applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- The region's invariant is the class invariant itself, at the first point and after the last. -/
theorem hin11 (c : Dev nD) : (Pipeline.ΦA spec11 c : sProp 𝕄) ⊢ (dat11 V c).Φ 0 := .rfl
theorem hout11 (c : Dev nD) : (dat11 V c).Φ (Fin.last cfg11.N) ⊢ (Pipeline.ΦA spec11 c : sProp 𝕄) := .rfl

end Cert.Kernel.Frame
-- ==== Proof.K.Red12Runs.lean ====
/-
  The reduce call (custom_call 12): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond12_0 (i : grid12.Coords) : Prop := (Scalar.cmpi .ne (Scalar.extui (Scalar.cmpi .eq (BitVec.ofNat 32 (i 1).val) 0#32)) 0#32) = 1#1
theorem hcond12_0 : ∀ t : Fin cfg12.N, cond12_0 (grid12.coords t) ↔ t.val % 8 = 0 :=
  (by decide +kernel : ∀ t : Fin grid12.N, cond12_0 (grid12.coords t) ↔ t.val % 8 = 0)

/-- "this is the last proposal tile": the condition of the product's branch. -/
abbrev cond12_1 (i : grid12.Coords) : Prop := k12_cond2 i = 1#1
theorem hcond12_1 : ∀ t : Fin cfg12.N, cond12_1 (grid12.coords t) ↔ t.val % 8 = 7 :=
  (by decide +kernel : ∀ t : Fin grid12.N, cond12_1 (grid12.coords t) ↔ t.val % 8 = 7)

/-! ## Where the windows are idle -/

theorem liveAt12_0 : ∀ t : Fin cfg12.N, cfg12.idle 0 (grid12.coords t) = false := by decide +kernel
theorem liveAt12_1 : ∀ t : Fin cfg12.N, cfg12.idle 1 (grid12.coords t) = false := by decide +kernel
/-- Away from the last proposal tile the body stores nothing into the output block, -/
theorem idleAt12_2 : ∀ t : Fin cfg12.N, ¬cond12_1 (grid12.coords t) → cfg12.idle 2 (grid12.coords t) = true := by decide +kernel
/-- and the block is not written back there. -/
theorem noFlush12_2 : ∀ t : Fin cfg12.N, ¬cond12_1 (grid12.coords t) → (cfg12.win 2).flush t = false := by decide +kernel
/-- At the last proposal tile it is stored. -/
theorem liveAt12_2 : ∀ t : Fin cfg12.N, cond12_1 (grid12.coords t) → cfg12.idle 2 (grid12.coords t) = false := by decide +kernel

/-! ## The memrefs the body is called with -/

abbrev VO12_2 : View sig .tc .vmem S8x601 .f32 := (Memref.whole cc12_stg2_0 : Memref sig .tc .vmem S8x601 .f32).view
abbrev ms12_0 (t : Fin cfg12.N) : Memref sig .tc .vmem S8x256x601 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S601x601 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S8x601 .f32 := win12_2.stage (cfg12.slots t 2)
abbrev hs12_2 (t : Fin cfg12.N) : (ms12_2 t).IsWhole := hstage12_2 ((cfg12.slots t 2).cast nbuf12_2)
/-- The carried maximum's buffer: a whole scoped buffer of the call's own. -/
abbrev scM12_0 : Memref sig .tc .vmem S8x601 .f32 := Memref.whole cc12_scratch0
abbrev VS12_0 : View sig .tc .vmem S8x601 .f32 := scM12_0.view

/-- The class invariant with the carried maximum's buffer taken out of the scoped rest: that buffer at some
    contents, every other scoped buffer unopened, the generator register at some state. -/
theorem PhiA12_eq (c : Dev nD) :
    (Pipeline.ΦA spec12 c : sProp 𝕄)
      = iprop(iprop(iprop((∃ d, owns (c : Thread nD τ) scM12_0 fullShare d)) ∗ Pipeline.scopedRestBut (Ix := Unit) (Name := ℕ) (U := UR sig nD τ) (Lvl := ℕ) (Val := Elt F) spec12 c [cc12_scratch0]) ∗ (∃ r, prngReg c r)) := by
  unfold Pipeline.ΦA; rw [scopedRest12_split]; simp only [scM12_0, owns_whole]; try rfl

/-! ## The input windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The scores' staging buffer holds the point's block whenever the body runs, -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- and so does the matrix's, fetched once: its block index never moves. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

end Cert.Kernel.Frame

end
-- ==== Proof.K.Red12Run.lean ====
/-
  The reduce call's body (custom_call 12) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.K.Red12Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun12_A (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond12_0 i) (hc1 : ¬cond12_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc12__reduce_kernel i arg2 harg2 arg3 harg3 arg4 harg4 arg5 harg5) K } := by
  refine ⟨?_, fun E K => ?run⟩
  case run =>
    simp only [cc12__reduce_kernel_eq_skeleton]; unfold cc12__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun12_B (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : ¬cond12_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc12__reduce_kernel i arg2 harg2 arg3 harg3 arg4 harg4 arg5 harg5) K } := by
  refine ⟨?_, fun E K => ?run⟩
  case run =>
    simp only [cc12__reduce_kernel_eq_skeleton]; unfold cc12__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun12_C (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc12__reduce_kernel i arg2 harg2 arg3 harg3 arg4 harg4 arg5 harg5) K } := by
  refine ⟨?_, ?_, fun E K => ?run⟩
  case run =>
    simp only [cc12__reduce_kernel_eq_skeleton]; unfold cc12__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Red12.lean ====
/-
  The reduce call (custom_call 12) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.K.Red12Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover12_A_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond12_0 i) (hc1 : ¬cond12_1 i) (x0 : Vec F S8x256x601 .f32) (y : S8x601.Idx) :
    ∃ pc ∈ (kernelRun12_A c i arg2 harg2 arg3 harg3 arg4 harg4 arg5 harg5 hc0 hc1 x0).1, y ∈ pc.1.set :=
  View.cover_of_tiledL (kernelRun12_A c i arg2 harg2 arg3 harg3 arg4 harg4 arg5 harg5 hc0 hc1 x0).1 S8x601.size (by sl_kernel_rfl) y
/-- The carried buffer after a first proposal tile: its pieces read back. -/
def sout12_A_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond12_0 i) (hc1 : ¬cond12_1 i) (x0 : Vec F S8x256x601 .f32) : Vec F S8x601 .f32 :=
  VS12_0.read (Elt F) (VS12_0.writes (Elt F) VS12_0.junk (kernelRun12_A c i arg2 harg2 arg3 harg3 arg4 harg4 arg5 harg5 hc0 hc1 x0).1)

theorem scover12_B_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : ¬cond12_1 i) (x0 : Vec F S8x256x601 .f32) (xs0 : Vec F S8x601 .f32) (y : S8x601.Idx) :
    ∃ pc ∈ (kernelRun12_B c i arg2 harg2 arg3 harg3 arg4 harg4 arg5 harg5 hc0 hc1 x0 xs0).1, y ∈ pc.1.set :=
  View.cover_of_tiledL (kernelRun12_B c i arg2 harg2 arg3 harg3 arg4 harg4 arg5 harg5 hc0 hc1 x0 xs0).1 S8x601.size (by sl_kernel_rfl) y
/-- The carried buffer after an inner proposal tile. -/
def sout12_B_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : ¬cond12_1 i) (x0 : Vec F S8x256x601 .f32) (xs0 : Vec F S8x601 .f32) : Vec F S8x601 .f32 :=
  VS12_0.read (Elt F) (VS12_0.writes (Elt F) VS12_0.junk (kernelRun12_B c i arg2 harg2 arg3 harg3 arg4 harg4 arg5 harg5 hc0 hc1 x0 xs0).1)

theorem cover12_C_2 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i) (x0 : Vec F S8x256x601 .f32) (x1 : Vec F S601x601 .f32) (xs0 : Vec F S8x601 .f32) (y : S8x601.Idx) :
    ∃ pc ∈ (kernelRun12_C c i arg2 harg2 arg3 harg3 arg4 harg4 arg5 harg5 hc0 hc1 x0 x1 xs0).1, y ∈ pc.1.set :=
  View.cover_of_tiledL (kernelRun12_C c i arg2 harg2 arg3 harg3 arg4 harg4 arg5 harg5 hc0 hc1 x0 x1 xs0).1 S8x601.size (by sl_kernel_rfl) y
/-- The output block after a last proposal tile. -/
def out12_C_2 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i) (x0 : Vec F S8x256x601 .f32) (x1 : Vec F S601x601 .f32) (xs0 : Vec F S8x601 .f32) : Vec F S8x601 .f32 :=
  VO12_2.read (Elt F) (VO12_2.writes (Elt F) VO12_2.junk (kernelRun12_C c i arg2 harg2 arg3 harg3 arg4 harg4 arg5 harg5 hc0 hc1 x0 x1 xs0).1)
theorem scover12_C_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i) (x0 : Vec F S8x256x601 .f32) (x1 : Vec F S601x601 .f32) (xs0 : Vec F S8x601 .f32) (y : S8x601.Idx) :
    ∃ pc ∈ (kernelRun12_C c i arg2 harg2 arg3 harg3 arg4 harg4 arg5 harg5 hc0 hc1 x0 x1 xs0).2.1, y ∈ pc.1.set :=
  View.cover_of_tiledL (kernelRun12_C c i arg2 harg2 arg3 harg3 arg4 harg4 arg5 harg5 hc0 hc1 x0 x1 xs0).2.1 S8x601.size (by sl_kernel_rfl) y
/-- The carried buffer after a last proposal tile. -/
def sout12_C_0 (c : Dev nD) (i : grid12.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond12_0 i) (hc1 : cond12_1 i) (x0 : Vec F S8x256x601 .f32) (x1 : Vec F S601x601 .f32) (xs0 : Vec F S8x601 .f32) : Vec F S8x601 .f32 :=
  VS12_0.read (Elt F) (VS12_0.writes (Elt F) VS12_0.junk (kernelRun12_C c i arg2 harg2 arg3 harg3 arg4 harg4 arg5 harg5 hc0 hc1 x0 x1 xs0).2.1)

/-- What stands for the output block where the body does not store it (nothing consults it there). -/
def idleOut12 : Vec F S8x601 .f32 := VO12_2.read (Elt F) VO12_2.junk

/-! ## The accumulation over the grid points -/

/-- After the body at position `n`: (the output block, the carried buffer). -/
def outsAt12 (c : Dev nD) : (n : ℕ) → n < cfg12.N → Vec F S8x601 .f32 × Vec F S8x601 .f32
  | 0, hn => (idleOut12, sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) scM12_0 (Memref.isWhole_whole _) ((hcond12_0 ⟨0, hn⟩).mpr (Nat.zero_mod _)) (fun h => (fun h => by (try dsimp only at h); omega) ((hcond12_1 ⟨0, hn⟩).mp h)) (iblk12 V c 0 ⟨0, hn⟩))
  | n + 1, hn =>
    if h0 : (n + 1) % 8 = 0 then
      if h1 : (n + 1) % 8 = 7 then
        False.elim (by omega)
      else
        (idleOut12, sout12_A_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) ((hcond12_0 ⟨n + 1, hn⟩).mpr h0) (fun h => h1 ((hcond12_1 ⟨n + 1, hn⟩).mp h)) (iblk12 V c 0 ⟨n + 1, hn⟩))
    else
      if h1 : (n + 1) % 8 = 7 then
        (out12_C_2 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2,
         sout12_C_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2)
      else
        (idleOut12, sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) (fun h => h1 ((hcond12_1 ⟨n + 1, hn⟩).mp h)) (iblk12 V c 0 ⟨n + 1, hn⟩) (outsAt12 c n (Nat.lt_of_succ_lt hn)).2)

theorem outsAt12_A (c : Dev nD) (t : Fin cfg12.N) (h0 : t.val % 8 = 0) (h1 : ¬t.val % 8 = 7) :
    outsAt12 V c t.val t.isLt = (idleOut12, sout12_A_0 c (grid12.coords t) (ms12_0 t) (hs12_0 t) (ms12_1 t) (hs12_1 t) (ms12_2 t) (hs12_2 t) scM12_0 (Memref.isWhole_whole _) ((hcond12_0 t).mpr h0) (fun h => h1 ((hcond12_1 t).mp h)) (iblk12 V c 0 t)) := by
  obtain ⟨n, hn⟩ := t
  cases n with
  | zero => exact rfl
  | succ n => exact (dif_pos h0).trans ((dif_neg h1).trans rfl)

theorem outsAt12_B (c : Dev nD) (t : Fin cfg12.N) (h0 : ¬t.val % 8 = 0) (h1 : ¬t.val % 8 = 7) :
    outsAt12 V c t.val t.isLt = (idleOut12, sout12_B_0 c (grid12.coords t) (ms12_0 t) (hs12_0 t) (ms12_1 t) (hs12_1 t) (ms12_2 t) (hs12_2 t) scM12_0 (Memref.isWhole_whole _) (fun h => h0 ((hcond12_0 t).mp h)) (fun h => h1 ((hcond12_1 t).mp h)) (iblk12 V c 0 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt12_C (c : Dev nD) (t : Fin cfg12.N) (h0 : ¬t.val % 8 = 0) (h1 : t.val % 8 = 7) :
    outsAt12 V c t.val t.isLt = (out12_C_2 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2,
      sout12_C_0 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS12 (c : Dev nD) : (n : ℕ) → n ≤ cfg12.N → sProp 𝕄
  | 0, _ => Pipeline.ΦA spec12 c
  | n + 1, hn => iprop(iprop(owns (c : Thread nD τ) scM12_0 fullShare ((outsAt12 V c n hn).2) ∗ Pipeline.scopedRestBut (Ix := Unit) (Name := ℕ) (U := UR sig nD τ) (Lvl := ℕ) (Val := Elt F) spec12 c [cc12_scratch0]) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop(iprop(owns (c : Thread nD τ) scM12_0 fullShare ((outsAt12 V c n hn).2) ∗ Pipeline.scopedRestBut (Ix := Unit) (Name := ℕ) (U := UR sig nD τ) (Lvl := ℕ) (Val := Elt F) spec12 c [cc12_scratch0]) ∗ (∃ r, prngReg c r)) := rfl
theorem PhiS12_pos (c : Dev nD) (n : ℕ) (h : n ≤ cfg12.N) (hz : n ≠ 0) :
    PhiS12 V c n h = iprop(iprop(owns (c : Thread nD τ) scM12_0 fullShare ((outsAt12 V c (n - 1) (by omega)).2) ∗ Pipeline.scopedRestBut (Ix := Unit) (Name := ℕ) (U := UR sig nD τ) (Lvl := ℕ) (Val := Elt F) spec12 c [cc12_scratch0]) ∗ (∃ r, prngReg c r)) := by
  cases n with
  | zero => exact absurd rfl hz
  | succ n => rfl

/-! ## The proof data -/

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => (outsAt12 V c t.val t.isLt).1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = (outsAt12 V c t.val t.isLt).1 := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation -/

def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = PhiS12 V c (t.val + 1) t.isLt from rfl, PhiS12_succ]
  have hN : t.val < 32 := lt_of_lt_of_eq t.isLt (show cfg12.N = 32 from N_12)
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  by_cases h0 : t.val % 8 = 0
  · have h1 : ¬t.val % 8 = 7 := by omega
    have hc1 : ¬cond12_1 (grid12.coords t) := fun h => h1 ((hcond12_1 t).mp h)
    rw [Dat.leavesExact_idle (dat12 V c) 2 t (idleAt12_2 t hc1) (noFlush12_2 t hc1)]
    rw [outsAt12_A V c t h0 h1]
    unfold sout12_A_0; (try dsimp only)
    by_cases hz : t.val = 0
    · rw [PhiS12_castSucc V c t, PhiS12_zero V c _ _ hz, PhiA12_eq]
      iintro ⟨⟨⟨HS0, HR⟩, Hg⟩, Ho, ⟨%d0, H0⟩, ⟨%d1, H1⟩, ⟨%d2, H2⟩⟩
      iapply ((kernelRun12_A c (grid12.coords t) _ _ _ _ _ _ _ _ ((hcond12_0 t).mpr h0) hc1 (iblk12 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_A_0 c _ _ _ _ _ _ _ _ _ _ _ _)
          iexact HR
        iexact Hg
      isplitl [Ho]; · iexact Ho
      isplitl [H0]; · iexact H0
      isplitl [H1]; · iexact H1
      iexists _; iexact H2
    · rw [PhiS12_castSucc V c t, PhiS12_pos V c _ _ hz]
      iintro ⟨⟨⟨HS0, HR⟩, Hg⟩, Ho, ⟨%d0, H0⟩, ⟨%d1, H1⟩, ⟨%d2, H2⟩⟩
      iapply ((kernelRun12_A c (grid12.coords t) _ _ _ _ _ _ _ _ ((hcond12_0 t).mpr h0) hc1 (iblk12 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_A_0 c _ _ _ _ _ _ _ _ _ _ _ _)
          iexact HR
        iexact Hg
      isplitl [Ho]; · iexact Ho
      isplitl [H0]; · iexact H0
      isplitl [H1]; · iexact H1
      iexists _; iexact H2
  · have hc0 : ¬cond12_0 (grid12.coords t) := fun h => h0 ((hcond12_0 t).mp h)
    have hz : t.val ≠ 0 := fun e => h0 (by rw [e])
    by_cases h1 : t.val % 8 = 7
    · have hc1 : cond12_1 (grid12.coords t) := (hcond12_1 t).mpr h1
      rw [show (dat12 V c).leavesExact 2 t = owns (c : Thread nD τ) (ms12_2 t) fullShare ((dat12 V c).after 2 t) from by
        unfold Dat.leavesExact; rw [liveAt12_2 t hc1], after12_2]
      rw [outsAt12_C V c t h0 h1]
      unfold out12_C_2 sout12_C_0; (try dsimp only)
      rw [PhiS12_castSucc V c t, PhiS12_pos V c _ _ hz]
      iintro ⟨⟨⟨HS0, HR⟩, Hg⟩, Ho, ⟨%d0, H0⟩, ⟨%d1, H1⟩, ⟨%d2, H2⟩⟩
      iapply ((kernelRun12_C c (grid12.coords t) _ _ _ _ _ _ _ _ hc0 hc1 (iblk12 V c 0 t) (iblk12 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover12_C_2 c _ _ _ _ _ _ _ _ _ _ _ _ _ _)
    · have hc1 : ¬cond12_1 (grid12.coords t) := fun h => h1 ((hcond12_1 t).mp h)
      rw [Dat.leavesExact_idle (dat12 V c) 2 t (idleAt12_2 t hc1) (noFlush12_2 t hc1)]
      rw [outsAt12_B V c t h0 h1]
      unfold sout12_B_0; (try dsimp only)
      rw [PhiS12_castSucc V c t, PhiS12_pos V c _ _ hz]
      iintro ⟨⟨⟨HS0, HR⟩, Hg⟩, Ho, ⟨%d0, H0⟩, ⟨%d1, H1⟩, ⟨%d2, H2⟩⟩
      iapply ((kernelRun12_B c (grid12.coords t) _ _ _ _ _ _ _ _ hc0 hc1 (iblk12 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_B_0 c _ _ _ _ _ _ _ _ _ _ _ _ _)
          iexact HR
        iexact Hg
      isplitl [Ho]; · iexact Ho
      isplitl [H0]; · iexact H0
      isplitl [H1]; · iexact H1
      iexists _; iexact H2

theorem body_obligation12 (c : Dev nD) : BodyObligation (dat12 (F := F) V c) (defs₀ (F := F)) Variants.none () Set.univ := fun t => by
  rw [bigSep_W12, bigSep_W12]
  exact sound_body12 V c t

/-- What the launch hands the region is the invariant before the first point. -/
theorem hin12 (c : Dev nD) : (Pipeline.ΦA spec12 c : sProp 𝕄) ⊢ (dat12 V c).Φ 0 := by
  rw [show (dat12 V c).Φ 0 = PhiS12 V c 0 (Nat.zero_le _) from rfl, PhiS12_zero V c 0 _ rfl]
  try exact Idealize.SL.BI.Entails.refl _

/-- After any point but the first the invariant gives the class's back: what the carried buffer holds is forgotten. -/
theorem Phi_out12 (c : Dev nD) (t : Fin (cfg12.N + 1)) (ht : t.val ≠ 0) : (dat12 V c).Φ t ⊢ (Pipeline.ΦA spec12 c : sProp 𝕄) := by
  rw [show (dat12 V c).Φ t = PhiS12 V c t.val (Nat.le_of_lt_succ t.isLt) from rfl, PhiS12_pos V c _ _ ht, PhiA12_eq]
  iintro ⟨⟨HS0, HR⟩, Hg⟩
  isplitl [HS0 HR]
  · isplitl [HS0]
    · iexists _; iexact HS0
    iexact HR
  iexact Hg

theorem hout12 (c : Dev nD) : (dat12 V c).Φ (Fin.last cfg12.N) ⊢ (Pipeline.ΦA spec12 c : sProp 𝕄) :=
  Phi_out12 V c _ (by rw [Fin.val_last]; have : cfg12.N = 32 := N_12; omega)

end Cert.Kernel.Frame

end
-- ==== Proof.K.Upd13.lean ====
/-
  The update step of the mean-field refinement (custom_call 13) as one region of the kernel program: what each
  window's staging buffer holds before and after the body at every grid point, the body's triple, and the body
  obligation the launch theorems ask for — at any float instance.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 13), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The unary scores' staging buffer holds their block at every point (it is fetched at every point), for any proof
    data whose array is `V`'s and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The pairwise term's staging buffer holds its block at every point, fetched there or not: its block index is the
    image tile alone, so while the proposal tile runs the index does not move and the buffer, which the body leaves
    as it found it, still holds the block fetched when the image tile began. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: whole buffers, through the rectangle at offset zero -/

theorem zeros13_2 : (![0, 0] : Fin 2 → Nat) = fun _ => 0 := funext fun a => by fin_cases a <;> rfl
theorem zeros13_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k13_pay1 x1 x0`. Each load is of a whole buffer, so it reads the contents;
    the one store is of the whole buffer, so whatever was there before, the buffer reads as the stored value. -/
theorem sound_kernel13 (c : Dev nD) (E : Set ℕ) (i : grid13.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k13_pay1 x1 x0)) -∗ K ⟨⟩))
      ⊢ wp frame (wpE (defs₀ (F := F)) Variants.none c none) E (cc13__update_kernel i arg2 harg2 arg3 harg3 arg4 harg4) K := by
  simp only [cc13__update_kernel_eq_skeleton]; unfold cc13__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros13_3 inb_S8x256x601_S8x256x601_0_0_0 y⟩),
    View.canon_unit_zero (S := S8x256x601) zeros13_3]
  simp only [View.readAt_eq_ld, View.ld_unit_zero (S := S8x601) zeros13_2, View.ld_unit_zero (S := S8x256x601) zeros13_3]

/-! ## The region's proof data -/

/-- The proof data on core `c`: the arrays as the region finds them; after the body at point `t` each input's buffer
    at its block and the output's at the scores' block minus the pairwise block; the invariant is the scoped rest and
    the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => k13_pay1 (iblk13 V c 1 t) (iblk13 V c 0 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) :
    (dat13 V c).after 2 t = k13_pay1 (iblk13 V c 1 t) (iblk13 V c 0 t) := by dsimp only [dat13]

/-- Each input's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' memrefs hold their blocks, so the body's triple applies; the invariant and the
    core's debts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- The region's invariant is the class invariant itself, at the first point and after the last. -/
theorem hin13 (c : Dev nD) : (Pipeline.ΦA spec13 c : sProp 𝕄) ⊢ (dat13 V c).Φ 0 := .rfl
theorem hout13 (c : Dev nD) : (dat13 V c).Φ (Fin.last cfg13.N) ⊢ (Pipeline.ΦA spec13 c : sProp 𝕄) := .rfl

end Cert.Kernel.Frame
-- ==== Proof.K.Red14Runs.lean ====
/-
  The reduce call (custom_call 14): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond14_0 (i : grid14.Coords) : Prop := (Scalar.cmpi .ne (Scalar.extui (Scalar.cmpi .eq (BitVec.ofNat 32 (i 1).val) 0#32)) 0#32) = 1#1
theorem hcond14_0 : ∀ t : Fin cfg14.N, cond14_0 (grid14.coords t) ↔ t.val % 8 = 0 :=
  (by decide +kernel : ∀ t : Fin grid14.N, cond14_0 (grid14.coords t) ↔ t.val % 8 = 0)

/-- "this is the last proposal tile": the condition of the product's branch. -/
abbrev cond14_1 (i : grid14.Coords) : Prop := k14_cond2 i = 1#1
theorem hcond14_1 : ∀ t : Fin cfg14.N, cond14_1 (grid14.coords t) ↔ t.val % 8 = 7 :=
  (by decide +kernel : ∀ t : Fin grid14.N, cond14_1 (grid14.coords t) ↔ t.val % 8 = 7)

/-! ## Where the windows are idle -/

theorem liveAt14_0 : ∀ t : Fin cfg14.N, cfg14.idle 0 (grid14.coords t) = false := by decide +kernel
theorem liveAt14_1 : ∀ t : Fin cfg14.N, cfg14.idle 1 (grid14.coords t) = false := by decide +kernel
/-- Away from the last proposal tile the body stores nothing into the output block, -/
theorem idleAt14_2 : ∀ t : Fin cfg14.N, ¬cond14_1 (grid14.coords t) → cfg14.idle 2 (grid14.coords t) = true := by decide +kernel
/-- and the block is not written back there. -/
theorem noFlush14_2 : ∀ t : Fin cfg14.N, ¬cond14_1 (grid14.coords t) → (cfg14.win 2).flush t = false := by decide +kernel
/-- At the last proposal tile it is stored. -/
theorem liveAt14_2 : ∀ t : Fin cfg14.N, cond14_1 (grid14.coords t) → cfg14.idle 2 (grid14.coords t) = false := by decide +kernel

/-! ## The memrefs the body is called with -/

abbrev VO14_2 : View sig .tc .vmem S8x601 .f32 := (Memref.whole cc14_stg2_0 : Memref sig .tc .vmem S8x601 .f32).view
abbrev ms14_0 (t : Fin cfg14.N) : Memref sig .tc .vmem S8x256x601 .f32 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S601x601 .f32 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S8x601 .f32 := win14_2.stage (cfg14.slots t 2)
abbrev hs14_2 (t : Fin cfg14.N) : (ms14_2 t).IsWhole := hstage14_2 ((cfg14.slots t 2).cast nbuf14_2)
/-- The carried maximum's buffer: a whole scoped buffer of the call's own. -/
abbrev scM14_0 : Memref sig .tc .vmem S8x601 .f32 := Memref.whole cc14_scratch0
abbrev VS14_0 : View sig .tc .vmem S8x601 .f32 := scM14_0.view

/-- The class invariant with the carried maximum's buffer taken out of the scoped rest: that buffer at some
    contents, every other scoped buffer unopened, the generator register at some state. -/
theorem PhiA14_eq (c : Dev nD) :
    (Pipeline.ΦA spec14 c : sProp 𝕄)
      = iprop(iprop(iprop((∃ d, owns (c : Thread nD τ) scM14_0 fullShare d)) ∗ Pipeline.scopedRestBut (Ix := Unit) (Name := ℕ) (U := UR sig nD τ) (Lvl := ℕ) (Val := Elt F) spec14 c [cc14_scratch0]) ∗ (∃ r, prngReg c r)) := by
  unfold Pipeline.ΦA; rw [scopedRest14_split]; simp only [scM14_0, owns_whole]; try rfl

/-! ## The input windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The scores' staging buffer holds the point's block whenever the body runs, -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- and so does the matrix's, fetched once: its block index never moves. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

end Cert.Kernel.Frame

end
-- ==== Proof.K.Red14Run.lean ====
/-
  The reduce call's body (custom_call 14) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.K.Red14Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun14_A (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond14_0 i) (hc1 : ¬cond14_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc14__reduce_kernel i arg2 harg2 arg3 harg3 arg4 harg4 arg5 harg5) K } := by
  refine ⟨?_, fun E K => ?run⟩
  case run =>
    simp only [cc14__reduce_kernel_eq_skeleton]; unfold cc14__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun14_B (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : ¬cond14_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc14__reduce_kernel i arg2 harg2 arg3 harg3 arg4 harg4 arg5 harg5) K } := by
  refine ⟨?_, fun E K => ?run⟩
  case run =>
    simp only [cc14__reduce_kernel_eq_skeleton]; unfold cc14__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun14_C (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc14__reduce_kernel i arg2 harg2 arg3 harg3 arg4 harg4 arg5 harg5) K } := by
  refine ⟨?_, ?_, fun E K => ?run⟩
  case run =>
    simp only [cc14__reduce_kernel_eq_skeleton]; unfold cc14__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Red14.lean ====
/-
  The reduce call (custom_call 14) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.K.Red14Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover14_A_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond14_0 i) (hc1 : ¬cond14_1 i) (x0 : Vec F S8x256x601 .f32) (y : S8x601.Idx) :
    ∃ pc ∈ (kernelRun14_A c i arg2 harg2 arg3 harg3 arg4 harg4 arg5 harg5 hc0 hc1 x0).1, y ∈ pc.1.set :=
  View.cover_of_tiledL (kernelRun14_A c i arg2 harg2 arg3 harg3 arg4 harg4 arg5 harg5 hc0 hc1 x0).1 S8x601.size (by sl_kernel_rfl) y
/-- The carried buffer after a first proposal tile: its pieces read back. -/
def sout14_A_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond14_0 i) (hc1 : ¬cond14_1 i) (x0 : Vec F S8x256x601 .f32) : Vec F S8x601 .f32 :=
  VS14_0.read (Elt F) (VS14_0.writes (Elt F) VS14_0.junk (kernelRun14_A c i arg2 harg2 arg3 harg3 arg4 harg4 arg5 harg5 hc0 hc1 x0).1)

theorem scover14_B_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : ¬cond14_1 i) (x0 : Vec F S8x256x601 .f32) (xs0 : Vec F S8x601 .f32) (y : S8x601.Idx) :
    ∃ pc ∈ (kernelRun14_B c i arg2 harg2 arg3 harg3 arg4 harg4 arg5 harg5 hc0 hc1 x0 xs0).1, y ∈ pc.1.set :=
  View.cover_of_tiledL (kernelRun14_B c i arg2 harg2 arg3 harg3 arg4 harg4 arg5 harg5 hc0 hc1 x0 xs0).1 S8x601.size (by sl_kernel_rfl) y
/-- The carried buffer after an inner proposal tile. -/
def sout14_B_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : ¬cond14_1 i) (x0 : Vec F S8x256x601 .f32) (xs0 : Vec F S8x601 .f32) : Vec F S8x601 .f32 :=
  VS14_0.read (Elt F) (VS14_0.writes (Elt F) VS14_0.junk (kernelRun14_B c i arg2 harg2 arg3 harg3 arg4 harg4 arg5 harg5 hc0 hc1 x0 xs0).1)

theorem cover14_C_2 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i) (x0 : Vec F S8x256x601 .f32) (x1 : Vec F S601x601 .f32) (xs0 : Vec F S8x601 .f32) (y : S8x601.Idx) :
    ∃ pc ∈ (kernelRun14_C c i arg2 harg2 arg3 harg3 arg4 harg4 arg5 harg5 hc0 hc1 x0 x1 xs0).1, y ∈ pc.1.set :=
  View.cover_of_tiledL (kernelRun14_C c i arg2 harg2 arg3 harg3 arg4 harg4 arg5 harg5 hc0 hc1 x0 x1 xs0).1 S8x601.size (by sl_kernel_rfl) y
/-- The output block after a last proposal tile. -/
def out14_C_2 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i) (x0 : Vec F S8x256x601 .f32) (x1 : Vec F S601x601 .f32) (xs0 : Vec F S8x601 .f32) : Vec F S8x601 .f32 :=
  VO14_2.read (Elt F) (VO14_2.writes (Elt F) VO14_2.junk (kernelRun14_C c i arg2 harg2 arg3 harg3 arg4 harg4 arg5 harg5 hc0 hc1 x0 x1 xs0).1)
theorem scover14_C_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i) (x0 : Vec F S8x256x601 .f32) (x1 : Vec F S601x601 .f32) (xs0 : Vec F S8x601 .f32) (y : S8x601.Idx) :
    ∃ pc ∈ (kernelRun14_C c i arg2 harg2 arg3 harg3 arg4 harg4 arg5 harg5 hc0 hc1 x0 x1 xs0).2.1, y ∈ pc.1.set :=
  View.cover_of_tiledL (kernelRun14_C c i arg2 harg2 arg3 harg3 arg4 harg4 arg5 harg5 hc0 hc1 x0 x1 xs0).2.1 S8x601.size (by sl_kernel_rfl) y
/-- The carried buffer after a last proposal tile. -/
def sout14_C_0 (c : Dev nD) (i : grid14.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond14_0 i) (hc1 : cond14_1 i) (x0 : Vec F S8x256x601 .f32) (x1 : Vec F S601x601 .f32) (xs0 : Vec F S8x601 .f32) : Vec F S8x601 .f32 :=
  VS14_0.read (Elt F) (VS14_0.writes (Elt F) VS14_0.junk (kernelRun14_C c i arg2 harg2 arg3 harg3 arg4 harg4 arg5 harg5 hc0 hc1 x0 x1 xs0).2.1)

/-- What stands for the output block where the body does not store it (nothing consults it there). -/
def idleOut14 : Vec F S8x601 .f32 := VO14_2.read (Elt F) VO14_2.junk

/-! ## The accumulation over the grid points -/

/-- After the body at position `n`: (the output block, the carried buffer). -/
def outsAt14 (c : Dev nD) : (n : ℕ) → n < cfg14.N → Vec F S8x601 .f32 × Vec F S8x601 .f32
  | 0, hn => (idleOut14, sout14_A_0 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩))
  | n + 1, hn =>
    if h0 : (n + 1) % 8 = 0 then
      if h1 : (n + 1) % 8 = 7 then
        False.elim (by omega)
      else
        (idleOut14, sout14_A_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩))
    else
      if h1 : (n + 1) % 8 = 7 then
        (out14_C_2 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (outsAt14 c n (Nat.lt_of_succ_lt hn)).2,
         sout14_C_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (outsAt14 c n (Nat.lt_of_succ_lt hn)).2)
      else
        (idleOut14, sout14_B_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (outsAt14 c n (Nat.lt_of_succ_lt hn)).2)

theorem outsAt14_A (c : Dev nD) (t : Fin cfg14.N) (h0 : t.val % 8 = 0) (h1 : ¬t.val % 8 = 7) :
    outsAt14 V c t.val t.isLt = (idleOut14, sout14_A_0 c (grid14.coords t) (ms14_0 t) (hs14_0 t) (ms14_1 t) (hs14_1 t) (ms14_2 t) (hs14_2 t) scM14_0 (Memref.isWhole_whole _) ((hcond14_0 t).mpr h0) (fun h => h1 ((hcond14_1 t).mp h)) (iblk14 V c 0 t)) := by
  obtain ⟨n, hn⟩ := t
  cases n with
  | zero => exact rfl
  | succ n => exact (dif_pos h0).trans ((dif_neg h1).trans rfl)

theorem outsAt14_B (c : Dev nD) (t : Fin cfg14.N) (h0 : ¬t.val % 8 = 0) (h1 : ¬t.val % 8 = 7) :
    outsAt14 V c t.val t.isLt = (idleOut14, sout14_B_0 c (grid14.coords t) (ms14_0 t) (hs14_0 t) (ms14_1 t) (hs14_1 t) (ms14_2 t) (hs14_2 t) scM14_0 (Memref.isWhole_whole _) (fun h => h0 ((hcond14_0 t).mp h)) (fun h => h1 ((hcond14_1 t).mp h)) (iblk14 V c 0 t) (outsAt14 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt14_C (c : Dev nD) (t : Fin cfg14.N) (h0 : ¬t.val % 8 = 0) (h1 : t.val % 8 = 7) :
    outsAt14 V c t.val t.isLt = (out14_C_2 c (grid14.coords t) (ms14_0 t) (hs14_0 t) (ms14_1 t) (hs14_1 t) (ms14_2 t) (hs14_2 t) scM14_0 (Memref.isWhole_whole _) (fun h => h0 ((hcond14_0 t).mp h)) ((hcond14_1 t).mpr h1) (iblk14 V c 0 t) (iblk14 V c 1 t) (outsAt14 V c (t.val - 1) (Nat.lt_of_le_of_lt (Nat.sub_le _ _) t.isLt)).2,
      sout14_C_0 c (grid14.coords t) (ms14_0 t) (hs14_0 t) (ms14_1 t) (hs14_1 t) (ms14_2 t) (hs14_2 t) scM14_0 (Memref.isWhole_whole _) (fun h => h0 ((hcond14_0 t).mp h)) ((hcond14_1 t).mpr h1) (iblk14 V c 0 t) (iblk14 V c 1 t) (outsAt14 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS14 (c : Dev nD) : (n : ℕ) → n ≤ cfg14.N → sProp 𝕄
  | 0, _ => Pipeline.ΦA spec14 c
  | n + 1, hn => iprop(iprop(owns (c : Thread nD τ) scM14_0 fullShare ((outsAt14 V c n hn).2) ∗ Pipeline.scopedRestBut (Ix := Unit) (Name := ℕ) (U := UR sig nD τ) (Lvl := ℕ) (Val := Elt F) spec14 c [cc14_scratch0]) ∗ (∃ r, prngReg c r))

theorem PhiS14_zero (c : Dev nD) (n : ℕ) (h : n ≤ cfg14.N) (hz : n = 0) : PhiS14 V c n h = Pipeline.ΦA spec14 c := by
  subst hz; rfl
theorem PhiS14_succ (c : Dev nD) (n : ℕ) (hn : n < cfg14.N) :
    PhiS14 V c (n + 1) hn = iprop(iprop(owns (c : Thread nD τ) scM14_0 fullShare ((outsAt14 V c n hn).2) ∗ Pipeline.scopedRestBut (Ix := Unit) (Name := ℕ) (U := UR sig nD τ) (Lvl := ℕ) (Val := Elt F) spec14 c [cc14_scratch0]) ∗ (∃ r, prngReg c r)) := rfl
theorem PhiS14_pos (c : Dev nD) (n : ℕ) (h : n ≤ cfg14.N) (hz : n ≠ 0) :
    PhiS14 V c n h = iprop(iprop(owns (c : Thread nD τ) scM14_0 fullShare ((outsAt14 V c (n - 1) (by omega)).2) ∗ Pipeline.scopedRestBut (Ix := Unit) (Name := ℕ) (U := UR sig nD τ) (Lvl := ℕ) (Val := Elt F) spec14 c [cc14_scratch0]) ∗ (∃ r, prngReg c r)) := by
  cases n with
  | zero => exact absurd rfl hz
  | succ n => rfl

/-! ## The proof data -/

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => (outsAt14 V c t.val t.isLt).1
  Φ t := PhiS14 V c t.val (Nat.le_of_lt_succ t.isLt)
  q _ := fullShare
  owed _ := 0

theorem A_eq14 (c : Dev nD) (w : Fin cfg14.W) : (dat14 V c).A w = V c (Pipeline.arrRef spec14 w) := by
  dsimp only [dat14]
theorem PhiS14_castSucc (c : Dev nD) (t : Fin cfg14.N) :
    (dat14 V c).Φ t.castSucc = PhiS14 V c t.val (Nat.le_of_lt t.isLt) := by
  dsimp only [dat14]; simp only [Fin.coe_castSucc]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = (outsAt14 V c t.val t.isLt).1 := by dsimp only [dat14]
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-! ## The body obligation -/

def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d)))

def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4800000 in
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = PhiS14 V c (t.val + 1) t.isLt from rfl, PhiS14_succ]
  have hN : t.val < 32 := lt_of_lt_of_eq t.isLt (show cfg14.N = 32 from N_14)
  rw [show (dat14 V c).leavesExact 0 t = owns (c : Thread nD τ) (ms14_0 t) fullShare ((dat14 V c).after 0 t) from by
    unfold Dat.leavesExact; rw [liveAt14_0 t], after14_0]
  rw [show (dat14 V c).leavesExact 1 t = owns (c : Thread nD τ) (ms14_1 t) fullShare ((dat14 V c).after 1 t) from by
    unfold Dat.leavesExact; rw [liveAt14_1 t], after14_1]
  by_cases h0 : t.val % 8 = 0
  · have h1 : ¬t.val % 8 = 7 := by omega
    have hc1 : ¬cond14_1 (grid14.coords t) := fun h => h1 ((hcond14_1 t).mp h)
    rw [Dat.leavesExact_idle (dat14 V c) 2 t (idleAt14_2 t hc1) (noFlush14_2 t hc1)]
    rw [outsAt14_A V c t h0 h1]
    unfold sout14_A_0; (try dsimp only)
    by_cases hz : t.val = 0
    · rw [PhiS14_castSucc V c t, PhiS14_zero V c _ _ hz, PhiA14_eq]
      iintro ⟨⟨⟨HS0, HR⟩, Hg⟩, Ho, ⟨%d0, H0⟩, ⟨%d1, H1⟩, ⟨%d2, H2⟩⟩
      iapply ((kernelRun14_A c (grid14.coords t) _ _ _ _ _ _ _ _ ((hcond14_0 t).mpr h0) hc1 (iblk14 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover14_A_0 c _ _ _ _ _ _ _ _ _ _ _ _)
          iexact HR
        iexact Hg
      isplitl [Ho]; · iexact Ho
      isplitl [H0]; · iexact H0
      isplitl [H1]; · iexact H1
      iexists _; iexact H2
    · rw [PhiS14_castSucc V c t, PhiS14_pos V c _ _ hz]
      iintro ⟨⟨⟨HS0, HR⟩, Hg⟩, Ho, ⟨%d0, H0⟩, ⟨%d1, H1⟩, ⟨%d2, H2⟩⟩
      iapply ((kernelRun14_A c (grid14.coords t) _ _ _ _ _ _ _ _ ((hcond14_0 t).mpr h0) hc1 (iblk14 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover14_A_0 c _ _ _ _ _ _ _ _ _ _ _ _)
          iexact HR
        iexact Hg
      isplitl [Ho]; · iexact Ho
      isplitl [H0]; · iexact H0
      isplitl [H1]; · iexact H1
      iexists _; iexact H2
  · have hc0 : ¬cond14_0 (grid14.coords t) := fun h => h0 ((hcond14_0 t).mp h)
    have hz : t.val ≠ 0 := fun e => h0 (by rw [e])
    by_cases h1 : t.val % 8 = 7
    · have hc1 : cond14_1 (grid14.coords t) := (hcond14_1 t).mpr h1
      rw [show (dat14 V c).leavesExact 2 t = owns (c : Thread nD τ) (ms14_2 t) fullShare ((dat14 V c).after 2 t) from by
        unfold Dat.leavesExact; rw [liveAt14_2 t hc1], after14_2]
      rw [outsAt14_C V c t h0 h1]
      unfold out14_C_2 sout14_C_0; (try dsimp only)
      rw [PhiS14_castSucc V c t, PhiS14_pos V c _ _ hz]
      iintro ⟨⟨⟨HS0, HR⟩, Hg⟩, Ho, ⟨%d0, H0⟩, ⟨%d1, H1⟩, ⟨%d2, H2⟩⟩
      iapply ((kernelRun14_C c (grid14.coords t) _ _ _ _ _ _ _ _ hc0 hc1 (iblk14 V c 0 t) (iblk14 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover14_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover14_C_2 c _ _ _ _ _ _ _ _ _ _ _ _ _ _)
    · have hc1 : ¬cond14_1 (grid14.coords t) := fun h => h1 ((hcond14_1 t).mp h)
      rw [Dat.leavesExact_idle (dat14 V c) 2 t (idleAt14_2 t hc1) (noFlush14_2 t hc1)]
      rw [outsAt14_B V c t h0 h1]
      unfold sout14_B_0; (try dsimp only)
      rw [PhiS14_castSucc V c t, PhiS14_pos V c _ _ hz]
      iintro ⟨⟨⟨HS0, HR⟩, Hg⟩, Ho, ⟨%d0, H0⟩, ⟨%d1, H1⟩, ⟨%d2, H2⟩⟩
      iapply ((kernelRun14_B c (grid14.coords t) _ _ _ _ _ _ _ _ hc0 hc1 (iblk14 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover14_B_0 c _ _ _ _ _ _ _ _ _ _ _ _ _)
          iexact HR
        iexact Hg
      isplitl [Ho]; · iexact Ho
      isplitl [H0]; · iexact H0
      isplitl [H1]; · iexact H1
      iexists _; iexact H2

theorem body_obligation14 (c : Dev nD) : BodyObligation (dat14 (F := F) V c) (defs₀ (F := F)) Variants.none () Set.univ := fun t => by
  rw [bigSep_W14, bigSep_W14]
  exact sound_body14 V c t

/-- What the launch hands the region is the invariant before the first point. -/
theorem hin14 (c : Dev nD) : (Pipeline.ΦA spec14 c : sProp 𝕄) ⊢ (dat14 V c).Φ 0 := by
  rw [show (dat14 V c).Φ 0 = PhiS14 V c 0 (Nat.zero_le _) from rfl, PhiS14_zero V c 0 _ rfl]
  try exact Idealize.SL.BI.Entails.refl _

/-- After any point but the first the invariant gives the class's back: what the carried buffer holds is forgotten. -/
theorem Phi_out14 (c : Dev nD) (t : Fin (cfg14.N + 1)) (ht : t.val ≠ 0) : (dat14 V c).Φ t ⊢ (Pipeline.ΦA spec14 c : sProp 𝕄) := by
  rw [show (dat14 V c).Φ t = PhiS14 V c t.val (Nat.le_of_lt_succ t.isLt) from rfl, PhiS14_pos V c _ _ ht, PhiA14_eq]
  iintro ⟨⟨HS0, HR⟩, Hg⟩
  isplitl [HS0 HR]
  · isplitl [HS0]
    · iexists _; iexact HS0
    iexact HR
  iexact Hg

theorem hout14 (c : Dev nD) : (dat14 V c).Φ (Fin.last cfg14.N) ⊢ (Pipeline.ΦA spec14 c : sProp 𝕄) :=
  Phi_out14 V c _ (by rw [Fin.val_last]; have : cfg14.N = 32 := N_14; omega)

end Cert.Kernel.Frame

end
-- ==== Proof.K.Upd15.lean ====
/-
  The update step of the mean-field refinement (custom_call 15) as one region of the kernel program: what each
  window's staging buffer holds before and after the body at every grid point, the body's triple, and the body
  obligation the launch theorems ask for — at any float instance.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 15), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The unary scores' staging buffer holds their block at every point (it is fetched at every point), for any proof
    data whose array is `V`'s and whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- The pairwise term's staging buffer holds its block at every point, fetched there or not: its block index is the
    image tile alone, so while the proposal tile runs the index does not move and the buffer, which the body leaves
    as it found it, still holds the block fetched when the image tile began. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses: whole buffers, through the rectangle at offset zero -/

theorem zeros15_2 : (![0, 0] : Fin 2 → Nat) = fun _ => 0 := funext fun a => by fin_cases a <;> rfl
theorem zeros15_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k15_pay1 x1 x0`. Each load is of a whole buffer, so it reads the contents;
    the one store is of the whole buffer, so whatever was there before, the buffer reads as the stored value. -/
theorem sound_kernel15 (c : Dev nD) (E : Set ℕ) (i : grid15.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k15_pay1 x1 x0)) -∗ K ⟨⟩))
      ⊢ wp frame (wpE (defs₀ (F := F)) Variants.none c none) E (cc15__update_kernel i arg2 harg2 arg3 harg3 arg4 harg4) K := by
  simp only [cc15__update_kernel_eq_skeleton]; unfold cc15__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros15_3 inb_S8x256x601_S8x256x601_0_0_0 y⟩),
    View.canon_unit_zero (S := S8x256x601) zeros15_3]
  simp only [View.readAt_eq_ld, View.ld_unit_zero (S := S8x601) zeros15_2, View.ld_unit_zero (S := S8x256x601) zeros15_3]

/-! ## The region's proof data -/

/-- The proof data on core `c`: the arrays as the region finds them; after the body at point `t` each input's buffer
    at its block and the output's at the scores' block minus the pairwise block; the invariant is the scoped rest and
    the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => k15_pay1 (iblk15 V c 1 t) (iblk15 V c 0 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) :
    (dat15 V c).after 2 t = k15_pay1 (iblk15 V c 1 t) (iblk15 V c 0 t) := by dsimp only [dat15]

/-- Each input's current staging buffer holds its block at every point. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

/-- The body at any point: the inputs' memrefs hold their blocks, so the body's triple applies; the invariant and the
    core's debts pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation15 (c : Dev nD) : BodyObligation (dat15 (F := F) V c) (defs₀ (F := F)) Variants.none () Set.univ := fun t => by
  rw [bigSep_W15, bigSep_W15]
  exact sound_body15 V c t

/-- The region's invariant is the class invariant itself, at the first point and after the last. -/
theorem hin15 (c : Dev nD) : (Pipeline.ΦA spec15 c : sProp 𝕄) ⊢ (dat15 V c).Φ 0 := .rfl
theorem hout15 (c : Dev nD) : (dat15 V c).Φ (Fin.last cfg15.N) ⊢ (Pipeline.ΦA spec15 c : sProp 𝕄) := .rfl

end Cert.Kernel.Frame
-- ==== Proof.K.Red16Runs.lean ====
/-
  The reduce call (custom_call 16): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond16_0 (i : grid16.Coords) : Prop := (Scalar.cmpi .ne (Scalar.extui (Scalar.cmpi .eq (BitVec.ofNat 32 (i 1).val) 0#32)) 0#32) = 1#1
theorem hcond16_0 : ∀ t : Fin cfg16.N, cond16_0 (grid16.coords t) ↔ t.val % 8 = 0 :=
  (by decide +kernel : ∀ t : Fin grid16.N, cond16_0 (grid16.coords t) ↔ t.val % 8 = 0)

/-- "this is the last proposal tile": the condition of the product's branch. -/
abbrev cond16_1 (i : grid16.Coords) : Prop := k16_cond2 i = 1#1
theorem hcond16_1 : ∀ t : Fin cfg16.N, cond16_1 (grid16.coords t) ↔ t.val % 8 = 7 :=
  (by decide +kernel : ∀ t : Fin grid16.N, cond16_1 (grid16.coords t) ↔ t.val % 8 = 7)

/-! ## Where the windows are idle -/

theorem liveAt16_0 : ∀ t : Fin cfg16.N, cfg16.idle 0 (grid16.coords t) = false := by decide +kernel
theorem liveAt16_1 : ∀ t : Fin cfg16.N, cfg16.idle 1 (grid16.coords t) = false := by decide +kernel
/-- Away from the last proposal tile the body stores nothing into the output block, -/
theorem idleAt16_2 : ∀ t : Fin cfg16.N, ¬cond16_1 (grid16.coords t) → cfg16.idle 2 (grid16.coords t) = true := by decide +kernel
/-- and the block is not written back there. -/
theorem noFlush16_2 : ∀ t : Fin cfg16.N, ¬cond16_1 (grid16.coords t) → (cfg16.win 2).flush t = false := by decide +kernel
/-- At the last proposal tile it is stored. -/
theorem liveAt16_2 : ∀ t : Fin cfg16.N, cond16_1 (grid16.coords t) → cfg16.idle 2 (grid16.coords t) = false := by decide +kernel

/-! ## The memrefs the body is called with -/

abbrev VO16_2 : View sig .tc .vmem S8x601 .f32 := (Memref.whole cc16_stg2_0 : Memref sig .tc .vmem S8x601 .f32).view
abbrev ms16_0 (t : Fin cfg16.N) : Memref sig .tc .vmem S8x256x601 .f32 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S601x601 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S8x601 .f32 := win16_2.stage (cfg16.slots t 2)
abbrev hs16_2 (t : Fin cfg16.N) : (ms16_2 t).IsWhole := hstage16_2 ((cfg16.slots t 2).cast nbuf16_2)
/-- The carried maximum's buffer: a whole scoped buffer of the call's own. -/
abbrev scM16_0 : Memref sig .tc .vmem S8x601 .f32 := Memref.whole cc16_scratch0
abbrev VS16_0 : View sig .tc .vmem S8x601 .f32 := scM16_0.view

/-- The class invariant with the carried maximum's buffer taken out of the scoped rest: that buffer at some
    contents, every other scoped buffer unopened, the generator register at some state. -/
theorem PhiA16_eq (c : Dev nD) :
    (Pipeline.ΦA spec16 c : sProp 𝕄)
      = iprop(iprop(iprop((∃ d, owns (c : Thread nD τ) scM16_0 fullShare d)) ∗ Pipeline.scopedRestBut (Ix := Unit) (Name := ℕ) (U := UR sig nD τ) (Lvl := ℕ) (Val := Elt F) spec16 c [cc16_scratch0]) ∗ (∃ r, prngReg c r)) := by
  unfold Pipeline.ΦA; rw [scopedRest16_split]; simp only [scM16_0, owns_whole]; try rfl

/-! ## The input windows' blocks -/

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- The scores' staging buffer holds the point's block whenever the body runs, -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- and so does the matrix's, fetched once: its block index never moves. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

end Cert.Kernel.Frame

end
-- ==== Proof.K.Red16Run.lean ====
/-
  The reduce call's body (custom_call 16) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.K.Red16Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun16_A (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond16_0 i) (hc1 : ¬cond16_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc16__reduce_kernel i arg2 harg2 arg3 harg3 arg4 harg4 arg5 harg5) K } := by
  refine ⟨?_, fun E K => ?run⟩
  case run =>
    simp only [cc16__reduce_kernel_eq_skeleton]; unfold cc16__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun16_B (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : ¬cond16_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc16__reduce_kernel i arg2 harg2 arg3 harg3 arg4 harg4 arg5 harg5) K } := by
  refine ⟨?_, fun E K => ?run⟩
  case run =>
    simp only [cc16__reduce_kernel_eq_skeleton]; unfold cc16__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun16_C (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc16__reduce_kernel i arg2 harg2 arg3 harg3 arg4 harg4 arg5 harg5) K } := by
  refine ⟨?_, ?_, fun E K => ?run⟩
  case run =>
    simp only [cc16__reduce_kernel_eq_skeleton]; unfold cc16__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Red16.lean ====
/-
  The reduce call (custom_call 16) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.K.Red16Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover16_A_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond16_0 i) (hc1 : ¬cond16_1 i) (x0 : Vec F S8x256x601 .f32) (y : S8x601.Idx) :
    ∃ pc ∈ (kernelRun16_A c i arg2 harg2 arg3 harg3 arg4 harg4 arg5 harg5 hc0 hc1 x0).1, y ∈ pc.1.set :=
  View.cover_of_tiledL (kernelRun16_A c i arg2 harg2 arg3 harg3 arg4 harg4 arg5 harg5 hc0 hc1 x0).1 S8x601.size (by sl_kernel_rfl) y
/-- The carried buffer after a first proposal tile: its pieces read back. -/
def sout16_A_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond16_0 i) (hc1 : ¬cond16_1 i) (x0 : Vec F S8x256x601 .f32) : Vec F S8x601 .f32 :=
  VS16_0.read (Elt F) (VS16_0.writes (Elt F) VS16_0.junk (kernelRun16_A c i arg2 harg2 arg3 harg3 arg4 harg4 arg5 harg5 hc0 hc1 x0).1)

theorem scover16_B_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : ¬cond16_1 i) (x0 : Vec F S8x256x601 .f32) (xs0 : Vec F S8x601 .f32) (y : S8x601.Idx) :
    ∃ pc ∈ (kernelRun16_B c i arg2 harg2 arg3 harg3 arg4 harg4 arg5 harg5 hc0 hc1 x0 xs0).1, y ∈ pc.1.set :=
  View.cover_of_tiledL (kernelRun16_B c i arg2 harg2 arg3 harg3 arg4 harg4 arg5 harg5 hc0 hc1 x0 xs0).1 S8x601.size (by sl_kernel_rfl) y
/-- The carried buffer after an inner proposal tile. -/
def sout16_B_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : ¬cond16_1 i) (x0 : Vec F S8x256x601 .f32) (xs0 : Vec F S8x601 .f32) : Vec F S8x601 .f32 :=
  VS16_0.read (Elt F) (VS16_0.writes (Elt F) VS16_0.junk (kernelRun16_B c i arg2 harg2 arg3 harg3 arg4 harg4 arg5 harg5 hc0 hc1 x0 xs0).1)

theorem cover16_C_2 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i) (x0 : Vec F S8x256x601 .f32) (x1 : Vec F S601x601 .f32) (xs0 : Vec F S8x601 .f32) (y : S8x601.Idx) :
    ∃ pc ∈ (kernelRun16_C c i arg2 harg2 arg3 harg3 arg4 harg4 arg5 harg5 hc0 hc1 x0 x1 xs0).1, y ∈ pc.1.set :=
  View.cover_of_tiledL (kernelRun16_C c i arg2 harg2 arg3 harg3 arg4 harg4 arg5 harg5 hc0 hc1 x0 x1 xs0).1 S8x601.size (by sl_kernel_rfl) y
/-- The output block after a last proposal tile. -/
def out16_C_2 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i) (x0 : Vec F S8x256x601 .f32) (x1 : Vec F S601x601 .f32) (xs0 : Vec F S8x601 .f32) : Vec F S8x601 .f32 :=
  VO16_2.read (Elt F) (VO16_2.writes (Elt F) VO16_2.junk (kernelRun16_C c i arg2 harg2 arg3 harg3 arg4 harg4 arg5 harg5 hc0 hc1 x0 x1 xs0).1)
theorem scover16_C_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i) (x0 : Vec F S8x256x601 .f32) (x1 : Vec F S601x601 .f32) (xs0 : Vec F S8x601 .f32) (y : S8x601.Idx) :
    ∃ pc ∈ (kernelRun16_C c i arg2 harg2 arg3 harg3 arg4 harg4 arg5 harg5 hc0 hc1 x0 x1 xs0).2.1, y ∈ pc.1.set :=
  View.cover_of_tiledL (kernelRun16_C c i arg2 harg2 arg3 harg3 arg4 harg4 arg5 harg5 hc0 hc1 x0 x1 xs0).2.1 S8x601.size (by sl_kernel_rfl) y
/-- The carried buffer after a last proposal tile. -/
def sout16_C_0 (c : Dev nD) (i : grid16.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond16_0 i) (hc1 : cond16_1 i) (x0 : Vec F S8x256x601 .f32) (x1 : Vec F S601x601 .f32) (xs0 : Vec F S8x601 .f32) : Vec F S8x601 .f32 :=
  VS16_0.read (Elt F) (VS16_0.writes (Elt F) VS16_0.junk (kernelRun16_C c i arg2 harg2 arg3 harg3 arg4 harg4 arg5 harg5 hc0 hc1 x0 x1 xs0).2.1)

/-- What stands for the output block where the body does not store it (nothing consults it there). -/
def idleOut16 : Vec F S8x601 .f32 := VO16_2.read (Elt F) VO16_2.junk

/-! ## The accumulation over the grid points -/

/-- After the body at position `n`: (the output block, the carried buffer). -/
def outsAt16 (c : Dev nD) : (n : ℕ) → n < cfg16.N → Vec F S8x601 .f32 × Vec F S8x601 .f32
  | 0, hn => (idleOut16, sout16_A_0 c (grid16.coords ⟨0, hn⟩) (ms16_0 ⟨0, hn⟩) (hs16_0 ⟨0, hn⟩) (ms16_1 ⟨0, hn⟩) (hs16_1 ⟨0, hn⟩) (ms16_2 ⟨0, hn⟩) (hs16_2 ⟨0, hn⟩) scM16_0 (Memref.isWhole_whole _) ((hcond16_0 ⟨0, hn⟩).mpr (Nat.zero_mod _)) (fun h => (fun h => by (try dsimp only at h); omega) ((hcond16_1 ⟨0, hn⟩).mp h)) (iblk16 V c 0 ⟨0, hn⟩))
  | n + 1, hn =>
    if h0 : (n + 1) % 8 = 0 then
      if h1 : (n + 1) % 8 = 7 then
        False.elim (by omega)
      else
        (idleOut16, sout16_A_0 c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16_0 (Memref.isWhole_whole _) ((hcond16_0 ⟨n + 1, hn⟩).mpr h0) (fun h => h1 ((hcond16_1 ⟨n + 1, hn⟩).mp h)) (iblk16 V c 0 ⟨n + 1, hn⟩))
    else
      if h1 : (n + 1) % 8 = 7 then
        (out16_C_2 c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16_0 (Memref.isWhole_whole _) (fun h => h0 ((hcond16_0 ⟨n + 1, hn⟩).mp h)) ((hcond16_1 ⟨n + 1, hn⟩).mpr h1) (iblk16 V c 0 ⟨n + 1, hn⟩) (iblk16 V c 1 ⟨n + 1, hn⟩) (outsAt16 c n (Nat.lt_of_succ_lt hn)).2,
         sout16_C_0 c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16_0 (Memref.isWhole_whole _) (fun h => h0 ((hcond16_0 ⟨n + 1, hn⟩).mp h)) ((hcond16_1 ⟨n + 1, hn⟩).mpr h1) (iblk16 V c 0 ⟨n + 1, hn⟩) (iblk16 V c 1 ⟨n + 1, hn⟩) (outsAt16 c n (Nat.lt_of_succ_lt hn)).2)
      else
        (idleOut16, sout16_B_0 c (grid16.coords ⟨n + 1, hn⟩) (ms16_0 ⟨n + 1, hn⟩) (hs16_0 ⟨n + 1, hn⟩) (ms16_1 ⟨n + 1, hn⟩) (hs16_1 ⟨n + 1, hn⟩) (ms16_2 ⟨n + 1, hn⟩) (hs16_2 ⟨n + 1, hn⟩) scM16_0 (Memref.isWhole_whole _) (fun h => h0 ((hcond16_0 ⟨n + 1, hn⟩).mp h)) (fun h => h1 ((hcond16_1 ⟨n + 1, hn⟩).mp h)) (iblk16 V c 0 ⟨n + 1, hn⟩) (outsAt16 c n (Nat.lt_of_succ_lt hn)).2)

theorem outsAt16_A (c : Dev nD) (t : Fin cfg16.N) (h0 : t.val % 8 = 0) (h1 : ¬t.val % 8 = 7) :
    outsAt16 V c t.val t.isLt = (idleOut16, sout16_A_0 c (grid16.coords t) (ms16_0 t) (hs16_0 t) (ms16_1 t) (hs16_1 t) (ms16_2 t) (hs16_2 t) scM16_0 (Memref.isWhole_whole _) ((hcond16_0 t).mpr h0) (fun h => h1 ((hcond16_1 t).mp h)) (iblk16 V c 0 t)) := by
  obtain ⟨n, hn⟩ := t
  cases n with
  | zero => exact rfl
  | succ n => exact (dif_pos h0).trans ((dif_neg h1).trans rfl)

theorem outsAt16_B (c : Dev nD) (t : Fin cfg16.N) (h0 : ¬t.val % 8 = 0) (h1 : ¬t.val % 8 = 7) :
    outsAt16 V c t.val t.isLt = (idleOut16, sout16_B_0 c (grid16.coords t) (ms16_0 t) (hs16_0 t) (ms16_1 t) (hs16_1 t) (ms16_2 t) (hs16_2 t) scM16_0 (Memref.isWhole_whole _) (fun h => h0 ((hcond16_0 t).mp h)) (fun h => h1 ((hcond16_1 t).mp h)) (iblk16 V c 0 t) (outsAt16 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt16_C (c : Dev nD) (t : Fin cfg16.N) (h0 : ¬t.val % 8 = 0) (h1 : t.val % 8 = 7) :
    outsAt16 V c t.val t.isLt = (out16_C_2 c (grid16.coords t) (ms16_0 t) (hs16_0 t) (ms16_1 t) (hs16_1 t) (ms16_2 t) (hs16_2 t) scM16_0 (Memref.isWhole_whole _) (fun h => h0 ((hcond16_0 t).mp h)) ((hcond16_1 t).mpr h1) (iblk16 V c 0 t) (iblk16 V c 1 t) (outsAt16 V c (t.val - 1) (Nat.lt_of_le_of_lt (Nat.sub_le _ _) t.isLt)).2,
      sout16_C_0 c (grid16.coords t) (ms16_0 t) (hs16_0 t) (ms16_1 t) (hs16_1 t) (ms16_2 t) (hs16_2 t) scM16_0 (Memref.isWhole_whole _) (fun h => h0 ((hcond16_0 t).mp h)) ((hcond16_1 t).mpr h1) (iblk16 V c 0 t) (iblk16 V c 1 t) (outsAt16 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS16 (c : Dev nD) : (n : ℕ) → n ≤ cfg16.N → sProp 𝕄
  | 0, _ => Pipeline.ΦA spec16 c
  | n + 1, hn => iprop(iprop(owns (c : Thread nD τ) scM16_0 fullShare ((outsAt16 V c n hn).2) ∗ Pipeline.scopedRestBut (Ix := Unit) (Name := ℕ) (U := UR sig nD τ) (Lvl := ℕ) (Val := Elt F) spec16 c [cc16_scratch0]) ∗ (∃ r, prngReg c r))

theorem PhiS16_zero (c : Dev nD) (n : ℕ) (h : n ≤ cfg16.N) (hz : n = 0) : PhiS16 V c n h = Pipeline.ΦA spec16 c := by
  subst hz; rfl
theorem PhiS16_succ (c : Dev nD) (n : ℕ) (hn : n < cfg16.N) :
    PhiS16 V c (n + 1) hn = iprop(iprop(owns (c : Thread nD τ) scM16_0 fullShare ((outsAt16 V c n hn).2) ∗ Pipeline.scopedRestBut (Ix := Unit) (Name := ℕ) (U := UR sig nD τ) (Lvl := ℕ) (Val := Elt F) spec16 c [cc16_scratch0]) ∗ (∃ r, prngReg c r)) := rfl
theorem PhiS16_pos (c : Dev nD) (n : ℕ) (h : n ≤ cfg16.N) (hz : n ≠ 0) :
    PhiS16 V c n h = iprop(iprop(owns (c : Thread nD τ) scM16_0 fullShare ((outsAt16 V c (n - 1) (by omega)).2) ∗ Pipeline.scopedRestBut (Ix := Unit) (Name := ℕ) (U := UR sig nD τ) (Lvl := ℕ) (Val := Elt F) spec16 c [cc16_scratch0]) ∗ (∃ r, prngReg c r)) := by
  cases n with
  | zero => exact absurd rfl hz
  | succ n => rfl

/-! ## The proof data -/

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => (outsAt16 V c t.val t.isLt).1
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]
theorem PhiS16_castSucc (c : Dev nD) (t : Fin cfg16.N) :
    (dat16 V c).Φ t.castSucc = PhiS16 V c t.val (Nat.le_of_lt t.isLt) := by
  dsimp only [dat16]; simp only [Fin.coe_castSucc]
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = (outsAt16 V c t.val t.isLt).1 := by dsimp only [dat16]
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-! ## The body obligation -/

def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d)))

def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t)

set_option maxHeartbeats 4800000 in
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).owesAt () t.succ = (dat16 V c).owesAt () t.castSucc from rfl]
  rw [show (dat16 V c).Φ t.succ = PhiS16 V c (t.val + 1) t.isLt from rfl, PhiS16_succ]
  have hN : t.val < 32 := lt_of_lt_of_eq t.isLt (show cfg16.N = 32 from N_16)
  rw [show (dat16 V c).leavesExact 0 t = owns (c : Thread nD τ) (ms16_0 t) fullShare ((dat16 V c).after 0 t) from by
    unfold Dat.leavesExact; rw [liveAt16_0 t], after16_0]
  rw [show (dat16 V c).leavesExact 1 t = owns (c : Thread nD τ) (ms16_1 t) fullShare ((dat16 V c).after 1 t) from by
    unfold Dat.leavesExact; rw [liveAt16_1 t], after16_1]
  by_cases h0 : t.val % 8 = 0
  · have h1 : ¬t.val % 8 = 7 := by omega
    have hc1 : ¬cond16_1 (grid16.coords t) := fun h => h1 ((hcond16_1 t).mp h)
    rw [Dat.leavesExact_idle (dat16 V c) 2 t (idleAt16_2 t hc1) (noFlush16_2 t hc1)]
    rw [outsAt16_A V c t h0 h1]
    unfold sout16_A_0; (try dsimp only)
    by_cases hz : t.val = 0
    · rw [PhiS16_castSucc V c t, PhiS16_zero V c _ _ hz, PhiA16_eq]
      iintro ⟨⟨⟨HS0, HR⟩, Hg⟩, Ho, ⟨%d0, H0⟩, ⟨%d1, H1⟩, ⟨%d2, H2⟩⟩
      iapply ((kernelRun16_A c (grid16.coords t) _ _ _ _ _ _ _ _ ((hcond16_0 t).mpr h0) hc1 (iblk16 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_A_0 c _ _ _ _ _ _ _ _ _ _ _ _)
          iexact HR
        iexact Hg
      isplitl [Ho]; · iexact Ho
      isplitl [H0]; · iexact H0
      isplitl [H1]; · iexact H1
      iexists _; iexact H2
    · rw [PhiS16_castSucc V c t, PhiS16_pos V c _ _ hz]
      iintro ⟨⟨⟨HS0, HR⟩, Hg⟩, Ho, ⟨%d0, H0⟩, ⟨%d1, H1⟩, ⟨%d2, H2⟩⟩
      iapply ((kernelRun16_A c (grid16.coords t) _ _ _ _ _ _ _ _ ((hcond16_0 t).mpr h0) hc1 (iblk16 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_A_0 c _ _ _ _ _ _ _ _ _ _ _ _)
          iexact HR
        iexact Hg
      isplitl [Ho]; · iexact Ho
      isplitl [H0]; · iexact H0
      isplitl [H1]; · iexact H1
      iexists _; iexact H2
  · have hc0 : ¬cond16_0 (grid16.coords t) := fun h => h0 ((hcond16_0 t).mp h)
    have hz : t.val ≠ 0 := fun e => h0 (by rw [e])
    by_cases h1 : t.val % 8 = 7
    · have hc1 : cond16_1 (grid16.coords t) := (hcond16_1 t).mpr h1
      rw [show (dat16 V c).leavesExact 2 t = owns (c : Thread nD τ) (ms16_2 t) fullShare ((dat16 V c).after 2 t) from by
        unfold Dat.leavesExact; rw [liveAt16_2 t hc1], after16_2]
      rw [outsAt16_C V c t h0 h1]
      unfold out16_C_2 sout16_C_0; (try dsimp only)
      rw [PhiS16_castSucc V c t, PhiS16_pos V c _ _ hz]
      iintro ⟨⟨⟨HS0, HR⟩, Hg⟩, Ho, ⟨%d0, H0⟩, ⟨%d1, H1⟩, ⟨%d2, H2⟩⟩
      iapply ((kernelRun16_C c (grid16.coords t) _ _ _ _ _ _ _ _ hc0 hc1 (iblk16 V c 0 t) (iblk16 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover16_C_2 c _ _ _ _ _ _ _ _ _ _ _ _ _ _)
    · have hc1 : ¬cond16_1 (grid16.coords t) := fun h => h1 ((hcond16_1 t).mp h)
      rw [Dat.leavesExact_idle (dat16 V c) 2 t (idleAt16_2 t hc1) (noFlush16_2 t hc1)]
      rw [outsAt16_B V c t h0 h1]
      unfold sout16_B_0; (try dsimp only)
      rw [PhiS16_castSucc V c t, PhiS16_pos V c _ _ hz]
      iintro ⟨⟨⟨HS0, HR⟩, Hg⟩, Ho, ⟨%d0, H0⟩, ⟨%d1, H1⟩, ⟨%d2, H2⟩⟩
      iapply ((kernelRun16_B c (grid16.coords t) _ _ _ _ _ _ _ _ hc0 hc1 (iblk16 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_B_0 c _ _ _ _ _ _ _ _ _ _ _ _ _)
          iexact HR
        iexact Hg
      isplitl [Ho]; · iexact Ho
      isplitl [H0]; · iexact H0
      isplitl [H1]; · iexact H1
      iexists _; iexact H2

theorem body_obligation16 (c : Dev nD) : BodyObligation (dat16 (F := F) V c) (defs₀ (F := F)) Variants.none () Set.univ := fun t => by
  rw [bigSep_W16, bigSep_W16]
  exact sound_body16 V c t

/-- What the launch hands the region is the invariant before the first point. -/
theorem hin16 (c : Dev nD) : (Pipeline.ΦA spec16 c : sProp 𝕄) ⊢ (dat16 V c).Φ 0 := by
  rw [show (dat16 V c).Φ 0 = PhiS16 V c 0 (Nat.zero_le _) from rfl, PhiS16_zero V c 0 _ rfl]
  try exact Idealize.SL.BI.Entails.refl _

/-- After any point but the first the invariant gives the class's back: what the carried buffer holds is forgotten. -/
theorem Phi_out16 (c : Dev nD) (t : Fin (cfg16.N + 1)) (ht : t.val ≠ 0) : (dat16 V c).Φ t ⊢ (Pipeline.ΦA spec16 c : sProp 𝕄) := by
  rw [show (dat16 V c).Φ t = PhiS16 V c t.val (Nat.le_of_lt_succ t.isLt) from rfl, PhiS16_pos V c _ _ ht, PhiA16_eq]
  iintro ⟨⟨HS0, HR⟩, Hg⟩
  isplitl [HS0 HR]
  · isplitl [HS0]
    · iexists _; iexact HS0
    iexact HR
  iexact Hg

theorem hout16 (c : Dev nD) : (dat16 V c).Φ (Fin.last cfg16.N) ⊢ (Pipeline.ΦA spec16 c : sProp 𝕄) :=
  Phi_out16 V c _ (by rw [Fin.val_last]; have : cfg16.N = 32 := N_16; omega)

end Cert.Kernel.Frame

end
-- ==== Proof.K.Upd17.lean ====
/-
  The update step of the mean-field refinement (custom_call 17) as one region of the kernel program: what each
  window's staging buffer holds before and after the body at every grid point, the body's triple, and the body
  obligation the launch theorems ask for — at any float instance.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 17), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The unary scores' staging buffer holds their block at every point (it is fetched at every point), for any proof
    data whose array is `V`'s and whose body leaves the block in place. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The pairwise term's staging buffer holds its block at every point, fetched there or not: its block index is the
    image tile alone, so while the proposal tile runs the index does not move and the buffer, which the body leaves
    as it found it, still holds the block fetched when the image tile began. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses: whole buffers, through the rectangle at offset zero -/

theorem zeros17_2 : (![0, 0] : Fin 2 → Nat) = fun _ => 0 := funext fun a => by fin_cases a <;> rfl
theorem zeros17_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k17_pay1 x1 x0`. Each load is of a whole buffer, so it reads the contents;
    the one store is of the whole buffer, so whatever was there before, the buffer reads as the stored value. -/
theorem sound_kernel17 (c : Dev nD) (E : Set ℕ) (i : grid17.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k17_pay1 x1 x0)) -∗ K ⟨⟩))
      ⊢ wp frame (wpE (defs₀ (F := F)) Variants.none c none) E (cc17__update_kernel i arg2 harg2 arg3 harg3 arg4 harg4) K := by
  simp only [cc17__update_kernel_eq_skeleton]; unfold cc17__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros17_3 inb_S8x256x601_S8x256x601_0_0_0 y⟩),
    View.canon_unit_zero (S := S8x256x601) zeros17_3]
  simp only [View.readAt_eq_ld, View.ld_unit_zero (S := S8x601) zeros17_2, View.ld_unit_zero (S := S8x256x601) zeros17_3]

/-! ## The region's proof data -/

/-- The proof data on core `c`: the arrays as the region finds them; after the body at point `t` each input's buffer
    at its block and the output's at the scores' block minus the pairwise block; the invariant is the scoped rest and
    the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => k17_pay1 (iblk17 V c 1 t) (iblk17 V c 0 t)
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) :
    (dat17 V c).after 2 t = k17_pay1 (iblk17 V c 1 t) (iblk17 V c 0 t) := by dsimp only [dat17]

/-- Each input's current staging buffer holds its block at every point. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

/-! ## The body obligation, at a generic point -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t))

/-- The body at any point: the inputs' memrefs hold their blocks, so the body's triple applies; the invariant and the
    core's debts pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).Φ t.succ = (dat17 V c).Φ t.castSucc from rfl,
    show (dat17 V c).owesAt () t.succ = (dat17 V c).owesAt () t.castSucc from rfl,
    after17_0, after17_1, after17_2]
  iintro ⟨HΦ, Ho, ⟨%d0, H0⟩, ⟨%d1, H1⟩, ⟨%d2, H2⟩⟩
  iapply (sound_kernel17 c Set.univ _ _ _ _ _ _ _ (iblk17 V c 0 t) (iblk17 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation17 (c : Dev nD) : BodyObligation (dat17 (F := F) V c) (defs₀ (F := F)) Variants.none () Set.univ := fun t => by
  rw [bigSep_W17, bigSep_W17]
  exact sound_body17 V c t

/-- The region's invariant is the class invariant itself, at the first point and after the last. -/
theorem hin17 (c : Dev nD) : (Pipeline.ΦA spec17 c : sProp 𝕄) ⊢ (dat17 V c).Φ 0 := .rfl
theorem hout17 (c : Dev nD) : (dat17 V c).Φ (Fin.last cfg17.N) ⊢ (Pipeline.ΦA spec17 c : sProp 𝕄) := .rfl

end Cert.Kernel.Frame
-- ==== Proof.K.Red18Runs.lean ====
/-
  The reduce call (custom_call 18): what its body's two branches depend on, and what it is handed.

  The grid has 32 points, numbered t = 8·b + n for image tile b and proposal tile n. The body resets its
  carried maximum when n = 0, folds the tile's maximum into it at every point, and at n = 7 multiplies it
  by the compatibility matrix into the output block. So a point is of one of three kinds: first of a run
  (n = 0), inner (0 < n < 7), last (n = 7); the output block is touched at the last kind only and is
  written back there and nowhere else.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, decided over the grid -/

/-- "this is the first proposal tile": the reset's condition as the body computes it. -/
abbrev cond18_0 (i : grid18.Coords) : Prop := (Scalar.cmpi .ne (Scalar.extui (Scalar.cmpi .eq (BitVec.ofNat 32 (i 1).val) 0#32)) 0#32) = 1#1
theorem hcond18_0 : ∀ t : Fin cfg18.N, cond18_0 (grid18.coords t) ↔ t.val % 8 = 0 :=
  (by decide +kernel : ∀ t : Fin grid18.N, cond18_0 (grid18.coords t) ↔ t.val % 8 = 0)

/-- "this is the last proposal tile": the condition of the product's branch. -/
abbrev cond18_1 (i : grid18.Coords) : Prop := k18_cond2 i = 1#1
theorem hcond18_1 : ∀ t : Fin cfg18.N, cond18_1 (grid18.coords t) ↔ t.val % 8 = 7 :=
  (by decide +kernel : ∀ t : Fin grid18.N, cond18_1 (grid18.coords t) ↔ t.val % 8 = 7)

/-! ## Where the windows are idle -/

theorem liveAt18_0 : ∀ t : Fin cfg18.N, cfg18.idle 0 (grid18.coords t) = false := by decide +kernel
theorem liveAt18_1 : ∀ t : Fin cfg18.N, cfg18.idle 1 (grid18.coords t) = false := by decide +kernel
/-- Away from the last proposal tile the body stores nothing into the output block, -/
theorem idleAt18_2 : ∀ t : Fin cfg18.N, ¬cond18_1 (grid18.coords t) → cfg18.idle 2 (grid18.coords t) = true := by decide +kernel
/-- and the block is not written back there. -/
theorem noFlush18_2 : ∀ t : Fin cfg18.N, ¬cond18_1 (grid18.coords t) → (cfg18.win 2).flush t = false := by decide +kernel
/-- At the last proposal tile it is stored. -/
theorem liveAt18_2 : ∀ t : Fin cfg18.N, cond18_1 (grid18.coords t) → cfg18.idle 2 (grid18.coords t) = false := by decide +kernel

/-! ## The memrefs the body is called with -/

abbrev VO18_2 : View sig .tc .vmem S8x601 .f32 := (Memref.whole cc18_stg2_0 : Memref sig .tc .vmem S8x601 .f32).view
abbrev ms18_0 (t : Fin cfg18.N) : Memref sig .tc .vmem S8x256x601 .f32 := win18_0.stage (cfg18.slots t 0)
abbrev hs18_0 (t : Fin cfg18.N) : (ms18_0 t).IsWhole := hstage18_0 ((cfg18.slots t 0).cast nbuf18_0)
abbrev ms18_1 (t : Fin cfg18.N) : Memref sig .tc .vmem S601x601 .f32 := win18_1.stage (cfg18.slots t 1)
abbrev hs18_1 (t : Fin cfg18.N) : (ms18_1 t).IsWhole := hstage18_1 ((cfg18.slots t 1).cast nbuf18_1)
abbrev ms18_2 (t : Fin cfg18.N) : Memref sig .tc .vmem S8x601 .f32 := win18_2.stage (cfg18.slots t 2)
abbrev hs18_2 (t : Fin cfg18.N) : (ms18_2 t).IsWhole := hstage18_2 ((cfg18.slots t 2).cast nbuf18_2)
/-- The carried maximum's buffer: a whole scoped buffer of the call's own. -/
abbrev scM18_0 : Memref sig .tc .vmem S8x601 .f32 := Memref.whole cc18_scratch0
abbrev VS18_0 : View sig .tc .vmem S8x601 .f32 := scM18_0.view

/-- The class invariant with the carried maximum's buffer taken out of the scoped rest: that buffer at some
    contents, every other scoped buffer unopened, the generator register at some state. -/
theorem PhiA18_eq (c : Dev nD) :
    (Pipeline.ΦA spec18 c : sProp 𝕄)
      = iprop(iprop(iprop((∃ d, owns (c : Thread nD τ) scM18_0 fullShare d)) ∗ Pipeline.scopedRestBut (Ix := Unit) (Name := ℕ) (U := UR sig nD τ) (Lvl := ℕ) (Val := Elt F) spec18 c [cc18_scratch0]) ∗ (∃ r, prngReg c r)) := by
  unfold Pipeline.ΦA; rw [scopedRest18_split]; simp only [scM18_0, owns_whole]; try rfl

/-! ## The input windows' blocks -/

/-- Window `w`'s block at point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- The scores' staging buffer holds the point's block whenever the body runs, -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- and so does the matrix's, fetched once: its block index never moves. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

end Cert.Kernel.Frame

end
-- ==== Proof.K.Red18Run.lean ====
/-
  The reduce call's body (custom_call 18) run whole, once for each kind of grid point: the first proposal
  tile of a run (the carried maximum is reset, then the tile's maximum folded in), an inner tile (the
  tile's maximum folded into what the point before left), and the last tile (the same, then the carried
  maximum times the compatibility matrix stored into the output block). Each run is stated on whole
  staging memrefs and returns, as its witness, the pieces the stores leave in each buffer written.
-/
import proofs.«121405_j17162689315290_1_alg».proof.Proof.K.Red18Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- First proposal tile: the scores' block is read, the carried maximum's buffer (at anything) is written twice. -/
noncomputable def kernelRun18_A (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond18_0 i) (hc1 : ¬cond18_1 i)
    (x0 : Vec F S8x256x601 .f32) :
    { LS0 : List (View.Piece (Elt F) S8x601 .f32) //
      ∀ (E : Set ℕ) (K : PUnit → sProp 𝕄),
        iprop(owns (c : Thread nD τ) arg2 fullShare x0 ∗ (∃ d, owns (c : Thread nD τ) arg5 fullShare d)
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc18__reduce_kernel i arg2 harg2 arg3 harg3 arg4 harg4 arg5 harg5) K } := by
  refine ⟨?_, fun E K => ?run⟩
  case run =>
    simp only [cc18__reduce_kernel_eq_skeleton]; unfold cc18__reduce_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Inner proposal tile: the carried maximum's buffer holds what the point before left. -/
noncomputable def kernelRun18_B (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : ¬cond18_1 i)
    (x0 : Vec F S8x256x601 .f32) (xs0 : Vec F S8x601 .f32) :
    { LS0 : List (View.Piece (Elt F) S8x601 .f32) //
      ∀ (E : Set ℕ) (K : PUnit → sProp 𝕄),
        iprop(owns (c : Thread nD τ) arg2 fullShare x0 ∗ owns (c : Thread nD τ) arg5 fullShare xs0
            ∗ (iprop(owns (c : Thread nD τ) arg2 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc18__reduce_kernel i arg2 harg2 arg3 harg3 arg4 harg4 arg5 harg5) K } := by
  refine ⟨?_, fun E K => ?run⟩
  case run =>
    simp only [cc18__reduce_kernel_eq_skeleton]; unfold cc18__reduce_kernel_skel
    unfold owns
    iintro ⟨⟨%f0, %hf0, H0⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    iexists _; iexact HS0

set_option maxHeartbeats 1000000 in
/-- Last proposal tile: the matrix's block is read too, and the output block (at anything) is written. -/
noncomputable def kernelRun18_C (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i)
    (x0 : Vec F S8x256x601 .f32) (x1 : Vec F S601x601 .f32) (xs0 : Vec F S8x601 .f32) :
    Σ' (L2 : List (View.Piece (Elt F) S8x601 .f32)), { LS0 : List (View.Piece (Elt F) S8x601 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc18__reduce_kernel i arg2 harg2 arg3 harg3 arg4 harg4 arg5 harg5) K } := by
  refine ⟨?_, ?_, fun E K => ?run⟩
  case run =>
    simp only [cc18__reduce_kernel_eq_skeleton]; unfold cc18__reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.K.Red18.lean ====
/-
  The reduce call (custom_call 18) as a region: what the carried maximum's buffer and the output block hold
  after each grid point, the invariant that carries the former from point to point, the proof data, and
  the body obligation at every point.

  After point t = 8·b + n the carried buffer holds the fold, over proposal tiles 0 … n of image tile b, of
  the tiles' maxima (the first tile's run starts from the reset); the output block is stored at n = 7 only,
  from that buffer and the matrix's block, and nothing consults it elsewhere.
-/
import proofs.«121405_j17162689315290_1_alg».proof.Proof.K.Red18Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover18_A_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond18_0 i) (hc1 : ¬cond18_1 i) (x0 : Vec F S8x256x601 .f32) (y : S8x601.Idx) :
    ∃ pc ∈ (kernelRun18_A c i arg2 harg2 arg3 harg3 arg4 harg4 arg5 harg5 hc0 hc1 x0).1, y ∈ pc.1.set :=
  View.cover_of_tiledL (kernelRun18_A c i arg2 harg2 arg3 harg3 arg4 harg4 arg5 harg5 hc0 hc1 x0).1 S8x601.size (by sl_kernel_rfl) y
/-- The carried buffer after a first proposal tile: its pieces read back. -/
def sout18_A_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : cond18_0 i) (hc1 : ¬cond18_1 i) (x0 : Vec F S8x256x601 .f32) : Vec F S8x601 .f32 :=
  VS18_0.read (Elt F) (VS18_0.writes (Elt F) VS18_0.junk (kernelRun18_A c i arg2 harg2 arg3 harg3 arg4 harg4 arg5 harg5 hc0 hc1 x0).1)

theorem scover18_B_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : ¬cond18_1 i) (x0 : Vec F S8x256x601 .f32) (xs0 : Vec F S8x601 .f32) (y : S8x601.Idx) :
    ∃ pc ∈ (kernelRun18_B c i arg2 harg2 arg3 harg3 arg4 harg4 arg5 harg5 hc0 hc1 x0 xs0).1, y ∈ pc.1.set :=
  View.cover_of_tiledL (kernelRun18_B c i arg2 harg2 arg3 harg3 arg4 harg4 arg5 harg5 hc0 hc1 x0 xs0).1 S8x601.size (by sl_kernel_rfl) y
/-- The carried buffer after an inner proposal tile. -/
def sout18_B_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : ¬cond18_1 i) (x0 : Vec F S8x256x601 .f32) (xs0 : Vec F S8x601 .f32) : Vec F S8x601 .f32 :=
  VS18_0.read (Elt F) (VS18_0.writes (Elt F) VS18_0.junk (kernelRun18_B c i arg2 harg2 arg3 harg3 arg4 harg4 arg5 harg5 hc0 hc1 x0 xs0).1)

theorem cover18_C_2 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i) (x0 : Vec F S8x256x601 .f32) (x1 : Vec F S601x601 .f32) (xs0 : Vec F S8x601 .f32) (y : S8x601.Idx) :
    ∃ pc ∈ (kernelRun18_C c i arg2 harg2 arg3 harg3 arg4 harg4 arg5 harg5 hc0 hc1 x0 x1 xs0).1, y ∈ pc.1.set :=
  View.cover_of_tiledL (kernelRun18_C c i arg2 harg2 arg3 harg3 arg4 harg4 arg5 harg5 hc0 hc1 x0 x1 xs0).1 S8x601.size (by sl_kernel_rfl) y
/-- The output block after a last proposal tile. -/
def out18_C_2 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i) (x0 : Vec F S8x256x601 .f32) (x1 : Vec F S601x601 .f32) (xs0 : Vec F S8x601 .f32) : Vec F S8x601 .f32 :=
  VO18_2.read (Elt F) (VO18_2.writes (Elt F) VO18_2.junk (kernelRun18_C c i arg2 harg2 arg3 harg3 arg4 harg4 arg5 harg5 hc0 hc1 x0 x1 xs0).1)
theorem scover18_C_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i) (x0 : Vec F S8x256x601 .f32) (x1 : Vec F S601x601 .f32) (xs0 : Vec F S8x601 .f32) (y : S8x601.Idx) :
    ∃ pc ∈ (kernelRun18_C c i arg2 harg2 arg3 harg3 arg4 harg4 arg5 harg5 hc0 hc1 x0 x1 xs0).2.1, y ∈ pc.1.set :=
  View.cover_of_tiledL (kernelRun18_C c i arg2 harg2 arg3 harg3 arg4 harg4 arg5 harg5 hc0 hc1 x0 x1 xs0).2.1 S8x601.size (by sl_kernel_rfl) y
/-- The carried buffer after a last proposal tile. -/
def sout18_C_0 (c : Dev nD) (i : grid18.Coords) (arg2 : Memref sig .tc .vmem S8x256x601 .f32) (harg2 : arg2.IsWhole) (arg3 : Memref sig .tc .vmem S601x601 .f32) (harg3 : arg3.IsWhole) (arg4 : Memref sig .tc .vmem S8x601 .f32) (harg4 : arg4.IsWhole) (arg5 : Memref sig .tc .vmem S8x601 .f32) (harg5 : arg5.IsWhole) (hc0 : ¬cond18_0 i) (hc1 : cond18_1 i) (x0 : Vec F S8x256x601 .f32) (x1 : Vec F S601x601 .f32) (xs0 : Vec F S8x601 .f32) : Vec F S8x601 .f32 :=
  VS18_0.read (Elt F) (VS18_0.writes (Elt F) VS18_0.junk (kernelRun18_C c i arg2 harg2 arg3 harg3 arg4 harg4 arg5 harg5 hc0 hc1 x0 x1 xs0).2.1)

/-- What stands for the output block where the body does not store it (nothing consults it there). -/
def idleOut18 : Vec F S8x601 .f32 := VO18_2.read (Elt F) VO18_2.junk

/-! ## The accumulation over the grid points -/

/-- After the body at position `n`: (the output block, the carried buffer). -/
def outsAt18 (c : Dev nD) : (n : ℕ) → n < cfg18.N → Vec F S8x601 .f32 × Vec F S8x601 .f32
  | 0, hn => (idleOut18, sout18_A_0 c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) scM18_0 (Memref.isWhole_whole _) ((hcond18_0 ⟨0, hn⟩).mpr (Nat.zero_mod _)) (fun h => (fun h => by (try dsimp only at h); omega) ((hcond18_1 ⟨0, hn⟩).mp h)) (iblk18 V c 0 ⟨0, hn⟩))
  | n + 1, hn =>
    if h0 : (n + 1) % 8 = 0 then
      if h1 : (n + 1) % 8 = 7 then
        False.elim (by omega)
      else
        (idleOut18, sout18_A_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18_0 (Memref.isWhole_whole _) ((hcond18_0 ⟨n + 1, hn⟩).mpr h0) (fun h => h1 ((hcond18_1 ⟨n + 1, hn⟩).mp h)) (iblk18 V c 0 ⟨n + 1, hn⟩))
    else
      if h1 : (n + 1) % 8 = 7 then
        (out18_C_2 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (outsAt18 c n (Nat.lt_of_succ_lt hn)).2,
         sout18_C_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (outsAt18 c n (Nat.lt_of_succ_lt hn)).2)
      else
        (idleOut18, sout18_B_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) scM18_0 (Memref.isWhole_whole _) (fun h => h0 ((hcond18_0 ⟨n + 1, hn⟩).mp h)) (fun h => h1 ((hcond18_1 ⟨n + 1, hn⟩).mp h)) (iblk18 V c 0 ⟨n + 1, hn⟩) (outsAt18 c n (Nat.lt_of_succ_lt hn)).2)

theorem outsAt18_A (c : Dev nD) (t : Fin cfg18.N) (h0 : t.val % 8 = 0) (h1 : ¬t.val % 8 = 7) :
    outsAt18 V c t.val t.isLt = (idleOut18, sout18_A_0 c (grid18.coords t) (ms18_0 t) (hs18_0 t) (ms18_1 t) (hs18_1 t) (ms18_2 t) (hs18_2 t) scM18_0 (Memref.isWhole_whole _) ((hcond18_0 t).mpr h0) (fun h => h1 ((hcond18_1 t).mp h)) (iblk18 V c 0 t)) := by
  obtain ⟨n, hn⟩ := t
  cases n with
  | zero => exact rfl
  | succ n => exact (dif_pos h0).trans ((dif_neg h1).trans rfl)

theorem outsAt18_B (c : Dev nD) (t : Fin cfg18.N) (h0 : ¬t.val % 8 = 0) (h1 : ¬t.val % 8 = 7) :
    outsAt18 V c t.val t.isLt = (idleOut18, sout18_B_0 c (grid18.coords t) (ms18_0 t) (hs18_0 t) (ms18_1 t) (hs18_1 t) (ms18_2 t) (hs18_2 t) scM18_0 (Memref.isWhole_whole _) (fun h => h0 ((hcond18_0 t).mp h)) (fun h => h1 ((hcond18_1 t).mp h)) (iblk18 V c 0 t) (outsAt18 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt18_C (c : Dev nD) (t : Fin cfg18.N) (h0 : ¬t.val % 8 = 0) (h1 : t.val % 8 = 7) :
    outsAt18 V c t.val t.isLt = (out18_C_2 c (grid18.coords t) (ms18_0 t) (hs18_0 t) (ms18_1 t) (hs18_1 t) (ms18_2 t) (hs18_2 t) scM18_0 (Memref.isWhole_whole _) (fun h => h0 ((hcond18_0 t).mp h)) ((hcond18_1 t).mpr h1) (iblk18 V c 0 t) (iblk18 V c 1 t) (outsAt18 V c (t.val - 1) (Nat.lt_of_le_of_lt (Nat.sub_le _ _) t.isLt)).2,
      sout18_C_0 c (grid18.coords t) (ms18_0 t) (hs18_0 t) (ms18_1 t) (hs18_1 t) (ms18_2 t) (hs18_2 t) scM18_0 (Memref.isWhole_whole _) (fun h => h0 ((hcond18_0 t).mp h)) ((hcond18_1 t).mpr h1) (iblk18 V c 0 t) (iblk18 V c 1 t) (outsAt18 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the class's before the first point, then the carried buffer at what the point before left -/

def PhiS18 (c : Dev nD) : (n : ℕ) → n ≤ cfg18.N → sProp 𝕄
  | 0, _ => Pipeline.ΦA spec18 c
  | n + 1, hn => iprop(iprop(owns (c : Thread nD τ) scM18_0 fullShare ((outsAt18 V c n hn).2) ∗ Pipeline.scopedRestBut (Ix := Unit) (Name := ℕ) (U := UR sig nD τ) (Lvl := ℕ) (Val := Elt F) spec18 c [cc18_scratch0]) ∗ (∃ r, prngReg c r))

theorem PhiS18_zero (c : Dev nD) (n : ℕ) (h : n ≤ cfg18.N) (hz : n = 0) : PhiS18 V c n h = Pipeline.ΦA spec18 c := by
  subst hz; rfl
theorem PhiS18_succ (c : Dev nD) (n : ℕ) (hn : n < cfg18.N) :
    PhiS18 V c (n + 1) hn = iprop(iprop(owns (c : Thread nD τ) scM18_0 fullShare ((outsAt18 V c n hn).2) ∗ Pipeline.scopedRestBut (Ix := Unit) (Name := ℕ) (U := UR sig nD τ) (Lvl := ℕ) (Val := Elt F) spec18 c [cc18_scratch0]) ∗ (∃ r, prngReg c r)) := rfl
theorem PhiS18_pos (c : Dev nD) (n : ℕ) (h : n ≤ cfg18.N) (hz : n ≠ 0) :
    PhiS18 V c n h = iprop(iprop(owns (c : Thread nD τ) scM18_0 fullShare ((outsAt18 V c (n - 1) (by omega)).2) ∗ Pipeline.scopedRestBut (Ix := Unit) (Name := ℕ) (U := UR sig nD τ) (Lvl := ℕ) (Val := Elt F) spec18 c [cc18_scratch0]) ∗ (∃ r, prngReg c r)) := by
  cases n with
  | zero => exact absurd rfl hz
  | succ n => rfl

/-! ## The proof data -/

def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => (outsAt18 V c t.val t.isLt).1
  Φ t := PhiS18 V c t.val (Nat.le_of_lt_succ t.isLt)
  q _ := fullShare
  owed _ := 0

theorem A_eq18 (c : Dev nD) (w : Fin cfg18.W) : (dat18 V c).A w = V c (Pipeline.arrRef spec18 w) := by
  dsimp only [dat18]
theorem PhiS18_castSucc (c : Dev nD) (t : Fin cfg18.N) :
    (dat18 V c).Φ t.castSucc = PhiS18 V c t.val (Nat.le_of_lt t.isLt) := by
  dsimp only [dat18]; simp only [Fin.coe_castSucc]
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = (outsAt18 V c t.val t.isLt).1 := by dsimp only [dat18]
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

/-! ## The body obligation -/

def bodyPre18 (c : Dev nD) (t : Fin cfg18.N) : sProp 𝕄 :=
  iprop((dat18 V c).Φ t.castSucc ∗ (dat18 V c).owesAt () t.castSucc
    ∗ (∃ d, owns (c : Thread nD τ) (ms18_0 t) fullShare ((dat18 V c).before 0 t d))
    ∗ (∃ d, owns (c : Thread nD τ) (ms18_1 t) fullShare ((dat18 V c).before 1 t d))
    ∗ (∃ d, owns (c : Thread nD τ) (ms18_2 t) fullShare ((dat18 V c).before 2 t d)))

def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t)

set_option maxHeartbeats 4800000 in
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).owesAt () t.succ = (dat18 V c).owesAt () t.castSucc from rfl]
  rw [show (dat18 V c).Φ t.succ = PhiS18 V c (t.val + 1) t.isLt from rfl, PhiS18_succ]
  have hN : t.val < 32 := lt_of_lt_of_eq t.isLt (show cfg18.N = 32 from N_18)
  rw [show (dat18 V c).leavesExact 0 t = owns (c : Thread nD τ) (ms18_0 t) fullShare ((dat18 V c).after 0 t) from by
    unfold Dat.leavesExact; rw [liveAt18_0 t], after18_0]
  rw [show (dat18 V c).leavesExact 1 t = owns (c : Thread nD τ) (ms18_1 t) fullShare ((dat18 V c).after 1 t) from by
    unfold Dat.leavesExact; rw [liveAt18_1 t], after18_1]
  by_cases h0 : t.val % 8 = 0
  · have h1 : ¬t.val % 8 = 7 := by omega
    have hc1 : ¬cond18_1 (grid18.coords t) := fun h => h1 ((hcond18_1 t).mp h)
    rw [Dat.leavesExact_idle (dat18 V c) 2 t (idleAt18_2 t hc1) (noFlush18_2 t hc1)]
    rw [outsAt18_A V c t h0 h1]
    unfold sout18_A_0; (try dsimp only)
    by_cases hz : t.val = 0
    · rw [PhiS18_castSucc V c t, PhiS18_zero V c _ _ hz, PhiA18_eq]
      iintro ⟨⟨⟨HS0, HR⟩, Hg⟩, Ho, ⟨%d0, H0⟩, ⟨%d1, H1⟩, ⟨%d2, H2⟩⟩
      iapply ((kernelRun18_A c (grid18.coords t) _ _ _ _ _ _ _ _ ((hcond18_0 t).mpr h0) hc1 (iblk18 V c 0 t)).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover18_A_0 c _ _ _ _ _ _ _ _ _ _ _ _)
          iexact HR
        iexact Hg
      isplitl [Ho]; · iexact Ho
      isplitl [H0]; · iexact H0
      isplitl [H1]; · iexact H1
      iexists _; iexact H2
    · rw [PhiS18_castSucc V c t, PhiS18_pos V c _ _ hz]
      iintro ⟨⟨⟨HS0, HR⟩, Hg⟩, Ho, ⟨%d0, H0⟩, ⟨%d1, H1⟩, ⟨%d2, H2⟩⟩
      iapply ((kernelRun18_A c (grid18.coords t) _ _ _ _ _ _ _ _ ((hcond18_0 t).mpr h0) hc1 (iblk18 V c 0 t)).2 Set.univ _)
      isplitl [H0]; · iexact H0
      isplitl [HS0]; · iexists _; iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover18_A_0 c _ _ _ _ _ _ _ _ _ _ _ _)
          iexact HR
        iexact Hg
      isplitl [Ho]; · iexact Ho
      isplitl [H0]; · iexact H0
      isplitl [H1]; · iexact H1
      iexists _; iexact H2
  · have hc0 : ¬cond18_0 (grid18.coords t) := fun h => h0 ((hcond18_0 t).mp h)
    have hz : t.val ≠ 0 := fun e => h0 (by rw [e])
    by_cases h1 : t.val % 8 = 7
    · have hc1 : cond18_1 (grid18.coords t) := (hcond18_1 t).mpr h1
      rw [show (dat18 V c).leavesExact 2 t = owns (c : Thread nD τ) (ms18_2 t) fullShare ((dat18 V c).after 2 t) from by
        unfold Dat.leavesExact; rw [liveAt18_2 t hc1], after18_2]
      rw [outsAt18_C V c t h0 h1]
      unfold out18_C_2 sout18_C_0; (try dsimp only)
      rw [PhiS18_castSucc V c t, PhiS18_pos V c _ _ hz]
      iintro ⟨⟨⟨HS0, HR⟩, Hg⟩, Ho, ⟨%d0, H0⟩, ⟨%d1, H1⟩, ⟨%d2, H2⟩⟩
      iapply ((kernelRun18_C c (grid18.coords t) _ _ _ _ _ _ _ _ hc0 hc1 (iblk18 V c 0 t) (iblk18 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover18_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover18_C_2 c _ _ _ _ _ _ _ _ _ _ _ _ _ _)
    · have hc1 : ¬cond18_1 (grid18.coords t) := fun h => h1 ((hcond18_1 t).mp h)
      rw [Dat.leavesExact_idle (dat18 V c) 2 t (idleAt18_2 t hc1) (noFlush18_2 t hc1)]
      rw [outsAt18_B V c t h0 h1]
      unfold sout18_B_0; (try dsimp only)
      rw [PhiS18_castSucc V c t, PhiS18_pos V c _ _ hz]
      iintro ⟨⟨⟨HS0, HR⟩, Hg⟩, Ho, ⟨%d0, H0⟩, ⟨%d1, H1⟩, ⟨%d2, H2⟩⟩
      iapply ((kernelRun18_B c (grid18.coords t) _ _ _ _ _ _ _ _ hc0 hc1 (iblk18 V c 0 t) _).2 Set.univ _)
      isplitl [H0]; · iexact H0
      isplitl [HS0]; · iexact HS0
      iintro ⟨H0, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover18_B_0 c _ _ _ _ _ _ _ _ _ _ _ _ _)
          iexact HR
        iexact Hg
      isplitl [Ho]; · iexact Ho
      isplitl [H0]; · iexact H0
      isplitl [H1]; · iexact H1
      iexists _; iexact H2

theorem body_obligation18 (c : Dev nD) : BodyObligation (dat18 (F := F) V c) (defs₀ (F := F)) Variants.none () Set.univ := fun t => by
  rw [bigSep_W18, bigSep_W18]
  exact sound_body18 V c t

/-- What the launch hands the region is the invariant before the first point. -/
theorem hin18 (c : Dev nD) : (Pipeline.ΦA spec18 c : sProp 𝕄) ⊢ (dat18 V c).Φ 0 := by
  rw [show (dat18 V c).Φ 0 = PhiS18 V c 0 (Nat.zero_le _) from rfl, PhiS18_zero V c 0 _ rfl]
  try exact Idealize.SL.BI.Entails.refl _

/-- After any point but the first the invariant gives the class's back: what the carried buffer holds is forgotten. -/
theorem Phi_out18 (c : Dev nD) (t : Fin (cfg18.N + 1)) (ht : t.val ≠ 0) : (dat18 V c).Φ t ⊢ (Pipeline.ΦA spec18 c : sProp 𝕄) := by
  rw [show (dat18 V c).Φ t = PhiS18 V c t.val (Nat.le_of_lt_succ t.isLt) from rfl, PhiS18_pos V c _ _ ht, PhiA18_eq]
  iintro ⟨⟨HS0, HR⟩, Hg⟩
  isplitl [HS0 HR]
  · isplitl [HS0]
    · iexists _; iexact HS0
    iexact HR
  iexact Hg

theorem hout18 (c : Dev nD) : (dat18 V c).Φ (Fin.last cfg18.N) ⊢ (Pipeline.ΦA spec18 c : sProp 𝕄) :=
  Phi_out18 V c _ (by rw [Fin.val_last]; have : cfg18.N = 32 := N_18; omega)

end Cert.Kernel.Frame

end
-- ==== Proof.K.Upd19.lean ====
/-
  The update step of the mean-field refinement (custom_call 19) as one region of the kernel program: what each
  window's staging buffer holds before and after the body at every grid point, the body's triple, and the body
  obligation the launch theorems ask for — at any float instance.
-/
import proofs.«121405_j17162689315290_1_alg».proof.Proof.Gen.Kernel.Launch
import proofs.«121405_j17162689315290_1_alg».proof.Proof.Gen.Kernel.Skeleton
import proofs.«121405_j17162689315290_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The update step's region (custom_call 19), at the contents `V` the region is entered with

The body reads the block of unary scores (window 0: images `b`, proposals `n`, all 601 classes) and the block of
scaled pairwise terms (window 1: images `b`, all classes; the same block for all eight proposal tiles of an image
tile), and overwrites the whole output block (window 2) with the scores minus the pairwise term repeated over the
256 proposals. It keeps nothing from one grid point to the next. -/

/-! ## The windows' blocks -/

/-- Window `w`'s block at point `t`, read off its array as the region finds it (`V`). -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The unary scores' staging buffer holds their block at every point (it is fetched at every point), for any proof
    data whose array is `V`'s and whose body leaves the block in place. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- The pairwise term's staging buffer holds its block at every point, fetched there or not: its block index is the
    image tile alone, so while the proposal tile runs the index does not move and the buffer, which the body leaves
    as it found it, still holds the block fetched when the image tile began. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## The body's accesses: whole buffers, through the rectangle at offset zero -/

theorem zeros19_2 : (![0, 0] : Fin 2 → Nat) = fun _ => 0 := funext fun a => by fin_cases a <;> rfl
theorem zeros19_3 : (![0, 0, 0] : Fin 3 → Nat) = fun _ => 0 := funext fun a => by fin_cases a <;> rfl

/-! ## The body's triple -/

set_option maxHeartbeats 1000000 in
/-- The body on whole staging memrefs — the scores' at read contents `x0`, the pairwise term's at `x1`, the output's at
    anything (the body loads it and drops what it read) — runs to the continuation holding the two inputs as they
    were and the output at the difference `k19_pay1 x1 x0`. Each load is of a whole buffer, so it reads the contents;
    the one store is of the whole buffer, so whatever was there before, the buffer reads as the stored value. -/
theorem sound_kernel19 (c : Dev nD) (E : Set ℕ) (i : grid19.Coords)
    (arg2 : Memref sig .tc .vmem S8x256x601 .f32) (harg2 : arg2.IsWhole)
    (arg3 : Memref sig .tc .vmem S8x601 .f32) (harg3 : arg3.IsWhole)
    (arg4 : Memref sig .tc .vmem S8x256x601 .f32) (harg4 : arg4.IsWhole)
    (x0 : Vec F S8x256x601 .f32) (x1 : Vec F S8x601 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k19_pay1 x1 x0)) -∗ K ⟨⟩))
      ⊢ wp frame (wpE (defs₀ (F := F)) Variants.none c none) E (cc19__update_kernel i arg2 harg2 arg3 harg3 arg4 harg4) K := by
  simp only [cc19__update_kernel_eq_skeleton]; unfold cc19__update_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero (S := S8x256x601) zeros19_3 inb_S8x256x601_S8x256x601_0_0_0 y⟩),
    View.canon_unit_zero (S := S8x256x601) zeros19_3]
  simp only [View.readAt_eq_ld, View.ld_unit_zero (S := S8x601) zeros19_2, View.ld_unit_zero (S := S8x256x601) zeros19_3]

/-! ## The region's proof data -/

/-- The proof data on core `c`: the arrays as the region finds them; after the body at point `t` each input's buffer
    at its block and the output's at the scores' block minus the pairwise block; the invariant is the scoped rest and
    the generator register, untouched; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => k19_pay1 (iblk19 V c 1 t) (iblk19 V c 0 t)
  Φ _ := Pipeline.ΦA spec19 c
  q _ := fullShare
  owed _ := 0

/-- The proof data's arrays are the region-entry contents. -/
theorem A_eq19 (c : Dev nD) (w : Fin cfg19.W) : (dat19 V c).A w = V c (Pipeline.arrRef spec19 w) := by
  dsimp only [dat19]

/-- What the body leaves, window by window. -/
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) :
    (dat19 V c).after 2 t = k19_pay1 (iblk19 V c 1 t) (iblk19 V c 0 t) := by dsimp only [dat19]

/-- Each input's current staging buffer holds its block at every point. -/
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-! ## The body obligation, at a generic point -/

/-- What the body is called with at point `t`, the windows one by one, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t))

/-- The body at any point: the inputs' memrefs hold their blocks, so the body's triple applies; the invariant and the
    core's debts pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).Φ t.succ = (dat19 V c).Φ t.castSucc from rfl,
    show (dat19 V c).owesAt () t.succ = (dat19 V c).owesAt () t.castSucc from rfl,
    after19_0, after19_1, after19_2]
  iintro ⟨HΦ, Ho, ⟨%d0, H0⟩, ⟨%d1, H1⟩, ⟨%d2, H2⟩⟩
  iapply (sound_kernel19 c Set.univ _ _ _ _ _ _ _ (iblk19 V c 0 t) (iblk19 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation19 (c : Dev nD) : BodyObligation (dat19 (F := F) V c) (defs₀ (F := F)) Variants.none () Set.univ := fun t => by
  rw [bigSep_W19, bigSep_W19]
  exact sound_body19 V c t

/-- The region's invariant is the class invariant itself, at the first point and after the last. -/
theorem hin19 (c : Dev nD) : (Pipeline.ΦA spec19 c : sProp 𝕄) ⊢ (dat19 V c).Φ 0 := .rfl
theorem hout19 (c : Dev nD) : (dat19 V c).Φ (Fin.last cfg19.N) ⊢ (Pipeline.ΦA spec19 c : sProp 𝕄) := .rfl

end Cert.Kernel.Frame
-- ==== Proof.K.Fold.lean ====
/-
  The contents of every TensorCore buffer at each of the 32 boundaries between the 31 items of the entry
  function (11 stretches of host operations, 20 kernel launches), written as a fold from the launch memory:
  a stretch of host operations maps the contents through the operations' pure semantics; a kernel launch
  replaces the contents of the arrays its three windows address by what the write-backs of all its grid
  points leave there, and keeps every other buffer. The three argument arrays are written by no host
  operation and are addressed by input windows only, so reading the fold at an argument walks back to
  the launch memory.
-/
import proofs.«121405_j17162689315290_1_alg».proof.Proof.K.Red0
import proofs.«121405_j17162689315290_1_alg».proof.Proof.K.Upd1
import proofs.«121405_j17162689315290_1_alg».proof.Proof.K.Red2
import proofs.«121405_j17162689315290_1_alg».proof.Proof.K.Upd3
import proofs.«121405_j17162689315290_1_alg».proof.Proof.K.Red4
import proofs.«121405_j17162689315290_1_alg».proof.Proof.K.Upd5
import proofs.«121405_j17162689315290_1_alg».proof.Proof.K.Red6
import proofs.«121405_j17162689315290_1_alg».proof.Proof.K.Upd7
import proofs.«121405_j17162689315290_1_alg».proof.Proof.K.Red8
import proofs.«121405_j17162689315290_1_alg».proof.Proof.K.Upd9
import proofs.«121405_j17162689315290_1_alg».proof.Proof.K.Red10
import proofs.«121405_j17162689315290_1_alg».proof.Proof.K.Upd11
import proofs.«121405_j17162689315290_1_alg».proof.Proof.K.Red12
import proofs.«121405_j17162689315290_1_alg».proof.Proof.K.Upd13
import proofs.«121405_j17162689315290_1_alg».proof.Proof.K.Red14
import proofs.«121405_j17162689315290_1_alg».proof.Proof.K.Upd15
import proofs.«121405_j17162689315290_1_alg».proof.Proof.K.Red16
import proofs.«121405_j17162689315290_1_alg».proof.Proof.K.Upd17
import proofs.«121405_j17162689315290_1_alg».proof.Proof.K.Red18
import proofs.«121405_j17162689315290_1_alg».proof.Proof.K.Upd19
import proofs.«121405_j17162689315290_1_alg».proof.Proof.Gen.Kernel.Regions

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After the host operations `hostOps0`: their pure semantics applied to the contents before them. -/
abbrev W1 : Dev nD → Valuation τ sig (Elt F) := fun c => StableHlo.after hostOps0 (W0 m ρ c)
/-- The same contents read at the TensorCore's own references. -/
abbrev V1 : (c : Dev nD) → (b : Ref sig .tc) → Buf (Elt F) ((c : Thread nD τ).loc b) := fun c b => W1 m ρ c b

/-- After kernel launch 0: each array one of its windows addresses holds what the write-backs of all grid points
    leave there (an input array is never written back, so it holds what it held); every other buffer is untouched. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's own references. -/
abbrev V2 : (c : Dev nD) → (b : Ref sig .tc) → Buf (Elt F) ((c : Thread nD τ).loc b) := fun c b => W2 m ρ c b
/-- When launch 0 returns, each of its arrays holds the folded write-backs (`hF0`) and every other buffer
    what it held when the launch began (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations `hostOps1`: their pure semantics applied to the contents before them. -/
abbrev W3 : Dev nD → Valuation τ sig (Elt F) := fun c => StableHlo.after hostOps1 (W2 m ρ c)
/-- The same contents read at the TensorCore's own references. -/
abbrev V3 : (c : Dev nD) → (b : Ref sig .tc) → Buf (Elt F) ((c : Thread nD τ).loc b) := fun c b => W3 m ρ c b

/-- After kernel launch 1: each array one of its windows addresses holds what the write-backs of all grid points
    leave there (an input array is never written back, so it holds what it held); every other buffer is untouched. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the TensorCore's own references. -/
abbrev V4 : (c : Dev nD) → (b : Ref sig .tc) → Buf (Elt F) ((c : Thread nD τ).loc b) := fun c b => W4 m ρ c b
/-- When launch 1 returns, each of its arrays holds the folded write-backs (`hF1`) and every other buffer
    what it held when the launch began (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After kernel launch 2: each array one of its windows addresses holds what the write-backs of all grid points
    leave there (an input array is never written back, so it holds what it held); every other buffer is untouched. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same contents read at the TensorCore's own references. -/
abbrev V5 : (c : Dev nD) → (b : Ref sig .tc) → Buf (Elt F) ((c : Thread nD τ).loc b) := fun c b => W5 m ρ c b
/-- When launch 2 returns, each of its arrays holds the folded write-backs (`hF2`) and every other buffer
    what it held when the launch began (`hrest2`). -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the host operations `hostOps3`: their pure semantics applied to the contents before them. -/
abbrev W6 : Dev nD → Valuation τ sig (Elt F) := fun c => StableHlo.after hostOps3 (W5 m ρ c)
/-- The same contents read at the TensorCore's own references. -/
abbrev V6 : (c : Dev nD) → (b : Ref sig .tc) → Buf (Elt F) ((c : Thread nD τ).loc b) := fun c b => W6 m ρ c b

/-- After kernel launch 3: each array one of its windows addresses holds what the write-backs of all grid points
    leave there (an input array is never written back, so it holds what it held); every other buffer is untouched. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same contents read at the TensorCore's own references. -/
abbrev V7 : (c : Dev nD) → (b : Ref sig .tc) → Buf (Elt F) ((c : Thread nD τ).loc b) := fun c b => W7 m ρ c b
/-- When launch 3 returns, each of its arrays holds the folded write-backs (`hF3`) and every other buffer
    what it held when the launch began (`hrest3`). -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After kernel launch 4: each array one of its windows addresses holds what the write-backs of all grid points
    leave there (an input array is never written back, so it holds what it held); every other buffer is untouched. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same contents read at the TensorCore's own references. -/
abbrev V8 : (c : Dev nD) → (b : Ref sig .tc) → Buf (Elt F) ((c : Thread nD τ).loc b) := fun c b => W8 m ρ c b
/-- When launch 4 returns, each of its arrays holds the folded write-backs (`hF4`) and every other buffer
    what it held when the launch began (`hrest4`). -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After the host operations `hostOps5`: their pure semantics applied to the contents before them. -/
abbrev W9 : Dev nD → Valuation τ sig (Elt F) := fun c => StableHlo.after hostOps5 (W8 m ρ c)
/-- The same contents read at the TensorCore's own references. -/
abbrev V9 : (c : Dev nD) → (b : Ref sig .tc) → Buf (Elt F) ((c : Thread nD τ).loc b) := fun c b => W9 m ρ c b

/-- After kernel launch 5: each array one of its windows addresses holds what the write-backs of all grid points
    leave there (an input array is never written back, so it holds what it held); every other buffer is untouched. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
/-- The same contents read at the TensorCore's own references. -/
abbrev V10 : (c : Dev nD) → (b : Ref sig .tc) → Buf (Elt F) ((c : Thread nD τ).loc b) := fun c b => W10 m ρ c b
/-- When launch 5 returns, each of its arrays holds the folded write-backs (`hF5`) and every other buffer
    what it held when the launch began (`hrest5`). -/
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

/-- After kernel launch 6: each array one of its windows addresses holds what the write-backs of all grid points
    leave there (an input array is never written back, so it holds what it held); every other buffer is untouched. -/
def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
/-- The same contents read at the TensorCore's own references. -/
abbrev V11 : (c : Dev nD) → (b : Ref sig .tc) → Buf (Elt F) ((c : Thread nD τ).loc b) := fun c b => W11 m ρ c b
/-- When launch 6 returns, each of its arrays holds the folded write-backs (`hF6`) and every other buffer
    what it held when the launch began (`hrest6`). -/
theorem hF6 (c : Dev nD) (w : Fin cfg6.W) : (dat6 (V10 m ρ) c).arrAt w cfg6.N = V11 m ρ c (Pipeline.arrRef spec6 w) :=
  (W11_arr m ρ c w).symm
theorem hrest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)

/-- After the host operations `hostOps7`: their pure semantics applied to the contents before them. -/
abbrev W12 : Dev nD → Valuation τ sig (Elt F) := fun c => StableHlo.after hostOps7 (W11 m ρ c)
/-- The same contents read at the TensorCore's own references. -/
abbrev V12 : (c : Dev nD) → (b : Ref sig .tc) → Buf (Elt F) ((c : Thread nD τ).loc b) := fun c b => W12 m ρ c b

/-- After kernel launch 7: each array one of its windows addresses holds what the write-backs of all grid points
    leave there (an input array is never written back, so it holds what it held); every other buffer is untouched. -/
def W13 (c : Dev nD) : Valuation τ sig (Elt F) :=
  Pipeline.withArrays spec7 c (W12 m ρ c) fun w => (dat7 (V12 m ρ) c).arrAt w cfg7.N
theorem W13_arr (c : Dev nD) (w : Fin cfg7.W) :
    W13 m ρ c (Proc.devRef .tc (Pipeline.arrRef spec7 w)) = (dat7 (V12 m ρ) c).arrAt w cfg7.N := by
  unfold W13; exact Pipeline.withArrays_arr spec7 launch7.win.arr_inj c _ _ w
theorem W13_of_ne (c : Dev nD) (b : Ref sig .tc) (hb : ∀ w, Pipeline.arrRef spec7 w ≠ b) :
    W13 m ρ c (Proc.devRef .tc b) = W12 m ρ c (Proc.devRef .tc b) := by
  unfold W13; exact Pipeline.withArrays_of_ne spec7 c _ _ b hb
/-- The same contents read at the TensorCore's own references. -/
abbrev V13 : (c : Dev nD) → (b : Ref sig .tc) → Buf (Elt F) ((c : Thread nD τ).loc b) := fun c b => W13 m ρ c b
/-- When launch 7 returns, each of its arrays holds the folded write-backs (`hF7`) and every other buffer
    what it held when the launch began (`hrest7`). -/
theorem hF7 (c : Dev nD) (w : Fin cfg7.W) : (dat7 (V12 m ρ) c).arrAt w cfg7.N = V13 m ρ c (Pipeline.arrRef spec7 w) :=
  (W13_arr m ρ c w).symm
theorem hrest7 (c : Dev nD) : ∀ b, b ∉ Finset.univ.image (Pipeline.arrRef spec7) → V13 m ρ c b = V12 m ρ c b :=
  fun b hb => W13_of_ne m ρ c b fun w e => hb (Finset.mem_image.mpr ⟨w, Finset.mem_univ _, e⟩)

/-- After kernel launch 8: each array one of its windows addresses holds what the write-backs of all grid points
    leave there (an input array is never written back, so it holds what it held); every other buffer is untouched. -/
def W14 (c : Dev nD) : Valuation τ sig (Elt F) :=
  Pipeline.withArrays spec8 c (W13 m ρ c) fun w => (dat8 (V13 m ρ) c).arrAt w cfg8.N
theorem W14_arr (c : Dev nD) (w : Fin cfg8.W) :
    W14 m ρ c (Proc.devRef .tc (Pipeline.arrRef spec8 w)) = (dat8 (V13 m ρ) c).arrAt w cfg8.N := by
  unfold W14; exact Pipeline.withArrays_arr spec8 launch8.win.arr_inj c _ _ w
theorem W14_of_ne (c : Dev nD) (b : Ref sig .tc) (hb : ∀ w, Pipeline.arrRef spec8 w ≠ b) :
    W14 m ρ c (Proc.devRef .tc b) = W13 m ρ c (Proc.devRef .tc b) := by
  unfold W14; exact Pipeline.withArrays_of_ne spec8 c _ _ b hb
/-- The same contents read at the TensorCore's own references. -/
abbrev V14 : (c : Dev nD) → (b : Ref sig .tc) → Buf (Elt F) ((c : Thread nD τ).loc b) := fun c b => W14 m ρ c b
/-- When launch 8 returns, each of its arrays holds the folded write-backs (`hF8`) and every other buffer
    what it held when the launch began (`hrest8`). -/
theorem hF8 (c : Dev nD) (w : Fin cfg8.W) : (dat8 (V13 m ρ) c).arrAt w cfg8.N = V14 m ρ c (Pipeline.arrRef spec8 w) :=
  (W14_arr m ρ c w).symm
theorem hrest8 (c : Dev nD) : ∀ b, b ∉ Finset.univ.image (Pipeline.arrRef spec8) → V14 m ρ c b = V13 m ρ c b :=
  fun b hb => W14_of_ne m ρ c b fun w e => hb (Finset.mem_image.mpr ⟨w, Finset.mem_univ _, e⟩)

/-- After the host operations `hostOps9`: their pure semantics applied to the contents before them. -/
abbrev W15 : Dev nD → Valuation τ sig (Elt F) := fun c => StableHlo.after hostOps9 (W14 m ρ c)
/-- The same contents read at the TensorCore's own references. -/
abbrev V15 : (c : Dev nD) → (b : Ref sig .tc) → Buf (Elt F) ((c : Thread nD τ).loc b) := fun c b => W15 m ρ c b

/-- After kernel launch 9: each array one of its windows addresses holds what the write-backs of all grid points
    leave there (an input array is never written back, so it holds what it held); every other buffer is untouched. -/
def W16 (c : Dev nD) : Valuation τ sig (Elt F) :=
  Pipeline.withArrays spec9 c (W15 m ρ c) fun w => (dat9 (V15 m ρ) c).arrAt w cfg9.N
theorem W16_arr (c : Dev nD) (w : Fin cfg9.W) :
    W16 m ρ c (Proc.devRef .tc (Pipeline.arrRef spec9 w)) = (dat9 (V15 m ρ) c).arrAt w cfg9.N := by
  unfold W16; exact Pipeline.withArrays_arr spec9 launch9.win.arr_inj c _ _ w
theorem W16_of_ne (c : Dev nD) (b : Ref sig .tc) (hb : ∀ w, Pipeline.arrRef spec9 w ≠ b) :
    W16 m ρ c (Proc.devRef .tc b) = W15 m ρ c (Proc.devRef .tc b) := by
  unfold W16; exact Pipeline.withArrays_of_ne spec9 c _ _ b hb
/-- The same contents read at the TensorCore's own references. -/
abbrev V16 : (c : Dev nD) → (b : Ref sig .tc) → Buf (Elt F) ((c : Thread nD τ).loc b) := fun c b => W16 m ρ c b
/-- When launch 9 returns, each of its arrays holds the folded write-backs (`hF9`) and every other buffer
    what it held when the launch began (`hrest9`). -/
theorem hF9 (c : Dev nD) (w : Fin cfg9.W) : (dat9 (V15 m ρ) c).arrAt w cfg9.N = V16 m ρ c (Pipeline.arrRef spec9 w) :=
  (W16_arr m ρ c w).symm
theorem hrest9 (c : Dev nD) : ∀ b, b ∉ Finset.univ.image (Pipeline.arrRef spec9) → V16 m ρ c b = V15 m ρ c b :=
  fun b hb => W16_of_ne m ρ c b fun w e => hb (Finset.mem_image.mpr ⟨w, Finset.mem_univ _, e⟩)

/-- After kernel launch 10: each array one of its windows addresses holds what the write-backs of all grid points
    leave there (an input array is never written back, so it holds what it held); every other buffer is untouched. -/
def W17 (c : Dev nD) : Valuation τ sig (Elt F) :=
  Pipeline.withArrays spec10 c (W16 m ρ c) fun w => (dat10 (V16 m ρ) c).arrAt w cfg10.N
theorem W17_arr (c : Dev nD) (w : Fin cfg10.W) :
    W17 m ρ c (Proc.devRef .tc (Pipeline.arrRef spec10 w)) = (dat10 (V16 m ρ) c).arrAt w cfg10.N := by
  unfold W17; exact Pipeline.withArrays_arr spec10 launch10.win.arr_inj c _ _ w
theorem W17_of_ne (c : Dev nD) (b : Ref sig .tc) (hb : ∀ w, Pipeline.arrRef spec10 w ≠ b) :
    W17 m ρ c (Proc.devRef .tc b) = W16 m ρ c (Proc.devRef .tc b) := by
  unfold W17; exact Pipeline.withArrays_of_ne spec10 c _ _ b hb
/-- The same contents read at the TensorCore's own references. -/
abbrev V17 : (c : Dev nD) → (b : Ref sig .tc) → Buf (Elt F) ((c : Thread nD τ).loc b) := fun c b => W17 m ρ c b
/-- When launch 10 returns, each of its arrays holds the folded write-backs (`hF10`) and every other buffer
    what it held when the launch began (`hrest10`). -/
theorem hF10 (c : Dev nD) (w : Fin cfg10.W) : (dat10 (V16 m ρ) c).arrAt w cfg10.N = V17 m ρ c (Pipeline.arrRef spec10 w) :=
  (W17_arr m ρ c w).symm
theorem hrest10 (c : Dev nD) : ∀ b, b ∉ Finset.univ.image (Pipeline.arrRef spec10) → V17 m ρ c b = V16 m ρ c b :=
  fun b hb => W17_of_ne m ρ c b fun w e => hb (Finset.mem_image.mpr ⟨w, Finset.mem_univ _, e⟩)

/-- After the host operations `hostOps11`: their pure semantics applied to the contents before them. -/
abbrev W18 : Dev nD → Valuation τ sig (Elt F) := fun c => StableHlo.after hostOps11 (W17 m ρ c)
/-- The same contents read at the TensorCore's own references. -/
abbrev V18 : (c : Dev nD) → (b : Ref sig .tc) → Buf (Elt F) ((c : Thread nD τ).loc b) := fun c b => W18 m ρ c b

/-- After kernel launch 11: each array one of its windows addresses holds what the write-backs of all grid points
    leave there (an input array is never written back, so it holds what it held); every other buffer is untouched. -/
def W19 (c : Dev nD) : Valuation τ sig (Elt F) :=
  Pipeline.withArrays spec11 c (W18 m ρ c) fun w => (dat11 (V18 m ρ) c).arrAt w cfg11.N
theorem W19_arr (c : Dev nD) (w : Fin cfg11.W) :
    W19 m ρ c (Proc.devRef .tc (Pipeline.arrRef spec11 w)) = (dat11 (V18 m ρ) c).arrAt w cfg11.N := by
  unfold W19; exact Pipeline.withArrays_arr spec11 launch11.win.arr_inj c _ _ w
theorem W19_of_ne (c : Dev nD) (b : Ref sig .tc) (hb : ∀ w, Pipeline.arrRef spec11 w ≠ b) :
    W19 m ρ c (Proc.devRef .tc b) = W18 m ρ c (Proc.devRef .tc b) := by
  unfold W19; exact Pipeline.withArrays_of_ne spec11 c _ _ b hb
/-- The same contents read at the TensorCore's own references. -/
abbrev V19 : (c : Dev nD) → (b : Ref sig .tc) → Buf (Elt F) ((c : Thread nD τ).loc b) := fun c b => W19 m ρ c b
/-- When launch 11 returns, each of its arrays holds the folded write-backs (`hF11`) and every other buffer
    what it held when the launch began (`hrest11`). -/
theorem hF11 (c : Dev nD) (w : Fin cfg11.W) : (dat11 (V18 m ρ) c).arrAt w cfg11.N = V19 m ρ c (Pipeline.arrRef spec11 w) :=
  (W19_arr m ρ c w).symm
theorem hrest11 (c : Dev nD) : ∀ b, b ∉ Finset.univ.image (Pipeline.arrRef spec11) → V19 m ρ c b = V18 m ρ c b :=
  fun b hb => W19_of_ne m ρ c b fun w e => hb (Finset.mem_image.mpr ⟨w, Finset.mem_univ _, e⟩)

/-- After kernel launch 12: each array one of its windows addresses holds what the write-backs of all grid points
    leave there (an input array is never written back, so it holds what it held); every other buffer is untouched. -/
def W20 (c : Dev nD) : Valuation τ sig (Elt F) :=
  Pipeline.withArrays spec12 c (W19 m ρ c) fun w => (dat12 (V19 m ρ) c).arrAt w cfg12.N
theorem W20_arr (c : Dev nD) (w : Fin cfg12.W) :
    W20 m ρ c (Proc.devRef .tc (Pipeline.arrRef spec12 w)) = (dat12 (V19 m ρ) c).arrAt w cfg12.N := by
  unfold W20; exact Pipeline.withArrays_arr spec12 launch12.win.arr_inj c _ _ w
theorem W20_of_ne (c : Dev nD) (b : Ref sig .tc) (hb : ∀ w, Pipeline.arrRef spec12 w ≠ b) :
    W20 m ρ c (Proc.devRef .tc b) = W19 m ρ c (Proc.devRef .tc b) := by
  unfold W20; exact Pipeline.withArrays_of_ne spec12 c _ _ b hb
/-- The same contents read at the TensorCore's own references. -/
abbrev V20 : (c : Dev nD) → (b : Ref sig .tc) → Buf (Elt F) ((c : Thread nD τ).loc b) := fun c b => W20 m ρ c b
/-- When launch 12 returns, each of its arrays holds the folded write-backs (`hF12`) and every other buffer
    what it held when the launch began (`hrest12`). -/
theorem hF12 (c : Dev nD) (w : Fin cfg12.W) : (dat12 (V19 m ρ) c).arrAt w cfg12.N = V20 m ρ c (Pipeline.arrRef spec12 w) :=
  (W20_arr m ρ c w).symm
theorem hrest12 (c : Dev nD) : ∀ b, b ∉ Finset.univ.image (Pipeline.arrRef spec12) → V20 m ρ c b = V19 m ρ c b :=
  fun b hb => W20_of_ne m ρ c b fun w e => hb (Finset.mem_image.mpr ⟨w, Finset.mem_univ _, e⟩)

/-- After the host operations `hostOps13`: their pure semantics applied to the contents before them. -/
abbrev W21 : Dev nD → Valuation τ sig (Elt F) := fun c => StableHlo.after hostOps13 (W20 m ρ c)
/-- The same contents read at the TensorCore's own references. -/
abbrev V21 : (c : Dev nD) → (b : Ref sig .tc) → Buf (Elt F) ((c : Thread nD τ).loc b) := fun c b => W21 m ρ c b

/-- After kernel launch 13: each array one of its windows addresses holds what the write-backs of all grid points
    leave there (an input array is never written back, so it holds what it held); every other buffer is untouched. -/
def W22 (c : Dev nD) : Valuation τ sig (Elt F) :=
  Pipeline.withArrays spec13 c (W21 m ρ c) fun w => (dat13 (V21 m ρ) c).arrAt w cfg13.N
theorem W22_arr (c : Dev nD) (w : Fin cfg13.W) :
    W22 m ρ c (Proc.devRef .tc (Pipeline.arrRef spec13 w)) = (dat13 (V21 m ρ) c).arrAt w cfg13.N := by
  unfold W22; exact Pipeline.withArrays_arr spec13 launch13.win.arr_inj c _ _ w
theorem W22_of_ne (c : Dev nD) (b : Ref sig .tc) (hb : ∀ w, Pipeline.arrRef spec13 w ≠ b) :
    W22 m ρ c (Proc.devRef .tc b) = W21 m ρ c (Proc.devRef .tc b) := by
  unfold W22; exact Pipeline.withArrays_of_ne spec13 c _ _ b hb
/-- The same contents read at the TensorCore's own references. -/
abbrev V22 : (c : Dev nD) → (b : Ref sig .tc) → Buf (Elt F) ((c : Thread nD τ).loc b) := fun c b => W22 m ρ c b
/-- When launch 13 returns, each of its arrays holds the folded write-backs (`hF13`) and every other buffer
    what it held when the launch began (`hrest13`). -/
theorem hF13 (c : Dev nD) (w : Fin cfg13.W) : (dat13 (V21 m ρ) c).arrAt w cfg13.N = V22 m ρ c (Pipeline.arrRef spec13 w) :=
  (W22_arr m ρ c w).symm
theorem hrest13 (c : Dev nD) : ∀ b, b ∉ Finset.univ.image (Pipeline.arrRef spec13) → V22 m ρ c b = V21 m ρ c b :=
  fun b hb => W22_of_ne m ρ c b fun w e => hb (Finset.mem_image.mpr ⟨w, Finset.mem_univ _, e⟩)

/-- After kernel launch 14: each array one of its windows addresses holds what the write-backs of all grid points
    leave there (an input array is never written back, so it holds what it held); every other buffer is untouched. -/
def W23 (c : Dev nD) : Valuation τ sig (Elt F) :=
  Pipeline.withArrays spec14 c (W22 m ρ c) fun w => (dat14 (V22 m ρ) c).arrAt w cfg14.N
theorem W23_arr (c : Dev nD) (w : Fin cfg14.W) :
    W23 m ρ c (Proc.devRef .tc (Pipeline.arrRef spec14 w)) = (dat14 (V22 m ρ) c).arrAt w cfg14.N := by
  unfold W23; exact Pipeline.withArrays_arr spec14 launch14.win.arr_inj c _ _ w
theorem W23_of_ne (c : Dev nD) (b : Ref sig .tc) (hb : ∀ w, Pipeline.arrRef spec14 w ≠ b) :
    W23 m ρ c (Proc.devRef .tc b) = W22 m ρ c (Proc.devRef .tc b) := by
  unfold W23; exact Pipeline.withArrays_of_ne spec14 c _ _ b hb
/-- The same contents read at the TensorCore's own references. -/
abbrev V23 : (c : Dev nD) → (b : Ref sig .tc) → Buf (Elt F) ((c : Thread nD τ).loc b) := fun c b => W23 m ρ c b
/-- When launch 14 returns, each of its arrays holds the folded write-backs (`hF14`) and every other buffer
    what it held when the launch began (`hrest14`). -/
theorem hF14 (c : Dev nD) (w : Fin cfg14.W) : (dat14 (V22 m ρ) c).arrAt w cfg14.N = V23 m ρ c (Pipeline.arrRef spec14 w) :=
  (W23_arr m ρ c w).symm
theorem hrest14 (c : Dev nD) : ∀ b, b ∉ Finset.univ.image (Pipeline.arrRef spec14) → V23 m ρ c b = V22 m ρ c b :=
  fun b hb => W23_of_ne m ρ c b fun w e => hb (Finset.mem_image.mpr ⟨w, Finset.mem_univ _, e⟩)

/-- After the host operations `hostOps15`: their pure semantics applied to the contents before them. -/
abbrev W24 : Dev nD → Valuation τ sig (Elt F) := fun c => StableHlo.after hostOps15 (W23 m ρ c)
/-- The same contents read at the TensorCore's own references. -/
abbrev V24 : (c : Dev nD) → (b : Ref sig .tc) → Buf (Elt F) ((c : Thread nD τ).loc b) := fun c b => W24 m ρ c b

/-- After kernel launch 15: each array one of its windows addresses holds what the write-backs of all grid points
    leave there (an input array is never written back, so it holds what it held); every other buffer is untouched. -/
def W25 (c : Dev nD) : Valuation τ sig (Elt F) :=
  Pipeline.withArrays spec15 c (W24 m ρ c) fun w => (dat15 (V24 m ρ) c).arrAt w cfg15.N
theorem W25_arr (c : Dev nD) (w : Fin cfg15.W) :
    W25 m ρ c (Proc.devRef .tc (Pipeline.arrRef spec15 w)) = (dat15 (V24 m ρ) c).arrAt w cfg15.N := by
  unfold W25; exact Pipeline.withArrays_arr spec15 launch15.win.arr_inj c _ _ w
theorem W25_of_ne (c : Dev nD) (b : Ref sig .tc) (hb : ∀ w, Pipeline.arrRef spec15 w ≠ b) :
    W25 m ρ c (Proc.devRef .tc b) = W24 m ρ c (Proc.devRef .tc b) := by
  unfold W25; exact Pipeline.withArrays_of_ne spec15 c _ _ b hb
/-- The same contents read at the TensorCore's own references. -/
abbrev V25 : (c : Dev nD) → (b : Ref sig .tc) → Buf (Elt F) ((c : Thread nD τ).loc b) := fun c b => W25 m ρ c b
/-- When launch 15 returns, each of its arrays holds the folded write-backs (`hF15`) and every other buffer
    what it held when the launch began (`hrest15`). -/
theorem hF15 (c : Dev nD) (w : Fin cfg15.W) : (dat15 (V24 m ρ) c).arrAt w cfg15.N = V25 m ρ c (Pipeline.arrRef spec15 w) :=
  (W25_arr m ρ c w).symm
theorem hrest15 (c : Dev nD) : ∀ b, b ∉ Finset.univ.image (Pipeline.arrRef spec15) → V25 m ρ c b = V24 m ρ c b :=
  fun b hb => W25_of_ne m ρ c b fun w e => hb (Finset.mem_image.mpr ⟨w, Finset.mem_univ _, e⟩)

/-- After kernel launch 16: each array one of its windows addresses holds what the write-backs of all grid points
    leave there (an input array is never written back, so it holds what it held); every other buffer is untouched. -/
def W26 (c : Dev nD) : Valuation τ sig (Elt F) :=
  Pipeline.withArrays spec16 c (W25 m ρ c) fun w => (dat16 (V25 m ρ) c).arrAt w cfg16.N
theorem W26_arr (c : Dev nD) (w : Fin cfg16.W) :
    W26 m ρ c (Proc.devRef .tc (Pipeline.arrRef spec16 w)) = (dat16 (V25 m ρ) c).arrAt w cfg16.N := by
  unfold W26; exact Pipeline.withArrays_arr spec16 launch16.win.arr_inj c _ _ w
theorem W26_of_ne (c : Dev nD) (b : Ref sig .tc) (hb : ∀ w, Pipeline.arrRef spec16 w ≠ b) :
    W26 m ρ c (Proc.devRef .tc b) = W25 m ρ c (Proc.devRef .tc b) := by
  unfold W26; exact Pipeline.withArrays_of_ne spec16 c _ _ b hb
/-- The same contents read at the TensorCore's own references. -/
abbrev V26 : (c : Dev nD) → (b : Ref sig .tc) → Buf (Elt F) ((c : Thread nD τ).loc b) := fun c b => W26 m ρ c b
/-- When launch 16 returns, each of its arrays holds the folded write-backs (`hF16`) and every other buffer
    what it held when the launch began (`hrest16`). -/
theorem hF16 (c : Dev nD) (w : Fin cfg16.W) : (dat16 (V25 m ρ) c).arrAt w cfg16.N = V26 m ρ c (Pipeline.arrRef spec16 w) :=
  (W26_arr m ρ c w).symm
theorem hrest16 (c : Dev nD) : ∀ b, b ∉ Finset.univ.image (Pipeline.arrRef spec16) → V26 m ρ c b = V25 m ρ c b :=
  fun b hb => W26_of_ne m ρ c b fun w e => hb (Finset.mem_image.mpr ⟨w, Finset.mem_univ _, e⟩)

/-- After the host operations `hostOps17`: their pure semantics applied to the contents before them. -/
abbrev W27 : Dev nD → Valuation τ sig (Elt F) := fun c => StableHlo.after hostOps17 (W26 m ρ c)
/-- The same contents read at the TensorCore's own references. -/
abbrev V27 : (c : Dev nD) → (b : Ref sig .tc) → Buf (Elt F) ((c : Thread nD τ).loc b) := fun c b => W27 m ρ c b

/-- After kernel launch 17: each array one of its windows addresses holds what the write-backs of all grid points
    leave there (an input array is never written back, so it holds what it held); every other buffer is untouched. -/
def W28 (c : Dev nD) : Valuation τ sig (Elt F) :=
  Pipeline.withArrays spec17 c (W27 m ρ c) fun w => (dat17 (V27 m ρ) c).arrAt w cfg17.N
theorem W28_arr (c : Dev nD) (w : Fin cfg17.W) :
    W28 m ρ c (Proc.devRef .tc (Pipeline.arrRef spec17 w)) = (dat17 (V27 m ρ) c).arrAt w cfg17.N := by
  unfold W28; exact Pipeline.withArrays_arr spec17 launch17.win.arr_inj c _ _ w
theorem W28_of_ne (c : Dev nD) (b : Ref sig .tc) (hb : ∀ w, Pipeline.arrRef spec17 w ≠ b) :
    W28 m ρ c (Proc.devRef .tc b) = W27 m ρ c (Proc.devRef .tc b) := by
  unfold W28; exact Pipeline.withArrays_of_ne spec17 c _ _ b hb
/-- The same contents read at the TensorCore's own references. -/
abbrev V28 : (c : Dev nD) → (b : Ref sig .tc) → Buf (Elt F) ((c : Thread nD τ).loc b) := fun c b => W28 m ρ c b
/-- When launch 17 returns, each of its arrays holds the folded write-backs (`hF17`) and every other buffer
    what it held when the launch began (`hrest17`). -/
theorem hF17 (c : Dev nD) (w : Fin cfg17.W) : (dat17 (V27 m ρ) c).arrAt w cfg17.N = V28 m ρ c (Pipeline.arrRef spec17 w) :=
  (W28_arr m ρ c w).symm
theorem hrest17 (c : Dev nD) : ∀ b, b ∉ Finset.univ.image (Pipeline.arrRef spec17) → V28 m ρ c b = V27 m ρ c b :=
  fun b hb => W28_of_ne m ρ c b fun w e => hb (Finset.mem_image.mpr ⟨w, Finset.mem_univ _, e⟩)

/-- After kernel launch 18: each array one of its windows addresses holds what the write-backs of all grid points
    leave there (an input array is never written back, so it holds what it held); every other buffer is untouched. -/
def W29 (c : Dev nD) : Valuation τ sig (Elt F) :=
  Pipeline.withArrays spec18 c (W28 m ρ c) fun w => (dat18 (V28 m ρ) c).arrAt w cfg18.N
theorem W29_arr (c : Dev nD) (w : Fin cfg18.W) :
    W29 m ρ c (Proc.devRef .tc (Pipeline.arrRef spec18 w)) = (dat18 (V28 m ρ) c).arrAt w cfg18.N := by
  unfold W29; exact Pipeline.withArrays_arr spec18 launch18.win.arr_inj c _ _ w
theorem W29_of_ne (c : Dev nD) (b : Ref sig .tc) (hb : ∀ w, Pipeline.arrRef spec18 w ≠ b) :
    W29 m ρ c (Proc.devRef .tc b) = W28 m ρ c (Proc.devRef .tc b) := by
  unfold W29; exact Pipeline.withArrays_of_ne spec18 c _ _ b hb
/-- The same contents read at the TensorCore's own references. -/
abbrev V29 : (c : Dev nD) → (b : Ref sig .tc) → Buf (Elt F) ((c : Thread nD τ).loc b) := fun c b => W29 m ρ c b
/-- When launch 18 returns, each of its arrays holds the folded write-backs (`hF18`) and every other buffer
    what it held when the launch began (`hrest18`). -/
theorem hF18 (c : Dev nD) (w : Fin cfg18.W) : (dat18 (V28 m ρ) c).arrAt w cfg18.N = V29 m ρ c (Pipeline.arrRef spec18 w) :=
  (W29_arr m ρ c w).symm
theorem hrest18 (c : Dev nD) : ∀ b, b ∉ Finset.univ.image (Pipeline.arrRef spec18) → V29 m ρ c b = V28 m ρ c b :=
  fun b hb => W29_of_ne m ρ c b fun w e => hb (Finset.mem_image.mpr ⟨w, Finset.mem_univ _, e⟩)

/-- After the host operations `hostOps19`: their pure semantics applied to the contents before them. -/
abbrev W30 : Dev nD → Valuation τ sig (Elt F) := fun c => StableHlo.after hostOps19 (W29 m ρ c)
/-- The same contents read at the TensorCore's own references. -/
abbrev V30 : (c : Dev nD) → (b : Ref sig .tc) → Buf (Elt F) ((c : Thread nD τ).loc b) := fun c b => W30 m ρ c b

/-- After kernel launch 19: each array one of its windows addresses holds what the write-backs of all grid points
    leave there (an input array is never written back, so it holds what it held); every other buffer is untouched. -/
def W31 (c : Dev nD) : Valuation τ sig (Elt F) :=
  Pipeline.withArrays spec19 c (W30 m ρ c) fun w => (dat19 (V30 m ρ) c).arrAt w cfg19.N
theorem W31_arr (c : Dev nD) (w : Fin cfg19.W) :
    W31 m ρ c (Proc.devRef .tc (Pipeline.arrRef spec19 w)) = (dat19 (V30 m ρ) c).arrAt w cfg19.N := by
  unfold W31; exact Pipeline.withArrays_arr spec19 launch19.win.arr_inj c _ _ w
theorem W31_of_ne (c : Dev nD) (b : Ref sig .tc) (hb : ∀ w, Pipeline.arrRef spec19 w ≠ b) :
    W31 m ρ c (Proc.devRef .tc b) = W30 m ρ c (Proc.devRef .tc b) := by
  unfold W31; exact Pipeline.withArrays_of_ne spec19 c _ _ b hb
/-- The same contents read at the TensorCore's own references. -/
abbrev V31 : (c : Dev nD) → (b : Ref sig .tc) → Buf (Elt F) ((c : Thread nD τ).loc b) := fun c b => W31 m ρ c b
/-- When launch 19 returns, each of its arrays holds the folded write-backs (`hF19`) and every other buffer
    what it held when the launch began (`hrest19`). -/
theorem hF19 (c : Dev nD) (w : Fin cfg19.W) : (dat19 (V30 m ρ) c).arrAt w cfg19.N = V31 m ρ c (Pipeline.arrRef spec19 w) :=
  (W31_arr m ρ c w).symm
theorem hrest19 (c : Dev nD) : ∀ b, b ∉ Finset.univ.image (Pipeline.arrRef spec19) → V31 m ρ c b = V30 m ρ c b :=
  fun b hb => W31_of_ne m ρ c b fun w e => hb (Finset.mem_image.mpr ⟨w, Finset.mem_univ _, e⟩)

/-! ## The arguments end as launched

No host operation writes an argument array, and a kernel launch addresses an argument through an input window
(whose array the launch leaves as it found it) or not at all. -/

theorem W31_main_arg0 (c : Dev nD) : W31 m ρ c (Proc.devRef .tc main_arg0) = m ((c : Thread nD τ).loc main_arg0) :=
  calc W31 m ρ c (Proc.devRef .tc main_arg0)
    _ = W30 m ρ c (Proc.devRef .tc main_arg0) := (W31_arr m ρ c 0).trans (((dat19 (V30 m ρ) c).arrAt_in 0 rfl _).trans (A_eq19 (V30 m ρ) c 0))
    _ = W29 m ρ c (Proc.devRef .tc main_arg0) := StableHlo.after_of_writes_sub hostOps19 _ hostOps19_writes (by decide)
    _ = W28 m ρ c (Proc.devRef .tc main_arg0) := W29_of_ne m ρ c main_arg0 (by decide)
    _ = W27 m ρ c (Proc.devRef .tc main_arg0) := (W28_arr m ρ c 0).trans (((dat17 (V27 m ρ) c).arrAt_in 0 rfl _).trans (A_eq17 (V27 m ρ) c 0))
    _ = W26 m ρ c (Proc.devRef .tc main_arg0) := StableHlo.after_of_writes_sub hostOps17 _ hostOps17_writes (by decide)
    _ = W25 m ρ c (Proc.devRef .tc main_arg0) := W26_of_ne m ρ c main_arg0 (by decide)
    _ = W24 m ρ c (Proc.devRef .tc main_arg0) := (W25_arr m ρ c 0).trans (((dat15 (V24 m ρ) c).arrAt_in 0 rfl _).trans (A_eq15 (V24 m ρ) c 0))
    _ = W23 m ρ c (Proc.devRef .tc main_arg0) := StableHlo.after_of_writes_sub hostOps15 _ hostOps15_writes (by decide)
    _ = W22 m ρ c (Proc.devRef .tc main_arg0) := W23_of_ne m ρ c main_arg0 (by decide)
    _ = W21 m ρ c (Proc.devRef .tc main_arg0) := (W22_arr m ρ c 0).trans (((dat13 (V21 m ρ) c).arrAt_in 0 rfl _).trans (A_eq13 (V21 m ρ) c 0))
    _ = W20 m ρ c (Proc.devRef .tc main_arg0) := StableHlo.after_of_writes_sub hostOps13 _ hostOps13_writes (by decide)
    _ = W19 m ρ c (Proc.devRef .tc main_arg0) := W20_of_ne m ρ c main_arg0 (by decide)
    _ = W18 m ρ c (Proc.devRef .tc main_arg0) := (W19_arr m ρ c 0).trans (((dat11 (V18 m ρ) c).arrAt_in 0 rfl _).trans (A_eq11 (V18 m ρ) c 0))
    _ = W17 m ρ c (Proc.devRef .tc main_arg0) := StableHlo.after_of_writes_sub hostOps11 _ hostOps11_writes (by decide)
    _ = W16 m ρ c (Proc.devRef .tc main_arg0) := W17_of_ne m ρ c main_arg0 (by decide)
    _ = W15 m ρ c (Proc.devRef .tc main_arg0) := (W16_arr m ρ c 0).trans (((dat9 (V15 m ρ) c).arrAt_in 0 rfl _).trans (A_eq9 (V15 m ρ) c 0))
    _ = W14 m ρ c (Proc.devRef .tc main_arg0) := StableHlo.after_of_writes_sub hostOps9 _ hostOps9_writes (by decide)
    _ = W13 m ρ c (Proc.devRef .tc main_arg0) := W14_of_ne m ρ c main_arg0 (by decide)
    _ = W12 m ρ c (Proc.devRef .tc main_arg0) := (W13_arr m ρ c 0).trans (((dat7 (V12 m ρ) c).arrAt_in 0 rfl _).trans (A_eq7 (V12 m ρ) c 0))
    _ = W11 m ρ c (Proc.devRef .tc main_arg0) := StableHlo.after_of_writes_sub hostOps7 _ hostOps7_writes (by decide)
    _ = W10 m ρ c (Proc.devRef .tc main_arg0) := W11_of_ne m ρ c main_arg0 (by decide)
    _ = W9 m ρ c (Proc.devRef .tc main_arg0) := (W10_arr m ρ c 0).trans (((dat5 (V9 m ρ) c).arrAt_in 0 rfl _).trans (A_eq5 (V9 m ρ) c 0))
    _ = W8 m ρ c (Proc.devRef .tc main_arg0) := StableHlo.after_of_writes_sub hostOps5 _ hostOps5_writes (by decide)
    _ = W7 m ρ c (Proc.devRef .tc main_arg0) := W8_of_ne m ρ c main_arg0 (by decide)
    _ = W6 m ρ c (Proc.devRef .tc main_arg0) := (W7_arr m ρ c 0).trans (((dat3 (V6 m ρ) c).arrAt_in 0 rfl _).trans (A_eq3 (V6 m ρ) c 0))
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W31_main_arg1 (c : Dev nD) : W31 m ρ c (Proc.devRef .tc main_arg1) = m ((c : Thread nD τ).loc main_arg1) :=
  calc W31 m ρ c (Proc.devRef .tc main_arg1)
    _ = W30 m ρ c (Proc.devRef .tc main_arg1) := W31_of_ne m ρ c main_arg1 (by decide)
    _ = W29 m ρ c (Proc.devRef .tc main_arg1) := StableHlo.after_of_writes_sub hostOps19 _ hostOps19_writes (by decide)
    _ = W28 m ρ c (Proc.devRef .tc main_arg1) := (W29_arr m ρ c 1).trans (((dat18 (V28 m ρ) c).arrAt_in 1 rfl _).trans (A_eq18 (V28 m ρ) c 1))
    _ = W27 m ρ c (Proc.devRef .tc main_arg1) := W28_of_ne m ρ c main_arg1 (by decide)
    _ = W26 m ρ c (Proc.devRef .tc main_arg1) := StableHlo.after_of_writes_sub hostOps17 _ hostOps17_writes (by decide)
    _ = W25 m ρ c (Proc.devRef .tc main_arg1) := (W26_arr m ρ c 1).trans (((dat16 (V25 m ρ) c).arrAt_in 1 rfl _).trans (A_eq16 (V25 m ρ) c 1))
    _ = W24 m ρ c (Proc.devRef .tc main_arg1) := W25_of_ne m ρ c main_arg1 (by decide)
    _ = W23 m ρ c (Proc.devRef .tc main_arg1) := StableHlo.after_of_writes_sub hostOps15 _ hostOps15_writes (by decide)
    _ = W22 m ρ c (Proc.devRef .tc main_arg1) := (W23_arr m ρ c 1).trans (((dat14 (V22 m ρ) c).arrAt_in 1 rfl _).trans (A_eq14 (V22 m ρ) c 1))
    _ = W21 m ρ c (Proc.devRef .tc main_arg1) := W22_of_ne m ρ c main_arg1 (by decide)
    _ = W20 m ρ c (Proc.devRef .tc main_arg1) := StableHlo.after_of_writes_sub hostOps13 _ hostOps13_writes (by decide)
    _ = W19 m ρ c (Proc.devRef .tc main_arg1) := (W20_arr m ρ c 1).trans (((dat12 (V19 m ρ) c).arrAt_in 1 rfl _).trans (A_eq12 (V19 m ρ) c 1))
    _ = W18 m ρ c (Proc.devRef .tc main_arg1) := W19_of_ne m ρ c main_arg1 (by decide)
    _ = W17 m ρ c (Proc.devRef .tc main_arg1) := StableHlo.after_of_writes_sub hostOps11 _ hostOps11_writes (by decide)
    _ = W16 m ρ c (Proc.devRef .tc main_arg1) := (W17_arr m ρ c 1).trans (((dat10 (V16 m ρ) c).arrAt_in 1 rfl _).trans (A_eq10 (V16 m ρ) c 1))
    _ = W15 m ρ c (Proc.devRef .tc main_arg1) := W16_of_ne m ρ c main_arg1 (by decide)
    _ = W14 m ρ c (Proc.devRef .tc main_arg1) := StableHlo.after_of_writes_sub hostOps9 _ hostOps9_writes (by decide)
    _ = W13 m ρ c (Proc.devRef .tc main_arg1) := (W14_arr m ρ c 1).trans (((dat8 (V13 m ρ) c).arrAt_in 1 rfl _).trans (A_eq8 (V13 m ρ) c 1))
    _ = W12 m ρ c (Proc.devRef .tc main_arg1) := W13_of_ne m ρ c main_arg1 (by decide)
    _ = W11 m ρ c (Proc.devRef .tc main_arg1) := StableHlo.after_of_writes_sub hostOps7 _ hostOps7_writes (by decide)
    _ = W10 m ρ c (Proc.devRef .tc main_arg1) := (W11_arr m ρ c 1).trans (((dat6 (V10 m ρ) c).arrAt_in 1 rfl _).trans (A_eq6 (V10 m ρ) c 1))
    _ = W9 m ρ c (Proc.devRef .tc main_arg1) := W10_of_ne m ρ c main_arg1 (by decide)
    _ = W8 m ρ c (Proc.devRef .tc main_arg1) := StableHlo.after_of_writes_sub hostOps5 _ hostOps5_writes (by decide)
    _ = W7 m ρ c (Proc.devRef .tc main_arg1) := (W8_arr m ρ c 1).trans (((dat4 (V7 m ρ) c).arrAt_in 1 rfl _).trans (A_eq4 (V7 m ρ) c 1))
    _ = W6 m ρ c (Proc.devRef .tc main_arg1) := W7_of_ne m ρ c main_arg1 (by decide)
    _ = W5 m ρ c (Proc.devRef .tc main_arg1) := StableHlo.after_of_writes_sub hostOps3 _ hostOps3_writes (by decide)
    _ = W4 m ρ c (Proc.devRef .tc main_arg1) := (W5_arr m ρ c 1).trans (((dat2 (V4 m ρ) c).arrAt_in 1 rfl _).trans (A_eq2 (V4 m ρ) c 1))
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W31_main_arg2 (c : Dev nD) : W31 m ρ c (Proc.devRef .tc main_arg2) = m ((c : Thread nD τ).loc main_arg2) :=
  calc W31 m ρ c (Proc.devRef .tc main_arg2)
    _ = W30 m ρ c (Proc.devRef .tc main_arg2) := W31_of_ne m ρ c main_arg2 (by decide)
    _ = W29 m ρ c (Proc.devRef .tc main_arg2) := StableHlo.after_of_writes_sub hostOps19 _ hostOps19_writes (by decide)
    _ = W28 m ρ c (Proc.devRef .tc main_arg2) := W29_of_ne m ρ c main_arg2 (by decide)
    _ = W27 m ρ c (Proc.devRef .tc main_arg2) := W28_of_ne m ρ c main_arg2 (by decide)
    _ = W26 m ρ c (Proc.devRef .tc main_arg2) := StableHlo.after_of_writes_sub hostOps17 _ hostOps17_writes (by decide)
    _ = W25 m ρ c (Proc.devRef .tc main_arg2) := W26_of_ne m ρ c main_arg2 (by decide)
    _ = W24 m ρ c (Proc.devRef .tc main_arg2) := W25_of_ne m ρ c main_arg2 (by decide)
    _ = W23 m ρ c (Proc.devRef .tc main_arg2) := StableHlo.after_of_writes_sub hostOps15 _ hostOps15_writes (by decide)
    _ = W22 m ρ c (Proc.devRef .tc main_arg2) := W23_of_ne m ρ c main_arg2 (by decide)
    _ = W21 m ρ c (Proc.devRef .tc main_arg2) := W22_of_ne m ρ c main_arg2 (by decide)
    _ = W20 m ρ c (Proc.devRef .tc main_arg2) := StableHlo.after_of_writes_sub hostOps13 _ hostOps13_writes (by decide)
    _ = W19 m ρ c (Proc.devRef .tc main_arg2) := W20_of_ne m ρ c main_arg2 (by decide)
    _ = W18 m ρ c (Proc.devRef .tc main_arg2) := W19_of_ne m ρ c main_arg2 (by decide)
    _ = W17 m ρ c (Proc.devRef .tc main_arg2) := StableHlo.after_of_writes_sub hostOps11 _ hostOps11_writes (by decide)
    _ = W16 m ρ c (Proc.devRef .tc main_arg2) := W17_of_ne m ρ c main_arg2 (by decide)
    _ = W15 m ρ c (Proc.devRef .tc main_arg2) := W16_of_ne m ρ c main_arg2 (by decide)
    _ = W14 m ρ c (Proc.devRef .tc main_arg2) := StableHlo.after_of_writes_sub hostOps9 _ hostOps9_writes (by decide)
    _ = W13 m ρ c (Proc.devRef .tc main_arg2) := W14_of_ne m ρ c main_arg2 (by decide)
    _ = W12 m ρ c (Proc.devRef .tc main_arg2) := W13_of_ne m ρ c main_arg2 (by decide)
    _ = W11 m ρ c (Proc.devRef .tc main_arg2) := StableHlo.after_of_writes_sub hostOps7 _ hostOps7_writes (by decide)
    _ = W10 m ρ c (Proc.devRef .tc main_arg2) := W11_of_ne m ρ c main_arg2 (by decide)
    _ = W9 m ρ c (Proc.devRef .tc main_arg2) := W10_of_ne m ρ c main_arg2 (by decide)
    _ = W8 m ρ c (Proc.devRef .tc main_arg2) := StableHlo.after_of_writes_sub hostOps5 _ hostOps5_writes (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_writes_sub hostOps3 _ hostOps3_writes (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

end Cert.Kernel.Frame

end
-- ==== Proof.K.Run.lean ====
/-
  The entry function as 31 segments (11 stretches of host operations, 20 kernel launches), and its run: from any
  launch memory every weakly fair execution terminates without a fault, with every unscoped buffer at the last
  contents of the fold through the segments; in particular the three argument arrays end as launched.
-/
import proofs.«121405_j17162689315290_1_alg».proof.Proof.K.Fold

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of every launch, and what rides beside the buffers -/

/-- The admissible contents of prefetched tables: no launch has a table. -/
abbrev adm : (p : Fin 20) → (pcfgs (F := F) p).Adm := fun p => (cfgs p).toPCfg_adm
/-- Every launch's proof data, each at the contents its launch is entered with. Written as a literal case
    distinction on the launch's number so that the configuration at a numeral reduces to the printed one. -/
def pdats : (p : Fin 20) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V10 m ρ) c
  | ⟨7, _⟩ => fun c => dat7 (V12 m ρ) c
  | ⟨8, _⟩ => fun c => dat8 (V13 m ρ) c
  | ⟨9, _⟩ => fun c => dat9 (V15 m ρ) c
  | ⟨10, _⟩ => fun c => dat10 (V16 m ρ) c
  | ⟨11, _⟩ => fun c => dat11 (V18 m ρ) c
  | ⟨12, _⟩ => fun c => dat12 (V19 m ρ) c
  | ⟨13, _⟩ => fun c => dat13 (V21 m ρ) c
  | ⟨14, _⟩ => fun c => dat14 (V22 m ρ) c
  | ⟨15, _⟩ => fun c => dat15 (V24 m ρ) c
  | ⟨16, _⟩ => fun c => dat16 (V25 m ρ) c
  | ⟨17, _⟩ => fun c => dat17 (V27 m ρ) c
  | ⟨18, _⟩ => fun c => dat18 (V28 m ρ) c
  | ⟨19, _⟩ => fun c => dat19 (V30 m ρ) c
  | ⟨_ + 20, h⟩ => absurd h (Nat.not_lt.2 (Nat.le_add_left _ _))
abbrev 𝒱₀ : Variants := Variants.none
/-- No core owes another anything, so no level is assigned. -/
abbrev L : GSem nD τ sig → Finset Unit := fun _ => ∅
abbrev lv : GSem nD τ sig → Unit → ℕ := fun _ _ => 0
/-- What accompanies the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment: from the unscoped buffers at the contents `W` to the same buffers
    at the operations' pure semantics applied to `W`, with `R` carried along unchanged. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of the references the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the core owing nothing: every unscoped buffer at the last contents `W31`, the
    generator register at some state. -/
abbrev Tₙ (c : Dev nD) : sProp 𝕄 := iprop(StableHlo.held (c : Thread nD τ) (Pipeline.ucRefs τ sig) (W31 m ρ c) ∗ ∃ r, prngReg c r)

/-! ## The launches as segments -/

-- unifying a library lemma stated over the pinned configuration with the printed one takes unfolding plain
-- definitions inside a metavariable's type
set_option backward.isDefEq.respectTransparency.types false in
/-- Kernel launch 0 as a segment: entered with every unscoped buffer at the contents `W1`, left with them at
    `W2`. On entry the launch's arrays are split out of the unscoped buffers and the generator register goes
    into the launch's invariant; on exit the arrays are put back at their final contents and the register is
    returned. The body owes nothing and has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    have hk := hout0 (V1 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 1 as a segment: entered with every unscoped buffer at the contents `W3`, left with them at
    `W4`. On entry the launch's arrays are split out of the unscoped buffers and the generator register goes
    into the launch's invariant; on exit the arrays are put back at their final contents and the register is
    returned. The body owes nothing and has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    have hk := hout1 (V3 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 2 as a segment: entered with every unscoped buffer at the contents `W4`, left with them at
    `W5`. On entry the launch's arrays are split out of the unscoped buffers and the generator register goes
    into the launch's invariant; on exit the arrays are put back at their final contents and the register is
    returned. The body owes nothing and has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V4 m ρ) c).Φ 0 from rfl]
    iintro ⟨Hp, -, Hr⟩
    iapply (hin2 (V4 m ρ) c)
    unfold Pipeline.ΦA
    isplitl [Hr]; · iexact Hr
    iexact Hp
  hout c := by
    rw [Pipeline.ownSems0_none, show (pdats m ρ 2 c).Φ (Fin.last _) = (dat2 (V4 m ρ) c).Φ (Fin.last cfg2.N) from rfl]
    have hk := hout2 (V4 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 3 as a segment: entered with every unscoped buffer at the contents `W6`, left with them at
    `W7`. On entry the launch's arrays are split out of the unscoped buffers and the generator register goes
    into the launch's invariant; on exit the arrays are put back at their final contents and the register is
    returned. The body owes nothing and has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V6 m ρ) c).Φ 0 from rfl]
    iintro ⟨Hp, -, Hr⟩
    iapply (hin3 (V6 m ρ) c)
    unfold Pipeline.ΦA
    isplitl [Hr]; · iexact Hr
    iexact Hp
  hout c := by
    rw [Pipeline.ownSems0_none, show (pdats m ρ 3 c).Φ (Fin.last _) = (dat3 (V6 m ρ) c).Φ (Fin.last cfg3.N) from rfl]
    have hk := hout3 (V6 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 4 as a segment: entered with every unscoped buffer at the contents `W7`, left with them at
    `W8`. On entry the launch's arrays are split out of the unscoped buffers and the generator register goes
    into the launch's invariant; on exit the arrays are put back at their final contents and the register is
    returned. The body owes nothing and has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V7 m ρ) c).Φ 0 from rfl]
    iintro ⟨Hp, -, Hr⟩
    iapply (hin4 (V7 m ρ) c)
    unfold Pipeline.ΦA
    isplitl [Hr]; · iexact Hr
    iexact Hp
  hout c := by
    rw [Pipeline.ownSems0_none, show (pdats m ρ 4 c).Φ (Fin.last _) = (dat4 (V7 m ρ) c).Φ (Fin.last cfg4.N) from rfl]
    have hk := hout4 (V7 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 5 as a segment: entered with every unscoped buffer at the contents `W9`, left with them at
    `W10`. On entry the launch's arrays are split out of the unscoped buffers and the generator register goes
    into the launch's invariant; on exit the arrays are put back at their final contents and the register is
    returned. The body owes nothing and has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V9 m ρ) c).Φ 0 from rfl]
    iintro ⟨Hp, -, Hr⟩
    iapply (hin5 (V9 m ρ) c)
    unfold Pipeline.ΦA
    isplitl [Hr]; · iexact Hr
    iexact Hp
  hout c := by
    rw [Pipeline.ownSems0_none, show (pdats m ρ 5 c).Φ (Fin.last _) = (dat5 (V9 m ρ) c).Φ (Fin.last cfg5.N) from rfl]
    have hk := hout5 (V9 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 6 as a segment: entered with every unscoped buffer at the contents `W10`, left with them at
    `W11`. On entry the launch's arrays are split out of the unscoped buffers and the generator register goes
    into the launch's invariant; on exit the arrays are put back at their final contents and the register is
    returned. The body owes nothing and has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V10 m ρ) c).loose
  hwaits := Pipeline.hwaits_of_owed_zero _ _ _ _ L lv 6 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec6 c (V10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V10 m ρ) c).Φ 0 from rfl]
    iintro ⟨Hp, -, Hr⟩
    iapply (hin6 (V10 m ρ) c)
    unfold Pipeline.ΦA
    isplitl [Hr]; · iexact Hr
    iexact Hp
  hout c := by
    rw [Pipeline.ownSems0_none, show (pdats m ρ 6 c).Φ (Fin.last _) = (dat6 (V10 m ρ) c).Φ (Fin.last cfg6.N) from rfl]
    have hk := hout6 (V10 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V10 m ρ c) (V11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 7 as a segment: entered with every unscoped buffer at the contents `W12`, left with them at
    `W13`. On entry the launch's arrays are split out of the unscoped buffers and the generator register goes
    into the launch's invariant; on exit the arrays are put back at their final contents and the register is
    returned. The body owes nothing and has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V12 m ρ) c).loose
  hwaits := Pipeline.hwaits_of_owed_zero _ _ _ _ L lv 7 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec7 c (V12 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V12 m ρ) c).Φ 0 from rfl]
    iintro ⟨Hp, -, Hr⟩
    iapply (hin7 (V12 m ρ) c)
    unfold Pipeline.ΦA
    isplitl [Hr]; · iexact Hr
    iexact Hp
  hout c := by
    rw [Pipeline.ownSems0_none, show (pdats m ρ 7 c).Φ (Fin.last _) = (dat7 (V12 m ρ) c).Φ (Fin.last cfg7.N) from rfl]
    have hk := hout7 (V12 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V12 m ρ c) (V13 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 8 as a segment: entered with every unscoped buffer at the contents `W13`, left with them at
    `W14`. On entry the launch's arrays are split out of the unscoped buffers and the generator register goes
    into the launch's invariant; on exit the arrays are put back at their final contents and the register is
    returned. The body owes nothing and has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V13 m ρ) c).loose
  hwaits := Pipeline.hwaits_of_owed_zero _ _ _ _ L lv 8 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec8 c (V13 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V13 m ρ) c).Φ 0 from rfl]
    iintro ⟨Hp, -, Hr⟩
    iapply (hin8 (V13 m ρ) c)
    unfold Pipeline.ΦA
    isplitl [Hr]; · iexact Hr
    iexact Hp
  hout c := by
    rw [Pipeline.ownSems0_none, show (pdats m ρ 8 c).Φ (Fin.last _) = (dat8 (V13 m ρ) c).Φ (Fin.last cfg8.N) from rfl]
    have hk := hout8 (V13 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V13 m ρ c) (V14 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 9 as a segment: entered with every unscoped buffer at the contents `W15`, left with them at
    `W16`. On entry the launch's arrays are split out of the unscoped buffers and the generator register goes
    into the launch's invariant; on exit the arrays are put back at their final contents and the register is
    returned. The body owes nothing and has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V15 m ρ) c).loose
  hwaits := Pipeline.hwaits_of_owed_zero _ _ _ _ L lv 9 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec9 c (V15 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V15 m ρ) c).Φ 0 from rfl]
    iintro ⟨Hp, -, Hr⟩
    iapply (hin9 (V15 m ρ) c)
    unfold Pipeline.ΦA
    isplitl [Hr]; · iexact Hr
    iexact Hp
  hout c := by
    rw [Pipeline.ownSems0_none, show (pdats m ρ 9 c).Φ (Fin.last _) = (dat9 (V15 m ρ) c).Φ (Fin.last cfg9.N) from rfl]
    have hk := hout9 (V15 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V15 m ρ c) (V16 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 10 as a segment: entered with every unscoped buffer at the contents `W16`, left with them at
    `W17`. On entry the launch's arrays are split out of the unscoped buffers and the generator register goes
    into the launch's invariant; on exit the arrays are put back at their final contents and the register is
    returned. The body owes nothing and has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V16 m ρ) c).loose
  hwaits := Pipeline.hwaits_of_owed_zero _ _ _ _ L lv 10 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec10 c (V16 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V16 m ρ) c).Φ 0 from rfl]
    iintro ⟨Hp, -, Hr⟩
    iapply (hin10 (V16 m ρ) c)
    unfold Pipeline.ΦA
    isplitl [Hr]; · iexact Hr
    iexact Hp
  hout c := by
    rw [Pipeline.ownSems0_none, show (pdats m ρ 10 c).Φ (Fin.last _) = (dat10 (V16 m ρ) c).Φ (Fin.last cfg10.N) from rfl]
    have hk := hout10 (V16 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V16 m ρ c) (V17 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 11 as a segment: entered with every unscoped buffer at the contents `W18`, left with them at
    `W19`. On entry the launch's arrays are split out of the unscoped buffers and the generator register goes
    into the launch's invariant; on exit the arrays are put back at their final contents and the register is
    returned. The body owes nothing and has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V18 m ρ) c).loose
  hwaits := Pipeline.hwaits_of_owed_zero _ _ _ _ L lv 11 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec11 c (V18 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = (dat11 (V18 m ρ) c).Φ 0 from rfl]
    iintro ⟨Hp, -, Hr⟩
    iapply (hin11 (V18 m ρ) c)
    unfold Pipeline.ΦA
    isplitl [Hr]; · iexact Hr
    iexact Hp
  hout c := by
    rw [Pipeline.ownSems0_none, show (pdats m ρ 11 c).Φ (Fin.last _) = (dat11 (V18 m ρ) c).Φ (Fin.last cfg11.N) from rfl]
    have hk := hout11 (V18 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V18 m ρ c) (V19 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 12 as a segment: entered with every unscoped buffer at the contents `W19`, left with them at
    `W20`. On entry the launch's arrays are split out of the unscoped buffers and the generator register goes
    into the launch's invariant; on exit the arrays are put back at their final contents and the register is
    returned. The body owes nothing and has no semaphore of its own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V19 m ρ) c).loose
  hwaits := Pipeline.hwaits_of_owed_zero _ _ _ _ L lv 12 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec12 c (V19 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = (dat12 (V19 m ρ) c).Φ 0 from rfl]
    iintro ⟨Hp, -, Hr⟩
    iapply (hin12 (V19 m ρ) c)
    unfold Pipeline.ΦA
    isplitl [Hr]; · iexact Hr
    iexact Hp
  hout c := by
    rw [Pipeline.ownSems0_none, show (pdats m ρ 12 c).Φ (Fin.last _) = (dat12 (V19 m ρ) c).Φ (Fin.last cfg12.N) from rfl]
    have hk := hout12 (V19 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V19 m ρ c) (V20 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 13 as a segment: entered with every unscoped buffer at the contents `W21`, left with them at
    `W22`. On entry the launch's arrays are split out of the unscoped buffers and the generator register goes
    into the launch's invariant; on exit the arrays are put back at their final contents and the register is
    returned. The body owes nothing and has no semaphore of its own. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V21 m ρ) c).loose
  hwaits := Pipeline.hwaits_of_owed_zero _ _ _ _ L lv 13 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec13 c (V21 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = (dat13 (V21 m ρ) c).Φ 0 from rfl]
    iintro ⟨Hp, -, Hr⟩
    iapply (hin13 (V21 m ρ) c)
    unfold Pipeline.ΦA
    isplitl [Hr]; · iexact Hr
    iexact Hp
  hout c := by
    rw [Pipeline.ownSems0_none, show (pdats m ρ 13 c).Φ (Fin.last _) = (dat13 (V21 m ρ) c).Φ (Fin.last cfg13.N) from rfl]
    have hk := hout13 (V21 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V21 m ρ c) (V22 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 14 as a segment: entered with every unscoped buffer at the contents `W22`, left with them at
    `W23`. On entry the launch's arrays are split out of the unscoped buffers and the generator register goes
    into the launch's invariant; on exit the arrays are put back at their final contents and the register is
    returned. The body owes nothing and has no semaphore of its own. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V22 m ρ) c).loose
  hwaits := Pipeline.hwaits_of_owed_zero _ _ _ _ L lv 14 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec14 c (V22 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = (dat14 (V22 m ρ) c).Φ 0 from rfl]
    iintro ⟨Hp, -, Hr⟩
    iapply (hin14 (V22 m ρ) c)
    unfold Pipeline.ΦA
    isplitl [Hr]; · iexact Hr
    iexact Hp
  hout c := by
    rw [Pipeline.ownSems0_none, show (pdats m ρ 14 c).Φ (Fin.last _) = (dat14 (V22 m ρ) c).Φ (Fin.last cfg14.N) from rfl]
    have hk := hout14 (V22 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V22 m ρ c) (V23 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 15 as a segment: entered with every unscoped buffer at the contents `W24`, left with them at
    `W25`. On entry the launch's arrays are split out of the unscoped buffers and the generator register goes
    into the launch's invariant; on exit the arrays are put back at their final contents and the register is
    returned. The body owes nothing and has no semaphore of its own. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V24 m ρ) c).loose
  hwaits := Pipeline.hwaits_of_owed_zero _ _ _ _ L lv 15 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec15 c (V24 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = (dat15 (V24 m ρ) c).Φ 0 from rfl]
    iintro ⟨Hp, -, Hr⟩
    iapply (hin15 (V24 m ρ) c)
    unfold Pipeline.ΦA
    isplitl [Hr]; · iexact Hr
    iexact Hp
  hout c := by
    rw [Pipeline.ownSems0_none, show (pdats m ρ 15 c).Φ (Fin.last _) = (dat15 (V24 m ρ) c).Φ (Fin.last cfg15.N) from rfl]
    have hk := hout15 (V24 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V24 m ρ c) (V25 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 16 as a segment: entered with every unscoped buffer at the contents `W25`, left with them at
    `W26`. On entry the launch's arrays are split out of the unscoped buffers and the generator register goes
    into the launch's invariant; on exit the arrays are put back at their final contents and the register is
    returned. The body owes nothing and has no semaphore of its own. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V25 m ρ) c).loose
  hwaits := Pipeline.hwaits_of_owed_zero _ _ _ _ L lv 16 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec16 c (V25 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = (dat16 (V25 m ρ) c).Φ 0 from rfl]
    iintro ⟨Hp, -, Hr⟩
    iapply (hin16 (V25 m ρ) c)
    unfold Pipeline.ΦA
    isplitl [Hr]; · iexact Hr
    iexact Hp
  hout c := by
    rw [Pipeline.ownSems0_none, show (pdats m ρ 16 c).Φ (Fin.last _) = (dat16 (V25 m ρ) c).Φ (Fin.last cfg16.N) from rfl]
    have hk := hout16 (V25 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V25 m ρ c) (V26 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 17 as a segment: entered with every unscoped buffer at the contents `W27`, left with them at
    `W28`. On entry the launch's arrays are split out of the unscoped buffers and the generator register goes
    into the launch's invariant; on exit the arrays are put back at their final contents and the register is
    returned. The body owes nothing and has no semaphore of its own. -/
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V27 m ρ) c).loose
  hwaits := Pipeline.hwaits_of_owed_zero _ _ _ _ L lv 17 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec17 c (V27 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = (dat17 (V27 m ρ) c).Φ 0 from rfl]
    iintro ⟨Hp, -, Hr⟩
    iapply (hin17 (V27 m ρ) c)
    unfold Pipeline.ΦA
    isplitl [Hr]; · iexact Hr
    iexact Hp
  hout c := by
    rw [Pipeline.ownSems0_none, show (pdats m ρ 17 c).Φ (Fin.last _) = (dat17 (V27 m ρ) c).Φ (Fin.last cfg17.N) from rfl]
    have hk := hout17 (V27 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V27 m ρ c) (V28 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 18 as a segment: entered with every unscoped buffer at the contents `W28`, left with them at
    `W29`. On entry the launch's arrays are split out of the unscoped buffers and the generator register goes
    into the launch's invariant; on exit the arrays are put back at their final contents and the register is
    returned. The body owes nothing and has no semaphore of its own. -/
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V28 m ρ) c).loose
  hwaits := Pipeline.hwaits_of_owed_zero _ _ _ _ L lv 18 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec18 c (V28 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = (dat18 (V28 m ρ) c).Φ 0 from rfl]
    iintro ⟨Hp, -, Hr⟩
    iapply (hin18 (V28 m ρ) c)
    unfold Pipeline.ΦA
    isplitl [Hr]; · iexact Hr
    iexact Hp
  hout c := by
    rw [Pipeline.ownSems0_none, show (pdats m ρ 18 c).Φ (Fin.last _) = (dat18 (V28 m ρ) c).Φ (Fin.last cfg18.N) from rfl]
    have hk := hout18 (V28 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (V28 m ρ c) (V29 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions inside a metavariable's type
set_option backward.isDefEq.respectTransparency.types false in
/-- Kernel launch 19 as a segment: entered with every unscoped buffer at the contents `W30`, left with them at
    `W31`. On entry the launch's arrays are split out of the unscoped buffers and the generator register goes
    into the launch's invariant; on exit the arrays are put back at their final contents and the register is
    returned. The body owes nothing and has no semaphore of its own. -/
def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (V30 m ρ) c).loose
  hwaits := Pipeline.hwaits_of_owed_zero _ _ _ _ L lv 19 fun _ _ => rfl
  pre c := iprop(StableHlo.held (c : Thread nD τ) (Pipeline.ucRefs τ sig) (W30 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec19 c (V30 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 19 c).Φ 0 = (dat19 (V30 m ρ) c).Φ 0 from rfl]
    iintro ⟨Hp, -, Hr⟩
    iapply (hin19 (V30 m ρ) c)
    unfold Pipeline.ΦA
    isplitl [Hr]; · iexact Hr
    iexact Hp
  hout c := by
    rw [Pipeline.ownSems0_none, show (pdats m ρ 19 c).Φ (Fin.last _) = (dat19 (V30 m ρ) c).Φ (Fin.last cfg19.N) from rfl]
    have hk := hout19 (V30 m ρ) c
    unfold Pipeline.ΦA at hk
    iintro H
    ihave H2 := hk $$ H
    icases H2 with ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (V30 m ρ c) (V31 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and its run -/

/-- The 31 segments in order: a host segment per stretch of host operations, entered at that boundary's contents,
    and a region per kernel launch. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .region (reg6 m ρ),
    .host (hseg hostOps7 hostOps7_sub hostOps7_fresh (W11 m ρ)),
    .region (reg7 m ρ),
    .region (reg8 m ρ),
    .host (hseg hostOps9 hostOps9_sub hostOps9_fresh (W14 m ρ)),
    .region (reg9 m ρ),
    .region (reg10 m ρ),
    .host (hseg hostOps11 hostOps11_sub hostOps11_fresh (W17 m ρ)),
    .region (reg11 m ρ),
    .region (reg12 m ρ),
    .host (hseg hostOps13 hostOps13_sub hostOps13_fresh (W20 m ρ)),
    .region (reg13 m ρ),
    .region (reg14 m ρ),
    .host (hseg hostOps15 hostOps15_sub hostOps15_fresh (W23 m ρ)),
    .region (reg15 m ρ),
    .region (reg16 m ρ),
    .host (hseg hostOps17 hostOps17_sub hostOps17_fresh (W26 m ρ)),
    .region (reg17 m ρ),
    .region (reg18 m ρ),
    .host (hseg hostOps19 hostOps19_sub hostOps19_fresh (W29 m ρ)),
    .region (reg19 m ρ) ]

/-- The entry function is the run of these segments, one after the other. -/
theorem main_run (c : Dev nD) : main (F := F) c = Pipeline.Seg.run (segs m ρ) :=
  main_segs adm (pdats m ρ) () 𝒱₀ L lv (hseg hostOps0 hostOps0_sub hostOps0_fresh (W0 m ρ)) (hseg hostOps1 hostOps1_sub hostOps1_fresh (W2 m ρ)) (hseg hostOps3 hostOps3_sub hostOps3_fresh (W5 m ρ)) (hseg hostOps5 hostOps5_sub hostOps5_fresh (W8 m ρ)) (hseg hostOps7 hostOps7_sub hostOps7_fresh (W11 m ρ)) (hseg hostOps9 hostOps9_sub hostOps9_fresh (W14 m ρ)) (hseg hostOps11 hostOps11_sub hostOps11_fresh (W17 m ρ)) (hseg hostOps13 hostOps13_sub hostOps13_fresh (W20 m ρ)) (hseg hostOps15 hostOps15_sub hostOps15_fresh (W23 m ρ)) (hseg hostOps17 hostOps17_sub hostOps17_fresh (W26 m ρ)) (hseg hostOps19 hostOps19_sub hostOps19_fresh (W29 m ρ))
    (reg0 m ρ) (reg1 m ρ) (reg2 m ρ) (reg3 m ρ) (reg4 m ρ) (reg5 m ρ) (reg6 m ρ) (reg7 m ρ) (reg8 m ρ) (reg9 m ρ) (reg10 m ρ) (reg11 m ρ) (reg12 m ρ) (reg13 m ρ) (reg14 m ρ) (reg15 m ρ) (reg16 m ρ) (reg17 m ρ) (reg18 m ρ) (reg19 m ρ)
    rfl rfl rfl rfl rfl rfl rfl rfl rfl rfl rfl c

-- the launch theorem's implicit arguments are found by unifying its conclusion with the statement, which takes
-- unfolding plain definitions inside a metavariable's type
set_option backward.isDefEq.respectTransparency.types false in
/-- THE RUN. On the compiled mesh, from any memory `m` with zero counters and any generator state, every weakly
    fair execution of the entry function terminates without a fault, and in every final state each unscoped
    TensorCore buffer of every core holds the last contents of the fold, `W31`. The segments chain because each
    is entered at exactly the contents the one before it left; the first thread state is made from what the
    launch deals out; the last is read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W31 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h => h)

/-- THE FRAME. Every weakly fair execution of the entry function terminates without a fault and leaves each of the
    three argument arrays holding what it held at launch: the final contents are the fold's last, and the fold read
    at an argument is the launch memory. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W31_main_arg0 m ρ c),
     (h c _ (mem_uc main_arg1 (by decide))).trans (W31_main_arg1 m ρ c),
     (h c _ (mem_uc main_arg2 (by decide))).trans (W31_main_arg2 m ρ c)⟩) (run_all m ρ)

end Cert.Kernel.Frame

end
-- ==== Proof.RefRun.lean ====
/-
  The reference's run, read back: ten mean-field refinement steps on the host.

  The reference program computes the refinement on whole arrays. Its run ends with the result buffer at a
  nested term in which each refinement step appears once, written out with the host operations. Here that
  term is recognised, one step at a time, as the specification's `step` applied to the previous iterate,
  and the ten steps are folded into the specification's tenth iterate from the unary scores.
-/
import proofs.«121405_j17162689315290_1_alg».proof.Defs
import proofs.«121405_j17162689315290_1_alg».proof.Proof.Gen.ReferenceIdeal.Run
import proofs.«121405_j17162689315290_1_alg».proof.Proof.Spec

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]

/-- The influence weight, read off the third argument as a scalar. -/
theorem weight_eq (V0 : Valuation τ sig (Elt F)) :
    res_main_v0 V0 = Crf.weight (V0 (Proc.devRef .tc main_arg2)) := rfl

/-- Ten applications of a function, written out. -/
theorem iterate_ten {α : Type} (f : α → α) (x : α) :
    f^[10] x = f (f (f (f (f (f (f (f (f (f x))))))))) := rfl

/-- The first iterate is one step from the unary scores themselves: the program's exponentials of the
    shifted unary scores are the specification's, and the rest of the step is the same composition. -/
theorem iter1 (V0 : Valuation τ sig (Elt F)) :
    res_main_v18 V0 = Crf.step (V0 (Proc.devRef .tc main_arg0)) (V0 (Proc.devRef .tc main_arg1)) (res_main_v0 V0)
      (V0 (Proc.devRef .tc main_arg0)) := by
  unfold res_main_v18 res_main_v7 Crf.step Crf.update Crf.scaled Crf.pairwise Crf.msg Crf.probs Crf.expShift
  rfl

/-- The second iterate is one step from the first. -/
theorem iter2 (V0 : Valuation τ sig (Elt F)) :
    res_main_v36 V0 = Crf.step (V0 (Proc.devRef .tc main_arg0)) (V0 (Proc.devRef .tc main_arg1)) (res_main_v0 V0)
      (res_main_v18 V0) := by
  unfold res_main_v36 res_main_v25 Crf.step Crf.update Crf.scaled Crf.pairwise Crf.msg Crf.probs Crf.expShift
  rfl

/-- The third iterate is one step from the second. -/
theorem iter3 (V0 : Valuation τ sig (Elt F)) :
    res_main_v54 V0 = Crf.step (V0 (Proc.devRef .tc main_arg0)) (V0 (Proc.devRef .tc main_arg1)) (res_main_v0 V0)
      (res_main_v36 V0) := by
  unfold res_main_v54 res_main_v43 Crf.step Crf.update Crf.scaled Crf.pairwise Crf.msg Crf.probs Crf.expShift
  rfl

/-- The fourth iterate is one step from the third. -/
theorem iter4 (V0 : Valuation τ sig (Elt F)) :
    res_main_v72 V0 = Crf.step (V0 (Proc.devRef .tc main_arg0)) (V0 (Proc.devRef .tc main_arg1)) (res_main_v0 V0)
      (res_main_v54 V0) := by
  unfold res_main_v72 res_main_v61 Crf.step Crf.update Crf.scaled Crf.pairwise Crf.msg Crf.probs Crf.expShift
  rfl

/-- The fifth iterate is one step from the fourth. -/
theorem iter5 (V0 : Valuation τ sig (Elt F)) :
    res_main_v90 V0 = Crf.step (V0 (Proc.devRef .tc main_arg0)) (V0 (Proc.devRef .tc main_arg1)) (res_main_v0 V0)
      (res_main_v72 V0) := by
  unfold res_main_v90 res_main_v79 Crf.step Crf.update Crf.scaled Crf.pairwise Crf.msg Crf.probs Crf.expShift
  rfl

/-- The sixth iterate is one step from the fifth. -/
theorem iter6 (V0 : Valuation τ sig (Elt F)) :
    res_main_v108 V0 = Crf.step (V0 (Proc.devRef .tc main_arg0)) (V0 (Proc.devRef .tc main_arg1)) (res_main_v0 V0)
      (res_main_v90 V0) := by
  unfold res_main_v108 res_main_v97 Crf.step Crf.update Crf.scaled Crf.pairwise Crf.msg Crf.probs Crf.expShift
  rfl

/-- The seventh iterate is one step from the sixth. -/
theorem iter7 (V0 : Valuation τ sig (Elt F)) :
    res_main_v126 V0 = Crf.step (V0 (Proc.devRef .tc main_arg0)) (V0 (Proc.devRef .tc main_arg1)) (res_main_v0 V0)
      (res_main_v108 V0) := by
  unfold res_main_v126 res_main_v115 Crf.step Crf.update Crf.scaled Crf.pairwise Crf.msg Crf.probs Crf.expShift
  rfl

/-- The eighth iterate is one step from the seventh. -/
theorem iter8 (V0 : Valuation τ sig (Elt F)) :
    res_main_v144 V0 = Crf.step (V0 (Proc.devRef .tc main_arg0)) (V0 (Proc.devRef .tc main_arg1)) (res_main_v0 V0)
      (res_main_v126 V0) := by
  unfold res_main_v144 res_main_v133 Crf.step Crf.update Crf.scaled Crf.pairwise Crf.msg Crf.probs Crf.expShift
  rfl

/-- The ninth iterate is one step from the eighth. -/
theorem iter9 (V0 : Valuation τ sig (Elt F)) :
    res_main_v162 V0 = Crf.step (V0 (Proc.devRef .tc main_arg0)) (V0 (Proc.devRef .tc main_arg1)) (res_main_v0 V0)
      (res_main_v144 V0) := by
  unfold res_main_v162 res_main_v151 Crf.step Crf.update Crf.scaled Crf.pairwise Crf.msg Crf.probs Crf.expShift
  rfl

/-- The term the run leaves in the result buffer is one step from the ninth iterate. -/
theorem iter10 (V0 : Valuation τ sig (Elt F)) :
    subf (V0 (Proc.devRef .tc main_arg0)) (broadcastInDim S32x2048x601 ![0, 1, 2] bcast_S32x1x601_S32x2048x601_0_1_2 (broadcastInDim S32x1x601 ![0, 2] bcast_S32x601_S32x1x601_0_2 (mulf (broadcastInDim S32x601 ![] bcast_S_S32x601 (res_main_v0 V0)) (Host.dotGeneral dot_S32x601_S601x601_S32x601_1_0_0_1_n_n none (Host.reduce FloatOps.maximumf (Host.divf (res_main_v169 V0) (broadcastInDim S32x2048x601 ![0, 1, 2] bcast_S32x2048x1_S32x2048x601_0_1_2 (broadcastInDim S32x2048x1 ![0, 1] bcast_S32x2048_S32x2048x1_0_1 (Host.reduceAdd (res_main_v169 V0) (constant S_ .f32 0x00000000#32) reducesTo_S32x2048x601_S32x2048_d2 h_S_)))) (constant S_ .f32 0xFF800000#32) reducesTo_S32x2048x601_S32x601_d1 h_S_) (V0 (Proc.devRef .tc main_arg1))))))
      = Crf.step (V0 (Proc.devRef .tc main_arg0)) (V0 (Proc.devRef .tc main_arg1)) (res_main_v0 V0) (res_main_v162 V0) := by
  unfold res_main_v169 Crf.step Crf.update Crf.scaled Crf.pairwise Crf.msg Crf.probs Crf.expShift
  rfl

/-- The term the run leaves in the result buffer is the tenth iterate of the step from the unary scores. -/
theorem result_eq (V0 : Valuation τ sig (Elt F)) :
    subf (V0 (Proc.devRef .tc main_arg0)) (broadcastInDim S32x2048x601 ![0, 1, 2] bcast_S32x1x601_S32x2048x601_0_1_2 (broadcastInDim S32x1x601 ![0, 2] bcast_S32x601_S32x1x601_0_2 (mulf (broadcastInDim S32x601 ![] bcast_S_S32x601 (res_main_v0 V0)) (Host.dotGeneral dot_S32x601_S601x601_S32x601_1_0_0_1_n_n none (Host.reduce FloatOps.maximumf (Host.divf (res_main_v169 V0) (broadcastInDim S32x2048x601 ![0, 1, 2] bcast_S32x2048x1_S32x2048x601_0_1_2 (broadcastInDim S32x2048x1 ![0, 1] bcast_S32x2048_S32x2048x1_0_1 (Host.reduceAdd (res_main_v169 V0) (constant S_ .f32 0x00000000#32) reducesTo_S32x2048x601_S32x2048_d2 h_S_)))) (constant S_ .f32 0xFF800000#32) reducesTo_S32x2048x601_S32x601_d1 h_S_) (V0 (Proc.devRef .tc main_arg1))))))
      = Crf.crf10 (V0 (Proc.devRef .tc main_arg0)) (V0 (Proc.devRef .tc main_arg1)) (V0 (Proc.devRef .tc main_arg2)) := by
  rw [iter10 V0, iter9 V0, iter8 V0, iter7 V0, iter6 V0, iter5 V0, iter4 V0, iter3 V0, iter2 V0, iter1 V0, weight_eq V0]
  exact (iterate_ten _ _).symm

/-- Every weakly fair execution of the reference terminates with its result at the specification's tenth
    iterate of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180)
          = Cert.ReferenceIdeal.Crf.crf10 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq (StableHlo.launchContents m c)), (h c).2⟩)
    (Cert.ReferenceIdeal.Value.run m ρ)

/-- The reference's frame: every weakly fair execution terminates and leaves the three arguments unchanged. -/
theorem frame_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => (h c).2) (run m ρ)

end Cert.ReferenceIdeal.RefValue

end
-- ==== Proof.Claims.lean ====
/-
  The five claims of the certificate, assembled.

  Both programs refine class scores by ten mean-field steps: a step turns every proposal's scores into
  probabilities, takes for every image and class the greatest probability over the proposals, multiplies
  that message by the class-compatibility matrix, scales it by the influence weight and subtracts it from
  the unary scores. The kernel program does each step with two grid launches and one host multiplication;
  the reference does it with whole-array operations.

  Three facts are brought together here. The kernel program's run ends with every unscoped buffer at a
  known function of the launch memory. Read at the result buffer, and at the extended reals, that function
  is the specification's tenth iterate of the three argument arrays; read at an argument array it is the
  launch memory itself. The reference's run ends with its result at the same tenth iterate of its own
  arguments. From memories that agree on the arguments the two results are therefore one array, which is
  the witness of the value claim; the three frame claims are the runs with the result forgotten; and the
  idealization rewrote nothing, so there is nothing for it to preserve.
-/
import proofs.«121405_j17162689315290_1_alg».proof.Defs
import proofs.«121405_j17162689315290_1_alg».proof.Proof.KI.Run
import proofs.«121405_j17162689315290_1_alg».proof.Proof.KI.ValueChain
import proofs.«121405_j17162689315290_1_alg».proof.Proof.K.Run
import proofs.«121405_j17162689315290_1_alg».proof.Proof.RefRun
import proofs.«121405_j17162689315290_1_alg».proof.Proof.Gen.Kernel
import proofs.«121405_j17162689315290_1_alg».proof.Proof.Gen.KernelIdeal
import proofs.«121405_j17162689315290_1_alg».proof.Proof.Gen.ReferenceIdeal
import proofs.«121405_j17162689315290_1_alg».proof.Proof.Gen.Pre_finite_inputs

noncomputable section

namespace Cert.Proof.Claims

open Idealize.ShloMosaic Idealize.ShloMosaic.TcCoe Idealize.SL.Sem

/-! ## The kernel program's run at the exact instance, with its result named -/

section KernelValue

open Cert.KernelIdeal Cert.KernelIdeal.Frame

/-- Every weakly fair execution of the kernel program at the extended reals terminates with its result array at
    the specification's tenth iterate of the argument arrays, and the three argument arrays unchanged. -/
theorem kernel_value (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v40)
          = Cert.ReferenceIdeal.Crf.crf10 (F := Ideal) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.KernelIdeal.defs _ _).mono (fun r h c =>
    ⟨(h c _ (mem_uc main_v40 (by decide))).trans (W31_main_v40 m ρ c),
     (h c _ (mem_uc main_arg0 (by decide))).trans (W31_main_arg0 m ρ c),
     (h c _ (mem_uc main_arg1 (by decide))).trans (W31_main_arg1 m ρ c),
     (h c _ (mem_uc main_arg2 (by decide))).trans (W31_main_arg2 m ρ c)⟩) (run_all m ρ)

end KernelValue

/-! ## The five claims -/

/-- The word-level program terminates, faults nowhere and keeps its arguments. -/
theorem frame_k : Cert.frame_Kernel := fun m ρ _ => Cert.Kernel.Frame.frame_all m ρ

/-- So does the same program read at the extended reals. -/
theorem frame_ki : Cert.frame_KernelIdeal := fun m ρ _ => Cert.KernelIdeal.Frame.frame_all m ρ

/-- So does the reference. -/
theorem frame_ri : Cert.frame_ReferenceIdeal := fun m ρ _ => Cert.ReferenceIdeal.RefValue.frame_ref m ρ

/-- The idealization rewrote no operation: nothing to preserve. -/
theorem preserves : Cert.preserves_Kernel_KernelIdeal := trivial

/-- At the extended reals both programs end with the tenth mean-field iterate of the (agreeing) argument
    arrays in their result, and keep their arguments. -/
theorem algebraic : Cert.algebraic_KernelIdeal_ReferenceIdeal := by
  intro m ρ m' ρ' _ hagree
  refine ⟨fun c => Cert.ReferenceIdeal.Crf.crf10 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    kernel_value m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2]

end Cert.Proof.Claims

end
-- ==== Proof.lean ====
/-
  The certificate: a tiled mean-field refinement of class scores against its whole-array reference.

  The scores have shape images × proposals × classes (32 × 2048 × 601). One refinement step makes each
  proposal's row of scores into probabilities (exponentials of the scores less the row's greatest, over their
  sum), takes for each image and class the greatest probability over all proposals, multiplies that 32 × 601
  message by the 601 × 601 class-compatibility matrix, scales the product by a scalar weight, and subtracts
  the result, one row per image repeated over the proposals, from the unary scores; the computation is
  ten such steps starting from the unary scores.

  The kernel program does a step in two grid launches over 4 image tiles × 8 proposal tiles. The first
  computes a block's probabilities and folds their maximum over the block's 256 proposals into a running
  8 × 601 maximum that is reset to -∞ at the first proposal tile and carried across the eight; at the last
  tile it multiplies the running maximum by the compatibility matrix. Because a row's probabilities depend
  on that row alone, and because a maximum over 2048 proposals is the maximum of the maxima over eight
  groups of 256, the carried value after the eighth tile is exactly the message's rows for that image tile,
  and the product is the corresponding rows of the reference's product — on the extended reals, where
  maxima and sums are exact, with no finiteness needed. The second launch subtracts the scaled rows from
  the unary block; the host multiplies by the weight in between. Step by step the kernel program's
  buffers therefore hold the reference's iterates, and after ten steps its result is the reference's.

  Each program also terminates under every weakly fair schedule without a fault and leaves its three
  argument arrays as they were; for the kernel program this is shown once for any float instance and used
  both at the word level and at the extended reals. The idealized kernel is the kernel's own text, so the
  preservation claim is empty.
-/
import proofs.«121405_j17162689315290_1_alg».proof.Defs
import proofs.«121405_j17162689315290_1_alg».proof.Proof.Gen.Kernel
import proofs.«121405_j17162689315290_1_alg».proof.Proof.Gen.Kernel.Skeleton
import proofs.«121405_j17162689315290_1_alg».proof.Proof.Gen.Kernel.Launch
import proofs.«121405_j17162689315290_1_alg».proof.Proof.Gen.Kernel.Regions
import proofs.«121405_j17162689315290_1_alg».proof.Proof.Gen.Kernel.Points
import proofs.«121405_j17162689315290_1_alg».proof.Proof.Gen.KernelIdeal
import proofs.«121405_j17162689315290_1_alg».proof.Proof.Gen.KernelIdeal.Skeleton
import proofs.«121405_j17162689315290_1_alg».proof.Proof.Gen.KernelIdeal.Launch
import proofs.«121405_j17162689315290_1_alg».proof.Proof.Gen.KernelIdeal.Regions
import proofs.«121405_j17162689315290_1_alg».proof.Proof.Gen.KernelIdeal.Points
import proofs.«121405_j17162689315290_1_alg».proof.Proof.Gen.ReferenceIdeal
import proofs.«121405_j17162689315290_1_alg».proof.Proof.Gen.Pre_finite_inputs
import proofs.«121405_j17162689315290_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
